-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![1024, 1024]⟩ ⟨2, ![1024, 8192]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![1024, 1024]⟩ ⟨2, ![8192, 1024]⟩ 0 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![1024, 1024]⟩ ⟨2, ![1024, 8192]⟩ 1 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![1024, 1024]⟩ ⟨2, ![1024, 8192]⟩ 1 8 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v34) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S1x512x1024 : Shape := ⟨3, ![1, 512, 1024]⟩
abbrev S1024x1024 : Shape := ⟨2, ![1024, 1024]⟩
abbrev S_ : Shape := ⟨0, ![]⟩

class Facts : Prop where
  bcast_S_S1x512x1024 : S_.BroadcastsInDim S1x512x1024 (![] : Fin 0 → Fin S1x512x1024.rank)
  reducesTo_S1x512x1024_S_d0_1_2 : S1x512x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_arg4 : FVec F S1024x1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  main_v23

def fn {F : FTy → Type} [FloatOps F] (main_arg0 : FVec F S1x512x1024 .f32) (main_arg1 : FVec F S1024x1024 .f32) (main_arg2 : FVec F S1024x1024 .f32) (main_arg3 : FVec F S1024x1024 .f32) (main_arg4 : FVec F S1024x1024 .f32) : IVec S_ 1 :=
  let main_v0 : FVec F S1x512x1024 .f32 := Host.absf main_arg0
  let main_cst : FVec F S_ .f32 := constant S_ .f32 0x7F800000#32
  let main_v1 : FVec F S1x512x1024 .f32 := broadcastInDim S1x512x1024 ![] bcast_S_S1x512x1024 main_cst
  let main_v2 : IVec S1x512x1024 1 := cmpf .olt main_v0 main_v1
  let main_c : IVec S_ 1 := constantI S_ 1 1#1
  let main_v3 : IVec S_ 1 := (fun x v => Host.reduce IntOp.andi x v reducesTo_S1x512x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_v13 main_v16
-- ==== Pre_finite_inputs_ReferenceIdeal.lean ====
abbrev S1x512x1024 : Shape := ⟨3, ![1, 512, 1024]⟩
abbrev S1024x8192 : Shape := ⟨2, ![1024, 8192]⟩
abbrev S8192x1024 : Shape := ⟨2, ![8192, 1024]⟩
abbrev S_ : Shape := ⟨0, ![]⟩

class Facts : Prop where
  bcast_S_S1x512x1024 : S_.BroadcastsInDim S1x512x1024 (![] : Fin 0 → Fin S1x512x1024.rank)
  reducesTo_S1x512x1024_S_d0_1_2 : S1x512x1024.ReducesTo [0, 1, 2] S_
  h_S_ : 0 < S_.numel
  bcast_S_S1024x8192 : S_.BroadcastsInDim S1024x8192 (![] : Fin 0 → Fin S1024x8192.rank)
  reducesTo_S1024x8192_S_d0_1 : S1024x8192.ReducesTo [0, 1] S_
  bcast_S_S8192x1024 : S_.BroadcastsInDim S8192x1024 (![] : Fin 0 → Fin S8192x1024.rank)
  reducesTo_S8192x1024_S_d0_1 : S8192x1024.ReducesTo [0, 1] S_

variable [Facts]

def fn_part1 {F : FTy → Type} [FloatOps F] (main_arg4 : FVec F S1024x8192 .f32) (main_v13 : IVec S_ 1) (main_v16 : IVec S1024x8192 1) : IVec S_ 1 :=
  let main_c_5 : IVec S_ 1 := constantI S_ 1 1#1
  let main_v17 : IVec S_ 1 := (fun x v => Host.reduce IntOp.andi x v reducesTo_S1024x8192_S_d0_1 h_S_) main_v16 main_c_5
  let main_v18 : IVec S_ 1 := andi main_v13 main_v17
  let main_v19 : FVec F S1024x8192 .f32 := Host.absf main_arg4
  let main_cst_6 : FVec F S_ .f32 := constant S_ .f32 0x7F800000#32
  let main_v20 : FVec F S1024x8192 .f32 := broadcastInDim S1024x8192 ![] bcast_S_S1024x8192 main_cst_6
  let main_v21 : IVec S1024x8192 1 := cmpf .olt main_v19 main_v20
  let main_c_7 : IVec S_ 1 := constantI S_ 1 1#1
  let main_v22 : IVec S_ 1 := (fun x v => Host.reduce IntOp.andi x v reducesTo_S1024x8192_S_d0_1 h_S_) main_v21 main_c_7
  let main_v23 : IVec S_ 1 := andi main_v18 main_v22
  main_v23

def fn {F : FTy → Type} [FloatOps F] (main_arg0 : FVec F S1x512x1024 .f32) (main_arg1 : FVec F S1024x8192 .f32) (main_arg2 : FVec F S8192x1024 .f32) (main_arg3 : FVec F S1024x8192 .f32) (main_arg4 : FVec F S1024x8192 .f32) : IVec S_ 1 :=
  let main_v0 : FVec F S1x512x1024 .f32 := Host.absf main_arg0
  let main_cst : FVec F S_ .f32 := constant S_ .f32 0x7F800000#32
  let main_v1 : FVec F S1x512x1024 .f32 := broadcastInDim S1x512x1024 ![] bcast_S_S1x512x1024 main_cst
  let main_v2 : IVec S1x512x1024 1 := cmpf .olt main_v0 main_v1
  let main_c : IVec S_ 1 := constantI S_ 1 1#1
  let main_v3 : IVec S_ 1 := (fun x v => Host.reduce IntOp.andi x v reducesTo_S1x512x1024_S_d0_1_2 h_S_) main_v2 main_c
  let main_v4 : FVec F S1024x8192 .f32 := Host.absf main_arg1
  let main_cst_0 : FVec F S_ .f32 := constant S_ .f32 0x7F800000#32
  let main_v5 : FVec F S1024x8192 .f32 := broadcastInDim S1024x8192 ![] bcast_S_S1024x8192 main_cst_0
  let main_v6 : IVec S1024x8192 1 := cmpf .olt main_v4 main_v5
  let main_c_1 : IVec S_ 1 := constantI S_ 1 1#1
  let main_v7 : IVec S_ 1 := (fun x v => Host.reduce IntOp.andi x v reducesTo_S1024x8192_S_d0_1 h_S_) main_v6 main_c_1
  let main_v8 : IVec S_ 1 := andi main_v3 main_v7
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  let main_v14 : FVec F S1024x8192 .f32 := Host.absf main_arg3
  let main_cst_4 : FVec F S_ .f32 := constant S_ .f32 0x7F800000#32
  let main_v15 : FVec F S1024x8192 .f32 := broadcastInDim S1024x8192 ![] bcast_S_S1024x8192 main_cst_4
  let main_v16 : IVec S1024x8192 1 := cmpf .olt main_v14 main_v15
  fn_part1 (F := F) main_arg4 main_v13 main_v16
-- ==== Kernel.lean ====
abbrev S1x512x1024 : Shape := ⟨3, ![1, 512, 1024]⟩
abbrev S1024x1024 : Shape := ⟨2, ![1024, 1024]⟩
abbrev S512x1024 : Shape := ⟨2, ![512, 1024]⟩
abbrev S256x1024 : Shape := ⟨2, ![256, 1024]⟩
abbrev S128x1024 : Shape := ⟨2, ![128, 1024]⟩
abbrev S64x1024 : Shape := ⟨2, ![64, 1024]⟩
abbrev S18 : Shape := ⟨1, ![18]⟩
abbrev S_ : Shape := ⟨0, ![]⟩
abbrev S512x128 : Shape := ⟨2, ![512, 128]⟩
abbrev S512x512 : Shape := ⟨2, ![512, 512]⟩
abbrev S512 : Shape := ⟨1, ![512]⟩
abbrev S512x1 : Shape := ⟨2, ![512, 1]⟩
abbrev S1 : Shape := ⟨1, ![1]⟩
abbrev S32x1024 : Shape := ⟨2, ![32, 1024]⟩
abbrev S16x1024 : Shape := ⟨2, ![16, 1024]⟩

abbrev nBuf : Space → Nat
  | .hbm => 6
  | .vmem => 10
  | .smem => 0
  | _ => 0

abbrev bufTy : (tb : Table) → Fin (tcTables nBuf tb) → BufTy
  | .hbm, ⟨0, _⟩ => ⟨S1x512x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1x512x1024, .f32⟩
  | .local _ .vmem, ⟨0, _⟩ => ⟨S1x512x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1x512x1024, .f32⟩
  | .local _ .vmem, ⟨6, _⟩ => ⟨S512x1024, .bf16⟩
  | .local _ .vmem, ⟨7, _⟩ => ⟨S256x1024, .bf16⟩
  | .local _ .vmem, ⟨8, _⟩ => ⟨S128x1024, .bf16⟩
  | .local _ .vmem, ⟨9, _⟩ => ⟨S64x1024, .bf16⟩
  | _, _ => ⟨S1x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  { ofTc nBuf bufTy 1 42 bufScoped semScoped dmaSemScoped tileCredit tileCredit_eq_zero tileCredit_pos with
    barrierSem := RefSig.barrierTable [(0, 0)]
    barrierSem_unscoped := RefSig.barrierTable_unscoped [(0, 0)] semScoped rfl }

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.xori v2 c1_i32_0
  let c1_i32_2 : BitVec 32 := 1#32
  let v5 : BitVec 32 := Scalar.muli v4 c1_i32_2
  let v6 : BitVec 32 := Scalar.addi c0_i32 v5
  v6.toNat
def k0_dev2 (d0 : Dev nD) : Nat :=
  let c0_i32_5 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v7 : BitVec 32 := Scalar.xori v2 c3_i32
  let c1_i32_4 : BitVec 32 := 1#32
  let v8 : BitVec 32 := Scalar.muli v7 c1_i32_4
  let v9 : BitVec 32 := Scalar.addi c0_i32_5 v8
  v9.toNat
def k0_dev3 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v10 : BitVec 32 := Scalar.xori v2 c4_i32
  let c1_i32_7 : BitVec 32 := 1#32
  let v11 : BitVec 32 := Scalar.muli v10 c1_i32_7
  let v12 : BitVec 32 := Scalar.addi c0_i32_8 v11
  v12.toNat
def k0_off1 (d0 : Dev nD) : Fin 2 → Nat :=
  let c0_i32_71 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_59 : BitVec 32 := 0#32
  let v177 : BitVec 1 := Scalar.cmpi .sgt v2 c0_i32_59
  let v178 : BitVec 32 := Scalar.extui v177
  let c0_i32_60 : BitVec 32 := 0#32
  let v179 : BitVec 1 := Scalar.cmpi .slt v2 c0_i32_60
  let v180 : BitVec 32 := Scalar.extui v179
  let v181 : BitVec 32 := Scalar.subi v178 v180
  let c4_i32_58 : BitVec 32 := 4#32
  let c0_i32_61 : BitVec 32 := 0#32
  let v182 : BitVec 1 := Scalar.cmpi .sgt c4_i32_58 c0_i32_61
  let v183 : BitVec 32 := Scalar.extui v182
  let c0_i32_62 : BitVec 32 := 0#32
  let v184 : BitVec 1 := Scalar.cmpi .slt c4_i32_58 c0_i32_62
  let v185 : BitVec 32 := Scalar.extui v184
  let v186 : BitVec 32 := Scalar.subi v183 v185
  let v187 : BitVec 1 := Scalar.cmpi .ne v181 v186
  let v188 : BitVec 32 := Scalar.remsi v2 c4_i32_58
  let c0_i32_63 : BitVec 32 := 0#32
  let v189 : BitVec 1 := Scalar.cmpi .ne v188 c0_i32_63
  let v190 : BitVec 1 := Scalar.andi v187 v189
  let v176 : BitVec 32 := Scalar.divsi v2 c4_i32_58
  let c1_i32_64 : BitVec 32 := 1#32
  let v191 : BitVec 32 := Scalar.subi v176 c1_i32_64
  let v192 : BitVec 32 := Scalar.select v190 v191 v176
  let c1_i32_65 : BitVec 32 := 1#32
  let v193 : BitVec 32 := Scalar.andi v192 c1_i32_65
  let c1_i32_66 : BitVec 32 := 1#32
  let v194 : BitVec 1 := Scalar.cmpi .eq v193 c1_i32_66
  let c0_i32_69 : BitVec 32 := 0#32
  let c128_i32_70 : BitVec 32 := 128#32
  let v197 : BitVec 32 := Scalar.select v194 c0_i32_69 c128_i32_70
  let v198 : BitVec 32 := Scalar.addi c0_i32_71 v197
  let c0_i32_79 : BitVec 32 := 0#32
  ![v198.toNat, 0]
def k0_dev4 (d0 : Dev nD) : Nat :=
  let c0_i32_76 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_72 : BitVec 32 := 4#32
  let v199 : BitVec 32 := Scalar.xori v2 c4_i32_72
  let c1_i32_75 : BitVec 32 := 1#32
  let v200 : BitVec 32 := Scalar.muli v199 c1_i32_75
  let v201 : BitVec 32 := Scalar.addi c0_i32_76 v200
  v201.toNat
def k0_off2 (d0 : Dev nD) : Fin 2 → Nat :=
  let c256_i32_93 : BitVec 32 := 256#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_82 : BitVec 32 := 0#32
  let v215 : BitVec 1 := Scalar.cmpi .sgt v2 c0_i32_82
  let v216 : BitVec 32 := Scalar.extui v215
  let c0_i32_83 : BitVec 32 := 0#32
  let v217 : BitVec 1 := Scalar.cmpi .slt v2 c0_i32_83
  let v218 : BitVec 32 := Scalar.extui v217
  let v219 : BitVec 32 := Scalar.subi v216 v218
  let c2_i32 : BitVec 32 := 2#32
  let c0_i32_84 : BitVec 32 := 0#32
  let v220 : BitVec 1 := Scalar.cmpi .sgt c2_i32 c0_i32_84
  let v221 : BitVec 32 := Scalar.extui v220
  let c0_i32_85 : BitVec 32 := 0#32
  let v222 : BitVec 1 := Scalar.cmpi .slt c2_i32 c0_i32_85
  let v223 : BitVec 32 := Scalar.extui v222
  let v224 : BitVec 32 := Scalar.subi v221 v223
  let v225 : BitVec 1 := Scalar.cmpi .ne v219 v224
  let v226 : BitVec 32 := Scalar.remsi v2 c2_i32
  let c0_i32_86 : BitVec 32 := 0#32
  let v227 : BitVec 1 := Scalar.cmpi .ne v226 c0_i32_86
  let v228 : BitVec 1 := Scalar.andi v225 v227
  let v214 : BitVec 32 := Scalar.divsi v2 c2_i32
  let c1_i32_87 : BitVec 32 := 1#32
  let v229 : BitVec 32 := Scalar.subi v214 c1_i32_87
  let v230 : BitVec 32 := Scalar.select v228 v229 v214
  let c1_i32_88 : BitVec 32 := 1#32
  let v231 : BitVec 32 := Scalar.andi v230 c1_i32_88
  let c1_i32_89 : BitVec 32 := 1#32
  let v232 : BitVec 1 := Scalar.cmpi .eq v231 c1_i32_89
  let c0_i32_91 : BitVec 32 := 0#32
  let c64_i32_92 : BitVec 32 := 64#32
  let v235 : BitVec 32 := Scalar.select v232 c0_i32_91 c64_i32_92
  let v236 : BitVec 32 := Scalar.addi c256_i32_93 v235
  let c0_i32_101 : BitVec 32 := 0#32
  ![v236.toNat, 0]
def k0_dev5 (d0 : Dev nD) : Nat :=
  let c0_i32_98 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_94 : BitVec 32 := 3#32
  let v237 : BitVec 32 := Scalar.xori v2 c3_i32_94
  let c1_i32_97 : BitVec 32 := 1#32
  let v238 : BitVec 32 := Scalar.muli v237 c1_i32_97
  let v239 : BitVec 32 := Scalar.addi c0_i32_98 v238
  v239.toNat
def k0_off3 (d0 : Dev nD) : Fin 2 → Nat :=
  let c384_i32_117 : BitVec 32 := 384#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_105 : BitVec 32 := 0#32
  let v253 : BitVec 1 := Scalar.cmpi .sgt v2 c0_i32_105
  let v254 : BitVec 32 := Scalar.extui v253
  let c0_i32_106 : BitVec 32 := 0#32
  let v255 : BitVec 1 := Scalar.cmpi .slt v2 c0_i32_106
  let v256 : BitVec 32 := Scalar.extui v255
  let v257 : BitVec 32 := Scalar.subi v254 v256
  let c2_i32_104 : BitVec 32 := 2#32
  let c0_i32_107 : BitVec 32 := 0#32
  let v258 : BitVec 1 := Scalar.cmpi .sgt c2_i32_104 c0_i32_107
  let v259 : BitVec 32 := Scalar.extui v258
  let c0_i32_108 : BitVec 32 := 0#32
  let v260 : BitVec 1 := Scalar.cmpi .slt c2_i32_104 c0_i32_108
  let v261 : BitVec 32 := Scalar.extui v260
  let v262 : BitVec 32 := Scalar.subi v259 v261
  let v263 : BitVec 1 := Scalar.cmpi .ne v257 v262
  let v264 : BitVec 32 := Scalar.remsi v2 c2_i32_104
  let c0_i32_109 : BitVec 32 := 0#32
  let v265 : BitVec 1 := Scalar.cmpi .ne v264 c0_i32_109
  let v266 : BitVec 1 := Scalar.andi v263 v265
  let v252 : BitVec 32 := Scalar.divsi v2 c2_i32_104
  let c1_i32_110 : BitVec 32 := 1#32
  let v267 : BitVec 32 := Scalar.subi v252 c1_i32_110
  let v268 : BitVec 32 := Scalar.select v266 v267 v252
  let v269 : BitVec 32 := Scalar.xori v2 v268
  let c1_i32_111 : BitVec 32 := 1#32
  let v270 : BitVec 32 := Scalar.andi v269 c1_i32_111
  let c1_i32_112 : BitVec 32 := 1#32
  let v271 : BitVec 1 := Scalar.cmpi .eq v270 c1_i32_112
  let c0_i32_115 : BitVec 32 := 0#32
  let c64_i32_116 : BitVec 32 := 64#32
  let v274 : BitVec 32 := Scalar.select v271 c0_i32_115 c64_i32_116
  let v275 : BitVec 32 := Scalar.addi c384_i32_117 v274
  let c0_i32_124 : BitVec 32 := 0#32
  ![v275.toNat, 0]
def k0_dev6 (d0 : Dev nD) : Nat :=
  let c0_i32_122 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_118 : BitVec 32 := 1#32
  let v276 : BitVec 32 := Scalar.xori v2 c1_i32_118
  let c1_i32_121 : BitVec 32 := 1#32
  let v277 : BitVec 32 := Scalar.muli v276 c1_i32_121
  let v278 : BitVec 32 := Scalar.addi c0_i32_122 v277
  v278.toNat
def k0_off4 (d0 : Dev nD) : Fin 2 → Nat :=
  let c0_i32_68 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_59 : BitVec 32 := 0#32
  let v177 : BitVec 1 := Scalar.cmpi .sgt v2 c0_i32_59
  let v178 : BitVec 32 := Scalar.extui v177
  let c0_i32_60 : BitVec 32 := 0#32
  let v179 : BitVec 1 := Scalar.cmpi .slt v2 c0_i32_60
  let v180 : BitVec 32 := Scalar.extui v179
  let v181 : BitVec 32 := Scalar.subi v178 v180
  let c4_i32_58 : BitVec 32 := 4#32
  let c0_i32_61 : BitVec 32 := 0#32
  let v182 : BitVec 1 := Scalar.cmpi .sgt c4_i32_58 c0_i32_61
  let v183 : BitVec 32 := Scalar.extui v182
  let c0_i32_62 : BitVec 32 := 0#32
  let v184 : BitVec 1 := Scalar.cmpi .slt c4_i32_58 c0_i32_62
  let v185 : BitVec 32 := Scalar.extui v184
  let v186 : BitVec 32 := Scalar.subi v183 v185
  let v187 : BitVec 1 := Scalar.cmpi .ne v181 v186
  let v188 : BitVec 32 := Scalar.remsi v2 c4_i32_58
  let c0_i32_63 : BitVec 32 := 0#32
  let v189 : BitVec 1 := Scalar.cmpi .ne v188 c0_i32_63
  let v190 : BitVec 1 := Scalar.andi v187 v189
  let v176 : BitVec 32 := Scalar.divsi v2 c4_i32_58
  let c1_i32_64 : BitVec 32 := 1#32
  let v191 : BitVec 32 := Scalar.subi v176 c1_i32_64
  let v192 : BitVec 32 := Scalar.select v190 v191 v176
  let c1_i32_65 : BitVec 32 := 1#32
  let v193 : BitVec 32 := Scalar.andi v192 c1_i32_65
  let c1_i32_66 : BitVec 32 := 1#32
  let v194 : BitVec 1 := Scalar.cmpi .eq v193 c1_i32_66
  let c128_i32 : BitVec 32 := 128#32
  let c0_i32_67 : BitVec 32 := 0#32
  let v195 : BitVec 32 := Scalar.select v194 c128_i32 c0_i32_67
  let v196 : BitVec 32 := Scalar.addi c0_i32_68 v195
  let v295 : Index := Scalar.indexCast v196
  let c0_138 : Index := 0#32
  ![v295.toNat, 0]
def k0_off5 (d0 : Dev nD) : Fin 2 → Nat :=
  let c0_i32_68 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_59 : BitVec 32 := 0#32
  let v177 : BitVec 1 := Scalar.cmpi .sgt v2 c0_i32_59
  let v178 : BitVec 32 := Scalar.extui v177
  let c0_i32_60 : BitVec 32 := 0#32
  let v179 : BitVec 1 := Scalar.cmpi .slt v2 c0_i32_60
  let v180 : BitVec 32 := Scalar.extui v179
  let v181 : BitVec 32 := Scalar.subi v178 v180
  let c4_i32_58 : BitVec 32 := 4#32
  let c0_i32_61 : BitVec 32 := 0#32
  let v182 : BitVec 1 := Scalar.cmpi .sgt c4_i32_58 c0_i32_61
  let v183 : BitVec 32 := Scalar.extui v182
  let c0_i32_62 : BitVec 32 := 0#32
  let v184 : BitVec 1 := Scalar.cmpi .slt c4_i32_58 c0_i32_62
  let v185 : BitVec 32 := Scalar.extui v184
  let v186 : BitVec 32 := Scalar.subi v183 v185
  let v187 : BitVec 1 := Scalar.cmpi .ne v181 v186
  let v188 : BitVec 32 := Scalar.remsi v2 c4_i32_58
  let c0_i32_63 : BitVec 32 := 0#32
  let v189 : BitVec 1 := Scalar.cmpi .ne v188 c0_i32_63
  let v190 : BitVec 1 := Scalar.andi v187 v189
  let v176 : BitVec 32 := Scalar.divsi v2 c4_i32_58
  let c1_i32_64 : BitVec 32 := 1#32
  let v191 : BitVec 32 := Scalar.subi v176 c1_i32_64
  let v192 : BitVec 32 := Scalar.select v190 v191 v176
  let c1_i32_65 : BitVec 32 := 1#32
  let v193 : BitVec 32 := Scalar.andi v192 c1_i32_65
  let c1_i32_66 : BitVec 32 := 1#32
  let v194 : BitVec 1 := Scalar.cmpi .eq v193 c1_i32_66
  let c128_i32 : BitVec 32 := 128#32
  let c0_i32_67 : BitVec 32 := 0#32
  let v195 : BitVec 32 := Scalar.select v194 c128_i32 c0_i32_67
  let v196 : BitVec 32 := Scalar.addi c0_i32_68 v195
  let c0_i32_143 : BitVec 32 := 0#32
  let v304 : BitVec 1 := Scalar.cmpi .sgt v2 c0_i32_143
  let v305 : BitVec 32 := Scalar.extui v304
  let c0_i32_144 : BitVec 32 := 0#32
  let v306 : BitVec 1 := Scalar.cmpi .slt v2 c0_i32_144
  let v307 : BitVec 32 := Scalar.extui v306
  let v308 : BitVec 32 := Scalar.subi v305 v307
  let c2_i32_142 : BitVec 32 := 2#32
  let c0_i32_145 : BitVec 32 := 0#32
  let v309 : BitVec 1 := Scalar.cmpi .sgt c2_i32_142 c0_i32_145
  let v310 : BitVec 32 := Scalar.extui v309
  let c0_i32_146 : BitVec 32 := 0#32
  let v311 : BitVec 1 := Scalar.cmpi .slt c2_i32_142 c0_i32_146
  let v312 : BitVec 32 := Scalar.extui v311
  let v313 : BitVec 32 := Scalar.subi v310 v312
  let v314 : BitVec 1 := Scalar.cmpi .ne v308 v313
  let v315 : BitVec 32 := Scalar.remsi v2 c2_i32_142
  let c0_i32_147 : BitVec 32 := 0#32
  let v316 : BitVec 1 := Scalar.cmpi .ne v315 c0_i32_147
  let v317 : BitVec 1 := Scalar.andi v314 v316
  let v303 : BitVec 32 := Scalar.divsi v2 c2_i32_142
  let c1_i32_148 : BitVec 32 := 1#32
  let v318 : BitVec 32 := Scalar.subi v303 c1_i32_148
  let v319 : BitVec 32 := Scalar.select v317 v318 v303
  let c1_i32_149 : BitVec 32 := 1#32
  let v320 : BitVec 32 := Scalar.andi v319 c1_i32_149
  let c1_i32_150 : BitVec 32 := 1#32
  let v321 : BitVec 1 := Scalar.cmpi .eq v320 c1_i32_150
  let c0_i32_153 : BitVec 32 := 0#32
  let c64_i32_154 : BitVec 32 := 64#32
  let v324 : BitVec 32 := Scalar.select v321 c0_i32_153 c64_i32_154
  let v325 : BitVec 32 := Scalar.addi v196 v324
  let c0_i32_162 : BitVec 32 := 0#32
  ![v325.toNat, 0]
def k0_dev7 (d0 : Dev nD) : Nat :=
  let c0_i32_159 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_155 : BitVec 32 := 3#32
  let v326 : BitVec 32 := Scalar.xori v2 c3_i32_155
  let c1_i32_158 : BitVec 32 := 1#32
  let v327 : BitVec 32 := Scalar.muli v326 c1_i32_158
  let v328 : BitVec 32 := Scalar.addi c0_i32_159 v327
  v328.toNat
def k0_off6 (d0 : Dev nD) : Fin 2 → Nat :=
  let c256_i32 : BitVec 32 := 256#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_82 : BitVec 32 := 0#32
  let v215 : BitVec 1 := Scalar.cmpi .sgt v2 c0_i32_82
  let v216 : BitVec 32 := Scalar.extui v215
  let c0_i32_83 : BitVec 32 := 0#32
  let v217 : BitVec 1 := Scalar.cmpi .slt v2 c0_i32_83
  let v218 : BitVec 32 := Scalar.extui v217
  let v219 : BitVec 32 := Scalar.subi v216 v218
  let c2_i32 : BitVec 32 := 2#32
  let c0_i32_84 : BitVec 32 := 0#32
  let v220 : BitVec 1 := Scalar.cmpi .sgt c2_i32 c0_i32_84
  let v221 : BitVec 32 := Scalar.extui v220
  let c0_i32_85 : BitVec 32 := 0#32
  let v222 : BitVec 1 := Scalar.cmpi .slt c2_i32 c0_i32_85
  let v223 : BitVec 32 := Scalar.extui v222
  let v224 : BitVec 32 := Scalar.subi v221 v223
  let v225 : BitVec 1 := Scalar.cmpi .ne v219 v224
  let v226 : BitVec 32 := Scalar.remsi v2 c2_i32
  let c0_i32_86 : BitVec 32 := 0#32
  let v227 : BitVec 1 := Scalar.cmpi .ne v226 c0_i32_86
  let v228 : BitVec 1 := Scalar.andi v225 v227
  let v214 : BitVec 32 := Scalar.divsi v2 c2_i32
  let c1_i32_87 : BitVec 32 := 1#32
  let v229 : BitVec 32 := Scalar.subi v214 c1_i32_87
  let v230 : BitVec 32 := Scalar.select v228 v229 v214
  let c1_i32_88 : BitVec 32 := 1#32
  let v231 : BitVec 32 := Scalar.andi v230 c1_i32_88
  let c1_i32_89 : BitVec 32 := 1#32
  let v232 : BitVec 1 := Scalar.cmpi .eq v231 c1_i32_89
  let c64_i32 : BitVec 32 := 64#32
  let c0_i32_90 : BitVec 32 := 0#32
  let v233 : BitVec 32 := Scalar.select v232 c64_i32 c0_i32_90
  let v234 : BitVec 32 := Scalar.addi c256_i32 v233
  let v345 : Index := Scalar.indexCast v234
  let c0_176 : Index := 0#32
  ![v345.toNat, 0]
def k0_off7 (d0 : Dev nD) : Fin 2 → Nat :=
  let c256_i32 : BitVec 32 := 256#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_82 : BitVec 32 := 0#32
  let v215 : BitVec 1 := Scalar.cmpi .sgt v2 c0_i32_82
  let v216 : BitVec 32 := Scalar.extui v215
  let c0_i32_83 : BitVec 32 := 0#32
  let v217 : BitVec 1 := Scalar.cmpi .slt v2 c0_i32_83
  let v218 : BitVec 32 := Scalar.extui v217
  let v219 : BitVec 32 := Scalar.subi v216 v218
  let c2_i32 : BitVec 32 := 2#32
  let c0_i32_84 : BitVec 32 := 0#32
  let v220 : BitVec 1 := Scalar.cmpi .sgt c2_i32 c0_i32_84
  let v221 : BitVec 32 := Scalar.extui v220
  let c0_i32_85 : BitVec 32 := 0#32
  let v222 : BitVec 1 := Scalar.cmpi .slt c2_i32 c0_i32_85
  let v223 : BitVec 32 := Scalar.extui v222
  let v224 : BitVec 32 := Scalar.subi v221 v223
  let v225 : BitVec 1 := Scalar.cmpi .ne v219 v224
  let v226 : BitVec 32 := Scalar.remsi v2 c2_i32
  let c0_i32_86 : BitVec 32 := 0#32
  let v227 : BitVec 1 := Scalar.cmpi .ne v226 c0_i32_86
  let v228 : BitVec 1 := Scalar.andi v225 v227
  let v214 : BitVec 32 := Scalar.divsi v2 c2_i32
  let c1_i32_87 : BitVec 32 := 1#32
  let v229 : BitVec 32 := Scalar.subi v214 c1_i32_87
  let v230 : BitVec 32 := Scalar.select v228 v229 v214
  let c1_i32_88 : BitVec 32 := 1#32
  let v231 : BitVec 32 := Scalar.andi v230 c1_i32_88
  let c1_i32_89 : BitVec 32 := 1#32
  let v232 : BitVec 1 := Scalar.cmpi .eq v231 c1_i32_89
  let c64_i32 : BitVec 32 := 64#32
  let c0_i32_90 : BitVec 32 := 0#32
  let v233 : BitVec 32 := Scalar.select v232 c64_i32 c0_i32_90
  let v234 : BitVec 32 := Scalar.addi c256_i32 v233
  let c0_i32_180 : BitVec 32 := 0#32
  let v354 : BitVec 1 := Scalar.cmpi .sgt v2 c0_i32_180
  let v355 : BitVec 32 := Scalar.extui v354
  let c0_i32_181 : BitVec 32 := 0#32
  let v356 : BitVec 1 := Scalar.cmpi .slt v2 c0_i32_181
  let v357 : BitVec 32 := Scalar.extui v356
  let v358 : BitVec 32 := Scalar.subi v355 v357
  let c2_i32_179 : BitVec 32 := 2#32
  let c0_i32_182 : BitVec 32 := 0#32
  let v359 : BitVec 1 := Scalar.cmpi .sgt c2_i32_179 c0_i32_182
  let v360 : BitVec 32 := Scalar.extui v359
  let c0_i32_183 : BitVec 32 := 0#32
  let v361 : BitVec 1 := Scalar.cmpi .slt c2_i32_179 c0_i32_183
  let v362 : BitVec 32 := Scalar.extui v361
  let v363 : BitVec 32 := Scalar.subi v360 v362
  let v364 : BitVec 1 := Scalar.cmpi .ne v358 v363
  let v365 : BitVec 32 := Scalar.remsi v2 c2_i32_179
  let c0_i32_184 : BitVec 32 := 0#32
  let v366 : BitVec 1 := Scalar.cmpi .ne v365 c0_i32_184
  let v367 : BitVec 1 := Scalar.andi v364 v366
  let v353 : BitVec 32 := Scalar.divsi v2 c2_i32_179
  let c1_i32_185 : BitVec 32 := 1#32
  let v368 : BitVec 32 := Scalar.subi v353 c1_i32_185
  let v369 : BitVec 32 := Scalar.select v367 v368 v353
  let v370 : BitVec 32 := Scalar.xori v2 v369
  let c1_i32_186 : BitVec 32 := 1#32
  let v371 : BitVec 32 := Scalar.andi v370 c1_i32_186
  let c1_i32_187 : BitVec 32 := 1#32
  let v372 : BitVec 1 := Scalar.cmpi .eq v371 c1_i32_187
  let c0_i32_189 : BitVec 32 := 0#32
  let c32_i32_190 : BitVec 32 := 32#32
  let v375 : BitVec 32 := Scalar.select v372 c0_i32_189 c32_i32_190
  let v376 : BitVec 32 := Scalar.addi v234 v375
  let c0_i32_198 : BitVec 32 := 0#32
  ![v376.toNat, 0]
def k0_dev8 (d0 : Dev nD) : Nat :=
  let c0_i32_195 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_191 : BitVec 32 := 1#32
  let v377 : BitVec 32 := Scalar.xori v2 c1_i32_191
  let c1_i32_194 : BitVec 32 := 1#32
  let v378 : BitVec 32 := Scalar.muli v377 c1_i32_194
  let v379 : BitVec 32 := Scalar.addi c0_i32_195 v378
  v379.toNat
def k0_off8 (d0 : Dev nD) : Fin 2 → Nat :=
  let c384_i32 : BitVec 32 := 384#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_105 : BitVec 32 := 0#32
  let v253 : BitVec 1 := Scalar.cmpi .sgt v2 c0_i32_105
  let v254 : BitVec 32 := Scalar.extui v253
  let c0_i32_106 : BitVec 32 := 0#32
  let v255 : BitVec 1 := Scalar.cmpi .slt v2 c0_i32_106
  let v256 : BitVec 32 := Scalar.extui v255
  let v257 : BitVec 32 := Scalar.subi v254 v256
  let c2_i32_104 : BitVec 32 := 2#32
  let c0_i32_107 : BitVec 32 := 0#32
  let v258 : BitVec 1 := Scalar.cmpi .sgt c2_i32_104 c0_i32_107
  let v259 : BitVec 32 := Scalar.extui v258
  let c0_i32_108 : BitVec 32 := 0#32
  let v260 : BitVec 1 := Scalar.cmpi .slt c2_i32_104 c0_i32_108
  let v261 : BitVec 32 := Scalar.extui v260
  let v262 : BitVec 32 := Scalar.subi v259 v261
  let v263 : BitVec 1 := Scalar.cmpi .ne v257 v262
  let v264 : BitVec 32 := Scalar.remsi v2 c2_i32_104
  let c0_i32_109 : BitVec 32 := 0#32
  let v265 : BitVec 1 := Scalar.cmpi .ne v264 c0_i32_109
  let v266 : BitVec 1 := Scalar.andi v263 v265
  let v252 : BitVec 32 := Scalar.divsi v2 c2_i32_104
  let c1_i32_110 : BitVec 32 := 1#32
  let v267 : BitVec 32 := Scalar.subi v252 c1_i32_110
  let v268 : BitVec 32 := Scalar.select v266 v267 v252
  let v269 : BitVec 32 := Scalar.xori v2 v268
  let c1_i32_111 : BitVec 32 := 1#32
  let v270 : BitVec 32 := Scalar.andi v269 c1_i32_111
  let c1_i32_112 : BitVec 32 := 1#32
  let v271 : BitVec 1 := Scalar.cmpi .eq v270 c1_i32_112
  let c64_i32_113 : BitVec 32 := 64#32
  let c0_i32_114 : BitVec 32 := 0#32
  let v272 : BitVec 32 := Scalar.select v271 c64_i32_113 c0_i32_114
  let v273 : BitVec 32 := Scalar.addi c384_i32 v272
  let v396 : Index := Scalar.indexCast v273
  let c0_212 : Index := 0#32
  ![v396.toNat, 0]
def k0_off9 (d0 : Dev nD) : Fin 2 → Nat :=
  let c384_i32 : BitVec 32 := 384#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_105 : BitVec 32 := 0#32
  let v253 : BitVec 1 := Scalar.cmpi .sgt v2 c0_i32_105
  let v254 : BitVec 32 := Scalar.extui v253
  let c0_i32_106 : BitVec 32 := 0#32
  let v255 : BitVec 1 := Scalar.cmpi .slt v2 c0_i32_106
  let v256 : BitVec 32 := Scalar.extui v255
  let v257 : BitVec 32 := Scalar.subi v254 v256
  let c2_i32_104 : BitVec 32 := 2#32
  let c0_i32_107 : BitVec 32 := 0#32
  let v258 : BitVec 1 := Scalar.cmpi .sgt c2_i32_104 c0_i32_107
  let v259 : BitVec 32 := Scalar.extui v258
  let c0_i32_108 : BitVec 32 := 0#32
  let v260 : BitVec 1 := Scalar.cmpi .slt c2_i32_104 c0_i32_108
  let v261 : BitVec 32 := Scalar.extui v260
  let v262 : BitVec 32 := Scalar.subi v259 v261
  let v263 : BitVec 1 := Scalar.cmpi .ne v257 v262
  let v264 : BitVec 32 := Scalar.remsi v2 c2_i32_104
  let c0_i32_109 : BitVec 32 := 0#32
  let v265 : BitVec 1 := Scalar.cmpi .ne v264 c0_i32_109
  let v266 : BitVec 1 := Scalar.andi v263 v265
  let v252 : BitVec 32 := Scalar.divsi v2 c2_i32_104
  let c1_i32_110 : BitVec 32 := 1#32
  let v267 : BitVec 32 := Scalar.subi v252 c1_i32_110
  let v268 : BitVec 32 := Scalar.select v266 v267 v252
  let v269 : BitVec 32 := Scalar.xori v2 v268
  let c1_i32_111 : BitVec 32 := 1#32
  let v270 : BitVec 32 := Scalar.andi v269 c1_i32_111
  let c1_i32_112 : BitVec 32 := 1#32
  let v271 : BitVec 1 := Scalar.cmpi .eq v270 c1_i32_112
  let c64_i32_113 : BitVec 32 := 64#32
  let c0_i32_114 : BitVec 32 := 0#32
  let v272 : BitVec 32 := Scalar.select v271 c64_i32_113 c0_i32_114
  let v273 : BitVec 32 := Scalar.addi c384_i32 v272
  let c0_i32_216 : BitVec 32 := 0#32
  let v405 : BitVec 1 := Scalar.cmpi .sgt v2 c0_i32_216
  let v406 : BitVec 32 := Scalar.extui v405
  let c0_i32_217 : BitVec 32 := 0#32
  let v407 : BitVec 1 := Scalar.cmpi .slt v2 c0_i32_217
  let v408 : BitVec 32 := Scalar.extui v407
  let v409 : BitVec 32 := Scalar.subi v406 v408
  let c4_i32_215 : BitVec 32 := 4#32
  let c0_i32_218 : BitVec 32 := 0#32
  let v410 : BitVec 1 := Scalar.cmpi .sgt c4_i32_215 c0_i32_218
  let v411 : BitVec 32 := Scalar.extui v410
  let c0_i32_219 : BitVec 32 := 0#32
  let v412 : BitVec 1 := Scalar.cmpi .slt c4_i32_215 c0_i32_219
  let v413 : BitVec 32 := Scalar.extui v412
  let v414 : BitVec 32 := Scalar.subi v411 v413
  let v415 : BitVec 1 := Scalar.cmpi .ne v409 v414
  let v416 : BitVec 32 := Scalar.remsi v2 c4_i32_215
  let c0_i32_220 : BitVec 32 := 0#32
  let v417 : BitVec 1 := Scalar.cmpi .ne v416 c0_i32_220
  let v418 : BitVec 1 := Scalar.andi v415 v417
  let v404 : BitVec 32 := Scalar.divsi v2 c4_i32_215
  let c1_i32_221 : BitVec 32 := 1#32
  let v419 : BitVec 32 := Scalar.subi v404 c1_i32_221
  let v420 : BitVec 32 := Scalar.select v418 v419 v404
  let c1_i32_222 : BitVec 32 := 1#32
  let v421 : BitVec 32 := Scalar.andi v420 c1_i32_222
  let c1_i32_223 : BitVec 32 := 1#32
  let v422 : BitVec 1 := Scalar.cmpi .eq v421 c1_i32_223
  let c0_i32_226 : BitVec 32 := 0#32
  let c32_i32_227 : BitVec 32 := 32#32
  let v425 : BitVec 32 := Scalar.select v422 c0_i32_226 c32_i32_227
  let v426 : BitVec 32 := Scalar.addi v273 v425
  let c0_i32_233 : BitVec 32 := 0#32
  ![v426.toNat, 0]
def k0_dev9 (d0 : Dev nD) : Nat :=
  let c0_i32_231 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_228 : BitVec 32 := 4#32
  let v427 : BitVec 32 := Scalar.xori v2 c4_i32_228
  let c1_i32_230 : BitVec 32 := 1#32
  let v428 : BitVec 32 := Scalar.muli v427 c1_i32_230
  let v429 : BitVec 32 := Scalar.addi c0_i32_231 v428
  v429.toNat
def k0_off10 (d0 : Dev nD) : Fin 2 → Nat :=
  let c0_i32_68 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_59 : BitVec 32 := 0#32
  let v177 : BitVec 1 := Scalar.cmpi .sgt v2 c0_i32_59
  let v178 : BitVec 32 := Scalar.extui v177
  let c0_i32_60 : BitVec 32 := 0#32
  let v179 : BitVec 1 := Scalar.cmpi .slt v2 c0_i32_60
  let v180 : BitVec 32 := Scalar.extui v179
  let v181 : BitVec 32 := Scalar.subi v178 v180
  let c4_i32_58 : BitVec 32 := 4#32
  let c0_i32_61 : BitVec 32 := 0#32
  let v182 : BitVec 1 := Scalar.cmpi .sgt c4_i32_58 c0_i32_61
  let v183 : BitVec 32 := Scalar.extui v182
  let c0_i32_62 : BitVec 32 := 0#32
  let v184 : BitVec 1 := Scalar.cmpi .slt c4_i32_58 c0_i32_62
  let v185 : BitVec 32 := Scalar.extui v184
  let v186 : BitVec 32 := Scalar.subi v183 v185
  let v187 : BitVec 1 := Scalar.cmpi .ne v181 v186
  let v188 : BitVec 32 := Scalar.remsi v2 c4_i32_58
  let c0_i32_63 : BitVec 32 := 0#32
  let v189 : BitVec 1 := Scalar.cmpi .ne v188 c0_i32_63
  let v190 : BitVec 1 := Scalar.andi v187 v189
  let v176 : BitVec 32 := Scalar.divsi v2 c4_i32_58
  let c1_i32_64 : BitVec 32 := 1#32
  let v191 : BitVec 32 := Scalar.subi v176 c1_i32_64
  let v192 : BitVec 32 := Scalar.select v190 v191 v176
  let c1_i32_65 : BitVec 32 := 1#32
  let v193 : BitVec 32 := Scalar.andi v192 c1_i32_65
  let c1_i32_66 : BitVec 32 := 1#32
  let v194 : BitVec 1 := Scalar.cmpi .eq v193 c1_i32_66
  let c128_i32 : BitVec 32 := 128#32
  let c0_i32_67 : BitVec 32 := 0#32
  let v195 : BitVec 32 := Scalar.select v194 c128_i32 c0_i32_67
  let v196 : BitVec 32 := Scalar.addi c0_i32_68 v195
  let c0_i32_143 : BitVec 32 := 0#32
  let v304 : BitVec 1 := Scalar.cmpi .sgt v2 c0_i32_143
  let v305 : BitVec 32 := Scalar.extui v304
  let c0_i32_144 : BitVec 32 := 0#32
  let v306 : BitVec 1 := Scalar.cmpi .slt v2 c0_i32_144
  let v307 : BitVec 32 := Scalar.extui v306
  let v308 : BitVec 32 := Scalar.subi v305 v307
  let c2_i32_142 : BitVec 32 := 2#32
  let c0_i32_145 : BitVec 32 := 0#32
  let v309 : BitVec 1 := Scalar.cmpi .sgt c2_i32_142 c0_i32_145
  let v310 : BitVec 32 := Scalar.extui v309
  let c0_i32_146 : BitVec 32 := 0#32
  let v311 : BitVec 1 := Scalar.cmpi .slt c2_i32_142 c0_i32_146
  let v312 : BitVec 32 := Scalar.extui v311
  let v313 : BitVec 32 := Scalar.subi v310 v312
  let v314 : BitVec 1 := Scalar.cmpi .ne v308 v313
  let v315 : BitVec 32 := Scalar.remsi v2 c2_i32_142
  let c0_i32_147 : BitVec 32 := 0#32
  let v316 : BitVec 1 := Scalar.cmpi .ne v315 c0_i32_147
  let v317 : BitVec 1 := Scalar.andi v314 v316
  let v303 : BitVec 32 := Scalar.divsi v2 c2_i32_142
  let c1_i32_148 : BitVec 32 := 1#32
  let v318 : BitVec 32 := Scalar.subi v303 c1_i32_148
  let v319 : BitVec 32 := Scalar.select v317 v318 v303
  let c1_i32_149 : BitVec 32 := 1#32
  let v320 : BitVec 32 := Scalar.andi v319 c1_i32_149
  let c1_i32_150 : BitVec 32 := 1#32
  let v321 : BitVec 1 := Scalar.cmpi .eq v320 c1_i32_150
  let c64_i32_151 : BitVec 32 := 64#32
  let c0_i32_152 : BitVec 32 := 0#32
  let v322 : BitVec 32 := Scalar.select v321 c64_i32_151 c0_i32_152
  let v323 : BitVec 32 := Scalar.addi v196 v322
  let v446 : Index := Scalar.indexCast v323
  let c0_247 : Index := 0#32
  ![v446.toNat, 0]
def k0_off11 (d0 : Dev nD) (c0_i32_262 : BitVec 32) (c32_i32_263 : BitVec 32) : Fin 2 → Nat :=
  let c0_i32_68 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_59 : BitVec 32 := 0#32
  let v177 : BitVec 1 := Scalar.cmpi .sgt v2 c0_i32_59
  let v178 : BitVec 32 := Scalar.extui v177
  let c0_i32_60 : BitVec 32 := 0#32
  let v179 : BitVec 1 := Scalar.cmpi .slt v2 c0_i32_60
  let v180 : BitVec 32 := Scalar.extui v179
  let v181 : BitVec 32 := Scalar.subi v178 v180
  let c4_i32_58 : BitVec 32 := 4#32
  let c0_i32_61 : BitVec 32 := 0#32
  let v182 : BitVec 1 := Scalar.cmpi .sgt c4_i32_58 c0_i32_61
  let v183 : BitVec 32 := Scalar.extui v182
  let c0_i32_62 : BitVec 32 := 0#32
  let v184 : BitVec 1 := Scalar.cmpi .slt c4_i32_58 c0_i32_62
  let v185 : BitVec 32 := Scalar.extui v184
  let v186 : BitVec 32 := Scalar.subi v183 v185
  let v187 : BitVec 1 := Scalar.cmpi .ne v181 v186
  let v188 : BitVec 32 := Scalar.remsi v2 c4_i32_58
  let c0_i32_63 : BitVec 32 := 0#32
  let v189 : BitVec 1 := Scalar.cmpi .ne v188 c0_i32_63
  let v190 : BitVec 1 := Scalar.andi v187 v189
  let v176 : BitVec 32 := Scalar.divsi v2 c4_i32_58
  let c1_i32_64 : BitVec 32 := 1#32
  let v191 : BitVec 32 := Scalar.subi v176 c1_i32_64
  let v192 : BitVec 32 := Scalar.select v190 v191 v176
  let c1_i32_65 : BitVec 32 := 1#32
  let v193 : BitVec 32 := Scalar.andi v192 c1_i32_65
  let c1_i32_66 : BitVec 32 := 1#32
  let v194 : BitVec 1 := Scalar.cmpi .eq v193 c1_i32_66
  let c128_i32 : BitVec 32 := 128#32
  let c0_i32_67 : BitVec 32 := 0#32
  let v195 : BitVec 32 := Scalar.select v194 c128_i32 c0_i32_67
  let v196 : BitVec 32 := Scalar.addi c0_i32_68 v195
  let c0_i32_143 : BitVec 32 := 0#32
  let v304 : BitVec 1 := Scalar.cmpi .sgt v2 c0_i32_143
  let v305 : BitVec 32 := Scalar.extui v304
  let c0_i32_144 : BitVec 32 := 0#32
  let v306 : BitVec 1 := Scalar.cmpi .slt v2 c0_i32_144
  let v307 : BitVec 32 := Scalar.extui v306
  let v308 : BitVec 32 := Scalar.subi v305 v307
  let c2_i32_142 : BitVec 32 := 2#32
  let c0_i32_145 : BitVec 32 := 0#32
  let v309 : BitVec 1 := Scalar.cmpi .sgt c2_i32_142 c0_i32_145
  let v310 : BitVec 32 := Scalar.extui v309
  let c0_i32_146 : BitVec 32 := 0#32
  let v311 : BitVec 1 := Scalar.cmpi .slt c2_i32_142 c0_i32_146
  let v312 : BitVec 32 := Scalar.extui v311
  let v313 : BitVec 32 := Scalar.subi v310 v312
  let v314 : BitVec 1 := Scalar.cmpi .ne v308 v313
  let v315 : BitVec 32 := Scalar.remsi v2 c2_i32_142
  let c0_i32_147 : BitVec 32 := 0#32
  let v316 : BitVec 1 := Scalar.cmpi .ne v315 c0_i32_147
  let v317 : BitVec 1 := Scalar.andi v314 v316
  let v303 : BitVec 32 := Scalar.divsi v2 c2_i32_142
  let c1_i32_148 : BitVec 32 := 1#32
  let v318 : BitVec 32 := Scalar.subi v303 c1_i32_148
  let v319 : BitVec 32 := Scalar.select v317 v318 v303
  let c1_i32_149 : BitVec 32 := 1#32
  let v320 : BitVec 32 := Scalar.andi v319 c1_i32_149
  let c1_i32_150 : BitVec 32 := 1#32
  let v321 : BitVec 1 := Scalar.cmpi .eq v320 c1_i32_150
  let c64_i32_151 : BitVec 32 := 64#32
  let c0_i32_152 : BitVec 32 := 0#32
  let v322 : BitVec 32 := Scalar.select v321 c64_i32_151 c0_i32_152
  let v323 : BitVec 32 := Scalar.addi v196 v322
  let c0_i32_252 : BitVec 32 := 0#32
  let v455 : BitVec 1 := Scalar.cmpi .sgt v2 c0_i32_252
  let v456 : BitVec 32 := Scalar.extui v455
  let c0_i32_253 : BitVec 32 := 0#32
  let v457 : BitVec 1 := Scalar.cmpi .slt v2 c0_i32_253
  let v458 : BitVec 32 := Scalar.extui v457
  let v459 : BitVec 32 := Scalar.subi v456 v458
  let c2_i32_251 : BitVec 32 := 2#32
  let c0_i32_254 : BitVec 32 := 0#32
  let v460 : BitVec 1 := Scalar.cmpi .sgt c2_i32_251 c0_i32_254
  let v461 : BitVec 32 := Scalar.extui v460
  let c0_i32_255 : BitVec 32 := 0#32
  let v462 : BitVec 1 := Scalar.cmpi .slt c2_i32_251 c0_i32_255
  let v463 : BitVec 32 := Scalar.extui v462
  let v464 : BitVec 32 := Scalar.subi v461 v463
  let v465 : BitVec 1 := Scalar.cmpi .ne v459 v464
  let v466 : BitVec 32 := Scalar.remsi v2 c2_i32_251
  let c0_i32_256 : BitVec 32 := 0#32
  let v467 : BitVec 1 := Scalar.cmpi .ne v466 c0_i32_256
  let v468 : BitVec 1 := Scalar.andi v465 v467
  let v454 : BitVec 32 := Scalar.divsi v2 c2_i32_251
  let c1_i32_257 : BitVec 32 := 1#32
  let v469 : BitVec 32 := Scalar.subi v454 c1_i32_257
  let v470 : BitVec 32 := Scalar.select v468 v469 v454
  let v471 : BitVec 32 := Scalar.xori v2 v470
  let c1_i32_258 : BitVec 32 := 1#32
  let v472 : BitVec 32 := Scalar.andi v471 c1_i32_258
  let c1_i32_259 : BitVec 32 := 1#32
  let v473 : BitVec 1 := Scalar.cmpi .eq v472 c1_i32_259
  let v476 : BitVec 32 := Scalar.select v473 c0_i32_262 c32_i32_263
  let v477 : BitVec 32 := Scalar.addi v323 v476
  let c0_i32_270 : BitVec 32 := 0#32
  ![v477.toNat, 0]
def k0_off11_at (r : Fin 2) : BitVec 32 × BitVec 32 :=
  if r.val < 1 then
    (0#32, 32#32)
  else
    (32#32, 0#32)
def k0_dev10 (d0 : Dev nD) : Nat :=
  let c0_i32_267 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_264 : BitVec 32 := 1#32
  let v478 : BitVec 32 := Scalar.xori v2 c1_i32_264
  let c1_i32_266 : BitVec 32 := 1#32
  let v479 : BitVec 32 := Scalar.muli v478 c1_i32_266
  let v480 : BitVec 32 := Scalar.addi c0_i32_267 v479
  v480.toNat
def k0_off12 (d0 : Dev nD) : Fin 2 → Nat :=
  let c256_i32 : BitVec 32 := 256#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_82 : BitVec 32 := 0#32
  let v215 : BitVec 1 := Scalar.cmpi .sgt v2 c0_i32_82
  let v216 : BitVec 32 := Scalar.extui v215
  let c0_i32_83 : BitVec 32 := 0#32
  let v217 : BitVec 1 := Scalar.cmpi .slt v2 c0_i32_83
  let v218 : BitVec 32 := Scalar.extui v217
  let v219 : BitVec 32 := Scalar.subi v216 v218
  let c2_i32 : BitVec 32 := 2#32
  let c0_i32_84 : BitVec 32 := 0#32
  let v220 : BitVec 1 := Scalar.cmpi .sgt c2_i32 c0_i32_84
  let v221 : BitVec 32 := Scalar.extui v220
  let c0_i32_85 : BitVec 32 := 0#32
  let v222 : BitVec 1 := Scalar.cmpi .slt c2_i32 c0_i32_85
  let v223 : BitVec 32 := Scalar.extui v222
  let v224 : BitVec 32 := Scalar.subi v221 v223
  let v225 : BitVec 1 := Scalar.cmpi .ne v219 v224
  let v226 : BitVec 32 := Scalar.remsi v2 c2_i32
  let c0_i32_86 : BitVec 32 := 0#32
  let v227 : BitVec 1 := Scalar.cmpi .ne v226 c0_i32_86
  let v228 : BitVec 1 := Scalar.andi v225 v227
  let v214 : BitVec 32 := Scalar.divsi v2 c2_i32
  let c1_i32_87 : BitVec 32 := 1#32
  let v229 : BitVec 32 := Scalar.subi v214 c1_i32_87
  let v230 : BitVec 32 := Scalar.select v228 v229 v214
  let c1_i32_88 : BitVec 32 := 1#32
  let v231 : BitVec 32 := Scalar.andi v230 c1_i32_88
  let c1_i32_89 : BitVec 32 := 1#32
  let v232 : BitVec 1 := Scalar.cmpi .eq v231 c1_i32_89
  let c64_i32 : BitVec 32 := 64#32
  let c0_i32_90 : BitVec 32 := 0#32
  let v233 : BitVec 32 := Scalar.select v232 c64_i32 c0_i32_90
  let v234 : BitVec 32 := Scalar.addi c256_i32 v233
  let c0_i32_180 : BitVec 32 := 0#32
  let v354 : BitVec 1 := Scalar.cmpi .sgt v2 c0_i32_180
  let v355 : BitVec 32 := Scalar.extui v354
  let c0_i32_181 : BitVec 32 := 0#32
  let v356 : BitVec 1 := Scalar.cmpi .slt v2 c0_i32_181
  let v357 : BitVec 32 := Scalar.extui v356
  let v358 : BitVec 32 := Scalar.subi v355 v357
  let c2_i32_179 : BitVec 32 := 2#32
  let c0_i32_182 : BitVec 32 := 0#32
  let v359 : BitVec 1 := Scalar.cmpi .sgt c2_i32_179 c0_i32_182
  let v360 : BitVec 32 := Scalar.extui v359
  let c0_i32_183 : BitVec 32 := 0#32
  let v361 : BitVec 1 := Scalar.cmpi .slt c2_i32_179 c0_i32_183
  let v362 : BitVec 32 := Scalar.extui v361
  let v363 : BitVec 32 := Scalar.subi v360 v362
  let v364 : BitVec 1 := Scalar.cmpi .ne v358 v363
  let v365 : BitVec 32 := Scalar.remsi v2 c2_i32_179
  let c0_i32_184 : BitVec 32 := 0#32
  let v366 : BitVec 1 := Scalar.cmpi .ne v365 c0_i32_184
  let v367 : BitVec 1 := Scalar.andi v364 v366
  let v353 : BitVec 32 := Scalar.divsi v2 c2_i32_179
  let c1_i32_185 : BitVec 32 := 1#32
  let v368 : BitVec 32 := Scalar.subi v353 c1_i32_185
  let v369 : BitVec 32 := Scalar.select v367 v368 v353
  let v370 : BitVec 32 := Scalar.xori v2 v369
  let c1_i32_186 : BitVec 32 := 1#32
  let v371 : BitVec 32 := Scalar.andi v370 c1_i32_186
  let c1_i32_187 : BitVec 32 := 1#32
  let v372 : BitVec 1 := Scalar.cmpi .eq v371 c1_i32_187
  let c32_i32 : BitVec 32 := 32#32
  let c0_i32_188 : BitVec 32 := 0#32
  let v373 : BitVec 32 := Scalar.select v372 c32_i32 c0_i32_188
  let v374 : BitVec 32 := Scalar.addi v234 v373
  let v497 : Index := Scalar.indexCast v374
  let c0_284 : Index := 0#32
  ![v497.toNat, 0]
def k0_off13 (d0 : Dev nD) (c0_i32_297 : BitVec 32) (c16_i32_298 : BitVec 32) : Fin 2 → Nat :=
  let c256_i32 : BitVec 32 := 256#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_82 : BitVec 32 := 0#32
  let v215 : BitVec 1 := Scalar.cmpi .sgt v2 c0_i32_82
  let v216 : BitVec 32 := Scalar.extui v215
  let c0_i32_83 : BitVec 32 := 0#32
  let v217 : BitVec 1 := Scalar.cmpi .slt v2 c0_i32_83
  let v218 : BitVec 32 := Scalar.extui v217
  let v219 : BitVec 32 := Scalar.subi v216 v218
  let c2_i32 : BitVec 32 := 2#32
  let c0_i32_84 : BitVec 32 := 0#32
  let v220 : BitVec 1 := Scalar.cmpi .sgt c2_i32 c0_i32_84
  let v221 : BitVec 32 := Scalar.extui v220
  let c0_i32_85 : BitVec 32 := 0#32
  let v222 : BitVec 1 := Scalar.cmpi .slt c2_i32 c0_i32_85
  let v223 : BitVec 32 := Scalar.extui v222
  let v224 : BitVec 32 := Scalar.subi v221 v223
  let v225 : BitVec 1 := Scalar.cmpi .ne v219 v224
  let v226 : BitVec 32 := Scalar.remsi v2 c2_i32
  let c0_i32_86 : BitVec 32 := 0#32
  let v227 : BitVec 1 := Scalar.cmpi .ne v226 c0_i32_86
  let v228 : BitVec 1 := Scalar.andi v225 v227
  let v214 : BitVec 32 := Scalar.divsi v2 c2_i32
  let c1_i32_87 : BitVec 32 := 1#32
  let v229 : BitVec 32 := Scalar.subi v214 c1_i32_87
  let v230 : BitVec 32 := Scalar.select v228 v229 v214
  let c1_i32_88 : BitVec 32 := 1#32
  let v231 : BitVec 32 := Scalar.andi v230 c1_i32_88
  let c1_i32_89 : BitVec 32 := 1#32
  let v232 : BitVec 1 := Scalar.cmpi .eq v231 c1_i32_89
  let c64_i32 : BitVec 32 := 64#32
  let c0_i32_90 : BitVec 32 := 0#32
  let v233 : BitVec 32 := Scalar.select v232 c64_i32 c0_i32_90
  let v234 : BitVec 32 := Scalar.addi c256_i32 v233
  let c0_i32_180 : BitVec 32 := 0#32
  let v354 : BitVec 1 := Scalar.cmpi .sgt v2 c0_i32_180
  let v355 : BitVec 32 := Scalar.extui v354
  let c0_i32_181 : BitVec 32 := 0#32
  let v356 : BitVec 1 := Scalar.cmpi .slt v2 c0_i32_181
  let v357 : BitVec 32 := Scalar.extui v356
  let v358 : BitVec 32 := Scalar.subi v355 v357
  let c2_i32_179 : BitVec 32 := 2#32
  let c0_i32_182 : BitVec 32 := 0#32
  let v359 : BitVec 1 := Scalar.cmpi .sgt c2_i32_179 c0_i32_182
  let v360 : BitVec 32 := Scalar.extui v359
  let c0_i32_183 : BitVec 32 := 0#32
  let v361 : BitVec 1 := Scalar.cmpi .slt c2_i32_179 c0_i32_183
  let v362 : BitVec 32 := Scalar.extui v361
  let v363 : BitVec 32 := Scalar.subi v360 v362
  let v364 : BitVec 1 := Scalar.cmpi .ne v358 v363
  let v365 : BitVec 32 := Scalar.remsi v2 c2_i32_179
  let c0_i32_184 : BitVec 32 := 0#32
  let v366 : BitVec 1 := Scalar.cmpi .ne v365 c0_i32_184
  let v367 : BitVec 1 := Scalar.andi v364 v366
  let v353 : BitVec 32 := Scalar.divsi v2 c2_i32_179
  let c1_i32_185 : BitVec 32 := 1#32
  let v368 : BitVec 32 := Scalar.subi v353 c1_i32_185
  let v369 : BitVec 32 := Scalar.select v367 v368 v353
  let v370 : BitVec 32 := Scalar.xori v2 v369
  let c1_i32_186 : BitVec 32 := 1#32
  let v371 : BitVec 32 := Scalar.andi v370 c1_i32_186
  let c1_i32_187 : BitVec 32 := 1#32
  let v372 : BitVec 1 := Scalar.cmpi .eq v371 c1_i32_187
  let c32_i32 : BitVec 32 := 32#32
  let c0_i32_188 : BitVec 32 := 0#32
  let v373 : BitVec 32 := Scalar.select v372 c32_i32 c0_i32_188
  let v374 : BitVec 32 := Scalar.addi v234 v373
  let c0_i32_288 : BitVec 32 := 0#32
  let v506 : BitVec 1 := Scalar.cmpi .sgt v2 c0_i32_288
  let v507 : BitVec 32 := Scalar.extui v506
  let c0_i32_289 : BitVec 32 := 0#32
  let v508 : BitVec 1 := Scalar.cmpi .slt v2 c0_i32_289
  let v509 : BitVec 32 := Scalar.extui v508
  let v510 : BitVec 32 := Scalar.subi v507 v509
  let c4_i32_287 : BitVec 32 := 4#32
  let c0_i32_290 : BitVec 32 := 0#32
  let v511 : BitVec 1 := Scalar.cmpi .sgt c4_i32_287 c0_i32_290
  let v512 : BitVec 32 := Scalar.extui v511
  let c0_i32_291 : BitVec 32 := 0#32
  let v513 : BitVec 1 := Scalar.cmpi .slt c4_i32_287 c0_i32_291
  let v514 : BitVec 32 := Scalar.extui v513
  let v515 : BitVec 32 := Scalar.subi v512 v514
  let v516 : BitVec 1 := Scalar.cmpi .ne v510 v515
  let v517 : BitVec 32 := Scalar.remsi v2 c4_i32_287
  let c0_i32_292 : BitVec 32 := 0#32
  let v518 : BitVec 1 := Scalar.cmpi .ne v517 c0_i32_292
  let v519 : BitVec 1 := Scalar.andi v516 v518
  let v505 : BitVec 32 := Scalar.divsi v2 c4_i32_287
  let c1_i32_293 : BitVec 32 := 1#32
  let v520 : BitVec 32 := Scalar.subi v505 c1_i32_293
  let v521 : BitVec 32 := Scalar.select v519 v520 v505
  let c1_i32_294 : BitVec 32 := 1#32
  let v522 : BitVec 32 := Scalar.andi v521 c1_i32_294
  let c1_i32_295 : BitVec 32 := 1#32
  let v523 : BitVec 1 := Scalar.cmpi .eq v522 c1_i32_295
  let v526 : BitVec 32 := Scalar.select v523 c0_i32_297 c16_i32_298
  let v527 : BitVec 32 := Scalar.addi v374 v526
  let c0_i32_305 : BitVec 32 := 0#32
  ![v527.toNat, 0]
def k0_off13_at (r : Fin 2) : BitVec 32 × BitVec 32 :=
  if r.val < 1 then
    (0#32, 16#32)
  else
    (16#32, 0#32)
def k0_dev11 (d0 : Dev nD) : Nat :=
  let c0_i32_302 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_299 : BitVec 32 := 4#32
  let v528 : BitVec 32 := Scalar.xori v2 c4_i32_299
  let c1_i32_301 : BitVec 32 := 1#32
  let v529 : BitVec 32 := Scalar.muli v528 c1_i32_301
  let v530 : BitVec 32 := Scalar.addi c0_i32_302 v529
  v530.toNat
def k0_off14 (d0 : Dev nD) : Fin 2 → Nat :=
  let c384_i32 : BitVec 32 := 384#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_105 : BitVec 32 := 0#32
  let v253 : BitVec 1 := Scalar.cmpi .sgt v2 c0_i32_105
  let v254 : BitVec 32 := Scalar.extui v253
  let c0_i32_106 : BitVec 32 := 0#32
  let v255 : BitVec 1 := Scalar.cmpi .slt v2 c0_i32_106
  let v256 : BitVec 32 := Scalar.extui v255
  let v257 : BitVec 32 := Scalar.subi v254 v256
  let c2_i32_104 : BitVec 32 := 2#32
  let c0_i32_107 : BitVec 32 := 0#32
  let v258 : BitVec 1 := Scalar.cmpi .sgt c2_i32_104 c0_i32_107
  let v259 : BitVec 32 := Scalar.extui v258
  let c0_i32_108 : BitVec 32 := 0#32
  let v260 : BitVec 1 := Scalar.cmpi .slt c2_i32_104 c0_i32_108
  let v261 : BitVec 32 := Scalar.extui v260
  let v262 : BitVec 32 := Scalar.subi v259 v261
  let v263 : BitVec 1 := Scalar.cmpi .ne v257 v262
  let v264 : BitVec 32 := Scalar.remsi v2 c2_i32_104
  let c0_i32_109 : BitVec 32 := 0#32
  let v265 : BitVec 1 := Scalar.cmpi .ne v264 c0_i32_109
  let v266 : BitVec 1 := Scalar.andi v263 v265
  let v252 : BitVec 32 := Scalar.divsi v2 c2_i32_104
  let c1_i32_110 : BitVec 32 := 1#32
  let v267 : BitVec 32 := Scalar.subi v252 c1_i32_110
  let v268 : BitVec 32 := Scalar.select v266 v267 v252
  let v269 : BitVec 32 := Scalar.xori v2 v268
  let c1_i32_111 : BitVec 32 := 1#32
  let v270 : BitVec 32 := Scalar.andi v269 c1_i32_111
  let c1_i32_112 : BitVec 32 := 1#32
  let v271 : BitVec 1 := Scalar.cmpi .eq v270 c1_i32_112
  let c64_i32_113 : BitVec 32 := 64#32
  let c0_i32_114 : BitVec 32 := 0#32
  let v272 : BitVec 32 := Scalar.select v271 c64_i32_113 c0_i32_114
  let v273 : BitVec 32 := Scalar.addi c384_i32 v272
  let c0_i32_216 : BitVec 32 := 0#32
  let v405 : BitVec 1 := Scalar.cmpi .sgt v2 c0_i32_216
  let v406 : BitVec 32 := Scalar.extui v405
  let c0_i32_217 : BitVec 32 := 0#32
  let v407 : BitVec 1 := Scalar.cmpi .slt v2 c0_i32_217
  let v408 : BitVec 32 := Scalar.extui v407
  let v409 : BitVec 32 := Scalar.subi v406 v408
  let c4_i32_215 : BitVec 32 := 4#32
  let c0_i32_218 : BitVec 32 := 0#32
  let v410 : BitVec 1 := Scalar.cmpi .sgt c4_i32_215 c0_i32_218
  let v411 : BitVec 32 := Scalar.extui v410
  let c0_i32_219 : BitVec 32 := 0#32
  let v412 : BitVec 1 := Scalar.cmpi .slt c4_i32_215 c0_i32_219
  let v413 : BitVec 32 := Scalar.extui v412
  let v414 : BitVec 32 := Scalar.subi v411 v413
  let v415 : BitVec 1 := Scalar.cmpi .ne v409 v414
  let v416 : BitVec 32 := Scalar.remsi v2 c4_i32_215
  let c0_i32_220 : BitVec 32 := 0#32
  let v417 : BitVec 1 := Scalar.cmpi .ne v416 c0_i32_220
  let v418 : BitVec 1 := Scalar.andi v415 v417
  let v404 : BitVec 32 := Scalar.divsi v2 c4_i32_215
  let c1_i32_221 : BitVec 32 := 1#32
  let v419 : BitVec 32 := Scalar.subi v404 c1_i32_221
  let v420 : BitVec 32 := Scalar.select v418 v419 v404
  let c1_i32_222 : BitVec 32 := 1#32
  let v421 : BitVec 32 := Scalar.andi v420 c1_i32_222
  let c1_i32_223 : BitVec 32 := 1#32
  let v422 : BitVec 1 := Scalar.cmpi .eq v421 c1_i32_223
  let c32_i32_224 : BitVec 32 := 32#32
  let c0_i32_225 : BitVec 32 := 0#32
  let v423 : BitVec 32 := Scalar.select v422 c32_i32_224 c0_i32_225
  let v424 : BitVec 32 := Scalar.addi v273 v423
  let v547 : Index := Scalar.indexCast v424
  let c0_319 : Index := 0#32
  ![v547.toNat, 0]
def k0_off15 (d0 : Dev nD) (c0_i32_333 : BitVec 32) (c16_i32_334 : BitVec 32) : Fin 2 → Nat :=
  let c384_i32 : BitVec 32 := 384#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_105 : BitVec 32 := 0#32
  let v253 : BitVec 1 := Scalar.cmpi .sgt v2 c0_i32_105
  let v254 : BitVec 32 := Scalar.extui v253
  let c0_i32_106 : BitVec 32 := 0#32
  let v255 : BitVec 1 := Scalar.cmpi .slt v2 c0_i32_106
  let v256 : BitVec 32 := Scalar.extui v255
  let v257 : BitVec 32 := Scalar.subi v254 v256
  let c2_i32_104 : BitVec 32 := 2#32
  let c0_i32_107 : BitVec 32 := 0#32
  let v258 : BitVec 1 := Scalar.cmpi .sgt c2_i32_104 c0_i32_107
  let v259 : BitVec 32 := Scalar.extui v258
  let c0_i32_108 : BitVec 32 := 0#32
  let v260 : BitVec 1 := Scalar.cmpi .slt c2_i32_104 c0_i32_108
  let v261 : BitVec 32 := Scalar.extui v260
  let v262 : BitVec 32 := Scalar.subi v259 v261
  let v263 : BitVec 1 := Scalar.cmpi .ne v257 v262
  let v264 : BitVec 32 := Scalar.remsi v2 c2_i32_104
  let c0_i32_109 : BitVec 32 := 0#32
  let v265 : BitVec 1 := Scalar.cmpi .ne v264 c0_i32_109
  let v266 : BitVec 1 := Scalar.andi v263 v265
  let v252 : BitVec 32 := Scalar.divsi v2 c2_i32_104
  let c1_i32_110 : BitVec 32 := 1#32
  let v267 : BitVec 32 := Scalar.subi v252 c1_i32_110
  let v268 : BitVec 32 := Scalar.select v266 v267 v252
  let v269 : BitVec 32 := Scalar.xori v2 v268
  let c1_i32_111 : BitVec 32 := 1#32
  let v270 : BitVec 32 := Scalar.andi v269 c1_i32_111
  let c1_i32_112 : BitVec 32 := 1#32
  let v271 : BitVec 1 := Scalar.cmpi .eq v270 c1_i32_112
  let c64_i32_113 : BitVec 32 := 64#32
  let c0_i32_114 : BitVec 32 := 0#32
  let v272 : BitVec 32 := Scalar.select v271 c64_i32_113 c0_i32_114
  let v273 : BitVec 32 := Scalar.addi c384_i32 v272
  let c0_i32_216 : BitVec 32 := 0#32
  let v405 : BitVec 1 := Scalar.cmpi .sgt v2 c0_i32_216
  let v406 : BitVec 32 := Scalar.extui v405
  let c0_i32_217 : BitVec 32 := 0#32
  let v407 : BitVec 1 := Scalar.cmpi .slt v2 c0_i32_217
  let v408 : BitVec 32 := Scalar.extui v407
  let v409 : BitVec 32 := Scalar.subi v406 v408
  let c4_i32_215 : BitVec 32 := 4#32
  let c0_i32_218 : BitVec 32 := 0#32
  let v410 : BitVec 1 := Scalar.cmpi .sgt c4_i32_215 c0_i32_218
  let v411 : BitVec 32 := Scalar.extui v410
  let c0_i32_219 : BitVec 32 := 0#32
  let v412 : BitVec 1 := Scalar.cmpi .slt c4_i32_215 c0_i32_219
  let v413 : BitVec 32 := Scalar.extui v412
  let v414 : BitVec 32 := Scalar.subi v411 v413
  let v415 : BitVec 1 := Scalar.cmpi .ne v409 v414
  let v416 : BitVec 32 := Scalar.remsi v2 c4_i32_215
  let c0_i32_220 : BitVec 32 := 0#32
  let v417 : BitVec 1 := Scalar.cmpi .ne v416 c0_i32_220
  let v418 : BitVec 1 := Scalar.andi v415 v417
  let v404 : BitVec 32 := Scalar.divsi v2 c4_i32_215
  let c1_i32_221 : BitVec 32 := 1#32
  let v419 : BitVec 32 := Scalar.subi v404 c1_i32_221
  let v420 : BitVec 32 := Scalar.select v418 v419 v404
  let c1_i32_222 : BitVec 32 := 1#32
  let v421 : BitVec 32 := Scalar.andi v420 c1_i32_222
  let c1_i32_223 : BitVec 32 := 1#32
  let v422 : BitVec 1 := Scalar.cmpi .eq v421 c1_i32_223
  let c32_i32_224 : BitVec 32 := 32#32
  let c0_i32_225 : BitVec 32 := 0#32
  let v423 : BitVec 32 := Scalar.select v422 c32_i32_224 c0_i32_225
  let v424 : BitVec 32 := Scalar.addi v273 v423
  let c0_i32_323 : BitVec 32 := 0#32
  let v556 : BitVec 1 := Scalar.cmpi .sgt v2 c0_i32_323
  let v557 : BitVec 32 := Scalar.extui v556
  let c0_i32_324 : BitVec 32 := 0#32
  let v558 : BitVec 1 := Scalar.cmpi .slt v2 c0_i32_324
  let v559 : BitVec 32 := Scalar.extui v558
  let v560 : BitVec 32 := Scalar.subi v557 v559
  let c2_i32_322 : BitVec 32 := 2#32
  let c0_i32_325 : BitVec 32 := 0#32
  let v561 : BitVec 1 := Scalar.cmpi .sgt c2_i32_322 c0_i32_325
  let v562 : BitVec 32 := Scalar.extui v561
  let c0_i32_326 : BitVec 32 := 0#32
  let v563 : BitVec 1 := Scalar.cmpi .slt c2_i32_322 c0_i32_326
  let v564 : BitVec 32 := Scalar.extui v563
  let v565 : BitVec 32 := Scalar.subi v562 v564
  let v566 : BitVec 1 := Scalar.cmpi .ne v560 v565
  let v567 : BitVec 32 := Scalar.remsi v2 c2_i32_322
  let c0_i32_327 : BitVec 32 := 0#32
  let v568 : BitVec 1 := Scalar.cmpi .ne v567 c0_i32_327
  let v569 : BitVec 1 := Scalar.andi v566 v568
  let v555 : BitVec 32 := Scalar.divsi v2 c2_i32_322
  let c1_i32_328 : BitVec 32 := 1#32
  let v570 : BitVec 32 := Scalar.subi v555 c1_i32_328
  let v571 : BitVec 32 := Scalar.select v569 v570 v555
  let c1_i32_329 : BitVec 32 := 1#32
  let v572 : BitVec 32 := Scalar.andi v571 c1_i32_329
  let c1_i32_330 : BitVec 32 := 1#32
  let v573 : BitVec 1 := Scalar.cmpi .eq v572 c1_i32_330
  let v576 : BitVec 32 := Scalar.select v573 c0_i32_333 c16_i32_334
  let v577 : BitVec 32 := Scalar.addi v424 v576
  let c0_i32_341 : BitVec 32 := 0#32
  ![v577.toNat, 0]
def k0_off15_at (r : Fin 2) : BitVec 32 × BitVec 32 :=
  if r.val < 1 then
    (0#32, 16#32)
  else
    (16#32, 0#32)
def k0_dev12 (d0 : Dev nD) : Nat :=
  let c0_i32_339 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_335 : BitVec 32 := 3#32
  let v578 : BitVec 32 := Scalar.xori v2 c3_i32_335
  let c1_i32_338 : BitVec 32 := 1#32
  let v579 : BitVec 32 := Scalar.muli v578 c1_i32_338
  let v580 : BitVec 32 := Scalar.addi c0_i32_339 v579
  v580.toNat
def k0_off16 (d0 : Dev nD) : Fin 2 → Nat :=
  let c0_i32_68 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_59 : BitVec 32 := 0#32
  let v177 : BitVec 1 := Scalar.cmpi .sgt v2 c0_i32_59
  let v178 : BitVec 32 := Scalar.extui v177
  let c0_i32_60 : BitVec 32 := 0#32
  let v179 : BitVec 1 := Scalar.cmpi .slt v2 c0_i32_60
  let v180 : BitVec 32 := Scalar.extui v179
  let v181 : BitVec 32 := Scalar.subi v178 v180
  let c4_i32_58 : BitVec 32 := 4#32
  let c0_i32_61 : BitVec 32 := 0#32
  let v182 : BitVec 1 := Scalar.cmpi .sgt c4_i32_58 c0_i32_61
  let v183 : BitVec 32 := Scalar.extui v182
  let c0_i32_62 : BitVec 32 := 0#32
  let v184 : BitVec 1 := Scalar.cmpi .slt c4_i32_58 c0_i32_62
  let v185 : BitVec 32 := Scalar.extui v184
  let v186 : BitVec 32 := Scalar.subi v183 v185
  let v187 : BitVec 1 := Scalar.cmpi .ne v181 v186
  let v188 : BitVec 32 := Scalar.remsi v2 c4_i32_58
  let c0_i32_63 : BitVec 32 := 0#32
  let v189 : BitVec 1 := Scalar.cmpi .ne v188 c0_i32_63
  let v190 : BitVec 1 := Scalar.andi v187 v189
  let v176 : BitVec 32 := Scalar.divsi v2 c4_i32_58
  let c1_i32_64 : BitVec 32 := 1#32
  let v191 : BitVec 32 := Scalar.subi v176 c1_i32_64
  let v192 : BitVec 32 := Scalar.select v190 v191 v176
  let c1_i32_65 : BitVec 32 := 1#32
  let v193 : BitVec 32 := Scalar.andi v192 c1_i32_65
  let c1_i32_66 : BitVec 32 := 1#32
  let v194 : BitVec 1 := Scalar.cmpi .eq v193 c1_i32_66
  let c128_i32 : BitVec 32 := 128#32
  let c0_i32_67 : BitVec 32 := 0#32
  let v195 : BitVec 32 := Scalar.select v194 c128_i32 c0_i32_67
  let v196 : BitVec 32 := Scalar.addi c0_i32_68 v195
  let c0_i32_143 : BitVec 32 := 0#32
  let v304 : BitVec 1 := Scalar.cmpi .sgt v2 c0_i32_143
  let v305 : BitVec 32 := Scalar.extui v304
  let c0_i32_144 : BitVec 32 := 0#32
  let v306 : BitVec 1 := Scalar.cmpi .slt v2 c0_i32_144
  let v307 : BitVec 32 := Scalar.extui v306
  let v308 : BitVec 32 := Scalar.subi v305 v307
  let c2_i32_142 : BitVec 32 := 2#32
  let c0_i32_145 : BitVec 32 := 0#32
  let v309 : BitVec 1 := Scalar.cmpi .sgt c2_i32_142 c0_i32_145
  let v310 : BitVec 32 := Scalar.extui v309
  let c0_i32_146 : BitVec 32 := 0#32
  let v311 : BitVec 1 := Scalar.cmpi .slt c2_i32_142 c0_i32_146
  let v312 : BitVec 32 := Scalar.extui v311
  let v313 : BitVec 32 := Scalar.subi v310 v312
  let v314 : BitVec 1 := Scalar.cmpi .ne v308 v313
  let v315 : BitVec 32 := Scalar.remsi v2 c2_i32_142
  let c0_i32_147 : BitVec 32 := 0#32
  let v316 : BitVec 1 := Scalar.cmpi .ne v315 c0_i32_147
  let v317 : BitVec 1 := Scalar.andi v314 v316
  let v303 : BitVec 32 := Scalar.divsi v2 c2_i32_142
  let c1_i32_148 : BitVec 32 := 1#32
  let v318 : BitVec 32 := Scalar.subi v303 c1_i32_148
  let v319 : BitVec 32 := Scalar.select v317 v318 v303
  let c1_i32_149 : BitVec 32 := 1#32
  let v320 : BitVec 32 := Scalar.andi v319 c1_i32_149
  let c1_i32_150 : BitVec 32 := 1#32
  let v321 : BitVec 1 := Scalar.cmpi .eq v320 c1_i32_150
  let c64_i32_151 : BitVec 32 := 64#32
  let c0_i32_152 : BitVec 32 := 0#32
  let v322 : BitVec 32 := Scalar.select v321 c64_i32_151 c0_i32_152
  let v323 : BitVec 32 := Scalar.addi v196 v322
  let c0_i32_252 : BitVec 32 := 0#32
  let v455 : BitVec 1 := Scalar.cmpi .sgt v2 c0_i32_252
  let v456 : BitVec 32 := Scalar.extui v455
  let c0_i32_253 : BitVec 32 := 0#32
  let v457 : BitVec 1 := Scalar.cmpi .slt v2 c0_i32_253
  let v458 : BitVec 32 := Scalar.extui v457
  let v459 : BitVec 32 := Scalar.subi v456 v458
  let c2_i32_251 : BitVec 32 := 2#32
  let c0_i32_254 : BitVec 32 := 0#32
  let v460 : BitVec 1 := Scalar.cmpi .sgt c2_i32_251 c0_i32_254
  let v461 : BitVec 32 := Scalar.extui v460
  let c0_i32_255 : BitVec 32 := 0#32
  let v462 : BitVec 1 := Scalar.cmpi .slt c2_i32_251 c0_i32_255
  let v463 : BitVec 32 := Scalar.extui v462
  let v464 : BitVec 32 := Scalar.subi v461 v463
  let v465 : BitVec 1 := Scalar.cmpi .ne v459 v464
  let v466 : BitVec 32 := Scalar.remsi v2 c2_i32_251
  let c0_i32_256 : BitVec 32 := 0#32
  let v467 : BitVec 1 := Scalar.cmpi .ne v466 c0_i32_256
  let v468 : BitVec 1 := Scalar.andi v465 v467
  let v454 : BitVec 32 := Scalar.divsi v2 c2_i32_251
  let c1_i32_257 : BitVec 32 := 1#32
  let v469 : BitVec 32 := Scalar.subi v454 c1_i32_257
  let v470 : BitVec 32 := Scalar.select v468 v469 v454
  let v471 : BitVec 32 := Scalar.xori v2 v470
  let c1_i32_258 : BitVec 32 := 1#32
  let v472 : BitVec 32 := Scalar.andi v471 c1_i32_258
  let c1_i32_259 : BitVec 32 := 1#32
  let v473 : BitVec 1 := Scalar.cmpi .eq v472 c1_i32_259
  let c32_i32_260 : BitVec 32 := 32#32
  let c0_i32_261 : BitVec 32 := 0#32
  let v474 : BitVec 32 := Scalar.select v473 c32_i32_260 c0_i32_261
  let v475 : BitVec 32 := Scalar.addi v323 v474
  let v597 : Index := Scalar.indexCast v475
  let c0_355 : Index := 0#32
  ![v597.toNat, 0]
def k0_dev13 (d0 : Dev nD) : Nat :=
  let c0_i32_362 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_359 : BitVec 32 := 1#32
  let v605 : BitVec 32 := Scalar.xori v2 c1_i32_359
  let c1_i32_361 : BitVec 32 := 1#32
  let v606 : BitVec 32 := Scalar.muli v605 c1_i32_361
  let v607 : BitVec 32 := Scalar.addi c0_i32_362 v606
  v607.toNat
def k0_off17 (d0 : Dev nD) : Fin 2 → Nat :=
  let c256_i32 : BitVec 32 := 256#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_82 : BitVec 32 := 0#32
  let v215 : BitVec 1 := Scalar.cmpi .sgt v2 c0_i32_82
  let v216 : BitVec 32 := Scalar.extui v215
  let c0_i32_83 : BitVec 32 := 0#32
  let v217 : BitVec 1 := Scalar.cmpi .slt v2 c0_i32_83
  let v218 : BitVec 32 := Scalar.extui v217
  let v219 : BitVec 32 := Scalar.subi v216 v218
  let c2_i32 : BitVec 32 := 2#32
  let c0_i32_84 : BitVec 32 := 0#32
  let v220 : BitVec 1 := Scalar.cmpi .sgt c2_i32 c0_i32_84
  let v221 : BitVec 32 := Scalar.extui v220
  let c0_i32_85 : BitVec 32 := 0#32
  let v222 : BitVec 1 := Scalar.cmpi .slt c2_i32 c0_i32_85
  let v223 : BitVec 32 := Scalar.extui v222
  let v224 : BitVec 32 := Scalar.subi v221 v223
  let v225 : BitVec 1 := Scalar.cmpi .ne v219 v224
  let v226 : BitVec 32 := Scalar.remsi v2 c2_i32
  let c0_i32_86 : BitVec 32 := 0#32
  let v227 : BitVec 1 := Scalar.cmpi .ne v226 c0_i32_86
  let v228 : BitVec 1 := Scalar.andi v225 v227
  let v214 : BitVec 32 := Scalar.divsi v2 c2_i32
  let c1_i32_87 : BitVec 32 := 1#32
  let v229 : BitVec 32 := Scalar.subi v214 c1_i32_87
  let v230 : BitVec 32 := Scalar.select v228 v229 v214
  let c1_i32_88 : BitVec 32 := 1#32
  let v231 : BitVec 32 := Scalar.andi v230 c1_i32_88
  let c1_i32_89 : BitVec 32 := 1#32
  let v232 : BitVec 1 := Scalar.cmpi .eq v231 c1_i32_89
  let c64_i32 : BitVec 32 := 64#32
  let c0_i32_90 : BitVec 32 := 0#32
  let v233 : BitVec 32 := Scalar.select v232 c64_i32 c0_i32_90
  let v234 : BitVec 32 := Scalar.addi c256_i32 v233
  let c0_i32_180 : BitVec 32 := 0#32
  let v354 : BitVec 1 := Scalar.cmpi .sgt v2 c0_i32_180
  let v355 : BitVec 32 := Scalar.extui v354
  let c0_i32_181 : BitVec 32 := 0#32
  let v356 : BitVec 1 := Scalar.cmpi .slt v2 c0_i32_181
  let v357 : BitVec 32 := Scalar.extui v356
  let v358 : BitVec 32 := Scalar.subi v355 v357
  let c2_i32_179 : BitVec 32 := 2#32
  let c0_i32_182 : BitVec 32 := 0#32
  let v359 : BitVec 1 := Scalar.cmpi .sgt c2_i32_179 c0_i32_182
  let v360 : BitVec 32 := Scalar.extui v359
  let c0_i32_183 : BitVec 32 := 0#32
  let v361 : BitVec 1 := Scalar.cmpi .slt c2_i32_179 c0_i32_183
  let v362 : BitVec 32 := Scalar.extui v361
  let v363 : BitVec 32 := Scalar.subi v360 v362
  let v364 : BitVec 1 := Scalar.cmpi .ne v358 v363
  let v365 : BitVec 32 := Scalar.remsi v2 c2_i32_179
  let c0_i32_184 : BitVec 32 := 0#32
  let v366 : BitVec 1 := Scalar.cmpi .ne v365 c0_i32_184
  let v367 : BitVec 1 := Scalar.andi v364 v366
  let v353 : BitVec 32 := Scalar.divsi v2 c2_i32_179
  let c1_i32_185 : BitVec 32 := 1#32
  let v368 : BitVec 32 := Scalar.subi v353 c1_i32_185
  let v369 : BitVec 32 := Scalar.select v367 v368 v353
  let v370 : BitVec 32 := Scalar.xori v2 v369
  let c1_i32_186 : BitVec 32 := 1#32
  let v371 : BitVec 32 := Scalar.andi v370 c1_i32_186
  let c1_i32_187 : BitVec 32 := 1#32
  let v372 : BitVec 1 := Scalar.cmpi .eq v371 c1_i32_187
  let c32_i32 : BitVec 32 := 32#32
  let c0_i32_188 : BitVec 32 := 0#32
  let v373 : BitVec 32 := Scalar.select v372 c32_i32 c0_i32_188
  let v374 : BitVec 32 := Scalar.addi v234 v373
  let c0_i32_288 : BitVec 32 := 0#32
  let v506 : BitVec 1 := Scalar.cmpi .sgt v2 c0_i32_288
  let v507 : BitVec 32 := Scalar.extui v506
  let c0_i32_289 : BitVec 32 := 0#32
  let v508 : BitVec 1 := Scalar.cmpi .slt v2 c0_i32_289
  let v509 : BitVec 32 := Scalar.extui v508
  let v510 : BitVec 32 := Scalar.subi v507 v509
  let c4_i32_287 : BitVec 32 := 4#32
  let c0_i32_290 : BitVec 32 := 0#32
  let v511 : BitVec 1 := Scalar.cmpi .sgt c4_i32_287 c0_i32_290
  let v512 : BitVec 32 := Scalar.extui v511
  let c0_i32_291 : BitVec 32 := 0#32
  let v513 : BitVec 1 := Scalar.cmpi .slt c4_i32_287 c0_i32_291
  let v514 : BitVec 32 := Scalar.extui v513
  let v515 : BitVec 32 := Scalar.subi v512 v514
  let v516 : BitVec 1 := Scalar.cmpi .ne v510 v515
  let v517 : BitVec 32 := Scalar.remsi v2 c4_i32_287
  let c0_i32_292 : BitVec 32 := 0#32
  let v518 : BitVec 1 := Scalar.cmpi .ne v517 c0_i32_292
  let v519 : BitVec 1 := Scalar.andi v516 v518
  let v505 : BitVec 32 := Scalar.divsi v2 c4_i32_287
  let c1_i32_293 : BitVec 32 := 1#32
  let v520 : BitVec 32 := Scalar.subi v505 c1_i32_293
  let v521 : BitVec 32 := Scalar.select v519 v520 v505
  let c1_i32_294 : BitVec 32 := 1#32
  let v522 : BitVec 32 := Scalar.andi v521 c1_i32_294
  let c1_i32_295 : BitVec 32 := 1#32
  let v523 : BitVec 1 := Scalar.cmpi .eq v522 c1_i32_295
  let c16_i32 : BitVec 32 := 16#32
  let c0_i32_296 : BitVec 32 := 0#32
  let v524 : BitVec 32 := Scalar.select v523 c16_i32 c0_i32_296
  let v525 : BitVec 32 := Scalar.addi v374 v524
  let v646 : Index := Scalar.indexCast v525
  let c0_389 : Index := 0#32
  ![v646.toNat, 0]
def k0_dev14 (d0 : Dev nD) : Nat :=
  let c0_i32_395 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_392 : BitVec 32 := 4#32
  let v654 : BitVec 32 := Scalar.xori v2 c4_i32_392
  let c1_i32_394 : BitVec 32 := 1#32
  let v655 : BitVec 32 := Scalar.muli v654 c1_i32_394
  let v656 : BitVec 32 := Scalar.addi c0_i32_395 v655
  v656.toNat
def k0_off18 (d0 : Dev nD) : Fin 2 → Nat :=
  let c384_i32 : BitVec 32 := 384#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_105 : BitVec 32 := 0#32
  let v253 : BitVec 1 := Scalar.cmpi .sgt v2 c0_i32_105
  let v254 : BitVec 32 := Scalar.extui v253
  let c0_i32_106 : BitVec 32 := 0#32
  let v255 : BitVec 1 := Scalar.cmpi .slt v2 c0_i32_106
  let v256 : BitVec 32 := Scalar.extui v255
  let v257 : BitVec 32 := Scalar.subi v254 v256
  let c2_i32_104 : BitVec 32 := 2#32
  let c0_i32_107 : BitVec 32 := 0#32
  let v258 : BitVec 1 := Scalar.cmpi .sgt c2_i32_104 c0_i32_107
  let v259 : BitVec 32 := Scalar.extui v258
  let c0_i32_108 : BitVec 32 := 0#32
  let v260 : BitVec 1 := Scalar.cmpi .slt c2_i32_104 c0_i32_108
  let v261 : BitVec 32 := Scalar.extui v260
  let v262 : BitVec 32 := Scalar.subi v259 v261
  let v263 : BitVec 1 := Scalar.cmpi .ne v257 v262
  let v264 : BitVec 32 := Scalar.remsi v2 c2_i32_104
  let c0_i32_109 : BitVec 32 := 0#32
  let v265 : BitVec 1 := Scalar.cmpi .ne v264 c0_i32_109
  let v266 : BitVec 1 := Scalar.andi v263 v265
  let v252 : BitVec 32 := Scalar.divsi v2 c2_i32_104
  let c1_i32_110 : BitVec 32 := 1#32
  let v267 : BitVec 32 := Scalar.subi v252 c1_i32_110
  let v268 : BitVec 32 := Scalar.select v266 v267 v252
  let v269 : BitVec 32 := Scalar.xori v2 v268
  let c1_i32_111 : BitVec 32 := 1#32
  let v270 : BitVec 32 := Scalar.andi v269 c1_i32_111
  let c1_i32_112 : BitVec 32 := 1#32
  let v271 : BitVec 1 := Scalar.cmpi .eq v270 c1_i32_112
  let c64_i32_113 : BitVec 32 := 64#32
  let c0_i32_114 : BitVec 32 := 0#32
  let v272 : BitVec 32 := Scalar.select v271 c64_i32_113 c0_i32_114
  let v273 : BitVec 32 := Scalar.addi c384_i32 v272
  let c0_i32_216 : BitVec 32 := 0#32
  let v405 : BitVec 1 := Scalar.cmpi .sgt v2 c0_i32_216
  let v406 : BitVec 32 := Scalar.extui v405
  let c0_i32_217 : BitVec 32 := 0#32
  let v407 : BitVec 1 := Scalar.cmpi .slt v2 c0_i32_217
  let v408 : BitVec 32 := Scalar.extui v407
  let v409 : BitVec 32 := Scalar.subi v406 v408
  let c4_i32_215 : BitVec 32 := 4#32
  let c0_i32_218 : BitVec 32 := 0#32
  let v410 : BitVec 1 := Scalar.cmpi .sgt c4_i32_215 c0_i32_218
  let v411 : BitVec 32 := Scalar.extui v410
  let c0_i32_219 : BitVec 32 := 0#32
  let v412 : BitVec 1 := Scalar.cmpi .slt c4_i32_215 c0_i32_219
  let v413 : BitVec 32 := Scalar.extui v412
  let v414 : BitVec 32 := Scalar.subi v411 v413
  let v415 : BitVec 1 := Scalar.cmpi .ne v409 v414
  let v416 : BitVec 32 := Scalar.remsi v2 c4_i32_215
  let c0_i32_220 : BitVec 32 := 0#32
  let v417 : BitVec 1 := Scalar.cmpi .ne v416 c0_i32_220
  let v418 : BitVec 1 := Scalar.andi v415 v417
  let v404 : BitVec 32 := Scalar.divsi v2 c4_i32_215
  let c1_i32_221 : BitVec 32 := 1#32
  let v419 : BitVec 32 := Scalar.subi v404 c1_i32_221
  let v420 : BitVec 32 := Scalar.select v418 v419 v404
  let c1_i32_222 : BitVec 32 := 1#32
  let v421 : BitVec 32 := Scalar.andi v420 c1_i32_222
  let c1_i32_223 : BitVec 32 := 1#32
  let v422 : BitVec 1 := Scalar.cmpi .eq v421 c1_i32_223
  let c32_i32_224 : BitVec 32 := 32#32
  let c0_i32_225 : BitVec 32 := 0#32
  let v423 : BitVec 32 := Scalar.select v422 c32_i32_224 c0_i32_225
  let v424 : BitVec 32 := Scalar.addi v273 v423
  let c0_i32_323 : BitVec 32 := 0#32
  let v556 : BitVec 1 := Scalar.cmpi .sgt v2 c0_i32_323
  let v557 : BitVec 32 := Scalar.extui v556
  let c0_i32_324 : BitVec 32 := 0#32
  let v558 : BitVec 1 := Scalar.cmpi .slt v2 c0_i32_324
  let v559 : BitVec 32 := Scalar.extui v558
  let v560 : BitVec 32 := Scalar.subi v557 v559
  let c2_i32_322 : BitVec 32 := 2#32
  let c0_i32_325 : BitVec 32 := 0#32
  let v561 : BitVec 1 := Scalar.cmpi .sgt c2_i32_322 c0_i32_325
  let v562 : BitVec 32 := Scalar.extui v561
  let c0_i32_326 : BitVec 32 := 0#32
  let v563 : BitVec 1 := Scalar.cmpi .slt c2_i32_322 c0_i32_326
  let v564 : BitVec 32 := Scalar.extui v563
  let v565 : BitVec 32 := Scalar.subi v562 v564
  let v566 : BitVec 1 := Scalar.cmpi .ne v560 v565
  let v567 : BitVec 32 := Scalar.remsi v2 c2_i32_322
  let c0_i32_327 : BitVec 32 := 0#32
  let v568 : BitVec 1 := Scalar.cmpi .ne v567 c0_i32_327
  let v569 : BitVec 1 := Scalar.andi v566 v568
  let v555 : BitVec 32 := Scalar.divsi v2 c2_i32_322
  let c1_i32_328 : BitVec 32 := 1#32
  let v570 : BitVec 32 := Scalar.subi v555 c1_i32_328
  let v571 : BitVec 32 := Scalar.select v569 v570 v555
  let c1_i32_329 : BitVec 32 := 1#32
  let v572 : BitVec 32 := Scalar.andi v571 c1_i32_329
  let c1_i32_330 : BitVec 32 := 1#32
  let v573 : BitVec 1 := Scalar.cmpi .eq v572 c1_i32_330
  let c16_i32_331 : BitVec 32 := 16#32
  let c0_i32_332 : BitVec 32 := 0#32
  let v574 : BitVec 32 := Scalar.select v573 c16_i32_331 c0_i32_332
  let v575 : BitVec 32 := Scalar.addi v424 v574
  let v694 : Index := Scalar.indexCast v575
  let c0_422 : Index := 0#32
  ![v694.toNat, 0]
def k0_dev15 (d0 : Dev nD) : Nat :=
  let c0_i32_428 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_425 : BitVec 32 := 3#32
  let v702 : BitVec 32 := Scalar.xori v2 c3_i32_425
  let c1_i32_427 : BitVec 32 := 1#32
  let v703 : BitVec 32 := Scalar.muli v702 c1_i32_427
  let v704 : BitVec 32 := Scalar.addi c0_i32_428 v703
  v704.toNat
def k0_off19 (d0 : Dev nD) : Fin 2 → Nat :=
  let c0_i32_68 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_59 : BitVec 32 := 0#32
  let v177 : BitVec 1 := Scalar.cmpi .sgt v2 c0_i32_59
  let v178 : BitVec 32 := Scalar.extui v177
  let c0_i32_60 : BitVec 32 := 0#32
  let v179 : BitVec 1 := Scalar.cmpi .slt v2 c0_i32_60
  let v180 : BitVec 32 := Scalar.extui v179
  let v181 : BitVec 32 := Scalar.subi v178 v180
  let c4_i32_58 : BitVec 32 := 4#32
  let c0_i32_61 : BitVec 32 := 0#32
  let v182 : BitVec 1 := Scalar.cmpi .sgt c4_i32_58 c0_i32_61
  let v183 : BitVec 32 := Scalar.extui v182
  let c0_i32_62 : BitVec 32 := 0#32
  let v184 : BitVec 1 := Scalar.cmpi .slt c4_i32_58 c0_i32_62
  let v185 : BitVec 32 := Scalar.extui v184
  let v186 : BitVec 32 := Scalar.subi v183 v185
  let v187 : BitVec 1 := Scalar.cmpi .ne v181 v186
  let v188 : BitVec 32 := Scalar.remsi v2 c4_i32_58
  let c0_i32_63 : BitVec 32 := 0#32
  let v189 : BitVec 1 := Scalar.cmpi .ne v188 c0_i32_63
  let v190 : BitVec 1 := Scalar.andi v187 v189
  let v176 : BitVec 32 := Scalar.divsi v2 c4_i32_58
  let c1_i32_64 : BitVec 32 := 1#32
  let v191 : BitVec 32 := Scalar.subi v176 c1_i32_64
  let v192 : BitVec 32 := Scalar.select v190 v191 v176
  let c1_i32_65 : BitVec 32 := 1#32
  let v193 : BitVec 32 := Scalar.andi v192 c1_i32_65
  let c1_i32_66 : BitVec 32 := 1#32
  let v194 : BitVec 1 := Scalar.cmpi .eq v193 c1_i32_66
  let c128_i32 : BitVec 32 := 128#32
  let c0_i32_67 : BitVec 32 := 0#32
  let v195 : BitVec 32 := Scalar.select v194 c128_i32 c0_i32_67
  let v196 : BitVec 32 := Scalar.addi c0_i32_68 v195
  let c0_i32_143 : BitVec 32 := 0#32
  let v304 : BitVec 1 := Scalar.cmpi .sgt v2 c0_i32_143
  let v305 : BitVec 32 := Scalar.extui v304
  let c0_i32_144 : BitVec 32 := 0#32
  let v306 : BitVec 1 := Scalar.cmpi .slt v2 c0_i32_144
  let v307 : BitVec 32 := Scalar.extui v306
  let v308 : BitVec 32 := Scalar.subi v305 v307
  let c2_i32_142 : BitVec 32 := 2#32
  let c0_i32_145 : BitVec 32 := 0#32
  let v309 : BitVec 1 := Scalar.cmpi .sgt c2_i32_142 c0_i32_145
  let v310 : BitVec 32 := Scalar.extui v309
  let c0_i32_146 : BitVec 32 := 0#32
  let v311 : BitVec 1 := Scalar.cmpi .slt c2_i32_142 c0_i32_146
  let v312 : BitVec 32 := Scalar.extui v311
  let v313 : BitVec 32 := Scalar.subi v310 v312
  let v314 : BitVec 1 := Scalar.cmpi .ne v308 v313
  let v315 : BitVec 32 := Scalar.remsi v2 c2_i32_142
  let c0_i32_147 : BitVec 32 := 0#32
  let v316 : BitVec 1 := Scalar.cmpi .ne v315 c0_i32_147
  let v317 : BitVec 1 := Scalar.andi v314 v316
  let v303 : BitVec 32 := Scalar.divsi v2 c2_i32_142
  let c1_i32_148 : BitVec 32 := 1#32
  let v318 : BitVec 32 := Scalar.subi v303 c1_i32_148
  let v319 : BitVec 32 := Scalar.select v317 v318 v303
  let c1_i32_149 : BitVec 32 := 1#32
  let v320 : BitVec 32 := Scalar.andi v319 c1_i32_149
  let c1_i32_150 : BitVec 32 := 1#32
  let v321 : BitVec 1 := Scalar.cmpi .eq v320 c1_i32_150
  let c64_i32_151 : BitVec 32 := 64#32
  let c0_i32_152 : BitVec 32 := 0#32
  let v322 : BitVec 32 := Scalar.select v321 c64_i32_151 c0_i32_152
  let v323 : BitVec 32 := Scalar.addi v196 v322
  let c0_i32_252 : BitVec 32 := 0#32
  let v455 : BitVec 1 := Scalar.cmpi .sgt v2 c0_i32_252
  let v456 : BitVec 32 := Scalar.extui v455
  let c0_i32_253 : BitVec 32 := 0#32
  let v457 : BitVec 1 := Scalar.cmpi .slt v2 c0_i32_253
  let v458 : BitVec 32 := Scalar.extui v457
  let v459 : BitVec 32 := Scalar.subi v456 v458
  let c2_i32_251 : BitVec 32 := 2#32
  let c0_i32_254 : BitVec 32 := 0#32
  let v460 : BitVec 1 := Scalar.cmpi .sgt c2_i32_251 c0_i32_254
  let v461 : BitVec 32 := Scalar.extui v460
  let c0_i32_255 : BitVec 32 := 0#32
  let v462 : BitVec 1 := Scalar.cmpi .slt c2_i32_251 c0_i32_255
  let v463 : BitVec 32 := Scalar.extui v462
  let v464 : BitVec 32 := Scalar.subi v461 v463
  let v465 : BitVec 1 := Scalar.cmpi .ne v459 v464
  let v466 : BitVec 32 := Scalar.remsi v2 c2_i32_251
  let c0_i32_256 : BitVec 32 := 0#32
  let v467 : BitVec 1 := Scalar.cmpi .ne v466 c0_i32_256
  let v468 : BitVec 1 := Scalar.andi v465 v467
  let v454 : BitVec 32 := Scalar.divsi v2 c2_i32_251
  let c1_i32_257 : BitVec 32 := 1#32
  let v469 : BitVec 32 := Scalar.subi v454 c1_i32_257
  let v470 : BitVec 32 := Scalar.select v468 v469 v454
  let v471 : BitVec 32 := Scalar.xori v2 v470
  let c1_i32_258 : BitVec 32 := 1#32
  let v472 : BitVec 32 := Scalar.andi v471 c1_i32_258
  let c1_i32_259 : BitVec 32 := 1#32
  let v473 : BitVec 1 := Scalar.cmpi .eq v472 c1_i32_259
  let c32_i32_260 : BitVec 32 := 32#32
  let c0_i32_261 : BitVec 32 := 0#32
  let v474 : BitVec 32 := Scalar.select v473 c32_i32_260 c0_i32_261
  let v475 : BitVec 32 := Scalar.addi v323 v474
  let c0_i32_366 : BitVec 32 := 0#32
  let v615 : BitVec 1 := Scalar.cmpi .sgt v2 c0_i32_366
  let v616 : BitVec 32 := Scalar.extui v615
  let c0_i32_367 : BitVec 32 := 0#32
  let v617 : BitVec 1 := Scalar.cmpi .slt v2 c0_i32_367
  let v618 : BitVec 32 := Scalar.extui v617
  let v619 : BitVec 32 := Scalar.subi v616 v618
  let c2_i32_365 : BitVec 32 := 2#32
  let c0_i32_368 : BitVec 32 := 0#32
  let v620 : BitVec 1 := Scalar.cmpi .sgt c2_i32_365 c0_i32_368
  let v621 : BitVec 32 := Scalar.extui v620
  let c0_i32_369 : BitVec 32 := 0#32
  let v622 : BitVec 1 := Scalar.cmpi .slt c2_i32_365 c0_i32_369
  let v623 : BitVec 32 := Scalar.extui v622
  let v624 : BitVec 32 := Scalar.subi v621 v623
  let v625 : BitVec 1 := Scalar.cmpi .ne v619 v624
  let v626 : BitVec 32 := Scalar.remsi v2 c2_i32_365
  let c0_i32_370 : BitVec 32 := 0#32
  let v627 : BitVec 1 := Scalar.cmpi .ne v626 c0_i32_370
  let v628 : BitVec 1 := Scalar.andi v625 v627
  let v614 : BitVec 32 := Scalar.divsi v2 c2_i32_365
  let c1_i32_371 : BitVec 32 := 1#32
  let v629 : BitVec 32 := Scalar.subi v614 c1_i32_371
  let v630 : BitVec 32 := Scalar.select v628 v629 v614
  let v631 : BitVec 32 := Scalar.xori v2 v630
  let c1_i32_372 : BitVec 32 := 1#32
  let v632 : BitVec 32 := Scalar.andi v631 c1_i32_372
  let c1_i32_373 : BitVec 32 := 1#32
  let v633 : BitVec 1 := Scalar.cmpi .eq v632 c1_i32_373
  let c32_i32_374 : BitVec 32 := 32#32
  let c0_i32_375 : BitVec 32 := 0#32
  let v634 : BitVec 32 := Scalar.select v633 c32_i32_374 c0_i32_375
  let v635 : BitVec 32 := Scalar.subi v475 v634
  let c0_i32_457 : BitVec 32 := 0#32
  ![v635.toNat, 0]
def k0_dev16 (d0 : Dev nD) : Nat :=
  let c0_i32_456 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_453 : BitVec 32 := 3#32
  let v742 : BitVec 32 := Scalar.xori v2 c3_i32_453
  let c1_i32_455 : BitVec 32 := 1#32
  let v743 : BitVec 32 := Scalar.muli v742 c1_i32_455
  let v744 : BitVec 32 := Scalar.addi c0_i32_456 v743
  v744.toNat
def k0_off20 (d0 : Dev nD) : Fin 2 → Nat :=
  let c256_i32 : BitVec 32 := 256#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_82 : BitVec 32 := 0#32
  let v215 : BitVec 1 := Scalar.cmpi .sgt v2 c0_i32_82
  let v216 : BitVec 32 := Scalar.extui v215
  let c0_i32_83 : BitVec 32 := 0#32
  let v217 : BitVec 1 := Scalar.cmpi .slt v2 c0_i32_83
  let v218 : BitVec 32 := Scalar.extui v217
  let v219 : BitVec 32 := Scalar.subi v216 v218
  let c2_i32 : BitVec 32 := 2#32
  let c0_i32_84 : BitVec 32 := 0#32
  let v220 : BitVec 1 := Scalar.cmpi .sgt c2_i32 c0_i32_84
  let v221 : BitVec 32 := Scalar.extui v220
  let c0_i32_85 : BitVec 32 := 0#32
  let v222 : BitVec 1 := Scalar.cmpi .slt c2_i32 c0_i32_85
  let v223 : BitVec 32 := Scalar.extui v222
  let v224 : BitVec 32 := Scalar.subi v221 v223
  let v225 : BitVec 1 := Scalar.cmpi .ne v219 v224
  let v226 : BitVec 32 := Scalar.remsi v2 c2_i32
  let c0_i32_86 : BitVec 32 := 0#32
  let v227 : BitVec 1 := Scalar.cmpi .ne v226 c0_i32_86
  let v228 : BitVec 1 := Scalar.andi v225 v227
  let v214 : BitVec 32 := Scalar.divsi v2 c2_i32
  let c1_i32_87 : BitVec 32 := 1#32
  let v229 : BitVec 32 := Scalar.subi v214 c1_i32_87
  let v230 : BitVec 32 := Scalar.select v228 v229 v214
  let c1_i32_88 : BitVec 32 := 1#32
  let v231 : BitVec 32 := Scalar.andi v230 c1_i32_88
  let c1_i32_89 : BitVec 32 := 1#32
  let v232 : BitVec 1 := Scalar.cmpi .eq v231 c1_i32_89
  let c64_i32 : BitVec 32 := 64#32
  let c0_i32_90 : BitVec 32 := 0#32
  let v233 : BitVec 32 := Scalar.select v232 c64_i32 c0_i32_90
  let v234 : BitVec 32 := Scalar.addi c256_i32 v233
  let c0_i32_180 : BitVec 32 := 0#32
  let v354 : BitVec 1 := Scalar.cmpi .sgt v2 c0_i32_180
  let v355 : BitVec 32 := Scalar.extui v354
  let c0_i32_181 : BitVec 32 := 0#32
  let v356 : BitVec 1 := Scalar.cmpi .slt v2 c0_i32_181
  let v357 : BitVec 32 := Scalar.extui v356
  let v358 : BitVec 32 := Scalar.subi v355 v357
  let c2_i32_179 : BitVec 32 := 2#32
  let c0_i32_182 : BitVec 32 := 0#32
  let v359 : BitVec 1 := Scalar.cmpi .sgt c2_i32_179 c0_i32_182
  let v360 : BitVec 32 := Scalar.extui v359
  let c0_i32_183 : BitVec 32 := 0#32
  let v361 : BitVec 1 := Scalar.cmpi .slt c2_i32_179 c0_i32_183
  let v362 : BitVec 32 := Scalar.extui v361
  let v363 : BitVec 32 := Scalar.subi v360 v362
  let v364 : BitVec 1 := Scalar.cmpi .ne v358 v363
  let v365 : BitVec 32 := Scalar.remsi v2 c2_i32_179
  let c0_i32_184 : BitVec 32 := 0#32
  let v366 : BitVec 1 := Scalar.cmpi .ne v365 c0_i32_184
  let v367 : BitVec 1 := Scalar.andi v364 v366
  let v353 : BitVec 32 := Scalar.divsi v2 c2_i32_179
  let c1_i32_185 : BitVec 32 := 1#32
  let v368 : BitVec 32 := Scalar.subi v353 c1_i32_185
  let v369 : BitVec 32 := Scalar.select v367 v368 v353
  let v370 : BitVec 32 := Scalar.xori v2 v369
  let c1_i32_186 : BitVec 32 := 1#32
  let v371 : BitVec 32 := Scalar.andi v370 c1_i32_186
  let c1_i32_187 : BitVec 32 := 1#32
  let v372 : BitVec 1 := Scalar.cmpi .eq v371 c1_i32_187
  let c32_i32 : BitVec 32 := 32#32
  let c0_i32_188 : BitVec 32 := 0#32
  let v373 : BitVec 32 := Scalar.select v372 c32_i32 c0_i32_188
  let v374 : BitVec 32 := Scalar.addi v234 v373
  let c0_i32_288 : BitVec 32 := 0#32
  let v506 : BitVec 1 := Scalar.cmpi .sgt v2 c0_i32_288
  let v507 : BitVec 32 := Scalar.extui v506
  let c0_i32_289 : BitVec 32 := 0#32
  let v508 : BitVec 1 := Scalar.cmpi .slt v2 c0_i32_289
  let v509 : BitVec 32 := Scalar.extui v508
  let v510 : BitVec 32 := Scalar.subi v507 v509
  let c4_i32_287 : BitVec 32 := 4#32
  let c0_i32_290 : BitVec 32 := 0#32
  let v511 : BitVec 1 := Scalar.cmpi .sgt c4_i32_287 c0_i32_290
  let v512 : BitVec 32 := Scalar.extui v511
  let c0_i32_291 : BitVec 32 := 0#32
  let v513 : BitVec 1 := Scalar.cmpi .slt c4_i32_287 c0_i32_291
  let v514 : BitVec 32 := Scalar.extui v513
  let v515 : BitVec 32 := Scalar.subi v512 v514
  let v516 : BitVec 1 := Scalar.cmpi .ne v510 v515
  let v517 : BitVec 32 := Scalar.remsi v2 c4_i32_287
  let c0_i32_292 : BitVec 32 := 0#32
  let v518 : BitVec 1 := Scalar.cmpi .ne v517 c0_i32_292
  let v519 : BitVec 1 := Scalar.andi v516 v518
  let v505 : BitVec 32 := Scalar.divsi v2 c4_i32_287
  let c1_i32_293 : BitVec 32 := 1#32
  let v520 : BitVec 32 := Scalar.subi v505 c1_i32_293
  let v521 : BitVec 32 := Scalar.select v519 v520 v505
  let c1_i32_294 : BitVec 32 := 1#32
  let v522 : BitVec 32 := Scalar.andi v521 c1_i32_294
  let c1_i32_295 : BitVec 32 := 1#32
  let v523 : BitVec 1 := Scalar.cmpi .eq v522 c1_i32_295
  let c16_i32 : BitVec 32 := 16#32
  let c0_i32_296 : BitVec 32 := 0#32
  let v524 : BitVec 32 := Scalar.select v523 c16_i32 c0_i32_296
  let v525 : BitVec 32 := Scalar.addi v374 v524
  let c0_i32_399 : BitVec 32 := 0#32
  let v664 : BitVec 1 := Scalar.cmpi .sgt v2 c0_i32_399
  let v665 : BitVec 32 := Scalar.extui v664
  let c0_i32_400 : BitVec 32 := 0#32
  let v666 : BitVec 1 := Scalar.cmpi .slt v2 c0_i32_400
  let v667 : BitVec 32 := Scalar.extui v666
  let v668 : BitVec 32 := Scalar.subi v665 v667
  let c4_i32_398 : BitVec 32 := 4#32
  let c0_i32_401 : BitVec 32 := 0#32
  let v669 : BitVec 1 := Scalar.cmpi .sgt c4_i32_398 c0_i32_401
  let v670 : BitVec 32 := Scalar.extui v669
  let c0_i32_402 : BitVec 32 := 0#32
  let v671 : BitVec 1 := Scalar.cmpi .slt c4_i32_398 c0_i32_402
  let v672 : BitVec 32 := Scalar.extui v671
  let v673 : BitVec 32 := Scalar.subi v670 v672
  let v674 : BitVec 1 := Scalar.cmpi .ne v668 v673
  let v675 : BitVec 32 := Scalar.remsi v2 c4_i32_398
  let c0_i32_403 : BitVec 32 := 0#32
  let v676 : BitVec 1 := Scalar.cmpi .ne v675 c0_i32_403
  let v677 : BitVec 1 := Scalar.andi v674 v676
  let v663 : BitVec 32 := Scalar.divsi v2 c4_i32_398
  let c1_i32_404 : BitVec 32 := 1#32
  let v678 : BitVec 32 := Scalar.subi v663 c1_i32_404
  let v679 : BitVec 32 := Scalar.select v677 v678 v663
  let c1_i32_405 : BitVec 32 := 1#32
  let v680 : BitVec 32 := Scalar.andi v679 c1_i32_405
  let c1_i32_406 : BitVec 32 := 1#32
  let v681 : BitVec 1 := Scalar.cmpi .eq v680 c1_i32_406
  let c16_i32_407 : BitVec 32 := 16#32
  let c0_i32_408 : BitVec 32 := 0#32
  let v682 : BitVec 32 := Scalar.select v681 c16_i32_407 c0_i32_408
  let v683 : BitVec 32 := Scalar.subi v525 v682
  let c0_i32_485 : BitVec 32 := 0#32
  ![v683.toNat, 0]
def k0_dev17 (d0 : Dev nD) : Nat :=
  let c0_i32_484 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_481 : BitVec 32 := 1#32
  let v782 : BitVec 32 := Scalar.xori v2 c1_i32_481
  let c1_i32_483 : BitVec 32 := 1#32
  let v783 : BitVec 32 := Scalar.muli v782 c1_i32_483
  let v784 : BitVec 32 := Scalar.addi c0_i32_484 v783
  v784.toNat
def k0_off21 (d0 : Dev nD) : Fin 2 → Nat :=
  let c384_i32 : BitVec 32 := 384#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_105 : BitVec 32 := 0#32
  let v253 : BitVec 1 := Scalar.cmpi .sgt v2 c0_i32_105
  let v254 : BitVec 32 := Scalar.extui v253
  let c0_i32_106 : BitVec 32 := 0#32
  let v255 : BitVec 1 := Scalar.cmpi .slt v2 c0_i32_106
  let v256 : BitVec 32 := Scalar.extui v255
  let v257 : BitVec 32 := Scalar.subi v254 v256
  let c2_i32_104 : BitVec 32 := 2#32
  let c0_i32_107 : BitVec 32 := 0#32
  let v258 : BitVec 1 := Scalar.cmpi .sgt c2_i32_104 c0_i32_107
  let v259 : BitVec 32 := Scalar.extui v258
  let c0_i32_108 : BitVec 32 := 0#32
  let v260 : BitVec 1 := Scalar.cmpi .slt c2_i32_104 c0_i32_108
  let v261 : BitVec 32 := Scalar.extui v260
  let v262 : BitVec 32 := Scalar.subi v259 v261
  let v263 : BitVec 1 := Scalar.cmpi .ne v257 v262
  let v264 : BitVec 32 := Scalar.remsi v2 c2_i32_104
  let c0_i32_109 : BitVec 32 := 0#32
  let v265 : BitVec 1 := Scalar.cmpi .ne v264 c0_i32_109
  let v266 : BitVec 1 := Scalar.andi v263 v265
  let v252 : BitVec 32 := Scalar.divsi v2 c2_i32_104
  let c1_i32_110 : BitVec 32 := 1#32
  let v267 : BitVec 32 := Scalar.subi v252 c1_i32_110
  let v268 : BitVec 32 := Scalar.select v266 v267 v252
  let v269 : BitVec 32 := Scalar.xori v2 v268
  let c1_i32_111 : BitVec 32 := 1#32
  let v270 : BitVec 32 := Scalar.andi v269 c1_i32_111
  let c1_i32_112 : BitVec 32 := 1#32
  let v271 : BitVec 1 := Scalar.cmpi .eq v270 c1_i32_112
  let c64_i32_113 : BitVec 32 := 64#32
  let c0_i32_114 : BitVec 32 := 0#32
  let v272 : BitVec 32 := Scalar.select v271 c64_i32_113 c0_i32_114
  let v273 : BitVec 32 := Scalar.addi c384_i32 v272
  let c0_i32_216 : BitVec 32 := 0#32
  let v405 : BitVec 1 := Scalar.cmpi .sgt v2 c0_i32_216
  let v406 : BitVec 32 := Scalar.extui v405
  let c0_i32_217 : BitVec 32 := 0#32
  let v407 : BitVec 1 := Scalar.cmpi .slt v2 c0_i32_217
  let v408 : BitVec 32 := Scalar.extui v407
  let v409 : BitVec 32 := Scalar.subi v406 v408
  let c4_i32_215 : BitVec 32 := 4#32
  let c0_i32_218 : BitVec 32 := 0#32
  let v410 : BitVec 1 := Scalar.cmpi .sgt c4_i32_215 c0_i32_218
  let v411 : BitVec 32 := Scalar.extui v410
  let c0_i32_219 : BitVec 32 := 0#32
  let v412 : BitVec 1 := Scalar.cmpi .slt c4_i32_215 c0_i32_219
  let v413 : BitVec 32 := Scalar.extui v412
  let v414 : BitVec 32 := Scalar.subi v411 v413
  let v415 : BitVec 1 := Scalar.cmpi .ne v409 v414
  let v416 : BitVec 32 := Scalar.remsi v2 c4_i32_215
  let c0_i32_220 : BitVec 32 := 0#32
  let v417 : BitVec 1 := Scalar.cmpi .ne v416 c0_i32_220
  let v418 : BitVec 1 := Scalar.andi v415 v417
  let v404 : BitVec 32 := Scalar.divsi v2 c4_i32_215
  let c1_i32_221 : BitVec 32 := 1#32
  let v419 : BitVec 32 := Scalar.subi v404 c1_i32_221
  let v420 : BitVec 32 := Scalar.select v418 v419 v404
  let c1_i32_222 : BitVec 32 := 1#32
  let v421 : BitVec 32 := Scalar.andi v420 c1_i32_222
  let c1_i32_223 : BitVec 32 := 1#32
  let v422 : BitVec 1 := Scalar.cmpi .eq v421 c1_i32_223
  let c32_i32_224 : BitVec 32 := 32#32
  let c0_i32_225 : BitVec 32 := 0#32
  let v423 : BitVec 32 := Scalar.select v422 c32_i32_224 c0_i32_225
  let v424 : BitVec 32 := Scalar.addi v273 v423
  let c0_i32_323 : BitVec 32 := 0#32
  let v556 : BitVec 1 := Scalar.cmpi .sgt v2 c0_i32_323
  let v557 : BitVec 32 := Scalar.extui v556
  let c0_i32_324 : BitVec 32 := 0#32
  let v558 : BitVec 1 := Scalar.cmpi .slt v2 c0_i32_324
  let v559 : BitVec 32 := Scalar.extui v558
  let v560 : BitVec 32 := Scalar.subi v557 v559
  let c2_i32_322 : BitVec 32 := 2#32
  let c0_i32_325 : BitVec 32 := 0#32
  let v561 : BitVec 1 := Scalar.cmpi .sgt c2_i32_322 c0_i32_325
  let v562 : BitVec 32 := Scalar.extui v561
  let c0_i32_326 : BitVec 32 := 0#32
  let v563 : BitVec 1 := Scalar.cmpi .slt c2_i32_322 c0_i32_326
  let v564 : BitVec 32 := Scalar.extui v563
  let v565 : BitVec 32 := Scalar.subi v562 v564
  let v566 : BitVec 1 := Scalar.cmpi .ne v560 v565
  let v567 : BitVec 32 := Scalar.remsi v2 c2_i32_322
  let c0_i32_327 : BitVec 32 := 0#32
  let v568 : BitVec 1 := Scalar.cmpi .ne v567 c0_i32_327
  let v569 : BitVec 1 := Scalar.andi v566 v568
  let v555 : BitVec 32 := Scalar.divsi v2 c2_i32_322
  let c1_i32_328 : BitVec 32 := 1#32
  let v570 : BitVec 32 := Scalar.subi v555 c1_i32_328
  let v571 : BitVec 32 := Scalar.select v569 v570 v555
  let c1_i32_329 : BitVec 32 := 1#32
  let v572 : BitVec 32 := Scalar.andi v571 c1_i32_329
  let c1_i32_330 : BitVec 32 := 1#32
  let v573 : BitVec 1 := Scalar.cmpi .eq v572 c1_i32_330
  let c16_i32_331 : BitVec 32 := 16#32
  let c0_i32_332 : BitVec 32 := 0#32
  let v574 : BitVec 32 := Scalar.select v573 c16_i32_331 c0_i32_332
  let v575 : BitVec 32 := Scalar.addi v424 v574
  let c0_i32_432 : BitVec 32 := 0#32
  let v712 : BitVec 1 := Scalar.cmpi .sgt v2 c0_i32_432
  let v713 : BitVec 32 := Scalar.extui v712
  let c0_i32_433 : BitVec 32 := 0#32
  let v714 : BitVec 1 := Scalar.cmpi .slt v2 c0_i32_433
  let v715 : BitVec 32 := Scalar.extui v714
  let v716 : BitVec 32 := Scalar.subi v713 v715
  let c2_i32_431 : BitVec 32 := 2#32
  let c0_i32_434 : BitVec 32 := 0#32
  let v717 : BitVec 1 := Scalar.cmpi .sgt c2_i32_431 c0_i32_434
  let v718 : BitVec 32 := Scalar.extui v717
  let c0_i32_435 : BitVec 32 := 0#32
  let v719 : BitVec 1 := Scalar.cmpi .slt c2_i32_431 c0_i32_435
  let v720 : BitVec 32 := Scalar.extui v719
  let v721 : BitVec 32 := Scalar.subi v718 v720
  let v722 : BitVec 1 := Scalar.cmpi .ne v716 v721
  let v723 : BitVec 32 := Scalar.remsi v2 c2_i32_431
  let c0_i32_436 : BitVec 32 := 0#32
  let v724 : BitVec 1 := Scalar.cmpi .ne v723 c0_i32_436
  let v725 : BitVec 1 := Scalar.andi v722 v724
  let v711 : BitVec 32 := Scalar.divsi v2 c2_i32_431
  let c1_i32_437 : BitVec 32 := 1#32
  let v726 : BitVec 32 := Scalar.subi v711 c1_i32_437
  let v727 : BitVec 32 := Scalar.select v725 v726 v711
  let c1_i32_438 : BitVec 32 := 1#32
  let v728 : BitVec 32 := Scalar.andi v727 c1_i32_438
  let c1_i32_439 : BitVec 32 := 1#32
  let v729 : BitVec 1 := Scalar.cmpi .eq v728 c1_i32_439
  let c16_i32_440 : BitVec 32 := 16#32
  let c0_i32_441 : BitVec 32 := 0#32
  let v730 : BitVec 32 := Scalar.select v729 c16_i32_440 c0_i32_441
  let v731 : BitVec 32 := Scalar.subi v575 v730
  let c0_i32_513 : BitVec 32 := 0#32
  ![v731.toNat, 0]
def k0_dev18 (d0 : Dev nD) : Nat :=
  let c0_i32_512 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_509 : BitVec 32 := 4#32
  let v823 : BitVec 32 := Scalar.xori v2 c4_i32_509
  let c1_i32_511 : BitVec 32 := 1#32
  let v824 : BitVec 32 := Scalar.muli v823 c1_i32_511
  let v825 : BitVec 32 := Scalar.addi c0_i32_512 v824
  v825.toNat
def k0_off22 (d0 : Dev nD) : Fin 2 → Nat :=
  let c0_i32_68 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_59 : BitVec 32 := 0#32
  let v177 : BitVec 1 := Scalar.cmpi .sgt v2 c0_i32_59
  let v178 : BitVec 32 := Scalar.extui v177
  let c0_i32_60 : BitVec 32 := 0#32
  let v179 : BitVec 1 := Scalar.cmpi .slt v2 c0_i32_60
  let v180 : BitVec 32 := Scalar.extui v179
  let v181 : BitVec 32 := Scalar.subi v178 v180
  let c4_i32_58 : BitVec 32 := 4#32
  let c0_i32_61 : BitVec 32 := 0#32
  let v182 : BitVec 1 := Scalar.cmpi .sgt c4_i32_58 c0_i32_61
  let v183 : BitVec 32 := Scalar.extui v182
  let c0_i32_62 : BitVec 32 := 0#32
  let v184 : BitVec 1 := Scalar.cmpi .slt c4_i32_58 c0_i32_62
  let v185 : BitVec 32 := Scalar.extui v184
  let v186 : BitVec 32 := Scalar.subi v183 v185
  let v187 : BitVec 1 := Scalar.cmpi .ne v181 v186
  let v188 : BitVec 32 := Scalar.remsi v2 c4_i32_58
  let c0_i32_63 : BitVec 32 := 0#32
  let v189 : BitVec 1 := Scalar.cmpi .ne v188 c0_i32_63
  let v190 : BitVec 1 := Scalar.andi v187 v189
  let v176 : BitVec 32 := Scalar.divsi v2 c4_i32_58
  let c1_i32_64 : BitVec 32 := 1#32
  let v191 : BitVec 32 := Scalar.subi v176 c1_i32_64
  let v192 : BitVec 32 := Scalar.select v190 v191 v176
  let c1_i32_65 : BitVec 32 := 1#32
  let v193 : BitVec 32 := Scalar.andi v192 c1_i32_65
  let c1_i32_66 : BitVec 32 := 1#32
  let v194 : BitVec 1 := Scalar.cmpi .eq v193 c1_i32_66
  let c128_i32 : BitVec 32 := 128#32
  let c0_i32_67 : BitVec 32 := 0#32
  let v195 : BitVec 32 := Scalar.select v194 c128_i32 c0_i32_67
  let v196 : BitVec 32 := Scalar.addi c0_i32_68 v195
  let c0_i32_143 : BitVec 32 := 0#32
  let v304 : BitVec 1 := Scalar.cmpi .sgt v2 c0_i32_143
  let v305 : BitVec 32 := Scalar.extui v304
  let c0_i32_144 : BitVec 32 := 0#32
  let v306 : BitVec 1 := Scalar.cmpi .slt v2 c0_i32_144
  let v307 : BitVec 32 := Scalar.extui v306
  let v308 : BitVec 32 := Scalar.subi v305 v307
  let c2_i32_142 : BitVec 32 := 2#32
  let c0_i32_145 : BitVec 32 := 0#32
  let v309 : BitVec 1 := Scalar.cmpi .sgt c2_i32_142 c0_i32_145
  let v310 : BitVec 32 := Scalar.extui v309
  let c0_i32_146 : BitVec 32 := 0#32
  let v311 : BitVec 1 := Scalar.cmpi .slt c2_i32_142 c0_i32_146
  let v312 : BitVec 32 := Scalar.extui v311
  let v313 : BitVec 32 := Scalar.subi v310 v312
  let v314 : BitVec 1 := Scalar.cmpi .ne v308 v313
  let v315 : BitVec 32 := Scalar.remsi v2 c2_i32_142
  let c0_i32_147 : BitVec 32 := 0#32
  let v316 : BitVec 1 := Scalar.cmpi .ne v315 c0_i32_147
  let v317 : BitVec 1 := Scalar.andi v314 v316
  let v303 : BitVec 32 := Scalar.divsi v2 c2_i32_142
  let c1_i32_148 : BitVec 32 := 1#32
  let v318 : BitVec 32 := Scalar.subi v303 c1_i32_148
  let v319 : BitVec 32 := Scalar.select v317 v318 v303
  let c1_i32_149 : BitVec 32 := 1#32
  let v320 : BitVec 32 := Scalar.andi v319 c1_i32_149
  let c1_i32_150 : BitVec 32 := 1#32
  let v321 : BitVec 1 := Scalar.cmpi .eq v320 c1_i32_150
  let c64_i32_151 : BitVec 32 := 64#32
  let c0_i32_152 : BitVec 32 := 0#32
  let v322 : BitVec 32 := Scalar.select v321 c64_i32_151 c0_i32_152
  let v323 : BitVec 32 := Scalar.addi v196 v322
  let c0_i32_252 : BitVec 32 := 0#32
  let v455 : BitVec 1 := Scalar.cmpi .sgt v2 c0_i32_252
  let v456 : BitVec 32 := Scalar.extui v455
  let c0_i32_253 : BitVec 32 := 0#32
  let v457 : BitVec 1 := Scalar.cmpi .slt v2 c0_i32_253
  let v458 : BitVec 32 := Scalar.extui v457
  let v459 : BitVec 32 := Scalar.subi v456 v458
  let c2_i32_251 : BitVec 32 := 2#32
  let c0_i32_254 : BitVec 32 := 0#32
  let v460 : BitVec 1 := Scalar.cmpi .sgt c2_i32_251 c0_i32_254
  let v461 : BitVec 32 := Scalar.extui v460
  let c0_i32_255 : BitVec 32 := 0#32
  let v462 : BitVec 1 := Scalar.cmpi .slt c2_i32_251 c0_i32_255
  let v463 : BitVec 32 := Scalar.extui v462
  let v464 : BitVec 32 := Scalar.subi v461 v463
  let v465 : BitVec 1 := Scalar.cmpi .ne v459 v464
  let v466 : BitVec 32 := Scalar.remsi v2 c2_i32_251
  let c0_i32_256 : BitVec 32 := 0#32
  let v467 : BitVec 1 := Scalar.cmpi .ne v466 c0_i32_256
  let v468 : BitVec 1 := Scalar.andi v465 v467
  let v454 : BitVec 32 := Scalar.divsi v2 c2_i32_251
  let c1_i32_257 : BitVec 32 := 1#32
  let v469 : BitVec 32 := Scalar.subi v454 c1_i32_257
  let v470 : BitVec 32 := Scalar.select v468 v469 v454
  let v471 : BitVec 32 := Scalar.xori v2 v470
  let c1_i32_258 : BitVec 32 := 1#32
  let v472 : BitVec 32 := Scalar.andi v471 c1_i32_258
  let c1_i32_259 : BitVec 32 := 1#32
  let v473 : BitVec 1 := Scalar.cmpi .eq v472 c1_i32_259
  let c32_i32_260 : BitVec 32 := 32#32
  let c0_i32_261 : BitVec 32 := 0#32
  let v474 : BitVec 32 := Scalar.select v473 c32_i32_260 c0_i32_261
  let v475 : BitVec 32 := Scalar.addi v323 v474
  let c0_i32_366 : BitVec 32 := 0#32
  let v615 : BitVec 1 := Scalar.cmpi .sgt v2 c0_i32_366
  let v616 : BitVec 32 := Scalar.extui v615
  let c0_i32_367 : BitVec 32 := 0#32
  let v617 : BitVec 1 := Scalar.cmpi .slt v2 c0_i32_367
  let v618 : BitVec 32 := Scalar.extui v617
  let v619 : BitVec 32 := Scalar.subi v616 v618
  let c2_i32_365 : BitVec 32 := 2#32
  let c0_i32_368 : BitVec 32 := 0#32
  let v620 : BitVec 1 := Scalar.cmpi .sgt c2_i32_365 c0_i32_368
  let v621 : BitVec 32 := Scalar.extui v620
  let c0_i32_369 : BitVec 32 := 0#32
  let v622 : BitVec 1 := Scalar.cmpi .slt c2_i32_365 c0_i32_369
  let v623 : BitVec 32 := Scalar.extui v622
  let v624 : BitVec 32 := Scalar.subi v621 v623
  let v625 : BitVec 1 := Scalar.cmpi .ne v619 v624
  let v626 : BitVec 32 := Scalar.remsi v2 c2_i32_365
  let c0_i32_370 : BitVec 32 := 0#32
  let v627 : BitVec 1 := Scalar.cmpi .ne v626 c0_i32_370
  let v628 : BitVec 1 := Scalar.andi v625 v627
  let v614 : BitVec 32 := Scalar.divsi v2 c2_i32_365
  let c1_i32_371 : BitVec 32 := 1#32
  let v629 : BitVec 32 := Scalar.subi v614 c1_i32_371
  let v630 : BitVec 32 := Scalar.select v628 v629 v614
  let v631 : BitVec 32 := Scalar.xori v2 v630
  let c1_i32_372 : BitVec 32 := 1#32
  let v632 : BitVec 32 := Scalar.andi v631 c1_i32_372
  let c1_i32_373 : BitVec 32 := 1#32
  let v633 : BitVec 1 := Scalar.cmpi .eq v632 c1_i32_373
  let c32_i32_374 : BitVec 32 := 32#32
  let c0_i32_375 : BitVec 32 := 0#32
  let v634 : BitVec 32 := Scalar.select v633 c32_i32_374 c0_i32_375
  let v635 : BitVec 32 := Scalar.subi v475 v634
  let c0_i32_460 : BitVec 32 := 0#32
  let v752 : BitVec 1 := Scalar.cmpi .sgt v2 c0_i32_460
  let v753 : BitVec 32 := Scalar.extui v752
  let c0_i32_461 : BitVec 32 := 0#32
  let v754 : BitVec 1 := Scalar.cmpi .slt v2 c0_i32_461
  let v755 : BitVec 32 := Scalar.extui v754
  let v756 : BitVec 32 := Scalar.subi v753 v755
  let c2_i32_459 : BitVec 32 := 2#32
  let c0_i32_462 : BitVec 32 := 0#32
  let v757 : BitVec 1 := Scalar.cmpi .sgt c2_i32_459 c0_i32_462
  let v758 : BitVec 32 := Scalar.extui v757
  let c0_i32_463 : BitVec 32 := 0#32
  let v759 : BitVec 1 := Scalar.cmpi .slt c2_i32_459 c0_i32_463
  let v760 : BitVec 32 := Scalar.extui v759
  let v761 : BitVec 32 := Scalar.subi v758 v760
  let v762 : BitVec 1 := Scalar.cmpi .ne v756 v761
  let v763 : BitVec 32 := Scalar.remsi v2 c2_i32_459
  let c0_i32_464 : BitVec 32 := 0#32
  let v764 : BitVec 1 := Scalar.cmpi .ne v763 c0_i32_464
  let v765 : BitVec 1 := Scalar.andi v762 v764
  let v751 : BitVec 32 := Scalar.divsi v2 c2_i32_459
  let c1_i32_465 : BitVec 32 := 1#32
  let v766 : BitVec 32 := Scalar.subi v751 c1_i32_465
  let v767 : BitVec 32 := Scalar.select v765 v766 v751
  let c1_i32_466 : BitVec 32 := 1#32
  let v768 : BitVec 32 := Scalar.andi v767 c1_i32_466
  let c1_i32_467 : BitVec 32 := 1#32
  let v769 : BitVec 1 := Scalar.cmpi .eq v768 c1_i32_467
  let c64_i32_468 : BitVec 32 := 64#32
  let c0_i32_469 : BitVec 32 := 0#32
  let v770 : BitVec 32 := Scalar.select v769 c64_i32_468 c0_i32_469
  let v771 : BitVec 32 := Scalar.subi v635 v770
  let c0_i32_541 : BitVec 32 := 0#32
  ![v771.toNat, 0]
def k0_dev19 (d0 : Dev nD) : Nat :=
  let c0_i32_540 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_537 : BitVec 32 := 4#32
  let v863 : BitVec 32 := Scalar.xori v2 c4_i32_537
  let c1_i32_539 : BitVec 32 := 1#32
  let v864 : BitVec 32 := Scalar.muli v863 c1_i32_539
  let v865 : BitVec 32 := Scalar.addi c0_i32_540 v864
  v865.toNat
def k0_off23 (d0 : Dev nD) : Fin 2 → Nat :=
  let c256_i32 : BitVec 32 := 256#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_82 : BitVec 32 := 0#32
  let v215 : BitVec 1 := Scalar.cmpi .sgt v2 c0_i32_82
  let v216 : BitVec 32 := Scalar.extui v215
  let c0_i32_83 : BitVec 32 := 0#32
  let v217 : BitVec 1 := Scalar.cmpi .slt v2 c0_i32_83
  let v218 : BitVec 32 := Scalar.extui v217
  let v219 : BitVec 32 := Scalar.subi v216 v218
  let c2_i32 : BitVec 32 := 2#32
  let c0_i32_84 : BitVec 32 := 0#32
  let v220 : BitVec 1 := Scalar.cmpi .sgt c2_i32 c0_i32_84
  let v221 : BitVec 32 := Scalar.extui v220
  let c0_i32_85 : BitVec 32 := 0#32
  let v222 : BitVec 1 := Scalar.cmpi .slt c2_i32 c0_i32_85
  let v223 : BitVec 32 := Scalar.extui v222
  let v224 : BitVec 32 := Scalar.subi v221 v223
  let v225 : BitVec 1 := Scalar.cmpi .ne v219 v224
  let v226 : BitVec 32 := Scalar.remsi v2 c2_i32
  let c0_i32_86 : BitVec 32 := 0#32
  let v227 : BitVec 1 := Scalar.cmpi .ne v226 c0_i32_86
  let v228 : BitVec 1 := Scalar.andi v225 v227
  let v214 : BitVec 32 := Scalar.divsi v2 c2_i32
  let c1_i32_87 : BitVec 32 := 1#32
  let v229 : BitVec 32 := Scalar.subi v214 c1_i32_87
  let v230 : BitVec 32 := Scalar.select v228 v229 v214
  let c1_i32_88 : BitVec 32 := 1#32
  let v231 : BitVec 32 := Scalar.andi v230 c1_i32_88
  let c1_i32_89 : BitVec 32 := 1#32
  let v232 : BitVec 1 := Scalar.cmpi .eq v231 c1_i32_89
  let c64_i32 : BitVec 32 := 64#32
  let c0_i32_90 : BitVec 32 := 0#32
  let v233 : BitVec 32 := Scalar.select v232 c64_i32 c0_i32_90
  let v234 : BitVec 32 := Scalar.addi c256_i32 v233
  let c0_i32_180 : BitVec 32 := 0#32
  let v354 : BitVec 1 := Scalar.cmpi .sgt v2 c0_i32_180
  let v355 : BitVec 32 := Scalar.extui v354
  let c0_i32_181 : BitVec 32 := 0#32
  let v356 : BitVec 1 := Scalar.cmpi .slt v2 c0_i32_181
  let v357 : BitVec 32 := Scalar.extui v356
  let v358 : BitVec 32 := Scalar.subi v355 v357
  let c2_i32_179 : BitVec 32 := 2#32
  let c0_i32_182 : BitVec 32 := 0#32
  let v359 : BitVec 1 := Scalar.cmpi .sgt c2_i32_179 c0_i32_182
  let v360 : BitVec 32 := Scalar.extui v359
  let c0_i32_183 : BitVec 32 := 0#32
  let v361 : BitVec 1 := Scalar.cmpi .slt c2_i32_179 c0_i32_183
  let v362 : BitVec 32 := Scalar.extui v361
  let v363 : BitVec 32 := Scalar.subi v360 v362
  let v364 : BitVec 1 := Scalar.cmpi .ne v358 v363
  let v365 : BitVec 32 := Scalar.remsi v2 c2_i32_179
  let c0_i32_184 : BitVec 32 := 0#32
  let v366 : BitVec 1 := Scalar.cmpi .ne v365 c0_i32_184
  let v367 : BitVec 1 := Scalar.andi v364 v366
  let v353 : BitVec 32 := Scalar.divsi v2 c2_i32_179
  let c1_i32_185 : BitVec 32 := 1#32
  let v368 : BitVec 32 := Scalar.subi v353 c1_i32_185
  let v369 : BitVec 32 := Scalar.select v367 v368 v353
  let v370 : BitVec 32 := Scalar.xori v2 v369
  let c1_i32_186 : BitVec 32 := 1#32
  let v371 : BitVec 32 := Scalar.andi v370 c1_i32_186
  let c1_i32_187 : BitVec 32 := 1#32
  let v372 : BitVec 1 := Scalar.cmpi .eq v371 c1_i32_187
  let c32_i32 : BitVec 32 := 32#32
  let c0_i32_188 : BitVec 32 := 0#32
  let v373 : BitVec 32 := Scalar.select v372 c32_i32 c0_i32_188
  let v374 : BitVec 32 := Scalar.addi v234 v373
  let c0_i32_288 : BitVec 32 := 0#32
  let v506 : BitVec 1 := Scalar.cmpi .sgt v2 c0_i32_288
  let v507 : BitVec 32 := Scalar.extui v506
  let c0_i32_289 : BitVec 32 := 0#32
  let v508 : BitVec 1 := Scalar.cmpi .slt v2 c0_i32_289
  let v509 : BitVec 32 := Scalar.extui v508
  let v510 : BitVec 32 := Scalar.subi v507 v509
  let c4_i32_287 : BitVec 32 := 4#32
  let c0_i32_290 : BitVec 32 := 0#32
  let v511 : BitVec 1 := Scalar.cmpi .sgt c4_i32_287 c0_i32_290
  let v512 : BitVec 32 := Scalar.extui v511
  let c0_i32_291 : BitVec 32 := 0#32
  let v513 : BitVec 1 := Scalar.cmpi .slt c4_i32_287 c0_i32_291
  let v514 : BitVec 32 := Scalar.extui v513
  let v515 : BitVec 32 := Scalar.subi v512 v514
  let v516 : BitVec 1 := Scalar.cmpi .ne v510 v515
  let v517 : BitVec 32 := Scalar.remsi v2 c4_i32_287
  let c0_i32_292 : BitVec 32 := 0#32
  let v518 : BitVec 1 := Scalar.cmpi .ne v517 c0_i32_292
  let v519 : BitVec 1 := Scalar.andi v516 v518
  let v505 : BitVec 32 := Scalar.divsi v2 c4_i32_287
  let c1_i32_293 : BitVec 32 := 1#32
  let v520 : BitVec 32 := Scalar.subi v505 c1_i32_293
  let v521 : BitVec 32 := Scalar.select v519 v520 v505
  let c1_i32_294 : BitVec 32 := 1#32
  let v522 : BitVec 32 := Scalar.andi v521 c1_i32_294
  let c1_i32_295 : BitVec 32 := 1#32
  let v523 : BitVec 1 := Scalar.cmpi .eq v522 c1_i32_295
  let c16_i32 : BitVec 32 := 16#32
  let c0_i32_296 : BitVec 32 := 0#32
  let v524 : BitVec 32 := Scalar.select v523 c16_i32 c0_i32_296
  let v525 : BitVec 32 := Scalar.addi v374 v524
  let c0_i32_399 : BitVec 32 := 0#32
  let v664 : BitVec 1 := Scalar.cmpi .sgt v2 c0_i32_399
  let v665 : BitVec 32 := Scalar.extui v664
  let c0_i32_400 : BitVec 32 := 0#32
  let v666 : BitVec 1 := Scalar.cmpi .slt v2 c0_i32_400
  let v667 : BitVec 32 := Scalar.extui v666
  let v668 : BitVec 32 := Scalar.subi v665 v667
  let c4_i32_398 : BitVec 32 := 4#32
  let c0_i32_401 : BitVec 32 := 0#32
  let v669 : BitVec 1 := Scalar.cmpi .sgt c4_i32_398 c0_i32_401
  let v670 : BitVec 32 := Scalar.extui v669
  let c0_i32_402 : BitVec 32 := 0#32
  let v671 : BitVec 1 := Scalar.cmpi .slt c4_i32_398 c0_i32_402
  let v672 : BitVec 32 := Scalar.extui v671
  let v673 : BitVec 32 := Scalar.subi v670 v672
  let v674 : BitVec 1 := Scalar.cmpi .ne v668 v673
  let v675 : BitVec 32 := Scalar.remsi v2 c4_i32_398
  let c0_i32_403 : BitVec 32 := 0#32
  let v676 : BitVec 1 := Scalar.cmpi .ne v675 c0_i32_403
  let v677 : BitVec 1 := Scalar.andi v674 v676
  let v663 : BitVec 32 := Scalar.divsi v2 c4_i32_398
  let c1_i32_404 : BitVec 32 := 1#32
  let v678 : BitVec 32 := Scalar.subi v663 c1_i32_404
  let v679 : BitVec 32 := Scalar.select v677 v678 v663
  let c1_i32_405 : BitVec 32 := 1#32
  let v680 : BitVec 32 := Scalar.andi v679 c1_i32_405
  let c1_i32_406 : BitVec 32 := 1#32
  let v681 : BitVec 1 := Scalar.cmpi .eq v680 c1_i32_406
  let c16_i32_407 : BitVec 32 := 16#32
  let c0_i32_408 : BitVec 32 := 0#32
  let v682 : BitVec 32 := Scalar.select v681 c16_i32_407 c0_i32_408
  let v683 : BitVec 32 := Scalar.subi v525 v682
  let c0_i32_488 : BitVec 32 := 0#32
  let v792 : BitVec 1 := Scalar.cmpi .sgt v2 c0_i32_488
  let v793 : BitVec 32 := Scalar.extui v792
  let c0_i32_489 : BitVec 32 := 0#32
  let v794 : BitVec 1 := Scalar.cmpi .slt v2 c0_i32_489
  let v795 : BitVec 32 := Scalar.extui v794
  let v796 : BitVec 32 := Scalar.subi v793 v795
  let c2_i32_487 : BitVec 32 := 2#32
  let c0_i32_490 : BitVec 32 := 0#32
  let v797 : BitVec 1 := Scalar.cmpi .sgt c2_i32_487 c0_i32_490
  let v798 : BitVec 32 := Scalar.extui v797
  let c0_i32_491 : BitVec 32 := 0#32
  let v799 : BitVec 1 := Scalar.cmpi .slt c2_i32_487 c0_i32_491
  let v800 : BitVec 32 := Scalar.extui v799
  let v801 : BitVec 32 := Scalar.subi v798 v800
  let v802 : BitVec 1 := Scalar.cmpi .ne v796 v801
  let v803 : BitVec 32 := Scalar.remsi v2 c2_i32_487
  let c0_i32_492 : BitVec 32 := 0#32
  let v804 : BitVec 1 := Scalar.cmpi .ne v803 c0_i32_492
  let v805 : BitVec 1 := Scalar.andi v802 v804
  let v791 : BitVec 32 := Scalar.divsi v2 c2_i32_487
  let c1_i32_493 : BitVec 32 := 1#32
  let v806 : BitVec 32 := Scalar.subi v791 c1_i32_493
  let v807 : BitVec 32 := Scalar.select v805 v806 v791
  let v808 : BitVec 32 := Scalar.xori v2 v807
  let c1_i32_494 : BitVec 32 := 1#32
  let v809 : BitVec 32 := Scalar.andi v808 c1_i32_494
  let c1_i32_495 : BitVec 32 := 1#32
  let v810 : BitVec 1 := Scalar.cmpi .eq v809 c1_i32_495
  let c32_i32_496 : BitVec 32 := 32#32
  let c0_i32_497 : BitVec 32 := 0#32
  let v811 : BitVec 32 := Scalar.select v810 c32_i32_496 c0_i32_497
  let v812 : BitVec 32 := Scalar.subi v683 v811
  let c0_i32_559 : BitVec 32 := 0#32
  ![v812.toNat, 0]
def k0_dev20 (d0 : Dev nD) : Nat :=
  let c0_i32_558 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_554 : BitVec 32 := 3#32
  let v882 : BitVec 32 := Scalar.xori v2 c3_i32_554
  let c1_i32_557 : BitVec 32 := 1#32
  let v883 : BitVec 32 := Scalar.muli v882 c1_i32_557
  let v884 : BitVec 32 := Scalar.addi c0_i32_558 v883
  v884.toNat
def k0_off24 (d0 : Dev nD) : Fin 2 → Nat :=
  let c384_i32 : BitVec 32 := 384#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_105 : BitVec 32 := 0#32
  let v253 : BitVec 1 := Scalar.cmpi .sgt v2 c0_i32_105
  let v254 : BitVec 32 := Scalar.extui v253
  let c0_i32_106 : BitVec 32 := 0#32
  let v255 : BitVec 1 := Scalar.cmpi .slt v2 c0_i32_106
  let v256 : BitVec 32 := Scalar.extui v255
  let v257 : BitVec 32 := Scalar.subi v254 v256
  let c2_i32_104 : BitVec 32 := 2#32
  let c0_i32_107 : BitVec 32 := 0#32
  let v258 : BitVec 1 := Scalar.cmpi .sgt c2_i32_104 c0_i32_107
  let v259 : BitVec 32 := Scalar.extui v258
  let c0_i32_108 : BitVec 32 := 0#32
  let v260 : BitVec 1 := Scalar.cmpi .slt c2_i32_104 c0_i32_108
  let v261 : BitVec 32 := Scalar.extui v260
  let v262 : BitVec 32 := Scalar.subi v259 v261
  let v263 : BitVec 1 := Scalar.cmpi .ne v257 v262
  let v264 : BitVec 32 := Scalar.remsi v2 c2_i32_104
  let c0_i32_109 : BitVec 32 := 0#32
  let v265 : BitVec 1 := Scalar.cmpi .ne v264 c0_i32_109
  let v266 : BitVec 1 := Scalar.andi v263 v265
  let v252 : BitVec 32 := Scalar.divsi v2 c2_i32_104
  let c1_i32_110 : BitVec 32 := 1#32
  let v267 : BitVec 32 := Scalar.subi v252 c1_i32_110
  let v268 : BitVec 32 := Scalar.select v266 v267 v252
  let v269 : BitVec 32 := Scalar.xori v2 v268
  let c1_i32_111 : BitVec 32 := 1#32
  let v270 : BitVec 32 := Scalar.andi v269 c1_i32_111
  let c1_i32_112 : BitVec 32 := 1#32
  let v271 : BitVec 1 := Scalar.cmpi .eq v270 c1_i32_112
  let c64_i32_113 : BitVec 32 := 64#32
  let c0_i32_114 : BitVec 32 := 0#32
  let v272 : BitVec 32 := Scalar.select v271 c64_i32_113 c0_i32_114
  let v273 : BitVec 32 := Scalar.addi c384_i32 v272
  let c0_i32_216 : BitVec 32 := 0#32
  let v405 : BitVec 1 := Scalar.cmpi .sgt v2 c0_i32_216
  let v406 : BitVec 32 := Scalar.extui v405
  let c0_i32_217 : BitVec 32 := 0#32
  let v407 : BitVec 1 := Scalar.cmpi .slt v2 c0_i32_217
  let v408 : BitVec 32 := Scalar.extui v407
  let v409 : BitVec 32 := Scalar.subi v406 v408
  let c4_i32_215 : BitVec 32 := 4#32
  let c0_i32_218 : BitVec 32 := 0#32
  let v410 : BitVec 1 := Scalar.cmpi .sgt c4_i32_215 c0_i32_218
  let v411 : BitVec 32 := Scalar.extui v410
  let c0_i32_219 : BitVec 32 := 0#32
  let v412 : BitVec 1 := Scalar.cmpi .slt c4_i32_215 c0_i32_219
  let v413 : BitVec 32 := Scalar.extui v412
  let v414 : BitVec 32 := Scalar.subi v411 v413
  let v415 : BitVec 1 := Scalar.cmpi .ne v409 v414
  let v416 : BitVec 32 := Scalar.remsi v2 c4_i32_215
  let c0_i32_220 : BitVec 32 := 0#32
  let v417 : BitVec 1 := Scalar.cmpi .ne v416 c0_i32_220
  let v418 : BitVec 1 := Scalar.andi v415 v417
  let v404 : BitVec 32 := Scalar.divsi v2 c4_i32_215
  let c1_i32_221 : BitVec 32 := 1#32
  let v419 : BitVec 32 := Scalar.subi v404 c1_i32_221
  let v420 : BitVec 32 := Scalar.select v418 v419 v404
  let c1_i32_222 : BitVec 32 := 1#32
  let v421 : BitVec 32 := Scalar.andi v420 c1_i32_222
  let c1_i32_223 : BitVec 32 := 1#32
  let v422 : BitVec 1 := Scalar.cmpi .eq v421 c1_i32_223
  let c32_i32_224 : BitVec 32 := 32#32
  let c0_i32_225 : BitVec 32 := 0#32
  let v423 : BitVec 32 := Scalar.select v422 c32_i32_224 c0_i32_225
  let v424 : BitVec 32 := Scalar.addi v273 v423
  let c0_i32_323 : BitVec 32 := 0#32
  let v556 : BitVec 1 := Scalar.cmpi .sgt v2 c0_i32_323
  let v557 : BitVec 32 := Scalar.extui v556
  let c0_i32_324 : BitVec 32 := 0#32
  let v558 : BitVec 1 := Scalar.cmpi .slt v2 c0_i32_324
  let v559 : BitVec 32 := Scalar.extui v558
  let v560 : BitVec 32 := Scalar.subi v557 v559
  let c2_i32_322 : BitVec 32 := 2#32
  let c0_i32_325 : BitVec 32 := 0#32
  let v561 : BitVec 1 := Scalar.cmpi .sgt c2_i32_322 c0_i32_325
  let v562 : BitVec 32 := Scalar.extui v561
  let c0_i32_326 : BitVec 32 := 0#32
  let v563 : BitVec 1 := Scalar.cmpi .slt c2_i32_322 c0_i32_326
  let v564 : BitVec 32 := Scalar.extui v563
  let v565 : BitVec 32 := Scalar.subi v562 v564
  let v566 : BitVec 1 := Scalar.cmpi .ne v560 v565
  let v567 : BitVec 32 := Scalar.remsi v2 c2_i32_322
  let c0_i32_327 : BitVec 32 := 0#32
  let v568 : BitVec 1 := Scalar.cmpi .ne v567 c0_i32_327
  let v569 : BitVec 1 := Scalar.andi v566 v568
  let v555 : BitVec 32 := Scalar.divsi v2 c2_i32_322
  let c1_i32_328 : BitVec 32 := 1#32
  let v570 : BitVec 32 := Scalar.subi v555 c1_i32_328
  let v571 : BitVec 32 := Scalar.select v569 v570 v555
  let c1_i32_329 : BitVec 32 := 1#32
  let v572 : BitVec 32 := Scalar.andi v571 c1_i32_329
  let c1_i32_330 : BitVec 32 := 1#32
  let v573 : BitVec 1 := Scalar.cmpi .eq v572 c1_i32_330
  let c16_i32_331 : BitVec 32 := 16#32
  let c0_i32_332 : BitVec 32 := 0#32
  let v574 : BitVec 32 := Scalar.select v573 c16_i32_331 c0_i32_332
  let v575 : BitVec 32 := Scalar.addi v424 v574
  let c0_i32_432 : BitVec 32 := 0#32
  let v712 : BitVec 1 := Scalar.cmpi .sgt v2 c0_i32_432
  let v713 : BitVec 32 := Scalar.extui v712
  let c0_i32_433 : BitVec 32 := 0#32
  let v714 : BitVec 1 := Scalar.cmpi .slt v2 c0_i32_433
  let v715 : BitVec 32 := Scalar.extui v714
  let v716 : BitVec 32 := Scalar.subi v713 v715
  let c2_i32_431 : BitVec 32 := 2#32
  let c0_i32_434 : BitVec 32 := 0#32
  let v717 : BitVec 1 := Scalar.cmpi .sgt c2_i32_431 c0_i32_434
  let v718 : BitVec 32 := Scalar.extui v717
  let c0_i32_435 : BitVec 32 := 0#32
  let v719 : BitVec 1 := Scalar.cmpi .slt c2_i32_431 c0_i32_435
  let v720 : BitVec 32 := Scalar.extui v719
  let v721 : BitVec 32 := Scalar.subi v718 v720
  let v722 : BitVec 1 := Scalar.cmpi .ne v716 v721
  let v723 : BitVec 32 := Scalar.remsi v2 c2_i32_431
  let c0_i32_436 : BitVec 32 := 0#32
  let v724 : BitVec 1 := Scalar.cmpi .ne v723 c0_i32_436
  let v725 : BitVec 1 := Scalar.andi v722 v724
  let v711 : BitVec 32 := Scalar.divsi v2 c2_i32_431
  let c1_i32_437 : BitVec 32 := 1#32
  let v726 : BitVec 32 := Scalar.subi v711 c1_i32_437
  let v727 : BitVec 32 := Scalar.select v725 v726 v711
  let c1_i32_438 : BitVec 32 := 1#32
  let v728 : BitVec 32 := Scalar.andi v727 c1_i32_438
  let c1_i32_439 : BitVec 32 := 1#32
  let v729 : BitVec 1 := Scalar.cmpi .eq v728 c1_i32_439
  let c16_i32_440 : BitVec 32 := 16#32
  let c0_i32_441 : BitVec 32 := 0#32
  let v730 : BitVec 32 := Scalar.select v729 c16_i32_440 c0_i32_441
  let v731 : BitVec 32 := Scalar.subi v575 v730
  let c0_i32_516 : BitVec 32 := 0#32
  let v833 : BitVec 1 := Scalar.cmpi .sgt v2 c0_i32_516
  let v834 : BitVec 32 := Scalar.extui v833
  let c0_i32_517 : BitVec 32 := 0#32
  let v835 : BitVec 1 := Scalar.cmpi .slt v2 c0_i32_517
  let v836 : BitVec 32 := Scalar.extui v835
  let v837 : BitVec 32 := Scalar.subi v834 v836
  let c4_i32_515 : BitVec 32 := 4#32
  let c0_i32_518 : BitVec 32 := 0#32
  let v838 : BitVec 1 := Scalar.cmpi .sgt c4_i32_515 c0_i32_518
  let v839 : BitVec 32 := Scalar.extui v838
  let c0_i32_519 : BitVec 32 := 0#32
  let v840 : BitVec 1 := Scalar.cmpi .slt c4_i32_515 c0_i32_519
  let v841 : BitVec 32 := Scalar.extui v840
  let v842 : BitVec 32 := Scalar.subi v839 v841
  let v843 : BitVec 1 := Scalar.cmpi .ne v837 v842
  let v844 : BitVec 32 := Scalar.remsi v2 c4_i32_515
  let c0_i32_520 : BitVec 32 := 0#32
  let v845 : BitVec 1 := Scalar.cmpi .ne v844 c0_i32_520
  let v846 : BitVec 1 := Scalar.andi v843 v845
  let v832 : BitVec 32 := Scalar.divsi v2 c4_i32_515
  let c1_i32_521 : BitVec 32 := 1#32
  let v847 : BitVec 32 := Scalar.subi v832 c1_i32_521
  let v848 : BitVec 32 := Scalar.select v846 v847 v832
  let c1_i32_522 : BitVec 32 := 1#32
  let v849 : BitVec 32 := Scalar.andi v848 c1_i32_522
  let c1_i32_523 : BitVec 32 := 1#32
  let v850 : BitVec 1 := Scalar.cmpi .eq v849 c1_i32_523
  let c32_i32_524 : BitVec 32 := 32#32
  let c0_i32_525 : BitVec 32 := 0#32
  let v851 : BitVec 32 := Scalar.select v850 c32_i32_524 c0_i32_525
  let v852 : BitVec 32 := Scalar.subi v731 v851
  let c0_i32_576 : BitVec 32 := 0#32
  ![v852.toNat, 0]
def k0_dev21 (d0 : Dev nD) : Nat :=
  let c0_i32_575 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_572 : BitVec 32 := 1#32
  let v901 : BitVec 32 := Scalar.xori v2 c1_i32_572
  let c1_i32_574 : BitVec 32 := 1#32
  let v902 : BitVec 32 := Scalar.muli v901 c1_i32_574
  let v903 : BitVec 32 := Scalar.addi c0_i32_575 v902
  v903.toNat
abbrev stage0_0 : Fin 1 → Memref sig .tc .vmem S1x512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x512x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

class Facts₀ : Prop where
  hamt_1 : (1#32 : BitVec 32).msb = false
  hamt_3 : (3#32 : BitVec 32).msb = false
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  slices_S512x1024_o0_0_S512x128 : S512x1024.Slices ![0, 0] S512x128
  reduces_S512x512_S512 : S512x512.Reduces [1] S512
  shapeCasts_S512_S512x1 : S512.ShapeCasts S512x1
  broadcasts_S512x1_S512x128 : S512x1.Broadcasts S512x128
  slices_S512x1024_o0_128_S512x128 : S512x1024.Slices ![0, 128] S512x128
  slices_S512x1024_o0_256_S512x128 : S512x1024.Slices ![0, 256] S512x128
  slices_S512x1024_o0_384_S512x128 : S512x1024.Slices ![0, 384] S512x128
  slices_S512x1024_o0_512_S512x128 : S512x1024.Slices ![0, 512] S512x128
  slices_S512x1024_o0_640_S512x128 : S512x1024.Slices ![0, 640] S512x128
  slices_S512x1024_o0_768_S512x128 : S512x1024.Slices ![0, 768] S512x128
  slices_S512x1024_o0_896_S512x128 : S512x1024.Slices ![0, 896] S512x128
  concatenates_S512x128_S512x128_S512x128_S512x128_S512x128_S512x128_S512x128_S512x128_S512x1024_d1 : Shape.Concatenates [S512x128, S512x128, S512x128, S512x128, S512x128, S512x128, S512x128, S512x128] S512x1024 1
  slices_S512x1024_o0_0_S256x1024 : S512x1024.Slices ![0, 0] S256x1024
  inb_S512x1024_S256x1024_0_0 : ∀ a, (![0, 0] : Fin 2 → Nat) a + S256x1024.size a ≤ S512x1024.size a
  h_S256x1024 : 0 < S256x1024.numel
  shapeCasts_S256x1024_S256x1024 : S256x1024.ShapeCasts S256x1024
  packedbf16_S512x1024_S256x1024_0_0 : (Rect.unit (s := S512x1024) ![0, 0] S256x1024.size inb_S512x1024_S256x1024_0_0).PackedRows (EltTy.packing .bf16)
  inb_S18_S1_0 : ∀ a, (![0] : Fin 1 → Nat) a + S1.size a ≤ S18.size a
  squeezes_S1_S_ : S1.Squeezes S_
  inb_S256x1024_S128x1024_0_0 : ∀ a, (![0, 0] : Fin 2 → Nat) a + S128x1024.size a ≤ S256x1024.size a
  wordsbf16_S256x1024_S128x1024_0_0 : (Rect.unit (s := S256x1024) ![0, 0] S128x1024.size inb_S256x1024_S128x1024_0_0).WholeWords (EltTy.packing .bf16)
  slices_S512x1024_o256_0_S128x1024 : S512x1024.Slices ![256, 0] S128x1024
  inb_S512x1024_S128x1024_256_0 : ∀ a, (![256, 0] : Fin 2 → Nat) a + S128x1024.size a ≤ S512x1024.size a
  h_S128x1024 : 0 < S128x1024.numel
  shapeCasts_S128x1024_S128x1024 : S128x1024.ShapeCasts S128x1024
  packedbf16_S512x1024_S128x1024_256_0 : (Rect.unit (s := S512x1024) ![256, 0] S128x1024.size inb_S512x1024_S128x1024_256_0).PackedRows (EltTy.packing .bf16)
  inb_S18_S1_1 : ∀ a, (![1] : Fin 1 → Nat) a + S1.size a ≤ S18.size a
  inb_S256x1024_S64x1024_128_0 : ∀ a, (![128, 0] : Fin 2 → Nat) a + S64x1024.size a ≤ S256x1024.size a
  wordsbf16_S256x1024_S64x1024_128_0 : (Rect.unit (s := S256x1024) ![128, 0] S64x1024.size inb_S256x1024_S64x1024_128_0).WholeWords (EltTy.packing .bf16)
  slices_S512x1024_o384_0_S128x1024 : S512x1024.Slices ![384, 0] S128x1024
  inb_S512x1024_S128x1024_384_0 : ∀ a, (![384, 0] : Fin 2 → Nat) a + S128x1024.size a ≤ S512x1024.size a
  packedbf16_S512x1024_S128x1024_384_0 : (Rect.unit (s := S512x1024) ![384, 0] S128x1024.size inb_S512x1024_S128x1024_384_0).PackedRows (EltTy.packing .bf16)
  inb_S18_S1_2 : ∀ a, (![2] : Fin 1 → Nat) a + S1.size a ≤ S18.size a
  inb_S256x1024_S64x1024_192_0 : ∀ a, (![192, 0] : Fin 2 → Nat) a + S64x1024.size a ≤ S256x1024.size a
  wordsbf16_S256x1024_S64x1024_192_0 : (Rect.unit (s := S256x1024) ![192, 0] S64x1024.size inb_S256x1024_S64x1024_192_0).WholeWords (EltTy.packing .bf16)
  inb_S18_S1_3 : ∀ a, (![3] : Fin 1 → Nat) a + S1.size a ≤ S18.size a
  inb_S128x1024_S64x1024_0_0 : ∀ a, (![0, 0] : Fin 2 → Nat) a + S64x1024.size a ≤ S128x1024.size a
  wordsbf16_S128x1024_S64x1024_0_0 : (Rect.unit (s := S128x1024) ![0, 0] S64x1024.size inb_S128x1024_S64x1024_0_0).WholeWords (EltTy.packing .bf16)
  h_S64x1024 : 0 < S64x1024.numel
  shapeCasts_S64x1024_S64x1024 : S64x1024.ShapeCasts S64x1024
  inb_S18_S1_4 : ∀ a, (![4] : Fin 1 → Nat) a + S1.size a ≤ S18.size a
  inb_S128x1024_S32x1024_64_0 : ∀ a, (![64, 0] : Fin 2 → Nat) a + S32x1024.size a ≤ S128x1024.size a
  wordsbf16_S128x1024_S32x1024_64_0 : (Rect.unit (s := S128x1024) ![64, 0] S32x1024.size inb_S128x1024_S32x1024_64_0).WholeWords (EltTy.packing .bf16)
  inb_S18_S1_5 : ∀ a, (![5] : Fin 1 → Nat) a + S1.size a ≤ S18.size a
  inb_S128x1024_S32x1024_96_0 : ∀ a, (![96, 0] : Fin 2 → Nat) a + S32x1024.size a ≤ S128x1024.size a
  wordsbf16_S128x1024_S32x1024_96_0 : (Rect.unit (s := S128x1024) ![96, 0] S32x1024.size inb_S128x1024_S32x1024_96_0).WholeWords (EltTy.packing .bf16)
  inb_S18_S1_6 : ∀ a, (![6] : Fin 1 → Nat) a + S1.size a ≤ S18.size a
  inb_S64x1024_S32x1024_0_0 : ∀ a, (![0, 0] : Fin 2 → Nat) a + S32x1024.size a ≤ S64x1024.size a
  wordsbf16_S64x1024_S32x1024_0_0 : (Rect.unit (s := S64x1024) ![0, 0] S32x1024.size inb_S64x1024_S32x1024_0_0).WholeWords (EltTy.packing .bf16)
  h_S32x1024 : 0 < S32x1024.numel
  shapeCasts_S32x1024_S32x1024 : S32x1024.ShapeCasts S32x1024
  inb_S18_S1_7 : ∀ a, (![7] : Fin 1 → Nat) a + S1.size a ≤ S18.size a
  inb_S64x1024_S16x1024_32_0 : ∀ a, (![32, 0] : Fin 2 → Nat) a + S16x1024.size a ≤ S64x1024.size a
  wordsbf16_S64x1024_S16x1024_32_0 : (Rect.unit (s := S64x1024) ![32, 0] S16x1024.size inb_S64x1024_S16x1024_32_0).WholeWords (EltTy.packing .bf16)
  inb_S18_S1_8 : ∀ a, (![8] : Fin 1 → Nat) a + S1.size a ≤ S18.size a
  inb_S64x1024_S16x1024_48_0 : ∀ a, (![48, 0] : Fin 2 → Nat) a + S16x1024.size a ≤ S64x1024.size a
  wordsbf16_S64x1024_S16x1024_48_0 : (Rect.unit (s := S64x1024) ![48, 0] S16x1024.size inb_S64x1024_S16x1024_48_0).WholeWords (EltTy.packing .bf16)
  inb_S18_S1_9 : ∀ a, (![9] : Fin 1 → Nat) a + S1.size a ≤ S18.size a
  h_S16x1024 : 0 < S16x1024.numel
  shapeCasts_S16x1024_S16x1024 : S16x1024.ShapeCasts S16x1024
  inb_S18_S1_10 : ∀ a, (![10] : Fin 1 → Nat) a + S1.size a ≤ S18.size a
  inb_S18_S1_11 : ∀ a, (![11] : Fin 1 → Nat) a + S1.size a ≤ S18.size a
  inb_S18_S1_12 : ∀ a, (![12] : Fin 1 → Nat) a + S1.size a ≤ S18.size a
  inb_S18_S1_13 : ∀ a, (![13] : Fin 1 → Nat) a + S1.size a ≤ S18.size a
  inb_S18_S1_14 : ∀ a, (![14] : Fin 1 → Nat) a + S1.size a ≤ S18.size a
  inb_S18_S1_15 : ∀ a, (![15] : Fin 1 → Nat) a + S1.size a ≤ S18.size a
  inb_S18_S1_16 : ∀ a, (![16] : Fin 1 → Nat) a + S1.size a ≤ S18.size a
  inb_S18_S1_17 : ∀ a, (![17] : Fin 1 → Nat) a + S1.size a ≤ S18.size a
  inb_S512x1024_S512x1024_0_0 : ∀ a, (![0, 0] : Fin 2 → Nat) a + S512x1024.size a ≤ S512x1024.size a
  h_S512x1024 : 0 < S512x1024.numel
  shapeCasts_S512x1024_S1x512x1024 : S512x1024.ShapeCasts S1x512x1024
  dot_S512x1024_S1024x1024_S512x1024_1_0_0_1_n_n_wf : DotDims.WF S512x1024 S1024x1024 S512x1024 [1] [0] [0] [1] [] []
  dot_S512x128_S512x128_S512x512_1_1_0_0_n_n_wf : DotDims.WF S512x128 S512x128 S512x512 [1] [1] [0] [0] [] []
  dot_S512x512_S512x128_S512x128_1_0_0_1_n_n_wf : DotDims.WF S512x512 S512x128 S512x128 [1] [0] [0] [1] [] []
  dot_S256x1024_S1024x1024_S256x1024_1_0_0_1_n_n_wf : DotDims.WF S256x1024 S1024x1024 S256x1024 [1] [0] [0] [1] [] []
  dot_S128x1024_S1024x1024_S128x1024_1_0_0_1_n_n_wf : DotDims.WF S128x1024 S1024x1024 S128x1024 [1] [0] [0] [1] [] []
  hcc0_scratch4 : 6 + S18.numel ≤ 42
  hcc0_scratch5 : 24 + S18.numel ≤ 42
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_off1_inb : ∀ d0 : Dev nD, ∀ a, (k0_off1 d0) a + S128x1024.size a ≤ S512x1024.size a
  k0_off1_wordsbf16 : ∀ d0 : Dev nD, (Rect.unit (s := S512x1024) (k0_off1 d0) S128x1024.size (k0_off1_inb d0)).WholeWords (EltTy.packing .bf16)
  k0_dev4_lt : ∀ d0 : Dev nD, (k0_dev4 d0) < nD
  k0_off2_inb : ∀ d0 : Dev nD, ∀ a, (k0_off2 d0) a + S64x1024.size a ≤ S512x1024.size a
  k0_off2_wordsbf16 : ∀ d0 : Dev nD, (Rect.unit (s := S512x1024) (k0_off2 d0) S64x1024.size (k0_off2_inb d0)).WholeWords (EltTy.packing .bf16)
  k0_dev5_lt : ∀ d0 : Dev nD, (k0_dev5 d0) < nD
  k0_off3_inb : ∀ d0 : Dev nD, ∀ a, (k0_off3 d0) a + S64x1024.size a ≤ S512x1024.size a
  k0_off3_wordsbf16 : ∀ d0 : Dev nD, (Rect.unit (s := S512x1024) (k0_off3 d0) S64x1024.size (k0_off3_inb d0)).WholeWords (EltTy.packing .bf16)
  k0_dev6_lt : ∀ d0 : Dev nD, (k0_dev6 d0) < nD
  k0_off4_inb : ∀ d0 : Dev nD, ∀ a, (k0_off4 d0) a + S128x1024.size a ≤ S512x1024.size a
  k0_off4_packedbf16 : ∀ d0 : Dev nD, (Rect.unit (s := S512x1024) (k0_off4 d0) S128x1024.size (k0_off4_inb d0)).PackedRows (EltTy.packing .bf16)
  k0_off5_inb : ∀ d0 : Dev nD, ∀ a, (k0_off5 d0) a + S64x1024.size a ≤ S512x1024.size a
  k0_off5_wordsbf16 : ∀ d0 : Dev nD, (Rect.unit (s := S512x1024) (k0_off5 d0) S64x1024.size (k0_off5_inb d0)).WholeWords (EltTy.packing .bf16)
  k0_dev7_lt : ∀ d0 : Dev nD, (k0_dev7 d0) < nD
  k0_off6_inb : ∀ d0 : Dev nD, ∀ a, (k0_off6 d0) a + S64x1024.size a ≤ S512x1024.size a
  k0_off6_packedbf16 : ∀ d0 : Dev nD, (Rect.unit (s := S512x1024) (k0_off6 d0) S64x1024.size (k0_off6_inb d0)).PackedRows (EltTy.packing .bf16)
  k0_off7_inb : ∀ d0 : Dev nD, ∀ a, (k0_off7 d0) a + S32x1024.size a ≤ S512x1024.size a
  k0_off7_wordsbf16 : ∀ d0 : Dev nD, (Rect.unit (s := S512x1024) (k0_off7 d0) S32x1024.size (k0_off7_inb d0)).WholeWords (EltTy.packing .bf16)
  k0_dev8_lt : ∀ d0 : Dev nD, (k0_dev8 d0) < nD
  k0_off8_inb : ∀ d0 : Dev nD, ∀ a, (k0_off8 d0) a + S64x1024.size a ≤ S512x1024.size a
  k0_off8_packedbf16 : ∀ d0 : Dev nD, (Rect.unit (s := S512x1024) (k0_off8 d0) S64x1024.size (k0_off8_inb d0)).PackedRows (EltTy.packing .bf16)
  k0_off9_inb : ∀ d0 : Dev nD, ∀ a, (k0_off9 d0) a + S32x1024.size a ≤ S512x1024.size a
  k0_off9_wordsbf16 : ∀ d0 : Dev nD, (Rect.unit (s := S512x1024) (k0_off9 d0) S32x1024.size (k0_off9_inb d0)).WholeWords (EltTy.packing .bf16)
  k0_dev9_lt : ∀ d0 : Dev nD, (k0_dev9 d0) < nD
  k0_off10_inb : ∀ d0 : Dev nD, ∀ a, (k0_off10 d0) a + S64x1024.size a ≤ S512x1024.size a
  k0_off10_packedbf16 : ∀ d0 : Dev nD, (Rect.unit (s := S512x1024) (k0_off10 d0) S64x1024.size (k0_off10_inb d0)).PackedRows (EltTy.packing .bf16)
  k0_off11_inb : ∀ d0 : Dev nD, ∀ (r : Fin 2), ∀ a, (k0_off11 d0 (k0_off11_at r).1 (k0_off11_at r).2) a + S32x1024.size a ≤ S512x1024.size a
  k0_off11_wordsbf16 : ∀ d0 : Dev nD, ∀ (r : Fin 2), (Rect.unit (s := S512x1024) (k0_off11 d0 (k0_off11_at r).1 (k0_off11_at r).2) S32x1024.size (k0_off11_inb d0 r)).WholeWords (EltTy.packing .bf16)
  k0_dev10_lt : ∀ d0 : Dev nD, (k0_dev10 d0) < nD
  k0_off12_inb : ∀ d0 : Dev nD, ∀ a, (k0_off12 d0) a + S32x1024.size a ≤ S512x1024.size a
  k0_off12_packedbf16 : ∀ d0 : Dev nD, (Rect.unit (s := S512x1024) (k0_off12 d0) S32x1024.size (k0_off12_inb d0)).PackedRows (EltTy.packing .bf16)
  k0_off13_inb : ∀ d0 : Dev nD, ∀ (r : Fin 2), ∀ a, (k0_off13 d0 (k0_off13_at r).1 (k0_off13_at r).2) a + S16x1024.size a ≤ S512x1024.size a
  k0_off13_wordsbf16 : ∀ d0 : Dev nD, ∀ (r : Fin 2), (Rect.unit (s := S512x1024) (k0_off13 d0 (k0_off13_at r).1 (k0_off13_at r).2) S16x1024.size (k0_off13_inb d0 r)).WholeWords (EltTy.packing .bf16)
  k0_dev11_lt : ∀ d0 : Dev nD, (k0_dev11 d0) < nD
  k0_off14_inb : ∀ d0 : Dev nD, ∀ a, (k0_off14 d0) a + S32x1024.size a ≤ S512x1024.size a
  k0_off14_packedbf16 : ∀ d0 : Dev nD, (Rect.unit (s := S512x1024) (k0_off14 d0) S32x1024.size (k0_off14_inb d0)).PackedRows (EltTy.packing .bf16)
  k0_off15_inb : ∀ d0 : Dev nD, ∀ (r : Fin 2), ∀ a, (k0_off15 d0 (k0_off15_at r).1 (k0_off15_at r).2) a + S16x1024.size a ≤ S512x1024.size a
  k0_off15_wordsbf16 : ∀ d0 : Dev nD, ∀ (r : Fin 2), (Rect.unit (s := S512x1024) (k0_off15 d0 (k0_off15_at r).1 (k0_off15_at r).2) S16x1024.size (k0_off15_inb d0 r)).WholeWords (EltTy.packing .bf16)
  k0_dev12_lt : ∀ d0 : Dev nD, (k0_dev12 d0) < nD
  k0_off16_inb : ∀ d0 : Dev nD, ∀ a, (k0_off16 d0) a + S32x1024.size a ≤ S512x1024.size a
  k0_off16_packedbf16 : ∀ d0 : Dev nD, (Rect.unit (s := S512x1024) (k0_off16 d0) S32x1024.size (k0_off16_inb d0)).PackedRows (EltTy.packing .bf16)
  k0_dev13_lt : ∀ d0 : Dev nD, (k0_dev13 d0) < nD
  k0_off17_inb : ∀ d0 : Dev nD, ∀ a, (k0_off17 d0) a + S16x1024.size a ≤ S512x1024.size a
  k0_off17_packedbf16 : ∀ d0 : Dev nD, (Rect.unit (s := S512x1024) (k0_off17 d0) S16x1024.size (k0_off17_inb d0)).PackedRows (EltTy.packing .bf16)
  k0_dev14_lt : ∀ d0 : Dev nD, (k0_dev14 d0) < nD
  k0_off18_inb : ∀ d0 : Dev nD, ∀ a, (k0_off18 d0) a + S16x1024.size a ≤ S512x1024.size a
  k0_off18_packedbf16 : ∀ d0 : Dev nD, (Rect.unit (s := S512x1024) (k0_off18 d0) S16x1024.size (k0_off18_inb d0)).PackedRows (EltTy.packing .bf16)
  k0_dev15_lt : ∀ d0 : Dev nD, (k0_dev15 d0) < nD
  k0_off19_inb : ∀ d0 : Dev nD, ∀ a, (k0_off19 d0) a + S64x1024.size a ≤ S512x1024.size a
  k0_off19_wordsbf16 : ∀ d0 : Dev nD, (Rect.unit (s := S512x1024) (k0_off19 d0) S64x1024.size (k0_off19_inb d0)).WholeWords (EltTy.packing .bf16)
  k0_dev16_lt : ∀ d0 : Dev nD, (k0_dev16 d0) < nD
  k0_off20_inb : ∀ d0 : Dev nD, ∀ a, (k0_off20 d0) a + S32x1024.size a ≤ S512x1024.size a
  k0_off20_wordsbf16 : ∀ d0 : Dev nD, (Rect.unit (s := S512x1024) (k0_off20 d0) S32x1024.size (k0_off20_inb d0)).WholeWords (EltTy.packing .bf16)
  k0_dev17_lt : ∀ d0 : Dev nD, (k0_dev17 d0) < nD
  k0_off21_inb : ∀ d0 : Dev nD, ∀ a, (k0_off21 d0) a + S32x1024.size a ≤ S512x1024.size a
  k0_off21_wordsbf16 : ∀ d0 : Dev nD, (Rect.unit (s := S512x1024) (k0_off21 d0) S32x1024.size (k0_off21_inb d0)).WholeWords (EltTy.packing .bf16)
  k0_dev18_lt : ∀ d0 : Dev nD, (k0_dev18 d0) < nD
  k0_off22_inb : ∀ d0 : Dev nD, ∀ a, (k0_off22 d0) a + S128x1024.size a ≤ S512x1024.size a
  k0_off22_wordsbf16 : ∀ d0 : Dev nD, (Rect.unit (s := S512x1024) (k0_off22 d0) S128x1024.size (k0_off22_inb d0)).WholeWords (EltTy.packing .bf16)
  k0_dev19_lt : ∀ d0 : Dev nD, (k0_dev19 d0) < nD
  k0_off23_inb : ∀ d0 : Dev nD, ∀ a, (k0_off23 d0) a + S64x1024.size a ≤ S512x1024.size a
  k0_off23_wordsbf16 : ∀ d0 : Dev nD, (Rect.unit (s := S512x1024) (k0_off23 d0) S64x1024.size (k0_off23_inb d0)).WholeWords (EltTy.packing .bf16)
  k0_dev20_lt : ∀ d0 : Dev nD, (k0_dev20 d0) < nD
  k0_off24_inb : ∀ d0 : Dev nD, ∀ a, (k0_off24 d0) a + S64x1024.size a ≤ S512x1024.size a
  k0_off24_wordsbf16 : ∀ d0 : Dev nD, (Rect.unit (s := S512x1024) (k0_off24 d0) S64x1024.size (k0_off24_inb d0)).WholeWords (EltTy.packing .bf16)
  k0_dev21_lt : ∀ d0 : Dev nD, (k0_dev21 d0) < nD
  hstage0_0 : ∀ j, (stage0_0 j).IsWhole
  hstage0_1 : ∀ j, (stage0_1 j).IsWhole
  hstage0_2 : ∀ j, (stage0_2 j).IsWhole
  hstage0_3 : ∀ j, (stage0_3 j).IsWhole
  hstage0_4 : ∀ j, (stage0_4 j).IsWhole
  hstage0_5 : ∀ j, (stage0_5 j).IsWhole

variable [Facts₀]

abbrev cc0_scratch4 : DmaSems sig S18 := SemArray.consecutive 6 S18 hcc0_scratch4
abbrev cc0_scratch5 : DmaSems sig S18 := SemArray.consecutive 24 S18 hcc0_scratch5
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S512x128_S512x128_S512x512_1_1_0_0_n_n : DotDims S512x128 S512x128 S512x512 where
  lhsContracting := [1]
  rhsContracting := [1]
  lhsNonContracting := [0]
  rhsNonContracting := [0]
  lhsBatch := []
  rhsBatch := []
  wf := dot_S512x128_S512x128_S512x512_1_1_0_0_n_n_wf
def dot_S512x512_S512x128_S512x128_1_0_0_1_n_n : DotDims S512x512 S512x128 S512x128 where
  lhsContracting := [1]
  rhsContracting := [0]
  lhsNonContracting := [0]
  rhsNonContracting := [1]
  lhsBatch := []
  rhsBatch := []
  wf := dot_S512x512_S512x128_S512x128_1_0_0_1_n_n_wf
def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf
def dot_S128x1024_S1024x1024_S128x1024_1_0_0_1_n_n : DotDims S128x1024 S1024x1024 S128x1024 where
  lhsContracting := [1]
  rhsContracting := [0]
  lhsNonContracting := [0]
  rhsNonContracting := [1]
  lhsBatch := []
  rhsBatch := []
  wf := dot_S128x1024_S1024x1024_S128x1024_1_0_0_1_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg1) false false (stage0_1 0) (sem0_1 0) (Memref.isWhole_whole _) (hstage0_1 0)

abbrev win0_2 : Pipeline.Window sig grid0 :=
  Pipeline.Window.whole (Memref.whole main_arg3) false false (stage0_2 0) (sem0_2 0) (Memref.isWhole_whole _) (hstage0_2 0)

abbrev win0_3 : Pipeline.Window sig grid0 :=
  Pipeline.Window.whole (Memref.whole main_arg4) false false (stage0_3 0) (sem0_3 0) (Memref.isWhole_whole _) (hstage0_3 0)

abbrev win0_4 : Pipeline.Window sig grid0 :=
  Pipeline.Window.whole (Memref.whole main_arg2) false false (stage0_4 0) (sem0_4 0) (Memref.isWhole_whole _) (hstage0_4 0)

abbrev win0_5 : Pipeline.Window sig grid0 :=
  Pipeline.Window.whole (Memref.whole main_v1) true false (stage0_5 0) (sem0_5 0) (Memref.isWhole_whole _) (hstage0_5 0)

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S1x512x1024 : Shape := ⟨3, ![1, 512, 1024]⟩
abbrev S1024x8192 : Shape := ⟨2, ![1024, 8192]⟩
abbrev S8192x1024 : Shape := ⟨2, ![8192, 1024]⟩
abbrev S1x512x8192 : Shape := ⟨3, ![1, 512, 8192]⟩
abbrev S1x512x64x128 : Shape := ⟨4, ![1, 512, 64, 128]⟩
abbrev S_ : Shape := ⟨0, ![]⟩
abbrev S1x64x512x1 : Shape := ⟨4, ![1, 64, 512, 1]⟩
abbrev S1x64x512x512 : Shape := ⟨4, ![1, 64, 512, 512]⟩
abbrev S1x64x512 : Shape := ⟨3, ![1, 64, 512]⟩
abbrev S1x512x64x1 : Shape := ⟨4, ![1, 512, 64, 1]⟩
abbrev S1x64x128x512 : Shape := ⟨4, ![1, 64, 128, 512]⟩

abbrev nBuf : Space → Nat
  | .hbm => 46
  | .vmem => 0
  | .smem => 0
  | _ => 0

abbrev bufTy : (tb : Table) → Fin (tcTables nBuf tb) → BufTy
  | .hbm, ⟨0, _⟩ => ⟨S1x512x1024, .f32⟩
  | .hbm, ⟨1, _⟩ => ⟨S1024x8192, .f32⟩
  | .hbm, ⟨2, _⟩ => ⟨S8192x1024, .f32⟩
  | .hbm, ⟨3, _⟩ => ⟨S1024x8192, .f32⟩
  | .hbm, ⟨4, _⟩ => ⟨S1024x8192, .f32⟩
  | .hbm, ⟨5, _⟩ => ⟨S1x512x8192, .f32⟩
  | .hbm, ⟨6, _⟩ => ⟨S1x512x64x128, .f32⟩
  | .hbm, ⟨7, _⟩ => ⟨S1x512x8192, .f32⟩
  | .hbm, ⟨8, _⟩ => ⟨S1x512x64x128, .f32⟩
  | .hbm, ⟨9, _⟩ => ⟨S1x512x8192, .f32⟩
  | .hbm, ⟨10, _⟩ => ⟨S1x512x64x128, .f32⟩
  | .hbm, ⟨11, _⟩ => ⟨S_, .f32⟩
  | .hbm, ⟨12, _⟩ => ⟨S1x512x64x128, .f32⟩
  | .hbm, ⟨13, _⟩ => ⟨S_, .f32⟩
  | .hbm, ⟨14, _⟩ => ⟨S1x64x512x1, .f32⟩
  | .hbm, ⟨15, _⟩ => ⟨S_, .f32⟩
  | .hbm, ⟨16, _⟩ => ⟨S1x64x512x1, .f32⟩
  | .hbm, ⟨17, _⟩ => ⟨S1x64x512x512, .f32⟩
  | .hbm, ⟨18, _⟩ => ⟨S_, .f32⟩
  | .hbm, ⟨19, _⟩ => ⟨S1x64x512x512, .f32⟩
  | .hbm, ⟨20, _⟩ => ⟨S1x64x512x512, .f32⟩
  | .hbm, ⟨21, _⟩ => ⟨S_, .f32⟩
  | .hbm, ⟨22, _⟩ => ⟨S1x64x512, .f32⟩
  | .hbm, ⟨23, _⟩ => ⟨S1x64x512x1, .f32⟩
  | .hbm, ⟨24, _⟩ => ⟨S1x64x512x1, .f32⟩
  | .hbm, ⟨25, _⟩ => ⟨S1x64x512x1, .f32⟩
  | .hbm, ⟨26, _⟩ => ⟨S1x64x512x1, .f32⟩
  | .hbm, ⟨27, _⟩ => ⟨S1x64x512x512, .f32⟩
  | .hbm, ⟨28, _⟩ => ⟨S1x64x512x512, .f32⟩
  | .hbm, ⟨29, _⟩ => ⟨S1x64x512x512, .f32⟩
  | .hbm, ⟨30, _⟩ => ⟨S1x64x512x1, .f32⟩
  | .hbm, ⟨31, _⟩ => ⟨S_, .f32⟩
  | .hbm, ⟨32, _⟩ => ⟨S1x64x512, .f32⟩
  | .hbm, ⟨33, _⟩ => ⟨S1x64x512x1, .f32⟩
  | .hbm, ⟨34, _⟩ => ⟨S1x64x512x1, .f32⟩
  | .hbm, ⟨35, _⟩ => ⟨S1x512x64x1, .f32⟩
  | .hbm, ⟨36, _⟩ => ⟨S1x512x64x128, .f32⟩
  | .hbm, ⟨37, _⟩ => ⟨S1x512x64x128, .f32⟩
  | .hbm, ⟨38, _⟩ => ⟨S1x64x128x512, .f32⟩
  | .hbm, ⟨39, _⟩ => ⟨S1x512x64x128, .f32⟩
  | .hbm, ⟨40, _⟩ => ⟨S1x512x64x128, .f32⟩
  | .hbm, ⟨41, _⟩ => ⟨S1x512x64x1, .f32⟩
  | .hbm, ⟨42, _⟩ => ⟨S1x512x64x128, .f32⟩
  | .hbm, ⟨43, _⟩ => ⟨S1x512x64x128, .f32⟩
  | .hbm, ⟨44, _⟩ => ⟨S1x512x8192, .f32⟩
  | .hbm, ⟨45, _⟩ => ⟨S1x512x1024, .f32⟩
  | _, _ => ⟨S1x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩

abbrev nD : Nat := 1
abbrev τ : Topo := Topo.v7x

variable {F : FTy → Type} [FloatOps F]

class Facts₀ : Prop where
  shapeCasts_S1x512x8192_S1x512x64x128 : S1x512x8192.ShapeCasts S1x512x64x128
  bcast_S_S1x512x64x128 : S_.BroadcastsInDim S1x512x64x128 (![] : Fin 0 → Fin S1x512x64x128.rank)
  bcast_S_S1x64x512x1 : S_.BroadcastsInDim S1x64x512x1 (![] : Fin 0 → Fin S1x64x512x1.rank)
  bcast_S_S1x64x512x512 : S_.BroadcastsInDim S1x64x512x512 (![] : Fin 0 → Fin S1x64x512x512.rank)
  reducesTo_S1x64x512x512_S1x64x512_d3 : S1x64x512x512.ReducesTo [3] S1x64x512
  h_S_ : 0 < S_.numel
  bcast_S1x64x512_S1x64x512x1_0_1_2 : S1x64x512.BroadcastsInDim S1x64x512x1 (![0, 1, 2] : Fin 3 → Fin S1x64x512x1.rank)
  bcast_S1x64x512x1_S1x64x512x512_0_1_2_3 : S1x64x512x1.BroadcastsInDim S1x64x512x512 (![0, 1, 2, 3] : Fin 4 → Fin S1x64x512x512.rank)
  transposes_S1x64x512x1_S1x512x64x1_0_2_1_3 : S1x64x512x1.Transposes [0, 2, 1, 3] S1x512x64x1
  bcast_S1x512x64x1_S1x512x64x128_0_1_2_3 : S1x512x64x1.BroadcastsInDim S1x512x64x128 (![0, 1, 2, 3] : Fin 4 → Fin S1x512x64x128.rank)
  transposes_S1x64x128x512_S1x512x64x128_0_3_1_2 : S1x64x128x512.Transposes [0, 3, 1, 2] S1x512x64x128
  shapeCasts_S1x512x64x128_S1x512x8192 : S1x512x64x128.ShapeCasts S1x512x8192
  dot_S1x512x1024_S1024x8192_S1x512x8192_2_0_01_1_n_n_wf : DotDims.WF S1x512x1024 S1024x8192 S1x512x8192 [2] [0] [0, 1] [1] [] []
  dot_S1x512x64x128_S1x512x64x128_S1x64x512x512_3_3_1_1_02_02_wf : DotDims.WF S1x512x64x128 S1x512x64x128 S1x64x512x512 [3] [3] [1] [1] [0, 2] [0, 2]
  dot_S1x512x64x128_S1x64x512x512_S1x64x128x512_1_3_3_2_02_01_wf : DotDims.WF S1x512x64x128 S1x64x512x512 S1x64x128x512 [1] [3] [3] [2] [0, 2] [0, 1]
  dot_S1x512x8192_S8192x1024_S1x512x1024_2_0_01_1_n_n_wf : DotDims.WF S1x512x8192 S8192x1024 S1x512x1024 [2] [0] [0, 1] [1] [] []

variable [Facts₀]

def dot_S1x512x1024_S1024x8192_S1x512x8192_2_0_01_1_n_n : DotDims S1x512x1024 S1024x8192 S1x512x8192 where
  lhsContracting := [2]
  rhsContracting := [0]
  lhsNonContracting := [0, 1]
  rhsNonContracting := [1]
  lhsBatch := []
  rhsBatch := []
  wf := dot_S1x512x1024_S1024x8192_S1x512x8192_2_0_01_1_n_n_wf
def dot_S1x512x64x128_S1x512x64x128_S1x64x512x512_3_3_1_1_02_02 : DotDims S1x512x64x128 S1x512x64x128 S1x64x512x512 where
  lhsContracting := [3]
  rhsContracting := [3]
  lhsNonContracting := [1]
  rhsNonContracting := [1]
  lhsBatch := [0, 2]
  rhsBatch := [0, 2]
  wf := dot_S1x512x64x128_S1x512x64x128_S1x64x512x512_3_3_1_1_02_02_wf
def dot_S1x512x64x128_S1x64x512x512_S1x64x128x512_1_3_3_2_02_01 : DotDims S1x512x64x128 S1x64x512x512 S1x64x128x512 where
  lhsContracting := [1]
  rhsContracting := [3]
  lhsNonContracting := [3]
  rhsNonContracting := [2]
  lhsBatch := [0, 2]
  rhsBatch := [0, 1]
  wf := dot_S1x512x64x128_S1x64x512x512_S1x64x128x512_1_3_3_2_02_01_wf
def dot_S1x512x8192_S8192x1024_S1x512x1024_2_0_01_1_n_n : DotDims S1x512x8192 S8192x1024 S1x512x1024 where
  lhsContracting := [2]
  rhsContracting := [0]
  lhsNonContracting := [0, 1]
  rhsNonContracting := [1]
  lhsBatch := []
  rhsBatch := []
  wf := dot_S1x512x8192_S8192x1024_S1x512x1024_2_0_01_1_n_n_wf

class Facts : Prop extends Facts₀ where

variable [Facts]
-- ==== Proof.Kernel.Mesh.lean ====
/-
  The eight devices as a cube. Three pairings of the devices are used: across `1`, across `3` and across `4` — the
  partner of device `c` is the device whose number is the exclusive or of `c`'s with the pairing's number. In the
  coordinates (bit 0 xor bit 1, bit 1, bit 2) of a device's number each pairing flips exactly one coordinate, so the three
  are the three axes of a cube and commute. A device is on the HIGH side of a pairing when its coordinate on that axis is 1.

  Every remote operation of the kernel names its partner by an integer chain over the device's own number, and every slice
  of the accumulator it sends, receives into or adds into by a row offset computed from the same number. This module
  decides, over the eight devices, what each of those chains is: the partner (`dev*_eq`) and the first row (`src_eq`,
  `keep_eq`: row tables indexed by the device).
  Copy `i` (0 ≤ i < 18) is: for i < 9 phase `i / 3` of the reduce-scatter of part `i % 3`, for i ≥ 9 phase `i / 3 - 3` of
  the all-gather of that part.
-/
import proofs.«900423_g7700000000000424_dist_attn_self_mha_htp_b1_sq512_skv512_d1024_hq8_dh128_v7x_i8_f32_1_alg».proof.Proof.Gen.Kernel

set_option Elab.async false

namespace Cert.Kernel.Mesh

open Cert.Kernel Cert.Kernel.Gen Idealize.ShloMosaic

/-- The partner of `c` across pairing `m`. -/
def peer (m : Nat) (c : Dev nD) : Dev nD := ⟨(c.val ^^^ m) % 8, Nat.mod_lt _ (by decide)⟩

theorem peer_peer1 : ∀ c : Dev nD, peer 1 (peer 1 c) = c := by decide
theorem peer_peer3 : ∀ c : Dev nD, peer 3 (peer 3 c) = c := by decide
theorem peer_peer4 : ∀ c : Dev nD, peer 4 (peer 4 c) = c := by decide
theorem peer_ne1 : ∀ c : Dev nD, peer 1 c ≠ c := by decide
theorem peer_ne3 : ∀ c : Dev nD, peer 3 c ≠ c := by decide
theorem peer_ne4 : ∀ c : Dev nD, peer 4 c ≠ c := by decide
theorem peer13_ne : ∀ c : Dev nD, peer 1 c ≠ peer 3 c := by decide
theorem peer14_ne : ∀ c : Dev nD, peer 1 c ≠ peer 4 c := by decide
theorem peer34_ne : ∀ c : Dev nD, peer 3 c ≠ peer 4 c := by decide

/-- The pairing copy `i` goes across. -/
def maskOf : Fin 18 → Nat := ![4, 3, 1, 3, 1, 4, 1, 4, 3, 1, 4, 3, 3, 1, 4, 4, 3, 1]
/-- How many rows copy `i` moves. -/
def rowsOf : Fin 18 → Nat := ![128, 64, 64, 64, 32, 32, 32, 16, 16, 32, 16, 16, 64, 32, 32, 128, 64, 64]

/-! ## The handshake's three signals -/
theorem dev1_eq : ∀ c : Dev nD, (⟨k0_dev1 c, k0_dev1_lt c⟩ : Dev nD) = peer 1 c := by decide +kernel
theorem dev2_eq : ∀ c : Dev nD, (⟨k0_dev2 c, k0_dev2_lt c⟩ : Dev nD) = peer 3 c := by decide +kernel
theorem dev3_eq : ∀ c : Dev nD, (⟨k0_dev3 c, k0_dev3_lt c⟩ : Dev nD) = peer 4 c := by decide +kernel

/-! ## The eighteen copies' partners -/
theorem dev4_eq : ∀ c : Dev nD, (⟨k0_dev4 c, k0_dev4_lt c⟩ : Dev nD) = peer 4 c := by decide +kernel
theorem dev5_eq : ∀ c : Dev nD, (⟨k0_dev5 c, k0_dev5_lt c⟩ : Dev nD) = peer 3 c := by decide +kernel
theorem dev6_eq : ∀ c : Dev nD, (⟨k0_dev6 c, k0_dev6_lt c⟩ : Dev nD) = peer 1 c := by decide +kernel
theorem dev7_eq : ∀ c : Dev nD, (⟨k0_dev7 c, k0_dev7_lt c⟩ : Dev nD) = peer 3 c := by decide +kernel
theorem dev8_eq : ∀ c : Dev nD, (⟨k0_dev8 c, k0_dev8_lt c⟩ : Dev nD) = peer 1 c := by decide +kernel
theorem dev9_eq : ∀ c : Dev nD, (⟨k0_dev9 c, k0_dev9_lt c⟩ : Dev nD) = peer 4 c := by decide +kernel
theorem dev10_eq : ∀ c : Dev nD, (⟨k0_dev10 c, k0_dev10_lt c⟩ : Dev nD) = peer 1 c := by decide +kernel
theorem dev11_eq : ∀ c : Dev nD, (⟨k0_dev11 c, k0_dev11_lt c⟩ : Dev nD) = peer 4 c := by decide +kernel
theorem dev12_eq : ∀ c : Dev nD, (⟨k0_dev12 c, k0_dev12_lt c⟩ : Dev nD) = peer 3 c := by decide +kernel
theorem dev13_eq : ∀ c : Dev nD, (⟨k0_dev13 c, k0_dev13_lt c⟩ : Dev nD) = peer 1 c := by decide +kernel
theorem dev14_eq : ∀ c : Dev nD, (⟨k0_dev14 c, k0_dev14_lt c⟩ : Dev nD) = peer 4 c := by decide +kernel
theorem dev15_eq : ∀ c : Dev nD, (⟨k0_dev15 c, k0_dev15_lt c⟩ : Dev nD) = peer 3 c := by decide +kernel
theorem dev16_eq : ∀ c : Dev nD, (⟨k0_dev16 c, k0_dev16_lt c⟩ : Dev nD) = peer 3 c := by decide +kernel
theorem dev17_eq : ∀ c : Dev nD, (⟨k0_dev17 c, k0_dev17_lt c⟩ : Dev nD) = peer 1 c := by decide +kernel
theorem dev18_eq : ∀ c : Dev nD, (⟨k0_dev18 c, k0_dev18_lt c⟩ : Dev nD) = peer 4 c := by decide +kernel
theorem dev19_eq : ∀ c : Dev nD, (⟨k0_dev19 c, k0_dev19_lt c⟩ : Dev nD) = peer 4 c := by decide +kernel
theorem dev20_eq : ∀ c : Dev nD, (⟨k0_dev20 c, k0_dev20_lt c⟩ : Dev nD) = peer 3 c := by decide +kernel
theorem dev21_eq : ∀ c : Dev nD, (⟨k0_dev21 c, k0_dev21_lt c⟩ : Dev nD) = peer 1 c := by decide +kernel

/-! ## First rows: the rows a copy reads (for the all-gather also the rows it writes on the partner) -/

/-- The first row of copy `i`'s source on device `c`. -/
def srcRow (i : Fin 18) (c : Dev nD) : Nat :=
  (![![128, 128, 128, 128, 0, 0, 0, 0],
     ![320, 320, 256, 256, 320, 320, 256, 256],
     ![448, 384, 384, 448, 448, 384, 384, 448],
     ![64, 64, 0, 0, 192, 192, 128, 128],
     ![288, 256, 320, 352, 288, 256, 320, 352],
     ![416, 480, 480, 416, 384, 448, 448, 384],
     ![32, 0, 64, 96, 160, 128, 192, 224],
     ![272, 304, 368, 336, 256, 288, 352, 320],
     ![400, 464, 448, 384, 432, 496, 480, 416],
     ![0, 32, 96, 64, 128, 160, 224, 192],
     ![256, 288, 352, 320, 272, 304, 368, 336],
     ![384, 448, 464, 400, 416, 480, 496, 432],
     ![0, 0, 64, 64, 128, 128, 192, 192],
     ![256, 288, 352, 320, 256, 288, 352, 320],
     ![384, 448, 448, 384, 416, 480, 480, 416],
     ![0, 0, 0, 0, 128, 128, 128, 128],
     ![256, 256, 320, 320, 256, 256, 320, 320],
     ![384, 448, 448, 384, 384, 448, 448, 384]] : Fin 18 → Fin 8 → Nat) i c

/-- The first row of the rows device `c` keeps, and adds the landed rows into, at reduce-scatter copy `i` (i < 9). -/
def keepRow (i : Fin 9) (c : Dev nD) : Nat :=
  (![![0, 0, 0, 0, 128, 128, 128, 128],
     ![256, 256, 320, 320, 256, 256, 320, 320],
     ![384, 448, 448, 384, 384, 448, 448, 384],
     ![0, 0, 64, 64, 128, 128, 192, 192],
     ![256, 288, 352, 320, 256, 288, 352, 320],
     ![384, 448, 448, 384, 416, 480, 480, 416],
     ![0, 32, 96, 64, 128, 160, 224, 192],
     ![256, 288, 352, 320, 272, 304, 368, 336],
     ![384, 448, 464, 400, 416, 480, 496, 432]] : Fin 9 → Fin 8 → Nat) i c

theorem src0_eq : ∀ c : Dev nD, k0_off1 c = ![srcRow 0 c, 0] := by decide +kernel
theorem src1_eq : ∀ c : Dev nD, k0_off2 c = ![srcRow 1 c, 0] := by decide +kernel
theorem src2_eq : ∀ c : Dev nD, k0_off3 c = ![srcRow 2 c, 0] := by decide +kernel
theorem src3_eq : ∀ c : Dev nD, k0_off5 c = ![srcRow 3 c, 0] := by decide +kernel
theorem src4_eq : ∀ c : Dev nD, k0_off7 c = ![srcRow 4 c, 0] := by decide +kernel
theorem src5_eq : ∀ c : Dev nD, k0_off9 c = ![srcRow 5 c, 0] := by decide +kernel
theorem src6_eq : ∀ c : Dev nD, k0_off11 c 0#32 32#32 = ![srcRow 6 c, 0] := by decide +kernel
theorem src7_eq : ∀ c : Dev nD, k0_off13 c 0#32 16#32 = ![srcRow 7 c, 0] := by decide +kernel
theorem src8_eq : ∀ c : Dev nD, k0_off15 c 0#32 16#32 = ![srcRow 8 c, 0] := by decide +kernel
theorem src9_eq : ∀ c : Dev nD, k0_off11 c 32#32 0#32 = ![srcRow 9 c, 0] := by decide +kernel
theorem src10_eq : ∀ c : Dev nD, k0_off13 c 16#32 0#32 = ![srcRow 10 c, 0] := by decide +kernel
theorem src11_eq : ∀ c : Dev nD, k0_off15 c 16#32 0#32 = ![srcRow 11 c, 0] := by decide +kernel
theorem src12_eq : ∀ c : Dev nD, k0_off19 c = ![srcRow 12 c, 0] := by decide +kernel
theorem src13_eq : ∀ c : Dev nD, k0_off20 c = ![srcRow 13 c, 0] := by decide +kernel
theorem src14_eq : ∀ c : Dev nD, k0_off21 c = ![srcRow 14 c, 0] := by decide +kernel
theorem src15_eq : ∀ c : Dev nD, k0_off22 c = ![srcRow 15 c, 0] := by decide +kernel
theorem src16_eq : ∀ c : Dev nD, k0_off23 c = ![srcRow 16 c, 0] := by decide +kernel
theorem src17_eq : ∀ c : Dev nD, k0_off24 c = ![srcRow 17 c, 0] := by decide +kernel

theorem keep0_eq : ∀ c : Dev nD, k0_off4 c = ![keepRow 0 c, 0] := by decide +kernel
theorem keep1_eq : ∀ c : Dev nD, k0_off6 c = ![keepRow 1 c, 0] := by decide +kernel
theorem keep2_eq : ∀ c : Dev nD, k0_off8 c = ![keepRow 2 c, 0] := by decide +kernel
theorem keep3_eq : ∀ c : Dev nD, k0_off10 c = ![keepRow 3 c, 0] := by decide +kernel
theorem keep4_eq : ∀ c : Dev nD, k0_off12 c = ![keepRow 4 c, 0] := by decide +kernel
theorem keep5_eq : ∀ c : Dev nD, k0_off14 c = ![keepRow 5 c, 0] := by decide +kernel
theorem keep6_eq : ∀ c : Dev nD, k0_off16 c = ![keepRow 6 c, 0] := by decide +kernel
theorem keep7_eq : ∀ c : Dev nD, k0_off17 c = ![keepRow 7 c, 0] := by decide +kernel
theorem keep8_eq : ∀ c : Dev nD, k0_off18 c = ![keepRow 8 c, 0] := by decide +kernel

/-! ## How the rows of partners fit: what I send in a reduce-scatter phase is what my partner keeps, and the two halves
    make up what both held before -/

/-- My partner's kept rows at copy `i` are the rows I send. -/
theorem keep_peer : ∀ (i : Fin 9) (c : Dev nD), keepRow i (peer (maskOf ⟨i.val, by omega⟩) c) = srcRow ⟨i.val, by omega⟩ c := by decide
/-- The all-gather copy that undoes reduce-scatter copy `i` (part `i % 3`, phase `i / 3`): copy `15 - 3 (i / 3) + i % 3`. It goes
    across the same pairing and moves the same rows: the rows I kept. -/
def undo (i : Fin 9) : Fin 18 := ⟨15 - 3 * (i.val / 3) + i.val % 3, by omega⟩
theorem undo_mask : ∀ i : Fin 9, maskOf (undo i) = maskOf ⟨i.val, by omega⟩ := by decide
theorem undo_rows : ∀ i : Fin 9, rowsOf (undo i) = rowsOf ⟨i.val, by omega⟩ := by decide
theorem undo_src : ∀ (i : Fin 9) (c : Dev nD), srcRow (undo i) c = keepRow i c := by decide

end Cert.Kernel.Mesh
-- ==== Proof.Kernel.Common.lean ====
/-
  What the modules about the eight devices' protocol share: the resource algebra, the memory at launch, the four scratch
  buffers, the semaphores as cells, and the eighteen remote copies a device makes, each with the rows of the accumulator
  it reads and the place on its partner it writes.

  A device's handshake cell (the barrier semaphore) gets one unit from each of its three partners: three duties, named by
  the pairing (0: across 1, 1: across 3, 2: across 4). Every other cell — a send cell and a receive cell per copy — has one duty.
  Copy `i` of device `c` reads `rowsOf i` rows of `c`'s accumulator from row `srcRow i c` and writes, on the partner
  across `maskOf i`: for i < 9 (the reduce-scatter) the partner's landing slot of that copy — a fixed run of rows of the
  landing buffer of the copy's phase —, for i ≥ 9 (the all-gather) the SAME rows of the partner's accumulator.
-/
import proofs.«900423_g7700000000000424_dist_attn_self_mha_htp_b1_sq512_skv512_d1024_hq8_dh128_v7x_i8_f32_1_alg».proof.Proof.Kernel.Mesh
import proofs.«900423_g7700000000000424_dist_attn_self_mha_htp_b1_sq512_skv512_d1024_hq8_dh128_v7x_i8_f32_1_alg».proof.Proof.Gen.Kernel.Launch
import proofs.«900423_g7700000000000424_dist_attn_self_mha_htp_b1_sq512_skv512_d1024_hq8_dh128_v7x_i8_f32_1_alg».proof.Proof.Gen.Kernel.Points
import Idealize.ShloMosaic.Lib.Pipeline.Launch
import Idealize.ShloMosaic.Lib.Pipeline.Kit
import Idealize.ShloMosaic.Lib.Pipeline.FrameBody
import Idealize.ShloMosaic.Lib.Pipeline.Value
import Idealize.ShloMosaic.Lib.Ring
import Idealize.ShloMosaic.Lib.Tactic

noncomputable section

namespace Cert.Kernel.Coll

open Cert.Kernel Cert.Kernel.Gen Cert.Kernel.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra -/

/-- The protocol's copy of the rounds algebra: duties named by `Fin 3`. -/
abbrev UB : Type := URounds (GSem nD τ sig) (Fin 3)
/-- The proof's component: the pipeline library's copy and the protocol's. -/
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-- A memory: contents for every buffer of every device. -/
abbrev Mem (F : FTy → Type) [FloatOps F] : Type := (ℓ : Loc nD τ sig) → Buf (Elt F) ℓ

/-- The memory at launch: arbitrary contents, every semaphore counter zero, arbitrary generator registers. -/
def s₀ (m : Mem F) (ρ : Dev nD → PrngReg) : MemSt nD τ sig (Elt F) := ⟨m, fun _ => 0, ρ⟩

/-! ## The scratch buffers -/

/-- The accumulator [512, 1024] and the three landing buffers [256 / 128 / 64, 1024] of the reduce-scatter's phases. -/
abbrev accM : Memref sig .tc .vmem S512x1024 .bf16 := Memref.whole cc0_scratch0
abbrev comm0M : Memref sig .tc .vmem S256x1024 .bf16 := Memref.whole cc0_scratch1
abbrev comm1M : Memref sig .tc .vmem S128x1024 .bf16 := Memref.whole cc0_scratch2
abbrev comm2M : Memref sig .tc .vmem S64x1024 .bf16 := Memref.whole cc0_scratch3

/-- `n` rows of 1024. -/
abbrev Sn (n : ℕ) : Shape := ⟨2, ![n, 1024]⟩

/-- The rows of its accumulator device `c` reads at copy `i`. -/
def srcM : (i : Fin 18) → (c : Dev nD) → Memref sig .tc .vmem (Sn (rowsOf i)) .bf16
  | ⟨0, _⟩, c => accM.slice (Rect.unit (s := S512x1024) (k0_off1 c) S128x1024.size (k0_off1_inb c)) (fun _ => rfl)
  | ⟨1, _⟩, c => accM.slice (Rect.unit (s := S512x1024) (k0_off2 c) S64x1024.size (k0_off2_inb c)) (fun _ => rfl)
  | ⟨2, _⟩, c => accM.slice (Rect.unit (s := S512x1024) (k0_off3 c) S64x1024.size (k0_off3_inb c)) (fun _ => rfl)
  | ⟨3, _⟩, c => accM.slice (Rect.unit (s := S512x1024) (k0_off5 c) S64x1024.size (k0_off5_inb c)) (fun _ => rfl)
  | ⟨4, _⟩, c => accM.slice (Rect.unit (s := S512x1024) (k0_off7 c) S32x1024.size (k0_off7_inb c)) (fun _ => rfl)
  | ⟨5, _⟩, c => accM.slice (Rect.unit (s := S512x1024) (k0_off9 c) S32x1024.size (k0_off9_inb c)) (fun _ => rfl)
  | ⟨6, _⟩, c => accM.slice (Rect.unit (s := S512x1024) (k0_off11 c 0#32 32#32) S32x1024.size (k0_off11_inb c 0)) (fun _ => rfl)
  | ⟨7, _⟩, c => accM.slice (Rect.unit (s := S512x1024) (k0_off13 c 0#32 16#32) S16x1024.size (k0_off13_inb c 0)) (fun _ => rfl)
  | ⟨8, _⟩, c => accM.slice (Rect.unit (s := S512x1024) (k0_off15 c 0#32 16#32) S16x1024.size (k0_off15_inb c 0)) (fun _ => rfl)
  | ⟨9, _⟩, c => accM.slice (Rect.unit (s := S512x1024) (k0_off11 c 32#32 0#32) S32x1024.size (k0_off11_inb c 1)) (fun _ => rfl)
  | ⟨10, _⟩, c => accM.slice (Rect.unit (s := S512x1024) (k0_off13 c 16#32 0#32) S16x1024.size (k0_off13_inb c 1)) (fun _ => rfl)
  | ⟨11, _⟩, c => accM.slice (Rect.unit (s := S512x1024) (k0_off15 c 16#32 0#32) S16x1024.size (k0_off15_inb c 1)) (fun _ => rfl)
  | ⟨12, _⟩, c => accM.slice (Rect.unit (s := S512x1024) (k0_off19 c) S64x1024.size (k0_off19_inb c)) (fun _ => rfl)
  | ⟨13, _⟩, c => accM.slice (Rect.unit (s := S512x1024) (k0_off20 c) S32x1024.size (k0_off20_inb c)) (fun _ => rfl)
  | ⟨14, _⟩, c => accM.slice (Rect.unit (s := S512x1024) (k0_off21 c) S32x1024.size (k0_off21_inb c)) (fun _ => rfl)
  | ⟨15, _⟩, c => accM.slice (Rect.unit (s := S512x1024) (k0_off22 c) S128x1024.size (k0_off22_inb c)) (fun _ => rfl)
  | ⟨16, _⟩, c => accM.slice (Rect.unit (s := S512x1024) (k0_off23 c) S64x1024.size (k0_off23_inb c)) (fun _ => rfl)
  | ⟨17, _⟩, c => accM.slice (Rect.unit (s := S512x1024) (k0_off24 c) S64x1024.size (k0_off24_inb c)) (fun _ => rfl)
  | ⟨n + 18, h⟩, _ => absurd h (by omega)

/-- Where copy `i` lands ON the device `c'` it is addressed to, when device `c` makes it: a slot of a landing buffer, or the
    sender's rows of the accumulator. -/
def dstM : (i : Fin 18) → (c : Dev nD) → Memref sig .tc .vmem (Sn (rowsOf i)) .bf16
  | ⟨0, _⟩, c => comm0M.slice (Rect.unit (s := S256x1024) ![0, 0] S128x1024.size inb_S256x1024_S128x1024_0_0) (fun _ => rfl)
  | ⟨1, _⟩, c => comm0M.slice (Rect.unit (s := S256x1024) ![128, 0] S64x1024.size inb_S256x1024_S64x1024_128_0) (fun _ => rfl)
  | ⟨2, _⟩, c => comm0M.slice (Rect.unit (s := S256x1024) ![192, 0] S64x1024.size inb_S256x1024_S64x1024_192_0) (fun _ => rfl)
  | ⟨3, _⟩, c => comm1M.slice (Rect.unit (s := S128x1024) ![0, 0] S64x1024.size inb_S128x1024_S64x1024_0_0) (fun _ => rfl)
  | ⟨4, _⟩, c => comm1M.slice (Rect.unit (s := S128x1024) ![64, 0] S32x1024.size inb_S128x1024_S32x1024_64_0) (fun _ => rfl)
  | ⟨5, _⟩, c => comm1M.slice (Rect.unit (s := S128x1024) ![96, 0] S32x1024.size inb_S128x1024_S32x1024_96_0) (fun _ => rfl)
  | ⟨6, _⟩, c => comm2M.slice (Rect.unit (s := S64x1024) ![0, 0] S32x1024.size inb_S64x1024_S32x1024_0_0) (fun _ => rfl)
  | ⟨7, _⟩, c => comm2M.slice (Rect.unit (s := S64x1024) ![32, 0] S16x1024.size inb_S64x1024_S16x1024_32_0) (fun _ => rfl)
  | ⟨8, _⟩, c => comm2M.slice (Rect.unit (s := S64x1024) ![48, 0] S16x1024.size inb_S64x1024_S16x1024_48_0) (fun _ => rfl)
  | ⟨9, _⟩, c => accM.slice (Rect.unit (s := S512x1024) (k0_off11 c 32#32 0#32) S32x1024.size (k0_off11_inb c 1)) (fun _ => rfl)
  | ⟨10, _⟩, c => accM.slice (Rect.unit (s := S512x1024) (k0_off13 c 16#32 0#32) S16x1024.size (k0_off13_inb c 1)) (fun _ => rfl)
  | ⟨11, _⟩, c => accM.slice (Rect.unit (s := S512x1024) (k0_off15 c 16#32 0#32) S16x1024.size (k0_off15_inb c 1)) (fun _ => rfl)
  | ⟨12, _⟩, c => accM.slice (Rect.unit (s := S512x1024) (k0_off19 c) S64x1024.size (k0_off19_inb c)) (fun _ => rfl)
  | ⟨13, _⟩, c => accM.slice (Rect.unit (s := S512x1024) (k0_off20 c) S32x1024.size (k0_off20_inb c)) (fun _ => rfl)
  | ⟨14, _⟩, c => accM.slice (Rect.unit (s := S512x1024) (k0_off21 c) S32x1024.size (k0_off21_inb c)) (fun _ => rfl)
  | ⟨15, _⟩, c => accM.slice (Rect.unit (s := S512x1024) (k0_off22 c) S128x1024.size (k0_off22_inb c)) (fun _ => rfl)
  | ⟨16, _⟩, c => accM.slice (Rect.unit (s := S512x1024) (k0_off23 c) S64x1024.size (k0_off23_inb c)) (fun _ => rfl)
  | ⟨17, _⟩, c => accM.slice (Rect.unit (s := S512x1024) (k0_off24 c) S64x1024.size (k0_off24_inb c)) (fun _ => rfl)
  | ⟨n + 18, h⟩, _ => absurd h (by omega)

/-! ## The cells -/

/-- The runtime's barrier semaphore of collective id 0 (unscoped); the send and the receive semaphore of copy `i`. -/
abbrev barS : Sem sig := (SemArray.scalar (sig.barrier 0 rfl) : Sems sig S_).sem
abbrev sendS (i : Fin 18) : DmaSem sig := ⟨6 + i.val, show 6 + i.val < 42 by have := i.isLt; omega⟩
abbrev recvS (i : Fin 18) : DmaSem sig := ⟨24 + i.val, show 24 + i.val < 42 by have := i.isLt; omega⟩

abbrev barCell (c : Dev nD) : GSem nD τ sig := ((c : Thread nD τ), .reg barS)
abbrev sendCell (i : Fin 18) (c : Dev nD) : GSem nD τ sig := ((c : Thread nD τ), .dma (sendS i))
abbrev recvCell (i : Fin 18) (c : Dev nD) : GSem nD τ sig := ((c : Thread nD τ), .dma (recvS i))

/-- The partner copy `i` of device `c` is addressed to. -/
abbrev partner (i : Fin 18) (c : Dev nD) : Dev nD := peer (maskOf i) c

/-- The pairing of handshake duty `d`. -/
def barMask : Fin 3 → Nat := ![1, 3, 4]

theorem partner_partner : ∀ (i : Fin 18) (c : Dev nD), partner i (partner i c) = c := by decide

/-- What a copy of `n` rows credits its semaphores. -/
abbrev Ncr (i : Fin 18) : ℕ := (dstM i (0 : Dev nD)).view.dmaCredit

end Cert.Kernel.Coll

end
-- ==== Proof.Kernel.Schedule.lean ====
/-
  The protocol's schedule: what each unit a cell receives hands the cell's owner.

  VALUES. `P c` is what device `c`'s accumulator holds once its three parts are stored: its own product, rows by columns.
  A reduce-scatter phase adds, entry by entry, the partner's rows to the rows a device keeps: `W k c` is the accumulator's
  contents after `k` phases, wherever they are still current (the rows kept through phase `k`); the pairing of phase `k`
  depends on the part the row is in. An all-gather phase copies rows verbatim: `A j c` is the accumulator's contents after `j`
  all-gather phases on the rows that are current then — a row the device held before the phase keeps its entry, a row it
  receives has the partner's.

  PAYLOADS. A handshake unit from the partner across a pairing hands over the partner's three landing slots of the copies
  across that pairing (one in each landing buffer). A reduce-scatter copy's landing hands the receiver its slot holding the
  sender's rows AND the sender's source rows themselves (which the receiver writes, two phases later, in the all-gather);
  the sender's own cell hands it nothing. An all-gather copy's landing hands the receiver its own rows holding the sender's;
  the sender's cell hands the source rows back.
-/
import proofs.«900423_g7700000000000424_dist_attn_self_mha_htp_b1_sq512_skv512_d1024_hq8_dh128_v7x_i8_f32_1_alg».proof.Proof.Kernel.Common

noncomputable section

namespace Cert.Kernel.Coll

open Cert.Kernel Cert.Kernel.Gen Cert.Kernel.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Values -/

/-- The accumulator's contents: 512 rows of 1024. -/
abbrev AccC (F : FTy → Type) [FloatOps F] : Type := (cc0_scratch0 : Ref sig .tc).ty.Contents (Elt F)

/-- The part a row is in: rows 0–255, 256–383, 384–511. -/
def partOfRow (r : ℕ) : Fin 3 := if r < 256 then 0 else if r < 384 then 1 else 2

/-- The pairing reduce-scatter phase `k` (mod 3) uses on the part of row `r`: copy `3 k + part`'s. -/
def rsMask (k r : ℕ) : ℕ := maskOf ⟨3 * (k % 3) + (partOfRow r).val, by have := (partOfRow r).isLt; have := Nat.mod_lt k (show 0 < 3 by decide); omega⟩
/-- The all-gather copy of phase `j` (mod 3) on the part of row `r`. -/
def agCopy (j r : ℕ) : Fin 18 := ⟨9 + 3 * (j % 3) + (partOfRow r).val, by have := (partOfRow r).isLt; have := Nat.mod_lt j (show 0 < 3 by decide); omega⟩

section Values
variable (P : Dev nD → AccC F)

/-- The accumulator after `k` reduce-scatter phases: each phase adds the partner's entry. -/
def W : ℕ → Dev nD → AccC F
  | 0, c => P c
  | k + 1, c => fun x => FloatOps.addf (W k c x) (W k (peer (rsMask k (x 0).val) c) x)

/-- Row `r` is among the rows device `c` sends at all-gather phase `j`: the rows it holds, final, before that phase. -/
def heldAt (j : ℕ) (c : Dev nD) (r : ℕ) : Prop := srcRow (agCopy j r) c ≤ r ∧ r < srcRow (agCopy j r) c + rowsOf (agCopy j r)
instance (j : ℕ) (c : Dev nD) (r : ℕ) : Decidable (heldAt j c r) := by unfold heldAt; infer_instance

/-- The accumulator after `j` all-gather phases: a row held before the phase keeps its entry, a received row has the partner's. -/
def A : ℕ → Dev nD → AccC F
  | 0, c => W P 3 c
  | j + 1, c => fun x => if heldAt j c (x 0).val then A j c x else A j (peer (maskOf (agCopy j (x 0).val)) c) x

/-- The contents copy `i` of device `c` carries: the accumulator of its stage. -/
def carried (i : Fin 18) (c : Dev nD) : AccC F := if i.val < 9 then W P (i.val / 3) c else A P (i.val / 3 - 3) c

end Values

/-! ## Holding rows -/

/-- Device `c` holds the source rows of its copy `i` at contents `f`. -/
@[reducible] def srcPts (i : Fin 18) (c : Dev nD) (f : Buf (Elt F) ((srcM i c).view.loc (c : Thread nD τ))) : sProp 𝕄 :=
  (srcM i c).view.loc (c : Thread nD τ) ↦[(srcM i c).view.set]{fullShare} f
/-- Someone holds, ON device `c'`, the place copy `i` of device `c` lands at contents `f`. -/
@[reducible] def dstPts (i : Fin 18) (c c' : Dev nD) (f : Buf (Elt F) ((dstM i c).view.loc (c' : Thread nD τ))) : sProp 𝕄 :=
  (dstM i c).view.loc (c' : Thread nD τ) ↦[(dstM i c).view.set]{fullShare} f

/-- The rows of accumulator contents `X` that device `c`'s copy `i` reads: `X` through the copy's source view. -/
def rowsRead : (i : Fin 18) → (c : Dev nD) → AccC F → Vec F (Sn (rowsOf i)) .bf16
  | ⟨0, _⟩, c, X => (accM.slice (Rect.unit (s := S512x1024) (k0_off1 c) S128x1024.size (k0_off1_inb c)) (fun _ => rfl)).view.read (Elt F) X
  | ⟨1, _⟩, c, X => (accM.slice (Rect.unit (s := S512x1024) (k0_off2 c) S64x1024.size (k0_off2_inb c)) (fun _ => rfl)).view.read (Elt F) X
  | ⟨2, _⟩, c, X => (accM.slice (Rect.unit (s := S512x1024) (k0_off3 c) S64x1024.size (k0_off3_inb c)) (fun _ => rfl)).view.read (Elt F) X
  | ⟨3, _⟩, c, X => (accM.slice (Rect.unit (s := S512x1024) (k0_off5 c) S64x1024.size (k0_off5_inb c)) (fun _ => rfl)).view.read (Elt F) X
  | ⟨4, _⟩, c, X => (accM.slice (Rect.unit (s := S512x1024) (k0_off7 c) S32x1024.size (k0_off7_inb c)) (fun _ => rfl)).view.read (Elt F) X
  | ⟨5, _⟩, c, X => (accM.slice (Rect.unit (s := S512x1024) (k0_off9 c) S32x1024.size (k0_off9_inb c)) (fun _ => rfl)).view.read (Elt F) X
  | ⟨6, _⟩, c, X => (accM.slice (Rect.unit (s := S512x1024) (k0_off11 c 0#32 32#32) S32x1024.size (k0_off11_inb c 0)) (fun _ => rfl)).view.read (Elt F) X
  | ⟨7, _⟩, c, X => (accM.slice (Rect.unit (s := S512x1024) (k0_off13 c 0#32 16#32) S16x1024.size (k0_off13_inb c 0)) (fun _ => rfl)).view.read (Elt F) X
  | ⟨8, _⟩, c, X => (accM.slice (Rect.unit (s := S512x1024) (k0_off15 c 0#32 16#32) S16x1024.size (k0_off15_inb c 0)) (fun _ => rfl)).view.read (Elt F) X
  | ⟨9, _⟩, c, X => (accM.slice (Rect.unit (s := S512x1024) (k0_off11 c 32#32 0#32) S32x1024.size (k0_off11_inb c 1)) (fun _ => rfl)).view.read (Elt F) X
  | ⟨10, _⟩, c, X => (accM.slice (Rect.unit (s := S512x1024) (k0_off13 c 16#32 0#32) S16x1024.size (k0_off13_inb c 1)) (fun _ => rfl)).view.read (Elt F) X
  | ⟨11, _⟩, c, X => (accM.slice (Rect.unit (s := S512x1024) (k0_off15 c 16#32 0#32) S16x1024.size (k0_off15_inb c 1)) (fun _ => rfl)).view.read (Elt F) X
  | ⟨12, _⟩, c, X => (accM.slice (Rect.unit (s := S512x1024) (k0_off19 c) S64x1024.size (k0_off19_inb c)) (fun _ => rfl)).view.read (Elt F) X
  | ⟨13, _⟩, c, X => (accM.slice (Rect.unit (s := S512x1024) (k0_off20 c) S32x1024.size (k0_off20_inb c)) (fun _ => rfl)).view.read (Elt F) X
  | ⟨14, _⟩, c, X => (accM.slice (Rect.unit (s := S512x1024) (k0_off21 c) S32x1024.size (k0_off21_inb c)) (fun _ => rfl)).view.read (Elt F) X
  | ⟨15, _⟩, c, X => (accM.slice (Rect.unit (s := S512x1024) (k0_off22 c) S128x1024.size (k0_off22_inb c)) (fun _ => rfl)).view.read (Elt F) X
  | ⟨16, _⟩, c, X => (accM.slice (Rect.unit (s := S512x1024) (k0_off23 c) S64x1024.size (k0_off23_inb c)) (fun _ => rfl)).view.read (Elt F) X
  | ⟨17, _⟩, c, X => (accM.slice (Rect.unit (s := S512x1024) (k0_off24 c) S64x1024.size (k0_off24_inb c)) (fun _ => rfl)).view.read (Elt F) X
  | ⟨n + 18, h⟩, _, _ => absurd h (by omega)

/-- The source rows of `c`'s copy `i` holding the rows of `X` there. -/
def srcAt (i : Fin 18) (c : Dev nD) (X : AccC F) : sProp 𝕄 :=
  iprop(∃ f, ⌜(srcM i c).view.read (Elt F) f = rowsRead i c X⌝ ∗ srcPts i c f)
/-- The landing place, on `c'`, of `c`'s copy `i` holding `c`'s rows of `X`. -/
def dstAt (i : Fin 18) (c c' : Dev nD) (X : AccC F) : sProp 𝕄 :=
  iprop(∃ f, ⌜(dstM i c).view.read (Elt F) f = rowsRead i c X⌝ ∗ dstPts i c c' f)

/-! ## The payloads -/

section Pay
variable (P : Dev nD → AccC F)

/-- The reduce-scatter copies across the pairing of handshake duty `d`: one per phase. -/
def slotsOf : Fin 3 → Fin 3 → Fin 18
  | 0 => ![2, 4, 6]
  | 1 => ![1, 3, 8]
  | 2 => ![0, 5, 7]

/-- A handshake unit to `c`, duty `d`: the signaller's three landing slots, at any contents. -/
def barPay (d : Fin 3) (c : Dev nD) : sProp 𝕄 :=
  iprop((∃ f, dstPts (slotsOf d 0) c (peer (barMask d) c) f) ∗ (∃ f, dstPts (slotsOf d 1) c (peer (barMask d) c) f)
    ∗ (∃ f, dstPts (slotsOf d 2) c (peer (barMask d) c) f))

/-- The landing of copy `i` ON device `c` (made by `c`'s partner): the landing place holding the sender's rows; for a
    reduce-scatter copy also the sender's source rows, still holding them. -/
def recvPay (i : Fin 18) (c : Dev nD) : sProp 𝕄 :=
  if i.val < 9 then iprop(dstAt i (partner i c) c (carried P i (partner i c)) ∗ srcAt i (partner i c) (carried P i (partner i c)))
  else dstAt i (partner i c) c (carried P i (partner i c))

/-- `c`'s own copy `i` read out: nothing for a reduce-scatter copy (the rows went with the landing), the source rows back for
    an all-gather copy. -/
def sendPay (i : Fin 18) (c : Dev nD) : sProp 𝕄 :=
  if i.val < 9 then iprop(emp) else srcAt i c (carried P i c)

/-! ## The schedule -/

/-- Which of the protocol's cells a semaphore is. -/
inductive CellKind | bar | send (i : Fin 18) | recv (i : Fin 18) | other
  deriving DecidableEq

def kindOf : SemLoc sig → CellKind
  | .reg s => if s = barS then .bar else .other
  | .dma q => if h : 6 ≤ q.val ∧ q.val < 24 then .send ⟨q.val - 6, by omega⟩
      else if h : 24 ≤ q.val ∧ q.val < 42 then .recv ⟨q.val - 24, by omega⟩ else .other

theorem kindOf_bar : kindOf (.reg barS : SemLoc sig) = .bar := by decide
theorem kindOf_send (i : Fin 18) : kindOf (.dma (sendS i) : SemLoc sig) = .send i := by revert i; decide
theorem kindOf_recv (i : Fin 18) : kindOf (.dma (recvS i) : SemLoc sig) = .recv i := by revert i; decide

theorem Ncr_pos (i : Fin 18) : 0 < Ncr i := by
  fin_cases i <;> exact View.dmaCredit_pos _ (by decide)

/-- One round, round 0: the handshake cell's three unit duties; each copy's two cells one duty of the copy's credit. -/
def rd : Rounds.Schedule (GSem nD τ sig) (Fin 3) 𝕄 where
  duties g r :=
    if g.1.2 = .tc ∧ r = 0 then
      match kindOf g.2 with
      | .bar => Finset.univ
      | .send _ | .recv _ => {0}
      | .other => ∅
    else ∅
  unitless _ := False
  amount g _ _ := match kindOf g.2 with
    | .send i | .recv i => Ncr i
    | _ => 1
  payload g _ d := match kindOf g.2 with
    | .bar => barPay d g.1.1
    | .recv i => recvPay P i g.1.1
    | .send i => sendPay P i g.1.1
    | .other => iprop(emp)
  amount_pos g _ _ _ := by
    cases kindOf g.2 <;> first | exact Nat.one_pos | exact Ncr_pos _

instance rd_payload_storable (g : GSem nD τ sig) (r : ℕ) (d : Fin 3) :
    BI.Storable (upEmb : UEmb _ 𝕄) ((rd (F := F) P).payload g r d) := by
  show BI.Storable upEmb (match kindOf g.2 with
    | .bar => barPay d g.1.1
    | .recv i => recvPay P i g.1.1
    | .send i => sendPay P i g.1.1
    | .other => iprop(emp))
  unfold barPay recvPay sendPay dstAt srcAt dstPts srcPts
  split <;> (try split) <;> infer_instance

/-! ## The tables, computed -/

section Sched
variable (c : Dev nD) (i : Fin 18)

theorem duties_bar : (rd (F := F) P).duties (barCell c) 0 = Finset.univ := by
  simp only [rd, kindOf_bar, and_self, if_true]
theorem duties_send : (rd (F := F) P).duties (sendCell i c) 0 = {0} := by
  simp only [rd, kindOf_send, and_self, if_true]
theorem duties_recv : (rd (F := F) P).duties (recvCell i c) 0 = {0} := by
  simp only [rd, kindOf_recv, and_self, if_true]
theorem duties_later (g : GSem nD τ sig) : ∀ r, 1 ≤ r → (rd (F := F) P).duties g r = ∅ := fun r hr => by
  dsimp only [rd]; rw [if_neg fun h => by omega]

theorem amount_bar (d : Fin 3) : (rd (F := F) P).amount (barCell c) 0 d = 1 := by simp only [rd, kindOf_bar]
theorem amount_send (d : Fin 3) : (rd (F := F) P).amount (sendCell i c) 0 d = Ncr i := by simp only [rd, kindOf_send]
theorem amount_recv (d : Fin 3) : (rd (F := F) P).amount (recvCell i c) 0 d = Ncr i := by simp only [rd, kindOf_recv]

theorem expect_bar : (rd (F := F) P).expect (barCell c) 0 = 3 := by
  unfold Schedule.expect Schedule.amountOf
  rw [duties_bar, Finset.sum_congr rfl fun d _ => amount_bar P c d, Finset.sum_const, Finset.card_univ, Fintype.card_fin, smul_eq_mul]
theorem expect_send : (rd (F := F) P).expect (sendCell i c) 0 = Ncr i := by
  unfold Schedule.expect Schedule.amountOf; rw [duties_send, Finset.sum_singleton, amount_send]
theorem expect_recv : (rd (F := F) P).expect (recvCell i c) 0 = Ncr i := by
  unfold Schedule.expect Schedule.amountOf; rw [duties_recv, Finset.sum_singleton, amount_recv]

theorem payload_bar (d : Fin 3) : (rd (F := F) P).payload (barCell c) 0 d = barPay d c := by simp only [rd, kindOf_bar]
theorem payload_send (d : Fin 3) : (rd (F := F) P).payload (sendCell i c) 0 d = sendPay P i c := by simp only [rd, kindOf_send]
theorem payload_recv (d : Fin 3) : (rd (F := F) P).payload (recvCell i c) 0 d = recvPay P i c := by simp only [rd, kindOf_recv]

/-- A wait for a whole round of which no duty was taken gets the round's payloads: the handshake's three, -/
theorem rest_bar : bigSep ((rd (F := F) P).duties (barCell c) 0 \ ∅) (fun d => (rd (F := F) P).payload (barCell c) 0 d)
    = iprop(barPay 0 c ∗ barPay 1 c ∗ barPay 2 c) := by
  rw [Finset.sdiff_empty, duties_bar, bigSep_univ_eq_bigSepL [(0 : Fin 3), 1, 2] (by decide) (by decide), bigSepL_cons_cons, bigSepL_cons_cons, bigSepL_singleton,
    payload_bar, payload_bar, payload_bar]
  rfl
/-- a copy's one. -/
theorem rest_send : bigSep ((rd (F := F) P).duties (sendCell i c) 0 \ ∅) (fun d => (rd (F := F) P).payload (sendCell i c) 0 d) = sendPay P i c := by
  rw [Finset.sdiff_empty, duties_send, bigSep_singleton, payload_send]
theorem rest_recv : bigSep ((rd (F := F) P).duties (recvCell i c) 0 \ ∅) (fun d => (rd (F := F) P).payload (recvCell i c) 0 d) = recvPay P i c := by
  rw [Finset.sdiff_empty, duties_recv, bigSep_singleton, payload_recv]

end Sched

end Pay

end Cert.Kernel.Coll

end
-- ==== Proof.Kernel.Inv.lean ====
/-
  What each device starts from and ends with, and the order argument against deadlock.

  LEVELS. On every device copy `i` is made before copy `i + 1`, and the wait for copy `i`'s landing comes after copy `i + 2` is
  made (for the last copies, after every copy is made). So with staging cells and send cells at level 0, the handshake cell at
  level 1 and the receive cell of copy `i` at level `i + 2`, every wait a device makes is below everything it still owes:
  at its handshake wait it owes only landings (levels ≥ 2), at the wait for landing `i` only the landings of copies after
  `i + 2` (levels ≥ i + 5), and a send cell's units come from the device's own copy.

  OWING. At launch a device owes its three partners one handshake unit each and the partner of every copy that copy's
  landing. The sum is written so that the units come off it from the right in the order the device pays them.

  GHOST STATE. Every device knows every cell's invariant and that round 0 of every cell is open; it holds its own cells'
  positions, and the duty tokens it pays with: its duty on each partner's handshake cell, the landing duty of each of its
  copies on the partner's receive cell, the duty of each of its own send cells.
-/
import proofs.«900423_g7700000000000424_dist_attn_self_mha_htp_b1_sq512_skv512_d1024_hq8_dh128_v7x_i8_f32_1_alg».proof.Proof.Kernel.Schedule
import proofs.«900423_g7700000000000424_dist_attn_self_mha_htp_b1_sq512_skv512_d1024_hq8_dh128_v7x_i8_f32_1_alg».proof.Proof.Gen.Kernel.Skeleton
import proofs.«900423_g7700000000000424_dist_attn_self_mha_htp_b1_sq512_skv512_d1024_hq8_dh128_v7x_i8_f32_1_alg».proof.Proof.Gen.Kernel.Frame

noncomputable section

namespace Cert.Kernel.Coll

open Cert.Kernel Cert.Kernel.Gen Cert.Kernel.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## A device's cells, indexed -/

/-- A device's 37 cells: 0 the handshake cell, 1–18 the send cells of copies 0–17, 19–36 their receive cells. -/
abbrev CK : Type := Fin 37

def csem (k : CK) : SemLoc sig :=
  if k.val = 0 then .reg barS
  else if h : k.val ≤ 18 then .dma ⟨5 + k.val, show 5 + k.val < 42 by omega⟩
  else .dma ⟨5 + k.val, show 5 + k.val < 42 by have := k.isLt; omega⟩

abbrev ckBar : CK := 0
abbrev ckSend (i : Fin 18) : CK := ⟨1 + i.val, by have := i.isLt; omega⟩
abbrev ckRecv (i : Fin 18) : CK := ⟨19 + i.val, by have := i.isLt; omega⟩

theorem csem_bar : csem ckBar = .reg barS := rfl
theorem csem_send : ∀ i : Fin 18, csem (ckSend i) = .dma (sendS i) := by decide
theorem csem_recv : ∀ i : Fin 18, csem (ckRecv i) = .dma (recvS i) := by decide

abbrev kcell (ck : Dev nD × CK) : GSem nD τ sig := ((ck.1 : Thread nD τ), csem ck.2)

theorem csem_injective : Function.Injective csem := by
  intro a b; revert a b; decide +kernel

theorem kcell_injective : Function.Injective (kcell : Dev nD × CK → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_injective h2]

theorem kcell_bar (c : Dev nD) : kcell (c, ckBar) = barCell c := rfl
theorem kcell_send (i : Fin 18) (c : Dev nD) : kcell (c, ckSend i) = sendCell i c := by unfold kcell; rw [csem_send]
theorem kcell_recv (i : Fin 18) (c : Dev nD) : kcell (c, ckRecv i) = recvCell i c := by unfold kcell; rw [csem_recv]

/-! ## Levels -/

def L (g : GSem nD τ sig) : Finset Unit := if g.1.2 = .tc then {()} else ∅
/-- Staging and send cells at 0, the handshake cell at 1, the receive cell of copy `i` at `i + 2`. -/
def lv (g : GSem nD τ sig) (_ : Unit) : ℕ := match kindOf g.2 with
  | .bar => 1
  | .recv i => i.val + 2
  | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := by simp only [lv, kindOf_bar]
theorem lv_recv (i : Fin 18) (c : Dev nD) : lv (recvCell i c) () = i.val + 2 := by simp only [lv, kindOf_recv]
theorem lv_send (i : Fin 18) (c : Dev nD) : lv (sendCell i c) () = 0 := by simp only [lv, kindOf_send]

/-! ## What a device owes -/

/-- The landings of the copies from `n` on, `fuel` of them: the next copy's is the LAST summand. -/
def owedAux : (fuel n : ℕ) → Dev nD → CellTallies nD τ sig Unit
  | 0, _, _ => 0
  | fuel + 1, n, c => if h : n < 18 then owedAux fuel (n + 1) c + tallyAt (recvCell ⟨n, h⟩ (partner ⟨n, h⟩ c)) () (Ncr ⟨n, h⟩) else 0

/-- What device `c` owes once it has made its copies below `n`. -/
def owedFrom (n : ℕ) (c : Dev nD) : CellTallies nD τ sig Unit := owedAux (18 - n) n c

theorem owedFrom_succ (i : Fin 18) (c : Dev nD) :
    owedFrom i.val c = owedFrom (i.val + 1) c + tallyAt (recvCell i (partner i c)) () (Ncr i) := by
  unfold owedFrom
  rw [show 18 - i.val = (18 - (i.val + 1)) + 1 by have := i.isLt; omega]
  show (if h : i.val < 18 then _ else 0) = _
  rw [dif_pos i.isLt]
theorem owedFrom_18 (c : Dev nD) : owedFrom 18 c = 0 := rfl

/-- At launch: the eighteen landings, then the three handshake units, the first signal's (across 1) last. -/
def O₂ (c : Dev nD) : CellTallies nD τ sig Unit := owedFrom 0 c + tallyAt (barCell (peer 4 c)) () 1
def O₁ (c : Dev nD) : CellTallies nD τ sig Unit := O₂ c + tallyAt (barCell (peer 3 c)) () 1
def O₀ (c : Dev nD) : CellTallies nD τ sig Unit := O₁ c + tallyAt (barCell (peer 1 c)) () 1

/-! ## The ghost state -/

section Ghost
variable (P : Dev nD → AccC F)

/-- What every device knows: each cell's invariant under the name the launch gave it, and that round 0 of each is open. -/
def records (K : Dev nD × CK → ℕ) : sProp 𝕄 :=
  iprop((bigSep Finset.univ fun ck : Dev nD × CK => cellInv ER (rd P) (K ck) (kcell ck))
    ∗ bigSep Finset.univ fun ck : Dev nD × CK => reached ER (kcell ck) 0)

instance records_persistent (K : Dev nD × CK → ℕ) : BI.Persistent (records P K) := by unfold records; infer_instance

/-- The tokens of the duties device `c` pays. -/
def payToks (c : Dev nD) : sProp 𝕄 :=
  iprop((bigSep Finset.univ fun d : Fin 3 => dutyTok ER (barCell (peer (barMask d) c)) 0 d)
    ∗ (bigSep Finset.univ fun i : Fin 18 => dutyTok ER (recvCell i (partner i c)) 0 (0 : Fin 3))
    ∗ (bigSep Finset.univ fun i : Fin 18 => dutyTok ER (sendCell i c) 0 (0 : Fin 3)))

/-- What only device `c` holds: its cells' positions and its tokens. -/
def linear (c : Dev nD) : sProp 𝕄 :=
  iprop((bigSep Finset.univ fun k : CK => atPos ER (kcell (c, k)) 0 ∅ 0) ∗ payToks c)

def ghost (K : Dev nD × CK → ℕ) (c : Dev nD) : sProp 𝕄 := iprop(records P K ∗ linear c)

/-- The credit the launch deals device `c`: its handshake cell's three units and each landing's. -/
def credits (c : Dev nD) : sProp 𝕄 :=
  iprop(cred (tallyAt (barCell c) () 3) ∗ bigSep Finset.univ fun i : Fin 18 => cred (tallyAt (recvCell i c) () (Ncr i)))

/-- What device `c`'s body starts from, the scratch buffers apart. -/
def start (c : Dev nD) : sProp 𝕄 :=
  iprop((∃ K, ghost P K c) ∗ credits c ∗ levAts L lv)

/-- The four scratch buffers, each whole at some contents. -/
def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ (∃ f : Buf (Elt F) ((c : Thread nD τ).loc cc0_scratch3), ((c : Thread nD τ).loc cc0_scratch3) ↦{fullShare} f))

/-- Before the one point: the start and the scratch buffers. After it: the scratch buffers again whole and the thirty-six
    own cells closed, their counters at zero. -/
def Φ₀ (c : Dev nD) : sProp 𝕄 := iprop(start P c ∗ scratch c)
def Φ₁ (c : Dev nD) : sProp 𝕄 :=
  iprop(scratch c ∗ bigSep Finset.univ fun i : Fin 18 => iprop(semVal (sendCell i c) 0 ∗ semVal (recvCell i c) 0))

end Ghost

/-! ## The pipeline's proof data -/

section Data
variable (m : Mem F) (ρ : Dev nD → PrngReg) (P : Dev nD → AccC F)

/-- The kernel's result on every device: the accumulator after the three all-gather phases, widened. -/
def outAt (c : Dev nD) : (cc0_stg5_0 : Ref sig .tc).ty.Contents (Elt F) := k0_pay1 (A P 3 c)

def dats (_ : Fin 1) (c : Dev nD) : Dat τ (Elt F) Unit ℕ UU ℕ cfg0 c where
  A w := (s₀ m ρ).mem ((cfg0.win w).arr.view.loc (c : Thread nD τ))
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt P c
  Φ t := match t with
    | ⟨0, _⟩ => Φ₀ P c
    | ⟨_ + 1, _⟩ => Φ₁ c
  q _ := fullShare
  owed t := match t with
    | ⟨0, _⟩ => O₀ c
    | ⟨_ + 1, _⟩ => 0

abbrev 𝒱₀ : Variants := Variants.none

end Data

end Cert.Kernel.Coll

end
-- ==== Proof.Kernel.Steps.lean ====
/-
  The kernel's remote statements as rules over the schedule, one per kind of statement, for any copy `i`; and the
  evidence that each wait is below everything its device still owes.

  A handshake signal pays the partner's handshake duty with the signaller's three landing slots of that pairing. The
  handshake wait brings back the three partners' nine slots. A reduce-scatter copy pays the partner's landing duty with the
  partner's slot rewritten AND the source rows; the sender's own duty with nothing. An all-gather copy pays the partner's
  landing duty with the partner's rows rewritten and its own duty with the source rows. A wait on a copy's send or receive
  cell brings back that cell's one payload.
-/
import proofs.«900423_g7700000000000424_dist_attn_self_mha_htp_b1_sq512_skv512_d1024_hq8_dh128_v7x_i8_f32_1_alg».proof.Proof.Kernel.Inv

noncomputable section

namespace Cert.Kernel.Coll

open Cert.Kernel Cert.Kernel.Gen Cert.Kernel.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Levels -/

/-- Whatever is still owed among the landings from copy `n` on is the landing of some copy `i ≥ n`. -/
theorem owedAux_pos {fuel n : ℕ} {c : Dev nD} {g : GSem nD τ sig} {u : Unit} (h : 0 < owedAux fuel n c g u) :
    ∃ i : Fin 18, n ≤ i.val ∧ g = recvCell i (partner i c) := by
  induction fuel generalizing n with
  | zero => exact absurd h (Nat.lt_irrefl 0)
  | succ f ih =>
    unfold owedAux at h
    split at h
    · rename_i hn
      rw [Pi.add_apply, Finsupp.add_apply, tallyAt_apply] at h
      by_cases hg : g = recvCell ⟨n, hn⟩ (partner ⟨n, hn⟩ c) ∧ u = ()
      · exact ⟨⟨n, hn⟩, le_rfl, hg.1⟩
      · rw [if_neg hg, Nat.add_zero] at h
        obtain ⟨i, hi, hgi⟩ := ih h
        exact ⟨i, by omega, hgi⟩
    · exact absurd h (Nat.lt_irrefl 0)

theorem owedFrom_pos {n : ℕ} {c : Dev nD} {g : GSem nD τ sig} {u : Unit} (h : 0 < owedFrom n c g u) :
    ∃ i : Fin 18, n ≤ i.val ∧ g = recvCell i (partner i c) := owedAux_pos h

/-- A wait on a cell whose level is below `n + 2` is below every landing from copy `n` on. -/
theorem mayWait_from (c : Dev nD) (sm : SemLoc sig) (n : ℕ) (h : lv ((c : Thread nD τ), sm) () < n + 2) :
    (levAts L lv : sProp 𝕄) ⊢ MayWait (c : Thread nD τ) sm () (owedFrom n c) :=
  MayOwe.of_cut (L := L) (lev := lv) (lv ((c : Thread nD τ), sm) ())
    (fun p hp => by rw [Finset.mem_singleton.mp hp, L_tc]; exact Finset.mem_singleton_self _)
    (fun g u hg => by obtain ⟨i, -, rfl⟩ := owedFrom_pos hg; rw [L_tc]; exact Finset.mem_singleton_self _)
    (fun p hp => by rw [Finset.mem_singleton.mp hp])
    (fun g u hg => by obtain ⟨i, hi, rfl⟩ := owedFrom_pos hg; cases u; rw [lv_recv]; omega)

/-! ## What a copy credits -/

theorem credit_dst (i : Fin 18) (c : Dev nD) (sm : DmaSem sig) : (dstM i c).view.amount (.dma sm) = Ncr i := by
  fin_cases i <;> rfl
theorem credit_src (i : Fin 18) (c : Dev nD) : (srcM i c).view.dmaCredit = Ncr i := by
  fin_cases i <;> rfl

section Steps

variable (P : Dev nD → AccC F)
variable {α : Type} {Q : α → sProp (MT nD τ sig Unit (Elt F) ℕ UU ℕ)} (c : Dev nD)

/-- A handshake signal to `n`, duty `d`. -/
theorem wp_hand (d : Fin 3) (n : Dev nD) {k' : ℕ} (hk' : 1 = k') {k : PUnit → Prog (TpuEff nD τ sig (Elt F) Λ₀ .tc) α} {κ : ℕ}
    {O₀ : CellTallies nD τ sig Unit} (O : CellTallies nD τ sig Unit) (hO : O₀ = O + tallyAt (barCell n) () k') {W : Waits sig Unit} :
    iprop(cellInv ER (rd P) κ (barCell n) ∗ owes (c : Thread nD τ) O₀ W ∗ dutyTok ER (barCell n) 0 d
        ∗ barPay d n ∗ reached ER (barCell n) 0)
      ⊢ iprop((owes (c : Thread nD τ) O W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal ((n : Dev nD) : Thread nD τ) barS k') k) Q) := by
  iintro ⟨#HI, HO, Htok, Hpay, #Hr⟩ Hk
  iapply (Rounds.wp_signal 𝒱₀ ER (rd P) (c : Thread nD τ) none (dst := ((n : Dev nD) : Thread nD τ)) (κ := κ) (r := 0) (d := d)
      (by rw [duties_bar]; exact Finset.mem_univ _) ((amount_bar P n d).trans hk') () O hO) $$ [HO Htok Hpay]
  · isplitr; · iexact HI
    isplitl [HO]; · iexact HO
    isplitl [Htok]; · iexact Htok
    isplitl [Hpay]; · rw [payload_bar]; iexact Hpay
    iexact Hr
  iexact Hk

/-- The handshake wait: the three partners' slots. -/
theorem wp_handwait {k' : ℕ} (hk' : 3 = k') {k : PUnit → Prog (TpuEff nD τ sig (Elt F) Λ₀ .tc) α} {κ : ℕ}
    {O : CellTallies nD τ sig Unit} {W : Waits sig Unit} :
    iprop(cellInv ER (rd P) κ (barCell c) ∗ cred (tallyAt (barCell c) () 3) ∗ owes (c : Thread nD τ) O W
        ∗ MayWait (c : Thread nD τ) (.reg barS) () O ∗ atPos ER (barCell c) 0 ∅ 0)
      ⊢ iprop(((owes (c : Thread nD τ) O (insert (SemLoc.reg barS, ()) W) ∗ atPos ER (barCell c) 1 ∅ 0 ∗ reached ER (barCell c) 1
              ∗ barPay (F := F) 0 c ∗ barPay 1 c ∗ barPay 2 c)
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS k') k) Q) := by
  subst hk'
  iintro ⟨#HI, Hc, HO, #Hmw, Hat⟩ Hk
  iapply (Rounds.wp_wait_rest_token 𝒱₀ ER (rd P) (c : Thread nD τ) none (κ := κ) (k' := 3)
      (wpE_semWait_eq 𝒱₀ (c : Thread nD τ) none Set.univ) (Set.mem_univ _) () (O := O) (W := W) (R := 0) (m := 0) (T := ∅)
      (by rw [Nat.zero_add, expect_bar])) $$ [Hc HO Hat]
  · isplitr; · iexact HI
    isplitl [Hc]; · iexact Hc
    isplitl [HO]; · iexact HO
    isplitr; · iexact Hmw
    iexact Hat
  iintro ⟨HO, Hat, Hr, Hpay⟩
  iapply Hk
  ihave Hp := (Entails.of_eq (rest_bar P c)) $$ Hpay
  isplitl [HO]; · iexact HO
  isplitl [Hat]; · iexact Hat
  isplitl [Hr]; · iexact Hr
  iexact Hp

/-- A reduce-scatter copy: the landing hands the partner its slot rewritten and the source rows. -/
theorem wp_copyRS (i : Fin 18) (hi : i.val < 9) (n : Dev nD) (hn : n = partner i c)
    {hsc : ((dstM i c) : Memref sig (Dev.tc n : Thread nD τ).2.kind .vmem (Sn (rowsOf i)) .bf16).view.ref.isScScratch = false}
    {hsrc : (srcM i c).view.WordExact} {hdst : (dstM i c).view.WordExact}
    {hsem : DmaTarget.Typed .vmem (.dma (recvS i)) (.remote (Dev.tc n : Thread nD τ) (dstM i c) (.dma (sendS i)) hsc)}
    {k : PUnit → Prog (TpuEff nD τ sig (Elt F) Λ₀ .tc) α} {κ₁ κ₂ : ℕ}
    (fs : Buf (Elt F) ((srcM i c).view.loc (c : Thread nD τ)))
    (fd : Buf (Elt F) ((dstM i c).view.loc ((partner i c : Dev nD) : Thread nD τ)))
    (hv : (srcM i c).view.read (Elt F) fs = rowsRead i c (carried P i c))
    {O₀ : CellTallies nD τ sig Unit} (O : CellTallies nD τ sig Unit) (hO : O₀ = O + tallyAt (recvCell i (partner i c)) () (Ncr i)) {W : Waits sig Unit} :
    iprop(cellInv ER (rd P) κ₁ (sendCell i c) ∗ cellInv ER (rd P) κ₂ (recvCell i (partner i c))
        ∗ srcPts i c fs ∗ dstPts i c (partner i c) fd
        ∗ owes (c : Thread nD τ) O₀ W
        ∗ dutyTok ER (sendCell i c) 0 (0 : Fin 3) ∗ reached ER (sendCell i c) 0
        ∗ dutyTok ER (recvCell i (partner i c)) 0 (0 : Fin 3) ∗ reached ER (recvCell i (partner i c)) 0)
      ⊢ iprop(((cred (tallyAt (sendCell i c) () (Ncr i)) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (srcM i c) (.remote (Dev.tc n : Thread nD τ) (dstM i c) (.dma (sendS i)) hsc) (.dma (recvS i)) hsrc hdst hsem) k) Q) := by
  subst hn
  iintro ⟨#HI1, #HI2, Hs, Hd, HO, Ht1, #Hr1, Ht2, #Hr2⟩ Hk
  iapply (Rounds.wp_send_landing_pointsTo 𝒱₀ ER (rd P) (c : Thread nD τ) none (κ₁ := κ₁) (κ₂ := κ₂)
      (r₁ := 0) (r₂ := 0) (d₁ := (0 : Fin 3)) (d₂ := (0 : Fin 3)) (fs := fs) (fd := fd)
      (by rw [duties_send]; exact Finset.mem_singleton_self _) (by rw [duties_recv]; exact Finset.mem_singleton_self _)
      () () (Ncr i) (credit_dst i c _) (amount_send P c i 0) (amount_recv P _ i 0) O hO (W := W)
      (by rw [payload_send]; unfold sendPay; rw [if_pos hi])
      (by
        rw [payload_recv]; unfold recvPay; rw [if_pos hi, partner_partner]
        unfold dstAt srcAt dstPts srcPts
        iintro ⟨Hd, Hs⟩
        isplitl [Hd]
        · iexists ((dstM i c).view.write (Elt F) fd ((srcM i c).view.read (Elt F) fs) Finset.univ)
          isplitr; · ipureintro; rw [View.read_write_univ]; exact hv
          iexact Hd
        · iexists fs
          isplitr; · ipureintro; exact hv
          iexact Hs)) $$ [Hs Hd HO Ht1 Ht2]
  · isplitr; · iexact HI1
    isplitr; · iexact HI2
    isplitl [Hs]; · iexact Hs
    isplitl [Hd]; · iexact Hd
    isplitl [HO]; · iexact HO
    isplitl [Ht1]; · iexact Ht1
    isplitr; · iexact Hr1
    isplitl [Ht2]; · iexact Ht2
    iexact Hr2
  iexact Hk

/-- An all-gather copy: the landing hands the partner its rows rewritten; the sender's cell the source rows back. -/
theorem wp_copyAG (i : Fin 18) (hi : ¬ i.val < 9) (n : Dev nD) (hn : n = partner i c)
    {hsc : ((dstM i c) : Memref sig (Dev.tc n : Thread nD τ).2.kind .vmem (Sn (rowsOf i)) .bf16).view.ref.isScScratch = false}
    {hsrc : (srcM i c).view.WordExact} {hdst : (dstM i c).view.WordExact}
    {hsem : DmaTarget.Typed .vmem (.dma (recvS i)) (.remote (Dev.tc n : Thread nD τ) (dstM i c) (.dma (sendS i)) hsc)}
    {k : PUnit → Prog (TpuEff nD τ sig (Elt F) Λ₀ .tc) α} {κ₁ κ₂ : ℕ}
    (fs : Buf (Elt F) ((srcM i c).view.loc (c : Thread nD τ)))
    (fd : Buf (Elt F) ((dstM i c).view.loc ((partner i c : Dev nD) : Thread nD τ)))
    (hv : (srcM i c).view.read (Elt F) fs = rowsRead i c (carried P i c))
    {O₀ : CellTallies nD τ sig Unit} (O : CellTallies nD τ sig Unit) (hO : O₀ = O + tallyAt (recvCell i (partner i c)) () (Ncr i)) {W : Waits sig Unit} :
    iprop(cellInv ER (rd P) κ₁ (sendCell i c) ∗ cellInv ER (rd P) κ₂ (recvCell i (partner i c))
        ∗ srcPts i c fs ∗ dstPts i c (partner i c) fd
        ∗ owes (c : Thread nD τ) O₀ W
        ∗ dutyTok ER (sendCell i c) 0 (0 : Fin 3) ∗ reached ER (sendCell i c) 0
        ∗ dutyTok ER (recvCell i (partner i c)) 0 (0 : Fin 3) ∗ reached ER (recvCell i (partner i c)) 0)
      ⊢ iprop(((cred (tallyAt (sendCell i c) () (Ncr i)) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (srcM i c) (.remote (Dev.tc n : Thread nD τ) (dstM i c) (.dma (sendS i)) hsc) (.dma (recvS i)) hsrc hdst hsem) k) Q) := by
  subst hn
  iintro ⟨#HI1, #HI2, Hs, Hd, HO, Ht1, #Hr1, Ht2, #Hr2⟩ Hk
  iapply (Rounds.wp_send_pointsTo 𝒱₀ ER (rd P) (c : Thread nD τ) none (κ₁ := κ₁) (κ₂ := κ₂)
      (r₁ := 0) (r₂ := 0) (d₁ := (0 : Fin 3)) (d₂ := (0 : Fin 3)) (fs := fs) (fd := fd)
      (by rw [duties_send]; exact Finset.mem_singleton_self _) (by rw [duties_recv]; exact Finset.mem_singleton_self _)
      () () (Ncr i) (credit_dst i c _) (amount_send P c i 0) (amount_recv P _ i 0) O hO (W := W)
      (by
        rw [payload_send]; unfold sendPay; rw [if_neg hi]; unfold srcAt srcPts
        iintro Hs; iexists fs
        isplitr; · ipureintro; exact hv
        iexact Hs)
      (by
        rw [payload_recv]; unfold recvPay; rw [if_neg hi, partner_partner]
        unfold dstAt dstPts
        iintro Hd
        iexists ((dstM i c).view.write (Elt F) fd ((srcM i c).view.read (Elt F) fs) Finset.univ)
        isplitr; · ipureintro; rw [View.read_write_univ]; exact hv
        iexact Hd)) $$ [Hs Hd HO Ht1 Ht2]
  · isplitr; · iexact HI1
    isplitr; · iexact HI2
    isplitl [Hs]; · iexact Hs
    isplitl [Hd]; · iexact Hd
    isplitl [HO]; · iexact HO
    isplitl [Ht1]; · iexact Ht1
    isplitr; · iexact Hr1
    isplitl [Ht2]; · iexact Ht2
    iexact Hr2
  iexact Hk

/-- The wait on `c`'s send cell of copy `i`: that cell's payload. -/
theorem wp_sendwait (i : Fin 18) {sp' sp'' : Space} {s' s'' : Shape} {e' e'' : EltTy} {src : Memref sig .tc sp' s' e'} {κ' : Idealize.ShloMosaic.Kind}
    {dst : Memref sig κ' sp'' s'' e''} (hd : dst.view.dmaCredit = Ncr i) {hsrc : src.view.WordExact} {hdst : dst.view.WordExact}
    {k : PUnit → Prog (TpuEff nD τ sig (Elt F) Λ₀ .tc) α} {κ : ℕ} {O : CellTallies nD τ sig Unit} {W : Waits sig Unit} :
    iprop(cellInv ER (rd P) κ (sendCell i c) ∗ cred (tallyAt (sendCell i c) () (Ncr i)) ∗ owes (c : Thread nD τ) O W
        ∗ MayWait (c : Thread nD τ) (.dma (sendS i)) () O ∗ atPos ER (sendCell i c) 0 ∅ 0)
      ⊢ iprop(((owes (c : Thread nD τ) O (insert (SemLoc.dma (sendS i), ()) W) ∗ atPos ER (sendCell i c) 1 ∅ 0 ∗ reached ER (sendCell i c) 1
              ∗ sendPay P i c)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (sendS i) src dst hsrc hdst) k) Q) := by
  rw [← hd]
  iintro ⟨#HI, Hc, HO, #Hmw, Hat⟩ Hk
  iapply (Rounds.wp_wait_rest_token 𝒱₀ ER (rd P) (c : Thread nD τ) none (κ := κ) (k' := dst.view.dmaCredit)
      (wpE_waitDma2_eq 𝒱₀ (c : Thread nD τ) none Set.univ) (Set.mem_univ _) () (O := O) (W := W) (R := 0) (m := 0) (T := ∅)
      (by rw [Nat.zero_add, hd, expect_send])) $$ [Hc HO Hat]
  · isplitr; · iexact HI
    isplitl [Hc]; · iexact Hc
    isplitl [HO]; · iexact HO
    isplitr; · iexact Hmw
    iexact Hat
  iintro ⟨HO, Hat, Hr, Hpay⟩
  iapply Hk
  ihave Hp := (Entails.of_eq (rest_send P c i)) $$ Hpay
  isplitl [HO]; · iexact HO
  isplitl [Hat]; · iexact Hat
  isplitl [Hr]; · iexact Hr
  iexact Hp

/-- The wait on `c`'s receive cell of copy `i`: what the partner's copy landed. -/
theorem wp_recvwait (i : Fin 18) {sp' sp'' : Space} {s' s'' : Shape} {e' e'' : EltTy} {src : Memref sig .tc sp' s' e'} {κ' : Idealize.ShloMosaic.Kind}
    {dst : Memref sig κ' sp'' s'' e''} (hd : dst.view.dmaCredit = Ncr i) {hsrc : src.view.WordExact} {hdst : dst.view.WordExact}
    {k : PUnit → Prog (TpuEff nD τ sig (Elt F) Λ₀ .tc) α} {κ : ℕ} {O : CellTallies nD τ sig Unit} {W : Waits sig Unit} :
    iprop(cellInv ER (rd P) κ (recvCell i c) ∗ cred (tallyAt (recvCell i c) () (Ncr i)) ∗ owes (c : Thread nD τ) O W
        ∗ MayWait (c : Thread nD τ) (.dma (recvS i)) () O ∗ atPos ER (recvCell i c) 0 ∅ 0)
      ⊢ iprop(((owes (c : Thread nD τ) O (insert (SemLoc.dma (recvS i), ()) W) ∗ atPos ER (recvCell i c) 1 ∅ 0 ∗ reached ER (recvCell i c) 1
              ∗ recvPay P i c)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (recvS i) src dst hsrc hdst) k) Q) := by
  rw [← hd]
  iintro ⟨#HI, Hc, HO, #Hmw, Hat⟩ Hk
  iapply (Rounds.wp_wait_rest_token 𝒱₀ ER (rd P) (c : Thread nD τ) none (κ := κ) (k' := dst.view.dmaCredit)
      (wpE_waitDma2_eq 𝒱₀ (c : Thread nD τ) none Set.univ) (Set.mem_univ _) () (O := O) (W := W) (R := 0) (m := 0) (T := ∅)
      (by rw [Nat.zero_add, hd, expect_recv])) $$ [Hc HO Hat]
  · isplitr; · iexact HI
    isplitl [Hc]; · iexact Hc
    isplitl [HO]; · iexact HO
    isplitr; · iexact Hmw
    iexact Hat
  iintro ⟨HO, Hat, Hr, Hpay⟩
  iapply Hk
  ihave Hp := (Entails.of_eq (rest_recv P c i)) $$ Hpay
  isplitl [HO]; · iexact HO
  isplitl [Hat]; · iexact Hat
  isplitl [Hr]; · iexact Hr
  iexact Hp

end Steps

end Cert.Kernel.Coll

end
-- ==== Proof.Kernel.LaunchCredit.lean ====
/-
  The credit the launch deals each device, and the levels of what a device owes at launch.

  At launch device `d` owes one handshake unit to each of its three partners and, for each of its eighteen copies, the
  copy's landing to the copy's partner. Each pairing is an involution of the devices, so read at a cell of device `c` the
  devices' dues sum to: three units at `c`'s handshake cell (one from each partner), the copy's credit at `c`'s receive
  cell of copy `i` (from `c`'s partner across the copy's pairing, and from nobody else), nothing anywhere else. These are
  the credit tokens device `c` waits with.

  Everything owed at launch sits on a handshake cell (level 1) or a receive cell (level ≥ 2): above the staging cells
  (level 0), so the pipeline's own waits are allowed from the first point on.
-/
import proofs.«900423_g7700000000000424_dist_attn_self_mha_htp_b1_sq512_skv512_d1024_hq8_dh128_v7x_i8_f32_1_alg».proof.Proof.Kernel.Steps

noncomputable section

namespace Cert.Kernel.Coll

open Cert.Kernel Cert.Kernel.Gen Cert.Kernel.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Cells apart -/

omit [FloatOps F] in
theorem bar_eq_iff {a b : Dev nD} : Iff (barCell a = barCell b) (a = b) :=
  ⟨fun h => congrArg (fun g : GSem nD τ sig => g.1.1) h, fun h => h ▸ rfl⟩

omit [FloatOps F] in
theorem recv_eq_iff {i j : Fin 18} {a b : Dev nD} : Iff (recvCell i a = recvCell j b) (i = j ∧ a = b) :=
  ⟨fun h => ⟨by
      have h2 : (SemLoc.dma (recvS i) : SemLoc sig) = .dma (recvS j) := congrArg Prod.snd h
      have h3 : 24 + i.val = 24 + j.val := congrArg Fin.val (SemLoc.dma.inj h2)
      exact Fin.ext (by omega),
    congrArg (fun g : GSem nD τ sig => g.1.1) h⟩, fun ⟨h1, h2⟩ => by subst h1; subst h2; rfl⟩

omit [FloatOps F] in
theorem recv_ne_bar (i : Fin 18) (a b : Dev nD) : recvCell i a ≠ barCell b := fun h => by
  have h2 : (SemLoc.dma (recvS i) : SemLoc sig) = .reg barS := congrArg Prod.snd h
  cases h2

omit [FloatOps F] in
theorem recvS_injective : Function.Injective (fun i : Fin 18 => (SemLoc.dma (recvS i) : SemLoc sig)) := fun i j h => by
  have h3 : 24 + i.val = 24 + j.val := congrArg Fin.val (SemLoc.dma.inj h)
  exact Fin.ext (by omega)

/-! ## What one device owes one cell -/

omit [FloatOps F] in
/-- No landing is owed to a handshake cell. -/
theorem owedFrom_bar (n : ℕ) (d c : Dev nD) : owedFrom n d (barCell c) () = 0 := by
  by_contra h
  obtain ⟨i, -, hi⟩ := owedFrom_pos (Nat.pos_of_ne_zero h)
  exact recv_ne_bar _ _ _ hi.symm

omit [FloatOps F] in
/-- Of the landings from copy `n` on, device `d` owes `c`'s receive cell of copy `j` that copy's credit when `j` is among them
    and `d` is `c`'s partner across the copy's pairing, else nothing. -/
theorem owedFrom_recv (j : Fin 18) (d c : Dev nD) : ∀ k n : ℕ, n + k = 18 →
    owedFrom n d (recvCell j c) () = if n ≤ j.val ∧ d = partner j c then Ncr j else 0
  | 0, n, h => by
    have hn : n = 18 := by omega
    subst hn
    rw [owedFrom_18, if_neg (fun h' => by have := j.isLt; omega)]; rfl
  | k + 1, n, h => by
    have hn : n < 18 := by omega
    have e : owedFrom n d = owedFrom (n + 1) d + tallyAt (recvCell ⟨n, hn⟩ (partner ⟨n, hn⟩ d)) () (Ncr ⟨n, hn⟩) := owedFrom_succ ⟨n, hn⟩ d
    rw [e, Pi.add_apply, Finsupp.add_apply, owedFrom_recv j d c k (n + 1) (by omega), tallyAt_apply]
    by_cases hj : j = ⟨n, hn⟩
    · have hv : j.val = n := congrArg Fin.val hj
      rw [← hj]
      have h1 : ¬ (n + 1 ≤ j.val ∧ d = partner j c) := fun h' => by have := h'.1; omega
      rw [if_neg h1, Nat.zero_add]
      by_cases hd : d = partner j c
      · have h2 : recvCell j c = recvCell j (partner j d) ∧ () = () := ⟨by rw [hd, partner_partner], rfl⟩
        have h3 : n ≤ j.val ∧ d = partner j c := ⟨by omega, hd⟩
        rw [if_pos h2, if_pos h3]
      · have h2 : ¬ (recvCell j c = recvCell j (partner j d) ∧ () = ()) := fun h' => hd (by rw [(recv_eq_iff.mp h'.1).2, partner_partner])
        have h3 : ¬ (n ≤ j.val ∧ d = partner j c) := fun h' => hd h'.2
        rw [if_neg h2, if_neg h3]
    · have hv : j.val ≠ n := fun h' => hj (Fin.ext h')
      have h2 : ¬ (recvCell j c = recvCell ⟨n, hn⟩ (partner ⟨n, hn⟩ d) ∧ () = ()) := fun h' => hj (recv_eq_iff.mp h'.1).1
      rw [if_neg h2, Nat.add_zero]
      by_cases hc : n ≤ j.val ∧ d = partner j c
      · have h1 : n + 1 ≤ j.val ∧ d = partner j c := ⟨by omega, hc.2⟩
        rw [if_pos hc, if_pos h1]
      · have h1 : ¬ (n + 1 ≤ j.val ∧ d = partner j c) := fun h' => hc ⟨by omega, h'.2⟩
        rw [if_neg hc, if_neg h1]

omit [FloatOps F] in
/-- The handshake unit device `d` owes across pairing `m`, read at `c`'s handshake cell: a unit when `d` is `c`'s partner. -/
theorem tally_bar (m : Nat) (hm : ∀ c : Dev nD, peer m (peer m c) = c) (d c : Dev nD) :
    (tallyAt (barCell (peer m d)) () 1 : CellTallies nD τ sig Unit) (barCell c) () = if d = peer m c then 1 else 0 := by
  rw [tallyAt_apply]
  by_cases h : d = peer m c
  · rw [if_pos h, if_pos ⟨by rw [h, hm], rfl⟩]
  · rw [if_neg h, if_neg (fun h' => h (by rw [bar_eq_iff.mp h'.1, hm]))]

omit [FloatOps F] in
theorem owed_bar (d c : Dev nD) :
    O₀ d (barCell c) () = ((if d = peer 4 c then 1 else 0) + (if d = peer 3 c then 1 else 0)) + (if d = peer 1 c then 1 else 0) := by
  unfold O₀ O₁ O₂
  rw [Pi.add_apply, Finsupp.add_apply, Pi.add_apply, Finsupp.add_apply, Pi.add_apply, Finsupp.add_apply, owedFrom_bar, Nat.zero_add,
    tally_bar 4 peer_peer4, tally_bar 3 peer_peer3, tally_bar 1 peer_peer1]

omit [FloatOps F] in
theorem owed_recv (d : Dev nD) (j : Fin 18) (c : Dev nD) : O₀ d (recvCell j c) () = if d = partner j c then Ncr j else 0 := by
  unfold O₀ O₁ O₂
  rw [Pi.add_apply, Finsupp.add_apply, Pi.add_apply, Finsupp.add_apply, Pi.add_apply, Finsupp.add_apply,
    tallyAt_ne_cell (recv_ne_bar _ _ _), tallyAt_ne_cell (recv_ne_bar _ _ _), tallyAt_ne_cell (recv_ne_bar _ _ _), Finsupp.zero_apply,
    Nat.add_zero, Nat.add_zero, Nat.add_zero, owedFrom_recv j d c 18 0 rfl]
  by_cases h : d = partner j c
  · rw [if_pos h, if_pos ⟨Nat.zero_le _, h⟩]
  · rw [if_neg h, if_neg (fun h' => h h'.2)]

/-! ## The launch credit -/

omit [FloatOps F] in
/-- A handshake cell is dealt three units: one for each partner's signal. -/
theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib, Finset.sum_add_distrib,
    Finset.sum_ite_eq' Finset.univ (peer 4 c) fun _ => 1, Finset.sum_ite_eq' Finset.univ (peer 3 c) fun _ => 1, Finset.sum_ite_eq' Finset.univ (peer 1 c) fun _ => 1,
    if_pos (Finset.mem_univ _), if_pos (Finset.mem_univ _), if_pos (Finset.mem_univ _)]

omit [FloatOps F] in
/-- The receive cell of copy `i` is dealt that copy's credit: the partner's landing. -/
theorem launch_recv (i : Fin 18) (c : Dev nD) :
    tallyOn (recvCell i c) (launchCredit (Pipeline.owing O₀) 0 (recvCell i c)) = (tallyAt (recvCell i c) () (Ncr i) : CellTallies nD τ sig Unit) := by
  unfold tallyAt; refine congrArg _ (Finsupp.ext fun u => ?_); cases u
  rw [Pipeline.launchCredit_owing, Finsupp.single_eq_same, Finset.sum_congr rfl fun d _ => owed_recv d i c,
    Finset.sum_ite_eq' Finset.univ (partner i c) fun _ => Ncr i, if_pos (Finset.mem_univ _)]

omit [FloatOps F] in
theorem creds (c : Dev nD) : (Pipeline.launchCred O₀ c : sProp 𝕄) ⊢ credits c := by
  unfold Pipeline.launchCred credits
  rw [bigSep_univ_at _ (SemLoc.reg barS), launch_bar]
  refine sep_mono_right ?_
  refine (bigSep_subset (t := Finset.univ.map ⟨fun i : Fin 18 => (SemLoc.dma (recvS i) : SemLoc sig), recvS_injective⟩) (fun sm h => ?_)).trans ?_
  · obtain ⟨i, -, rfl⟩ := Finset.mem_map.mp h
    exact Finset.mem_erase.mpr ⟨fun h => (by cases h), Finset.mem_univ _⟩
  · rw [bigSep_map]
    exact Entails.of_eq (bigSep_congr fun i _ => congrArg cred (launch_recv i c))

/-! ## The levels of what is owed at launch -/

omit [FloatOps F] in
/-- Whatever a device owes at launch is owed to a TensorCore's cell above level 0. -/
theorem O₀_lv {c : Dev nD} {g : GSem nD τ sig} {u : Unit} (h : 0 < O₀ c g u) : g.1.2 = .tc ∧ 0 < lv g u := by
  unfold O₀ O₁ O₂ at h
  have hb : ∀ n : Dev nD, 0 < (tallyAt (barCell n) () 1 : CellTallies nD τ sig Unit) g u → g.1.2 = .tc ∧ 0 < lv g u := fun n hn => by
    obtain ⟨rfl, rfl⟩ := Pipeline.tallyAt_pos hn
    exact ⟨rfl, by rw [lv_bar]; exact Nat.one_pos⟩
  rcases Pipeline.add_pos_cases h with h | h
  · rcases Pipeline.add_pos_cases h with h | h
    · rcases Pipeline.add_pos_cases h with h | h
      · obtain ⟨i, -, rfl⟩ := owedFrom_pos h
        cases u
        exact ⟨rfl, by rw [lv_recv]; omega⟩
      · exact hb _ h
    · exact hb _ h
  · exact hb _ h

omit [FloatOps F] in
/-- A wait on a cell at level 0 is below everything a device owes at launch (and allowed once it owes nothing). -/
theorem mayWait_stage (c : Dev nD) (q : DmaSem sig) (hq : lv ((c : Thread nD τ), .dma q) () = 0) (O : CellTallies nD τ sig Unit) (hO : O = O₀ c ∨ O = 0) :
    (levAts L lv : sProp 𝕄) ⊢ MayWait (c : Thread nD τ) (.dma q) () O := by
  rcases hO with rfl | rfl
  · exact MayOwe.of_cut (L := L) (lev := lv) 0 (fun p hp => by rw [Finset.mem_singleton.mp hp, L_tc]; exact Finset.mem_singleton_self _)
      (fun g u hg => by unfold L; rw [if_pos (O₀_lv hg).1]; exact Finset.mem_singleton_self _)
      (fun p hp => by rw [Finset.mem_singleton.mp hp]; exact le_of_eq hq)
      (fun g u hg => (O₀_lv hg).2)
  · rw [MayWait_zero]; iintro -; iempintro

/-- info: 'Cert.Kernel.Coll.creds' depends on axioms: [propext, Classical.choice, Quot.sound] -/
#guard_msgs in #print axioms creds

/-- info: 'Cert.Kernel.Coll.mayWait_stage' depends on axioms: [propext, Classical.choice, Quot.sound] -/
#guard_msgs in #print axioms mayWait_stage

end Cert.Kernel.Coll

end
-- ==== Proof.Kernel.LaunchGhost.lean ====
/-
  The protocol's ghost state at launch: from the launch element to every device holding what its body starts from.

  The launch element of the protocol's copy of the rounds algebra funds, for each of the 8 × 37 cells, the round state at
  counter zero, the owner's position at round 0 and the fact that round 0 is reached, and mints the duty tokens of round 0:
  a handshake cell's three, one for each send cell and one for each receive cell. With the semaphores' counters at zero —
  the thirty-six scoped ones and the barrier semaphore, which the runtime owns and no scope resets — each cell's invariant is
  allocated. Then the tokens are dealt to the devices that PAY them: handshake duty `d` of a device goes to its partner across
  pairing `d`, the landing duty of copy `i` to the partner across that copy's pairing (each pairing an involution of the
  devices, so dealing is a reindexing), a send cell's duty stays with its own device.
-/
import proofs.«900423_g7700000000000424_dist_attn_self_mha_htp_b1_sq512_skv512_d1024_hq8_dh128_v7x_i8_f32_1_alg».proof.Proof.Kernel.Steps

noncomputable section

namespace Cert.Kernel.Coll

open Cert.Kernel Cert.Kernel.Gen Cert.Kernel.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

section Launch
variable (P : Dev nD → AccC F)

/-! ## The kernel's own semaphores -/

/-- They are indexed: the eighteen send cells, then the eighteen receive cells. -/
abbrev OK : Type := Fin 18 ⊕ Fin 18
abbrev osem : OK → SemLoc sig := Sum.elim (fun i => .dma (sendS i)) (fun i => .dma (recvS i))

theorem ownSemFacts : Pipeline.OwnSemFacts cfg0.spec osem := by decide +kernel

/-! ## A device's cells one by one -/

def ckOf : OK → CK := Sum.elim ckSend ckRecv
theorem ckOf_injective : Function.Injective ckOf := by decide +kernel
theorem erase_bar : (Finset.univ.erase ckBar : Finset CK) = Finset.univ.map ⟨ckOf, ckOf_injective⟩ := by decide +kernel

omit [FloatOps F] in
/-- A conjunction over a device's 37 cells: the handshake cell's, the send cells', the receive cells'. -/
theorem bigSep_CK (Φ : CK → sProp 𝕄) :
    bigSep Finset.univ Φ = iprop(Φ ckBar ∗ (bigSep Finset.univ fun i : Fin 18 => Φ (ckSend i)) ∗ bigSep Finset.univ fun i : Fin 18 => Φ (ckRecv i)) := by
  rw [bigSep_univ_at Φ ckBar, erase_bar, bigSep_map, bigSep_univ_sum]; rfl

omit [FloatOps F] in
theorem bigSep_cellsOf (c : Dev nD) (Φ : GSem nD τ sig → sProp 𝕄) :
    (bigSep Finset.univ fun k : CK => Φ (kcell (c, k)))
      = iprop(Φ (barCell c) ∗ (bigSep Finset.univ fun i : Fin 18 => Φ (sendCell i c)) ∗ bigSep Finset.univ fun i : Fin 18 => Φ (recvCell i c)) := by
  rw [bigSep_CK,
    bigSep_congr (s := Finset.univ) (Φ := fun i : Fin 18 => Φ (kcell (c, ckSend i))) (Ψ := fun i : Fin 18 => Φ (sendCell i c)) (fun i _ => congrArg Φ (kcell_send i c)),
    bigSep_congr (s := Finset.univ) (Φ := fun i : Fin 18 => Φ (kcell (c, ckRecv i))) (Ψ := fun i : Fin 18 => Φ (recvCell i c)) (fun i _ => congrArg Φ (kcell_recv i c))]
  rfl

/-! ## The launch element -/

def cells : Finset (GSem nD τ sig) := Finset.univ.map ⟨kcell, kcell_injective⟩

/-- The duties minted: (device, which) — its handshake cell's three, each send cell's one, each receive cell's one. -/
abbrev TK : Type := Fin 3 ⊕ (Fin 18 ⊕ Fin 18)
def tokSem : TK → SemLoc sig × Fin 3 :=
  Sum.elim (fun d => (.reg barS, d)) (Sum.elim (fun i => (.dma (sendS i), 0)) (fun i => (.dma (recvS i), 0)))
theorem tokSem_injective : Function.Injective tokSem := by decide +kernel
abbrev tokOf (cj : Dev nD × TK) : GSem nD τ sig × ℕ × Fin 3 := (((cj.1 : Thread nD τ), (tokSem cj.2).1), 0, (tokSem cj.2).2)
theorem tokOf_injective : Function.Injective (tokOf : Dev nD × TK → GSem nD τ sig × ℕ × Fin 3) := by
  rintro ⟨c, j⟩ ⟨c', j'⟩ h
  have h1 : c = c' := congrArg (fun x : GSem nD τ sig × ℕ × Fin 3 => x.1.1.1) h
  subst h1
  have h2 : tokSem j = tokSem j' :=
    Prod.ext (congrArg (fun x : GSem nD τ sig × ℕ × Fin 3 => x.1.2) h) (congrArg (fun x : GSem nD τ sig × ℕ × Fin 3 => x.2.2) h)
  rw [tokSem_injective h2]
def toksF : Finset (GSem nD τ sig × ℕ × Fin 3) := Finset.univ.map ⟨tokOf, tokOf_injective⟩

def u₀ : UU :=
  (initOf (Pipeline.cells cfgs cellOf_inj) (Pipeline.launchToks cfgs cellOf_inj), initOf cells toksF)

/-- The duty tokens of device `c`'s own cells. -/
def toks (c : Dev nD) : sProp 𝕄 :=
  iprop((bigSep Finset.univ fun d : Fin 3 => dutyTok ER (barCell c) 0 d)
    ∗ (bigSep Finset.univ fun i : Fin 18 => dutyTok ER (sendCell i c) 0 (0 : Fin 3))
    ∗ (bigSep Finset.univ fun i : Fin 18 => dutyTok ER (recvCell i c) 0 (0 : Fin 3)))

/-- What the launch element deals device `c`. -/
def G (c : Dev nD) : sProp 𝕄 :=
  iprop((bigSep Finset.univ fun k : CK => roundState ER (rd P) (kcell (c, k)) 0)
    ∗ (bigSep Finset.univ fun k : CK => iprop(atPos ER (kcell (c, k)) 0 ∅ 0 ∗ reached ER (kcell (c, k)) 0)) ∗ toks c)

/-- What the global step makes of it. -/
def G' (c : Dev nD) : sProp 𝕄 := iprop(∃ K, ghost P K c)

theorem fund_coll : BI.own (ER (initOf cells toksF)) ⊢ (|==> bigSep Finset.univ (G P) : sProp 𝕄) := by
  have hX (Φ : GSem nD τ sig → sProp 𝕄) : bigSep cells Φ = bigSep Finset.univ fun c : Dev nD => bigSep Finset.univ fun k : CK => Φ (kcell (c, k)) := by
    unfold cells; rw [bigSep_map, bigSep_univ_prod]; rfl
  have hT : bigSep toksF (fun x => (dutyTok ER x.1 x.2.1 x.2.2 : sProp 𝕄)) = bigSep Finset.univ fun c : Dev nD => toks c := by
    unfold toksF; rw [bigSep_map, bigSep_univ_prod]
    exact bigSep_congr fun c _ => by unfold toks; rw [bigSep_univ_sum, bigSep_univ_sum]; rfl
  iintro HX
  imod (Rounds.fund ER (rd P) cells toksF) $$ HX with ⟨Hst, Hr, Hat, Htok⟩
  imodintro
  ihave Hst' := (Entails.of_eq (hX fun g => roundState ER (rd P) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The counters at zero; the invariants allocated -/

omit [FloatOps F] in
/-- The send and receive semaphores are the kernel's own thirty-six; -/
theorem ownSems0_eq (c : Dev nD) : (Pipeline.ownSems0 (Ix := Unit) (Name := ℕ) (U := UU) (Lvl := ℕ) (Val := Elt F) (τ := τ) osem c : sProp 𝕄)
    = iprop((bigSep Finset.univ fun i : Fin 18 => semVal (sendCell i c) 0) ∗ bigSep Finset.univ fun i : Fin 18 => semVal (recvCell i c) 0) := by
  unfold Pipeline.ownSems0; rw [bigSep_univ_sum]; rfl
omit [FloatOps F] in
/-- the barrier semaphore the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide +kernel) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CK => semVal (kcell (c, k)) 0 : sProp 𝕄) := by
  rw [ownSems0_eq, unscopedSems0_eq, bigSep_cellsOf c (fun g => semVal g 0)]
  iintro ⟨⟨HS, HV⟩, HB⟩
  isplitl [HB]; · iexact HB
  isplitl [HS] <;> iassumption

theorem core_alloc (c : Dev nD) :
    iprop(Pipeline.ownSems0 (Ix := Unit) (Name := ℕ) (U := UU) (Lvl := ℕ) (Val := Elt F) (τ := τ) osem c ∗ unscopedSems0 c ∗ G P c)
      ⊢ |={Set.univ}=> iprop((bigSep Finset.univ fun k : CK => iprop(∃ κ : ℕ, cellInv ER (rd P) κ (kcell (c, k))))
          ∗ (bigSep Finset.univ fun k : CK => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : CK => semVal (kcell (c, k)) 0) ∗ bigSep Finset.univ fun k : CK => roundState ER (rd P) (kcell (c, k)) 0)
      ⊢ (|={Set.univ}=> bigSep Finset.univ fun k : CK => iprop(∃ κ : ℕ, cellInv ER (rd P) κ (kcell (c, k))) : sProp 𝕄) from by
        rw [← bigSep_sep']
        exact (bigSep_mono fun k _ => (Rounds.body_intro ER (rd P) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## The tokens dealt to their payers -/

theorem peer_peer_bar : ∀ (d : Fin 3) (c : Dev nD), peer (barMask d) (peer (barMask d) c) = c := by decide
/-- The pairing of handshake duty `d`, and of copy `i`, as permutations of the devices. -/
abbrev barE (d : Fin 3) : Dev nD ≃ Dev nD := ⟨peer (barMask d), peer (barMask d), peer_peer_bar d, peer_peer_bar d⟩
abbrev partE (i : Fin 18) : Dev nD ≃ Dev nD := ⟨partner i, partner i, partner_partner i, partner_partner i⟩

omit [FloatOps F] in
/-- Tokens indexed by (device, `j`) may be handed, for each `j`, along a permutation of the devices. -/
theorem deal {J : Type} [Fintype J] (e : J → Dev nD ≃ Dev nD) (T : Dev nD → J → sProp 𝕄) :
    (bigSep Finset.univ fun c : Dev nD => bigSep Finset.univ fun j : J => T c j)
      = bigSep Finset.univ fun c : Dev nD => bigSep Finset.univ fun j : J => T (e j c) j := by
  rw [bigSep_univ_comm T, bigSep_univ_comm (fun c j => T (e j c) j)]
  exact bigSep_congr fun j _ => bigSep_univ_equiv (e j) (fun c => T c j)

omit [FloatOps F] in
theorem toks_around : (bigSep Finset.univ fun c : Dev nD => (toks c : sProp 𝕄)) ⊢ bigSep Finset.univ fun c : Dev nD => payToks c := by
  unfold toks payToks
  rw [bigSep_sep', bigSep_sep', bigSep_sep', bigSep_sep',
    deal barE (fun c d => (dutyTok ER (barCell c) 0 d : sProp 𝕄)),
    deal partE (fun c i => (dutyTok ER (recvCell i c) 0 (0 : Fin 3) : sProp 𝕄))]
  iintro ⟨H1, H2, H3⟩
  isplitl [H1]; · iexact H1
  isplitl [H3]; · iexact H3
  iexact H2

theorem ghost_intro (K : Dev nD × CK → ℕ) (c : Dev nD) : iprop(records P K ∗ linear c) ⊢ G' P c := by
  unfold G' ghost
  iintro H
  iexists K
  iexact H

theorem regroup :
    (bigSep Finset.univ fun c : Dev nD => iprop((bigSep Finset.univ fun k : CK => iprop(∃ κ : ℕ, cellInv ER (rd P) κ (kcell (c, k))))
          ∗ (bigSep Finset.univ fun k : CK => iprop(atPos ER (kcell (c, k)) 0 ∅ 0 ∗ reached ER (kcell (c, k)) 0)) ∗ toks c) : sProp 𝕄)
      ⊢ bigSep Finset.univ (G' P) := by
  rw [bigSep_sep', bigSep_sep', ← bigSep_univ_prod (fun ck : Dev nD × CK => iprop(∃ κ : ℕ, cellInv ER (rd P) κ (kcell ck))),
    bigSep_congr (s := Finset.univ) (fun (c : Dev nD) _ => bigSep_sep' Finset.univ (fun k : CK => (atPos ER (kcell (c, k)) 0 ∅ 0 : sProp 𝕄)) (fun k => reached ER (kcell (c, k)) 0)),
    bigSep_sep', ← bigSep_univ_prod (fun ck : Dev nD × CK => (reached ER (kcell ck) 0 : sProp 𝕄))]
  iintro ⟨HI, ⟨Hat, #HR⟩, Htok⟩
  ihave HK := (BI.bigSep_exists_pi Finset.univ (fun (ck : Dev nD × CK) (κ : ℕ) => (cellInv ER (rd P) κ (kcell ck) : sProp 𝕄))) $$ HI
  icases HK with ⟨%K, #HI⟩
  ihave Htk := (toks_around (F := F)) $$ Htok
  iapply (bigSep_with_persistent (R := records P K) fun c _ => ghost_intro P K c)
  isplitr
  · unfold records; isplitl; · iexact HI
    iexact HR
  · iapply ((Entails.of_eq (bigSep_sep' Finset.univ (fun c : Dev nD => bigSep Finset.univ fun k : CK => (atPos ER (kcell (c, k)) 0 ∅ 0 : sProp 𝕄)) payToks).symm).trans
      (bigSep_mono fun c _ => show _ ⊢ linear c from by unfold linear; exact .rfl))
    isplitl [Hat]; · iexact Hat
    iexact Htk

/-- The global step: the own and the unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G P c) : sProp 𝕄)
    ⊢ |={Set.univ}=> bigSep Finset.univ (G' P) :=
  ((bigSep_mono fun c _ => core_alloc P c).trans (bigSep_fupd _ _)).trans (BI.fupd_mono (regroup P))

/-- info: 'Cert.Kernel.Coll.glob' depends on axioms: [propext, Classical.choice, Quot.sound] -/
#guard_msgs in #print axioms glob

/-- info: 'Cert.Kernel.Coll.fund_coll' depends on axioms: [propext, Classical.choice, Quot.sound] -/
#guard_msgs in #print axioms fund_coll

end Launch

end Cert.Kernel.Coll

end
-- ==== Proof.Kernel.Launch.lean ====
/-
  The launch: from the body's obligation on every device to the run of the whole program on the eight devices, and the
  final arrays.

  Given that one device's body, started from its share of the ghost state, its launch credit and its scratch buffers, runs to
  the scratch buffers whole again and its thirty-six cells closed, every fair execution of @main on the eight devices
  terminates and every final state has each array at the contents the proof data computes: the five argument arrays as they
  were (no window writes them back) and the result array at the one block the body leaves, the accumulator after the three
  all-gather phases, widened.
-/
import proofs.«900423_g7700000000000424_dist_attn_self_mha_htp_b1_sq512_skv512_d1024_hq8_dh128_v7x_i8_f32_1_alg».proof.Proof.Kernel.LaunchCredit
import proofs.«900423_g7700000000000424_dist_attn_self_mha_htp_b1_sq512_skv512_d1024_hq8_dh128_v7x_i8_f32_1_alg».proof.Proof.Kernel.LaunchGhost

noncomputable section

namespace Cert.Kernel.Coll

open Cert.Kernel Cert.Kernel.Gen Cert.Kernel.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

section Run
variable (m : Mem F) (ρ : Dev nD → PrngReg) (P : Dev nD → AccC F)

/-! ## The theorem's side conditions -/

theorem share_eq (c : Dev nD) (w : Fin cfg0.W) : (dats m ρ P 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' P c)
      ⊢ |={Set.univ}=> iprop(start P c ∗ emp) := by
  iintro ⟨-, Hlev, Hcr, -, HG⟩
  ihave Hc := (creds (F := F) c) $$ Hcr
  imodintro
  unfold start G'
  isplitl
  · isplitl [HG]; · iexact HG
    isplitl [Hc]; · iexact Hc
    iexact Hlev
  · iempintro

theorem phi0_intro (c : Dev nD) :
    iprop(start P c ∗ Pipeline.prefHeld Pipeline.Prefetch.none c (fun _ => fullShare.right) (fun k => k.elim0) ∗ Pipeline.scopedRest cfg0.spec c)
      ⊢ (dats m ρ P 0 c).Φ 0 := by
  rw [show (dats m ρ P 0 c).Φ 0 = Φ₀ P c from rfl, scopedRest0_eq]
  unfold Φ₀ scratch
  iintro ⟨Hs, -, Hr⟩
  isplitl [Hs]; · iexact Hs
  iexact Hr

theorem phi1_exit (c : Dev nD) :
    (dats m ρ P 0 c).Φ (Fin.last cfg0.N) ⊢ iprop(emp ∗ Pipeline.ownSems0 osem c ∗ Pipeline.scopedRest cfg0.spec c) := by
  rw [show (dats m ρ P 0 c).Φ (Fin.last cfg0.N) = Φ₁ c from rfl, scopedRest0_eq, ownSems0_eq]
  unfold Φ₁ scratch
  rw [bigSep_sep']
  iintro ⟨Hr, HzS, HzV⟩
  isplitr; · iempintro
  isplitl [HzS HzV]
  · isplitl [HzS] <;> iassumption
  iexact Hr

theorem waits (c : Dev nD) : (levAts L lv : sProp 𝕄) ⊢ Pipeline.cellsWaits cfgs (dats m ρ P) () 0 c :=
  Pipeline.cellsWaits_intro cfgs (dats m ρ P) () 0 c fun w s t =>
    mayWait_stage c _ (by fin_cases w <;> fin_cases s <;> rfl) _ (by
      rcases t with ⟨_ | _, ht⟩
      · exact Or.inl rfl
      · exact Or.inr rfl)

/-! ## The run -/

/-- Every device's arrays at what the proof data computes. -/
def QC : PUnit × MemSt nD τ sig (Elt F) → Prop := fun r =>
  ∀ c : Dev nD, ∀ w : Fin cfg0.W, r.2.mem ((cfg0.win w).arr.view.loc (c : Thread nD τ)) = (dats m ρ P 0 c).arrAt w cfg0.N

set_option maxRecDepth 8000 in
/-- At the compiled mesh of eight devices, for any float values, from any memory with zero counters: if one device's body
    meets its obligation, every weakly fair execution of @main — the eight kernels handshaking on the runtime's barrier
    semaphore, then exchanging their eighteen copies each — terminates, and every final state has each device's arrays at the
    computed contents. -/
theorem run_main (hbody : ∀ c : Dev nD, BodyObligation (dats (F := F) m ρ P 0 c) (defs₀ (F := F)) 𝒱₀ () Set.univ) :
    θ_run defs (onTc (τ := τ) (main (F := F))) (s₀ m ρ) (QC m ρ P) :=
  Pipeline.θ_run_region_owing_glob_pf (fun p => (cfgs p).toPCfg) (fun p => (cfgs p).toPCfg_adm) (dats m ρ P) () cellOf_inj (0 : Fin 1)
    winFacts0.to₀ ownSemFacts (Pipeline.PreFacts.none _) EP defs₀ 𝒱₀ m ρ main
    (hmain := fun _ => rfl)
    (hbody := fun c => (hbody c).loose) (hne := block_pos0) (harr := arr_whole0) (hstage := stage_whole0) (hshare := share_eq m ρ P)
    (hdistinct := winFacts0.arr_inj)
    (O₀ := O₀) (howed₀ := fun _ => rfl) (howedN := fun _ => rfl)
    (L := L) (lv := lv) (hL := L_of_ne) (hwaits := waits m ρ P)
    (G := G P) (G' := G' P) (u₀ := u₀)
    (hu₀ := by
      unfold u₀
      iintro Hu
      ihave H := (ownU_pair _ _) $$ Hu
      icases H with ⟨HP, HX⟩
      imod (fund_coll P) $$ HX with HG
      imodintro
      isplitl [HP] <;> iassumption)
    (hglob := glob P)
    (hA := fun _ _ => rfl) (hpf := fun _ k => k.elim0)
    (X := start P) (Y := fun _ => iprop(emp)) (Z := fun _ => iprop(emp))
    (hX := start_intro m ρ P) (hin := phi0_intro m ρ P) (hout := phi1_exit m ρ P)
    (QY := fun _ _ => True)
    (hY := fun c s' => by
      iintro ⟨-, -, HSI⟩
      imodintro
      isplitr; · ipureintro; trivial
      iexact HSI)
    (hQ := fun _ h c w => (h c).1 w)

/-- info: 'Cert.Kernel.Coll.run_main' depends on axioms: [propext, Classical.choice, Quot.sound] -/
#guard_msgs in #print axioms run_main

/-! ## The final arrays -/

/-- An argument array after the run holds what it held: no window writes it back. -/
theorem final_in (c : Dev nD) (w : Fin cfg0.W) (hw : (cfg0.win w).isOut = false) :
    (dats m ρ P 0 c).arrAt w cfg0.N = m ((cfg0.win w).arr.view.loc (c : Thread nD τ)) :=
  (dats (F := F) m ρ P 0 c).arrAt_in w hw _

omit [FloatOps F] in
/-- The result window's one block starts at the array's origin: it is the whole array. -/
theorem out_origin : (fun a => (cfg0.win (5 : Fin 6)).index t0_0 a * (cfg0.win (5 : Fin 6)).size a) = fun _ => 0 :=
  funext fun a => Nat.zero_mul _

/-- The result array after the run: written back once, at the one point, whole — what the body leaves in its staging
    buffer. -/
theorem final_out (c : Dev nD) : (dats m ρ P 0 c).arrAt (5 : Fin 6) cfg0.N = outAt P c := by
  have h : (dats m ρ P 0 c).arrAt (5 : Fin 6) cfg0.N
      = ((cfg0.win (5 : Fin 6)).blk t0_0).view.write (Elt F) ((dats m ρ P 0 c).arrAt (5 : Fin 6) t0_0.val) ((dats m ρ P 0 c).flushed (5 : Fin 6) t0_0) Finset.univ :=
    ((dats (F := F) m ρ P 0 c).arrAt_succ (5 : Fin 6) t0_0).trans (by rw [flush0_5 t0_0, if_pos rfl])
  rw [h]
  exact Memref.write_access_unit_zero_univ (Elt F) main_v1 out_origin _ _ _

/-- The run with the strongest post: on every device the result array is the accumulator after the three all-gather phases,
    widened, and the five argument arrays are unchanged. (Windows 0 to 4 stage arguments 0, 1, 3, 4, 2.) -/
theorem run_frame (hbody : ∀ c : Dev nD, BodyObligation (dats (F := F) m ρ P 0 c) (defs₀ (F := F)) 𝒱₀ () Set.univ) :
    θ_run defs (onTc (τ := τ) (main (F := F))) ⟨m, fun _ => 0, ρ⟩ (fun r => ∀ c : Dev nD,
      r.2.mem ((c.tc : Thread nD τ).loc main_v1) = outAt P c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h c 5).trans (final_out m ρ P c),
      (h c 0).trans (final_in m ρ P c 0 rfl),
      (h c 1).trans (final_in m ρ P c 1 rfl),
      (h c 4).trans (final_in m ρ P c 4 rfl),
      (h c 2).trans (final_in m ρ P c 2 rfl),
      (h c 3).trans (final_in m ρ P c 3 rfl)⟩) (run_main m ρ P hbody)

/-- info: 'Cert.Kernel.Coll.run_frame' depends on axioms: [propext, Classical.choice, Quot.sound] -/
#guard_msgs in #print axioms run_frame

end Run

end Cert.Kernel.Coll

end
-- ==== Proof.Kernel.Partial.lean ====
/-
  What a device stores into its accumulator before the all-reduce: its own product, as the kernel's body composes it.

  The body loads the input rows and the device's four weight blocks, computes the scaled query projection, the key and
  the value projections, the eight heads' normalised outputs side by side, and multiplies three row ranges of that (rows
  0–255, 256–383, 384–511) by the device's block of the output projection, storing each product into the same rows of the
  accumulator. The terms below are the stored values exactly as the body's arithmetic composes them from the five loaded
  values; `Pof` is the accumulator's contents after the three stores.
-/
import proofs.«900423_g7700000000000424_dist_attn_self_mha_htp_b1_sq512_skv512_d1024_hq8_dh128_v7x_i8_f32_1_alg».proof.Proof.Kernel.Schedule
import proofs.«900423_g7700000000000424_dist_attn_self_mha_htp_b1_sq512_skv512_d1024_hq8_dh128_v7x_i8_f32_1_alg».proof.Proof.Gen.Kernel.Skeleton
import Idealize.ShloMosaic.Lib.ValueIdx

noncomputable section

namespace Cert.Kernel.Coll

open Cert.Kernel Cert.Kernel.Gen Idealize.ShloMosaic

variable {F : FTy → Type} [FloatOps F]

section
variable (x : Vec F S1x512x1024 .f32) (wq wk wv wo : Vec F S1024x1024 .f32)

/-- The scaled query projection, -/
def qOf : FVec F S512x1024 .f32 := k0_pay3 x wq
/-- the key projection, -/
def kOf : FVec F S512x1024 .f32 := k0_pay4 x wk
/-- the value projection. -/
def vOf : FVec F S512x1024 .f32 := k0_pay5 (k0_pay2 x) wv

/-- The eight heads' normalised outputs side by side. -/
def attnOf : FVec F S512x1024 .bf16 :=
  k0_pay18 (qOf x wq) (kOf x wk) (vOf x wv)
    (k0_pay6 (k0_pay2 x) (qOf x wq) (kOf x wk) wv) (k0_pay7 (k0_pay2 x) (qOf x wq) (kOf x wk) wv)
    (k0_pay12 (k0_pay8 (k0_pay2 x) wv) (k0_pay9 (qOf x wq) (kOf x wk)) (k0_pay10 (qOf x wq) (kOf x wk)) k0_pay11)
    (k0_pay13 (qOf x wq) (kOf x wk) (vOf x wv)) (k0_pay14 (qOf x wq) (kOf x wk) (vOf x wv)) (k0_pay15 (vOf x wv)) (k0_pay16 (qOf x wq) (kOf x wk)) (k0_pay17 (qOf x wq) (kOf x wk))

/-- What the first store writes: rows 0–255 of the heads' outputs times the output projection's block. -/
def stored0 : FVec F S256x1024 .bf16 :=
  k0_pay21 (k0_pay19 wo) (k0_pay20 (qOf x wq) (kOf x wk) (vOf x wv)
    (k0_pay6 (k0_pay2 x) (qOf x wq) (kOf x wk) wv) (k0_pay7 (k0_pay2 x) (qOf x wq) (kOf x wk) wv)
    (k0_pay12 (k0_pay8 (k0_pay2 x) wv) (k0_pay9 (qOf x wq) (kOf x wk)) (k0_pay10 (qOf x wq) (kOf x wk)) k0_pay11)
    (k0_pay13 (qOf x wq) (kOf x wk) (vOf x wv)) (k0_pay14 (qOf x wq) (kOf x wk) (vOf x wv)) (k0_pay15 (vOf x wv)) (k0_pay16 (qOf x wq) (kOf x wk)) (k0_pay17 (qOf x wq) (kOf x wk))) (constant S256x1024 .f32 0x00000000#32)
/-- What the second store writes: rows 256–383. -/
def stored1 : FVec F S128x1024 .bf16 := k0_pay22 (attnOf x wq wk wv) (k0_pay19 wo)
/-- What the third store writes: rows 384–511. -/
def stored2 : FVec F S128x1024 .bf16 := k0_pay23 (attnOf x wq wk wv) (k0_pay19 wo)

/-- The accumulator after the three stores: each row range holds its store's value. -/
def Pof : AccC F := fun j =>
  have h512 : (j 0).val < 512 := (j 0).isLt
  have h1024 : (j 1).val < 1024 := (j 1).isLt
  if h : (j 0).val < 256 then stored0 x wq wk wv wo (ValueIdx.ix2 (⟨(j 0).val, h⟩ : Fin 256) (⟨(j 1).val, h1024⟩ : Fin 1024))
  else if h' : (j 0).val < 384 then
    stored1 x wq wk wv wo (ValueIdx.ix2 (⟨(j 0).val - 256, by omega⟩ : Fin 128) (⟨(j 1).val, h1024⟩ : Fin 1024))
  else stored2 x wq wk wv wo (ValueIdx.ix2 (⟨(j 0).val - 384, by omega⟩ : Fin 128) (⟨(j 1).val, h1024⟩ : Fin 1024))

end

end Cert.Kernel.Coll

end
-- ==== Proof.Kernel.PartialAt.lean ====
/-
  A device's own product from the memory at launch.

  The body's five inputs are the staged blocks of the five argument arrays; each window's one block is its whole array, so a
  staged block is the array's contents as launched. `Pc m c` is device `c`'s product — what its three stores put in its
  accumulator — composed from those.
-/
import proofs.«900423_g7700000000000424_dist_attn_self_mha_htp_b1_sq512_skv512_d1024_hq8_dh128_v7x_i8_f32_1_alg».proof.Proof.Kernel.Partial
import proofs.«900423_g7700000000000424_dist_attn_self_mha_htp_b1_sq512_skv512_d1024_hq8_dh128_v7x_i8_f32_1_alg».proof.Proof.Gen.Kernel.Frame

noncomputable section

namespace Cert.Kernel.Coll

open Cert.Kernel Cert.Kernel.Gen Idealize.ShloMosaic
open Idealize.ShloMosaic.TcCoe

variable {F : FTy → Type} [FloatOps F]

/-- Device `c`'s product: `Pof` of its input rows and its four weight blocks as launched (windows 0 to 4 stage the input, the
    query, key and value projections' blocks and the output projection's block). -/
def Pc (m : Mem F) (c : Dev nD) : AccC F :=
  Pof (iblk m c (0 : Fin 6) t0_0 : Vec F S1x512x1024 .f32) (iblk m c (1 : Fin 6) t0_0 : Vec F S1024x1024 .f32)
    (iblk m c (2 : Fin 6) t0_0 : Vec F S1024x1024 .f32) (iblk m c (3 : Fin 6) t0_0 : Vec F S1024x1024 .f32)
    (iblk m c (4 : Fin 6) t0_0 : Vec F S1024x1024 .f32)

omit [FloatOps F] in
/-- Every window's one block starts at its array's origin. -/
theorem blk_origin (w : Fin 6) : (fun a => (cfg0.win w).index t0_0 a * (cfg0.win w).size a) = fun _ => 0 := by
  fin_cases w <;> exact funext fun a => Nat.zero_mul _

/-! ## Each staged block is its array -/

theorem iblk0_eq (m : Mem F) (c : Dev nD) : iblk m c (0 : Fin 6) t0_0 = m ((c : Thread nD τ).loc main_arg0) :=
  Memref.read_access_unit_zero (Elt F) main_arg0 (blk_origin 0) _ _
theorem iblk1_eq (m : Mem F) (c : Dev nD) : iblk m c (1 : Fin 6) t0_0 = m ((c : Thread nD τ).loc main_arg1) :=
  Memref.read_access_unit_zero (Elt F) main_arg1 (blk_origin 1) _ _
theorem iblk2_eq (m : Mem F) (c : Dev nD) : iblk m c (2 : Fin 6) t0_0 = m ((c : Thread nD τ).loc main_arg3) :=
  Memref.read_access_unit_zero (Elt F) main_arg3 (blk_origin 2) _ _
theorem iblk3_eq (m : Mem F) (c : Dev nD) : iblk m c (3 : Fin 6) t0_0 = m ((c : Thread nD τ).loc main_arg4) :=
  Memref.read_access_unit_zero (Elt F) main_arg4 (blk_origin 3) _ _
theorem iblk4_eq (m : Mem F) (c : Dev nD) : iblk m c (4 : Fin 6) t0_0 = m ((c : Thread nD τ).loc main_arg2) :=
  Memref.read_access_unit_zero (Elt F) main_arg2 (blk_origin 4) _ _

/-- The product from the arrays themselves. -/
theorem Pc_eq (m : Mem F) (c : Dev nD) :
    Pc m c = Pof (m ((c : Thread nD τ).loc main_arg0) : Vec F S1x512x1024 .f32) (m ((c : Thread nD τ).loc main_arg1) : Vec F S1024x1024 .f32)
      (m ((c : Thread nD τ).loc main_arg3) : Vec F S1024x1024 .f32) (m ((c : Thread nD τ).loc main_arg4) : Vec F S1024x1024 .f32)
      (m ((c : Thread nD τ).loc main_arg2) : Vec F S1024x1024 .f32) := by
  unfold Pc; rw [iblk0_eq, iblk1_eq, iblk2_eq, iblk3_eq, iblk4_eq]

end Cert.Kernel.Coll

end
-- ==== Proof.Kernel.FrameOfBody.lean ====
/-
  The frame from one device's body obligation: the run with the strongest post, the result dropped. Every fair execution of
  the eight devices terminates and leaves the five argument arrays unchanged, at any float values.
-/
import proofs.«900423_g7700000000000424_dist_attn_self_mha_htp_b1_sq512_skv512_d1024_hq8_dh128_v7x_i8_f32_1_alg».proof.Proof.Kernel.Launch
import proofs.«900423_g7700000000000424_dist_attn_self_mha_htp_b1_sq512_skv512_d1024_hq8_dh128_v7x_i8_f32_1_alg».proof.Proof.Kernel.PartialAt

noncomputable section

namespace Cert.Kernel.Coll

open Cert.Kernel Cert.Kernel.Gen Cert.Kernel.Mesh

open Idealize.ShloMosaic
open Idealize.ShloMosaic.TcCoe
open Idealize.SL Idealize.SL.Sem
open Idealize.ShloMosaic.Pipeline (Dat Cfg Window BodyObligation cellOf)

variable {F : FTy → Type} [FloatOps F]

/-- The arguments end unchanged. -/
theorem frame_of_body
    (hbody : ∀ (m : Mem F) (ρ : Dev nD → PrngReg) (c : Dev nD), BodyObligation (dats (F := F) m ρ (Pc m) 0 c) (defs₀ (F := F)) 𝒱₀ () Set.univ)
    (m : Mem F) (g : Dev nD → PrngReg) :
    θ_run defs (onTc (τ := τ) (main (F := F))) ⟨m, fun _ => 0, g⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => (h c).2) (run_frame m g (Pc m) (hbody m g))

/-- info: 'Cert.Kernel.Coll.frame_of_body' depends on axioms: [propext, Classical.choice, Quot.sound] -/
#guard_msgs in #print axioms frame_of_body

end Cert.Kernel.Coll

end
-- ==== Proof.Kernel.FrameClaim.lean ====
/-
  The frame claim at the word level: the frame of the body obligation, read at the machine's words.
-/
import proofs.«900423_g7700000000000424_dist_attn_self_mha_htp_b1_sq512_skv512_d1024_hq8_dh128_v7x_i8_f32_1_alg».proof.Proof.Kernel.FrameOfBody
import proofs.«900423_g7700000000000424_dist_attn_self_mha_htp_b1_sq512_skv512_d1024_hq8_dh128_v7x_i8_f32_1_alg».proof.Defs
import proofs.«900423_g7700000000000424_dist_attn_self_mha_htp_b1_sq512_skv512_d1024_hq8_dh128_v7x_i8_f32_1_alg».proof.Proof.Gen.Pre_finite_inputs_Kernel

noncomputable section

namespace Cert.Kernel.Coll

open Cert.Kernel Cert.Kernel.Gen Cert.Kernel.Mesh

open Idealize.ShloMosaic
open Idealize.ShloMosaic.TcCoe
open Idealize.SL Idealize.SL.Sem
open Idealize.ShloMosaic.Pipeline (Dat Cfg Window BodyObligation cellOf)

/-- Every fair execution of the eight devices at the word level terminates and leaves the five argument arrays unchanged. -/
theorem frame_Kernel_of_body
    (hbody : ∀ (m : Mem Bits) (ρ : Dev nD → PrngReg) (c : Dev nD), BodyObligation (dats (F := Bits) m ρ (Pc m) 0 c) (defs₀ (F := Bits)) 𝒱₀ () Set.univ) :
    Cert.frame_Kernel := fun m g _ => frame_of_body hbody m g

/-- info: 'Cert.Kernel.Coll.frame_Kernel_of_body' depends on axioms: [propext, Classical.choice, Quot.sound] -/
#guard_msgs in #print axioms frame_Kernel_of_body

end Cert.Kernel.Coll

end
-- ==== Proof.Kernel.Rows.lean ====
/-
  Runs of rows. Every piece of a scratch buffer the protocol hands around is a run of consecutive rows of a buffer of
  1024 columns: the elements whose row number lies in `[r, r + n)`. Membership in a run is a fact about the row number alone,
  so cutting a buffer into runs and putting runs back together is arithmetic on rows.
  Each copy's source rows, and the place it lands, are such runs: of the accumulator from row `srcRow i c`, or of a landing
  buffer from the slot's fixed row.
-/
import proofs.«900423_g7700000000000424_dist_attn_self_mha_htp_b1_sq512_skv512_d1024_hq8_dh128_v7x_i8_f32_1_alg».proof.Proof.Kernel.Steps

noncomputable section

namespace Cert.Kernel.Coll

open Cert.Kernel Cert.Kernel.Gen Cert.Kernel.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- The elements of a buffer of `N` rows of 1024 whose row lies in `[r, r + n)`. -/
def rowSet (N r n : ℕ) : Finset (⟨2, ![N, 1024]⟩ : Shape).Idx :=
  Finset.univ.filter fun x => r ≤ (x 0).val ∧ (x 0).val < r + n

theorem mem_rowSet {N r n : ℕ} {x : (⟨2, ![N, 1024]⟩ : Shape).Idx} : x ∈ rowSet N r n ↔ r ≤ (x 0).val ∧ (x 0).val < r + n := by
  unfold rowSet; rw [Finset.mem_filter]; exact ⟨fun h => h.2, fun h => ⟨Finset.mem_univ _, h⟩⟩

/-- A rectangle of whole rows from row `off 0` is that run of rows. -/
theorem rect_rows {N n : ℕ} {off : Fin 2 → ℕ} (h1 : off 1 = 0)
    (inb : ∀ a, off a + (![n, 1024] : Fin 2 → ℕ) a ≤ (⟨2, ![N, 1024]⟩ : Shape).size a) :
    (Rect.unit (s := ⟨2, ![N, 1024]⟩) off ![n, 1024] inb).set = rowSet N (off 0) n := by
  ext x
  rw [Rect.mem_set_unit, mem_rowSet, Fin.forall_fin_two]
  constructor
  · intro h; exact h.1
  · intro h
    refine ⟨h, ?_⟩
    rw [h1]
    exact ⟨Nat.zero_le _, by have := (x 1).isLt; simpa using this⟩

/-- Two runs with no row in common share no element; a run inside another is a subset. -/
theorem rowSet_disjoint {N r n r' n' : ℕ} (h : r + n ≤ r' ∨ r' + n' ≤ r) : Disjoint (rowSet N r n) (rowSet N r' n') := by
  rw [Finset.disjoint_left]; intro x hx hx'
  rw [mem_rowSet] at hx hx'; omega
theorem rowSet_subset {N r n r' n' : ℕ} (h : r' ≤ r ∧ r + n ≤ r' + n') : rowSet N r n ⊆ rowSet N r' n' := by
  intro x hx; rw [mem_rowSet] at hx ⊢; omega
theorem rowSet_univ (N : ℕ) : rowSet N 0 N = Finset.univ := by
  ext x; rw [mem_rowSet]; exact ⟨fun _ => Finset.mem_univ _, fun _ => ⟨Nat.zero_le _, by have := (x 0).isLt; simpa using this⟩⟩
/-- A run less its leading rows, or its trailing rows, is the rest of the run. -/
theorem rowSet_sdiff_lead {N r n k : ℕ} (hk : k ≤ n) : rowSet N r n \ rowSet N r k = rowSet N (r + k) (n - k) := by
  ext x; rw [Finset.mem_sdiff, mem_rowSet, mem_rowSet, mem_rowSet]; omega
theorem rowSet_sdiff_trail {N r n k : ℕ} (hk : k ≤ n) : rowSet N r n \ rowSet N (r + (n - k)) k = rowSet N r (n - k) := by
  ext x; rw [Finset.mem_sdiff, mem_rowSet, mem_rowSet, mem_rowSet]; omega

/-! ## Each copy's rows, as runs -/

/-- The source rows of copy `i` of device `c`: `rowsOf i` rows of the accumulator from row `srcRow i c`. -/
theorem src_set_0 (c : Dev nD) : (accM.slice (Rect.unit (s := S512x1024) (k0_off1 c) S128x1024.size (k0_off1_inb c)) (fun _ => rfl)).view.set = rowSet 512 (srcRow 0 c) 128 := by
  have h := src0_eq c
  refine (View.set_slice_whole _ _).trans ?_
  refine (rect_rows (N := 512) (n := 128) (off := k0_off1 c) (by rw [h]; rfl) (k0_off1_inb c)).trans ?_
  rw [h]; rfl
theorem src_set_1 (c : Dev nD) : (accM.slice (Rect.unit (s := S512x1024) (k0_off2 c) S64x1024.size (k0_off2_inb c)) (fun _ => rfl)).view.set = rowSet 512 (srcRow 1 c) 64 := by
  have h := src1_eq c
  refine (View.set_slice_whole _ _).trans ?_
  refine (rect_rows (N := 512) (n := 64) (off := k0_off2 c) (by rw [h]; rfl) (k0_off2_inb c)).trans ?_
  rw [h]; rfl
theorem src_set_2 (c : Dev nD) : (accM.slice (Rect.unit (s := S512x1024) (k0_off3 c) S64x1024.size (k0_off3_inb c)) (fun _ => rfl)).view.set = rowSet 512 (srcRow 2 c) 64 := by
  have h := src2_eq c
  refine (View.set_slice_whole _ _).trans ?_
  refine (rect_rows (N := 512) (n := 64) (off := k0_off3 c) (by rw [h]; rfl) (k0_off3_inb c)).trans ?_
  rw [h]; rfl
theorem src_set_3 (c : Dev nD) : (accM.slice (Rect.unit (s := S512x1024) (k0_off5 c) S64x1024.size (k0_off5_inb c)) (fun _ => rfl)).view.set = rowSet 512 (srcRow 3 c) 64 := by
  have h := src3_eq c
  refine (View.set_slice_whole _ _).trans ?_
  refine (rect_rows (N := 512) (n := 64) (off := k0_off5 c) (by rw [h]; rfl) (k0_off5_inb c)).trans ?_
  rw [h]; rfl
theorem src_set_4 (c : Dev nD) : (accM.slice (Rect.unit (s := S512x1024) (k0_off7 c) S32x1024.size (k0_off7_inb c)) (fun _ => rfl)).view.set = rowSet 512 (srcRow 4 c) 32 := by
  have h := src4_eq c
  refine (View.set_slice_whole _ _).trans ?_
  refine (rect_rows (N := 512) (n := 32) (off := k0_off7 c) (by rw [h]; rfl) (k0_off7_inb c)).trans ?_
  rw [h]; rfl
theorem src_set_5 (c : Dev nD) : (accM.slice (Rect.unit (s := S512x1024) (k0_off9 c) S32x1024.size (k0_off9_inb c)) (fun _ => rfl)).view.set = rowSet 512 (srcRow 5 c) 32 := by
  have h := src5_eq c
  refine (View.set_slice_whole _ _).trans ?_
  refine (rect_rows (N := 512) (n := 32) (off := k0_off9 c) (by rw [h]; rfl) (k0_off9_inb c)).trans ?_
  rw [h]; rfl
theorem src_set_6 (c : Dev nD) : (accM.slice (Rect.unit (s := S512x1024) (k0_off11 c 0#32 32#32) S32x1024.size (k0_off11_inb c 0)) (fun _ => rfl)).view.set = rowSet 512 (srcRow 6 c) 32 := by
  have h := src6_eq c
  refine (View.set_slice_whole _ _).trans ?_
  refine (rect_rows (N := 512) (n := 32) (off := k0_off11 c 0#32 32#32) (by rw [h]; rfl) (k0_off11_inb c 0)).trans ?_
  rw [h]; rfl
theorem src_set_7 (c : Dev nD) : (accM.slice (Rect.unit (s := S512x1024) (k0_off13 c 0#32 16#32) S16x1024.size (k0_off13_inb c 0)) (fun _ => rfl)).view.set = rowSet 512 (srcRow 7 c) 16 := by
  have h := src7_eq c
  refine (View.set_slice_whole _ _).trans ?_
  refine (rect_rows (N := 512) (n := 16) (off := k0_off13 c 0#32 16#32) (by rw [h]; rfl) (k0_off13_inb c 0)).trans ?_
  rw [h]; rfl
theorem src_set_8 (c : Dev nD) : (accM.slice (Rect.unit (s := S512x1024) (k0_off15 c 0#32 16#32) S16x1024.size (k0_off15_inb c 0)) (fun _ => rfl)).view.set = rowSet 512 (srcRow 8 c) 16 := by
  have h := src8_eq c
  refine (View.set_slice_whole _ _).trans ?_
  refine (rect_rows (N := 512) (n := 16) (off := k0_off15 c 0#32 16#32) (by rw [h]; rfl) (k0_off15_inb c 0)).trans ?_
  rw [h]; rfl
theorem src_set_9 (c : Dev nD) : (accM.slice (Rect.unit (s := S512x1024) (k0_off11 c 32#32 0#32) S32x1024.size (k0_off11_inb c 1)) (fun _ => rfl)).view.set = rowSet 512 (srcRow 9 c) 32 := by
  have h := src9_eq c
  refine (View.set_slice_whole _ _).trans ?_
  refine (rect_rows (N := 512) (n := 32) (off := k0_off11 c 32#32 0#32) (by rw [h]; rfl) (k0_off11_inb c 1)).trans ?_
  rw [h]; rfl
theorem src_set_10 (c : Dev nD) : (accM.slice (Rect.unit (s := S512x1024) (k0_off13 c 16#32 0#32) S16x1024.size (k0_off13_inb c 1)) (fun _ => rfl)).view.set = rowSet 512 (srcRow 10 c) 16 := by
  have h := src10_eq c
  refine (View.set_slice_whole _ _).trans ?_
  refine (rect_rows (N := 512) (n := 16) (off := k0_off13 c 16#32 0#32) (by rw [h]; rfl) (k0_off13_inb c 1)).trans ?_
  rw [h]; rfl
theorem src_set_11 (c : Dev nD) : (accM.slice (Rect.unit (s := S512x1024) (k0_off15 c 16#32 0#32) S16x1024.size (k0_off15_inb c 1)) (fun _ => rfl)).view.set = rowSet 512 (srcRow 11 c) 16 := by
  have h := src11_eq c
  refine (View.set_slice_whole _ _).trans ?_
  refine (rect_rows (N := 512) (n := 16) (off := k0_off15 c 16#32 0#32) (by rw [h]; rfl) (k0_off15_inb c 1)).trans ?_
  rw [h]; rfl
theorem src_set_12 (c : Dev nD) : (accM.slice (Rect.unit (s := S512x1024) (k0_off19 c) S64x1024.size (k0_off19_inb c)) (fun _ => rfl)).view.set = rowSet 512 (srcRow 12 c) 64 := by
  have h := src12_eq c
  refine (View.set_slice_whole _ _).trans ?_
  refine (rect_rows (N := 512) (n := 64) (off := k0_off19 c) (by rw [h]; rfl) (k0_off19_inb c)).trans ?_
  rw [h]; rfl
theorem src_set_13 (c : Dev nD) : (accM.slice (Rect.unit (s := S512x1024) (k0_off20 c) S32x1024.size (k0_off20_inb c)) (fun _ => rfl)).view.set = rowSet 512 (srcRow 13 c) 32 := by
  have h := src13_eq c
  refine (View.set_slice_whole _ _).trans ?_
  refine (rect_rows (N := 512) (n := 32) (off := k0_off20 c) (by rw [h]; rfl) (k0_off20_inb c)).trans ?_
  rw [h]; rfl
theorem src_set_14 (c : Dev nD) : (accM.slice (Rect.unit (s := S512x1024) (k0_off21 c) S32x1024.size (k0_off21_inb c)) (fun _ => rfl)).view.set = rowSet 512 (srcRow 14 c) 32 := by
  have h := src14_eq c
  refine (View.set_slice_whole _ _).trans ?_
  refine (rect_rows (N := 512) (n := 32) (off := k0_off21 c) (by rw [h]; rfl) (k0_off21_inb c)).trans ?_
  rw [h]; rfl
theorem src_set_15 (c : Dev nD) : (accM.slice (Rect.unit (s := S512x1024) (k0_off22 c) S128x1024.size (k0_off22_inb c)) (fun _ => rfl)).view.set = rowSet 512 (srcRow 15 c) 128 := by
  have h := src15_eq c
  refine (View.set_slice_whole _ _).trans ?_
  refine (rect_rows (N := 512) (n := 128) (off := k0_off22 c) (by rw [h]; rfl) (k0_off22_inb c)).trans ?_
  rw [h]; rfl
theorem src_set_16 (c : Dev nD) : (accM.slice (Rect.unit (s := S512x1024) (k0_off23 c) S64x1024.size (k0_off23_inb c)) (fun _ => rfl)).view.set = rowSet 512 (srcRow 16 c) 64 := by
  have h := src16_eq c
  refine (View.set_slice_whole _ _).trans ?_
  refine (rect_rows (N := 512) (n := 64) (off := k0_off23 c) (by rw [h]; rfl) (k0_off23_inb c)).trans ?_
  rw [h]; rfl
theorem src_set_17 (c : Dev nD) : (accM.slice (Rect.unit (s := S512x1024) (k0_off24 c) S64x1024.size (k0_off24_inb c)) (fun _ => rfl)).view.set = rowSet 512 (srcRow 17 c) 64 := by
  have h := src17_eq c
  refine (View.set_slice_whole _ _).trans ?_
  refine (rect_rows (N := 512) (n := 64) (off := k0_off24 c) (by rw [h]; rfl) (k0_off24_inb c)).trans ?_
  rw [h]; rfl

/-- Where a reduce-scatter copy lands: a fixed run of rows of its phase's landing buffer. -/
theorem slot_set_0 : (comm0M.slice (Rect.unit (s := S256x1024) ![0, 0] S128x1024.size inb_S256x1024_S128x1024_0_0) (fun _ => rfl)).view.set = rowSet 256 0 128 :=
  (View.set_slice_whole _ _).trans (rect_rows (N := 256) (n := 128) (off := ![0, 0]) rfl inb_S256x1024_S128x1024_0_0)
theorem slot_set_1 : (comm0M.slice (Rect.unit (s := S256x1024) ![128, 0] S64x1024.size inb_S256x1024_S64x1024_128_0) (fun _ => rfl)).view.set = rowSet 256 128 64 :=
  (View.set_slice_whole _ _).trans (rect_rows (N := 256) (n := 64) (off := ![128, 0]) rfl inb_S256x1024_S64x1024_128_0)
theorem slot_set_2 : (comm0M.slice (Rect.unit (s := S256x1024) ![192, 0] S64x1024.size inb_S256x1024_S64x1024_192_0) (fun _ => rfl)).view.set = rowSet 256 192 64 :=
  (View.set_slice_whole _ _).trans (rect_rows (N := 256) (n := 64) (off := ![192, 0]) rfl inb_S256x1024_S64x1024_192_0)
theorem slot_set_3 : (comm1M.slice (Rect.unit (s := S128x1024) ![0, 0] S64x1024.size inb_S128x1024_S64x1024_0_0) (fun _ => rfl)).view.set = rowSet 128 0 64 :=
  (View.set_slice_whole _ _).trans (rect_rows (N := 128) (n := 64) (off := ![0, 0]) rfl inb_S128x1024_S64x1024_0_0)
theorem slot_set_4 : (comm1M.slice (Rect.unit (s := S128x1024) ![64, 0] S32x1024.size inb_S128x1024_S32x1024_64_0) (fun _ => rfl)).view.set = rowSet 128 64 32 :=
  (View.set_slice_whole _ _).trans (rect_rows (N := 128) (n := 32) (off := ![64, 0]) rfl inb_S128x1024_S32x1024_64_0)
theorem slot_set_5 : (comm1M.slice (Rect.unit (s := S128x1024) ![96, 0] S32x1024.size inb_S128x1024_S32x1024_96_0) (fun _ => rfl)).view.set = rowSet 128 96 32 :=
  (View.set_slice_whole _ _).trans (rect_rows (N := 128) (n := 32) (off := ![96, 0]) rfl inb_S128x1024_S32x1024_96_0)
theorem slot_set_6 : (comm2M.slice (Rect.unit (s := S64x1024) ![0, 0] S32x1024.size inb_S64x1024_S32x1024_0_0) (fun _ => rfl)).view.set = rowSet 64 0 32 :=
  (View.set_slice_whole _ _).trans (rect_rows (N := 64) (n := 32) (off := ![0, 0]) rfl inb_S64x1024_S32x1024_0_0)
theorem slot_set_7 : (comm2M.slice (Rect.unit (s := S64x1024) ![32, 0] S16x1024.size inb_S64x1024_S16x1024_32_0) (fun _ => rfl)).view.set = rowSet 64 32 16 :=
  (View.set_slice_whole _ _).trans (rect_rows (N := 64) (n := 16) (off := ![32, 0]) rfl inb_S64x1024_S16x1024_32_0)
theorem slot_set_8 : (comm2M.slice (Rect.unit (s := S64x1024) ![48, 0] S16x1024.size inb_S64x1024_S16x1024_48_0) (fun _ => rfl)).view.set = rowSet 64 48 16 :=
  (View.set_slice_whole _ _).trans (rect_rows (N := 64) (n := 16) (off := ![48, 0]) rfl inb_S64x1024_S16x1024_48_0)

/-! ## Cutting and joining -/

/-- The accumulator of device `c`, and its landing buffers. -/
abbrev accL (c : Dev nD) : Loc nD τ sig := (c : Thread nD τ).loc cc0_scratch0
abbrev comm0L (c : Dev nD) : Loc nD τ sig := (c : Thread nD τ).loc cc0_scratch1
abbrev comm1L (c : Dev nD) : Loc nD τ sig := (c : Thread nD τ).loc cc0_scratch2
abbrev comm2L (c : Dev nD) : Loc nD τ sig := (c : Thread nD τ).loc cc0_scratch3

omit [FloatOps F] in
/-- A run of the accumulator's rows is its leading `k` rows and the rest. -/
theorem acc_cut (c : Dev nD) (f : Buf (Elt F) (accL c)) {r n k : ℕ} (hk : k ≤ n) :
    (accL c ↦[rowSet 512 r n]{fullShare} f : sProp 𝕄)
      ⊣⊢ iprop((accL c ↦[rowSet 512 r k]{fullShare} f) ∗ accL c ↦[rowSet 512 (r + k) (n - k)]{fullShare} f) := by
  have h := pointsTo_split_subset (Ix := Unit) (Val := Elt F) (Name := ℕ) (U := UU) (Lvl := ℕ) (ℓ := accL c) (q := fullShare) (f := f)
    (I := rowSet 512 r k) (S := rowSet 512 r n) (rowSet_subset ⟨le_rfl, by omega⟩)
  rwa [rowSet_sdiff_lead hk] at h

omit [FloatOps F] in
/-- The whole accumulator is its 512 rows. -/
theorem acc_whole (c : Dev nD) (f : Buf (Elt F) (accL c)) :
    (accL c ↦{fullShare} f : sProp 𝕄) = (accL c ↦[rowSet 512 0 512]{fullShare} f) := by
  rw [rowSet_univ]

omit [FloatOps F] in
theorem comm0_cut (c : Dev nD) (f : Buf (Elt F) (comm0L c)) :
    (comm0L c ↦{fullShare} f : sProp 𝕄)
      ⊣⊢ iprop((comm0L c ↦[rowSet 256 0 128]{fullShare} f) ∗ (comm0L c ↦[rowSet 256 128 64]{fullShare} f) ∗ comm0L c ↦[rowSet 256 192 64]{fullShare} f) := by
  have h1 := pointsTo_split_subset (Ix := Unit) (Val := Elt F) (Name := ℕ) (U := UU) (Lvl := ℕ) (ℓ := comm0L c) (q := fullShare) (f := f)
    (I := rowSet 256 0 128) (S := rowSet 256 0 256) (rowSet_subset ⟨le_rfl, by omega⟩)
  rw [rowSet_sdiff_lead (by omega), rowSet_univ] at h1
  have h2 := pointsTo_split_subset (Ix := Unit) (Val := Elt F) (Name := ℕ) (U := UU) (Lvl := ℕ) (ℓ := comm0L c) (q := fullShare) (f := f)
    (I := rowSet 256 128 64) (S := rowSet 256 (0 + 128) (256 - 128)) (rowSet_subset ⟨le_rfl, by omega⟩)
  rw [rowSet_sdiff_lead (by omega)] at h2
  exact ⟨h1.1.trans (sep_mono_right h2.1), (sep_mono_right h2.2).trans h1.2⟩

omit [FloatOps F] in
theorem comm1_cut (c : Dev nD) (f : Buf (Elt F) (comm1L c)) :
    (comm1L c ↦{fullShare} f : sProp 𝕄)
      ⊣⊢ iprop((comm1L c ↦[rowSet 128 0 64]{fullShare} f) ∗ (comm1L c ↦[rowSet 128 64 32]{fullShare} f) ∗ comm1L c ↦[rowSet 128 96 32]{fullShare} f) := by
  have h1 := pointsTo_split_subset (Ix := Unit) (Val := Elt F) (Name := ℕ) (U := UU) (Lvl := ℕ) (ℓ := comm1L c) (q := fullShare) (f := f)
    (I := rowSet 128 0 64) (S := rowSet 128 0 128) (rowSet_subset ⟨le_rfl, by omega⟩)
  rw [rowSet_sdiff_lead (by omega), rowSet_univ] at h1
  have h2 := pointsTo_split_subset (Ix := Unit) (Val := Elt F) (Name := ℕ) (U := UU) (Lvl := ℕ) (ℓ := comm1L c) (q := fullShare) (f := f)
    (I := rowSet 128 64 32) (S := rowSet 128 (0 + 64) (128 - 64)) (rowSet_subset ⟨le_rfl, by omega⟩)
  rw [rowSet_sdiff_lead (by omega)] at h2
  exact ⟨h1.1.trans (sep_mono_right h2.1), (sep_mono_right h2.2).trans h1.2⟩

omit [FloatOps F] in
theorem comm2_cut (c : Dev nD) (f : Buf (Elt F) (comm2L c)) :
    (comm2L c ↦{fullShare} f : sProp 𝕄)
      ⊣⊢ iprop((comm2L c ↦[rowSet 64 0 32]{fullShare} f) ∗ (comm2L c ↦[rowSet 64 32 16]{fullShare} f) ∗ comm2L c ↦[rowSet 64 48 16]{fullShare} f) := by
  have h1 := pointsTo_split_subset (Ix := Unit) (Val := Elt F) (Name := ℕ) (U := UU) (Lvl := ℕ) (ℓ := comm2L c) (q := fullShare) (f := f)
    (I := rowSet 64 0 32) (S := rowSet 64 0 64) (rowSet_subset ⟨le_rfl, by omega⟩)
  rw [rowSet_sdiff_lead (by omega), rowSet_univ] at h1
  have h2 := pointsTo_split_subset (Ix := Unit) (Val := Elt F) (Name := ℕ) (U := UU) (Lvl := ℕ) (ℓ := comm2L c) (q := fullShare) (f := f)
    (I := rowSet 64 32 16) (S := rowSet 64 (0 + 32) (64 - 32)) (rowSet_subset ⟨le_rfl, by omega⟩)
  rw [rowSet_sdiff_lead (by omega)] at h2
  exact ⟨h1.1.trans (sep_mono_right h2.1), (sep_mono_right h2.2).trans h1.2⟩

/-! ## The halves -/

/-- At reduce-scatter copy `i` the rows a device sends and the rows it keeps are the two halves of the rows it held: the
    part's rows at phase 0, what it kept one phase earlier afterwards. -/
theorem halves_0 : ∀ c : Dev nD, (srcRow 0 c = 0 ∧ keepRow 0 c = 0 + 128) ∨ (srcRow 0 c = 0 + 128 ∧ keepRow 0 c = 0) := by decide
theorem halves_1 : ∀ c : Dev nD, (srcRow 1 c = 256 ∧ keepRow 1 c = 256 + 64) ∨ (srcRow 1 c = 256 + 64 ∧ keepRow 1 c = 256) := by decide
theorem halves_2 : ∀ c : Dev nD, (srcRow 2 c = 384 ∧ keepRow 2 c = 384 + 64) ∨ (srcRow 2 c = 384 + 64 ∧ keepRow 2 c = 384) := by decide
theorem halves_3 : ∀ c : Dev nD, (srcRow 3 c = keepRow 0 c ∧ keepRow 3 c = keepRow 0 c + 64) ∨ (srcRow 3 c = keepRow 0 c + 64 ∧ keepRow 3 c = keepRow 0 c) := by decide
theorem halves_4 : ∀ c : Dev nD, (srcRow 4 c = keepRow 1 c ∧ keepRow 4 c = keepRow 1 c + 32) ∨ (srcRow 4 c = keepRow 1 c + 32 ∧ keepRow 4 c = keepRow 1 c) := by decide
theorem halves_5 : ∀ c : Dev nD, (srcRow 5 c = keepRow 2 c ∧ keepRow 5 c = keepRow 2 c + 32) ∨ (srcRow 5 c = keepRow 2 c + 32 ∧ keepRow 5 c = keepRow 2 c) := by decide
theorem halves_6 : ∀ c : Dev nD, (srcRow 6 c = keepRow 3 c ∧ keepRow 6 c = keepRow 3 c + 32) ∨ (srcRow 6 c = keepRow 3 c + 32 ∧ keepRow 6 c = keepRow 3 c) := by decide
theorem halves_7 : ∀ c : Dev nD, (srcRow 7 c = keepRow 4 c ∧ keepRow 7 c = keepRow 4 c + 16) ∨ (srcRow 7 c = keepRow 4 c + 16 ∧ keepRow 7 c = keepRow 4 c) := by decide
theorem halves_8 : ∀ c : Dev nD, (srcRow 8 c = keepRow 5 c ∧ keepRow 8 c = keepRow 5 c + 16) ∨ (srcRow 8 c = keepRow 5 c + 16 ∧ keepRow 8 c = keepRow 5 c) := by decide

end Cert.Kernel.Coll

end
-- ==== Proof.Kernel.BodyPrep.lean ====
/-
  Small facts the body's run uses over and over: an eighteen-fold conjunction written out; one cell's invariant, and that
  its round 0 is open, picked out of what every device knows; and each landing buffer as its three slots, in the views the
  copies name them by.
-/
import proofs.«900423_g7700000000000424_dist_attn_self_mha_htp_b1_sq512_skv512_d1024_hq8_dh128_v7x_i8_f32_1_alg».proof.Proof.Kernel.Rows

noncomputable section

namespace Cert.Kernel.Coll

open Cert.Kernel Cert.Kernel.Gen Cert.Kernel.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

omit [FloatOps F] in
theorem bigSep_fin18 (Φ : Fin 18 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17) :=
  bigSep_univ_eq_bigSepL [0, 1, 2, 3, 4, 5, 6, 7, 8, 9, 10, 11, 12, 13, 14, 15, 16, 17] (by decide) (by decide) Φ
omit [FloatOps F] in
theorem bigSep_fin3' (Φ : Fin 3 → sProp 𝕄) : bigSep Finset.univ Φ = iprop(Φ 0 ∗ Φ 1 ∗ Φ 2) :=
  bigSep_univ_eq_bigSepL [0, 1, 2] (by decide) (by decide) Φ

section
variable (P : Dev nD → AccC F) (K : Dev nD × CK → ℕ)

theorem inv_bar (n : Dev nD) :
    (bigSep Finset.univ fun ck : Dev nD × CK => (cellInv ER (rd P) (K ck) (kcell ck) : sProp 𝕄)) ⊢ cellInv ER (rd P) (K (n, ckBar)) (barCell n) :=
  bigSep_elim (Finset.mem_univ (n, ckBar))
theorem inv_send (i : Fin 18) (n : Dev nD) :
    (bigSep Finset.univ fun ck : Dev nD × CK => (cellInv ER (rd P) (K ck) (kcell ck) : sProp 𝕄)) ⊢ cellInv ER (rd P) (K (n, ckSend i)) (sendCell i n) := by
  rw [← kcell_send]; exact bigSep_elim (Finset.mem_univ (n, ckSend i))
theorem inv_recv (i : Fin 18) (n : Dev nD) :
    (bigSep Finset.univ fun ck : Dev nD × CK => (cellInv ER (rd P) (K ck) (kcell ck) : sProp 𝕄)) ⊢ cellInv ER (rd P) (K (n, ckRecv i)) (recvCell i n) := by
  rw [← kcell_recv]; exact bigSep_elim (Finset.mem_univ (n, ckRecv i))

omit [FloatOps F] in
theorem reached_bar (n : Dev nD) :
    (bigSep Finset.univ fun ck : Dev nD × CK => (reached ER (kcell ck) 0 : sProp 𝕄)) ⊢ reached ER (barCell n) 0 :=
  bigSep_elim (Finset.mem_univ (n, ckBar))
omit [FloatOps F] in
theorem reached_send (i : Fin 18) (n : Dev nD) :
    (bigSep Finset.univ fun ck : Dev nD × CK => (reached ER (kcell ck) 0 : sProp 𝕄)) ⊢ reached ER (sendCell i n) 0 := by
  rw [← kcell_send]; exact bigSep_elim (Finset.mem_univ (n, ckSend i))
omit [FloatOps F] in
theorem reached_recv (i : Fin 18) (n : Dev nD) :
    (bigSep Finset.univ fun ck : Dev nD × CK => (reached ER (kcell ck) 0 : sProp 𝕄)) ⊢ reached ER (recvCell i n) 0 := by
  rw [← kcell_recv]; exact bigSep_elim (Finset.mem_univ (n, ckRecv i))

end

/-! ## The landing buffers as their slots -/

omit [FloatOps F] in
theorem comm0_slots (c n0 n1 n2 : Dev nD) (f : Buf (Elt F) (comm0L c)) :
    (comm0L c ↦{fullShare} f : sProp 𝕄) ⊣⊢ iprop(dstPts 0 n0 c f ∗ dstPts 1 n1 c f ∗ dstPts 2 n2 c f) := by
  have h := comm0_cut c f
  rw [← slot_set_0, ← slot_set_1, ← slot_set_2] at h
  exact h
omit [FloatOps F] in
theorem comm1_slots (c n0 n1 n2 : Dev nD) (f : Buf (Elt F) (comm1L c)) :
    (comm1L c ↦{fullShare} f : sProp 𝕄) ⊣⊢ iprop(dstPts 3 n0 c f ∗ dstPts 4 n1 c f ∗ dstPts 5 n2 c f) := by
  have h := comm1_cut c f
  rw [← slot_set_3, ← slot_set_4, ← slot_set_5] at h
  exact h
omit [FloatOps F] in
theorem comm2_slots (c n0 n1 n2 : Dev nD) (f : Buf (Elt F) (comm2L c)) :
    (comm2L c ↦{fullShare} f : sProp 𝕄) ⊣⊢ iprop(dstPts 6 n0 c f ∗ dstPts 7 n1 c f ∗ dstPts 8 n2 c f) := by
  have h := comm2_cut c f
  rw [← slot_set_6, ← slot_set_7, ← slot_set_8] at h
  exact h

end Cert.Kernel.Coll

end
-- ==== Proof.Kernel.Halves.lean ====
/-
  Holding the accumulator by runs of rows, each run named as the kernel names it: a part (rows 0–255, 256–383, 384–511),
  the rows a copy reads, or the rows a reduce-scatter phase keeps and adds into. At each reduce-scatter copy the rows held
  are cut into the rows sent and the rows kept — the two halves, in the order the device's side of the pairing decides.
-/
import proofs.«900423_g7700000000000424_dist_attn_self_mha_htp_b1_sq512_skv512_d1024_hq8_dh128_v7x_i8_f32_1_alg».proof.Proof.Kernel.BodyPrep

noncomputable section

namespace Cert.Kernel.Coll

open Cert.Kernel Cert.Kernel.Gen Cert.Kernel.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- Device `c` holds the elements of the view `M` at contents `f`. -/
abbrev heldV {s : Shape} {e : EltTy} (c : Dev nD) (M : Memref sig .tc .vmem s e) (f : Buf (Elt F) (M.view.loc (c : Thread nD τ))) : sProp 𝕄 :=
  M.view.loc (c : Thread nD τ) ↦[M.view.set]{fullShare} f

/-! ## The rows kept at a reduce-scatter copy, and the parts, as runs -/
theorem keep_set_0 (c : Dev nD) : (accM.slice (Rect.unit (s := S512x1024) (k0_off4 c) S128x1024.size (k0_off4_inb c)) (fun _ => rfl)).view.set = rowSet 512 (keepRow 0 c) 128 := by
  have h := keep0_eq c
  refine (View.set_slice_whole _ _).trans ?_
  refine (rect_rows (N := 512) (n := 128) (off := k0_off4 c) (by rw [h]; rfl) (k0_off4_inb c)).trans ?_
  rw [h]; rfl
theorem keep_set_1 (c : Dev nD) : (accM.slice (Rect.unit (s := S512x1024) (k0_off6 c) S64x1024.size (k0_off6_inb c)) (fun _ => rfl)).view.set = rowSet 512 (keepRow 1 c) 64 := by
  have h := keep1_eq c
  refine (View.set_slice_whole _ _).trans ?_
  refine (rect_rows (N := 512) (n := 64) (off := k0_off6 c) (by rw [h]; rfl) (k0_off6_inb c)).trans ?_
  rw [h]; rfl
theorem keep_set_2 (c : Dev nD) : (accM.slice (Rect.unit (s := S512x1024) (k0_off8 c) S64x1024.size (k0_off8_inb c)) (fun _ => rfl)).view.set = rowSet 512 (keepRow 2 c) 64 := by
  have h := keep2_eq c
  refine (View.set_slice_whole _ _).trans ?_
  refine (rect_rows (N := 512) (n := 64) (off := k0_off8 c) (by rw [h]; rfl) (k0_off8_inb c)).trans ?_
  rw [h]; rfl
theorem keep_set_3 (c : Dev nD) : (accM.slice (Rect.unit (s := S512x1024) (k0_off10 c) S64x1024.size (k0_off10_inb c)) (fun _ => rfl)).view.set = rowSet 512 (keepRow 3 c) 64 := by
  have h := keep3_eq c
  refine (View.set_slice_whole _ _).trans ?_
  refine (rect_rows (N := 512) (n := 64) (off := k0_off10 c) (by rw [h]; rfl) (k0_off10_inb c)).trans ?_
  rw [h]; rfl
theorem keep_set_4 (c : Dev nD) : (accM.slice (Rect.unit (s := S512x1024) (k0_off12 c) S32x1024.size (k0_off12_inb c)) (fun _ => rfl)).view.set = rowSet 512 (keepRow 4 c) 32 := by
  have h := keep4_eq c
  refine (View.set_slice_whole _ _).trans ?_
  refine (rect_rows (N := 512) (n := 32) (off := k0_off12 c) (by rw [h]; rfl) (k0_off12_inb c)).trans ?_
  rw [h]; rfl
theorem keep_set_5 (c : Dev nD) : (accM.slice (Rect.unit (s := S512x1024) (k0_off14 c) S32x1024.size (k0_off14_inb c)) (fun _ => rfl)).view.set = rowSet 512 (keepRow 5 c) 32 := by
  have h := keep5_eq c
  refine (View.set_slice_whole _ _).trans ?_
  refine (rect_rows (N := 512) (n := 32) (off := k0_off14 c) (by rw [h]; rfl) (k0_off14_inb c)).trans ?_
  rw [h]; rfl
theorem keep_set_6 (c : Dev nD) : (accM.slice (Rect.unit (s := S512x1024) (k0_off16 c) S32x1024.size (k0_off16_inb c)) (fun _ => rfl)).view.set = rowSet 512 (keepRow 6 c) 32 := by
  have h := keep6_eq c
  refine (View.set_slice_whole _ _).trans ?_
  refine (rect_rows (N := 512) (n := 32) (off := k0_off16 c) (by rw [h]; rfl) (k0_off16_inb c)).trans ?_
  rw [h]; rfl
theorem keep_set_7 (c : Dev nD) : (accM.slice (Rect.unit (s := S512x1024) (k0_off17 c) S16x1024.size (k0_off17_inb c)) (fun _ => rfl)).view.set = rowSet 512 (keepRow 7 c) 16 := by
  have h := keep7_eq c
  refine (View.set_slice_whole _ _).trans ?_
  refine (rect_rows (N := 512) (n := 16) (off := k0_off17 c) (by rw [h]; rfl) (k0_off17_inb c)).trans ?_
  rw [h]; rfl
theorem keep_set_8 (c : Dev nD) : (accM.slice (Rect.unit (s := S512x1024) (k0_off18 c) S16x1024.size (k0_off18_inb c)) (fun _ => rfl)).view.set = rowSet 512 (keepRow 8 c) 16 := by
  have h := keep8_eq c
  refine (View.set_slice_whole _ _).trans ?_
  refine (rect_rows (N := 512) (n := 16) (off := k0_off18 c) (by rw [h]; rfl) (k0_off18_inb c)).trans ?_
  rw [h]; rfl
theorem part_set_0 : (accM.slice (Rect.unit (s := S512x1024) ![0, 0] S256x1024.size inb_S512x1024_S256x1024_0_0) (fun _ => rfl)).view.set = rowSet 512 0 256 :=
  (View.set_slice_whole _ _).trans (rect_rows (N := 512) (n := 256) (off := ![0, 0]) rfl inb_S512x1024_S256x1024_0_0)
theorem part_set_1 : (accM.slice (Rect.unit (s := S512x1024) ![256, 0] S128x1024.size inb_S512x1024_S128x1024_256_0) (fun _ => rfl)).view.set = rowSet 512 256 128 :=
  (View.set_slice_whole _ _).trans (rect_rows (N := 512) (n := 128) (off := ![256, 0]) rfl inb_S512x1024_S128x1024_256_0)
theorem part_set_2 : (accM.slice (Rect.unit (s := S512x1024) ![384, 0] S128x1024.size inb_S512x1024_S128x1024_384_0) (fun _ => rfl)).view.set = rowSet 512 384 128 :=
  (View.set_slice_whole _ _).trans (rect_rows (N := 512) (n := 128) (off := ![384, 0]) rfl inb_S512x1024_S128x1024_384_0)

/-! ## Cutting -/

omit [FloatOps F] in
/-- Two runs that are the two halves, in either order, of a run of `2 r` rows. -/
theorem acc_halve (c : Dev nD) (f : Buf (Elt F) (accL c)) {lo r s k : ℕ} (h : (s = lo ∧ k = lo + r) ∨ (s = lo + r ∧ k = lo)) :
    (accL c ↦[rowSet 512 lo (2 * r)]{fullShare} f : sProp 𝕄)
      ⊣⊢ iprop((accL c ↦[rowSet 512 s r]{fullShare} f) ∗ accL c ↦[rowSet 512 k r]{fullShare} f) := by
  have hc := acc_cut (F := F) c f (r := lo) (n := 2 * r) (k := r) (by omega)
  rw [show 2 * r - r = r by omega] at hc
  rcases h with ⟨rfl, rfl⟩ | ⟨rfl, rfl⟩
  · exact hc
  · exact ⟨hc.1.trans sep_comm.1, sep_comm.1.trans hc.2⟩

omit [FloatOps F] in
/-- The whole accumulator is its three parts. -/
theorem acc_parts (c : Dev nD) (f : Buf (Elt F) (accL c)) :
    (accL c ↦{fullShare} f : sProp 𝕄)
      ⊣⊢ iprop(((accM.slice (Rect.unit (s := S512x1024) ![0, 0] S256x1024.size inb_S512x1024_S256x1024_0_0) (fun _ => rfl)).view.loc (c : Thread nD τ) ↦[(accM.slice (Rect.unit (s := S512x1024) ![0, 0] S256x1024.size inb_S512x1024_S256x1024_0_0) (fun _ => rfl)).view.set]{fullShare} f) ∗ ((accM.slice (Rect.unit (s := S512x1024) ![256, 0] S128x1024.size inb_S512x1024_S128x1024_256_0) (fun _ => rfl)).view.loc (c : Thread nD τ) ↦[(accM.slice (Rect.unit (s := S512x1024) ![256, 0] S128x1024.size inb_S512x1024_S128x1024_256_0) (fun _ => rfl)).view.set]{fullShare} f) ∗ ((accM.slice (Rect.unit (s := S512x1024) ![384, 0] S128x1024.size inb_S512x1024_S128x1024_384_0) (fun _ => rfl)).view.loc (c : Thread nD τ) ↦[(accM.slice (Rect.unit (s := S512x1024) ![384, 0] S128x1024.size inb_S512x1024_S128x1024_384_0) (fun _ => rfl)).view.set]{fullShare} f)) := by
  rw [part_set_0, part_set_1, part_set_2, acc_whole]
  have h1 := acc_cut (F := F) c f (r := 0) (n := 512) (k := 256) (by omega)
  have h2 := acc_cut (F := F) c f (r := 0 + 256) (n := 512 - 256) (k := 128) (by omega)
  exact ⟨h1.1.trans (sep_mono_right h2.1), (sep_mono_right h2.2).trans h1.2⟩

/-! ## A held view as a run of rows, one view at a time -/

omit [FloatOps F] in
theorem src_pts_0 (c : Dev nD) (f : Buf (Elt F) (accL c)) :
    (((accM.slice (Rect.unit (s := S512x1024) (k0_off1 c) S128x1024.size (k0_off1_inb c)) (fun _ => rfl)).view.loc (c : Thread nD τ) ↦[(accM.slice (Rect.unit (s := S512x1024) (k0_off1 c) S128x1024.size (k0_off1_inb c)) (fun _ => rfl)).view.set]{fullShare} f) : sProp 𝕄)
      = (accL c ↦[rowSet 512 (srcRow 0 c) 128]{fullShare} f) := by
  rw [src_set_0 c]
omit [FloatOps F] in
theorem src_pts_1 (c : Dev nD) (f : Buf (Elt F) (accL c)) :
    (((accM.slice (Rect.unit (s := S512x1024) (k0_off2 c) S64x1024.size (k0_off2_inb c)) (fun _ => rfl)).view.loc (c : Thread nD τ) ↦[(accM.slice (Rect.unit (s := S512x1024) (k0_off2 c) S64x1024.size (k0_off2_inb c)) (fun _ => rfl)).view.set]{fullShare} f) : sProp 𝕄)
      = (accL c ↦[rowSet 512 (srcRow 1 c) 64]{fullShare} f) := by
  rw [src_set_1 c]
omit [FloatOps F] in
theorem src_pts_2 (c : Dev nD) (f : Buf (Elt F) (accL c)) :
    (((accM.slice (Rect.unit (s := S512x1024) (k0_off3 c) S64x1024.size (k0_off3_inb c)) (fun _ => rfl)).view.loc (c : Thread nD τ) ↦[(accM.slice (Rect.unit (s := S512x1024) (k0_off3 c) S64x1024.size (k0_off3_inb c)) (fun _ => rfl)).view.set]{fullShare} f) : sProp 𝕄)
      = (accL c ↦[rowSet 512 (srcRow 2 c) 64]{fullShare} f) := by
  rw [src_set_2 c]
omit [FloatOps F] in
theorem src_pts_3 (c : Dev nD) (f : Buf (Elt F) (accL c)) :
    (((accM.slice (Rect.unit (s := S512x1024) (k0_off5 c) S64x1024.size (k0_off5_inb c)) (fun _ => rfl)).view.loc (c : Thread nD τ) ↦[(accM.slice (Rect.unit (s := S512x1024) (k0_off5 c) S64x1024.size (k0_off5_inb c)) (fun _ => rfl)).view.set]{fullShare} f) : sProp 𝕄)
      = (accL c ↦[rowSet 512 (srcRow 3 c) 64]{fullShare} f) := by
  rw [src_set_3 c]
omit [FloatOps F] in
theorem src_pts_4 (c : Dev nD) (f : Buf (Elt F) (accL c)) :
    (((accM.slice (Rect.unit (s := S512x1024) (k0_off7 c) S32x1024.size (k0_off7_inb c)) (fun _ => rfl)).view.loc (c : Thread nD τ) ↦[(accM.slice (Rect.unit (s := S512x1024) (k0_off7 c) S32x1024.size (k0_off7_inb c)) (fun _ => rfl)).view.set]{fullShare} f) : sProp 𝕄)
      = (accL c ↦[rowSet 512 (srcRow 4 c) 32]{fullShare} f) := by
  rw [src_set_4 c]
omit [FloatOps F] in
theorem src_pts_5 (c : Dev nD) (f : Buf (Elt F) (accL c)) :
    (((accM.slice (Rect.unit (s := S512x1024) (k0_off9 c) S32x1024.size (k0_off9_inb c)) (fun _ => rfl)).view.loc (c : Thread nD τ) ↦[(accM.slice (Rect.unit (s := S512x1024) (k0_off9 c) S32x1024.size (k0_off9_inb c)) (fun _ => rfl)).view.set]{fullShare} f) : sProp 𝕄)
      = (accL c ↦[rowSet 512 (srcRow 5 c) 32]{fullShare} f) := by
  rw [src_set_5 c]
omit [FloatOps F] in
theorem src_pts_6 (c : Dev nD) (f : Buf (Elt F) (accL c)) :
    (((accM.slice (Rect.unit (s := S512x1024) (k0_off11 c 0#32 32#32) S32x1024.size (k0_off11_inb c 0)) (fun _ => rfl)).view.loc (c : Thread nD τ) ↦[(accM.slice (Rect.unit (s := S512x1024) (k0_off11 c 0#32 32#32) S32x1024.size (k0_off11_inb c 0)) (fun _ => rfl)).view.set]{fullShare} f) : sProp 𝕄)
      = (accL c ↦[rowSet 512 (srcRow 6 c) 32]{fullShare} f) := by
  rw [src_set_6 c]
omit [FloatOps F] in
theorem src_pts_7 (c : Dev nD) (f : Buf (Elt F) (accL c)) :
    (((accM.slice (Rect.unit (s := S512x1024) (k0_off13 c 0#32 16#32) S16x1024.size (k0_off13_inb c 0)) (fun _ => rfl)).view.loc (c : Thread nD τ) ↦[(accM.slice (Rect.unit (s := S512x1024) (k0_off13 c 0#32 16#32) S16x1024.size (k0_off13_inb c 0)) (fun _ => rfl)).view.set]{fullShare} f) : sProp 𝕄)
      = (accL c ↦[rowSet 512 (srcRow 7 c) 16]{fullShare} f) := by
  rw [src_set_7 c]
omit [FloatOps F] in
theorem src_pts_8 (c : Dev nD) (f : Buf (Elt F) (accL c)) :
    (((accM.slice (Rect.unit (s := S512x1024) (k0_off15 c 0#32 16#32) S16x1024.size (k0_off15_inb c 0)) (fun _ => rfl)).view.loc (c : Thread nD τ) ↦[(accM.slice (Rect.unit (s := S512x1024) (k0_off15 c 0#32 16#32) S16x1024.size (k0_off15_inb c 0)) (fun _ => rfl)).view.set]{fullShare} f) : sProp 𝕄)
      = (accL c ↦[rowSet 512 (srcRow 8 c) 16]{fullShare} f) := by
  rw [src_set_8 c]
omit [FloatOps F] in
theorem src_pts_9 (c : Dev nD) (f : Buf (Elt F) (accL c)) :
    (((accM.slice (Rect.unit (s := S512x1024) (k0_off11 c 32#32 0#32) S32x1024.size (k0_off11_inb c 1)) (fun _ => rfl)).view.loc (c : Thread nD τ) ↦[(accM.slice (Rect.unit (s := S512x1024) (k0_off11 c 32#32 0#32) S32x1024.size (k0_off11_inb c 1)) (fun _ => rfl)).view.set]{fullShare} f) : sProp 𝕄)
      = (accL c ↦[rowSet 512 (srcRow 9 c) 32]{fullShare} f) := by
  rw [src_set_9 c]
omit [FloatOps F] in
theorem src_pts_10 (c : Dev nD) (f : Buf (Elt F) (accL c)) :
    (((accM.slice (Rect.unit (s := S512x1024) (k0_off13 c 16#32 0#32) S16x1024.size (k0_off13_inb c 1)) (fun _ => rfl)).view.loc (c : Thread nD τ) ↦[(accM.slice (Rect.unit (s := S512x1024) (k0_off13 c 16#32 0#32) S16x1024.size (k0_off13_inb c 1)) (fun _ => rfl)).view.set]{fullShare} f) : sProp 𝕄)
      = (accL c ↦[rowSet 512 (srcRow 10 c) 16]{fullShare} f) := by
  rw [src_set_10 c]
omit [FloatOps F] in
theorem src_pts_11 (c : Dev nD) (f : Buf (Elt F) (accL c)) :
    (((accM.slice (Rect.unit (s := S512x1024) (k0_off15 c 16#32 0#32) S16x1024.size (k0_off15_inb c 1)) (fun _ => rfl)).view.loc (c : Thread nD τ) ↦[(accM.slice (Rect.unit (s := S512x1024) (k0_off15 c 16#32 0#32) S16x1024.size (k0_off15_inb c 1)) (fun _ => rfl)).view.set]{fullShare} f) : sProp 𝕄)
      = (accL c ↦[rowSet 512 (srcRow 11 c) 16]{fullShare} f) := by
  rw [src_set_11 c]
omit [FloatOps F] in
theorem src_pts_12 (c : Dev nD) (f : Buf (Elt F) (accL c)) :
    (((accM.slice (Rect.unit (s := S512x1024) (k0_off19 c) S64x1024.size (k0_off19_inb c)) (fun _ => rfl)).view.loc (c : Thread nD τ) ↦[(accM.slice (Rect.unit (s := S512x1024) (k0_off19 c) S64x1024.size (k0_off19_inb c)) (fun _ => rfl)).view.set]{fullShare} f) : sProp 𝕄)
      = (accL c ↦[rowSet 512 (srcRow 12 c) 64]{fullShare} f) := by
  rw [src_set_12 c]
omit [FloatOps F] in
theorem src_pts_13 (c : Dev nD) (f : Buf (Elt F) (accL c)) :
    (((accM.slice (Rect.unit (s := S512x1024) (k0_off20 c) S32x1024.size (k0_off20_inb c)) (fun _ => rfl)).view.loc (c : Thread nD τ) ↦[(accM.slice (Rect.unit (s := S512x1024) (k0_off20 c) S32x1024.size (k0_off20_inb c)) (fun _ => rfl)).view.set]{fullShare} f) : sProp 𝕄)
      = (accL c ↦[rowSet 512 (srcRow 13 c) 32]{fullShare} f) := by
  rw [src_set_13 c]
omit [FloatOps F] in
theorem src_pts_14 (c : Dev nD) (f : Buf (Elt F) (accL c)) :
    (((accM.slice (Rect.unit (s := S512x1024) (k0_off21 c) S32x1024.size (k0_off21_inb c)) (fun _ => rfl)).view.loc (c : Thread nD τ) ↦[(accM.slice (Rect.unit (s := S512x1024) (k0_off21 c) S32x1024.size (k0_off21_inb c)) (fun _ => rfl)).view.set]{fullShare} f) : sProp 𝕄)
      = (accL c ↦[rowSet 512 (srcRow 14 c) 32]{fullShare} f) := by
  rw [src_set_14 c]
omit [FloatOps F] in
theorem src_pts_15 (c : Dev nD) (f : Buf (Elt F) (accL c)) :
    (((accM.slice (Rect.unit (s := S512x1024) (k0_off22 c) S128x1024.size (k0_off22_inb c)) (fun _ => rfl)).view.loc (c : Thread nD τ) ↦[(accM.slice (Rect.unit (s := S512x1024) (k0_off22 c) S128x1024.size (k0_off22_inb c)) (fun _ => rfl)).view.set]{fullShare} f) : sProp 𝕄)
      = (accL c ↦[rowSet 512 (srcRow 15 c) 128]{fullShare} f) := by
  rw [src_set_15 c]
omit [FloatOps F] in
theorem src_pts_16 (c : Dev nD) (f : Buf (Elt F) (accL c)) :
    (((accM.slice (Rect.unit (s := S512x1024) (k0_off23 c) S64x1024.size (k0_off23_inb c)) (fun _ => rfl)).view.loc (c : Thread nD τ) ↦[(accM.slice (Rect.unit (s := S512x1024) (k0_off23 c) S64x1024.size (k0_off23_inb c)) (fun _ => rfl)).view.set]{fullShare} f) : sProp 𝕄)
      = (accL c ↦[rowSet 512 (srcRow 16 c) 64]{fullShare} f) := by
  rw [src_set_16 c]
omit [FloatOps F] in
theorem src_pts_17 (c : Dev nD) (f : Buf (Elt F) (accL c)) :
    (((accM.slice (Rect.unit (s := S512x1024) (k0_off24 c) S64x1024.size (k0_off24_inb c)) (fun _ => rfl)).view.loc (c : Thread nD τ) ↦[(accM.slice (Rect.unit (s := S512x1024) (k0_off24 c) S64x1024.size (k0_off24_inb c)) (fun _ => rfl)).view.set]{fullShare} f) : sProp 𝕄)
      = (accL c ↦[rowSet 512 (srcRow 17 c) 64]{fullShare} f) := by
  rw [src_set_17 c]
omit [FloatOps F] in
theorem keep_pts_0 (c : Dev nD) (f : Buf (Elt F) (accL c)) :
    (((accM.slice (Rect.unit (s := S512x1024) (k0_off4 c) S128x1024.size (k0_off4_inb c)) (fun _ => rfl)).view.loc (c : Thread nD τ) ↦[(accM.slice (Rect.unit (s := S512x1024) (k0_off4 c) S128x1024.size (k0_off4_inb c)) (fun _ => rfl)).view.set]{fullShare} f) : sProp 𝕄)
      = (accL c ↦[rowSet 512 (keepRow 0 c) 128]{fullShare} f) := by
  rw [keep_set_0 c]
omit [FloatOps F] in
theorem keep_pts_1 (c : Dev nD) (f : Buf (Elt F) (accL c)) :
    (((accM.slice (Rect.unit (s := S512x1024) (k0_off6 c) S64x1024.size (k0_off6_inb c)) (fun _ => rfl)).view.loc (c : Thread nD τ) ↦[(accM.slice (Rect.unit (s := S512x1024) (k0_off6 c) S64x1024.size (k0_off6_inb c)) (fun _ => rfl)).view.set]{fullShare} f) : sProp 𝕄)
      = (accL c ↦[rowSet 512 (keepRow 1 c) 64]{fullShare} f) := by
  rw [keep_set_1 c]
omit [FloatOps F] in
theorem keep_pts_2 (c : Dev nD) (f : Buf (Elt F) (accL c)) :
    (((accM.slice (Rect.unit (s := S512x1024) (k0_off8 c) S64x1024.size (k0_off8_inb c)) (fun _ => rfl)).view.loc (c : Thread nD τ) ↦[(accM.slice (Rect.unit (s := S512x1024) (k0_off8 c) S64x1024.size (k0_off8_inb c)) (fun _ => rfl)).view.set]{fullShare} f) : sProp 𝕄)
      = (accL c ↦[rowSet 512 (keepRow 2 c) 64]{fullShare} f) := by
  rw [keep_set_2 c]
omit [FloatOps F] in
theorem keep_pts_3 (c : Dev nD) (f : Buf (Elt F) (accL c)) :
    (((accM.slice (Rect.unit (s := S512x1024) (k0_off10 c) S64x1024.size (k0_off10_inb c)) (fun _ => rfl)).view.loc (c : Thread nD τ) ↦[(accM.slice (Rect.unit (s := S512x1024) (k0_off10 c) S64x1024.size (k0_off10_inb c)) (fun _ => rfl)).view.set]{fullShare} f) : sProp 𝕄)
      = (accL c ↦[rowSet 512 (keepRow 3 c) 64]{fullShare} f) := by
  rw [keep_set_3 c]
omit [FloatOps F] in
theorem keep_pts_4 (c : Dev nD) (f : Buf (Elt F) (accL c)) :
    (((accM.slice (Rect.unit (s := S512x1024) (k0_off12 c) S32x1024.size (k0_off12_inb c)) (fun _ => rfl)).view.loc (c : Thread nD τ) ↦[(accM.slice (Rect.unit (s := S512x1024) (k0_off12 c) S32x1024.size (k0_off12_inb c)) (fun _ => rfl)).view.set]{fullShare} f) : sProp 𝕄)
      = (accL c ↦[rowSet 512 (keepRow 4 c) 32]{fullShare} f) := by
  rw [keep_set_4 c]
omit [FloatOps F] in
theorem keep_pts_5 (c : Dev nD) (f : Buf (Elt F) (accL c)) :
    (((accM.slice (Rect.unit (s := S512x1024) (k0_off14 c) S32x1024.size (k0_off14_inb c)) (fun _ => rfl)).view.loc (c : Thread nD τ) ↦[(accM.slice (Rect.unit (s := S512x1024) (k0_off14 c) S32x1024.size (k0_off14_inb c)) (fun _ => rfl)).view.set]{fullShare} f) : sProp 𝕄)
      = (accL c ↦[rowSet 512 (keepRow 5 c) 32]{fullShare} f) := by
  rw [keep_set_5 c]
omit [FloatOps F] in
theorem keep_pts_6 (c : Dev nD) (f : Buf (Elt F) (accL c)) :
    (((accM.slice (Rect.unit (s := S512x1024) (k0_off16 c) S32x1024.size (k0_off16_inb c)) (fun _ => rfl)).view.loc (c : Thread nD τ) ↦[(accM.slice (Rect.unit (s := S512x1024) (k0_off16 c) S32x1024.size (k0_off16_inb c)) (fun _ => rfl)).view.set]{fullShare} f) : sProp 𝕄)
      = (accL c ↦[rowSet 512 (keepRow 6 c) 32]{fullShare} f) := by
  rw [keep_set_6 c]
omit [FloatOps F] in
theorem keep_pts_7 (c : Dev nD) (f : Buf (Elt F) (accL c)) :
    (((accM.slice (Rect.unit (s := S512x1024) (k0_off17 c) S16x1024.size (k0_off17_inb c)) (fun _ => rfl)).view.loc (c : Thread nD τ) ↦[(accM.slice (Rect.unit (s := S512x1024) (k0_off17 c) S16x1024.size (k0_off17_inb c)) (fun _ => rfl)).view.set]{fullShare} f) : sProp 𝕄)
      = (accL c ↦[rowSet 512 (keepRow 7 c) 16]{fullShare} f) := by
  rw [keep_set_7 c]
omit [FloatOps F] in
theorem keep_pts_8 (c : Dev nD) (f : Buf (Elt F) (accL c)) :
    (((accM.slice (Rect.unit (s := S512x1024) (k0_off18 c) S16x1024.size (k0_off18_inb c)) (fun _ => rfl)).view.loc (c : Thread nD τ) ↦[(accM.slice (Rect.unit (s := S512x1024) (k0_off18 c) S16x1024.size (k0_off18_inb c)) (fun _ => rfl)).view.set]{fullShare} f) : sProp 𝕄)
      = (accL c ↦[rowSet 512 (keepRow 8 c) 16]{fullShare} f) := by
  rw [keep_set_8 c]
omit [FloatOps F] in
theorem part_pts_0 (c : Dev nD) (f : Buf (Elt F) (accL c)) :
    (((accM.slice (Rect.unit (s := S512x1024) ![0, 0] S256x1024.size inb_S512x1024_S256x1024_0_0) (fun _ => rfl)).view.loc (c : Thread nD τ) ↦[(accM.slice (Rect.unit (s := S512x1024) ![0, 0] S256x1024.size inb_S512x1024_S256x1024_0_0) (fun _ => rfl)).view.set]{fullShare} f) : sProp 𝕄)
      = (accL c ↦[rowSet 512 (0) 256]{fullShare} f) := by
  rw [part_set_0]
omit [FloatOps F] in
theorem part_pts_1 (c : Dev nD) (f : Buf (Elt F) (accL c)) :
    (((accM.slice (Rect.unit (s := S512x1024) ![256, 0] S128x1024.size inb_S512x1024_S128x1024_256_0) (fun _ => rfl)).view.loc (c : Thread nD τ) ↦[(accM.slice (Rect.unit (s := S512x1024) ![256, 0] S128x1024.size inb_S512x1024_S128x1024_256_0) (fun _ => rfl)).view.set]{fullShare} f) : sProp 𝕄)
      = (accL c ↦[rowSet 512 (256) 128]{fullShare} f) := by
  rw [part_set_1]
omit [FloatOps F] in
theorem part_pts_2 (c : Dev nD) (f : Buf (Elt F) (accL c)) :
    (((accM.slice (Rect.unit (s := S512x1024) ![384, 0] S128x1024.size inb_S512x1024_S128x1024_384_0) (fun _ => rfl)).view.loc (c : Thread nD τ) ↦[(accM.slice (Rect.unit (s := S512x1024) ![384, 0] S128x1024.size inb_S512x1024_S128x1024_384_0) (fun _ => rfl)).view.set]{fullShare} f) : sProp 𝕄)
      = (accL c ↦[rowSet 512 (384) 128]{fullShare} f) := by
  rw [part_set_2]

end Cert.Kernel.Coll

end
-- ==== Proof.Kernel.Joins.lean ====
/-
  The all-gather's bookkeeping of rows. The rows a partner's reduce-scatter copy `i` read (handed over with its landing) are
  the rows my all-gather copy `undo i` writes on that partner: my kept rows of copy `i`. What a partner's all-gather copy lands
  on my accumulator are the rows I sent at copy `i`; with my kept rows they make up the rows I held one phase earlier, now at
  two contents: the joined run holds, row by row, whichever content covers the row.
-/
import proofs.«900423_g7700000000000424_dist_attn_self_mha_htp_b1_sq512_skv512_d1024_hq8_dh128_v7x_i8_f32_1_alg».proof.Proof.Kernel.Halves

noncomputable section

namespace Cert.Kernel.Coll

open Cert.Kernel Cert.Kernel.Gen Cert.Kernel.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Rows of partners -/

/-- The partner's sent rows at reduce-scatter copy `i` are my kept rows; its kept rows are my sent rows. -/
theorem src_peer : ∀ (i : Fin 9) (c : Dev nD), srcRow ⟨i.val, by omega⟩ (peer (maskOf ⟨i.val, by omega⟩) c) = keepRow i c := by decide
theorem keep_peer' : ∀ (i : Fin 9) (c : Dev nD), keepRow i (peer (maskOf ⟨i.val, by omega⟩) c) = srcRow ⟨i.val, by omega⟩ c := by decide
/-- The all-gather copy undoing copy `i` reads my kept rows; the partner's reads my sent rows. -/
theorem undo_src_peer : ∀ (i : Fin 9) (c : Dev nD), srcRow (undo i) (peer (maskOf ⟨i.val, by omega⟩) c) = srcRow ⟨i.val, by omega⟩ c := by decide

/-! ## An all-gather copy's landing place on the partner, as a run -/
omit [FloatOps F] in
theorem dst_pts_9 (c c' : Dev nD) (f : Buf (Elt F) (accL c')) :
    (((accM.slice (Rect.unit (s := S512x1024) (k0_off11 c 32#32 0#32) S32x1024.size (k0_off11_inb c 1)) (fun _ => rfl)).view.loc (c' : Thread nD τ) ↦[(accM.slice (Rect.unit (s := S512x1024) (k0_off11 c 32#32 0#32) S32x1024.size (k0_off11_inb c 1)) (fun _ => rfl)).view.set]{fullShare} f) : sProp 𝕄)
      = (accL c' ↦[rowSet 512 (srcRow 9 c) 32]{fullShare} f) := by
  rw [src_set_9 c]
omit [FloatOps F] in
theorem dst_pts_10 (c c' : Dev nD) (f : Buf (Elt F) (accL c')) :
    (((accM.slice (Rect.unit (s := S512x1024) (k0_off13 c 16#32 0#32) S16x1024.size (k0_off13_inb c 1)) (fun _ => rfl)).view.loc (c' : Thread nD τ) ↦[(accM.slice (Rect.unit (s := S512x1024) (k0_off13 c 16#32 0#32) S16x1024.size (k0_off13_inb c 1)) (fun _ => rfl)).view.set]{fullShare} f) : sProp 𝕄)
      = (accL c' ↦[rowSet 512 (srcRow 10 c) 16]{fullShare} f) := by
  rw [src_set_10 c]
omit [FloatOps F] in
theorem dst_pts_11 (c c' : Dev nD) (f : Buf (Elt F) (accL c')) :
    (((accM.slice (Rect.unit (s := S512x1024) (k0_off15 c 16#32 0#32) S16x1024.size (k0_off15_inb c 1)) (fun _ => rfl)).view.loc (c' : Thread nD τ) ↦[(accM.slice (Rect.unit (s := S512x1024) (k0_off15 c 16#32 0#32) S16x1024.size (k0_off15_inb c 1)) (fun _ => rfl)).view.set]{fullShare} f) : sProp 𝕄)
      = (accL c' ↦[rowSet 512 (srcRow 11 c) 16]{fullShare} f) := by
  rw [src_set_11 c]
omit [FloatOps F] in
theorem dst_pts_12 (c c' : Dev nD) (f : Buf (Elt F) (accL c')) :
    (((accM.slice (Rect.unit (s := S512x1024) (k0_off19 c) S64x1024.size (k0_off19_inb c)) (fun _ => rfl)).view.loc (c' : Thread nD τ) ↦[(accM.slice (Rect.unit (s := S512x1024) (k0_off19 c) S64x1024.size (k0_off19_inb c)) (fun _ => rfl)).view.set]{fullShare} f) : sProp 𝕄)
      = (accL c' ↦[rowSet 512 (srcRow 12 c) 64]{fullShare} f) := by
  rw [src_set_12 c]
omit [FloatOps F] in
theorem dst_pts_13 (c c' : Dev nD) (f : Buf (Elt F) (accL c')) :
    (((accM.slice (Rect.unit (s := S512x1024) (k0_off20 c) S32x1024.size (k0_off20_inb c)) (fun _ => rfl)).view.loc (c' : Thread nD τ) ↦[(accM.slice (Rect.unit (s := S512x1024) (k0_off20 c) S32x1024.size (k0_off20_inb c)) (fun _ => rfl)).view.set]{fullShare} f) : sProp 𝕄)
      = (accL c' ↦[rowSet 512 (srcRow 13 c) 32]{fullShare} f) := by
  rw [src_set_13 c]
omit [FloatOps F] in
theorem dst_pts_14 (c c' : Dev nD) (f : Buf (Elt F) (accL c')) :
    (((accM.slice (Rect.unit (s := S512x1024) (k0_off21 c) S32x1024.size (k0_off21_inb c)) (fun _ => rfl)).view.loc (c' : Thread nD τ) ↦[(accM.slice (Rect.unit (s := S512x1024) (k0_off21 c) S32x1024.size (k0_off21_inb c)) (fun _ => rfl)).view.set]{fullShare} f) : sProp 𝕄)
      = (accL c' ↦[rowSet 512 (srcRow 14 c) 32]{fullShare} f) := by
  rw [src_set_14 c]
omit [FloatOps F] in
theorem dst_pts_15 (c c' : Dev nD) (f : Buf (Elt F) (accL c')) :
    (((accM.slice (Rect.unit (s := S512x1024) (k0_off22 c) S128x1024.size (k0_off22_inb c)) (fun _ => rfl)).view.loc (c' : Thread nD τ) ↦[(accM.slice (Rect.unit (s := S512x1024) (k0_off22 c) S128x1024.size (k0_off22_inb c)) (fun _ => rfl)).view.set]{fullShare} f) : sProp 𝕄)
      = (accL c' ↦[rowSet 512 (srcRow 15 c) 128]{fullShare} f) := by
  rw [src_set_15 c]
omit [FloatOps F] in
theorem dst_pts_16 (c c' : Dev nD) (f : Buf (Elt F) (accL c')) :
    (((accM.slice (Rect.unit (s := S512x1024) (k0_off23 c) S64x1024.size (k0_off23_inb c)) (fun _ => rfl)).view.loc (c' : Thread nD τ) ↦[(accM.slice (Rect.unit (s := S512x1024) (k0_off23 c) S64x1024.size (k0_off23_inb c)) (fun _ => rfl)).view.set]{fullShare} f) : sProp 𝕄)
      = (accL c' ↦[rowSet 512 (srcRow 16 c) 64]{fullShare} f) := by
  rw [src_set_16 c]
omit [FloatOps F] in
theorem dst_pts_17 (c c' : Dev nD) (f : Buf (Elt F) (accL c')) :
    (((accM.slice (Rect.unit (s := S512x1024) (k0_off24 c) S64x1024.size (k0_off24_inb c)) (fun _ => rfl)).view.loc (c' : Thread nD τ) ↦[(accM.slice (Rect.unit (s := S512x1024) (k0_off24 c) S64x1024.size (k0_off24_inb c)) (fun _ => rfl)).view.set]{fullShare} f) : sProp 𝕄)
      = (accL c' ↦[rowSet 512 (srcRow 17 c) 64]{fullShare} f) := by
  rw [src_set_17 c]

/-! ## Joining -/

theorem rowSet_union_halves {N lo r s k : ℕ} (h : (s = lo ∧ k = lo + r) ∨ (s = lo + r ∧ k = lo)) :
    rowSet N s r ∪ rowSet N k r = rowSet N lo (2 * r) := by
  ext x; rw [Finset.mem_union, mem_rowSet, mem_rowSet, mem_rowSet]
  rcases h with ⟨rfl, rfl⟩ | ⟨rfl, rfl⟩ <;> omega

omit [FloatOps F] in
/-- Two runs that are the two halves of a run, held at two contents, are the run held at the content that covers each row. -/
theorem acc_join (c : Dev nD) (f g : Buf (Elt F) (accL c)) {lo r s k : ℕ} (h : (s = lo ∧ k = lo + r) ∨ (s = lo + r ∧ k = lo)) :
    iprop((accL c ↦[rowSet 512 s r]{fullShare} f) ∗ accL c ↦[rowSet 512 k r]{fullShare} g)
      ⊢ (accL c ↦[rowSet 512 lo (2 * r)]{fullShare} ((rowSet 512 k r).piecewise g f) : sProp 𝕄) := by
  have hd : Disjoint (rowSet 512 s r) (rowSet 512 k r) := rowSet_disjoint (by rcases h with ⟨rfl, rfl⟩ | ⟨rfl, rfl⟩ <;> omega)
  have hj := pointsTo_join (Ix := Unit) (Val := Elt F) (Name := ℕ) (U := UU) (Lvl := ℕ) (ℓ := accL c) (q := fullShare) (f := f) (g := g) hd
  rwa [rowSet_union_halves h] at hj

end Cert.Kernel.Coll

end
-- ==== Proof.Kernel.BodyEnd.lean ====
/-
  The end of a device's body: what it holds is put back together.

  CELLS. After its one wait a copy's send or receive cell stands one round on, where no round has a duty any more: its owner
  closes it and keeps the counter, at zero. All thirty-six at once.
  LANDING BUFFERS. A landing buffer's three slots are runs of rows that make up the buffer: held at any three contents they
  are the buffer whole at some contents.
  ACCUMULATOR. The three parts make up the accumulator. Contents that read alike through a view agree on the view's
  elements; so parts that each read as one contents `X` reads are the accumulator whole at `X`.
-/
import proofs.«900423_g7700000000000424_dist_attn_self_mha_htp_b1_sq512_skv512_d1024_hq8_dh128_v7x_i8_f32_1_alg».proof.Proof.Kernel.Halves

noncomputable section

namespace Cert.Kernel.Coll

open Cert.Kernel Cert.Kernel.Gen Cert.Kernel.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Closing the copies' cells -/

section Close
variable (P : Dev nD → AccC F)

/-- A send cell one round on closes: its counter, at zero, is its owner's again. -/
theorem close_send (c : Dev nD) (i : Fin 18) {κ : ℕ} :
    iprop(cellInv ER (rd P) κ (sendCell i c) ∗ atPos ER (sendCell i c) 1 ∅ 0) ⊢ (iprop(|={Set.univ}=> semVal (sendCell i c) 0) : sProp 𝕄) :=
  Rounds.cell_close ER (rd P) (Set.mem_univ κ) (fun h => h) (R := 1) (duties_later P (sendCell i c))

/-- A receive cell likewise. -/
theorem close_recv (c : Dev nD) (i : Fin 18) {κ : ℕ} :
    iprop(cellInv ER (rd P) κ (recvCell i c) ∗ atPos ER (recvCell i c) 1 ∅ 0) ⊢ (iprop(|={Set.univ}=> semVal (recvCell i c) 0) : sProp 𝕄) :=
  Rounds.cell_close ER (rd P) (Set.mem_univ κ) (fun h => h) (R := 1) (duties_later P (recvCell i c))

/-- All thirty-six: from every cell's invariant and the thirty-six positions, the thirty-six counters at zero. -/
theorem close_all (K : Dev nD × CK → ℕ) (c : Dev nD) :
    iprop((bigSep Finset.univ fun ck : Dev nD × CK => (cellInv ER (rd P) (K ck) (kcell ck) : sProp 𝕄))
        ∗ bigSep Finset.univ fun i : Fin 18 => iprop(atPos ER (sendCell i c) 1 ∅ 0 ∗ atPos ER (recvCell i c) 1 ∅ 0))
      ⊢ (iprop(|={Set.univ}=> bigSep Finset.univ fun i : Fin 18 => iprop(semVal (sendCell i c) 0 ∗ semVal (recvCell i c) 0)) : sProp 𝕄) := by
  refine (bigSep_with_persistent (R := bigSep Finset.univ fun ck : Dev nD × CK => (cellInv ER (rd P) (K ck) (kcell ck) : sProp 𝕄))
    (Ψ := fun i : Fin 18 => iprop(|={Set.univ}=> iprop(semVal (sendCell i c) 0 ∗ semVal (recvCell i c) 0))) fun i _ => ?_).trans (bigSep_fupd _ _)
  iintro ⟨#HI, HaS, HaR⟩
  imod (close_send P c i (κ := K (c, ckSend i))) $$ [HaS] with HzS
  · isplitr; · iapply (inv_send P K i c); iexact HI
    iexact HaS
  imod (close_recv P c i (κ := K (c, ckRecv i))) $$ [HaR] with HzR
  · isplitr; · iapply (inv_recv P K i c); iexact HI
    iexact HaR
  imodintro
  isplitl [HzS] <;> iassumption

/-- The same from the thirty-six positions written out, copy by copy. -/
theorem close_all_chain (K : Dev nD × CK → ℕ) (c : Dev nD) :
    iprop((bigSep Finset.univ fun ck : Dev nD × CK => (cellInv ER (rd P) (K ck) (kcell ck) : sProp 𝕄))
        ∗ ((atPos ER (sendCell 0 c) 1 ∅ 0 ∗ atPos ER (recvCell 0 c) 1 ∅ 0)
          ∗ (atPos ER (sendCell 1 c) 1 ∅ 0 ∗ atPos ER (recvCell 1 c) 1 ∅ 0)
          ∗ (atPos ER (sendCell 2 c) 1 ∅ 0 ∗ atPos ER (recvCell 2 c) 1 ∅ 0)
          ∗ (atPos ER (sendCell 3 c) 1 ∅ 0 ∗ atPos ER (recvCell 3 c) 1 ∅ 0)
          ∗ (atPos ER (sendCell 4 c) 1 ∅ 0 ∗ atPos ER (recvCell 4 c) 1 ∅ 0)
          ∗ (atPos ER (sendCell 5 c) 1 ∅ 0 ∗ atPos ER (recvCell 5 c) 1 ∅ 0)
          ∗ (atPos ER (sendCell 6 c) 1 ∅ 0 ∗ atPos ER (recvCell 6 c) 1 ∅ 0)
          ∗ (atPos ER (sendCell 7 c) 1 ∅ 0 ∗ atPos ER (recvCell 7 c) 1 ∅ 0)
          ∗ (atPos ER (sendCell 8 c) 1 ∅ 0 ∗ atPos ER (recvCell 8 c) 1 ∅ 0)
          ∗ (atPos ER (sendCell 9 c) 1 ∅ 0 ∗ atPos ER (recvCell 9 c) 1 ∅ 0)
          ∗ (atPos ER (sendCell 10 c) 1 ∅ 0 ∗ atPos ER (recvCell 10 c) 1 ∅ 0)
          ∗ (atPos ER (sendCell 11 c) 1 ∅ 0 ∗ atPos ER (recvCell 11 c) 1 ∅ 0)
          ∗ (atPos ER (sendCell 12 c) 1 ∅ 0 ∗ atPos ER (recvCell 12 c) 1 ∅ 0)
          ∗ (atPos ER (sendCell 13 c) 1 ∅ 0 ∗ atPos ER (recvCell 13 c) 1 ∅ 0)
          ∗ (atPos ER (sendCell 14 c) 1 ∅ 0 ∗ atPos ER (recvCell 14 c) 1 ∅ 0)
          ∗ (atPos ER (sendCell 15 c) 1 ∅ 0 ∗ atPos ER (recvCell 15 c) 1 ∅ 0)
          ∗ (atPos ER (sendCell 16 c) 1 ∅ 0 ∗ atPos ER (recvCell 16 c) 1 ∅ 0)
          ∗ (atPos ER (sendCell 17 c) 1 ∅ 0 ∗ atPos ER (recvCell 17 c) 1 ∅ 0)))
      ⊢ (iprop(|={Set.univ}=> bigSep Finset.univ fun i : Fin 18 => iprop(semVal (sendCell i c) 0 ∗ semVal (recvCell i c) 0)) : sProp 𝕄) :=
  (sep_mono_right (Entails.of_eq (bigSep_fin18 (fun i : Fin 18 => (iprop(atPos ER (sendCell i c) 1 ∅ 0 ∗ atPos ER (recvCell i c) 1 ∅ 0) : sProp 𝕄))).symm)).trans
    (close_all P K c)

end Close

/-! ## The landing buffers back whole -/

/-- Two runs, the second starting where the first ends, are one run. -/
theorem rows_union {N r n r' n' m : ℕ} (h : r' = r + n) (hm : m = n + n') : rowSet N r n ∪ rowSet N r' n' = rowSet N r m := by
  subst h; subst hm
  ext x; rw [Finset.mem_union, mem_rowSet, mem_rowSet, mem_rowSet]; omega

omit [FloatOps F] in
/-- The three slots of landing buffer 0, at any three contents, are the buffer whole at some contents. -/
theorem comm0_whole (c : Dev nD) (f0 f1 f2 : Buf (Elt F) (comm0L c)) :
    iprop((comm0L c ↦[rowSet 256 0 128]{fullShare} f0) ∗ (comm0L c ↦[rowSet 256 128 64]{fullShare} f1) ∗ comm0L c ↦[rowSet 256 192 64]{fullShare} f2)
      ⊢ (iprop(∃ f, comm0L c ↦{fullShare} f) : sProp 𝕄) := by
  have h12 := pointsTo_join (Ix := Unit) (Val := Elt F) (Name := ℕ) (U := UU) (Lvl := ℕ) (ℓ := comm0L c) (q := fullShare) (f := f1) (g := f2)
    (rowSet_disjoint (N := 256) (r := 128) (n := 64) (r' := 192) (n' := 64) (Or.inl (by omega)))
  rw [rows_union (N := 256) (r := 128) (n := 64) (r' := 192) (n' := 64) (m := 128) (by omega) (by omega)] at h12
  have h012 := pointsTo_join (Ix := Unit) (Val := Elt F) (Name := ℕ) (U := UU) (Lvl := ℕ) (ℓ := comm0L c) (q := fullShare) (f := f0)
    (g := (rowSet 256 192 64).piecewise f2 f1)
    (rowSet_disjoint (N := 256) (r := 0) (n := 128) (r' := 128) (n' := 128) (Or.inl (by omega)))
  rw [rows_union (N := 256) (r := 0) (n := 128) (r' := 128) (n' := 128) (m := 256) (by omega) (by omega), rowSet_univ] at h012
  iintro ⟨H0, H1, H2⟩
  ihave H12 := h12 $$ [H1 H2]
  · isplitl [H1] <;> iassumption
  ihave H := h012 $$ [H0 H12]
  · isplitl [H0] <;> iassumption
  iexists _
  iexact H

omit [FloatOps F] in
/-- The same with the slots held through their views, -/
theorem comm0_back_view (c : Dev nD) (f0 f1 f2 : Buf (Elt F) (comm0L c)) :
    iprop(((comm0M.slice (Rect.unit (s := S256x1024) ![0, 0] S128x1024.size inb_S256x1024_S128x1024_0_0) (fun _ => rfl)).view.loc (c : Thread nD τ) ↦[(comm0M.slice (Rect.unit (s := S256x1024) ![0, 0] S128x1024.size inb_S256x1024_S128x1024_0_0) (fun _ => rfl)).view.set]{fullShare} f0) ∗ ((comm0M.slice (Rect.unit (s := S256x1024) ![128, 0] S64x1024.size inb_S256x1024_S64x1024_128_0) (fun _ => rfl)).view.loc (c : Thread nD τ) ↦[(comm0M.slice (Rect.unit (s := S256x1024) ![128, 0] S64x1024.size inb_S256x1024_S64x1024_128_0) (fun _ => rfl)).view.set]{fullShare} f1) ∗ ((comm0M.slice (Rect.unit (s := S256x1024) ![192, 0] S64x1024.size inb_S256x1024_S64x1024_192_0) (fun _ => rfl)).view.loc (c : Thread nD τ) ↦[(comm0M.slice (Rect.unit (s := S256x1024) ![192, 0] S64x1024.size inb_S256x1024_S64x1024_192_0) (fun _ => rfl)).view.set]{fullShare} f2))
      ⊢ (iprop(∃ f, comm0L c ↦{fullShare} f) : sProp 𝕄) := by
  rw [slot_set_0, slot_set_1, slot_set_2]
  exact comm0_whole c f0 f1 f2

omit [FloatOps F] in
/-- and as the landing places of the copies 0, 1, 2, whoever made them. -/
theorem comm0_back (c n0 n1 n2 : Dev nD) (f0 f1 f2 : Buf (Elt F) (comm0L c)) :
    iprop(dstPts 0 n0 c f0 ∗ dstPts 1 n1 c f1 ∗ dstPts 2 n2 c f2) ⊢ (iprop(∃ f, comm0L c ↦{fullShare} f) : sProp 𝕄) :=
  comm0_back_view c f0 f1 f2

omit [FloatOps F] in
/-- The three slots of landing buffer 1, at any three contents, are the buffer whole at some contents. -/
theorem comm1_whole (c : Dev nD) (f0 f1 f2 : Buf (Elt F) (comm1L c)) :
    iprop((comm1L c ↦[rowSet 128 0 64]{fullShare} f0) ∗ (comm1L c ↦[rowSet 128 64 32]{fullShare} f1) ∗ comm1L c ↦[rowSet 128 96 32]{fullShare} f2)
      ⊢ (iprop(∃ f, comm1L c ↦{fullShare} f) : sProp 𝕄) := by
  have h12 := pointsTo_join (Ix := Unit) (Val := Elt F) (Name := ℕ) (U := UU) (Lvl := ℕ) (ℓ := comm1L c) (q := fullShare) (f := f1) (g := f2)
    (rowSet_disjoint (N := 128) (r := 64) (n := 32) (r' := 96) (n' := 32) (Or.inl (by omega)))
  rw [rows_union (N := 128) (r := 64) (n := 32) (r' := 96) (n' := 32) (m := 64) (by omega) (by omega)] at h12
  have h012 := pointsTo_join (Ix := Unit) (Val := Elt F) (Name := ℕ) (U := UU) (Lvl := ℕ) (ℓ := comm1L c) (q := fullShare) (f := f0)
    (g := (rowSet 128 96 32).piecewise f2 f1)
    (rowSet_disjoint (N := 128) (r := 0) (n := 64) (r' := 64) (n' := 64) (Or.inl (by omega)))
  rw [rows_union (N := 128) (r := 0) (n := 64) (r' := 64) (n' := 64) (m := 128) (by omega) (by omega), rowSet_univ] at h012
  iintro ⟨H0, H1, H2⟩
  ihave H12 := h12 $$ [H1 H2]
  · isplitl [H1] <;> iassumption
  ihave H := h012 $$ [H0 H12]
  · isplitl [H0] <;> iassumption
  iexists _
  iexact H

omit [FloatOps F] in
/-- The same with the slots held through their views, -/
theorem comm1_back_view (c : Dev nD) (f0 f1 f2 : Buf (Elt F) (comm1L c)) :
    iprop(((comm1M.slice (Rect.unit (s := S128x1024) ![0, 0] S64x1024.size inb_S128x1024_S64x1024_0_0) (fun _ => rfl)).view.loc (c : Thread nD τ) ↦[(comm1M.slice (Rect.unit (s := S128x1024) ![0, 0] S64x1024.size inb_S128x1024_S64x1024_0_0) (fun _ => rfl)).view.set]{fullShare} f0) ∗ ((comm1M.slice (Rect.unit (s := S128x1024) ![64, 0] S32x1024.size inb_S128x1024_S32x1024_64_0) (fun _ => rfl)).view.loc (c : Thread nD τ) ↦[(comm1M.slice (Rect.unit (s := S128x1024) ![64, 0] S32x1024.size inb_S128x1024_S32x1024_64_0) (fun _ => rfl)).view.set]{fullShare} f1) ∗ ((comm1M.slice (Rect.unit (s := S128x1024) ![96, 0] S32x1024.size inb_S128x1024_S32x1024_96_0) (fun _ => rfl)).view.loc (c : Thread nD τ) ↦[(comm1M.slice (Rect.unit (s := S128x1024) ![96, 0] S32x1024.size inb_S128x1024_S32x1024_96_0) (fun _ => rfl)).view.set]{fullShare} f2))
      ⊢ (iprop(∃ f, comm1L c ↦{fullShare} f) : sProp 𝕄) := by
  rw [slot_set_3, slot_set_4, slot_set_5]
  exact comm1_whole c f0 f1 f2

omit [FloatOps F] in
/-- and as the landing places of the copies 3, 4, 5, whoever made them. -/
theorem comm1_back (c n0 n1 n2 : Dev nD) (f0 f1 f2 : Buf (Elt F) (comm1L c)) :
    iprop(dstPts 3 n0 c f0 ∗ dstPts 4 n1 c f1 ∗ dstPts 5 n2 c f2) ⊢ (iprop(∃ f, comm1L c ↦{fullShare} f) : sProp 𝕄) :=
  comm1_back_view c f0 f1 f2

omit [FloatOps F] in
/-- The three slots of landing buffer 2, at any three contents, are the buffer whole at some contents. -/
theorem comm2_whole (c : Dev nD) (f0 f1 f2 : Buf (Elt F) (comm2L c)) :
    iprop((comm2L c ↦[rowSet 64 0 32]{fullShare} f0) ∗ (comm2L c ↦[rowSet 64 32 16]{fullShare} f1) ∗ comm2L c ↦[rowSet 64 48 16]{fullShare} f2)
      ⊢ (iprop(∃ f, comm2L c ↦{fullShare} f) : sProp 𝕄) := by
  have h12 := pointsTo_join (Ix := Unit) (Val := Elt F) (Name := ℕ) (U := UU) (Lvl := ℕ) (ℓ := comm2L c) (q := fullShare) (f := f1) (g := f2)
    (rowSet_disjoint (N := 64) (r := 32) (n := 16) (r' := 48) (n' := 16) (Or.inl (by omega)))
  rw [rows_union (N := 64) (r := 32) (n := 16) (r' := 48) (n' := 16) (m := 32) (by omega) (by omega)] at h12
  have h012 := pointsTo_join (Ix := Unit) (Val := Elt F) (Name := ℕ) (U := UU) (Lvl := ℕ) (ℓ := comm2L c) (q := fullShare) (f := f0)
    (g := (rowSet 64 48 16).piecewise f2 f1)
    (rowSet_disjoint (N := 64) (r := 0) (n := 32) (r' := 32) (n' := 32) (Or.inl (by omega)))
  rw [rows_union (N := 64) (r := 0) (n := 32) (r' := 32) (n' := 32) (m := 64) (by omega) (by omega), rowSet_univ] at h012
  iintro ⟨H0, H1, H2⟩
  ihave H12 := h12 $$ [H1 H2]
  · isplitl [H1] <;> iassumption
  ihave H := h012 $$ [H0 H12]
  · isplitl [H0] <;> iassumption
  iexists _
  iexact H

omit [FloatOps F] in
/-- The same with the slots held through their views, -/
theorem comm2_back_view (c : Dev nD) (f0 f1 f2 : Buf (Elt F) (comm2L c)) :
    iprop(((comm2M.slice (Rect.unit (s := S64x1024) ![0, 0] S32x1024.size inb_S64x1024_S32x1024_0_0) (fun _ => rfl)).view.loc (c : Thread nD τ) ↦[(comm2M.slice (Rect.unit (s := S64x1024) ![0, 0] S32x1024.size inb_S64x1024_S32x1024_0_0) (fun _ => rfl)).view.set]{fullShare} f0) ∗ ((comm2M.slice (Rect.unit (s := S64x1024) ![32, 0] S16x1024.size inb_S64x1024_S16x1024_32_0) (fun _ => rfl)).view.loc (c : Thread nD τ) ↦[(comm2M.slice (Rect.unit (s := S64x1024) ![32, 0] S16x1024.size inb_S64x1024_S16x1024_32_0) (fun _ => rfl)).view.set]{fullShare} f1) ∗ ((comm2M.slice (Rect.unit (s := S64x1024) ![48, 0] S16x1024.size inb_S64x1024_S16x1024_48_0) (fun _ => rfl)).view.loc (c : Thread nD τ) ↦[(comm2M.slice (Rect.unit (s := S64x1024) ![48, 0] S16x1024.size inb_S64x1024_S16x1024_48_0) (fun _ => rfl)).view.set]{fullShare} f2))
      ⊢ (iprop(∃ f, comm2L c ↦{fullShare} f) : sProp 𝕄) := by
  rw [slot_set_6, slot_set_7, slot_set_8]
  exact comm2_whole c f0 f1 f2

omit [FloatOps F] in
/-- and as the landing places of the copies 6, 7, 8, whoever made them. -/
theorem comm2_back (c n0 n1 n2 : Dev nD) (f0 f1 f2 : Buf (Elt F) (comm2L c)) :
    iprop(dstPts 6 n0 c f0 ∗ dstPts 7 n1 c f1 ∗ dstPts 8 n2 c f2) ⊢ (iprop(∃ f, comm2L c ↦{fullShare} f) : sProp 𝕄) :=
  comm2_back_view c f0 f1 f2

/-! ## The accumulator back whole, with its value -/

/-- Equal after the same cast, equal before. -/
theorem cast_cancel {α β : Type} (h : α = β) {a b : α} (e : cast h a = cast h b) : a = b := by subst h; exact e

omit [FloatOps F] in
/-- Contents that read alike through a view agree on the view's elements. -/
theorem eq_on_set_of_read {s : Shape} {e : EltTy} (v : View sig .tc .vmem s e) (f g : v.ty.Contents (Elt F))
    (h : v.read (Elt F) f = v.read (Elt F) g) : ∀ i ∈ v.set, f i = g i := by
  intro i hi
  obtain ⟨y, rfl⟩ := View.exists_emb_of_mem_set v hi
  have hy := congrFun h y
  rw [View.read_apply, View.read_apply] at hy
  exact cast_cancel _ hy

/-- The three parts, each reading as `X` reads, are the accumulator whole at `X`. -/
theorem acc_back (c : Dev nD) (X : AccC F) (f0 f1 f2 : Buf (Elt F) (accL c))
    (h0 : (accM.slice (Rect.unit (s := S512x1024) ![0, 0] S256x1024.size inb_S512x1024_S256x1024_0_0) (fun _ => rfl)).view.read (Elt F) f0 = (accM.slice (Rect.unit (s := S512x1024) ![0, 0] S256x1024.size inb_S512x1024_S256x1024_0_0) (fun _ => rfl)).view.read (Elt F) X)
    (h1 : (accM.slice (Rect.unit (s := S512x1024) ![256, 0] S128x1024.size inb_S512x1024_S128x1024_256_0) (fun _ => rfl)).view.read (Elt F) f1 = (accM.slice (Rect.unit (s := S512x1024) ![256, 0] S128x1024.size inb_S512x1024_S128x1024_256_0) (fun _ => rfl)).view.read (Elt F) X)
    (h2 : (accM.slice (Rect.unit (s := S512x1024) ![384, 0] S128x1024.size inb_S512x1024_S128x1024_384_0) (fun _ => rfl)).view.read (Elt F) f2 = (accM.slice (Rect.unit (s := S512x1024) ![384, 0] S128x1024.size inb_S512x1024_S128x1024_384_0) (fun _ => rfl)).view.read (Elt F) X) :
    iprop(((accM.slice (Rect.unit (s := S512x1024) ![0, 0] S256x1024.size inb_S512x1024_S256x1024_0_0) (fun _ => rfl)).view.loc (c : Thread nD τ) ↦[(accM.slice (Rect.unit (s := S512x1024) ![0, 0] S256x1024.size inb_S512x1024_S256x1024_0_0) (fun _ => rfl)).view.set]{fullShare} f0) ∗ ((accM.slice (Rect.unit (s := S512x1024) ![256, 0] S128x1024.size inb_S512x1024_S128x1024_256_0) (fun _ => rfl)).view.loc (c : Thread nD τ) ↦[(accM.slice (Rect.unit (s := S512x1024) ![256, 0] S128x1024.size inb_S512x1024_S128x1024_256_0) (fun _ => rfl)).view.set]{fullShare} f1) ∗ ((accM.slice (Rect.unit (s := S512x1024) ![384, 0] S128x1024.size inb_S512x1024_S128x1024_384_0) (fun _ => rfl)).view.loc (c : Thread nD τ) ↦[(accM.slice (Rect.unit (s := S512x1024) ![384, 0] S128x1024.size inb_S512x1024_S128x1024_384_0) (fun _ => rfl)).view.set]{fullShare} f2))
      ⊢ (iprop(∃ f, ⌜f = X⌝ ∗ (accL c ↦{fullShare} f)) : sProp 𝕄) := by
  have e0 := eq_on_set_of_read (F := F) (accM.slice (Rect.unit (s := S512x1024) ![0, 0] S256x1024.size inb_S512x1024_S256x1024_0_0) (fun _ => rfl)).view f0 X h0
  have e1 := eq_on_set_of_read (F := F) (accM.slice (Rect.unit (s := S512x1024) ![256, 0] S128x1024.size inb_S512x1024_S128x1024_256_0) (fun _ => rfl)).view f1 X h1
  have e2 := eq_on_set_of_read (F := F) (accM.slice (Rect.unit (s := S512x1024) ![384, 0] S128x1024.size inb_S512x1024_S128x1024_384_0) (fun _ => rfl)).view f2 X h2
  iintro ⟨H0, H1, H2⟩
  iexists X
  isplitr; · ipureintro; rfl
  iapply (acc_parts (F := F) c X).2
  isplitl [H0]; · iapply (Entails.of_eq (pointsTo_congr e0)); iexact H0
  isplitl [H1]; · iapply (Entails.of_eq (pointsTo_congr e1)); iexact H1
  iapply (Entails.of_eq (pointsTo_congr e2)); iexact H2

/-- info: 'Cert.Kernel.Coll.close_all_chain' depends on axioms: [propext, Classical.choice, Quot.sound] -/
#guard_msgs in #print axioms close_all_chain

/-- info: 'Cert.Kernel.Coll.comm0_back' depends on axioms: [propext, Classical.choice, Quot.sound] -/
#guard_msgs in #print axioms comm0_back

/-- info: 'Cert.Kernel.Coll.acc_back' depends on axioms: [propext, Classical.choice, Quot.sound] -/
#guard_msgs in #print axioms acc_back

end Cert.Kernel.Coll

end
-- ==== Proof.Kernel.BodyOut.lean ====
/-
  Two facts for the end of a device's body.

  The result's staging buffer: a store of the whole block over anything leaves the block, and a load of the whole accumulator
  reads it; so the staging buffer ends holding the accumulator's contents, widened — the contents the proof data names.
  The staged inputs: every input window is fetched at the one point and its block is the whole array, so what the body finds in
  an input's staging buffer is the array's contents as launched.
-/
import proofs.«900423_g7700000000000424_dist_attn_self_mha_htp_b1_sq512_skv512_d1024_hq8_dh128_v7x_i8_f32_1_alg».proof.Proof.Kernel.Inv
import proofs.«900423_g7700000000000424_dist_attn_self_mha_htp_b1_sq512_skv512_d1024_hq8_dh128_v7x_i8_f32_1_alg».proof.Proof.Gen.Kernel.Frame

noncomputable section

namespace Cert.Kernel.Coll

open Cert.Kernel Cert.Kernel.Gen Cert.Kernel.Mesh

open Idealize.ShloMosaic
open Idealize.ShloMosaic.TcCoe
open Idealize.SL Idealize.SL.Sem
open Idealize.ShloMosaic.Pipeline (Dat Cfg Window BodyObligation cellOf)

variable {F : FTy → Type} [FloatOps F]

/-! ## The result's staging buffer -/

omit [FloatOps F] in
theorem zeros2 : (![0, 0] : Fin 2 → Nat) = fun _ => 0 := funext fun a => by fin_cases a <;> rfl
omit [FloatOps F] in
theorem zeros3 : (![0, 0, 0] : Fin 3 → Nat) = fun _ => 0 := funext fun a => by fin_cases a <;> rfl

/-- The whole accumulator loaded, widened, and stored whole over any contents of the staging buffer: the accumulator's
    contents widened. -/
theorem out_content (c : Dev nD) (g5 : Buf (Elt F) ((c : Thread nD τ).loc cc0_stg5_0)) (X : AccC F) :
    (Memref.whole cc0_stg5_0).view.writes (Elt F) g5
        [⟨Rect.unit ![0, 0, 0] S1x512x1024.size inb_S1x512x1024_S1x512x1024_0_0_0,
          k0_pay1 ((Memref.whole cc0_scratch0).view.readAt (Elt F) (Rect.unit ![0, 0] S512x1024.size inb_S512x1024_S512x1024_0_0).toLoadRect X)⟩]
      = k0_pay1 X := by
  have h : (Memref.whole cc0_scratch0).view.readAt (Elt F) (Rect.unit ![0, 0] S512x1024.size inb_S512x1024_S512x1024_0_0).toLoadRect X = X :=
    Memref.readAt_unit_zero (Elt F) cc0_scratch0 zeros2 _ X
  rw [h]
  exact (View.writes_singleton _ _ _ _).trans (Memref.write_access_unit_zero_univ (Elt F) cc0_stg5_0 zeros3 _ g5 _)

/-- With the final accumulator: the contents the proof data names for the result window. -/
theorem out_content_outAt (P : Dev nD → AccC F) (c : Dev nD) (g5 : Buf (Elt F) ((c : Thread nD τ).loc cc0_stg5_0)) :
    (Memref.whole cc0_stg5_0).view.writes (Elt F) g5
        [⟨Rect.unit ![0, 0, 0] S1x512x1024.size inb_S1x512x1024_S1x512x1024_0_0_0,
          k0_pay1 ((Memref.whole cc0_scratch0).view.readAt (Elt F) (Rect.unit ![0, 0] S512x1024.size inb_S512x1024_S512x1024_0_0).toLoadRect (A P 3 c))⟩]
      = outAt P c :=
  out_content c g5 (A P 3 c)

/-! ## The staged inputs -/

section Before
variable (m : Mem F) (ρ : Dev nD → PrngReg) (P : Dev nD → AccC F) (c : Dev nD)

theorem before_0 (d) : (dats m ρ P 0 c).before (0 : Fin 6) t0_0 d = iblk m c (0 : Fin 6) t0_0 := by
  unfold Dat.before; rw [if_pos (fetch0_0 t0_0)]; rfl
theorem before_1 (d) : (dats m ρ P 0 c).before (1 : Fin 6) t0_0 d = iblk m c (1 : Fin 6) t0_0 := by
  unfold Dat.before; rw [if_pos (fetch0_1 t0_0)]; rfl
theorem before_2 (d) : (dats m ρ P 0 c).before (2 : Fin 6) t0_0 d = iblk m c (2 : Fin 6) t0_0 := by
  unfold Dat.before; rw [if_pos (fetch0_2 t0_0)]; rfl
theorem before_3 (d) : (dats m ρ P 0 c).before (3 : Fin 6) t0_0 d = iblk m c (3 : Fin 6) t0_0 := by
  unfold Dat.before; rw [if_pos (fetch0_3 t0_0)]; rfl
theorem before_4 (d) : (dats m ρ P 0 c).before (4 : Fin 6) t0_0 d = iblk m c (4 : Fin 6) t0_0 := by
  unfold Dat.before; rw [if_pos (fetch0_4 t0_0)]; rfl

end Before

/-- info: 'Cert.Kernel.Coll.out_content' depends on axioms: [propext, Classical.choice, Quot.sound] -/
#guard_msgs in #print axioms out_content

/-- info: 'Cert.Kernel.Coll.before_4' depends on axioms: [propext, Classical.choice, Quot.sound] -/
#guard_msgs in #print axioms before_4

end Cert.Kernel.Coll

end
-- ==== Proof.Kernel.ValueSteps.lean ====
/-
  The values the protocol's steps hand on, as equations between runs of rows of accumulator contents.

  A run's reading of the accumulator is determined by any larger run's. The three stores leave the device's own product
  on their parts. A reduce-scatter phase adds, on the rows a device keeps, the partner's entries of the same rows — which
  are the rows the partner sends —, and that is the next phase's accumulator there, because all the kept rows lie in one
  part and so use one pairing. An all-gather phase leaves the rows a device held as they were and fills the rows it
  receives — the rows it sent in the matching reduce-scatter phase — with the partner's entries.
-/
import proofs.«900423_g7700000000000424_dist_attn_self_mha_htp_b1_sq512_skv512_d1024_hq8_dh128_v7x_i8_f32_1_alg».proof.Proof.Kernel.Rows
import proofs.«900423_g7700000000000424_dist_attn_self_mha_htp_b1_sq512_skv512_d1024_hq8_dh128_v7x_i8_f32_1_alg».proof.Proof.Kernel.PartialAt

noncomputable section

namespace Cert.Kernel.Coll

open Cert.Kernel Cert.Kernel.Gen Cert.Kernel.Mesh Idealize.ShloMosaic Idealize.ShloMosaic.ValueIdx

variable {F : FTy → Type} [FloatOps F]

/-! ## A sub-run's reading is determined by the run's -/

/-- If two contents read the same through a rectangle of a whole buffer, they read the same through any rectangle
    inside it. -/
theorem read_sub_of_read {Val : EltTy → Type} (b : Ref sig .tc) (r r' : Rect b.ty.shape) (hsub : r'.set ⊆ r.set)
    (f g : b.ty.Contents Val)
    (h : ((View.whole b).slice r).read Val f = ((View.whole b).slice r).read Val g) :
    ((View.whole b).slice r').read Val f = ((View.whole b).slice r').read Val g := by
  funext x'
  have hx : r'.emb x' ∈ r.set :=
    hsub (by rw [← Rect.map_emb_univ]; exact Finset.mem_map_of_mem _ (Finset.mem_univ x'))
  rw [← Rect.map_emb_univ] at hx
  obtain ⟨x, -, hxe⟩ := Finset.mem_map.mp hx
  have hfg : f (r.emb x) = g (r.emb x) := congrFun h x
  show f (r'.emb x') = g (r'.emb x')
  rw [← hxe]
  exact hfg

/-! ## Reading a run of the accumulator's rows -/

/-- A run of rows of the accumulator reads the contents at the run's elements. -/
theorem acc_read_apply (off : Fin 2 → ℕ) (n : ℕ) (inb : ∀ a, off a + (![n, 1024] : Fin 2 → ℕ) a ≤ S512x1024.size a)
    (X : AccC F) (y : (Sn n).Idx) :
    (accM.slice (Rect.unit (s := S512x1024) off ![n, 1024] inb) (fun _ => rfl)).view.read (Elt F) X y
      = X ((Rect.unit (s := S512x1024) off ![n, 1024] inb).emb y) := rfl

/-- Runs from the same first row have the same elements. -/
theorem emb_congr (off off' : Fin 2 → ℕ) (n : ℕ) (inb : ∀ a, off a + (![n, 1024] : Fin 2 → ℕ) a ≤ S512x1024.size a)
    (inb' : ∀ a, off' a + (![n, 1024] : Fin 2 → ℕ) a ≤ S512x1024.size a) (h : ∀ a, off a = off' a) (y : (Sn n).Idx) :
    (Rect.unit (s := S512x1024) off ![n, 1024] inb).emb y = (Rect.unit (s := S512x1024) off' ![n, 1024] inb').emb y :=
  funext fun a => Fin.ext (by rw [Rect.emb_apply, Rect.emb_apply]; show off a + 1 * _ = off' a + 1 * _; rw [h a])

/-- The row of an element of a run. -/
theorem emb_row (off : Fin 2 → ℕ) (n : ℕ) (inb : ∀ a, off a + (![n, 1024] : Fin 2 → ℕ) a ≤ S512x1024.size a) (y : (Sn n).Idx) :
    ((Rect.unit (s := S512x1024) off ![n, 1024] inb).emb y 0).val = off 0 + (y 0).val := by
  rw [Rect.emb_apply]; show off 0 + 1 * (y 0).val = _; rw [Nat.one_mul]

/-! ## The stores -/

section Stores
variable (x : Vec F S1x512x1024 .f32) (wq wk wv wo : Vec F S1024x1024 .f32)

/-- The product on the rows of the first part, -/
theorem Pof_row0 (j : S512x1024.Idx) (h : (j 0).val < 256) :
    Pof x wq wk wv wo j = stored0 x wq wk wv wo (ix2 (⟨(j 0).val, h⟩ : Fin 256) (⟨(j 1).val, (j 1).isLt⟩ : Fin 1024)) := by
  unfold Pof
  exact dif_pos h
/-- of the second, -/
theorem Pof_row1 (j : S512x1024.Idx) (h1 : ¬(j 0).val < 256) (h2 : (j 0).val < 384) :
    Pof x wq wk wv wo j
      = stored1 x wq wk wv wo (ix2 (⟨(j 0).val - 256, by omega⟩ : Fin 128) (⟨(j 1).val, (j 1).isLt⟩ : Fin 1024)) := by
  unfold Pof
  exact (dif_neg h1).trans (dif_pos h2)
/-- of the third. -/
theorem Pof_row2 (j : S512x1024.Idx) (h1 : ¬(j 0).val < 256) (h2 : ¬(j 0).val < 384) :
    Pof x wq wk wv wo j
      = stored2 x wq wk wv wo (ix2 (⟨(j 0).val - 384, by have := (j 0).isLt; have h512 : (j 0).val < 512 := (j 0).isLt; omega⟩ : Fin 128)
          (⟨(j 1).val, (j 1).isLt⟩ : Fin 1024)) := by
  unfold Pof
  exact (dif_neg h1).trans (dif_neg h2)

/-- The device's product reads, on each part, as that part's store. -/
theorem part_read_0 : (accM.slice (Rect.unit (s := S512x1024) ![0, 0] S256x1024.size inb_S512x1024_S256x1024_0_0) (fun _ => rfl)).view.read (Elt F) (Pof x wq wk wv wo) = stored0 x wq wk wv wo := by
  funext y
  have hy : (y 0).val < 256 := (y 0).isLt
  have hr := emb_row ![0, 0] 256 inb_S512x1024_S256x1024_0_0 y
  refine (acc_read_apply ![0, 0] 256 inb_S512x1024_S256x1024_0_0 _ y).trans ?_
  rw [Pof_row0 x wq wk wv wo _ (by rw [hr]; show 0 + (y 0).val < 256; omega)]
  refine congrArg (stored0 x wq wk wv wo) (funext fun a => Fin.ext ?_)
  match a with
  | ⟨0, _⟩ => show ((Rect.unit (s := S512x1024) ![0, 0] ![256, 1024] inb_S512x1024_S256x1024_0_0).emb y 0).val = (y 0).val
              rw [hr]; exact Nat.zero_add _
  | ⟨1, _⟩ => show ((Rect.unit (s := S512x1024) ![0, 0] ![256, 1024] inb_S512x1024_S256x1024_0_0).emb y 1).val = (y 1).val
              rw [Rect.emb_apply]; show 0 + 1 * (y 1).val = (y 1).val; omega
theorem part_read_1 : (accM.slice (Rect.unit (s := S512x1024) ![256, 0] S128x1024.size inb_S512x1024_S128x1024_256_0) (fun _ => rfl)).view.read (Elt F) (Pof x wq wk wv wo) = stored1 x wq wk wv wo := by
  funext y
  have hy : (y 0).val < 128 := (y 0).isLt
  have hr := emb_row ![256, 0] 128 inb_S512x1024_S128x1024_256_0 y
  refine (acc_read_apply ![256, 0] 128 inb_S512x1024_S128x1024_256_0 _ y).trans ?_
  rw [Pof_row1 x wq wk wv wo _ (by rw [hr]; show ¬256 + (y 0).val < 256; omega) (by rw [hr]; show 256 + (y 0).val < 384; omega)]
  refine congrArg (stored1 x wq wk wv wo) (funext fun a => Fin.ext ?_)
  match a with
  | ⟨0, _⟩ => show ((Rect.unit (s := S512x1024) ![256, 0] ![128, 1024] inb_S512x1024_S128x1024_256_0).emb y 0).val - 256 = (y 0).val
              rw [hr]; show 256 + (y 0).val - 256 = (y 0).val; omega
  | ⟨1, _⟩ => show ((Rect.unit (s := S512x1024) ![256, 0] ![128, 1024] inb_S512x1024_S128x1024_256_0).emb y 1).val = (y 1).val
              rw [Rect.emb_apply]; show 0 + 1 * (y 1).val = (y 1).val; omega
theorem part_read_2 : (accM.slice (Rect.unit (s := S512x1024) ![384, 0] S128x1024.size inb_S512x1024_S128x1024_384_0) (fun _ => rfl)).view.read (Elt F) (Pof x wq wk wv wo) = stored2 x wq wk wv wo := by
  funext y
  have hy : (y 0).val < 128 := (y 0).isLt
  have hr := emb_row ![384, 0] 128 inb_S512x1024_S128x1024_384_0 y
  refine (acc_read_apply ![384, 0] 128 inb_S512x1024_S128x1024_384_0 _ y).trans ?_
  rw [Pof_row2 x wq wk wv wo _ (by rw [hr]; show ¬384 + (y 0).val < 256; omega) (by rw [hr]; show ¬384 + (y 0).val < 384; omega)]
  refine congrArg (stored2 x wq wk wv wo) (funext fun a => Fin.ext ?_)
  match a with
  | ⟨0, _⟩ => show ((Rect.unit (s := S512x1024) ![384, 0] ![128, 1024] inb_S512x1024_S128x1024_384_0).emb y 0).val - 384 = (y 0).val
              rw [hr]; show 384 + (y 0).val - 384 = (y 0).val; omega
  | ⟨1, _⟩ => show ((Rect.unit (s := S512x1024) ![384, 0] ![128, 1024] inb_S512x1024_S128x1024_384_0).emb y 1).val = (y 1).val
              rw [Rect.emb_apply]; show 0 + 1 * (y 1).val = (y 1).val; omega

/-- So what a store of a part's value through the part leaves reads there as the product does. -/
theorem part_store_0 (f : AccC F) :
    (accM.slice (Rect.unit (s := S512x1024) ![0, 0] S256x1024.size inb_S512x1024_S256x1024_0_0) (fun _ => rfl)).view.read (Elt F) ((accM.slice (Rect.unit (s := S512x1024) ![0, 0] S256x1024.size inb_S512x1024_S256x1024_0_0) (fun _ => rfl)).view.write (Elt F) f (stored0 x wq wk wv wo) Finset.univ)
      = (accM.slice (Rect.unit (s := S512x1024) ![0, 0] S256x1024.size inb_S512x1024_S256x1024_0_0) (fun _ => rfl)).view.read (Elt F) (Pof x wq wk wv wo) := by
  rw [View.read_write_univ, part_read_0]
theorem part_store_1 (f : AccC F) :
    (accM.slice (Rect.unit (s := S512x1024) ![256, 0] S128x1024.size inb_S512x1024_S128x1024_256_0) (fun _ => rfl)).view.read (Elt F) ((accM.slice (Rect.unit (s := S512x1024) ![256, 0] S128x1024.size inb_S512x1024_S128x1024_256_0) (fun _ => rfl)).view.write (Elt F) f (stored1 x wq wk wv wo) Finset.univ)
      = (accM.slice (Rect.unit (s := S512x1024) ![256, 0] S128x1024.size inb_S512x1024_S128x1024_256_0) (fun _ => rfl)).view.read (Elt F) (Pof x wq wk wv wo) := by
  rw [View.read_write_univ, part_read_1]
theorem part_store_2 (f : AccC F) :
    (accM.slice (Rect.unit (s := S512x1024) ![384, 0] S128x1024.size inb_S512x1024_S128x1024_384_0) (fun _ => rfl)).view.read (Elt F) ((accM.slice (Rect.unit (s := S512x1024) ![384, 0] S128x1024.size inb_S512x1024_S128x1024_384_0) (fun _ => rfl)).view.write (Elt F) f (stored2 x wq wk wv wo) Finset.univ)
      = (accM.slice (Rect.unit (s := S512x1024) ![384, 0] S128x1024.size inb_S512x1024_S128x1024_384_0) (fun _ => rfl)).view.read (Elt F) (Pof x wq wk wv wo) := by
  rw [View.read_write_univ, part_read_2]

end Stores

/-- info: 'Cert.Kernel.Coll.part_store_2' depends on axioms: [propext, Classical.choice, Quot.sound] -/
#guard_msgs in #print axioms part_store_2

/-- info: 'Cert.Kernel.Coll.read_sub_of_read' depends on axioms: [propext, Classical.choice, Quot.sound] -/
#guard_msgs in #print axioms read_sub_of_read

end Cert.Kernel.Coll

end
-- ==== Proof.Kernel.ValuePhases.lean ====
/-
  The reduce-scatter's and the all-gather's phases as equations between runs of rows of accumulator contents.

  A reduce-scatter phase adds, on the rows a device keeps, the partner's entries of the same rows — which are the rows the
  partner sends —, and that is the next phase's accumulator there, because all the kept rows lie in one part and so use one
  pairing. An all-gather phase leaves the rows a device held as they were and fills the rows it receives — the rows it sent
  in the matching reduce-scatter phase — with the partner's entries. The rows of each copy on each device are decided
  over the eight devices from the row tables.
-/
import proofs.«900423_g7700000000000424_dist_attn_self_mha_htp_b1_sq512_skv512_d1024_hq8_dh128_v7x_i8_f32_1_alg».proof.Proof.Kernel.ValueSteps

noncomputable section

namespace Cert.Kernel.Coll

open Cert.Kernel Cert.Kernel.Gen Cert.Kernel.Mesh Idealize.ShloMosaic Idealize.ShloMosaic.ValueIdx

variable {F : FTy → Type} [FloatOps F]

/-! ## The phases -/

/-- The part of a row from its bounds. -/
theorem partOfRow_0 {r : ℕ} (h : r < 256) : partOfRow r = 0 := by unfold partOfRow; rw [if_pos h]
theorem partOfRow_1 {r : ℕ} (h1 : 256 ≤ r) (h2 : r < 384) : partOfRow r = 1 := by
  unfold partOfRow; rw [if_neg (by omega), if_pos h2]
theorem partOfRow_2 {r : ℕ} (h : 384 ≤ r) : partOfRow r = 2 := by
  unfold partOfRow; rw [if_neg (by omega), if_neg (by omega)]

/-- The pairing of a reduce-scatter phase, and the copy of an all-gather phase, on a row of a known part. -/
theorem vs_rsMask (k r : ℕ) (p : Fin 3) (h : partOfRow r = p) :
    rsMask k r = maskOf ⟨3 * (k % 3) + p.val, by
      have := p.isLt; have := Nat.mod_lt k (show 0 < 3 by decide); omega⟩ := by
  subst h; rfl
theorem vs_agCopy (j r : ℕ) (p : Fin 3) (h : partOfRow r = p) :
    agCopy j r = ⟨9 + 3 * (j % 3) + p.val, by
      have := p.isLt; have := Nat.mod_lt j (show 0 < 3 by decide); omega⟩ := by
  subst h; rfl

/-! ### The rows of each copy: decided over the eight devices -/

theorem vs_keep_src_0 : ∀ c : Dev nD, keepRow 0 c = srcRow 0 (peer (maskOf 0) c) := by decide
theorem vs_keep_peer_0 : ∀ c : Dev nD, keepRow 0 (peer (maskOf 0) c) = srcRow 0 c := by decide
theorem vs_undo_src_0 : ∀ c : Dev nD, srcRow 15 c = keepRow 0 c := by decide
theorem vs_keep_part_0 : ∀ c : Dev nD, keepRow 0 c + 128 ≤ 256 := by decide
theorem vs_src_part_0 : ∀ c : Dev nD, srcRow 0 c + 128 ≤ 256 := by decide
theorem vs_apart_0 : ∀ c : Dev nD, srcRow 0 c + 128 ≤ keepRow 0 c ∨ keepRow 0 c + 128 ≤ srcRow 0 c := by decide

theorem vs_keep_src_1 : ∀ c : Dev nD, keepRow 1 c = srcRow 1 (peer (maskOf 1) c) := by decide
theorem vs_keep_peer_1 : ∀ c : Dev nD, keepRow 1 (peer (maskOf 1) c) = srcRow 1 c := by decide
theorem vs_undo_src_1 : ∀ c : Dev nD, srcRow 16 c = keepRow 1 c := by decide
theorem vs_keep_part_1 : ∀ c : Dev nD, 256 ≤ keepRow 1 c ∧ keepRow 1 c + 64 ≤ 384 := by decide
theorem vs_src_part_1 : ∀ c : Dev nD, 256 ≤ srcRow 1 c ∧ srcRow 1 c + 64 ≤ 384 := by decide
theorem vs_apart_1 : ∀ c : Dev nD, srcRow 1 c + 64 ≤ keepRow 1 c ∨ keepRow 1 c + 64 ≤ srcRow 1 c := by decide

theorem vs_keep_src_2 : ∀ c : Dev nD, keepRow 2 c = srcRow 2 (peer (maskOf 2) c) := by decide
theorem vs_keep_peer_2 : ∀ c : Dev nD, keepRow 2 (peer (maskOf 2) c) = srcRow 2 c := by decide
theorem vs_undo_src_2 : ∀ c : Dev nD, srcRow 17 c = keepRow 2 c := by decide
theorem vs_keep_part_2 : ∀ c : Dev nD, 384 ≤ keepRow 2 c := by decide
theorem vs_src_part_2 : ∀ c : Dev nD, 384 ≤ srcRow 2 c := by decide
theorem vs_apart_2 : ∀ c : Dev nD, srcRow 2 c + 64 ≤ keepRow 2 c ∨ keepRow 2 c + 64 ≤ srcRow 2 c := by decide

theorem vs_keep_src_3 : ∀ c : Dev nD, keepRow 3 c = srcRow 3 (peer (maskOf 3) c) := by decide
theorem vs_keep_peer_3 : ∀ c : Dev nD, keepRow 3 (peer (maskOf 3) c) = srcRow 3 c := by decide
theorem vs_undo_src_3 : ∀ c : Dev nD, srcRow 12 c = keepRow 3 c := by decide
theorem vs_keep_part_3 : ∀ c : Dev nD, keepRow 3 c + 64 ≤ 256 := by decide
theorem vs_src_part_3 : ∀ c : Dev nD, srcRow 3 c + 64 ≤ 256 := by decide
theorem vs_apart_3 : ∀ c : Dev nD, srcRow 3 c + 64 ≤ keepRow 3 c ∨ keepRow 3 c + 64 ≤ srcRow 3 c := by decide

theorem vs_keep_src_4 : ∀ c : Dev nD, keepRow 4 c = srcRow 4 (peer (maskOf 4) c) := by decide
theorem vs_keep_peer_4 : ∀ c : Dev nD, keepRow 4 (peer (maskOf 4) c) = srcRow 4 c := by decide
theorem vs_undo_src_4 : ∀ c : Dev nD, srcRow 13 c = keepRow 4 c := by decide
theorem vs_keep_part_4 : ∀ c : Dev nD, 256 ≤ keepRow 4 c ∧ keepRow 4 c + 32 ≤ 384 := by decide
theorem vs_src_part_4 : ∀ c : Dev nD, 256 ≤ srcRow 4 c ∧ srcRow 4 c + 32 ≤ 384 := by decide
theorem vs_apart_4 : ∀ c : Dev nD, srcRow 4 c + 32 ≤ keepRow 4 c ∨ keepRow 4 c + 32 ≤ srcRow 4 c := by decide

theorem vs_keep_src_5 : ∀ c : Dev nD, keepRow 5 c = srcRow 5 (peer (maskOf 5) c) := by decide
theorem vs_keep_peer_5 : ∀ c : Dev nD, keepRow 5 (peer (maskOf 5) c) = srcRow 5 c := by decide
theorem vs_undo_src_5 : ∀ c : Dev nD, srcRow 14 c = keepRow 5 c := by decide
theorem vs_keep_part_5 : ∀ c : Dev nD, 384 ≤ keepRow 5 c := by decide
theorem vs_src_part_5 : ∀ c : Dev nD, 384 ≤ srcRow 5 c := by decide
theorem vs_apart_5 : ∀ c : Dev nD, srcRow 5 c + 32 ≤ keepRow 5 c ∨ keepRow 5 c + 32 ≤ srcRow 5 c := by decide

theorem vs_keep_src_6 : ∀ c : Dev nD, keepRow 6 c = srcRow 6 (peer (maskOf 6) c) := by decide
theorem vs_keep_peer_6 : ∀ c : Dev nD, keepRow 6 (peer (maskOf 6) c) = srcRow 6 c := by decide
theorem vs_undo_src_6 : ∀ c : Dev nD, srcRow 9 c = keepRow 6 c := by decide
theorem vs_keep_part_6 : ∀ c : Dev nD, keepRow 6 c + 32 ≤ 256 := by decide
theorem vs_src_part_6 : ∀ c : Dev nD, srcRow 6 c + 32 ≤ 256 := by decide
theorem vs_apart_6 : ∀ c : Dev nD, srcRow 6 c + 32 ≤ keepRow 6 c ∨ keepRow 6 c + 32 ≤ srcRow 6 c := by decide

theorem vs_keep_src_7 : ∀ c : Dev nD, keepRow 7 c = srcRow 7 (peer (maskOf 7) c) := by decide
theorem vs_keep_peer_7 : ∀ c : Dev nD, keepRow 7 (peer (maskOf 7) c) = srcRow 7 c := by decide
theorem vs_undo_src_7 : ∀ c : Dev nD, srcRow 10 c = keepRow 7 c := by decide
theorem vs_keep_part_7 : ∀ c : Dev nD, 256 ≤ keepRow 7 c ∧ keepRow 7 c + 16 ≤ 384 := by decide
theorem vs_src_part_7 : ∀ c : Dev nD, 256 ≤ srcRow 7 c ∧ srcRow 7 c + 16 ≤ 384 := by decide
theorem vs_apart_7 : ∀ c : Dev nD, srcRow 7 c + 16 ≤ keepRow 7 c ∨ keepRow 7 c + 16 ≤ srcRow 7 c := by decide

theorem vs_keep_src_8 : ∀ c : Dev nD, keepRow 8 c = srcRow 8 (peer (maskOf 8) c) := by decide
theorem vs_keep_peer_8 : ∀ c : Dev nD, keepRow 8 (peer (maskOf 8) c) = srcRow 8 c := by decide
theorem vs_undo_src_8 : ∀ c : Dev nD, srcRow 11 c = keepRow 8 c := by decide
theorem vs_keep_part_8 : ∀ c : Dev nD, 384 ≤ keepRow 8 c := by decide
theorem vs_src_part_8 : ∀ c : Dev nD, 384 ≤ srcRow 8 c := by decide
theorem vs_apart_8 : ∀ c : Dev nD, srcRow 8 c + 16 ≤ keepRow 8 c ∨ keepRow 8 c + 16 ≤ srcRow 8 c := by decide

section Phases
variable (P : Dev nD → AccC F)

/-- A reduce-scatter phase on a run of kept rows: adding the entries another device holds on the same rows gives the
    next phase's entries, when that device is the phase's partner on every row of the run. -/
theorem accumulate_gen (offK offS : Fin 2 → ℕ) (n : ℕ)
    (inbK : ∀ a, offK a + (![n, 1024] : Fin 2 → ℕ) a ≤ S512x1024.size a)
    (inbS : ∀ a, offS a + (![n, 1024] : Fin 2 → ℕ) a ≤ S512x1024.size a) (hoff : ∀ a, offK a = offS a) (c c' : Dev nD) (k : ℕ)
    (hmask : ∀ y0 : ℕ, y0 < n → peer (rsMask k (offK 0 + y0)) c = c') :
    addf ((accM.slice (Rect.unit (s := S512x1024) offK ![n, 1024] inbK) (fun _ => rfl)).view.read (Elt F) (W P k c))
        ((accM.slice (Rect.unit (s := S512x1024) offS ![n, 1024] inbS) (fun _ => rfl)).view.read (Elt F) (W P k c'))
      = (accM.slice (Rect.unit (s := S512x1024) offK ![n, 1024] inbK) (fun _ => rfl)).view.read (Elt F) (W P (k + 1) c) := by
  funext y
  have hy : (y 0).val < n := (y 0).isLt
  show FloatOps.addf (W P k c ((Rect.unit (s := S512x1024) offK ![n, 1024] inbK).emb y))
      (W P k c' ((Rect.unit (s := S512x1024) offS ![n, 1024] inbS).emb y))
    = FloatOps.addf (W P k c ((Rect.unit (s := S512x1024) offK ![n, 1024] inbK).emb y))
        (W P k (peer (rsMask k ((Rect.unit (s := S512x1024) offK ![n, 1024] inbK).emb y 0).val) c)
          ((Rect.unit (s := S512x1024) offK ![n, 1024] inbK).emb y))
  rw [emb_row, hmask _ hy, emb_congr offS offK n inbS inbK (fun a => (hoff a).symm) y]

/-- An all-gather phase on a run of rows the device holds: nothing changes. -/
theorem gather_keep_gen (off : Fin 2 → ℕ) (n : ℕ) (inb : ∀ a, off a + (![n, 1024] : Fin 2 → ℕ) a ≤ S512x1024.size a)
    (j : ℕ) (c : Dev nD) (hheld : ∀ y0 : ℕ, y0 < n → heldAt j c (off 0 + y0)) :
    (accM.slice (Rect.unit (s := S512x1024) off ![n, 1024] inb) (fun _ => rfl)).view.read (Elt F) (A P (j + 1) c)
      = (accM.slice (Rect.unit (s := S512x1024) off ![n, 1024] inb) (fun _ => rfl)).view.read (Elt F) (A P j c) := by
  funext y
  have hy : (y 0).val < n := (y 0).isLt
  show (if heldAt j c ((Rect.unit (s := S512x1024) off ![n, 1024] inb).emb y 0).val
      then A P j c ((Rect.unit (s := S512x1024) off ![n, 1024] inb).emb y)
      else A P j (peer (maskOf (agCopy j ((Rect.unit (s := S512x1024) off ![n, 1024] inb).emb y 0).val)) c)
        ((Rect.unit (s := S512x1024) off ![n, 1024] inb).emb y))
    = A P j c ((Rect.unit (s := S512x1024) off ![n, 1024] inb).emb y)
  rw [if_pos (by rw [emb_row]; exact hheld _ hy)]

/-- An all-gather phase on a run of rows the device does not hold: it takes the entries of the phase's partner, read
    there through a run from the same first row. -/
theorem gather_recv_gen (offS offU : Fin 2 → ℕ) (n : ℕ)
    (inbS : ∀ a, offS a + (![n, 1024] : Fin 2 → ℕ) a ≤ S512x1024.size a)
    (inbU : ∀ a, offU a + (![n, 1024] : Fin 2 → ℕ) a ≤ S512x1024.size a) (j : ℕ) (c c' : Dev nD)
    (hoff : ∀ a, offS a = offU a) (hnot : ∀ y0 : ℕ, y0 < n → ¬heldAt j c (offS 0 + y0))
    (hpeer : ∀ y0 : ℕ, y0 < n → peer (maskOf (agCopy j (offS 0 + y0))) c = c') :
    (accM.slice (Rect.unit (s := S512x1024) offS ![n, 1024] inbS) (fun _ => rfl)).view.read (Elt F) (A P (j + 1) c)
      = (accM.slice (Rect.unit (s := S512x1024) offU ![n, 1024] inbU) (fun _ => rfl)).view.read (Elt F) (A P j c') := by
  funext y
  have hy : (y 0).val < n := (y 0).isLt
  show (if heldAt j c ((Rect.unit (s := S512x1024) offS ![n, 1024] inbS).emb y 0).val
      then A P j c ((Rect.unit (s := S512x1024) offS ![n, 1024] inbS).emb y)
      else A P j (peer (maskOf (agCopy j ((Rect.unit (s := S512x1024) offS ![n, 1024] inbS).emb y 0).val)) c)
        ((Rect.unit (s := S512x1024) offS ![n, 1024] inbS).emb y))
    = A P j c' ((Rect.unit (s := S512x1024) offU ![n, 1024] inbU).emb y)
  rw [if_neg (by rw [emb_row]; exact hnot _ hy), emb_row, hpeer _ hy, emb_congr offS offU n inbS inbU hoff y]

/-! ### The nine reduce-scatter copies and the nine all-gather copies that undo them -/

/-- Reduce-scatter copy 0 (part 0, phase 0): the kept rows plus the partner's sent rows are the next phase's kept rows. -/
theorem accumulate_0 (c : Dev nD) :
    addf ((accM.slice (Rect.unit (s := S512x1024) (k0_off4 c) S128x1024.size (k0_off4_inb c)) (fun _ => rfl)).view.read (Elt F) (W P 0 c)) (rowsRead 0 (partner 0 c) (W P 0 (partner 0 c)))
      = (accM.slice (Rect.unit (s := S512x1024) (k0_off4 c) S128x1024.size (k0_off4_inb c)) (fun _ => rfl)).view.read (Elt F) (W P (0 + 1) c) :=
  accumulate_gen P (k0_off4 c) (k0_off1 (partner 0 c)) 128 (k0_off4_inb c) (k0_off1_inb (partner 0 c))
    (fun a => by rw [keep0_eq c, src0_eq (partner 0 c), vs_keep_src_0 c]) c (partner 0 c) 0
    (fun y0 hy => by
      have hb := vs_keep_part_0 c
      rw [show (k0_off4 c) (0 : Fin 2) = keepRow 0 c from congrFun (keep0_eq c) 0,
        vs_rsMask 0 _ 0 (partOfRow_0 (by omega))]
      rfl)

/-- All-gather copy 15 undoing copy 0 (phase 2): the rows kept then are held, and stay; -/
theorem gather_keep_0 (c : Dev nD) :
    (accM.slice (Rect.unit (s := S512x1024) (k0_off4 c) S128x1024.size (k0_off4_inb c)) (fun _ => rfl)).view.read (Elt F) (A P (2 + 1) c) = (accM.slice (Rect.unit (s := S512x1024) (k0_off4 c) S128x1024.size (k0_off4_inb c)) (fun _ => rfl)).view.read (Elt F) (A P 2 c) :=
  gather_keep_gen P (k0_off4 c) 128 (k0_off4_inb c) 2 c (fun y0 hy => by
    have hb := vs_keep_part_0 c
    have hu := vs_undo_src_0 c
    rw [show (k0_off4 c) (0 : Fin 2) = keepRow 0 c from congrFun (keep0_eq c) 0]
    unfold heldAt
    rw [vs_agCopy 2 _ 0 (partOfRow_0 (by omega))]
    show srcRow 15 c ≤ keepRow 0 c + y0 ∧ keepRow 0 c + y0 < srcRow 15 c + 128
    omega)

/-- the rows sent then are received now: the partner's kept rows, as the partner holds them. -/
theorem gather_recv_0 (c : Dev nD) :
    (accM.slice (Rect.unit (s := S512x1024) (k0_off1 c) S128x1024.size (k0_off1_inb c)) (fun _ => rfl)).view.read (Elt F) (A P (2 + 1) c) = rowsRead 15 (partner 0 c) (A P 2 (partner 0 c)) :=
  gather_recv_gen P (k0_off1 c) (k0_off22 (partner 0 c)) 128 (k0_off1_inb c) (k0_off22_inb (partner 0 c)) 2 c (partner 0 c)
    (fun a => by rw [src0_eq c, src15_eq (partner 0 c), vs_undo_src_0 (partner 0 c), vs_keep_peer_0 c])
    (fun y0 hy => by
      have hb := vs_src_part_0 c
      have hu := vs_undo_src_0 c
      have ha := vs_apart_0 c
      rw [show (k0_off1 c) (0 : Fin 2) = srcRow 0 c from congrFun (src0_eq c) 0]
      unfold heldAt
      rw [vs_agCopy 2 _ 0 (partOfRow_0 (by omega))]
      show ¬(srcRow 15 c ≤ srcRow 0 c + y0 ∧ srcRow 0 c + y0 < srcRow 15 c + 128)
      omega)
    (fun y0 hy => by
      have hb := vs_src_part_0 c
      rw [show (k0_off1 c) (0 : Fin 2) = srcRow 0 c from congrFun (src0_eq c) 0,
        vs_agCopy 2 _ 0 (partOfRow_0 (by omega))]
      rfl)

/-- Reduce-scatter copy 1 (part 1, phase 0): the kept rows plus the partner's sent rows are the next phase's kept rows. -/
theorem accumulate_1 (c : Dev nD) :
    addf ((accM.slice (Rect.unit (s := S512x1024) (k0_off6 c) S64x1024.size (k0_off6_inb c)) (fun _ => rfl)).view.read (Elt F) (W P 0 c)) (rowsRead 1 (partner 1 c) (W P 0 (partner 1 c)))
      = (accM.slice (Rect.unit (s := S512x1024) (k0_off6 c) S64x1024.size (k0_off6_inb c)) (fun _ => rfl)).view.read (Elt F) (W P (0 + 1) c) :=
  accumulate_gen P (k0_off6 c) (k0_off2 (partner 1 c)) 64 (k0_off6_inb c) (k0_off2_inb (partner 1 c))
    (fun a => by rw [keep1_eq c, src1_eq (partner 1 c), vs_keep_src_1 c]) c (partner 1 c) 0
    (fun y0 hy => by
      have hb := vs_keep_part_1 c
      rw [show (k0_off6 c) (0 : Fin 2) = keepRow 1 c from congrFun (keep1_eq c) 0,
        vs_rsMask 0 _ 1 (partOfRow_1 (by omega) (by omega))]
      rfl)

/-- All-gather copy 16 undoing copy 1 (phase 2): the rows kept then are held, and stay; -/
theorem gather_keep_1 (c : Dev nD) :
    (accM.slice (Rect.unit (s := S512x1024) (k0_off6 c) S64x1024.size (k0_off6_inb c)) (fun _ => rfl)).view.read (Elt F) (A P (2 + 1) c) = (accM.slice (Rect.unit (s := S512x1024) (k0_off6 c) S64x1024.size (k0_off6_inb c)) (fun _ => rfl)).view.read (Elt F) (A P 2 c) :=
  gather_keep_gen P (k0_off6 c) 64 (k0_off6_inb c) 2 c (fun y0 hy => by
    have hb := vs_keep_part_1 c
    have hu := vs_undo_src_1 c
    rw [show (k0_off6 c) (0 : Fin 2) = keepRow 1 c from congrFun (keep1_eq c) 0]
    unfold heldAt
    rw [vs_agCopy 2 _ 1 (partOfRow_1 (by omega) (by omega))]
    show srcRow 16 c ≤ keepRow 1 c + y0 ∧ keepRow 1 c + y0 < srcRow 16 c + 64
    omega)

/-- the rows sent then are received now: the partner's kept rows, as the partner holds them. -/
theorem gather_recv_1 (c : Dev nD) :
    (accM.slice (Rect.unit (s := S512x1024) (k0_off2 c) S64x1024.size (k0_off2_inb c)) (fun _ => rfl)).view.read (Elt F) (A P (2 + 1) c) = rowsRead 16 (partner 1 c) (A P 2 (partner 1 c)) :=
  gather_recv_gen P (k0_off2 c) (k0_off23 (partner 1 c)) 64 (k0_off2_inb c) (k0_off23_inb (partner 1 c)) 2 c (partner 1 c)
    (fun a => by rw [src1_eq c, src16_eq (partner 1 c), vs_undo_src_1 (partner 1 c), vs_keep_peer_1 c])
    (fun y0 hy => by
      have hb := vs_src_part_1 c
      have hu := vs_undo_src_1 c
      have ha := vs_apart_1 c
      rw [show (k0_off2 c) (0 : Fin 2) = srcRow 1 c from congrFun (src1_eq c) 0]
      unfold heldAt
      rw [vs_agCopy 2 _ 1 (partOfRow_1 (by omega) (by omega))]
      show ¬(srcRow 16 c ≤ srcRow 1 c + y0 ∧ srcRow 1 c + y0 < srcRow 16 c + 64)
      omega)
    (fun y0 hy => by
      have hb := vs_src_part_1 c
      rw [show (k0_off2 c) (0 : Fin 2) = srcRow 1 c from congrFun (src1_eq c) 0,
        vs_agCopy 2 _ 1 (partOfRow_1 (by omega) (by omega))]
      rfl)

/-- Reduce-scatter copy 2 (part 2, phase 0): the kept rows plus the partner's sent rows are the next phase's kept rows. -/
theorem accumulate_2 (c : Dev nD) :
    addf ((accM.slice (Rect.unit (s := S512x1024) (k0_off8 c) S64x1024.size (k0_off8_inb c)) (fun _ => rfl)).view.read (Elt F) (W P 0 c)) (rowsRead 2 (partner 2 c) (W P 0 (partner 2 c)))
      = (accM.slice (Rect.unit (s := S512x1024) (k0_off8 c) S64x1024.size (k0_off8_inb c)) (fun _ => rfl)).view.read (Elt F) (W P (0 + 1) c) :=
  accumulate_gen P (k0_off8 c) (k0_off3 (partner 2 c)) 64 (k0_off8_inb c) (k0_off3_inb (partner 2 c))
    (fun a => by rw [keep2_eq c, src2_eq (partner 2 c), vs_keep_src_2 c]) c (partner 2 c) 0
    (fun y0 hy => by
      have hb := vs_keep_part_2 c
      rw [show (k0_off8 c) (0 : Fin 2) = keepRow 2 c from congrFun (keep2_eq c) 0,
        vs_rsMask 0 _ 2 (partOfRow_2 (by omega))]
      rfl)

/-- All-gather copy 17 undoing copy 2 (phase 2): the rows kept then are held, and stay; -/
theorem gather_keep_2 (c : Dev nD) :
    (accM.slice (Rect.unit (s := S512x1024) (k0_off8 c) S64x1024.size (k0_off8_inb c)) (fun _ => rfl)).view.read (Elt F) (A P (2 + 1) c) = (accM.slice (Rect.unit (s := S512x1024) (k0_off8 c) S64x1024.size (k0_off8_inb c)) (fun _ => rfl)).view.read (Elt F) (A P 2 c) :=
  gather_keep_gen P (k0_off8 c) 64 (k0_off8_inb c) 2 c (fun y0 hy => by
    have hb := vs_keep_part_2 c
    have hu := vs_undo_src_2 c
    rw [show (k0_off8 c) (0 : Fin 2) = keepRow 2 c from congrFun (keep2_eq c) 0]
    unfold heldAt
    rw [vs_agCopy 2 _ 2 (partOfRow_2 (by omega))]
    show srcRow 17 c ≤ keepRow 2 c + y0 ∧ keepRow 2 c + y0 < srcRow 17 c + 64
    omega)

/-- the rows sent then are received now: the partner's kept rows, as the partner holds them. -/
theorem gather_recv_2 (c : Dev nD) :
    (accM.slice (Rect.unit (s := S512x1024) (k0_off3 c) S64x1024.size (k0_off3_inb c)) (fun _ => rfl)).view.read (Elt F) (A P (2 + 1) c) = rowsRead 17 (partner 2 c) (A P 2 (partner 2 c)) :=
  gather_recv_gen P (k0_off3 c) (k0_off24 (partner 2 c)) 64 (k0_off3_inb c) (k0_off24_inb (partner 2 c)) 2 c (partner 2 c)
    (fun a => by rw [src2_eq c, src17_eq (partner 2 c), vs_undo_src_2 (partner 2 c), vs_keep_peer_2 c])
    (fun y0 hy => by
      have hb := vs_src_part_2 c
      have hu := vs_undo_src_2 c
      have ha := vs_apart_2 c
      rw [show (k0_off3 c) (0 : Fin 2) = srcRow 2 c from congrFun (src2_eq c) 0]
      unfold heldAt
      rw [vs_agCopy 2 _ 2 (partOfRow_2 (by omega))]
      show ¬(srcRow 17 c ≤ srcRow 2 c + y0 ∧ srcRow 2 c + y0 < srcRow 17 c + 64)
      omega)
    (fun y0 hy => by
      have hb := vs_src_part_2 c
      rw [show (k0_off3 c) (0 : Fin 2) = srcRow 2 c from congrFun (src2_eq c) 0,
        vs_agCopy 2 _ 2 (partOfRow_2 (by omega))]
      rfl)

/-- Reduce-scatter copy 3 (part 0, phase 1): the kept rows plus the partner's sent rows are the next phase's kept rows. -/
theorem accumulate_3 (c : Dev nD) :
    addf ((accM.slice (Rect.unit (s := S512x1024) (k0_off10 c) S64x1024.size (k0_off10_inb c)) (fun _ => rfl)).view.read (Elt F) (W P 1 c)) (rowsRead 3 (partner 3 c) (W P 1 (partner 3 c)))
      = (accM.slice (Rect.unit (s := S512x1024) (k0_off10 c) S64x1024.size (k0_off10_inb c)) (fun _ => rfl)).view.read (Elt F) (W P (1 + 1) c) :=
  accumulate_gen P (k0_off10 c) (k0_off5 (partner 3 c)) 64 (k0_off10_inb c) (k0_off5_inb (partner 3 c))
    (fun a => by rw [keep3_eq c, src3_eq (partner 3 c), vs_keep_src_3 c]) c (partner 3 c) 1
    (fun y0 hy => by
      have hb := vs_keep_part_3 c
      rw [show (k0_off10 c) (0 : Fin 2) = keepRow 3 c from congrFun (keep3_eq c) 0,
        vs_rsMask 1 _ 0 (partOfRow_0 (by omega))]
      rfl)

/-- All-gather copy 12 undoing copy 3 (phase 1): the rows kept then are held, and stay; -/
theorem gather_keep_3 (c : Dev nD) :
    (accM.slice (Rect.unit (s := S512x1024) (k0_off10 c) S64x1024.size (k0_off10_inb c)) (fun _ => rfl)).view.read (Elt F) (A P (1 + 1) c) = (accM.slice (Rect.unit (s := S512x1024) (k0_off10 c) S64x1024.size (k0_off10_inb c)) (fun _ => rfl)).view.read (Elt F) (A P 1 c) :=
  gather_keep_gen P (k0_off10 c) 64 (k0_off10_inb c) 1 c (fun y0 hy => by
    have hb := vs_keep_part_3 c
    have hu := vs_undo_src_3 c
    rw [show (k0_off10 c) (0 : Fin 2) = keepRow 3 c from congrFun (keep3_eq c) 0]
    unfold heldAt
    rw [vs_agCopy 1 _ 0 (partOfRow_0 (by omega))]
    show srcRow 12 c ≤ keepRow 3 c + y0 ∧ keepRow 3 c + y0 < srcRow 12 c + 64
    omega)

/-- the rows sent then are received now: the partner's kept rows, as the partner holds them. -/
theorem gather_recv_3 (c : Dev nD) :
    (accM.slice (Rect.unit (s := S512x1024) (k0_off5 c) S64x1024.size (k0_off5_inb c)) (fun _ => rfl)).view.read (Elt F) (A P (1 + 1) c) = rowsRead 12 (partner 3 c) (A P 1 (partner 3 c)) :=
  gather_recv_gen P (k0_off5 c) (k0_off19 (partner 3 c)) 64 (k0_off5_inb c) (k0_off19_inb (partner 3 c)) 1 c (partner 3 c)
    (fun a => by rw [src3_eq c, src12_eq (partner 3 c), vs_undo_src_3 (partner 3 c), vs_keep_peer_3 c])
    (fun y0 hy => by
      have hb := vs_src_part_3 c
      have hu := vs_undo_src_3 c
      have ha := vs_apart_3 c
      rw [show (k0_off5 c) (0 : Fin 2) = srcRow 3 c from congrFun (src3_eq c) 0]
      unfold heldAt
      rw [vs_agCopy 1 _ 0 (partOfRow_0 (by omega))]
      show ¬(srcRow 12 c ≤ srcRow 3 c + y0 ∧ srcRow 3 c + y0 < srcRow 12 c + 64)
      omega)
    (fun y0 hy => by
      have hb := vs_src_part_3 c
      rw [show (k0_off5 c) (0 : Fin 2) = srcRow 3 c from congrFun (src3_eq c) 0,
        vs_agCopy 1 _ 0 (partOfRow_0 (by omega))]
      rfl)

/-- Reduce-scatter copy 4 (part 1, phase 1): the kept rows plus the partner's sent rows are the next phase's kept rows. -/
theorem accumulate_4 (c : Dev nD) :
    addf ((accM.slice (Rect.unit (s := S512x1024) (k0_off12 c) S32x1024.size (k0_off12_inb c)) (fun _ => rfl)).view.read (Elt F) (W P 1 c)) (rowsRead 4 (partner 4 c) (W P 1 (partner 4 c)))
      = (accM.slice (Rect.unit (s := S512x1024) (k0_off12 c) S32x1024.size (k0_off12_inb c)) (fun _ => rfl)).view.read (Elt F) (W P (1 + 1) c) :=
  accumulate_gen P (k0_off12 c) (k0_off7 (partner 4 c)) 32 (k0_off12_inb c) (k0_off7_inb (partner 4 c))
    (fun a => by rw [keep4_eq c, src4_eq (partner 4 c), vs_keep_src_4 c]) c (partner 4 c) 1
    (fun y0 hy => by
      have hb := vs_keep_part_4 c
      rw [show (k0_off12 c) (0 : Fin 2) = keepRow 4 c from congrFun (keep4_eq c) 0,
        vs_rsMask 1 _ 1 (partOfRow_1 (by omega) (by omega))]
      rfl)

/-- All-gather copy 13 undoing copy 4 (phase 1): the rows kept then are held, and stay; -/
theorem gather_keep_4 (c : Dev nD) :
    (accM.slice (Rect.unit (s := S512x1024) (k0_off12 c) S32x1024.size (k0_off12_inb c)) (fun _ => rfl)).view.read (Elt F) (A P (1 + 1) c) = (accM.slice (Rect.unit (s := S512x1024) (k0_off12 c) S32x1024.size (k0_off12_inb c)) (fun _ => rfl)).view.read (Elt F) (A P 1 c) :=
  gather_keep_gen P (k0_off12 c) 32 (k0_off12_inb c) 1 c (fun y0 hy => by
    have hb := vs_keep_part_4 c
    have hu := vs_undo_src_4 c
    rw [show (k0_off12 c) (0 : Fin 2) = keepRow 4 c from congrFun (keep4_eq c) 0]
    unfold heldAt
    rw [vs_agCopy 1 _ 1 (partOfRow_1 (by omega) (by omega))]
    show srcRow 13 c ≤ keepRow 4 c + y0 ∧ keepRow 4 c + y0 < srcRow 13 c + 32
    omega)

/-- the rows sent then are received now: the partner's kept rows, as the partner holds them. -/
theorem gather_recv_4 (c : Dev nD) :
    (accM.slice (Rect.unit (s := S512x1024) (k0_off7 c) S32x1024.size (k0_off7_inb c)) (fun _ => rfl)).view.read (Elt F) (A P (1 + 1) c) = rowsRead 13 (partner 4 c) (A P 1 (partner 4 c)) :=
  gather_recv_gen P (k0_off7 c) (k0_off20 (partner 4 c)) 32 (k0_off7_inb c) (k0_off20_inb (partner 4 c)) 1 c (partner 4 c)
    (fun a => by rw [src4_eq c, src13_eq (partner 4 c), vs_undo_src_4 (partner 4 c), vs_keep_peer_4 c])
    (fun y0 hy => by
      have hb := vs_src_part_4 c
      have hu := vs_undo_src_4 c
      have ha := vs_apart_4 c
      rw [show (k0_off7 c) (0 : Fin 2) = srcRow 4 c from congrFun (src4_eq c) 0]
      unfold heldAt
      rw [vs_agCopy 1 _ 1 (partOfRow_1 (by omega) (by omega))]
      show ¬(srcRow 13 c ≤ srcRow 4 c + y0 ∧ srcRow 4 c + y0 < srcRow 13 c + 32)
      omega)
    (fun y0 hy => by
      have hb := vs_src_part_4 c
      rw [show (k0_off7 c) (0 : Fin 2) = srcRow 4 c from congrFun (src4_eq c) 0,
        vs_agCopy 1 _ 1 (partOfRow_1 (by omega) (by omega))]
      rfl)

/-- Reduce-scatter copy 5 (part 2, phase 1): the kept rows plus the partner's sent rows are the next phase's kept rows. -/
theorem accumulate_5 (c : Dev nD) :
    addf ((accM.slice (Rect.unit (s := S512x1024) (k0_off14 c) S32x1024.size (k0_off14_inb c)) (fun _ => rfl)).view.read (Elt F) (W P 1 c)) (rowsRead 5 (partner 5 c) (W P 1 (partner 5 c)))
      = (accM.slice (Rect.unit (s := S512x1024) (k0_off14 c) S32x1024.size (k0_off14_inb c)) (fun _ => rfl)).view.read (Elt F) (W P (1 + 1) c) :=
  accumulate_gen P (k0_off14 c) (k0_off9 (partner 5 c)) 32 (k0_off14_inb c) (k0_off9_inb (partner 5 c))
    (fun a => by rw [keep5_eq c, src5_eq (partner 5 c), vs_keep_src_5 c]) c (partner 5 c) 1
    (fun y0 hy => by
      have hb := vs_keep_part_5 c
      rw [show (k0_off14 c) (0 : Fin 2) = keepRow 5 c from congrFun (keep5_eq c) 0,
        vs_rsMask 1 _ 2 (partOfRow_2 (by omega))]
      rfl)

/-- All-gather copy 14 undoing copy 5 (phase 1): the rows kept then are held, and stay; -/
theorem gather_keep_5 (c : Dev nD) :
    (accM.slice (Rect.unit (s := S512x1024) (k0_off14 c) S32x1024.size (k0_off14_inb c)) (fun _ => rfl)).view.read (Elt F) (A P (1 + 1) c) = (accM.slice (Rect.unit (s := S512x1024) (k0_off14 c) S32x1024.size (k0_off14_inb c)) (fun _ => rfl)).view.read (Elt F) (A P 1 c) :=
  gather_keep_gen P (k0_off14 c) 32 (k0_off14_inb c) 1 c (fun y0 hy => by
    have hb := vs_keep_part_5 c
    have hu := vs_undo_src_5 c
    rw [show (k0_off14 c) (0 : Fin 2) = keepRow 5 c from congrFun (keep5_eq c) 0]
    unfold heldAt
    rw [vs_agCopy 1 _ 2 (partOfRow_2 (by omega))]
    show srcRow 14 c ≤ keepRow 5 c + y0 ∧ keepRow 5 c + y0 < srcRow 14 c + 32
    omega)

/-- the rows sent then are received now: the partner's kept rows, as the partner holds them. -/
theorem gather_recv_5 (c : Dev nD) :
    (accM.slice (Rect.unit (s := S512x1024) (k0_off9 c) S32x1024.size (k0_off9_inb c)) (fun _ => rfl)).view.read (Elt F) (A P (1 + 1) c) = rowsRead 14 (partner 5 c) (A P 1 (partner 5 c)) :=
  gather_recv_gen P (k0_off9 c) (k0_off21 (partner 5 c)) 32 (k0_off9_inb c) (k0_off21_inb (partner 5 c)) 1 c (partner 5 c)
    (fun a => by rw [src5_eq c, src14_eq (partner 5 c), vs_undo_src_5 (partner 5 c), vs_keep_peer_5 c])
    (fun y0 hy => by
      have hb := vs_src_part_5 c
      have hu := vs_undo_src_5 c
      have ha := vs_apart_5 c
      rw [show (k0_off9 c) (0 : Fin 2) = srcRow 5 c from congrFun (src5_eq c) 0]
      unfold heldAt
      rw [vs_agCopy 1 _ 2 (partOfRow_2 (by omega))]
      show ¬(srcRow 14 c ≤ srcRow 5 c + y0 ∧ srcRow 5 c + y0 < srcRow 14 c + 32)
      omega)
    (fun y0 hy => by
      have hb := vs_src_part_5 c
      rw [show (k0_off9 c) (0 : Fin 2) = srcRow 5 c from congrFun (src5_eq c) 0,
        vs_agCopy 1 _ 2 (partOfRow_2 (by omega))]
      rfl)

/-- Reduce-scatter copy 6 (part 0, phase 2): the kept rows plus the partner's sent rows are the next phase's kept rows. -/
theorem accumulate_6 (c : Dev nD) :
    addf ((accM.slice (Rect.unit (s := S512x1024) (k0_off16 c) S32x1024.size (k0_off16_inb c)) (fun _ => rfl)).view.read (Elt F) (W P 2 c)) (rowsRead 6 (partner 6 c) (W P 2 (partner 6 c)))
      = (accM.slice (Rect.unit (s := S512x1024) (k0_off16 c) S32x1024.size (k0_off16_inb c)) (fun _ => rfl)).view.read (Elt F) (W P (2 + 1) c) :=
  accumulate_gen P (k0_off16 c) (k0_off11 (partner 6 c) 0#32 32#32) 32 (k0_off16_inb c) (k0_off11_inb (partner 6 c) 0)
    (fun a => by rw [keep6_eq c, src6_eq (partner 6 c), vs_keep_src_6 c]) c (partner 6 c) 2
    (fun y0 hy => by
      have hb := vs_keep_part_6 c
      rw [show (k0_off16 c) (0 : Fin 2) = keepRow 6 c from congrFun (keep6_eq c) 0,
        vs_rsMask 2 _ 0 (partOfRow_0 (by omega))]
      rfl)

/-- All-gather copy 9 undoing copy 6 (phase 0): the rows kept then are held, and stay; -/
theorem gather_keep_6 (c : Dev nD) :
    (accM.slice (Rect.unit (s := S512x1024) (k0_off16 c) S32x1024.size (k0_off16_inb c)) (fun _ => rfl)).view.read (Elt F) (A P (0 + 1) c) = (accM.slice (Rect.unit (s := S512x1024) (k0_off16 c) S32x1024.size (k0_off16_inb c)) (fun _ => rfl)).view.read (Elt F) (A P 0 c) :=
  gather_keep_gen P (k0_off16 c) 32 (k0_off16_inb c) 0 c (fun y0 hy => by
    have hb := vs_keep_part_6 c
    have hu := vs_undo_src_6 c
    rw [show (k0_off16 c) (0 : Fin 2) = keepRow 6 c from congrFun (keep6_eq c) 0]
    unfold heldAt
    rw [vs_agCopy 0 _ 0 (partOfRow_0 (by omega))]
    show srcRow 9 c ≤ keepRow 6 c + y0 ∧ keepRow 6 c + y0 < srcRow 9 c + 32
    omega)

/-- the rows sent then are received now: the partner's kept rows, as the partner holds them. -/
theorem gather_recv_6 (c : Dev nD) :
    (accM.slice (Rect.unit (s := S512x1024) (k0_off11 c 0#32 32#32) S32x1024.size (k0_off11_inb c 0)) (fun _ => rfl)).view.read (Elt F) (A P (0 + 1) c) = rowsRead 9 (partner 6 c) (A P 0 (partner 6 c)) :=
  gather_recv_gen P (k0_off11 c 0#32 32#32) (k0_off11 (partner 6 c) 32#32 0#32) 32 (k0_off11_inb c 0) (k0_off11_inb (partner 6 c) 1) 0 c (partner 6 c)
    (fun a => by rw [src6_eq c, src9_eq (partner 6 c), vs_undo_src_6 (partner 6 c), vs_keep_peer_6 c])
    (fun y0 hy => by
      have hb := vs_src_part_6 c
      have hu := vs_undo_src_6 c
      have ha := vs_apart_6 c
      rw [show (k0_off11 c 0#32 32#32) (0 : Fin 2) = srcRow 6 c from congrFun (src6_eq c) 0]
      unfold heldAt
      rw [vs_agCopy 0 _ 0 (partOfRow_0 (by omega))]
      show ¬(srcRow 9 c ≤ srcRow 6 c + y0 ∧ srcRow 6 c + y0 < srcRow 9 c + 32)
      omega)
    (fun y0 hy => by
      have hb := vs_src_part_6 c
      rw [show (k0_off11 c 0#32 32#32) (0 : Fin 2) = srcRow 6 c from congrFun (src6_eq c) 0,
        vs_agCopy 0 _ 0 (partOfRow_0 (by omega))]
      rfl)

/-- Reduce-scatter copy 7 (part 1, phase 2): the kept rows plus the partner's sent rows are the next phase's kept rows. -/
theorem accumulate_7 (c : Dev nD) :
    addf ((accM.slice (Rect.unit (s := S512x1024) (k0_off17 c) S16x1024.size (k0_off17_inb c)) (fun _ => rfl)).view.read (Elt F) (W P 2 c)) (rowsRead 7 (partner 7 c) (W P 2 (partner 7 c)))
      = (accM.slice (Rect.unit (s := S512x1024) (k0_off17 c) S16x1024.size (k0_off17_inb c)) (fun _ => rfl)).view.read (Elt F) (W P (2 + 1) c) :=
  accumulate_gen P (k0_off17 c) (k0_off13 (partner 7 c) 0#32 16#32) 16 (k0_off17_inb c) (k0_off13_inb (partner 7 c) 0)
    (fun a => by rw [keep7_eq c, src7_eq (partner 7 c), vs_keep_src_7 c]) c (partner 7 c) 2
    (fun y0 hy => by
      have hb := vs_keep_part_7 c
      rw [show (k0_off17 c) (0 : Fin 2) = keepRow 7 c from congrFun (keep7_eq c) 0,
        vs_rsMask 2 _ 1 (partOfRow_1 (by omega) (by omega))]
      rfl)

/-- All-gather copy 10 undoing copy 7 (phase 0): the rows kept then are held, and stay; -/
theorem gather_keep_7 (c : Dev nD) :
    (accM.slice (Rect.unit (s := S512x1024) (k0_off17 c) S16x1024.size (k0_off17_inb c)) (fun _ => rfl)).view.read (Elt F) (A P (0 + 1) c) = (accM.slice (Rect.unit (s := S512x1024) (k0_off17 c) S16x1024.size (k0_off17_inb c)) (fun _ => rfl)).view.read (Elt F) (A P 0 c) :=
  gather_keep_gen P (k0_off17 c) 16 (k0_off17_inb c) 0 c (fun y0 hy => by
    have hb := vs_keep_part_7 c
    have hu := vs_undo_src_7 c
    rw [show (k0_off17 c) (0 : Fin 2) = keepRow 7 c from congrFun (keep7_eq c) 0]
    unfold heldAt
    rw [vs_agCopy 0 _ 1 (partOfRow_1 (by omega) (by omega))]
    show srcRow 10 c ≤ keepRow 7 c + y0 ∧ keepRow 7 c + y0 < srcRow 10 c + 16
    omega)

/-- the rows sent then are received now: the partner's kept rows, as the partner holds them. -/
theorem gather_recv_7 (c : Dev nD) :
    (accM.slice (Rect.unit (s := S512x1024) (k0_off13 c 0#32 16#32) S16x1024.size (k0_off13_inb c 0)) (fun _ => rfl)).view.read (Elt F) (A P (0 + 1) c) = rowsRead 10 (partner 7 c) (A P 0 (partner 7 c)) :=
  gather_recv_gen P (k0_off13 c 0#32 16#32) (k0_off13 (partner 7 c) 16#32 0#32) 16 (k0_off13_inb c 0) (k0_off13_inb (partner 7 c) 1) 0 c (partner 7 c)
    (fun a => by rw [src7_eq c, src10_eq (partner 7 c), vs_undo_src_7 (partner 7 c), vs_keep_peer_7 c])
    (fun y0 hy => by
      have hb := vs_src_part_7 c
      have hu := vs_undo_src_7 c
      have ha := vs_apart_7 c
      rw [show (k0_off13 c 0#32 16#32) (0 : Fin 2) = srcRow 7 c from congrFun (src7_eq c) 0]
      unfold heldAt
      rw [vs_agCopy 0 _ 1 (partOfRow_1 (by omega) (by omega))]
      show ¬(srcRow 10 c ≤ srcRow 7 c + y0 ∧ srcRow 7 c + y0 < srcRow 10 c + 16)
      omega)
    (fun y0 hy => by
      have hb := vs_src_part_7 c
      rw [show (k0_off13 c 0#32 16#32) (0 : Fin 2) = srcRow 7 c from congrFun (src7_eq c) 0,
        vs_agCopy 0 _ 1 (partOfRow_1 (by omega) (by omega))]
      rfl)

/-- Reduce-scatter copy 8 (part 2, phase 2): the kept rows plus the partner's sent rows are the next phase's kept rows. -/
theorem accumulate_8 (c : Dev nD) :
    addf ((accM.slice (Rect.unit (s := S512x1024) (k0_off18 c) S16x1024.size (k0_off18_inb c)) (fun _ => rfl)).view.read (Elt F) (W P 2 c)) (rowsRead 8 (partner 8 c) (W P 2 (partner 8 c)))
      = (accM.slice (Rect.unit (s := S512x1024) (k0_off18 c) S16x1024.size (k0_off18_inb c)) (fun _ => rfl)).view.read (Elt F) (W P (2 + 1) c) :=
  accumulate_gen P (k0_off18 c) (k0_off15 (partner 8 c) 0#32 16#32) 16 (k0_off18_inb c) (k0_off15_inb (partner 8 c) 0)
    (fun a => by rw [keep8_eq c, src8_eq (partner 8 c), vs_keep_src_8 c]) c (partner 8 c) 2
    (fun y0 hy => by
      have hb := vs_keep_part_8 c
      rw [show (k0_off18 c) (0 : Fin 2) = keepRow 8 c from congrFun (keep8_eq c) 0,
        vs_rsMask 2 _ 2 (partOfRow_2 (by omega))]
      rfl)

/-- All-gather copy 11 undoing copy 8 (phase 0): the rows kept then are held, and stay; -/
theorem gather_keep_8 (c : Dev nD) :
    (accM.slice (Rect.unit (s := S512x1024) (k0_off18 c) S16x1024.size (k0_off18_inb c)) (fun _ => rfl)).view.read (Elt F) (A P (0 + 1) c) = (accM.slice (Rect.unit (s := S512x1024) (k0_off18 c) S16x1024.size (k0_off18_inb c)) (fun _ => rfl)).view.read (Elt F) (A P 0 c) :=
  gather_keep_gen P (k0_off18 c) 16 (k0_off18_inb c) 0 c (fun y0 hy => by
    have hb := vs_keep_part_8 c
    have hu := vs_undo_src_8 c
    rw [show (k0_off18 c) (0 : Fin 2) = keepRow 8 c from congrFun (keep8_eq c) 0]
    unfold heldAt
    rw [vs_agCopy 0 _ 2 (partOfRow_2 (by omega))]
    show srcRow 11 c ≤ keepRow 8 c + y0 ∧ keepRow 8 c + y0 < srcRow 11 c + 16
    omega)

/-- the rows sent then are received now: the partner's kept rows, as the partner holds them. -/
theorem gather_recv_8 (c : Dev nD) :
    (accM.slice (Rect.unit (s := S512x1024) (k0_off15 c 0#32 16#32) S16x1024.size (k0_off15_inb c 0)) (fun _ => rfl)).view.read (Elt F) (A P (0 + 1) c) = rowsRead 11 (partner 8 c) (A P 0 (partner 8 c)) :=
  gather_recv_gen P (k0_off15 c 0#32 16#32) (k0_off15 (partner 8 c) 16#32 0#32) 16 (k0_off15_inb c 0) (k0_off15_inb (partner 8 c) 1) 0 c (partner 8 c)
    (fun a => by rw [src8_eq c, src11_eq (partner 8 c), vs_undo_src_8 (partner 8 c), vs_keep_peer_8 c])
    (fun y0 hy => by
      have hb := vs_src_part_8 c
      have hu := vs_undo_src_8 c
      have ha := vs_apart_8 c
      rw [show (k0_off15 c 0#32 16#32) (0 : Fin 2) = srcRow 8 c from congrFun (src8_eq c) 0]
      unfold heldAt
      rw [vs_agCopy 0 _ 2 (partOfRow_2 (by omega))]
      show ¬(srcRow 11 c ≤ srcRow 8 c + y0 ∧ srcRow 8 c + y0 < srcRow 11 c + 16)
      omega)
    (fun y0 hy => by
      have hb := vs_src_part_8 c
      rw [show (k0_off15 c 0#32 16#32) (0 : Fin 2) = srcRow 8 c from congrFun (src8_eq c) 0,
        vs_agCopy 0 _ 2 (partOfRow_2 (by omega))]
      rfl)

end Phases

/-- info: 'Cert.Kernel.Coll.accumulate_8' depends on axioms: [propext, Classical.choice, Quot.sound] -/
#guard_msgs in #print axioms accumulate_8

/-- info: 'Cert.Kernel.Coll.gather_recv_8' depends on axioms: [propext, Classical.choice, Quot.sound] -/
#guard_msgs in #print axioms gather_recv_8

end Cert.Kernel.Coll

end
-- ==== Proof.Kernel.ValueJoins.lean ====
/-
  Joining what an all-gather phase hands a device. After the phase the device holds again the rows it sent in the matching
  reduce-scatter phase — now with its partner's entries — beside the rows it kept. The two runs are the two halves of the run
  it held before that reduce-scatter phase; contents that are the landed ones on the partner's rows and the device's own
  elsewhere read, through the whole run, as the accumulator after the phase. And the first all-gather phase's source rows
  are the last reduce-scatter phase's kept rows, named through another chain of offsets.
-/
import proofs.«900423_g7700000000000424_dist_attn_self_mha_htp_b1_sq512_skv512_d1024_hq8_dh128_v7x_i8_f32_1_alg».proof.Proof.Kernel.ValuePhases

noncomputable section

namespace Cert.Kernel.Coll

open Cert.Kernel Cert.Kernel.Gen Cert.Kernel.Mesh Idealize.ShloMosaic Idealize.ShloMosaic.ValueIdx

variable {F : FTy → Type} [FloatOps F]

/-! ## Same rows, two spellings -/

/-- The source rows of all-gather copy 9 ARE the rows kept at reduce-scatter copy 6, reached by another chain of offsets. -/
theorem src9_eq_keep6 (c : Dev nD) : (accM.slice (Rect.unit (s := S512x1024) (k0_off11 c 32#32 0#32) S32x1024.size (k0_off11_inb c 1)) (fun _ => rfl)) = (accM.slice (Rect.unit (s := S512x1024) (k0_off16 c) S32x1024.size (k0_off16_inb c)) (fun _ => rfl)) :=
  Memref.slice_unit_congr accM (by rw [src9_eq c, keep6_eq c, vs_undo_src_6 c]) _ _ _ _
/-- … so they read every contents alike. -/
theorem read_src9_eq_keep6 (c : Dev nD) (f : AccC F) :
    (accM.slice (Rect.unit (s := S512x1024) (k0_off11 c 32#32 0#32) S32x1024.size (k0_off11_inb c 1)) (fun _ => rfl)).view.read (Elt F) f = (accM.slice (Rect.unit (s := S512x1024) (k0_off16 c) S32x1024.size (k0_off16_inb c)) (fun _ => rfl)).view.read (Elt F) f := by
  funext y
  exact congrArg f (emb_congr (k0_off11 c 32#32 0#32) (k0_off16 c) 32 (k0_off11_inb c 1) (k0_off16_inb c)
    (fun a => by rw [src9_eq c, keep6_eq c, vs_undo_src_6 c]) y)

/-- The source rows of all-gather copy 10 ARE the rows kept at reduce-scatter copy 7, reached by another chain of offsets. -/
theorem src10_eq_keep7 (c : Dev nD) : (accM.slice (Rect.unit (s := S512x1024) (k0_off13 c 16#32 0#32) S16x1024.size (k0_off13_inb c 1)) (fun _ => rfl)) = (accM.slice (Rect.unit (s := S512x1024) (k0_off17 c) S16x1024.size (k0_off17_inb c)) (fun _ => rfl)) :=
  Memref.slice_unit_congr accM (by rw [src10_eq c, keep7_eq c, vs_undo_src_7 c]) _ _ _ _
/-- … so they read every contents alike. -/
theorem read_src10_eq_keep7 (c : Dev nD) (f : AccC F) :
    (accM.slice (Rect.unit (s := S512x1024) (k0_off13 c 16#32 0#32) S16x1024.size (k0_off13_inb c 1)) (fun _ => rfl)).view.read (Elt F) f = (accM.slice (Rect.unit (s := S512x1024) (k0_off17 c) S16x1024.size (k0_off17_inb c)) (fun _ => rfl)).view.read (Elt F) f := by
  funext y
  exact congrArg f (emb_congr (k0_off13 c 16#32 0#32) (k0_off17 c) 16 (k0_off13_inb c 1) (k0_off17_inb c)
    (fun a => by rw [src10_eq c, keep7_eq c, vs_undo_src_7 c]) y)

/-- The source rows of all-gather copy 11 ARE the rows kept at reduce-scatter copy 8, reached by another chain of offsets. -/
theorem src11_eq_keep8 (c : Dev nD) : (accM.slice (Rect.unit (s := S512x1024) (k0_off15 c 16#32 0#32) S16x1024.size (k0_off15_inb c 1)) (fun _ => rfl)) = (accM.slice (Rect.unit (s := S512x1024) (k0_off18 c) S16x1024.size (k0_off18_inb c)) (fun _ => rfl)) :=
  Memref.slice_unit_congr accM (by rw [src11_eq c, keep8_eq c, vs_undo_src_8 c]) _ _ _ _
/-- … so they read every contents alike. -/
theorem read_src11_eq_keep8 (c : Dev nD) (f : AccC F) :
    (accM.slice (Rect.unit (s := S512x1024) (k0_off15 c 16#32 0#32) S16x1024.size (k0_off15_inb c 1)) (fun _ => rfl)).view.read (Elt F) f = (accM.slice (Rect.unit (s := S512x1024) (k0_off18 c) S16x1024.size (k0_off18_inb c)) (fun _ => rfl)).view.read (Elt F) f := by
  funext y
  exact congrArg f (emb_congr (k0_off15 c 16#32 0#32) (k0_off18 c) 16 (k0_off15_inb c 1) (k0_off18_inb c)
    (fun a => by rw [src11_eq c, keep8_eq c, vs_undo_src_8 c]) y)

/-! ## The join -/

/-- Contents that agree with `X` through a run M and through a run R, the two halves of a run V, agree with `X`
    through V once pieced together: R's on R's rows, M's elsewhere. -/
theorem join_read_gen (offV offM offR : Fin 2 → ℕ) (n : ℕ)
    (inbV : ∀ a, offV a + (![2 * n, 1024] : Fin 2 → ℕ) a ≤ S512x1024.size a)
    (inbM : ∀ a, offM a + (![n, 1024] : Fin 2 → ℕ) a ≤ S512x1024.size a)
    (inbR : ∀ a, offR a + (![n, 1024] : Fin 2 → ℕ) a ≤ S512x1024.size a)
    (rV rM rR : ℕ) (hV0 : offV 0 = rV) (hV1 : offV 1 = 0) (hM0 : offM 0 = rM) (hM1 : offM 1 = 0)
    (hR0 : offR 0 = rR) (hR1 : offR 1 = 0)
    (hh : (rR = rV ∧ rM = rV + n) ∨ (rR = rV + n ∧ rM = rV)) (fm fr X : AccC F)
    (hm : (accM.slice (Rect.unit (s := S512x1024) offM ![n, 1024] inbM) (fun _ => rfl)).view.read (Elt F) fm
      = (accM.slice (Rect.unit (s := S512x1024) offM ![n, 1024] inbM) (fun _ => rfl)).view.read (Elt F) X)
    (hr : (accM.slice (Rect.unit (s := S512x1024) offR ![n, 1024] inbR) (fun _ => rfl)).view.read (Elt F) fr
      = (accM.slice (Rect.unit (s := S512x1024) offR ![n, 1024] inbR) (fun _ => rfl)).view.read (Elt F) X) :
    (accM.slice (Rect.unit (s := S512x1024) offV ![2 * n, 1024] inbV) (fun _ => rfl)).view.read (Elt F)
        ((rowSet 512 rR n).piecewise fr fm)
      = (accM.slice (Rect.unit (s := S512x1024) offV ![2 * n, 1024] inbV) (fun _ => rfl)).view.read (Elt F) X := by
  funext y
  have hy0 : (y 0).val < 2 * n := (y 0).isLt
  have hy1 : (y 1).val < 1024 := (y 1).isLt
  refine (acc_read_apply offV (2 * n) inbV _ y).trans ?_
  refine Eq.trans ?_ (acc_read_apply offV (2 * n) inbV X y).symm
  have hrow : ((Rect.unit (s := S512x1024) offV ![2 * n, 1024] inbV).emb y 0).val = rV + (y 0).val := by
    rw [emb_row, hV0]
  have hcol : ((Rect.unit (s := S512x1024) offV ![2 * n, 1024] inbV).emb y 1).val = (y 1).val := by
    rw [Rect.emb_apply]; show offV 1 + 1 * (y 1).val = (y 1).val; rw [hV1]; omega
  generalize (Rect.unit (s := S512x1024) offV ![2 * n, 1024] inbV).emb y = x at hrow hcol ⊢
  by_cases hmem : x ∈ rowSet 512 rR n
  · rw [Finset.piecewise_eq_of_mem _ _ _ hmem]
    rw [mem_rowSet] at hmem
    obtain ⟨y', he⟩ : ∃ y' : (Sn n).Idx, (Rect.unit (s := S512x1024) offR ![n, 1024] inbR).emb y' = x :=
      ⟨ix2 (⟨(x 0).val - rR, by omega⟩ : Fin n) (⟨(y 1).val, hy1⟩ : Fin 1024), funext fun a => Fin.ext (by
        match a with
        | ⟨0, _⟩ => show offR 0 + 1 * ((x 0).val - rR) = (x 0).val; rw [hR0]; omega
        | ⟨1, _⟩ => show offR 1 + 1 * (y 1).val = (x 1).val; rw [hR1, hcol]; omega)⟩
    have h := congrFun hr y'
    rw [acc_read_apply, acc_read_apply, he] at h
    exact h
  · rw [Finset.piecewise_eq_of_notMem _ _ _ hmem]
    rw [mem_rowSet] at hmem
    obtain ⟨y', he⟩ : ∃ y' : (Sn n).Idx, (Rect.unit (s := S512x1024) offM ![n, 1024] inbM).emb y' = x :=
      ⟨ix2 (⟨(x 0).val - rM, by omega⟩ : Fin n) (⟨(y 1).val, hy1⟩ : Fin 1024), funext fun a => Fin.ext (by
        match a with
        | ⟨0, _⟩ => show offM 0 + 1 * ((x 0).val - rM) = (x 0).val; rw [hM0]; omega
        | ⟨1, _⟩ => show offM 1 + 1 * (y 1).val = (x 1).val; rw [hM1, hcol]; omega)⟩
    have h := congrFun hm y'
    rw [acc_read_apply, acc_read_apply, he] at h
    exact h

/-! ### The rows of each all-gather copy: decided over the eight devices -/

theorem vs_join_halves_9 : ∀ c : Dev nD, (srcRow 9 (peer (maskOf 9) c) = srcRow 12 c ∧ srcRow 9 c = srcRow 12 c + 32)
    ∨ (srcRow 9 (peer (maskOf 9) c) = srcRow 12 c + 32 ∧ srcRow 9 c = srcRow 12 c) := by decide
theorem vs_own_part_9 : ∀ c : Dev nD, srcRow 9 c + 32 ≤ 256 := by decide
theorem vs_recv_part_9 : ∀ c : Dev nD, srcRow 9 (peer (maskOf 9) c) + 32 ≤ 256 := by decide

theorem vs_join_halves_10 : ∀ c : Dev nD, (srcRow 10 (peer (maskOf 10) c) = srcRow 13 c ∧ srcRow 10 c = srcRow 13 c + 16)
    ∨ (srcRow 10 (peer (maskOf 10) c) = srcRow 13 c + 16 ∧ srcRow 10 c = srcRow 13 c) := by decide
theorem vs_own_part_10 : ∀ c : Dev nD, 256 ≤ srcRow 10 c ∧ srcRow 10 c + 16 ≤ 384 := by decide
theorem vs_recv_part_10 : ∀ c : Dev nD, 256 ≤ srcRow 10 (peer (maskOf 10) c) ∧ srcRow 10 (peer (maskOf 10) c) + 16 ≤ 384 := by decide

theorem vs_join_halves_11 : ∀ c : Dev nD, (srcRow 11 (peer (maskOf 11) c) = srcRow 14 c ∧ srcRow 11 c = srcRow 14 c + 16)
    ∨ (srcRow 11 (peer (maskOf 11) c) = srcRow 14 c + 16 ∧ srcRow 11 c = srcRow 14 c) := by decide
theorem vs_own_part_11 : ∀ c : Dev nD, 384 ≤ srcRow 11 c := by decide
theorem vs_recv_part_11 : ∀ c : Dev nD, 384 ≤ srcRow 11 (peer (maskOf 11) c) := by decide

theorem vs_join_halves_12 : ∀ c : Dev nD, (srcRow 12 (peer (maskOf 12) c) = srcRow 15 c ∧ srcRow 12 c = srcRow 15 c + 64)
    ∨ (srcRow 12 (peer (maskOf 12) c) = srcRow 15 c + 64 ∧ srcRow 12 c = srcRow 15 c) := by decide
theorem vs_own_part_12 : ∀ c : Dev nD, srcRow 12 c + 64 ≤ 256 := by decide
theorem vs_recv_part_12 : ∀ c : Dev nD, srcRow 12 (peer (maskOf 12) c) + 64 ≤ 256 := by decide

theorem vs_join_halves_13 : ∀ c : Dev nD, (srcRow 13 (peer (maskOf 13) c) = srcRow 16 c ∧ srcRow 13 c = srcRow 16 c + 32)
    ∨ (srcRow 13 (peer (maskOf 13) c) = srcRow 16 c + 32 ∧ srcRow 13 c = srcRow 16 c) := by decide
theorem vs_own_part_13 : ∀ c : Dev nD, 256 ≤ srcRow 13 c ∧ srcRow 13 c + 32 ≤ 384 := by decide
theorem vs_recv_part_13 : ∀ c : Dev nD, 256 ≤ srcRow 13 (peer (maskOf 13) c) ∧ srcRow 13 (peer (maskOf 13) c) + 32 ≤ 384 := by decide

theorem vs_join_halves_14 : ∀ c : Dev nD, (srcRow 14 (peer (maskOf 14) c) = srcRow 17 c ∧ srcRow 14 c = srcRow 17 c + 32)
    ∨ (srcRow 14 (peer (maskOf 14) c) = srcRow 17 c + 32 ∧ srcRow 14 c = srcRow 17 c) := by decide
theorem vs_own_part_14 : ∀ c : Dev nD, 384 ≤ srcRow 14 c := by decide
theorem vs_recv_part_14 : ∀ c : Dev nD, 384 ≤ srcRow 14 (peer (maskOf 14) c) := by decide

theorem vs_join_halves_15 : ∀ c : Dev nD, (srcRow 15 (peer (maskOf 15) c) = 0 ∧ srcRow 15 c = 0 + 128)
    ∨ (srcRow 15 (peer (maskOf 15) c) = 0 + 128 ∧ srcRow 15 c = 0) := by decide
theorem vs_own_part_15 : ∀ c : Dev nD, srcRow 15 c + 128 ≤ 256 := by decide
theorem vs_recv_part_15 : ∀ c : Dev nD, srcRow 15 (peer (maskOf 15) c) + 128 ≤ 256 := by decide

theorem vs_join_halves_16 : ∀ c : Dev nD, (srcRow 16 (peer (maskOf 16) c) = 256 ∧ srcRow 16 c = 256 + 64)
    ∨ (srcRow 16 (peer (maskOf 16) c) = 256 + 64 ∧ srcRow 16 c = 256) := by decide
theorem vs_own_part_16 : ∀ c : Dev nD, 256 ≤ srcRow 16 c ∧ srcRow 16 c + 64 ≤ 384 := by decide
theorem vs_recv_part_16 : ∀ c : Dev nD, 256 ≤ srcRow 16 (peer (maskOf 16) c) ∧ srcRow 16 (peer (maskOf 16) c) + 64 ≤ 384 := by decide

theorem vs_join_halves_17 : ∀ c : Dev nD, (srcRow 17 (peer (maskOf 17) c) = 384 ∧ srcRow 17 c = 384 + 64)
    ∨ (srcRow 17 (peer (maskOf 17) c) = 384 + 64 ∧ srcRow 17 c = 384) := by decide
theorem vs_own_part_17 : ∀ c : Dev nD, 384 ≤ srcRow 17 c := by decide
theorem vs_recv_part_17 : ∀ c : Dev nD, 384 ≤ srcRow 17 (peer (maskOf 17) c) := by decide

section Joins
variable (P : Dev nD → AccC F)

/-- All-gather copy 9 (phase 0): the device's own 32 rows and the 32 rows landed from its partner, joined, read as the
    accumulator after the phase. -/
theorem join_read_9 (c : Dev nD) (fm fr : Buf (Elt F) (accL c))
    (hfm : (srcM 9 c).view.read (Elt F) fm = rowsRead 9 c (A P 0 c))
    (hfr : (dstM 9 (partner 9 c)).view.read (Elt F) fr = rowsRead 9 (partner 9 c) (A P 0 (partner 9 c))) :
    (accM.slice (Rect.unit (s := S512x1024) (k0_off19 c) S64x1024.size (k0_off19_inb c)) (fun _ => rfl)).view.read (Elt F) ((rowSet 512 (srcRow 9 (peer 1 c)) 32).piecewise fr fm)
      = (accM.slice (Rect.unit (s := S512x1024) (k0_off19 c) S64x1024.size (k0_off19_inb c)) (fun _ => rfl)).view.read (Elt F) (A P (0 + 1) c) :=
  join_read_gen (k0_off19 c) (k0_off11 c 32#32 0#32) (k0_off11 (partner 9 c) 32#32 0#32) 32 (k0_off19_inb c) (k0_off11_inb c 1) (k0_off11_inb (partner 9 c) 1)
    (srcRow 12 c) (srcRow 9 c) (srcRow 9 (peer 1 c)) (congrFun (src12_eq c) 0) (congrFun (src12_eq c) 1)
    (congrFun (src9_eq c) 0) (congrFun (src9_eq c) 1) (congrFun (src9_eq (partner 9 c)) 0) (congrFun (src9_eq (partner 9 c)) 1)
    (vs_join_halves_9 c) fm fr (A P (0 + 1) c)
    (hfm.trans (gather_keep_gen P (k0_off11 c 32#32 0#32) 32 (k0_off11_inb c 1) 0 c (fun y0 hy => by
      have hb := vs_own_part_9 c
      rw [show (k0_off11 c 32#32 0#32) (0 : Fin 2) = srcRow 9 c from congrFun (src9_eq c) 0]
      unfold heldAt
      rw [vs_agCopy 0 _ 0 (partOfRow_0 (by omega))]
      show srcRow 9 c ≤ srcRow 9 c + y0 ∧ srcRow 9 c + y0 < srcRow 9 c + 32
      omega)).symm)
    (hfr.trans (gather_recv_gen P (k0_off11 (partner 9 c) 32#32 0#32) (k0_off11 (partner 9 c) 32#32 0#32) 32 (k0_off11_inb (partner 9 c) 1) (k0_off11_inb (partner 9 c) 1) 0 c (partner 9 c) (fun _ => rfl)
      (fun y0 hy => by
        have hb := vs_recv_part_9 c
        have hh := vs_join_halves_9 c
        rw [show (k0_off11 (partner 9 c) 32#32 0#32) (0 : Fin 2) = srcRow 9 (peer (maskOf 9) c) from congrFun (src9_eq (partner 9 c)) 0]
        unfold heldAt
        rw [vs_agCopy 0 _ 0 (partOfRow_0 (by omega))]
        show ¬(srcRow 9 c ≤ srcRow 9 (peer (maskOf 9) c) + y0
          ∧ srcRow 9 (peer (maskOf 9) c) + y0 < srcRow 9 c + 32)
        omega)
      (fun y0 hy => by
        have hb := vs_recv_part_9 c
        rw [show (k0_off11 (partner 9 c) 32#32 0#32) (0 : Fin 2) = srcRow 9 (peer (maskOf 9) c) from congrFun (src9_eq (partner 9 c)) 0,
          vs_agCopy 0 _ 0 (partOfRow_0 (by omega))]
        rfl)).symm)

/-- All-gather copy 10 (phase 0): the device's own 16 rows and the 16 rows landed from its partner, joined, read as the
    accumulator after the phase. -/
theorem join_read_10 (c : Dev nD) (fm fr : Buf (Elt F) (accL c))
    (hfm : (srcM 10 c).view.read (Elt F) fm = rowsRead 10 c (A P 0 c))
    (hfr : (dstM 10 (partner 10 c)).view.read (Elt F) fr = rowsRead 10 (partner 10 c) (A P 0 (partner 10 c))) :
    (accM.slice (Rect.unit (s := S512x1024) (k0_off20 c) S32x1024.size (k0_off20_inb c)) (fun _ => rfl)).view.read (Elt F) ((rowSet 512 (srcRow 10 (peer 4 c)) 16).piecewise fr fm)
      = (accM.slice (Rect.unit (s := S512x1024) (k0_off20 c) S32x1024.size (k0_off20_inb c)) (fun _ => rfl)).view.read (Elt F) (A P (0 + 1) c) :=
  join_read_gen (k0_off20 c) (k0_off13 c 16#32 0#32) (k0_off13 (partner 10 c) 16#32 0#32) 16 (k0_off20_inb c) (k0_off13_inb c 1) (k0_off13_inb (partner 10 c) 1)
    (srcRow 13 c) (srcRow 10 c) (srcRow 10 (peer 4 c)) (congrFun (src13_eq c) 0) (congrFun (src13_eq c) 1)
    (congrFun (src10_eq c) 0) (congrFun (src10_eq c) 1) (congrFun (src10_eq (partner 10 c)) 0) (congrFun (src10_eq (partner 10 c)) 1)
    (vs_join_halves_10 c) fm fr (A P (0 + 1) c)
    (hfm.trans (gather_keep_gen P (k0_off13 c 16#32 0#32) 16 (k0_off13_inb c 1) 0 c (fun y0 hy => by
      have hb := vs_own_part_10 c
      rw [show (k0_off13 c 16#32 0#32) (0 : Fin 2) = srcRow 10 c from congrFun (src10_eq c) 0]
      unfold heldAt
      rw [vs_agCopy 0 _ 1 (partOfRow_1 (by omega) (by omega))]
      show srcRow 10 c ≤ srcRow 10 c + y0 ∧ srcRow 10 c + y0 < srcRow 10 c + 16
      omega)).symm)
    (hfr.trans (gather_recv_gen P (k0_off13 (partner 10 c) 16#32 0#32) (k0_off13 (partner 10 c) 16#32 0#32) 16 (k0_off13_inb (partner 10 c) 1) (k0_off13_inb (partner 10 c) 1) 0 c (partner 10 c) (fun _ => rfl)
      (fun y0 hy => by
        have hb := vs_recv_part_10 c
        have hh := vs_join_halves_10 c
        rw [show (k0_off13 (partner 10 c) 16#32 0#32) (0 : Fin 2) = srcRow 10 (peer (maskOf 10) c) from congrFun (src10_eq (partner 10 c)) 0]
        unfold heldAt
        rw [vs_agCopy 0 _ 1 (partOfRow_1 (by omega) (by omega))]
        show ¬(srcRow 10 c ≤ srcRow 10 (peer (maskOf 10) c) + y0
          ∧ srcRow 10 (peer (maskOf 10) c) + y0 < srcRow 10 c + 16)
        omega)
      (fun y0 hy => by
        have hb := vs_recv_part_10 c
        rw [show (k0_off13 (partner 10 c) 16#32 0#32) (0 : Fin 2) = srcRow 10 (peer (maskOf 10) c) from congrFun (src10_eq (partner 10 c)) 0,
          vs_agCopy 0 _ 1 (partOfRow_1 (by omega) (by omega))]
        rfl)).symm)

/-- All-gather copy 11 (phase 0): the device's own 16 rows and the 16 rows landed from its partner, joined, read as the
    accumulator after the phase. -/
theorem join_read_11 (c : Dev nD) (fm fr : Buf (Elt F) (accL c))
    (hfm : (srcM 11 c).view.read (Elt F) fm = rowsRead 11 c (A P 0 c))
    (hfr : (dstM 11 (partner 11 c)).view.read (Elt F) fr = rowsRead 11 (partner 11 c) (A P 0 (partner 11 c))) :
    (accM.slice (Rect.unit (s := S512x1024) (k0_off21 c) S32x1024.size (k0_off21_inb c)) (fun _ => rfl)).view.read (Elt F) ((rowSet 512 (srcRow 11 (peer 3 c)) 16).piecewise fr fm)
      = (accM.slice (Rect.unit (s := S512x1024) (k0_off21 c) S32x1024.size (k0_off21_inb c)) (fun _ => rfl)).view.read (Elt F) (A P (0 + 1) c) :=
  join_read_gen (k0_off21 c) (k0_off15 c 16#32 0#32) (k0_off15 (partner 11 c) 16#32 0#32) 16 (k0_off21_inb c) (k0_off15_inb c 1) (k0_off15_inb (partner 11 c) 1)
    (srcRow 14 c) (srcRow 11 c) (srcRow 11 (peer 3 c)) (congrFun (src14_eq c) 0) (congrFun (src14_eq c) 1)
    (congrFun (src11_eq c) 0) (congrFun (src11_eq c) 1) (congrFun (src11_eq (partner 11 c)) 0) (congrFun (src11_eq (partner 11 c)) 1)
    (vs_join_halves_11 c) fm fr (A P (0 + 1) c)
    (hfm.trans (gather_keep_gen P (k0_off15 c 16#32 0#32) 16 (k0_off15_inb c 1) 0 c (fun y0 hy => by
      have hb := vs_own_part_11 c
      rw [show (k0_off15 c 16#32 0#32) (0 : Fin 2) = srcRow 11 c from congrFun (src11_eq c) 0]
      unfold heldAt
      rw [vs_agCopy 0 _ 2 (partOfRow_2 (by omega))]
      show srcRow 11 c ≤ srcRow 11 c + y0 ∧ srcRow 11 c + y0 < srcRow 11 c + 16
      omega)).symm)
    (hfr.trans (gather_recv_gen P (k0_off15 (partner 11 c) 16#32 0#32) (k0_off15 (partner 11 c) 16#32 0#32) 16 (k0_off15_inb (partner 11 c) 1) (k0_off15_inb (partner 11 c) 1) 0 c (partner 11 c) (fun _ => rfl)
      (fun y0 hy => by
        have hb := vs_recv_part_11 c
        have hh := vs_join_halves_11 c
        rw [show (k0_off15 (partner 11 c) 16#32 0#32) (0 : Fin 2) = srcRow 11 (peer (maskOf 11) c) from congrFun (src11_eq (partner 11 c)) 0]
        unfold heldAt
        rw [vs_agCopy 0 _ 2 (partOfRow_2 (by omega))]
        show ¬(srcRow 11 c ≤ srcRow 11 (peer (maskOf 11) c) + y0
          ∧ srcRow 11 (peer (maskOf 11) c) + y0 < srcRow 11 c + 16)
        omega)
      (fun y0 hy => by
        have hb := vs_recv_part_11 c
        rw [show (k0_off15 (partner 11 c) 16#32 0#32) (0 : Fin 2) = srcRow 11 (peer (maskOf 11) c) from congrFun (src11_eq (partner 11 c)) 0,
          vs_agCopy 0 _ 2 (partOfRow_2 (by omega))]
        rfl)).symm)

/-- All-gather copy 12 (phase 1): the device's own 64 rows and the 64 rows landed from its partner, joined, read as the
    accumulator after the phase. -/
theorem join_read_12 (c : Dev nD) (fm fr : Buf (Elt F) (accL c))
    (hfm : (srcM 12 c).view.read (Elt F) fm = rowsRead 12 c (A P 1 c))
    (hfr : (dstM 12 (partner 12 c)).view.read (Elt F) fr = rowsRead 12 (partner 12 c) (A P 1 (partner 12 c))) :
    (accM.slice (Rect.unit (s := S512x1024) (k0_off22 c) S128x1024.size (k0_off22_inb c)) (fun _ => rfl)).view.read (Elt F) ((rowSet 512 (srcRow 12 (peer 3 c)) 64).piecewise fr fm)
      = (accM.slice (Rect.unit (s := S512x1024) (k0_off22 c) S128x1024.size (k0_off22_inb c)) (fun _ => rfl)).view.read (Elt F) (A P (1 + 1) c) :=
  join_read_gen (k0_off22 c) (k0_off19 c) (k0_off19 (partner 12 c)) 64 (k0_off22_inb c) (k0_off19_inb c) (k0_off19_inb (partner 12 c))
    (srcRow 15 c) (srcRow 12 c) (srcRow 12 (peer 3 c)) (congrFun (src15_eq c) 0) (congrFun (src15_eq c) 1)
    (congrFun (src12_eq c) 0) (congrFun (src12_eq c) 1) (congrFun (src12_eq (partner 12 c)) 0) (congrFun (src12_eq (partner 12 c)) 1)
    (vs_join_halves_12 c) fm fr (A P (1 + 1) c)
    (hfm.trans (gather_keep_gen P (k0_off19 c) 64 (k0_off19_inb c) 1 c (fun y0 hy => by
      have hb := vs_own_part_12 c
      rw [show (k0_off19 c) (0 : Fin 2) = srcRow 12 c from congrFun (src12_eq c) 0]
      unfold heldAt
      rw [vs_agCopy 1 _ 0 (partOfRow_0 (by omega))]
      show srcRow 12 c ≤ srcRow 12 c + y0 ∧ srcRow 12 c + y0 < srcRow 12 c + 64
      omega)).symm)
    (hfr.trans (gather_recv_gen P (k0_off19 (partner 12 c)) (k0_off19 (partner 12 c)) 64 (k0_off19_inb (partner 12 c)) (k0_off19_inb (partner 12 c)) 1 c (partner 12 c) (fun _ => rfl)
      (fun y0 hy => by
        have hb := vs_recv_part_12 c
        have hh := vs_join_halves_12 c
        rw [show (k0_off19 (partner 12 c)) (0 : Fin 2) = srcRow 12 (peer (maskOf 12) c) from congrFun (src12_eq (partner 12 c)) 0]
        unfold heldAt
        rw [vs_agCopy 1 _ 0 (partOfRow_0 (by omega))]
        show ¬(srcRow 12 c ≤ srcRow 12 (peer (maskOf 12) c) + y0
          ∧ srcRow 12 (peer (maskOf 12) c) + y0 < srcRow 12 c + 64)
        omega)
      (fun y0 hy => by
        have hb := vs_recv_part_12 c
        rw [show (k0_off19 (partner 12 c)) (0 : Fin 2) = srcRow 12 (peer (maskOf 12) c) from congrFun (src12_eq (partner 12 c)) 0,
          vs_agCopy 1 _ 0 (partOfRow_0 (by omega))]
        rfl)).symm)

/-- All-gather copy 13 (phase 1): the device's own 32 rows and the 32 rows landed from its partner, joined, read as the
    accumulator after the phase. -/
theorem join_read_13 (c : Dev nD) (fm fr : Buf (Elt F) (accL c))
    (hfm : (srcM 13 c).view.read (Elt F) fm = rowsRead 13 c (A P 1 c))
    (hfr : (dstM 13 (partner 13 c)).view.read (Elt F) fr = rowsRead 13 (partner 13 c) (A P 1 (partner 13 c))) :
    (accM.slice (Rect.unit (s := S512x1024) (k0_off23 c) S64x1024.size (k0_off23_inb c)) (fun _ => rfl)).view.read (Elt F) ((rowSet 512 (srcRow 13 (peer 1 c)) 32).piecewise fr fm)
      = (accM.slice (Rect.unit (s := S512x1024) (k0_off23 c) S64x1024.size (k0_off23_inb c)) (fun _ => rfl)).view.read (Elt F) (A P (1 + 1) c) :=
  join_read_gen (k0_off23 c) (k0_off20 c) (k0_off20 (partner 13 c)) 32 (k0_off23_inb c) (k0_off20_inb c) (k0_off20_inb (partner 13 c))
    (srcRow 16 c) (srcRow 13 c) (srcRow 13 (peer 1 c)) (congrFun (src16_eq c) 0) (congrFun (src16_eq c) 1)
    (congrFun (src13_eq c) 0) (congrFun (src13_eq c) 1) (congrFun (src13_eq (partner 13 c)) 0) (congrFun (src13_eq (partner 13 c)) 1)
    (vs_join_halves_13 c) fm fr (A P (1 + 1) c)
    (hfm.trans (gather_keep_gen P (k0_off20 c) 32 (k0_off20_inb c) 1 c (fun y0 hy => by
      have hb := vs_own_part_13 c
      rw [show (k0_off20 c) (0 : Fin 2) = srcRow 13 c from congrFun (src13_eq c) 0]
      unfold heldAt
      rw [vs_agCopy 1 _ 1 (partOfRow_1 (by omega) (by omega))]
      show srcRow 13 c ≤ srcRow 13 c + y0 ∧ srcRow 13 c + y0 < srcRow 13 c + 32
      omega)).symm)
    (hfr.trans (gather_recv_gen P (k0_off20 (partner 13 c)) (k0_off20 (partner 13 c)) 32 (k0_off20_inb (partner 13 c)) (k0_off20_inb (partner 13 c)) 1 c (partner 13 c) (fun _ => rfl)
      (fun y0 hy => by
        have hb := vs_recv_part_13 c
        have hh := vs_join_halves_13 c
        rw [show (k0_off20 (partner 13 c)) (0 : Fin 2) = srcRow 13 (peer (maskOf 13) c) from congrFun (src13_eq (partner 13 c)) 0]
        unfold heldAt
        rw [vs_agCopy 1 _ 1 (partOfRow_1 (by omega) (by omega))]
        show ¬(srcRow 13 c ≤ srcRow 13 (peer (maskOf 13) c) + y0
          ∧ srcRow 13 (peer (maskOf 13) c) + y0 < srcRow 13 c + 32)
        omega)
      (fun y0 hy => by
        have hb := vs_recv_part_13 c
        rw [show (k0_off20 (partner 13 c)) (0 : Fin 2) = srcRow 13 (peer (maskOf 13) c) from congrFun (src13_eq (partner 13 c)) 0,
          vs_agCopy 1 _ 1 (partOfRow_1 (by omega) (by omega))]
        rfl)).symm)

/-- All-gather copy 14 (phase 1): the device's own 32 rows and the 32 rows landed from its partner, joined, read as the
    accumulator after the phase. -/
theorem join_read_14 (c : Dev nD) (fm fr : Buf (Elt F) (accL c))
    (hfm : (srcM 14 c).view.read (Elt F) fm = rowsRead 14 c (A P 1 c))
    (hfr : (dstM 14 (partner 14 c)).view.read (Elt F) fr = rowsRead 14 (partner 14 c) (A P 1 (partner 14 c))) :
    (accM.slice (Rect.unit (s := S512x1024) (k0_off24 c) S64x1024.size (k0_off24_inb c)) (fun _ => rfl)).view.read (Elt F) ((rowSet 512 (srcRow 14 (peer 4 c)) 32).piecewise fr fm)
      = (accM.slice (Rect.unit (s := S512x1024) (k0_off24 c) S64x1024.size (k0_off24_inb c)) (fun _ => rfl)).view.read (Elt F) (A P (1 + 1) c) :=
  join_read_gen (k0_off24 c) (k0_off21 c) (k0_off21 (partner 14 c)) 32 (k0_off24_inb c) (k0_off21_inb c) (k0_off21_inb (partner 14 c))
    (srcRow 17 c) (srcRow 14 c) (srcRow 14 (peer 4 c)) (congrFun (src17_eq c) 0) (congrFun (src17_eq c) 1)
    (congrFun (src14_eq c) 0) (congrFun (src14_eq c) 1) (congrFun (src14_eq (partner 14 c)) 0) (congrFun (src14_eq (partner 14 c)) 1)
    (vs_join_halves_14 c) fm fr (A P (1 + 1) c)
    (hfm.trans (gather_keep_gen P (k0_off21 c) 32 (k0_off21_inb c) 1 c (fun y0 hy => by
      have hb := vs_own_part_14 c
      rw [show (k0_off21 c) (0 : Fin 2) = srcRow 14 c from congrFun (src14_eq c) 0]
      unfold heldAt
      rw [vs_agCopy 1 _ 2 (partOfRow_2 (by omega))]
      show srcRow 14 c ≤ srcRow 14 c + y0 ∧ srcRow 14 c + y0 < srcRow 14 c + 32
      omega)).symm)
    (hfr.trans (gather_recv_gen P (k0_off21 (partner 14 c)) (k0_off21 (partner 14 c)) 32 (k0_off21_inb (partner 14 c)) (k0_off21_inb (partner 14 c)) 1 c (partner 14 c) (fun _ => rfl)
      (fun y0 hy => by
        have hb := vs_recv_part_14 c
        have hh := vs_join_halves_14 c
        rw [show (k0_off21 (partner 14 c)) (0 : Fin 2) = srcRow 14 (peer (maskOf 14) c) from congrFun (src14_eq (partner 14 c)) 0]
        unfold heldAt
        rw [vs_agCopy 1 _ 2 (partOfRow_2 (by omega))]
        show ¬(srcRow 14 c ≤ srcRow 14 (peer (maskOf 14) c) + y0
          ∧ srcRow 14 (peer (maskOf 14) c) + y0 < srcRow 14 c + 32)
        omega)
      (fun y0 hy => by
        have hb := vs_recv_part_14 c
        rw [show (k0_off21 (partner 14 c)) (0 : Fin 2) = srcRow 14 (peer (maskOf 14) c) from congrFun (src14_eq (partner 14 c)) 0,
          vs_agCopy 1 _ 2 (partOfRow_2 (by omega))]
        rfl)).symm)

/-- All-gather copy 15 (phase 2): the device's own 128 rows and the 128 rows landed from its partner, joined, read as the
    accumulator after the phase. -/
theorem join_read_15 (c : Dev nD) (fm fr : Buf (Elt F) (accL c))
    (hfm : (srcM 15 c).view.read (Elt F) fm = rowsRead 15 c (A P 2 c))
    (hfr : (dstM 15 (partner 15 c)).view.read (Elt F) fr = rowsRead 15 (partner 15 c) (A P 2 (partner 15 c))) :
    (accM.slice (Rect.unit (s := S512x1024) ![0, 0] S256x1024.size inb_S512x1024_S256x1024_0_0) (fun _ => rfl)).view.read (Elt F) ((rowSet 512 (srcRow 15 (peer 4 c)) 128).piecewise fr fm)
      = (accM.slice (Rect.unit (s := S512x1024) ![0, 0] S256x1024.size inb_S512x1024_S256x1024_0_0) (fun _ => rfl)).view.read (Elt F) (A P (2 + 1) c) :=
  join_read_gen (![0, 0]) (k0_off22 c) (k0_off22 (partner 15 c)) 128 (inb_S512x1024_S256x1024_0_0) (k0_off22_inb c) (k0_off22_inb (partner 15 c))
    (0) (srcRow 15 c) (srcRow 15 (peer 4 c)) rfl rfl
    (congrFun (src15_eq c) 0) (congrFun (src15_eq c) 1) (congrFun (src15_eq (partner 15 c)) 0) (congrFun (src15_eq (partner 15 c)) 1)
    (vs_join_halves_15 c) fm fr (A P (2 + 1) c)
    (hfm.trans (gather_keep_gen P (k0_off22 c) 128 (k0_off22_inb c) 2 c (fun y0 hy => by
      have hb := vs_own_part_15 c
      rw [show (k0_off22 c) (0 : Fin 2) = srcRow 15 c from congrFun (src15_eq c) 0]
      unfold heldAt
      rw [vs_agCopy 2 _ 0 (partOfRow_0 (by omega))]
      show srcRow 15 c ≤ srcRow 15 c + y0 ∧ srcRow 15 c + y0 < srcRow 15 c + 128
      omega)).symm)
    (hfr.trans (gather_recv_gen P (k0_off22 (partner 15 c)) (k0_off22 (partner 15 c)) 128 (k0_off22_inb (partner 15 c)) (k0_off22_inb (partner 15 c)) 2 c (partner 15 c) (fun _ => rfl)
      (fun y0 hy => by
        have hb := vs_recv_part_15 c
        have hh := vs_join_halves_15 c
        rw [show (k0_off22 (partner 15 c)) (0 : Fin 2) = srcRow 15 (peer (maskOf 15) c) from congrFun (src15_eq (partner 15 c)) 0]
        unfold heldAt
        rw [vs_agCopy 2 _ 0 (partOfRow_0 (by omega))]
        show ¬(srcRow 15 c ≤ srcRow 15 (peer (maskOf 15) c) + y0
          ∧ srcRow 15 (peer (maskOf 15) c) + y0 < srcRow 15 c + 128)
        omega)
      (fun y0 hy => by
        have hb := vs_recv_part_15 c
        rw [show (k0_off22 (partner 15 c)) (0 : Fin 2) = srcRow 15 (peer (maskOf 15) c) from congrFun (src15_eq (partner 15 c)) 0,
          vs_agCopy 2 _ 0 (partOfRow_0 (by omega))]
        rfl)).symm)

/-- All-gather copy 16 (phase 2): the device's own 64 rows and the 64 rows landed from its partner, joined, read as the
    accumulator after the phase. -/
theorem join_read_16 (c : Dev nD) (fm fr : Buf (Elt F) (accL c))
    (hfm : (srcM 16 c).view.read (Elt F) fm = rowsRead 16 c (A P 2 c))
    (hfr : (dstM 16 (partner 16 c)).view.read (Elt F) fr = rowsRead 16 (partner 16 c) (A P 2 (partner 16 c))) :
    (accM.slice (Rect.unit (s := S512x1024) ![256, 0] S128x1024.size inb_S512x1024_S128x1024_256_0) (fun _ => rfl)).view.read (Elt F) ((rowSet 512 (srcRow 16 (peer 3 c)) 64).piecewise fr fm)
      = (accM.slice (Rect.unit (s := S512x1024) ![256, 0] S128x1024.size inb_S512x1024_S128x1024_256_0) (fun _ => rfl)).view.read (Elt F) (A P (2 + 1) c) :=
  join_read_gen (![256, 0]) (k0_off23 c) (k0_off23 (partner 16 c)) 64 (inb_S512x1024_S128x1024_256_0) (k0_off23_inb c) (k0_off23_inb (partner 16 c))
    (256) (srcRow 16 c) (srcRow 16 (peer 3 c)) rfl rfl
    (congrFun (src16_eq c) 0) (congrFun (src16_eq c) 1) (congrFun (src16_eq (partner 16 c)) 0) (congrFun (src16_eq (partner 16 c)) 1)
    (vs_join_halves_16 c) fm fr (A P (2 + 1) c)
    (hfm.trans (gather_keep_gen P (k0_off23 c) 64 (k0_off23_inb c) 2 c (fun y0 hy => by
      have hb := vs_own_part_16 c
      rw [show (k0_off23 c) (0 : Fin 2) = srcRow 16 c from congrFun (src16_eq c) 0]
      unfold heldAt
      rw [vs_agCopy 2 _ 1 (partOfRow_1 (by omega) (by omega))]
      show srcRow 16 c ≤ srcRow 16 c + y0 ∧ srcRow 16 c + y0 < srcRow 16 c + 64
      omega)).symm)
    (hfr.trans (gather_recv_gen P (k0_off23 (partner 16 c)) (k0_off23 (partner 16 c)) 64 (k0_off23_inb (partner 16 c)) (k0_off23_inb (partner 16 c)) 2 c (partner 16 c) (fun _ => rfl)
      (fun y0 hy => by
        have hb := vs_recv_part_16 c
        have hh := vs_join_halves_16 c
        rw [show (k0_off23 (partner 16 c)) (0 : Fin 2) = srcRow 16 (peer (maskOf 16) c) from congrFun (src16_eq (partner 16 c)) 0]
        unfold heldAt
        rw [vs_agCopy 2 _ 1 (partOfRow_1 (by omega) (by omega))]
        show ¬(srcRow 16 c ≤ srcRow 16 (peer (maskOf 16) c) + y0
          ∧ srcRow 16 (peer (maskOf 16) c) + y0 < srcRow 16 c + 64)
        omega)
      (fun y0 hy => by
        have hb := vs_recv_part_16 c
        rw [show (k0_off23 (partner 16 c)) (0 : Fin 2) = srcRow 16 (peer (maskOf 16) c) from congrFun (src16_eq (partner 16 c)) 0,
          vs_agCopy 2 _ 1 (partOfRow_1 (by omega) (by omega))]
        rfl)).symm)

/-- All-gather copy 17 (phase 2): the device's own 64 rows and the 64 rows landed from its partner, joined, read as the
    accumulator after the phase. -/
theorem join_read_17 (c : Dev nD) (fm fr : Buf (Elt F) (accL c))
    (hfm : (srcM 17 c).view.read (Elt F) fm = rowsRead 17 c (A P 2 c))
    (hfr : (dstM 17 (partner 17 c)).view.read (Elt F) fr = rowsRead 17 (partner 17 c) (A P 2 (partner 17 c))) :
    (accM.slice (Rect.unit (s := S512x1024) ![384, 0] S128x1024.size inb_S512x1024_S128x1024_384_0) (fun _ => rfl)).view.read (Elt F) ((rowSet 512 (srcRow 17 (peer 1 c)) 64).piecewise fr fm)
      = (accM.slice (Rect.unit (s := S512x1024) ![384, 0] S128x1024.size inb_S512x1024_S128x1024_384_0) (fun _ => rfl)).view.read (Elt F) (A P (2 + 1) c) :=
  join_read_gen (![384, 0]) (k0_off24 c) (k0_off24 (partner 17 c)) 64 (inb_S512x1024_S128x1024_384_0) (k0_off24_inb c) (k0_off24_inb (partner 17 c))
    (384) (srcRow 17 c) (srcRow 17 (peer 1 c)) rfl rfl
    (congrFun (src17_eq c) 0) (congrFun (src17_eq c) 1) (congrFun (src17_eq (partner 17 c)) 0) (congrFun (src17_eq (partner 17 c)) 1)
    (vs_join_halves_17 c) fm fr (A P (2 + 1) c)
    (hfm.trans (gather_keep_gen P (k0_off24 c) 64 (k0_off24_inb c) 2 c (fun y0 hy => by
      have hb := vs_own_part_17 c
      rw [show (k0_off24 c) (0 : Fin 2) = srcRow 17 c from congrFun (src17_eq c) 0]
      unfold heldAt
      rw [vs_agCopy 2 _ 2 (partOfRow_2 (by omega))]
      show srcRow 17 c ≤ srcRow 17 c + y0 ∧ srcRow 17 c + y0 < srcRow 17 c + 64
      omega)).symm)
    (hfr.trans (gather_recv_gen P (k0_off24 (partner 17 c)) (k0_off24 (partner 17 c)) 64 (k0_off24_inb (partner 17 c)) (k0_off24_inb (partner 17 c)) 2 c (partner 17 c) (fun _ => rfl)
      (fun y0 hy => by
        have hb := vs_recv_part_17 c
        have hh := vs_join_halves_17 c
        rw [show (k0_off24 (partner 17 c)) (0 : Fin 2) = srcRow 17 (peer (maskOf 17) c) from congrFun (src17_eq (partner 17 c)) 0]
        unfold heldAt
        rw [vs_agCopy 2 _ 2 (partOfRow_2 (by omega))]
        show ¬(srcRow 17 c ≤ srcRow 17 (peer (maskOf 17) c) + y0
          ∧ srcRow 17 (peer (maskOf 17) c) + y0 < srcRow 17 c + 64)
        omega)
      (fun y0 hy => by
        have hb := vs_recv_part_17 c
        rw [show (k0_off24 (partner 17 c)) (0 : Fin 2) = srcRow 17 (peer (maskOf 17) c) from congrFun (src17_eq (partner 17 c)) 0,
          vs_agCopy 2 _ 2 (partOfRow_2 (by omega))]
        rfl)).symm)

end Joins

/-- info: 'Cert.Kernel.Coll.join_read_17' depends on axioms: [propext, Classical.choice, Quot.sound] -/
#guard_msgs in #print axioms join_read_17

/-- info: 'Cert.Kernel.Coll.join_read_9' depends on axioms: [propext, Classical.choice, Quot.sound] -/
#guard_msgs in #print axioms join_read_9

/-- info: 'Cert.Kernel.Coll.src9_eq_keep6' depends on axioms: [propext, Classical.choice, Quot.sound] -/
#guard_msgs in #print axioms src9_eq_keep6

end Cert.Kernel.Coll

end
-- ==== Proof.Kernel.ValueStore.lean ====
/-
  The three stores of a device's own product, against the contents the run leaves.

  The body loads each staged operand whole — a load of a whole buffer reads its contents —, and each staged operand is its
  window's block as launched. So the value each store writes is the part's value composed from the launched arrays, and what
  the store leaves reads, on its part, as the device's product `Pc m c` reads there.
-/
import proofs.«900423_g7700000000000424_dist_attn_self_mha_htp_b1_sq512_skv512_d1024_hq8_dh128_v7x_i8_f32_1_alg».proof.Proof.Kernel.ValueSteps
import proofs.«900423_g7700000000000424_dist_attn_self_mha_htp_b1_sq512_skv512_d1024_hq8_dh128_v7x_i8_f32_1_alg».proof.Proof.Kernel.BodyOut

noncomputable section

namespace Cert.Kernel.Coll

open Cert.Kernel Cert.Kernel.Gen Cert.Kernel.Mesh

open Idealize.ShloMosaic
open Idealize.ShloMosaic.TcCoe

variable {F : FTy → Type} [FloatOps F]

/-- Part 0: what its store leaves reads, on the part, as the device's product does. -/
theorem store_val_0 (m : Mem F) (c : Dev nD) (a0 : AccC F)
    (g0 : Buf (Elt F) ((c : Thread nD τ).loc cc0_stg0_0)) (g1 : Buf (Elt F) ((c : Thread nD τ).loc cc0_stg1_0))
    (g2 : Buf (Elt F) ((c : Thread nD τ).loc cc0_stg2_0)) (g3 : Buf (Elt F) ((c : Thread nD τ).loc cc0_stg3_0))
    (g4 : Buf (Elt F) ((c : Thread nD τ).loc cc0_stg4_0))
    (h0 : g0 = iblk m c (0 : Fin 6) t0_0) (h1 : g1 = iblk m c (1 : Fin 6) t0_0) (h2 : g2 = iblk m c (2 : Fin 6) t0_0)
    (h3 : g3 = iblk m c (3 : Fin 6) t0_0) (h4 : g4 = iblk m c (4 : Fin 6) t0_0) :
    (accM.slice (Rect.unit (s := S512x1024) ![0, 0] S256x1024.size inb_S512x1024_S256x1024_0_0) (fun _ => rfl)).view.read (Elt F)
        (((Memref.whole cc0_scratch0).access (Rect.unit ![0, 0] S256x1024.size inb_S512x1024_S256x1024_0_0)).write (Elt F) a0
          (stored0 ((Memref.whole cc0_stg0_0).view.readAt (Elt F) (Rect.unit ![0, 0, 0] S1x512x1024.size inb_S1x512x1024_S1x512x1024_0_0_0).toLoadRect g0)
            ((Memref.whole cc0_stg1_0).view.readAt (Elt F) (Rect.unit ![0, 0] S1024x1024.size inb_S1024x1024_S1024x1024_0_0).toLoadRect g1)
            ((Memref.whole cc0_stg2_0).view.readAt (Elt F) (Rect.unit ![0, 0] S1024x1024.size inb_S1024x1024_S1024x1024_0_0).toLoadRect g2)
            ((Memref.whole cc0_stg3_0).view.readAt (Elt F) (Rect.unit ![0, 0] S1024x1024.size inb_S1024x1024_S1024x1024_0_0).toLoadRect g3)
            ((Memref.whole cc0_stg4_0).view.readAt (Elt F) (Rect.unit ![0, 0] S1024x1024.size inb_S1024x1024_S1024x1024_0_0).toLoadRect g4)) Finset.univ)
      = (accM.slice (Rect.unit (s := S512x1024) ![0, 0] S256x1024.size inb_S512x1024_S256x1024_0_0) (fun _ => rfl)).view.read (Elt F) (Pc m c) := by
  have e0 : ((Memref.whole cc0_stg0_0).view.readAt (Elt F) (Rect.unit ![0, 0, 0] S1x512x1024.size inb_S1x512x1024_S1x512x1024_0_0_0).toLoadRect g0) = iblk m c (0 : Fin 6) t0_0 := (Memref.readAt_unit_zero (Elt F) cc0_stg0_0 zeros3 _ g0).trans h0
  have e1 : ((Memref.whole cc0_stg1_0).view.readAt (Elt F) (Rect.unit ![0, 0] S1024x1024.size inb_S1024x1024_S1024x1024_0_0).toLoadRect g1) = iblk m c (1 : Fin 6) t0_0 := (Memref.readAt_unit_zero (Elt F) cc0_stg1_0 zeros2 _ g1).trans h1
  have e2 : ((Memref.whole cc0_stg2_0).view.readAt (Elt F) (Rect.unit ![0, 0] S1024x1024.size inb_S1024x1024_S1024x1024_0_0).toLoadRect g2) = iblk m c (2 : Fin 6) t0_0 := (Memref.readAt_unit_zero (Elt F) cc0_stg2_0 zeros2 _ g2).trans h2
  have e3 : ((Memref.whole cc0_stg3_0).view.readAt (Elt F) (Rect.unit ![0, 0] S1024x1024.size inb_S1024x1024_S1024x1024_0_0).toLoadRect g3) = iblk m c (3 : Fin 6) t0_0 := (Memref.readAt_unit_zero (Elt F) cc0_stg3_0 zeros2 _ g3).trans h3
  have e4 : ((Memref.whole cc0_stg4_0).view.readAt (Elt F) (Rect.unit ![0, 0] S1024x1024.size inb_S1024x1024_S1024x1024_0_0).toLoadRect g4) = iblk m c (4 : Fin 6) t0_0 := (Memref.readAt_unit_zero (Elt F) cc0_stg4_0 zeros2 _ g4).trans h4
  rw [e0, e1, e2, e3, e4]
  exact part_store_0 (iblk m c (0 : Fin 6) t0_0) (iblk m c (1 : Fin 6) t0_0) (iblk m c (2 : Fin 6) t0_0) (iblk m c (3 : Fin 6) t0_0) (iblk m c (4 : Fin 6) t0_0) a0

/-- Part 1: what its store leaves reads, on the part, as the device's product does. -/
theorem store_val_1 (m : Mem F) (c : Dev nD) (a0 : AccC F)
    (g0 : Buf (Elt F) ((c : Thread nD τ).loc cc0_stg0_0)) (g1 : Buf (Elt F) ((c : Thread nD τ).loc cc0_stg1_0))
    (g2 : Buf (Elt F) ((c : Thread nD τ).loc cc0_stg2_0)) (g3 : Buf (Elt F) ((c : Thread nD τ).loc cc0_stg3_0))
    (g4 : Buf (Elt F) ((c : Thread nD τ).loc cc0_stg4_0))
    (h0 : g0 = iblk m c (0 : Fin 6) t0_0) (h1 : g1 = iblk m c (1 : Fin 6) t0_0) (h2 : g2 = iblk m c (2 : Fin 6) t0_0)
    (h3 : g3 = iblk m c (3 : Fin 6) t0_0) (h4 : g4 = iblk m c (4 : Fin 6) t0_0) :
    (accM.slice (Rect.unit (s := S512x1024) ![256, 0] S128x1024.size inb_S512x1024_S128x1024_256_0) (fun _ => rfl)).view.read (Elt F)
        (((Memref.whole cc0_scratch0).access (Rect.unit ![256, 0] S128x1024.size inb_S512x1024_S128x1024_256_0)).write (Elt F) a0
          (stored1 ((Memref.whole cc0_stg0_0).view.readAt (Elt F) (Rect.unit ![0, 0, 0] S1x512x1024.size inb_S1x512x1024_S1x512x1024_0_0_0).toLoadRect g0)
            ((Memref.whole cc0_stg1_0).view.readAt (Elt F) (Rect.unit ![0, 0] S1024x1024.size inb_S1024x1024_S1024x1024_0_0).toLoadRect g1)
            ((Memref.whole cc0_stg2_0).view.readAt (Elt F) (Rect.unit ![0, 0] S1024x1024.size inb_S1024x1024_S1024x1024_0_0).toLoadRect g2)
            ((Memref.whole cc0_stg3_0).view.readAt (Elt F) (Rect.unit ![0, 0] S1024x1024.size inb_S1024x1024_S1024x1024_0_0).toLoadRect g3)
            ((Memref.whole cc0_stg4_0).view.readAt (Elt F) (Rect.unit ![0, 0] S1024x1024.size inb_S1024x1024_S1024x1024_0_0).toLoadRect g4)) Finset.univ)
      = (accM.slice (Rect.unit (s := S512x1024) ![256, 0] S128x1024.size inb_S512x1024_S128x1024_256_0) (fun _ => rfl)).view.read (Elt F) (Pc m c) := by
  have e0 : ((Memref.whole cc0_stg0_0).view.readAt (Elt F) (Rect.unit ![0, 0, 0] S1x512x1024.size inb_S1x512x1024_S1x512x1024_0_0_0).toLoadRect g0) = iblk m c (0 : Fin 6) t0_0 := (Memref.readAt_unit_zero (Elt F) cc0_stg0_0 zeros3 _ g0).trans h0
  have e1 : ((Memref.whole cc0_stg1_0).view.readAt (Elt F) (Rect.unit ![0, 0] S1024x1024.size inb_S1024x1024_S1024x1024_0_0).toLoadRect g1) = iblk m c (1 : Fin 6) t0_0 := (Memref.readAt_unit_zero (Elt F) cc0_stg1_0 zeros2 _ g1).trans h1
  have e2 : ((Memref.whole cc0_stg2_0).view.readAt (Elt F) (Rect.unit ![0, 0] S1024x1024.size inb_S1024x1024_S1024x1024_0_0).toLoadRect g2) = iblk m c (2 : Fin 6) t0_0 := (Memref.readAt_unit_zero (Elt F) cc0_stg2_0 zeros2 _ g2).trans h2
  have e3 : ((Memref.whole cc0_stg3_0).view.readAt (Elt F) (Rect.unit ![0, 0] S1024x1024.size inb_S1024x1024_S1024x1024_0_0).toLoadRect g3) = iblk m c (3 : Fin 6) t0_0 := (Memref.readAt_unit_zero (Elt F) cc0_stg3_0 zeros2 _ g3).trans h3
  have e4 : ((Memref.whole cc0_stg4_0).view.readAt (Elt F) (Rect.unit ![0, 0] S1024x1024.size inb_S1024x1024_S1024x1024_0_0).toLoadRect g4) = iblk m c (4 : Fin 6) t0_0 := (Memref.readAt_unit_zero (Elt F) cc0_stg4_0 zeros2 _ g4).trans h4
  rw [e0, e1, e2, e3, e4]
  exact part_store_1 (iblk m c (0 : Fin 6) t0_0) (iblk m c (1 : Fin 6) t0_0) (iblk m c (2 : Fin 6) t0_0) (iblk m c (3 : Fin 6) t0_0) (iblk m c (4 : Fin 6) t0_0) a0

/-- Part 2: what its store leaves reads, on the part, as the device's product does. -/
theorem store_val_2 (m : Mem F) (c : Dev nD) (a0 : AccC F)
    (g0 : Buf (Elt F) ((c : Thread nD τ).loc cc0_stg0_0)) (g1 : Buf (Elt F) ((c : Thread nD τ).loc cc0_stg1_0))
    (g2 : Buf (Elt F) ((c : Thread nD τ).loc cc0_stg2_0)) (g3 : Buf (Elt F) ((c : Thread nD τ).loc cc0_stg3_0))
    (g4 : Buf (Elt F) ((c : Thread nD τ).loc cc0_stg4_0))
    (h0 : g0 = iblk m c (0 : Fin 6) t0_0) (h1 : g1 = iblk m c (1 : Fin 6) t0_0) (h2 : g2 = iblk m c (2 : Fin 6) t0_0)
    (h3 : g3 = iblk m c (3 : Fin 6) t0_0) (h4 : g4 = iblk m c (4 : Fin 6) t0_0) :
    (accM.slice (Rect.unit (s := S512x1024) ![384, 0] S128x1024.size inb_S512x1024_S128x1024_384_0) (fun _ => rfl)).view.read (Elt F)
        (((Memref.whole cc0_scratch0).access (Rect.unit ![384, 0] S128x1024.size inb_S512x1024_S128x1024_384_0)).write (Elt F) a0
          (stored2 ((Memref.whole cc0_stg0_0).view.readAt (Elt F) (Rect.unit ![0, 0, 0] S1x512x1024.size inb_S1x512x1024_S1x512x1024_0_0_0).toLoadRect g0)
            ((Memref.whole cc0_stg1_0).view.readAt (Elt F) (Rect.unit ![0, 0] S1024x1024.size inb_S1024x1024_S1024x1024_0_0).toLoadRect g1)
            ((Memref.whole cc0_stg2_0).view.readAt (Elt F) (Rect.unit ![0, 0] S1024x1024.size inb_S1024x1024_S1024x1024_0_0).toLoadRect g2)
            ((Memref.whole cc0_stg3_0).view.readAt (Elt F) (Rect.unit ![0, 0] S1024x1024.size inb_S1024x1024_S1024x1024_0_0).toLoadRect g3)
            ((Memref.whole cc0_stg4_0).view.readAt (Elt F) (Rect.unit ![0, 0] S1024x1024.size inb_S1024x1024_S1024x1024_0_0).toLoadRect g4)) Finset.univ)
      = (accM.slice (Rect.unit (s := S512x1024) ![384, 0] S128x1024.size inb_S512x1024_S128x1024_384_0) (fun _ => rfl)).view.read (Elt F) (Pc m c) := by
  have e0 : ((Memref.whole cc0_stg0_0).view.readAt (Elt F) (Rect.unit ![0, 0, 0] S1x512x1024.size inb_S1x512x1024_S1x512x1024_0_0_0).toLoadRect g0) = iblk m c (0 : Fin 6) t0_0 := (Memref.readAt_unit_zero (Elt F) cc0_stg0_0 zeros3 _ g0).trans h0
  have e1 : ((Memref.whole cc0_stg1_0).view.readAt (Elt F) (Rect.unit ![0, 0] S1024x1024.size inb_S1024x1024_S1024x1024_0_0).toLoadRect g1) = iblk m c (1 : Fin 6) t0_0 := (Memref.readAt_unit_zero (Elt F) cc0_stg1_0 zeros2 _ g1).trans h1
  have e2 : ((Memref.whole cc0_stg2_0).view.readAt (Elt F) (Rect.unit ![0, 0] S1024x1024.size inb_S1024x1024_S1024x1024_0_0).toLoadRect g2) = iblk m c (2 : Fin 6) t0_0 := (Memref.readAt_unit_zero (Elt F) cc0_stg2_0 zeros2 _ g2).trans h2
  have e3 : ((Memref.whole cc0_stg3_0).view.readAt (Elt F) (Rect.unit ![0, 0] S1024x1024.size inb_S1024x1024_S1024x1024_0_0).toLoadRect g3) = iblk m c (3 : Fin 6) t0_0 := (Memref.readAt_unit_zero (Elt F) cc0_stg3_0 zeros2 _ g3).trans h3
  have e4 : ((Memref.whole cc0_stg4_0).view.readAt (Elt F) (Rect.unit ![0, 0] S1024x1024.size inb_S1024x1024_S1024x1024_0_0).toLoadRect g4) = iblk m c (4 : Fin 6) t0_0 := (Memref.readAt_unit_zero (Elt F) cc0_stg4_0 zeros2 _ g4).trans h4
  rw [e0, e1, e2, e3, e4]
  exact part_store_2 (iblk m c (0 : Fin 6) t0_0) (iblk m c (1 : Fin 6) t0_0) (iblk m c (2 : Fin 6) t0_0) (iblk m c (3 : Fin 6) t0_0) (iblk m c (4 : Fin 6) t0_0) a0

/-- info: 'Cert.Kernel.Coll.store_val_0' depends on axioms: [propext, Classical.choice, Quot.sound] -/
#guard_msgs in #print axioms store_val_0

/-- info: 'Cert.Kernel.Coll.store_val_2' depends on axioms: [propext, Classical.choice, Quot.sound] -/
#guard_msgs in #print axioms store_val_2

end Cert.Kernel.Coll

end
-- ==== Proof.Kernel.SubRuns.lean ====
/-
  The rows a reduce-scatter copy sends, and the rows its device keeps, lie inside the rows the device held before it: the
  part's rows at the first phase, the rows kept one phase earlier afterwards. Stated of the rectangles themselves: each is a
  run of whole rows, the two are the two halves of the run they lie in.
-/
import proofs.«900423_g7700000000000424_dist_attn_self_mha_htp_b1_sq512_skv512_d1024_hq8_dh128_v7x_i8_f32_1_alg».proof.Proof.Kernel.Halves

noncomputable section

namespace Cert.Kernel.Coll

open Cert.Kernel Cert.Kernel.Gen Cert.Kernel.Mesh

open Idealize.ShloMosaic
open Idealize.ShloMosaic.TcCoe

theorem src_sub_0 (c : Dev nD) : (Rect.unit (s := S512x1024) (k0_off1 c) S128x1024.size (k0_off1_inb c)).set ⊆ (Rect.unit (s := S512x1024) ![0, 0] S256x1024.size inb_S512x1024_S256x1024_0_0).set := by
  have hs : (Rect.unit (s := S512x1024) (k0_off1 c) S128x1024.size (k0_off1_inb c)).set = rowSet 512 (srcRow 0 c) 128 := (View.set_slice_whole _ _).symm.trans (src_set_0 c)
  have hp : (Rect.unit (s := S512x1024) ![0, 0] S256x1024.size inb_S512x1024_S256x1024_0_0).set = rowSet 512 0 256 := (View.set_slice_whole _ _).symm.trans (part_set_0)
  rw [hs, hp]
  exact rowSet_subset (by rcases halves_0 c with ⟨h1, h2⟩ | ⟨h1, h2⟩ <;> omega)

theorem keep_sub_0 (c : Dev nD) : (Rect.unit (s := S512x1024) (k0_off4 c) S128x1024.size (k0_off4_inb c)).set ⊆ (Rect.unit (s := S512x1024) ![0, 0] S256x1024.size inb_S512x1024_S256x1024_0_0).set := by
  have hs : (Rect.unit (s := S512x1024) (k0_off4 c) S128x1024.size (k0_off4_inb c)).set = rowSet 512 (keepRow 0 c) 128 := (View.set_slice_whole _ _).symm.trans (keep_set_0 c)
  have hp : (Rect.unit (s := S512x1024) ![0, 0] S256x1024.size inb_S512x1024_S256x1024_0_0).set = rowSet 512 0 256 := (View.set_slice_whole _ _).symm.trans (part_set_0)
  rw [hs, hp]
  exact rowSet_subset (by rcases halves_0 c with ⟨h1, h2⟩ | ⟨h1, h2⟩ <;> omega)

theorem src_sub_1 (c : Dev nD) : (Rect.unit (s := S512x1024) (k0_off2 c) S64x1024.size (k0_off2_inb c)).set ⊆ (Rect.unit (s := S512x1024) ![256, 0] S128x1024.size inb_S512x1024_S128x1024_256_0).set := by
  have hs : (Rect.unit (s := S512x1024) (k0_off2 c) S64x1024.size (k0_off2_inb c)).set = rowSet 512 (srcRow 1 c) 64 := (View.set_slice_whole _ _).symm.trans (src_set_1 c)
  have hp : (Rect.unit (s := S512x1024) ![256, 0] S128x1024.size inb_S512x1024_S128x1024_256_0).set = rowSet 512 256 128 := (View.set_slice_whole _ _).symm.trans (part_set_1)
  rw [hs, hp]
  exact rowSet_subset (by rcases halves_1 c with ⟨h1, h2⟩ | ⟨h1, h2⟩ <;> omega)

theorem keep_sub_1 (c : Dev nD) : (Rect.unit (s := S512x1024) (k0_off6 c) S64x1024.size (k0_off6_inb c)).set ⊆ (Rect.unit (s := S512x1024) ![256, 0] S128x1024.size inb_S512x1024_S128x1024_256_0).set := by
  have hs : (Rect.unit (s := S512x1024) (k0_off6 c) S64x1024.size (k0_off6_inb c)).set = rowSet 512 (keepRow 1 c) 64 := (View.set_slice_whole _ _).symm.trans (keep_set_1 c)
  have hp : (Rect.unit (s := S512x1024) ![256, 0] S128x1024.size inb_S512x1024_S128x1024_256_0).set = rowSet 512 256 128 := (View.set_slice_whole _ _).symm.trans (part_set_1)
  rw [hs, hp]
  exact rowSet_subset (by rcases halves_1 c with ⟨h1, h2⟩ | ⟨h1, h2⟩ <;> omega)

theorem src_sub_2 (c : Dev nD) : (Rect.unit (s := S512x1024) (k0_off3 c) S64x1024.size (k0_off3_inb c)).set ⊆ (Rect.unit (s := S512x1024) ![384, 0] S128x1024.size inb_S512x1024_S128x1024_384_0).set := by
  have hs : (Rect.unit (s := S512x1024) (k0_off3 c) S64x1024.size (k0_off3_inb c)).set = rowSet 512 (srcRow 2 c) 64 := (View.set_slice_whole _ _).symm.trans (src_set_2 c)
  have hp : (Rect.unit (s := S512x1024) ![384, 0] S128x1024.size inb_S512x1024_S128x1024_384_0).set = rowSet 512 384 128 := (View.set_slice_whole _ _).symm.trans (part_set_2)
  rw [hs, hp]
  exact rowSet_subset (by rcases halves_2 c with ⟨h1, h2⟩ | ⟨h1, h2⟩ <;> omega)

theorem keep_sub_2 (c : Dev nD) : (Rect.unit (s := S512x1024) (k0_off8 c) S64x1024.size (k0_off8_inb c)).set ⊆ (Rect.unit (s := S512x1024) ![384, 0] S128x1024.size inb_S512x1024_S128x1024_384_0).set := by
  have hs : (Rect.unit (s := S512x1024) (k0_off8 c) S64x1024.size (k0_off8_inb c)).set = rowSet 512 (keepRow 2 c) 64 := (View.set_slice_whole _ _).symm.trans (keep_set_2 c)
  have hp : (Rect.unit (s := S512x1024) ![384, 0] S128x1024.size inb_S512x1024_S128x1024_384_0).set = rowSet 512 384 128 := (View.set_slice_whole _ _).symm.trans (part_set_2)
  rw [hs, hp]
  exact rowSet_subset (by rcases halves_2 c with ⟨h1, h2⟩ | ⟨h1, h2⟩ <;> omega)

theorem src_sub_3 (c : Dev nD) : (Rect.unit (s := S512x1024) (k0_off5 c) S64x1024.size (k0_off5_inb c)).set ⊆ (Rect.unit (s := S512x1024) (k0_off4 c) S128x1024.size (k0_off4_inb c)).set := by
  have hs : (Rect.unit (s := S512x1024) (k0_off5 c) S64x1024.size (k0_off5_inb c)).set = rowSet 512 (srcRow 3 c) 64 := (View.set_slice_whole _ _).symm.trans (src_set_3 c)
  have hp : (Rect.unit (s := S512x1024) (k0_off4 c) S128x1024.size (k0_off4_inb c)).set = rowSet 512 (keepRow 0 c) 128 := (View.set_slice_whole _ _).symm.trans (keep_set_0 c)
  rw [hs, hp]
  exact rowSet_subset (by rcases halves_3 c with ⟨h1, h2⟩ | ⟨h1, h2⟩ <;> omega)

theorem keep_sub_3 (c : Dev nD) : (Rect.unit (s := S512x1024) (k0_off10 c) S64x1024.size (k0_off10_inb c)).set ⊆ (Rect.unit (s := S512x1024) (k0_off4 c) S128x1024.size (k0_off4_inb c)).set := by
  have hs : (Rect.unit (s := S512x1024) (k0_off10 c) S64x1024.size (k0_off10_inb c)).set = rowSet 512 (keepRow 3 c) 64 := (View.set_slice_whole _ _).symm.trans (keep_set_3 c)
  have hp : (Rect.unit (s := S512x1024) (k0_off4 c) S128x1024.size (k0_off4_inb c)).set = rowSet 512 (keepRow 0 c) 128 := (View.set_slice_whole _ _).symm.trans (keep_set_0 c)
  rw [hs, hp]
  exact rowSet_subset (by rcases halves_3 c with ⟨h1, h2⟩ | ⟨h1, h2⟩ <;> omega)

theorem src_sub_4 (c : Dev nD) : (Rect.unit (s := S512x1024) (k0_off7 c) S32x1024.size (k0_off7_inb c)).set ⊆ (Rect.unit (s := S512x1024) (k0_off6 c) S64x1024.size (k0_off6_inb c)).set := by
  have hs : (Rect.unit (s := S512x1024) (k0_off7 c) S32x1024.size (k0_off7_inb c)).set = rowSet 512 (srcRow 4 c) 32 := (View.set_slice_whole _ _).symm.trans (src_set_4 c)
  have hp : (Rect.unit (s := S512x1024) (k0_off6 c) S64x1024.size (k0_off6_inb c)).set = rowSet 512 (keepRow 1 c) 64 := (View.set_slice_whole _ _).symm.trans (keep_set_1 c)
  rw [hs, hp]
  exact rowSet_subset (by rcases halves_4 c with ⟨h1, h2⟩ | ⟨h1, h2⟩ <;> omega)

theorem keep_sub_4 (c : Dev nD) : (Rect.unit (s := S512x1024) (k0_off12 c) S32x1024.size (k0_off12_inb c)).set ⊆ (Rect.unit (s := S512x1024) (k0_off6 c) S64x1024.size (k0_off6_inb c)).set := by
  have hs : (Rect.unit (s := S512x1024) (k0_off12 c) S32x1024.size (k0_off12_inb c)).set = rowSet 512 (keepRow 4 c) 32 := (View.set_slice_whole _ _).symm.trans (keep_set_4 c)
  have hp : (Rect.unit (s := S512x1024) (k0_off6 c) S64x1024.size (k0_off6_inb c)).set = rowSet 512 (keepRow 1 c) 64 := (View.set_slice_whole _ _).symm.trans (keep_set_1 c)
  rw [hs, hp]
  exact rowSet_subset (by rcases halves_4 c with ⟨h1, h2⟩ | ⟨h1, h2⟩ <;> omega)

theorem src_sub_5 (c : Dev nD) : (Rect.unit (s := S512x1024) (k0_off9 c) S32x1024.size (k0_off9_inb c)).set ⊆ (Rect.unit (s := S512x1024) (k0_off8 c) S64x1024.size (k0_off8_inb c)).set := by
  have hs : (Rect.unit (s := S512x1024) (k0_off9 c) S32x1024.size (k0_off9_inb c)).set = rowSet 512 (srcRow 5 c) 32 := (View.set_slice_whole _ _).symm.trans (src_set_5 c)
  have hp : (Rect.unit (s := S512x1024) (k0_off8 c) S64x1024.size (k0_off8_inb c)).set = rowSet 512 (keepRow 2 c) 64 := (View.set_slice_whole _ _).symm.trans (keep_set_2 c)
  rw [hs, hp]
  exact rowSet_subset (by rcases halves_5 c with ⟨h1, h2⟩ | ⟨h1, h2⟩ <;> omega)

theorem keep_sub_5 (c : Dev nD) : (Rect.unit (s := S512x1024) (k0_off14 c) S32x1024.size (k0_off14_inb c)).set ⊆ (Rect.unit (s := S512x1024) (k0_off8 c) S64x1024.size (k0_off8_inb c)).set := by
  have hs : (Rect.unit (s := S512x1024) (k0_off14 c) S32x1024.size (k0_off14_inb c)).set = rowSet 512 (keepRow 5 c) 32 := (View.set_slice_whole _ _).symm.trans (keep_set_5 c)
  have hp : (Rect.unit (s := S512x1024) (k0_off8 c) S64x1024.size (k0_off8_inb c)).set = rowSet 512 (keepRow 2 c) 64 := (View.set_slice_whole _ _).symm.trans (keep_set_2 c)
  rw [hs, hp]
  exact rowSet_subset (by rcases halves_5 c with ⟨h1, h2⟩ | ⟨h1, h2⟩ <;> omega)

theorem src_sub_6 (c : Dev nD) : (Rect.unit (s := S512x1024) (k0_off11 c 0#32 32#32) S32x1024.size (k0_off11_inb c 0)).set ⊆ (Rect.unit (s := S512x1024) (k0_off10 c) S64x1024.size (k0_off10_inb c)).set := by
  have hs : (Rect.unit (s := S512x1024) (k0_off11 c 0#32 32#32) S32x1024.size (k0_off11_inb c 0)).set = rowSet 512 (srcRow 6 c) 32 := (View.set_slice_whole _ _).symm.trans (src_set_6 c)
  have hp : (Rect.unit (s := S512x1024) (k0_off10 c) S64x1024.size (k0_off10_inb c)).set = rowSet 512 (keepRow 3 c) 64 := (View.set_slice_whole _ _).symm.trans (keep_set_3 c)
  rw [hs, hp]
  exact rowSet_subset (by rcases halves_6 c with ⟨h1, h2⟩ | ⟨h1, h2⟩ <;> omega)

theorem keep_sub_6 (c : Dev nD) : (Rect.unit (s := S512x1024) (k0_off16 c) S32x1024.size (k0_off16_inb c)).set ⊆ (Rect.unit (s := S512x1024) (k0_off10 c) S64x1024.size (k0_off10_inb c)).set := by
  have hs : (Rect.unit (s := S512x1024) (k0_off16 c) S32x1024.size (k0_off16_inb c)).set = rowSet 512 (keepRow 6 c) 32 := (View.set_slice_whole _ _).symm.trans (keep_set_6 c)
  have hp : (Rect.unit (s := S512x1024) (k0_off10 c) S64x1024.size (k0_off10_inb c)).set = rowSet 512 (keepRow 3 c) 64 := (View.set_slice_whole _ _).symm.trans (keep_set_3 c)
  rw [hs, hp]
  exact rowSet_subset (by rcases halves_6 c with ⟨h1, h2⟩ | ⟨h1, h2⟩ <;> omega)

theorem src_sub_7 (c : Dev nD) : (Rect.unit (s := S512x1024) (k0_off13 c 0#32 16#32) S16x1024.size (k0_off13_inb c 0)).set ⊆ (Rect.unit (s := S512x1024) (k0_off12 c) S32x1024.size (k0_off12_inb c)).set := by
  have hs : (Rect.unit (s := S512x1024) (k0_off13 c 0#32 16#32) S16x1024.size (k0_off13_inb c 0)).set = rowSet 512 (srcRow 7 c) 16 := (View.set_slice_whole _ _).symm.trans (src_set_7 c)
  have hp : (Rect.unit (s := S512x1024) (k0_off12 c) S32x1024.size (k0_off12_inb c)).set = rowSet 512 (keepRow 4 c) 32 := (View.set_slice_whole _ _).symm.trans (keep_set_4 c)
  rw [hs, hp]
  exact rowSet_subset (by rcases halves_7 c with ⟨h1, h2⟩ | ⟨h1, h2⟩ <;> omega)

theorem keep_sub_7 (c : Dev nD) : (Rect.unit (s := S512x1024) (k0_off17 c) S16x1024.size (k0_off17_inb c)).set ⊆ (Rect.unit (s := S512x1024) (k0_off12 c) S32x1024.size (k0_off12_inb c)).set := by
  have hs : (Rect.unit (s := S512x1024) (k0_off17 c) S16x1024.size (k0_off17_inb c)).set = rowSet 512 (keepRow 7 c) 16 := (View.set_slice_whole _ _).symm.trans (keep_set_7 c)
  have hp : (Rect.unit (s := S512x1024) (k0_off12 c) S32x1024.size (k0_off12_inb c)).set = rowSet 512 (keepRow 4 c) 32 := (View.set_slice_whole _ _).symm.trans (keep_set_4 c)
  rw [hs, hp]
  exact rowSet_subset (by rcases halves_7 c with ⟨h1, h2⟩ | ⟨h1, h2⟩ <;> omega)

theorem src_sub_8 (c : Dev nD) : (Rect.unit (s := S512x1024) (k0_off15 c 0#32 16#32) S16x1024.size (k0_off15_inb c 0)).set ⊆ (Rect.unit (s := S512x1024) (k0_off14 c) S32x1024.size (k0_off14_inb c)).set := by
  have hs : (Rect.unit (s := S512x1024) (k0_off15 c 0#32 16#32) S16x1024.size (k0_off15_inb c 0)).set = rowSet 512 (srcRow 8 c) 16 := (View.set_slice_whole _ _).symm.trans (src_set_8 c)
  have hp : (Rect.unit (s := S512x1024) (k0_off14 c) S32x1024.size (k0_off14_inb c)).set = rowSet 512 (keepRow 5 c) 32 := (View.set_slice_whole _ _).symm.trans (keep_set_5 c)
  rw [hs, hp]
  exact rowSet_subset (by rcases halves_8 c with ⟨h1, h2⟩ | ⟨h1, h2⟩ <;> omega)

theorem keep_sub_8 (c : Dev nD) : (Rect.unit (s := S512x1024) (k0_off18 c) S16x1024.size (k0_off18_inb c)).set ⊆ (Rect.unit (s := S512x1024) (k0_off14 c) S32x1024.size (k0_off14_inb c)).set := by
  have hs : (Rect.unit (s := S512x1024) (k0_off18 c) S16x1024.size (k0_off18_inb c)).set = rowSet 512 (keepRow 8 c) 16 := (View.set_slice_whole _ _).symm.trans (keep_set_8 c)
  have hp : (Rect.unit (s := S512x1024) (k0_off14 c) S32x1024.size (k0_off14_inb c)).set = rowSet 512 (keepRow 5 c) 32 := (View.set_slice_whole _ _).symm.trans (keep_set_5 c)
  rw [hs, hp]
  exact rowSet_subset (by rcases halves_8 c with ⟨h1, h2⟩ | ⟨h1, h2⟩ <;> omega)

/-- info: 'Cert.Kernel.Coll.src_sub_8' depends on axioms: [propext, Classical.choice, Quot.sound] -/
#guard_msgs in #print axioms src_sub_8

/-- info: 'Cert.Kernel.Coll.keep_sub_0' depends on axioms: [propext, Classical.choice, Quot.sound] -/
#guard_msgs in #print axioms keep_sub_0

end Cert.Kernel.Coll

end
-- ==== Proof.Kernel.ValueAdd.lean ====
/-
  The accumulate against the contents the store leaves. The kept rows are rewritten, through the very view that reads
  them, with the sum of what they held and what landed in the device's slot; a cast to the same shape changes nothing. Held
  at the phase's accumulator and the slot at the partner's sent rows, the sum is the next phase's accumulator on those rows.
-/
import proofs.«900423_g7700000000000424_dist_attn_self_mha_htp_b1_sq512_skv512_d1024_hq8_dh128_v7x_i8_f32_1_alg».proof.Proof.Kernel.ValuePhases

noncomputable section

namespace Cert.Kernel.Coll

open Cert.Kernel Cert.Kernel.Gen Cert.Kernel.Mesh Idealize.ShloMosaic Idealize.ShloMosaic.ValueIdx

variable {F : FTy → Type} [FloatOps F]

section Adds
variable (P : Dev nD → AccC F)

/-- The accumulate of reduce-scatter copy 0: what the store of the sum leaves on the kept rows. -/
theorem add_val_0 (c : Dev nD) (C : AccC F) (fl : (cc0_scratch1 : Ref sig .tc).ty.Contents (Elt F))
    (hK : (accM.slice (Rect.unit (s := S512x1024) (k0_off4 c) S128x1024.size (k0_off4_inb c)) (fun _ => rfl)).view.read (Elt F) C = (accM.slice (Rect.unit (s := S512x1024) (k0_off4 c) S128x1024.size (k0_off4_inb c)) (fun _ => rfl)).view.read (Elt F) (W P 0 c))
    (hfl : (dstM 0 (partner 0 c)).view.read (Elt F) fl = rowsRead 0 (partner 0 c) (W P 0 (partner 0 c))) :
    (accM.slice (Rect.unit (s := S512x1024) (k0_off4 c) S128x1024.size (k0_off4_inb c)) (fun _ => rfl)).view.read (Elt F) (View.write (Elt F) ((Memref.whole cc0_scratch0).access (Rect.unit (s := S512x1024) (k0_off4 c) S128x1024.size (k0_off4_inb c))) C (k0_pay24 (View.readAt (Elt F) (Memref.whole cc0_scratch0).view (Rect.unit (s := S512x1024) (k0_off4 c) S128x1024.size (k0_off4_inb c)).toLoadRect C) (View.readAt (Elt F) (Memref.whole cc0_scratch1).view (Rect.unit (s := S256x1024) ![0, 0] S128x1024.size inb_S256x1024_S128x1024_0_0).toLoadRect fl)) Finset.univ)
      = (accM.slice (Rect.unit (s := S512x1024) (k0_off4 c) S128x1024.size (k0_off4_inb c)) (fun _ => rfl)).view.read (Elt F) (W P (0 + 1) c) := by
  have e : addf ((accM.slice (Rect.unit (s := S512x1024) (k0_off4 c) S128x1024.size (k0_off4_inb c)) (fun _ => rfl)).view.read (Elt F) C) ((dstM 0 (partner 0 c)).view.read (Elt F) fl)
      = (accM.slice (Rect.unit (s := S512x1024) (k0_off4 c) S128x1024.size (k0_off4_inb c)) (fun _ => rfl)).view.read (Elt F) (W P (0 + 1) c) := by
    rw [hK, hfl]; exact accumulate_0 P c
  have hpay : k0_pay24 (View.readAt (Elt F) (Memref.whole cc0_scratch0).view (Rect.unit (s := S512x1024) (k0_off4 c) S128x1024.size (k0_off4_inb c)).toLoadRect C) (View.readAt (Elt F) (Memref.whole cc0_scratch1).view (Rect.unit (s := S256x1024) ![0, 0] S128x1024.size inb_S256x1024_S128x1024_0_0).toLoadRect fl)
      = addf ((accM.slice (Rect.unit (s := S512x1024) (k0_off4 c) S128x1024.size (k0_off4_inb c)) (fun _ => rfl)).view.read (Elt F) C) ((dstM 0 (partner 0 c)).view.read (Elt F) fl) := by
    unfold k0_pay24
    show shapeCast _ (addf _ _) _ = _
    rw [shapeCast_self]
    rfl
  have hw := View.read_write_univ (v := (Memref.whole cc0_scratch0).access (Rect.unit (s := S512x1024) (k0_off4 c) S128x1024.size (k0_off4_inb c))) (Val := Elt F) C (k0_pay24 (View.readAt (Elt F) (Memref.whole cc0_scratch0).view (Rect.unit (s := S512x1024) (k0_off4 c) S128x1024.size (k0_off4_inb c)).toLoadRect C) (View.readAt (Elt F) (Memref.whole cc0_scratch1).view (Rect.unit (s := S256x1024) ![0, 0] S128x1024.size inb_S256x1024_S128x1024_0_0).toLoadRect fl))
  exact hw.trans (hpay.trans e)

/-- The accumulate of reduce-scatter copy 1: what the store of the sum leaves on the kept rows. -/
theorem add_val_1 (c : Dev nD) (C : AccC F) (fl : (cc0_scratch1 : Ref sig .tc).ty.Contents (Elt F))
    (hK : (accM.slice (Rect.unit (s := S512x1024) (k0_off6 c) S64x1024.size (k0_off6_inb c)) (fun _ => rfl)).view.read (Elt F) C = (accM.slice (Rect.unit (s := S512x1024) (k0_off6 c) S64x1024.size (k0_off6_inb c)) (fun _ => rfl)).view.read (Elt F) (W P 0 c))
    (hfl : (dstM 1 (partner 1 c)).view.read (Elt F) fl = rowsRead 1 (partner 1 c) (W P 0 (partner 1 c))) :
    (accM.slice (Rect.unit (s := S512x1024) (k0_off6 c) S64x1024.size (k0_off6_inb c)) (fun _ => rfl)).view.read (Elt F) (View.write (Elt F) ((Memref.whole cc0_scratch0).access (Rect.unit (s := S512x1024) (k0_off6 c) S64x1024.size (k0_off6_inb c))) C (k0_pay25 (View.readAt (Elt F) (Memref.whole cc0_scratch0).view (Rect.unit (s := S512x1024) (k0_off6 c) S64x1024.size (k0_off6_inb c)).toLoadRect C) (View.readAt (Elt F) (Memref.whole cc0_scratch1).view (Rect.unit (s := S256x1024) ![128, 0] S64x1024.size inb_S256x1024_S64x1024_128_0).toLoadRect fl)) Finset.univ)
      = (accM.slice (Rect.unit (s := S512x1024) (k0_off6 c) S64x1024.size (k0_off6_inb c)) (fun _ => rfl)).view.read (Elt F) (W P (0 + 1) c) := by
  have e : addf ((accM.slice (Rect.unit (s := S512x1024) (k0_off6 c) S64x1024.size (k0_off6_inb c)) (fun _ => rfl)).view.read (Elt F) C) ((dstM 1 (partner 1 c)).view.read (Elt F) fl)
      = (accM.slice (Rect.unit (s := S512x1024) (k0_off6 c) S64x1024.size (k0_off6_inb c)) (fun _ => rfl)).view.read (Elt F) (W P (0 + 1) c) := by
    rw [hK, hfl]; exact accumulate_1 P c
  have hpay : k0_pay25 (View.readAt (Elt F) (Memref.whole cc0_scratch0).view (Rect.unit (s := S512x1024) (k0_off6 c) S64x1024.size (k0_off6_inb c)).toLoadRect C) (View.readAt (Elt F) (Memref.whole cc0_scratch1).view (Rect.unit (s := S256x1024) ![128, 0] S64x1024.size inb_S256x1024_S64x1024_128_0).toLoadRect fl)
      = addf ((accM.slice (Rect.unit (s := S512x1024) (k0_off6 c) S64x1024.size (k0_off6_inb c)) (fun _ => rfl)).view.read (Elt F) C) ((dstM 1 (partner 1 c)).view.read (Elt F) fl) := by
    unfold k0_pay25
    show shapeCast _ (addf _ _) _ = _
    rw [shapeCast_self]
    rfl
  have hw := View.read_write_univ (v := (Memref.whole cc0_scratch0).access (Rect.unit (s := S512x1024) (k0_off6 c) S64x1024.size (k0_off6_inb c))) (Val := Elt F) C (k0_pay25 (View.readAt (Elt F) (Memref.whole cc0_scratch0).view (Rect.unit (s := S512x1024) (k0_off6 c) S64x1024.size (k0_off6_inb c)).toLoadRect C) (View.readAt (Elt F) (Memref.whole cc0_scratch1).view (Rect.unit (s := S256x1024) ![128, 0] S64x1024.size inb_S256x1024_S64x1024_128_0).toLoadRect fl))
  exact hw.trans (hpay.trans e)

/-- The accumulate of reduce-scatter copy 2: what the store of the sum leaves on the kept rows. -/
theorem add_val_2 (c : Dev nD) (C : AccC F) (fl : (cc0_scratch1 : Ref sig .tc).ty.Contents (Elt F))
    (hK : (accM.slice (Rect.unit (s := S512x1024) (k0_off8 c) S64x1024.size (k0_off8_inb c)) (fun _ => rfl)).view.read (Elt F) C = (accM.slice (Rect.unit (s := S512x1024) (k0_off8 c) S64x1024.size (k0_off8_inb c)) (fun _ => rfl)).view.read (Elt F) (W P 0 c))
    (hfl : (dstM 2 (partner 2 c)).view.read (Elt F) fl = rowsRead 2 (partner 2 c) (W P 0 (partner 2 c))) :
    (accM.slice (Rect.unit (s := S512x1024) (k0_off8 c) S64x1024.size (k0_off8_inb c)) (fun _ => rfl)).view.read (Elt F) (View.write (Elt F) ((Memref.whole cc0_scratch0).access (Rect.unit (s := S512x1024) (k0_off8 c) S64x1024.size (k0_off8_inb c))) C (k0_pay26 (View.readAt (Elt F) (Memref.whole cc0_scratch0).view (Rect.unit (s := S512x1024) (k0_off8 c) S64x1024.size (k0_off8_inb c)).toLoadRect C) (View.readAt (Elt F) (Memref.whole cc0_scratch1).view (Rect.unit (s := S256x1024) ![192, 0] S64x1024.size inb_S256x1024_S64x1024_192_0).toLoadRect fl)) Finset.univ)
      = (accM.slice (Rect.unit (s := S512x1024) (k0_off8 c) S64x1024.size (k0_off8_inb c)) (fun _ => rfl)).view.read (Elt F) (W P (0 + 1) c) := by
  have e : addf ((accM.slice (Rect.unit (s := S512x1024) (k0_off8 c) S64x1024.size (k0_off8_inb c)) (fun _ => rfl)).view.read (Elt F) C) ((dstM 2 (partner 2 c)).view.read (Elt F) fl)
      = (accM.slice (Rect.unit (s := S512x1024) (k0_off8 c) S64x1024.size (k0_off8_inb c)) (fun _ => rfl)).view.read (Elt F) (W P (0 + 1) c) := by
    rw [hK, hfl]; exact accumulate_2 P c
  have hpay : k0_pay26 (View.readAt (Elt F) (Memref.whole cc0_scratch0).view (Rect.unit (s := S512x1024) (k0_off8 c) S64x1024.size (k0_off8_inb c)).toLoadRect C) (View.readAt (Elt F) (Memref.whole cc0_scratch1).view (Rect.unit (s := S256x1024) ![192, 0] S64x1024.size inb_S256x1024_S64x1024_192_0).toLoadRect fl)
      = addf ((accM.slice (Rect.unit (s := S512x1024) (k0_off8 c) S64x1024.size (k0_off8_inb c)) (fun _ => rfl)).view.read (Elt F) C) ((dstM 2 (partner 2 c)).view.read (Elt F) fl) := by
    unfold k0_pay26
    show shapeCast _ (addf _ _) _ = _
    rw [shapeCast_self]
    rfl
  have hw := View.read_write_univ (v := (Memref.whole cc0_scratch0).access (Rect.unit (s := S512x1024) (k0_off8 c) S64x1024.size (k0_off8_inb c))) (Val := Elt F) C (k0_pay26 (View.readAt (Elt F) (Memref.whole cc0_scratch0).view (Rect.unit (s := S512x1024) (k0_off8 c) S64x1024.size (k0_off8_inb c)).toLoadRect C) (View.readAt (Elt F) (Memref.whole cc0_scratch1).view (Rect.unit (s := S256x1024) ![192, 0] S64x1024.size inb_S256x1024_S64x1024_192_0).toLoadRect fl))
  exact hw.trans (hpay.trans e)

/-- The accumulate of reduce-scatter copy 3: what the store of the sum leaves on the kept rows. -/
theorem add_val_3 (c : Dev nD) (C : AccC F) (fl : (cc0_scratch2 : Ref sig .tc).ty.Contents (Elt F))
    (hK : (accM.slice (Rect.unit (s := S512x1024) (k0_off10 c) S64x1024.size (k0_off10_inb c)) (fun _ => rfl)).view.read (Elt F) C = (accM.slice (Rect.unit (s := S512x1024) (k0_off10 c) S64x1024.size (k0_off10_inb c)) (fun _ => rfl)).view.read (Elt F) (W P 1 c))
    (hfl : (dstM 3 (partner 3 c)).view.read (Elt F) fl = rowsRead 3 (partner 3 c) (W P 1 (partner 3 c))) :
    (accM.slice (Rect.unit (s := S512x1024) (k0_off10 c) S64x1024.size (k0_off10_inb c)) (fun _ => rfl)).view.read (Elt F) (View.write (Elt F) ((Memref.whole cc0_scratch0).access (Rect.unit (s := S512x1024) (k0_off10 c) S64x1024.size (k0_off10_inb c))) C (k0_pay27 (View.readAt (Elt F) (Memref.whole cc0_scratch0).view (Rect.unit (s := S512x1024) (k0_off10 c) S64x1024.size (k0_off10_inb c)).toLoadRect C) (View.readAt (Elt F) (Memref.whole cc0_scratch2).view (Rect.unit (s := S128x1024) ![0, 0] S64x1024.size inb_S128x1024_S64x1024_0_0).toLoadRect fl)) Finset.univ)
      = (accM.slice (Rect.unit (s := S512x1024) (k0_off10 c) S64x1024.size (k0_off10_inb c)) (fun _ => rfl)).view.read (Elt F) (W P (1 + 1) c) := by
  have e : addf ((accM.slice (Rect.unit (s := S512x1024) (k0_off10 c) S64x1024.size (k0_off10_inb c)) (fun _ => rfl)).view.read (Elt F) C) ((dstM 3 (partner 3 c)).view.read (Elt F) fl)
      = (accM.slice (Rect.unit (s := S512x1024) (k0_off10 c) S64x1024.size (k0_off10_inb c)) (fun _ => rfl)).view.read (Elt F) (W P (1 + 1) c) := by
    rw [hK, hfl]; exact accumulate_3 P c
  have hpay : k0_pay27 (View.readAt (Elt F) (Memref.whole cc0_scratch0).view (Rect.unit (s := S512x1024) (k0_off10 c) S64x1024.size (k0_off10_inb c)).toLoadRect C) (View.readAt (Elt F) (Memref.whole cc0_scratch2).view (Rect.unit (s := S128x1024) ![0, 0] S64x1024.size inb_S128x1024_S64x1024_0_0).toLoadRect fl)
      = addf ((accM.slice (Rect.unit (s := S512x1024) (k0_off10 c) S64x1024.size (k0_off10_inb c)) (fun _ => rfl)).view.read (Elt F) C) ((dstM 3 (partner 3 c)).view.read (Elt F) fl) := by
    unfold k0_pay27
    show shapeCast _ (addf _ _) _ = _
    rw [shapeCast_self]
    rfl
  have hw := View.read_write_univ (v := (Memref.whole cc0_scratch0).access (Rect.unit (s := S512x1024) (k0_off10 c) S64x1024.size (k0_off10_inb c))) (Val := Elt F) C (k0_pay27 (View.readAt (Elt F) (Memref.whole cc0_scratch0).view (Rect.unit (s := S512x1024) (k0_off10 c) S64x1024.size (k0_off10_inb c)).toLoadRect C) (View.readAt (Elt F) (Memref.whole cc0_scratch2).view (Rect.unit (s := S128x1024) ![0, 0] S64x1024.size inb_S128x1024_S64x1024_0_0).toLoadRect fl))
  exact hw.trans (hpay.trans e)

/-- The accumulate of reduce-scatter copy 4: what the store of the sum leaves on the kept rows. -/
theorem add_val_4 (c : Dev nD) (C : AccC F) (fl : (cc0_scratch2 : Ref sig .tc).ty.Contents (Elt F))
    (hK : (accM.slice (Rect.unit (s := S512x1024) (k0_off12 c) S32x1024.size (k0_off12_inb c)) (fun _ => rfl)).view.read (Elt F) C = (accM.slice (Rect.unit (s := S512x1024) (k0_off12 c) S32x1024.size (k0_off12_inb c)) (fun _ => rfl)).view.read (Elt F) (W P 1 c))
    (hfl : (dstM 4 (partner 4 c)).view.read (Elt F) fl = rowsRead 4 (partner 4 c) (W P 1 (partner 4 c))) :
    (accM.slice (Rect.unit (s := S512x1024) (k0_off12 c) S32x1024.size (k0_off12_inb c)) (fun _ => rfl)).view.read (Elt F) (View.write (Elt F) ((Memref.whole cc0_scratch0).access (Rect.unit (s := S512x1024) (k0_off12 c) S32x1024.size (k0_off12_inb c))) C (k0_pay29 (k0_pay28 (View.readAt (Elt F) (Memref.whole cc0_scratch0).view (Rect.unit (s := S512x1024) (k0_off12 c) S32x1024.size (k0_off12_inb c)).toLoadRect C) (View.readAt (Elt F) (Memref.whole cc0_scratch2).view (Rect.unit (s := S128x1024) ![64, 0] S32x1024.size inb_S128x1024_S32x1024_64_0).toLoadRect fl))) Finset.univ)
      = (accM.slice (Rect.unit (s := S512x1024) (k0_off12 c) S32x1024.size (k0_off12_inb c)) (fun _ => rfl)).view.read (Elt F) (W P (1 + 1) c) := by
  have e : addf ((accM.slice (Rect.unit (s := S512x1024) (k0_off12 c) S32x1024.size (k0_off12_inb c)) (fun _ => rfl)).view.read (Elt F) C) ((dstM 4 (partner 4 c)).view.read (Elt F) fl)
      = (accM.slice (Rect.unit (s := S512x1024) (k0_off12 c) S32x1024.size (k0_off12_inb c)) (fun _ => rfl)).view.read (Elt F) (W P (1 + 1) c) := by
    rw [hK, hfl]; exact accumulate_4 P c
  have hpay : k0_pay29 (k0_pay28 (View.readAt (Elt F) (Memref.whole cc0_scratch0).view (Rect.unit (s := S512x1024) (k0_off12 c) S32x1024.size (k0_off12_inb c)).toLoadRect C) (View.readAt (Elt F) (Memref.whole cc0_scratch2).view (Rect.unit (s := S128x1024) ![64, 0] S32x1024.size inb_S128x1024_S32x1024_64_0).toLoadRect fl))
      = addf ((accM.slice (Rect.unit (s := S512x1024) (k0_off12 c) S32x1024.size (k0_off12_inb c)) (fun _ => rfl)).view.read (Elt F) C) ((dstM 4 (partner 4 c)).view.read (Elt F) fl) := by
    unfold k0_pay29 k0_pay28
    show shapeCast _ (addf _ _) _ = _
    rw [shapeCast_self]
    rfl
  have hw := View.read_write_univ (v := (Memref.whole cc0_scratch0).access (Rect.unit (s := S512x1024) (k0_off12 c) S32x1024.size (k0_off12_inb c))) (Val := Elt F) C (k0_pay29 (k0_pay28 (View.readAt (Elt F) (Memref.whole cc0_scratch0).view (Rect.unit (s := S512x1024) (k0_off12 c) S32x1024.size (k0_off12_inb c)).toLoadRect C) (View.readAt (Elt F) (Memref.whole cc0_scratch2).view (Rect.unit (s := S128x1024) ![64, 0] S32x1024.size inb_S128x1024_S32x1024_64_0).toLoadRect fl)))
  exact hw.trans (hpay.trans e)

/-- The accumulate of reduce-scatter copy 5: what the store of the sum leaves on the kept rows. -/
theorem add_val_5 (c : Dev nD) (C : AccC F) (fl : (cc0_scratch2 : Ref sig .tc).ty.Contents (Elt F))
    (hK : (accM.slice (Rect.unit (s := S512x1024) (k0_off14 c) S32x1024.size (k0_off14_inb c)) (fun _ => rfl)).view.read (Elt F) C = (accM.slice (Rect.unit (s := S512x1024) (k0_off14 c) S32x1024.size (k0_off14_inb c)) (fun _ => rfl)).view.read (Elt F) (W P 1 c))
    (hfl : (dstM 5 (partner 5 c)).view.read (Elt F) fl = rowsRead 5 (partner 5 c) (W P 1 (partner 5 c))) :
    (accM.slice (Rect.unit (s := S512x1024) (k0_off14 c) S32x1024.size (k0_off14_inb c)) (fun _ => rfl)).view.read (Elt F) (View.write (Elt F) ((Memref.whole cc0_scratch0).access (Rect.unit (s := S512x1024) (k0_off14 c) S32x1024.size (k0_off14_inb c))) C (k0_pay30 (View.readAt (Elt F) (Memref.whole cc0_scratch0).view (Rect.unit (s := S512x1024) (k0_off14 c) S32x1024.size (k0_off14_inb c)).toLoadRect C) (View.readAt (Elt F) (Memref.whole cc0_scratch2).view (Rect.unit (s := S128x1024) ![96, 0] S32x1024.size inb_S128x1024_S32x1024_96_0).toLoadRect fl)) Finset.univ)
      = (accM.slice (Rect.unit (s := S512x1024) (k0_off14 c) S32x1024.size (k0_off14_inb c)) (fun _ => rfl)).view.read (Elt F) (W P (1 + 1) c) := by
  have e : addf ((accM.slice (Rect.unit (s := S512x1024) (k0_off14 c) S32x1024.size (k0_off14_inb c)) (fun _ => rfl)).view.read (Elt F) C) ((dstM 5 (partner 5 c)).view.read (Elt F) fl)
      = (accM.slice (Rect.unit (s := S512x1024) (k0_off14 c) S32x1024.size (k0_off14_inb c)) (fun _ => rfl)).view.read (Elt F) (W P (1 + 1) c) := by
    rw [hK, hfl]; exact accumulate_5 P c
  have hpay : k0_pay30 (View.readAt (Elt F) (Memref.whole cc0_scratch0).view (Rect.unit (s := S512x1024) (k0_off14 c) S32x1024.size (k0_off14_inb c)).toLoadRect C) (View.readAt (Elt F) (Memref.whole cc0_scratch2).view (Rect.unit (s := S128x1024) ![96, 0] S32x1024.size inb_S128x1024_S32x1024_96_0).toLoadRect fl)
      = addf ((accM.slice (Rect.unit (s := S512x1024) (k0_off14 c) S32x1024.size (k0_off14_inb c)) (fun _ => rfl)).view.read (Elt F) C) ((dstM 5 (partner 5 c)).view.read (Elt F) fl) := by
    unfold k0_pay30
    show shapeCast _ (addf _ _) _ = _
    rw [shapeCast_self]
    rfl
  have hw := View.read_write_univ (v := (Memref.whole cc0_scratch0).access (Rect.unit (s := S512x1024) (k0_off14 c) S32x1024.size (k0_off14_inb c))) (Val := Elt F) C (k0_pay30 (View.readAt (Elt F) (Memref.whole cc0_scratch0).view (Rect.unit (s := S512x1024) (k0_off14 c) S32x1024.size (k0_off14_inb c)).toLoadRect C) (View.readAt (Elt F) (Memref.whole cc0_scratch2).view (Rect.unit (s := S128x1024) ![96, 0] S32x1024.size inb_S128x1024_S32x1024_96_0).toLoadRect fl))
  exact hw.trans (hpay.trans e)

/-- The accumulate of reduce-scatter copy 6: what the store of the sum leaves on the kept rows. -/
theorem add_val_6 (c : Dev nD) (C : AccC F) (fl : (cc0_scratch3 : Ref sig .tc).ty.Contents (Elt F))
    (hK : (accM.slice (Rect.unit (s := S512x1024) (k0_off16 c) S32x1024.size (k0_off16_inb c)) (fun _ => rfl)).view.read (Elt F) C = (accM.slice (Rect.unit (s := S512x1024) (k0_off16 c) S32x1024.size (k0_off16_inb c)) (fun _ => rfl)).view.read (Elt F) (W P 2 c))
    (hfl : (dstM 6 (partner 6 c)).view.read (Elt F) fl = rowsRead 6 (partner 6 c) (W P 2 (partner 6 c))) :
    (accM.slice (Rect.unit (s := S512x1024) (k0_off16 c) S32x1024.size (k0_off16_inb c)) (fun _ => rfl)).view.read (Elt F) (View.write (Elt F) ((Memref.whole cc0_scratch0).access (Rect.unit (s := S512x1024) (k0_off16 c) S32x1024.size (k0_off16_inb c))) C (k0_pay31 (View.readAt (Elt F) (Memref.whole cc0_scratch0).view (Rect.unit (s := S512x1024) (k0_off16 c) S32x1024.size (k0_off16_inb c)).toLoadRect C) (View.readAt (Elt F) (Memref.whole cc0_scratch3).view (Rect.unit (s := S64x1024) ![0, 0] S32x1024.size inb_S64x1024_S32x1024_0_0).toLoadRect fl)) Finset.univ)
      = (accM.slice (Rect.unit (s := S512x1024) (k0_off16 c) S32x1024.size (k0_off16_inb c)) (fun _ => rfl)).view.read (Elt F) (W P (2 + 1) c) := by
  have e : addf ((accM.slice (Rect.unit (s := S512x1024) (k0_off16 c) S32x1024.size (k0_off16_inb c)) (fun _ => rfl)).view.read (Elt F) C) ((dstM 6 (partner 6 c)).view.read (Elt F) fl)
      = (accM.slice (Rect.unit (s := S512x1024) (k0_off16 c) S32x1024.size (k0_off16_inb c)) (fun _ => rfl)).view.read (Elt F) (W P (2 + 1) c) := by
    rw [hK, hfl]; exact accumulate_6 P c
  have hpay : k0_pay31 (View.readAt (Elt F) (Memref.whole cc0_scratch0).view (Rect.unit (s := S512x1024) (k0_off16 c) S32x1024.size (k0_off16_inb c)).toLoadRect C) (View.readAt (Elt F) (Memref.whole cc0_scratch3).view (Rect.unit (s := S64x1024) ![0, 0] S32x1024.size inb_S64x1024_S32x1024_0_0).toLoadRect fl)
      = addf ((accM.slice (Rect.unit (s := S512x1024) (k0_off16 c) S32x1024.size (k0_off16_inb c)) (fun _ => rfl)).view.read (Elt F) C) ((dstM 6 (partner 6 c)).view.read (Elt F) fl) := by
    unfold k0_pay31
    show shapeCast _ (addf _ _) _ = _
    rw [shapeCast_self]
    rfl
  have hw := View.read_write_univ (v := (Memref.whole cc0_scratch0).access (Rect.unit (s := S512x1024) (k0_off16 c) S32x1024.size (k0_off16_inb c))) (Val := Elt F) C (k0_pay31 (View.readAt (Elt F) (Memref.whole cc0_scratch0).view (Rect.unit (s := S512x1024) (k0_off16 c) S32x1024.size (k0_off16_inb c)).toLoadRect C) (View.readAt (Elt F) (Memref.whole cc0_scratch3).view (Rect.unit (s := S64x1024) ![0, 0] S32x1024.size inb_S64x1024_S32x1024_0_0).toLoadRect fl))
  exact hw.trans (hpay.trans e)

/-- The accumulate of reduce-scatter copy 7: what the store of the sum leaves on the kept rows. -/
theorem add_val_7 (c : Dev nD) (C : AccC F) (fl : (cc0_scratch3 : Ref sig .tc).ty.Contents (Elt F))
    (hK : (accM.slice (Rect.unit (s := S512x1024) (k0_off17 c) S16x1024.size (k0_off17_inb c)) (fun _ => rfl)).view.read (Elt F) C = (accM.slice (Rect.unit (s := S512x1024) (k0_off17 c) S16x1024.size (k0_off17_inb c)) (fun _ => rfl)).view.read (Elt F) (W P 2 c))
    (hfl : (dstM 7 (partner 7 c)).view.read (Elt F) fl = rowsRead 7 (partner 7 c) (W P 2 (partner 7 c))) :
    (accM.slice (Rect.unit (s := S512x1024) (k0_off17 c) S16x1024.size (k0_off17_inb c)) (fun _ => rfl)).view.read (Elt F) (View.write (Elt F) ((Memref.whole cc0_scratch0).access (Rect.unit (s := S512x1024) (k0_off17 c) S16x1024.size (k0_off17_inb c))) C (k0_pay32 (View.readAt (Elt F) (Memref.whole cc0_scratch0).view (Rect.unit (s := S512x1024) (k0_off17 c) S16x1024.size (k0_off17_inb c)).toLoadRect C) (View.readAt (Elt F) (Memref.whole cc0_scratch3).view (Rect.unit (s := S64x1024) ![32, 0] S16x1024.size inb_S64x1024_S16x1024_32_0).toLoadRect fl)) Finset.univ)
      = (accM.slice (Rect.unit (s := S512x1024) (k0_off17 c) S16x1024.size (k0_off17_inb c)) (fun _ => rfl)).view.read (Elt F) (W P (2 + 1) c) := by
  have e : addf ((accM.slice (Rect.unit (s := S512x1024) (k0_off17 c) S16x1024.size (k0_off17_inb c)) (fun _ => rfl)).view.read (Elt F) C) ((dstM 7 (partner 7 c)).view.read (Elt F) fl)
      = (accM.slice (Rect.unit (s := S512x1024) (k0_off17 c) S16x1024.size (k0_off17_inb c)) (fun _ => rfl)).view.read (Elt F) (W P (2 + 1) c) := by
    rw [hK, hfl]; exact accumulate_7 P c
  have hpay : k0_pay32 (View.readAt (Elt F) (Memref.whole cc0_scratch0).view (Rect.unit (s := S512x1024) (k0_off17 c) S16x1024.size (k0_off17_inb c)).toLoadRect C) (View.readAt (Elt F) (Memref.whole cc0_scratch3).view (Rect.unit (s := S64x1024) ![32, 0] S16x1024.size inb_S64x1024_S16x1024_32_0).toLoadRect fl)
      = addf ((accM.slice (Rect.unit (s := S512x1024) (k0_off17 c) S16x1024.size (k0_off17_inb c)) (fun _ => rfl)).view.read (Elt F) C) ((dstM 7 (partner 7 c)).view.read (Elt F) fl) := by
    unfold k0_pay32
    show shapeCast _ (addf _ _) _ = _
    rw [shapeCast_self]
    rfl
  have hw := View.read_write_univ (v := (Memref.whole cc0_scratch0).access (Rect.unit (s := S512x1024) (k0_off17 c) S16x1024.size (k0_off17_inb c))) (Val := Elt F) C (k0_pay32 (View.readAt (Elt F) (Memref.whole cc0_scratch0).view (Rect.unit (s := S512x1024) (k0_off17 c) S16x1024.size (k0_off17_inb c)).toLoadRect C) (View.readAt (Elt F) (Memref.whole cc0_scratch3).view (Rect.unit (s := S64x1024) ![32, 0] S16x1024.size inb_S64x1024_S16x1024_32_0).toLoadRect fl))
  exact hw.trans (hpay.trans e)

/-- The accumulate of reduce-scatter copy 8: what the store of the sum leaves on the kept rows. -/
theorem add_val_8 (c : Dev nD) (C : AccC F) (fl : (cc0_scratch3 : Ref sig .tc).ty.Contents (Elt F))
    (hK : (accM.slice (Rect.unit (s := S512x1024) (k0_off18 c) S16x1024.size (k0_off18_inb c)) (fun _ => rfl)).view.read (Elt F) C = (accM.slice (Rect.unit (s := S512x1024) (k0_off18 c) S16x1024.size (k0_off18_inb c)) (fun _ => rfl)).view.read (Elt F) (W P 2 c))
    (hfl : (dstM 8 (partner 8 c)).view.read (Elt F) fl = rowsRead 8 (partner 8 c) (W P 2 (partner 8 c))) :
    (accM.slice (Rect.unit (s := S512x1024) (k0_off18 c) S16x1024.size (k0_off18_inb c)) (fun _ => rfl)).view.read (Elt F) (View.write (Elt F) ((Memref.whole cc0_scratch0).access (Rect.unit (s := S512x1024) (k0_off18 c) S16x1024.size (k0_off18_inb c))) C (k0_pay34 (k0_pay33 (View.readAt (Elt F) (Memref.whole cc0_scratch0).view (Rect.unit (s := S512x1024) (k0_off18 c) S16x1024.size (k0_off18_inb c)).toLoadRect C) (View.readAt (Elt F) (Memref.whole cc0_scratch3).view (Rect.unit (s := S64x1024) ![48, 0] S16x1024.size inb_S64x1024_S16x1024_48_0).toLoadRect fl))) Finset.univ)
      = (accM.slice (Rect.unit (s := S512x1024) (k0_off18 c) S16x1024.size (k0_off18_inb c)) (fun _ => rfl)).view.read (Elt F) (W P (2 + 1) c) := by
  have e : addf ((accM.slice (Rect.unit (s := S512x1024) (k0_off18 c) S16x1024.size (k0_off18_inb c)) (fun _ => rfl)).view.read (Elt F) C) ((dstM 8 (partner 8 c)).view.read (Elt F) fl)
      = (accM.slice (Rect.unit (s := S512x1024) (k0_off18 c) S16x1024.size (k0_off18_inb c)) (fun _ => rfl)).view.read (Elt F) (W P (2 + 1) c) := by
    rw [hK, hfl]; exact accumulate_8 P c
  have hpay : k0_pay34 (k0_pay33 (View.readAt (Elt F) (Memref.whole cc0_scratch0).view (Rect.unit (s := S512x1024) (k0_off18 c) S16x1024.size (k0_off18_inb c)).toLoadRect C) (View.readAt (Elt F) (Memref.whole cc0_scratch3).view (Rect.unit (s := S64x1024) ![48, 0] S16x1024.size inb_S64x1024_S16x1024_48_0).toLoadRect fl))
      = addf ((accM.slice (Rect.unit (s := S512x1024) (k0_off18 c) S16x1024.size (k0_off18_inb c)) (fun _ => rfl)).view.read (Elt F) C) ((dstM 8 (partner 8 c)).view.read (Elt F) fl) := by
    unfold k0_pay34 k0_pay33
    show shapeCast _ (addf _ _) _ = _
    rw [shapeCast_self]
    rfl
  have hw := View.read_write_univ (v := (Memref.whole cc0_scratch0).access (Rect.unit (s := S512x1024) (k0_off18 c) S16x1024.size (k0_off18_inb c))) (Val := Elt F) C (k0_pay34 (k0_pay33 (View.readAt (Elt F) (Memref.whole cc0_scratch0).view (Rect.unit (s := S512x1024) (k0_off18 c) S16x1024.size (k0_off18_inb c)).toLoadRect C) (View.readAt (Elt F) (Memref.whole cc0_scratch3).view (Rect.unit (s := S64x1024) ![48, 0] S16x1024.size inb_S64x1024_S16x1024_48_0).toLoadRect fl)))
  exact hw.trans (hpay.trans e)

end Adds

/-- info: 'Cert.Kernel.Coll.add_val_8' depends on axioms: [propext, Classical.choice, Quot.sound] -/
#guard_msgs in #print axioms add_val_8

/-- info: 'Cert.Kernel.Coll.add_val_0' depends on axioms: [propext, Classical.choice, Quot.sound] -/
#guard_msgs in #print axioms add_val_0

end Cert.Kernel.Coll

end
-- ==== Proof.Kernel.Body.lean ====
/-
  One device's body, stepped once at a symbolic device `c`.

  The device opens with the handshake: it hands each of its three partners the three landing slots that partner's
  reduce-scatter copies will write, and after its wait holds the nine slots its own copies write. It computes its product
  part by part into the accumulator. Each part goes through three reduce-scatter phases — the rows held are cut into the
  rows sent and the rows kept; the sent rows go to the partner's slot together with themselves (the partner writes them
  again in the all-gather); after the waits the landed rows are added, entry by entry, into the kept rows — and three
  all-gather phases — the kept rows go out to the partner's accumulator over the rows it sent, the partner's come in over
  the rows this device sent, and the two runs are joined. Every wait is below everything the device still owes.

  What each run of rows holds is carried as an equation between what a view reads off the contents and what it reads off
  the accumulator of the stage: `W P k c` after `k` reduce-scatter phases, `A P j c` after `j` all-gather phases. A store of a
  part reads as the device's product; an accumulate turns stage `k` into stage `k + 1`; a join turns stage `j` into `j + 1`.
  At the end the accumulator is whole at `A P 3 c`, the landing buffers are whole, every own cell is closed, and the result's
  staging buffer holds the accumulator widened: the proof data's named output.
-/
import proofs.«900423_g7700000000000424_dist_attn_self_mha_htp_b1_sq512_skv512_d1024_hq8_dh128_v7x_i8_f32_1_alg».proof.Proof.Kernel.Joins
import proofs.«900423_g7700000000000424_dist_attn_self_mha_htp_b1_sq512_skv512_d1024_hq8_dh128_v7x_i8_f32_1_alg».proof.Proof.Kernel.BodyEnd
import proofs.«900423_g7700000000000424_dist_attn_self_mha_htp_b1_sq512_skv512_d1024_hq8_dh128_v7x_i8_f32_1_alg».proof.Proof.Kernel.BodyOut
import proofs.«900423_g7700000000000424_dist_attn_self_mha_htp_b1_sq512_skv512_d1024_hq8_dh128_v7x_i8_f32_1_alg».proof.Proof.Kernel.ValueSteps
import proofs.«900423_g7700000000000424_dist_attn_self_mha_htp_b1_sq512_skv512_d1024_hq8_dh128_v7x_i8_f32_1_alg».proof.Proof.Kernel.ValuePhases
import proofs.«900423_g7700000000000424_dist_attn_self_mha_htp_b1_sq512_skv512_d1024_hq8_dh128_v7x_i8_f32_1_alg».proof.Proof.Kernel.ValueJoins
import proofs.«900423_g7700000000000424_dist_attn_self_mha_htp_b1_sq512_skv512_d1024_hq8_dh128_v7x_i8_f32_1_alg».proof.Proof.Kernel.ValueStore
import proofs.«900423_g7700000000000424_dist_attn_self_mha_htp_b1_sq512_skv512_d1024_hq8_dh128_v7x_i8_f32_1_alg».proof.Proof.Kernel.SubRuns
import proofs.«900423_g7700000000000424_dist_attn_self_mha_htp_b1_sq512_skv512_d1024_hq8_dh128_v7x_i8_f32_1_alg».proof.Proof.Kernel.PartialAt
import proofs.«900423_g7700000000000424_dist_attn_self_mha_htp_b1_sq512_skv512_d1024_hq8_dh128_v7x_i8_f32_1_alg».proof.Proof.Kernel.ValueAdd
import proofs.«900423_g7700000000000424_dist_attn_self_mha_htp_b1_sq512_skv512_d1024_hq8_dh128_v7x_i8_f32_1_alg».proof.Proof.Kernel.LaunchGhost

set_option maxRecDepth 16384

noncomputable section

namespace Cert.Kernel.Coll

open Cert.Kernel Cert.Kernel.Gen Cert.Kernel.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : Mem F) (ρ : Dev nD → PrngReg) (P : Dev nD → AccC F)

/-- Device `c` holds the whole buffer `b` at contents `f`, read through the buffer's own view. -/
abbrev held (c : Dev nD) (b : Ref sig .tc) (f : Buf (Elt F) ((Memref.whole b : Memref sig .tc _ b.ty.shape b.ty.elt).view.loc (c : Thread nD τ))) : sProp 𝕄 :=
  (Memref.whole b : Memref sig .tc _ b.ty.shape b.ty.elt).view.loc (c : Thread nD τ) ↦[(Memref.whole b : Memref sig .tc _ b.ty.shape b.ty.elt).view.set]{fullShare} f

omit [FloatOps F] in
theorem held_eq (c : Dev nD) (b : Ref sig .tc) (f : Buf (Elt F) ((c : Thread nD τ).loc b)) :
    (((c : Thread nD τ).loc b) ↦{fullShare} f : sProp 𝕄) = held c b f := by
  unfold held
  rw [show ((Memref.whole b : Memref sig .tc _ b.ty.shape b.ty.elt).view.set) = Finset.univ from View.set_whole b]

/-- A whole staging buffer holding `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

def bodyPre (c : Dev nD) : sProp 𝕄 :=
  iprop(Φ₀ P c ∗ (dats m ρ P 0 c).owesAt () t0_0.castSucc
    ∗ (∃ d, stg c cc0_stg0_0 ((dats m ρ P 0 c).before (0 : Fin 6) t0_0 d))
    ∗ (∃ d, stg c cc0_stg1_0 ((dats m ρ P 0 c).before (1 : Fin 6) t0_0 d))
    ∗ (∃ d, stg c cc0_stg2_0 ((dats m ρ P 0 c).before (2 : Fin 6) t0_0 d))
    ∗ (∃ d, stg c cc0_stg3_0 ((dats m ρ P 0 c).before (3 : Fin 6) t0_0 d))
    ∗ (∃ d, stg c cc0_stg4_0 ((dats m ρ P 0 c).before (4 : Fin 6) t0_0 d))
    ∗ (∃ d, stg c cc0_stg5_0 ((dats m ρ P 0 c).before (5 : Fin 6) t0_0 d)))

def bodyPost (c : Dev nD) : sProp 𝕄 :=
  iprop(Φ₁ c ∗ (dats m ρ P 0 c).owesAt () t0_0.succ
    ∗ stg c cc0_stg0_0 (iblk m c 0 t0_0) ∗ stg c cc0_stg1_0 (iblk m c 1 t0_0) ∗ stg c cc0_stg2_0 (iblk m c 2 t0_0)
    ∗ stg c cc0_stg3_0 (iblk m c 3 t0_0) ∗ stg c cc0_stg4_0 (iblk m c 4 t0_0) ∗ stg c cc0_stg5_0 (outAt P c))

section PayForms
variable (c : Dev nD)

theorem recvPay_rs (i : Fin 18) (hi : i.val < 9) :
    recvPay P i c = iprop(dstAt i (partner i c) c (W P (i.val / 3) (partner i c)) ∗ srcAt i (partner i c) (W P (i.val / 3) (partner i c))) := by
  unfold recvPay carried; rw [if_pos hi, if_pos hi]
theorem recvPay_ag (i : Fin 18) (hi : ¬ i.val < 9) :
    recvPay P i c = dstAt i (partner i c) c (A P (i.val / 3 - 3) (partner i c)) := by
  unfold recvPay carried; rw [if_neg hi, if_neg hi]
theorem sendPay_ag (i : Fin 18) (hi : ¬ i.val < 9) : sendPay P i c = srcAt i c (A P (i.val / 3 - 3) c) := by
  unfold sendPay carried; rw [if_neg hi, if_neg hi]

end PayForms

/-! A landing slot of mine, in the view the kernel's loads name it by. -/
omit [FloatOps F] in
theorem slot_pts_0 (c n : Dev nD) (f : Buf (Elt F) (comm0L c)) :
    (dstPts 0 n c f : sProp 𝕄) = ((comm0M.slice (Rect.unit (s := S256x1024) ![0, 0] S128x1024.size inb_S256x1024_S128x1024_0_0) (fun _ => rfl)).view.loc (c : Thread nD τ) ↦[(comm0M.slice (Rect.unit (s := S256x1024) ![0, 0] S128x1024.size inb_S256x1024_S128x1024_0_0) (fun _ => rfl)).view.set]{fullShare} f) := rfl
omit [FloatOps F] in
theorem slot_pts_1 (c n : Dev nD) (f : Buf (Elt F) (comm0L c)) :
    (dstPts 1 n c f : sProp 𝕄) = ((comm0M.slice (Rect.unit (s := S256x1024) ![128, 0] S64x1024.size inb_S256x1024_S64x1024_128_0) (fun _ => rfl)).view.loc (c : Thread nD τ) ↦[(comm0M.slice (Rect.unit (s := S256x1024) ![128, 0] S64x1024.size inb_S256x1024_S64x1024_128_0) (fun _ => rfl)).view.set]{fullShare} f) := rfl
omit [FloatOps F] in
theorem slot_pts_2 (c n : Dev nD) (f : Buf (Elt F) (comm0L c)) :
    (dstPts 2 n c f : sProp 𝕄) = ((comm0M.slice (Rect.unit (s := S256x1024) ![192, 0] S64x1024.size inb_S256x1024_S64x1024_192_0) (fun _ => rfl)).view.loc (c : Thread nD τ) ↦[(comm0M.slice (Rect.unit (s := S256x1024) ![192, 0] S64x1024.size inb_S256x1024_S64x1024_192_0) (fun _ => rfl)).view.set]{fullShare} f) := rfl
omit [FloatOps F] in
theorem slot_pts_3 (c n : Dev nD) (f : Buf (Elt F) (comm1L c)) :
    (dstPts 3 n c f : sProp 𝕄) = ((comm1M.slice (Rect.unit (s := S128x1024) ![0, 0] S64x1024.size inb_S128x1024_S64x1024_0_0) (fun _ => rfl)).view.loc (c : Thread nD τ) ↦[(comm1M.slice (Rect.unit (s := S128x1024) ![0, 0] S64x1024.size inb_S128x1024_S64x1024_0_0) (fun _ => rfl)).view.set]{fullShare} f) := rfl
omit [FloatOps F] in
theorem slot_pts_4 (c n : Dev nD) (f : Buf (Elt F) (comm1L c)) :
    (dstPts 4 n c f : sProp 𝕄) = ((comm1M.slice (Rect.unit (s := S128x1024) ![64, 0] S32x1024.size inb_S128x1024_S32x1024_64_0) (fun _ => rfl)).view.loc (c : Thread nD τ) ↦[(comm1M.slice (Rect.unit (s := S128x1024) ![64, 0] S32x1024.size inb_S128x1024_S32x1024_64_0) (fun _ => rfl)).view.set]{fullShare} f) := rfl
omit [FloatOps F] in
theorem slot_pts_5 (c n : Dev nD) (f : Buf (Elt F) (comm1L c)) :
    (dstPts 5 n c f : sProp 𝕄) = ((comm1M.slice (Rect.unit (s := S128x1024) ![96, 0] S32x1024.size inb_S128x1024_S32x1024_96_0) (fun _ => rfl)).view.loc (c : Thread nD τ) ↦[(comm1M.slice (Rect.unit (s := S128x1024) ![96, 0] S32x1024.size inb_S128x1024_S32x1024_96_0) (fun _ => rfl)).view.set]{fullShare} f) := rfl
omit [FloatOps F] in
theorem slot_pts_6 (c n : Dev nD) (f : Buf (Elt F) (comm2L c)) :
    (dstPts 6 n c f : sProp 𝕄) = ((comm2M.slice (Rect.unit (s := S64x1024) ![0, 0] S32x1024.size inb_S64x1024_S32x1024_0_0) (fun _ => rfl)).view.loc (c : Thread nD τ) ↦[(comm2M.slice (Rect.unit (s := S64x1024) ![0, 0] S32x1024.size inb_S64x1024_S32x1024_0_0) (fun _ => rfl)).view.set]{fullShare} f) := rfl
omit [FloatOps F] in
theorem slot_pts_7 (c n : Dev nD) (f : Buf (Elt F) (comm2L c)) :
    (dstPts 7 n c f : sProp 𝕄) = ((comm2M.slice (Rect.unit (s := S64x1024) ![32, 0] S16x1024.size inb_S64x1024_S16x1024_32_0) (fun _ => rfl)).view.loc (c : Thread nD τ) ↦[(comm2M.slice (Rect.unit (s := S64x1024) ![32, 0] S16x1024.size inb_S64x1024_S16x1024_32_0) (fun _ => rfl)).view.set]{fullShare} f) := rfl
omit [FloatOps F] in
theorem slot_pts_8 (c n : Dev nD) (f : Buf (Elt F) (comm2L c)) :
    (dstPts 8 n c f : sProp 𝕄) = ((comm2M.slice (Rect.unit (s := S64x1024) ![48, 0] S16x1024.size inb_S64x1024_S16x1024_48_0) (fun _ => rfl)).view.loc (c : Thread nD τ) ↦[(comm2M.slice (Rect.unit (s := S64x1024) ![48, 0] S16x1024.size inb_S64x1024_S16x1024_48_0) (fun _ => rfl)).view.set]{fullShare} f) := rfl

/-! Rows of the all-gather, decided over the devices. -/
theorem rows_src_peer_0 : ∀ c : Dev nD, srcRow 0 (peer 4 c) = srcRow 15 c := by decide
theorem rows_keep_0 : ∀ c : Dev nD, keepRow 0 c = srcRow 15 c := by decide
theorem rows_src_peer_1 : ∀ c : Dev nD, srcRow 1 (peer 3 c) = srcRow 16 c := by decide
theorem rows_keep_1 : ∀ c : Dev nD, keepRow 1 c = srcRow 16 c := by decide
theorem rows_src_peer_2 : ∀ c : Dev nD, srcRow 2 (peer 1 c) = srcRow 17 c := by decide
theorem rows_keep_2 : ∀ c : Dev nD, keepRow 2 c = srcRow 17 c := by decide
theorem rows_src_peer_3 : ∀ c : Dev nD, srcRow 3 (peer 3 c) = srcRow 12 c := by decide
theorem rows_keep_3 : ∀ c : Dev nD, keepRow 3 c = srcRow 12 c := by decide
theorem rows_src_peer_4 : ∀ c : Dev nD, srcRow 4 (peer 1 c) = srcRow 13 c := by decide
theorem rows_keep_4 : ∀ c : Dev nD, keepRow 4 c = srcRow 13 c := by decide
theorem rows_src_peer_5 : ∀ c : Dev nD, srcRow 5 (peer 4 c) = srcRow 14 c := by decide
theorem rows_keep_5 : ∀ c : Dev nD, keepRow 5 c = srcRow 14 c := by decide
theorem rows_src_peer_6 : ∀ c : Dev nD, srcRow 6 (peer 1 c) = srcRow 9 c := by decide
theorem rows_keep_6 : ∀ c : Dev nD, keepRow 6 c = srcRow 9 c := by decide
theorem rows_src_peer_7 : ∀ c : Dev nD, srcRow 7 (peer 4 c) = srcRow 10 c := by decide
theorem rows_keep_7 : ∀ c : Dev nD, keepRow 7 c = srcRow 10 c := by decide
theorem rows_src_peer_8 : ∀ c : Dev nD, srcRow 8 (peer 3 c) = srcRow 11 c := by decide
theorem rows_keep_8 : ∀ c : Dev nD, keepRow 8 c = srcRow 11 c := by decide
theorem ag_halves_9 : ∀ c : Dev nD, (srcRow 9 c = srcRow 12 c ∧ srcRow 9 (peer 1 c) = srcRow 12 c + 32) ∨ (srcRow 9 c = srcRow 12 c + 32 ∧ srcRow 9 (peer 1 c) = srcRow 12 c) := by decide
theorem ag_halves_10 : ∀ c : Dev nD, (srcRow 10 c = srcRow 13 c ∧ srcRow 10 (peer 4 c) = srcRow 13 c + 16) ∨ (srcRow 10 c = srcRow 13 c + 16 ∧ srcRow 10 (peer 4 c) = srcRow 13 c) := by decide
theorem ag_halves_11 : ∀ c : Dev nD, (srcRow 11 c = srcRow 14 c ∧ srcRow 11 (peer 3 c) = srcRow 14 c + 16) ∨ (srcRow 11 c = srcRow 14 c + 16 ∧ srcRow 11 (peer 3 c) = srcRow 14 c) := by decide
theorem ag_halves_12 : ∀ c : Dev nD, (srcRow 12 c = srcRow 15 c ∧ srcRow 12 (peer 3 c) = srcRow 15 c + 64) ∨ (srcRow 12 c = srcRow 15 c + 64 ∧ srcRow 12 (peer 3 c) = srcRow 15 c) := by decide
theorem ag_halves_13 : ∀ c : Dev nD, (srcRow 13 c = srcRow 16 c ∧ srcRow 13 (peer 1 c) = srcRow 16 c + 32) ∨ (srcRow 13 c = srcRow 16 c + 32 ∧ srcRow 13 (peer 1 c) = srcRow 16 c) := by decide
theorem ag_halves_14 : ∀ c : Dev nD, (srcRow 14 c = srcRow 17 c ∧ srcRow 14 (peer 4 c) = srcRow 17 c + 32) ∨ (srcRow 14 c = srcRow 17 c + 32 ∧ srcRow 14 (peer 4 c) = srcRow 17 c) := by decide
theorem ag_halves_15 : ∀ c : Dev nD, (srcRow 15 c = 0 ∧ srcRow 15 (peer 4 c) = 0 + 128) ∨ (srcRow 15 c = 0 + 128 ∧ srcRow 15 (peer 4 c) = 0) := by decide
theorem ag_halves_16 : ∀ c : Dev nD, (srcRow 16 c = 256 ∧ srcRow 16 (peer 3 c) = 256 + 64) ∨ (srcRow 16 c = 256 + 64 ∧ srcRow 16 (peer 3 c) = 256) := by decide
theorem ag_halves_17 : ∀ c : Dev nD, (srcRow 17 c = 384 ∧ srcRow 17 (peer 1 c) = 384 + 64) ∨ (srcRow 17 c = 384 + 64 ∧ srcRow 17 (peer 1 c) = 384) := by decide
omit [FloatOps F] in
/-- The partner's source rows of copy 0, handed over with its landing, are where my all-gather copy 15 lands on it. -/
theorem as_dst_0 (c : Dev nD) (f : Buf (Elt F) (accL (peer 4 c))) :
    (srcPts 0 (partner 0 c) f : sProp 𝕄) = dstPts 15 c (partner 15 c) f := by
  show (((accM.slice (Rect.unit (s := S512x1024) (k0_off1 (peer 4 c)) S128x1024.size (k0_off1_inb (peer 4 c))) (fun _ => rfl)).view.loc ((peer 4 c : Dev nD) : Thread nD τ) ↦[(accM.slice (Rect.unit (s := S512x1024) (k0_off1 (peer 4 c)) S128x1024.size (k0_off1_inb (peer 4 c))) (fun _ => rfl)).view.set]{fullShare} f) : sProp 𝕄)
      = ((accM.slice (Rect.unit (s := S512x1024) (k0_off22 c) S128x1024.size (k0_off22_inb c)) (fun _ => rfl)).view.loc ((peer 4 c : Dev nD) : Thread nD τ) ↦[(accM.slice (Rect.unit (s := S512x1024) (k0_off22 c) S128x1024.size (k0_off22_inb c)) (fun _ => rfl)).view.set]{fullShare} f)
  rw [src_pts_0 (peer 4 c) f, dst_pts_15 c (peer 4 c) f, rows_src_peer_0 c]
omit [FloatOps F] in
/-- The partner's source rows of copy 1, handed over with its landing, are where my all-gather copy 16 lands on it. -/
theorem as_dst_1 (c : Dev nD) (f : Buf (Elt F) (accL (peer 3 c))) :
    (srcPts 1 (partner 1 c) f : sProp 𝕄) = dstPts 16 c (partner 16 c) f := by
  show (((accM.slice (Rect.unit (s := S512x1024) (k0_off2 (peer 3 c)) S64x1024.size (k0_off2_inb (peer 3 c))) (fun _ => rfl)).view.loc ((peer 3 c : Dev nD) : Thread nD τ) ↦[(accM.slice (Rect.unit (s := S512x1024) (k0_off2 (peer 3 c)) S64x1024.size (k0_off2_inb (peer 3 c))) (fun _ => rfl)).view.set]{fullShare} f) : sProp 𝕄)
      = ((accM.slice (Rect.unit (s := S512x1024) (k0_off23 c) S64x1024.size (k0_off23_inb c)) (fun _ => rfl)).view.loc ((peer 3 c : Dev nD) : Thread nD τ) ↦[(accM.slice (Rect.unit (s := S512x1024) (k0_off23 c) S64x1024.size (k0_off23_inb c)) (fun _ => rfl)).view.set]{fullShare} f)
  rw [src_pts_1 (peer 3 c) f, dst_pts_16 c (peer 3 c) f, rows_src_peer_1 c]
omit [FloatOps F] in
/-- The partner's source rows of copy 2, handed over with its landing, are where my all-gather copy 17 lands on it. -/
theorem as_dst_2 (c : Dev nD) (f : Buf (Elt F) (accL (peer 1 c))) :
    (srcPts 2 (partner 2 c) f : sProp 𝕄) = dstPts 17 c (partner 17 c) f := by
  show (((accM.slice (Rect.unit (s := S512x1024) (k0_off3 (peer 1 c)) S64x1024.size (k0_off3_inb (peer 1 c))) (fun _ => rfl)).view.loc ((peer 1 c : Dev nD) : Thread nD τ) ↦[(accM.slice (Rect.unit (s := S512x1024) (k0_off3 (peer 1 c)) S64x1024.size (k0_off3_inb (peer 1 c))) (fun _ => rfl)).view.set]{fullShare} f) : sProp 𝕄)
      = ((accM.slice (Rect.unit (s := S512x1024) (k0_off24 c) S64x1024.size (k0_off24_inb c)) (fun _ => rfl)).view.loc ((peer 1 c : Dev nD) : Thread nD τ) ↦[(accM.slice (Rect.unit (s := S512x1024) (k0_off24 c) S64x1024.size (k0_off24_inb c)) (fun _ => rfl)).view.set]{fullShare} f)
  rw [src_pts_2 (peer 1 c) f, dst_pts_17 c (peer 1 c) f, rows_src_peer_2 c]
omit [FloatOps F] in
/-- The partner's source rows of copy 3, handed over with its landing, are where my all-gather copy 12 lands on it. -/
theorem as_dst_3 (c : Dev nD) (f : Buf (Elt F) (accL (peer 3 c))) :
    (srcPts 3 (partner 3 c) f : sProp 𝕄) = dstPts 12 c (partner 12 c) f := by
  show (((accM.slice (Rect.unit (s := S512x1024) (k0_off5 (peer 3 c)) S64x1024.size (k0_off5_inb (peer 3 c))) (fun _ => rfl)).view.loc ((peer 3 c : Dev nD) : Thread nD τ) ↦[(accM.slice (Rect.unit (s := S512x1024) (k0_off5 (peer 3 c)) S64x1024.size (k0_off5_inb (peer 3 c))) (fun _ => rfl)).view.set]{fullShare} f) : sProp 𝕄)
      = ((accM.slice (Rect.unit (s := S512x1024) (k0_off19 c) S64x1024.size (k0_off19_inb c)) (fun _ => rfl)).view.loc ((peer 3 c : Dev nD) : Thread nD τ) ↦[(accM.slice (Rect.unit (s := S512x1024) (k0_off19 c) S64x1024.size (k0_off19_inb c)) (fun _ => rfl)).view.set]{fullShare} f)
  rw [src_pts_3 (peer 3 c) f, dst_pts_12 c (peer 3 c) f, rows_src_peer_3 c]
omit [FloatOps F] in
/-- The partner's source rows of copy 4, handed over with its landing, are where my all-gather copy 13 lands on it. -/
theorem as_dst_4 (c : Dev nD) (f : Buf (Elt F) (accL (peer 1 c))) :
    (srcPts 4 (partner 4 c) f : sProp 𝕄) = dstPts 13 c (partner 13 c) f := by
  show (((accM.slice (Rect.unit (s := S512x1024) (k0_off7 (peer 1 c)) S32x1024.size (k0_off7_inb (peer 1 c))) (fun _ => rfl)).view.loc ((peer 1 c : Dev nD) : Thread nD τ) ↦[(accM.slice (Rect.unit (s := S512x1024) (k0_off7 (peer 1 c)) S32x1024.size (k0_off7_inb (peer 1 c))) (fun _ => rfl)).view.set]{fullShare} f) : sProp 𝕄)
      = ((accM.slice (Rect.unit (s := S512x1024) (k0_off20 c) S32x1024.size (k0_off20_inb c)) (fun _ => rfl)).view.loc ((peer 1 c : Dev nD) : Thread nD τ) ↦[(accM.slice (Rect.unit (s := S512x1024) (k0_off20 c) S32x1024.size (k0_off20_inb c)) (fun _ => rfl)).view.set]{fullShare} f)
  rw [src_pts_4 (peer 1 c) f, dst_pts_13 c (peer 1 c) f, rows_src_peer_4 c]
omit [FloatOps F] in
/-- The partner's source rows of copy 5, handed over with its landing, are where my all-gather copy 14 lands on it. -/
theorem as_dst_5 (c : Dev nD) (f : Buf (Elt F) (accL (peer 4 c))) :
    (srcPts 5 (partner 5 c) f : sProp 𝕄) = dstPts 14 c (partner 14 c) f := by
  show (((accM.slice (Rect.unit (s := S512x1024) (k0_off9 (peer 4 c)) S32x1024.size (k0_off9_inb (peer 4 c))) (fun _ => rfl)).view.loc ((peer 4 c : Dev nD) : Thread nD τ) ↦[(accM.slice (Rect.unit (s := S512x1024) (k0_off9 (peer 4 c)) S32x1024.size (k0_off9_inb (peer 4 c))) (fun _ => rfl)).view.set]{fullShare} f) : sProp 𝕄)
      = ((accM.slice (Rect.unit (s := S512x1024) (k0_off21 c) S32x1024.size (k0_off21_inb c)) (fun _ => rfl)).view.loc ((peer 4 c : Dev nD) : Thread nD τ) ↦[(accM.slice (Rect.unit (s := S512x1024) (k0_off21 c) S32x1024.size (k0_off21_inb c)) (fun _ => rfl)).view.set]{fullShare} f)
  rw [src_pts_5 (peer 4 c) f, dst_pts_14 c (peer 4 c) f, rows_src_peer_5 c]
omit [FloatOps F] in
/-- The partner's source rows of copy 6, handed over with its landing, are where my all-gather copy 9 lands on it. -/
theorem as_dst_6 (c : Dev nD) (f : Buf (Elt F) (accL (peer 1 c))) :
    (srcPts 6 (partner 6 c) f : sProp 𝕄) = dstPts 9 c (partner 9 c) f := by
  show (((accM.slice (Rect.unit (s := S512x1024) (k0_off11 (peer 1 c) 0#32 32#32) S32x1024.size (k0_off11_inb (peer 1 c) 0)) (fun _ => rfl)).view.loc ((peer 1 c : Dev nD) : Thread nD τ) ↦[(accM.slice (Rect.unit (s := S512x1024) (k0_off11 (peer 1 c) 0#32 32#32) S32x1024.size (k0_off11_inb (peer 1 c) 0)) (fun _ => rfl)).view.set]{fullShare} f) : sProp 𝕄)
      = ((accM.slice (Rect.unit (s := S512x1024) (k0_off11 c 32#32 0#32) S32x1024.size (k0_off11_inb c 1)) (fun _ => rfl)).view.loc ((peer 1 c : Dev nD) : Thread nD τ) ↦[(accM.slice (Rect.unit (s := S512x1024) (k0_off11 c 32#32 0#32) S32x1024.size (k0_off11_inb c 1)) (fun _ => rfl)).view.set]{fullShare} f)
  rw [src_pts_6 (peer 1 c) f, dst_pts_9 c (peer 1 c) f, rows_src_peer_6 c]
omit [FloatOps F] in
/-- The partner's source rows of copy 7, handed over with its landing, are where my all-gather copy 10 lands on it. -/
theorem as_dst_7 (c : Dev nD) (f : Buf (Elt F) (accL (peer 4 c))) :
    (srcPts 7 (partner 7 c) f : sProp 𝕄) = dstPts 10 c (partner 10 c) f := by
  show (((accM.slice (Rect.unit (s := S512x1024) (k0_off13 (peer 4 c) 0#32 16#32) S16x1024.size (k0_off13_inb (peer 4 c) 0)) (fun _ => rfl)).view.loc ((peer 4 c : Dev nD) : Thread nD τ) ↦[(accM.slice (Rect.unit (s := S512x1024) (k0_off13 (peer 4 c) 0#32 16#32) S16x1024.size (k0_off13_inb (peer 4 c) 0)) (fun _ => rfl)).view.set]{fullShare} f) : sProp 𝕄)
      = ((accM.slice (Rect.unit (s := S512x1024) (k0_off13 c 16#32 0#32) S16x1024.size (k0_off13_inb c 1)) (fun _ => rfl)).view.loc ((peer 4 c : Dev nD) : Thread nD τ) ↦[(accM.slice (Rect.unit (s := S512x1024) (k0_off13 c 16#32 0#32) S16x1024.size (k0_off13_inb c 1)) (fun _ => rfl)).view.set]{fullShare} f)
  rw [src_pts_7 (peer 4 c) f, dst_pts_10 c (peer 4 c) f, rows_src_peer_7 c]
omit [FloatOps F] in
/-- The partner's source rows of copy 8, handed over with its landing, are where my all-gather copy 11 lands on it. -/
theorem as_dst_8 (c : Dev nD) (f : Buf (Elt F) (accL (peer 3 c))) :
    (srcPts 8 (partner 8 c) f : sProp 𝕄) = dstPts 11 c (partner 11 c) f := by
  show (((accM.slice (Rect.unit (s := S512x1024) (k0_off15 (peer 3 c) 0#32 16#32) S16x1024.size (k0_off15_inb (peer 3 c) 0)) (fun _ => rfl)).view.loc ((peer 3 c : Dev nD) : Thread nD τ) ↦[(accM.slice (Rect.unit (s := S512x1024) (k0_off15 (peer 3 c) 0#32 16#32) S16x1024.size (k0_off15_inb (peer 3 c) 0)) (fun _ => rfl)).view.set]{fullShare} f) : sProp 𝕄)
      = ((accM.slice (Rect.unit (s := S512x1024) (k0_off15 c 16#32 0#32) S16x1024.size (k0_off15_inb c 1)) (fun _ => rfl)).view.loc ((peer 3 c : Dev nD) : Thread nD τ) ↦[(accM.slice (Rect.unit (s := S512x1024) (k0_off15 c 16#32 0#32) S16x1024.size (k0_off15_inb c 1)) (fun _ => rfl)).view.set]{fullShare} f)
  rw [src_pts_8 (peer 3 c) f, dst_pts_11 c (peer 3 c) f, rows_src_peer_8 c]
omit [FloatOps F] in
theorem mine_norm_9 (c : Dev nD) (f : Buf (Elt F) (accL c)) :
    (srcPts 9 c f : sProp 𝕄) = (accL c ↦[rowSet 512 (srcRow 9 c) 32]{fullShare} f) := src_pts_9 c f
omit [FloatOps F] in
theorem recv_norm_9 (c : Dev nD) (f : Buf (Elt F) (accL c)) :
    (dstPts 9 (partner 9 c) c f : sProp 𝕄) = (accL c ↦[rowSet 512 (srcRow 9 (peer 1 c)) 32]{fullShare} f) := dst_pts_9 (peer 1 c) c f
omit [FloatOps F] in
theorem mine_norm_10 (c : Dev nD) (f : Buf (Elt F) (accL c)) :
    (srcPts 10 c f : sProp 𝕄) = (accL c ↦[rowSet 512 (srcRow 10 c) 16]{fullShare} f) := src_pts_10 c f
omit [FloatOps F] in
theorem recv_norm_10 (c : Dev nD) (f : Buf (Elt F) (accL c)) :
    (dstPts 10 (partner 10 c) c f : sProp 𝕄) = (accL c ↦[rowSet 512 (srcRow 10 (peer 4 c)) 16]{fullShare} f) := dst_pts_10 (peer 4 c) c f
omit [FloatOps F] in
theorem mine_norm_11 (c : Dev nD) (f : Buf (Elt F) (accL c)) :
    (srcPts 11 c f : sProp 𝕄) = (accL c ↦[rowSet 512 (srcRow 11 c) 16]{fullShare} f) := src_pts_11 c f
omit [FloatOps F] in
theorem recv_norm_11 (c : Dev nD) (f : Buf (Elt F) (accL c)) :
    (dstPts 11 (partner 11 c) c f : sProp 𝕄) = (accL c ↦[rowSet 512 (srcRow 11 (peer 3 c)) 16]{fullShare} f) := dst_pts_11 (peer 3 c) c f
omit [FloatOps F] in
theorem mine_norm_12 (c : Dev nD) (f : Buf (Elt F) (accL c)) :
    (srcPts 12 c f : sProp 𝕄) = (accL c ↦[rowSet 512 (srcRow 12 c) 64]{fullShare} f) := src_pts_12 c f
omit [FloatOps F] in
theorem recv_norm_12 (c : Dev nD) (f : Buf (Elt F) (accL c)) :
    (dstPts 12 (partner 12 c) c f : sProp 𝕄) = (accL c ↦[rowSet 512 (srcRow 12 (peer 3 c)) 64]{fullShare} f) := dst_pts_12 (peer 3 c) c f
omit [FloatOps F] in
theorem mine_norm_13 (c : Dev nD) (f : Buf (Elt F) (accL c)) :
    (srcPts 13 c f : sProp 𝕄) = (accL c ↦[rowSet 512 (srcRow 13 c) 32]{fullShare} f) := src_pts_13 c f
omit [FloatOps F] in
theorem recv_norm_13 (c : Dev nD) (f : Buf (Elt F) (accL c)) :
    (dstPts 13 (partner 13 c) c f : sProp 𝕄) = (accL c ↦[rowSet 512 (srcRow 13 (peer 1 c)) 32]{fullShare} f) := dst_pts_13 (peer 1 c) c f
omit [FloatOps F] in
theorem mine_norm_14 (c : Dev nD) (f : Buf (Elt F) (accL c)) :
    (srcPts 14 c f : sProp 𝕄) = (accL c ↦[rowSet 512 (srcRow 14 c) 32]{fullShare} f) := src_pts_14 c f
omit [FloatOps F] in
theorem recv_norm_14 (c : Dev nD) (f : Buf (Elt F) (accL c)) :
    (dstPts 14 (partner 14 c) c f : sProp 𝕄) = (accL c ↦[rowSet 512 (srcRow 14 (peer 4 c)) 32]{fullShare} f) := dst_pts_14 (peer 4 c) c f
omit [FloatOps F] in
theorem mine_norm_15 (c : Dev nD) (f : Buf (Elt F) (accL c)) :
    (srcPts 15 c f : sProp 𝕄) = (accL c ↦[rowSet 512 (srcRow 15 c) 128]{fullShare} f) := src_pts_15 c f
omit [FloatOps F] in
theorem recv_norm_15 (c : Dev nD) (f : Buf (Elt F) (accL c)) :
    (dstPts 15 (partner 15 c) c f : sProp 𝕄) = (accL c ↦[rowSet 512 (srcRow 15 (peer 4 c)) 128]{fullShare} f) := dst_pts_15 (peer 4 c) c f
omit [FloatOps F] in
theorem mine_norm_16 (c : Dev nD) (f : Buf (Elt F) (accL c)) :
    (srcPts 16 c f : sProp 𝕄) = (accL c ↦[rowSet 512 (srcRow 16 c) 64]{fullShare} f) := src_pts_16 c f
omit [FloatOps F] in
theorem recv_norm_16 (c : Dev nD) (f : Buf (Elt F) (accL c)) :
    (dstPts 16 (partner 16 c) c f : sProp 𝕄) = (accL c ↦[rowSet 512 (srcRow 16 (peer 3 c)) 64]{fullShare} f) := dst_pts_16 (peer 3 c) c f
omit [FloatOps F] in
theorem mine_norm_17 (c : Dev nD) (f : Buf (Elt F) (accL c)) :
    (srcPts 17 c f : sProp 𝕄) = (accL c ↦[rowSet 512 (srcRow 17 c) 64]{fullShare} f) := src_pts_17 c f
omit [FloatOps F] in
theorem recv_norm_17 (c : Dev nD) (f : Buf (Elt F) (accL c)) :
    (dstPts 17 (partner 17 c) c f : sProp 𝕄) = (accL c ↦[rowSet 512 (srcRow 17 (peer 1 c)) 64]{fullShare} f) := dst_pts_17 (peer 1 c) c f

/-- With nothing left owing, the proof data's word after the point. -/
theorem owesAt_done (c : Dev nD) (W : Waits sig Unit) :
    (owes (c : Thread nD τ) (0 : CellTallies nD τ sig Unit) W : sProp 𝕄) ⊢ (dats m ρ P 0 c).owesAt () t0_0.succ := by
  unfold Dat.owesAt Pipeline.owesWithin
  rw [show (dats m ρ P 0 c).owed t0_0.succ = 0 from rfl]
  iintro H
  iexists W
  isplitr; · (ipureintro; exact fun _ _ => Or.inl trivial)
  iexact H

omit [FloatOps F] in
/-- A whole buffer held through its view at contents that are `X`. -/
theorem stg_of_held (c : Dev nD) (b : Ref sig .tc) (f : Buf (Elt F) ((c : Thread nD τ).loc b)) (X : b.ty.Contents (Elt F)) (h : f = X) :
    (held c b f : sProp 𝕄) ⊢ stg c b X := by
  subst h
  iintro H
  iexists f
  isplitr; · (ipureintro; rfl)
  iapply (Entails.of_eq (held_eq c b f).symm)
  iexact H

/-- The handshake signal, the addressee as the program names it. -/
theorem wp_hand' {α : Type} {Q : α → sProp (MT nD τ sig Unit (Elt F) ℕ UU ℕ)} (c : Dev nD) (d : Fin 3) (n n' : Dev nD) (hn : n = n')
    {k' : ℕ} (hk' : 1 = k') {k : PUnit → Prog (TpuEff nD τ sig (Elt F) Λ₀ .tc) α} {κ : ℕ}
    {O₀ : CellTallies nD τ sig Unit} (O : CellTallies nD τ sig Unit) (hO : O₀ = O + tallyAt (barCell n') () k') {W : Waits sig Unit} :
    iprop(cellInv ER (rd P) κ (barCell n') ∗ owes (c : Thread nD τ) O₀ W ∗ dutyTok ER (barCell n') 0 d
        ∗ barPay d n' ∗ reached ER (barCell n') 0)
      ⊢ iprop((owes (c : Thread nD τ) O W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal ((n : Dev nD) : Thread nD τ) barS k') k) Q) := by
  subst hn; exact wp_hand P c d n hk' O hO

set_option maxHeartbeats 3200000 in
theorem sound_body (c : Dev nD) (hP : P = Pc m) (Kt : PUnit → sProp 𝕄) :
    iprop(bodyPre m ρ P c ∗ (bodyPost m ρ P c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _) (Memref.whole cc0_stg2_0) (Memref.isWhole_whole _)
            (Memref.whole cc0_stg3_0) (Memref.isWhole_whole _) (Memref.whole cc0_stg4_0) (Memref.isWhole_whole _) (Memref.whole cc0_stg5_0) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) cc0_scratch4 cc0_scratch5) Kt := by
  have hPc : ∀ d : Dev nD, Pc m d = P d := fun d => by rw [hP]
  unfold bodyPre Φ₀ start scratch credits
  iintro ⟨⟨⟨⟨⟨%K, Hg⟩, ⟨HcB, HcR⟩, #Hlev⟩, ⟨%a0, Hacc⟩, ⟨%a1, Hc0⟩, ⟨%a2, Hc1⟩, ⟨%a3, Hc2⟩⟩, Ho, ⟨%d0, %g0, %hg0, Hx⟩, ⟨%d1, %g1, %hg1, Hwq⟩, ⟨%d2, %g2, %hg2, Hwk⟩, ⟨%d3, %g3, %hg3, Hwv⟩, ⟨%d4, %g4, %hg4, Hwo⟩, ⟨%d5, %g5, %hg5, Hout⟩⟩, Hk⟩
  unfold Dat.owesAt Pipeline.owesWithin
  icases Ho with ⟨%Wt, %hWt, HO⟩
  rw [show (dats m ρ P 0 c).owed t0_0.castSucc = O₀ c from rfl]
  have hg0' : g0 = iblk m c (0 : Fin 6) t0_0 := hg0.trans (before_0 m ρ P c d0)
  have hg1' : g1 = iblk m c (1 : Fin 6) t0_0 := hg1.trans (before_1 m ρ P c d1)
  have hg2' : g2 = iblk m c (2 : Fin 6) t0_0 := hg2.trans (before_2 m ρ P c d2)
  have hg3' : g3 = iblk m c (3 : Fin 6) t0_0 := hg3.trans (before_3 m ρ P c d3)
  have hg4' : g4 = iblk m c (4 : Fin 6) t0_0 := hg4.trans (before_4 m ρ P c d4)
  sl_unfold [cc0_body]
  unfold ghost records linear payToks
  icases Hg with ⟨⟨#HI, #HR⟩, Hat, HtB, HtR, HtS⟩
  -- the device's positions, tokens and credits, one by one
  ihave Hat' := (Entails.of_eq (bigSep_cellsOf c fun g => (atPos ER g 0 ∅ 0 : sProp 𝕄))) $$ Hat
  icases Hat' with ⟨HaB, HaS, HaR⟩
  ihave HaS' := (Entails.of_eq (bigSep_fin18 _)) $$ HaS
  icases HaS' with ⟨HaS0, HaS1, HaS2, HaS3, HaS4, HaS5, HaS6, HaS7, HaS8, HaS9, HaS10, HaS11, HaS12, HaS13, HaS14, HaS15, HaS16, HaS17⟩
  ihave HaR' := (Entails.of_eq (bigSep_fin18 _)) $$ HaR
  icases HaR' with ⟨HaR0, HaR1, HaR2, HaR3, HaR4, HaR5, HaR6, HaR7, HaR8, HaR9, HaR10, HaR11, HaR12, HaR13, HaR14, HaR15, HaR16, HaR17⟩
  ihave HtR' := (Entails.of_eq (bigSep_fin18 _)) $$ HtR
  icases HtR' with ⟨HtR0, HtR1, HtR2, HtR3, HtR4, HtR5, HtR6, HtR7, HtR8, HtR9, HtR10, HtR11, HtR12, HtR13, HtR14, HtR15, HtR16, HtR17⟩
  ihave HtS' := (Entails.of_eq (bigSep_fin18 _)) $$ HtS
  icases HtS' with ⟨HtS0, HtS1, HtS2, HtS3, HtS4, HtS5, HtS6, HtS7, HtS8, HtS9, HtS10, HtS11, HtS12, HtS13, HtS14, HtS15, HtS16, HtS17⟩
  ihave HcR' := (Entails.of_eq (bigSep_fin18 _)) $$ HcR
  icases HcR' with ⟨HcR0, HcR1, HcR2, HcR3, HcR4, HcR5, HcR6, HcR7, HcR8, HcR9, HcR10, HcR11, HcR12, HcR13, HcR14, HcR15, HcR16, HcR17⟩
  ihave HtB' := (Entails.of_eq (bigSep_fin3' _)) $$ HtB
  icases HtB' with ⟨HtB0, HtB1, HtB2⟩
  -- the landing buffers as slots: copy i's slot goes to the partner of copy i
  ihave Hs := (comm0_slots c (peer 4 c) (peer 3 c) (peer 1 c) a1).1 $$ Hc0
  icases Hs with ⟨Hsl0, Hsl1, Hsl2⟩
  ihave Hs := (comm1_slots c (peer 3 c) (peer 1 c) (peer 4 c) a2).1 $$ Hc1
  icases Hs with ⟨Hsl3, Hsl4, Hsl5⟩
  ihave Hs := (comm2_slots c (peer 1 c) (peer 4 c) (peer 3 c) a3).1 $$ Hc2
  icases Hs with ⟨Hsl6, Hsl7, Hsl8⟩
  -- the whole buffers, read through their views
  ihave Hp := (acc_parts c a0).1 $$ Hacc
  icases Hp with ⟨Hp0, Hp1, Hp2⟩
  ihave Hx' := (Entails.of_eq (held_eq c cc0_stg0_0 g0)) $$ Hx
  ihave Hwq' := (Entails.of_eq (held_eq c cc0_stg1_0 g1)) $$ Hwq
  ihave Hwk' := (Entails.of_eq (held_eq c cc0_stg2_0 g2)) $$ Hwk
  ihave Hwv' := (Entails.of_eq (held_eq c cc0_stg3_0 g3)) $$ Hwv
  ihave Hwo' := (Entails.of_eq (held_eq c cc0_stg4_0 g4)) $$ Hwo
  ihave Hout' := (Entails.of_eq (held_eq c cc0_stg5_0 g5)) $$ Hout
  sl_exec
  -- the three handshake signals: across 1 (slots of copies 2, 4, 6), across 3 (1, 3, 8), across 4 (0, 5, 7)
  iapply (wp_hand' P c 0 _ (peer 1 c) (dev1_eq c) rfl (O₁ c) rfl) $$ [HO HtB0 Hsl2 Hsl4 Hsl6]
  · isplitr; · iapply (inv_bar P K (peer 1 c)); iexact HI
    isplitl [HO]; · iexact HO
    isplitl [HtB0]; · iexact HtB0
    isplitl [Hsl2 Hsl4 Hsl6]
    · unfold barPay
      rw [show peer (barMask 0) (peer 1 c) = c from peer_peer1 c]
      isplitl [Hsl2]; · iexists a1; iexact Hsl2
      isplitl [Hsl4]; · iexists a2; iexact Hsl4
      iexists a3; iexact Hsl6
    · iapply (reached_bar (F := F) (peer 1 c)); iexact HR
  iintro HO
  sl_exec
  iapply (wp_hand' P c 1 _ (peer 3 c) (dev2_eq c) rfl (O₂ c) rfl) $$ [HO HtB1 Hsl1 Hsl3 Hsl8]
  · isplitr; · iapply (inv_bar P K (peer 3 c)); iexact HI
    isplitl [HO]; · iexact HO
    isplitl [HtB1]; · iexact HtB1
    isplitl [Hsl1 Hsl3 Hsl8]
    · unfold barPay
      rw [show peer (barMask 1) (peer 3 c) = c from peer_peer3 c]
      isplitl [Hsl1]; · iexists a1; iexact Hsl1
      isplitl [Hsl3]; · iexists a2; iexact Hsl3
      iexists a3; iexact Hsl8
    · iapply (reached_bar (F := F) (peer 3 c)); iexact HR
  iintro HO
  sl_exec
  iapply (wp_hand' P c 2 _ (peer 4 c) (dev3_eq c) rfl (owedFrom 0 c) rfl) $$ [HO HtB2 Hsl0 Hsl5 Hsl7]
  · isplitr; · iapply (inv_bar P K (peer 4 c)); iexact HI
    isplitl [HO]; · iexact HO
    isplitl [HtB2]; · iexact HtB2
    isplitl [Hsl0 Hsl5 Hsl7]
    · unfold barPay
      rw [show peer (barMask 2) (peer 4 c) = c from peer_peer4 c]
      isplitl [Hsl0]; · iexists a1; iexact Hsl0
      isplitl [Hsl5]; · iexists a2; iexact Hsl5
      iexists a3; iexact Hsl7
    · iapply (reached_bar (F := F) (peer 4 c)); iexact HR
  iintro HO
  sl_exec
  -- the handshake wait: the three partners' nine slots
  iapply (wp_handwait P c rfl) $$ [HcB HO HaB]
  · isplitr; · iapply (inv_bar P K c); iexact HI
    isplitl [HcB]; · iexact HcB
    isplitl [HO]; · iexact HO
    isplitr; · iapply (mayWait_from c (.reg barS) 0 (by rw [lv_bar]; decide)); iexact Hlev
    iexact HaB
  iintro ⟨HO, HaB, #HrB1, Hp0, Hp1, Hp2⟩
  unfold barPay
  icases Hp0 with ⟨⟨%e2, Hd2⟩, ⟨%e4, Hd4⟩, ⟨%e6, Hd6⟩⟩
  icases Hp1 with ⟨⟨%e1, Hd1⟩, ⟨%e3, Hd3⟩, ⟨%e8, Hd8⟩⟩
  icases Hp2 with ⟨⟨%e0, Hd0⟩, ⟨%e5, Hd5⟩, ⟨%e7, Hd7⟩⟩
  sl_exec
  -- copy 0: part 0's rows cut into the rows sent and the rows kept
  have hS0 : (accM.slice (Rect.unit (s := S512x1024) ![0, 0] S256x1024.size inb_S512x1024_S256x1024_0_0) (fun _ => rfl)).view.read (Elt F) (sound_body.sl.Hp0_w1 c a0 g0 g1 g2 g3 g4) = (accM.slice (Rect.unit (s := S512x1024) ![0, 0] S256x1024.size inb_S512x1024_S256x1024_0_0) (fun _ => rfl)).view.read (Elt F) (P c) :=
    (store_val_0 m c a0 g0 g1 g2 g3 g4 hg0' hg1' hg2' hg3' hg4').trans (congrArg ((accM.slice (Rect.unit (s := S512x1024) ![0, 0] S256x1024.size inb_S512x1024_S256x1024_0_0) (fun _ => rfl)).view.read (Elt F)) (hPc c))
  have hv0 := read_sub_of_read cc0_scratch0 _ _ (src_sub_0 c) _ _ hS0
  have hK0 := read_sub_of_read cc0_scratch0 _ _ (keep_sub_0 c) _ _ hS0
  ihave H := (Entails.of_eq (part_pts_0 c _)) $$ Hp0
  ihave H := (acc_halve c _ (halves_0 c)).1 $$ H
  icases H with ⟨Hs, Hk⟩
  ihave Hs0 := (Entails.of_eq (src_pts_0 c _).symm) $$ Hs
  ihave Hk0 := (Entails.of_eq (keep_pts_0 c _).symm) $$ Hk
  iapply (wp_copyRS P c 0 (by decide) _ (dev4_eq c) _ e0 hv0 (owedFrom 1 c) (owedFrom_succ 0 c)) $$ [Hs0 Hd0 HO HtS0 HtR0]
  · isplitr; · iapply (inv_send P K 0 c); iexact HI
    isplitr; · iapply (inv_recv P K 0 (partner 0 c)); iexact HI
    isplitl [Hs0]; · iexact Hs0
    isplitl [Hd0]; · iexact Hd0
    isplitl [HO]; · iexact HO
    isplitl [HtS0]; · iexact HtS0
    isplitr; · iapply (reached_send (F := F) 0 c); iexact HR
    isplitl [HtR0]; · iexact HtR0
    iapply (reached_recv (F := F) 0 (partner 0 c)); iexact HR
  iintro ⟨HcS0, HO⟩
  sl_exec
  -- copy 1
  have hS1 : (accM.slice (Rect.unit (s := S512x1024) ![256, 0] S128x1024.size inb_S512x1024_S128x1024_256_0) (fun _ => rfl)).view.read (Elt F) (sound_body.sl.Hp1_w1 c a0 g0 g1 g2 g3 g4) = (accM.slice (Rect.unit (s := S512x1024) ![256, 0] S128x1024.size inb_S512x1024_S128x1024_256_0) (fun _ => rfl)).view.read (Elt F) (P c) :=
    (store_val_1 m c a0 g0 g1 g2 g3 g4 hg0' hg1' hg2' hg3' hg4').trans (congrArg ((accM.slice (Rect.unit (s := S512x1024) ![256, 0] S128x1024.size inb_S512x1024_S128x1024_256_0) (fun _ => rfl)).view.read (Elt F)) (hPc c))
  have hv1 := read_sub_of_read cc0_scratch0 _ _ (src_sub_1 c) _ _ hS1
  have hK1 := read_sub_of_read cc0_scratch0 _ _ (keep_sub_1 c) _ _ hS1
  ihave H := (Entails.of_eq (part_pts_1 c _)) $$ Hp1
  ihave H := (acc_halve c _ (halves_1 c)).1 $$ H
  icases H with ⟨Hs, Hk⟩
  ihave Hs1 := (Entails.of_eq (src_pts_1 c _).symm) $$ Hs
  ihave Hk1 := (Entails.of_eq (keep_pts_1 c _).symm) $$ Hk
  iapply (wp_copyRS P c 1 (by decide) _ (dev5_eq c) _ e1 hv1 (owedFrom 2 c) (owedFrom_succ 1 c)) $$ [Hs1 Hd1 HO HtS1 HtR1]
  · isplitr; · iapply (inv_send P K 1 c); iexact HI
    isplitr; · iapply (inv_recv P K 1 (partner 1 c)); iexact HI
    isplitl [Hs1]; · iexact Hs1
    isplitl [Hd1]; · iexact Hd1
    isplitl [HO]; · iexact HO
    isplitl [HtS1]; · iexact HtS1
    isplitr; · iapply (reached_send (F := F) 1 c); iexact HR
    isplitl [HtR1]; · iexact HtR1
    iapply (reached_recv (F := F) 1 (partner 1 c)); iexact HR
  iintro ⟨HcS1, HO⟩
  sl_exec
  -- copy 2
  have hS2 : (accM.slice (Rect.unit (s := S512x1024) ![384, 0] S128x1024.size inb_S512x1024_S128x1024_384_0) (fun _ => rfl)).view.read (Elt F) (sound_body.sl.Hp2_w1 c a0 g0 g1 g2 g3 g4) = (accM.slice (Rect.unit (s := S512x1024) ![384, 0] S128x1024.size inb_S512x1024_S128x1024_384_0) (fun _ => rfl)).view.read (Elt F) (P c) :=
    (store_val_2 m c a0 g0 g1 g2 g3 g4 hg0' hg1' hg2' hg3' hg4').trans (congrArg ((accM.slice (Rect.unit (s := S512x1024) ![384, 0] S128x1024.size inb_S512x1024_S128x1024_384_0) (fun _ => rfl)).view.read (Elt F)) (hPc c))
  have hv2 := read_sub_of_read cc0_scratch0 _ _ (src_sub_2 c) _ _ hS2
  have hK2 := read_sub_of_read cc0_scratch0 _ _ (keep_sub_2 c) _ _ hS2
  ihave H := (Entails.of_eq (part_pts_2 c _)) $$ Hp2
  ihave H := (acc_halve c _ (halves_2 c)).1 $$ H
  icases H with ⟨Hs, Hk⟩
  ihave Hs2 := (Entails.of_eq (src_pts_2 c _).symm) $$ Hs
  ihave Hk2 := (Entails.of_eq (keep_pts_2 c _).symm) $$ Hk
  iapply (wp_copyRS P c 2 (by decide) _ (dev6_eq c) _ e2 hv2 (owedFrom 3 c) (owedFrom_succ 2 c)) $$ [Hs2 Hd2 HO HtS2 HtR2]
  · isplitr; · iapply (inv_send P K 2 c); iexact HI
    isplitr; · iapply (inv_recv P K 2 (partner 2 c)); iexact HI
    isplitl [Hs2]; · iexact Hs2
    isplitl [Hd2]; · iexact Hd2
    isplitl [HO]; · iexact HO
    isplitl [HtS2]; · iexact HtS2
    isplitr; · iapply (reached_send (F := F) 2 c); iexact HR
    isplitl [HtR2]; · iexact HtR2
    iapply (reached_recv (F := F) 2 (partner 2 c)); iexact HR
  iintro ⟨HcS2, HO⟩
  sl_exec
  -- copy 0 is waited for, its landing added in, and the kept rows cut for copy 3
  iapply (wp_sendwait P c 0 (credit_src 0 c)) $$ [HcS0 HO HaS0]
  · isplitr; · iapply (inv_send P K 0 c); iexact HI
    isplitl [HcS0]; · iexact HcS0
    isplitl [HO]; · iexact HO
    isplitr; · iapply (mayWait_from c (.dma (sendS 0)) 3 (by rw [lv_send]; omega)); iexact Hlev
    iexact HaS0
  iintro ⟨HO, HaS0, #HrS0, -⟩
  sl_exec
  iapply (wp_recvwait P c 0 (credit_dst 0 c (recvS 0))) $$ [HcR0 HO HaR0]
  · isplitr; · iapply (inv_recv P K 0 c); iexact HI
    isplitl [HcR0]; · iexact HcR0
    isplitl [HO]; · iexact HO
    isplitr; · iapply (mayWait_from c (.dma (recvS 0)) 3 (by rw [lv_recv]; show (0 : ℕ) + 2 < 3 + 2; omega)); iexact Hlev
    iexact HaR0
  iintro ⟨HO, HaR0, #HrR0, HpR0⟩
  ihave Hp := (Entails.of_eq (recvPay_rs P c 0 (by decide))) $$ HpR0
  unfold dstAt srcAt
  icases Hp with ⟨⟨%fl0, %hfl0, Hl0⟩, ⟨%fp0, %hfp0, Hq0⟩⟩
  ihave Hl0' := (Entails.of_eq (slot_pts_0 c _ fl0)) $$ Hl0
  sl_exec
  have hA0 : (accM.slice (Rect.unit (s := S512x1024) (k0_off4 c) S128x1024.size (k0_off4_inb c)) (fun _ => rfl)).view.read (Elt F) (sound_body.sl.Hk0_w1 c a0 g0 g1 g2 g3 g4 fl0) = (accM.slice (Rect.unit (s := S512x1024) (k0_off4 c) S128x1024.size (k0_off4_inb c)) (fun _ => rfl)).view.read (Elt F) (W P (0 + 1) c) :=
    add_val_0 P c _ fl0 hK0 hfl0
  have hv3 := read_sub_of_read cc0_scratch0 _ _ (src_sub_3 c) _ _ hA0
  have hK3 := read_sub_of_read cc0_scratch0 _ _ (keep_sub_3 c) _ _ hA0
  ihave H := (Entails.of_eq (keep_pts_0 c _)) $$ Hk0
  ihave H := (acc_halve c _ (halves_3 c)).1 $$ H
  icases H with ⟨Hs, Hk⟩
  ihave Hs3 := (Entails.of_eq (src_pts_3 c _).symm) $$ Hs
  ihave Hk3 := (Entails.of_eq (keep_pts_3 c _).symm) $$ Hk
  iapply (wp_copyRS P c 3 (by decide) _ (dev7_eq c) _ e3 hv3 (owedFrom 4 c) (owedFrom_succ 3 c)) $$ [Hs3 Hd3 HO HtS3 HtR3]
  · isplitr; · iapply (inv_send P K 3 c); iexact HI
    isplitr; · iapply (inv_recv P K 3 (partner 3 c)); iexact HI
    isplitl [Hs3]; · iexact Hs3
    isplitl [Hd3]; · iexact Hd3
    isplitl [HO]; · iexact HO
    isplitl [HtS3]; · iexact HtS3
    isplitr; · iapply (reached_send (F := F) 3 c); iexact HR
    isplitl [HtR3]; · iexact HtR3
    iapply (reached_recv (F := F) 3 (partner 3 c)); iexact HR
  iintro ⟨HcS3, HO⟩
  sl_exec
  -- copy 1 is waited for, its landing added in, and the kept rows cut for copy 4
  iapply (wp_sendwait P c 1 (credit_src 1 c)) $$ [HcS1 HO HaS1]
  · isplitr; · iapply (inv_send P K 1 c); iexact HI
    isplitl [HcS1]; · iexact HcS1
    isplitl [HO]; · iexact HO
    isplitr; · iapply (mayWait_from c (.dma (sendS 1)) 4 (by rw [lv_send]; omega)); iexact Hlev
    iexact HaS1
  iintro ⟨HO, HaS1, #HrS1, -⟩
  sl_exec
  iapply (wp_recvwait P c 1 (credit_dst 1 c (recvS 1))) $$ [HcR1 HO HaR1]
  · isplitr; · iapply (inv_recv P K 1 c); iexact HI
    isplitl [HcR1]; · iexact HcR1
    isplitl [HO]; · iexact HO
    isplitr; · iapply (mayWait_from c (.dma (recvS 1)) 4 (by rw [lv_recv]; show (1 : ℕ) + 2 < 4 + 2; omega)); iexact Hlev
    iexact HaR1
  iintro ⟨HO, HaR1, #HrR1, HpR1⟩
  ihave Hp := (Entails.of_eq (recvPay_rs P c 1 (by decide))) $$ HpR1
  unfold dstAt srcAt
  icases Hp with ⟨⟨%fl1, %hfl1, Hl1⟩, ⟨%fp1, %hfp1, Hq1⟩⟩
  ihave Hl1' := (Entails.of_eq (slot_pts_1 c _ fl1)) $$ Hl1
  sl_exec
  have hA1 : (accM.slice (Rect.unit (s := S512x1024) (k0_off6 c) S64x1024.size (k0_off6_inb c)) (fun _ => rfl)).view.read (Elt F) (sound_body.sl.Hk1_w1 c a0 g0 g1 g2 g3 g4 fl1) = (accM.slice (Rect.unit (s := S512x1024) (k0_off6 c) S64x1024.size (k0_off6_inb c)) (fun _ => rfl)).view.read (Elt F) (W P (0 + 1) c) :=
    add_val_1 P c _ fl1 hK1 hfl1
  have hv4 := read_sub_of_read cc0_scratch0 _ _ (src_sub_4 c) _ _ hA1
  have hK4 := read_sub_of_read cc0_scratch0 _ _ (keep_sub_4 c) _ _ hA1
  ihave H := (Entails.of_eq (keep_pts_1 c _)) $$ Hk1
  ihave H := (acc_halve c _ (halves_4 c)).1 $$ H
  icases H with ⟨Hs, Hk⟩
  ihave Hs4 := (Entails.of_eq (src_pts_4 c _).symm) $$ Hs
  ihave Hk4 := (Entails.of_eq (keep_pts_4 c _).symm) $$ Hk
  iapply (wp_copyRS P c 4 (by decide) _ (dev8_eq c) _ e4 hv4 (owedFrom 5 c) (owedFrom_succ 4 c)) $$ [Hs4 Hd4 HO HtS4 HtR4]
  · isplitr; · iapply (inv_send P K 4 c); iexact HI
    isplitr; · iapply (inv_recv P K 4 (partner 4 c)); iexact HI
    isplitl [Hs4]; · iexact Hs4
    isplitl [Hd4]; · iexact Hd4
    isplitl [HO]; · iexact HO
    isplitl [HtS4]; · iexact HtS4
    isplitr; · iapply (reached_send (F := F) 4 c); iexact HR
    isplitl [HtR4]; · iexact HtR4
    iapply (reached_recv (F := F) 4 (partner 4 c)); iexact HR
  iintro ⟨HcS4, HO⟩
  sl_exec
  -- copy 2 is waited for, its landing added in, and the kept rows cut for copy 5
  iapply (wp_sendwait P c 2 (credit_src 2 c)) $$ [HcS2 HO HaS2]
  · isplitr; · iapply (inv_send P K 2 c); iexact HI
    isplitl [HcS2]; · iexact HcS2
    isplitl [HO]; · iexact HO
    isplitr; · iapply (mayWait_from c (.dma (sendS 2)) 5 (by rw [lv_send]; omega)); iexact Hlev
    iexact HaS2
  iintro ⟨HO, HaS2, #HrS2, -⟩
  sl_exec
  iapply (wp_recvwait P c 2 (credit_dst 2 c (recvS 2))) $$ [HcR2 HO HaR2]
  · isplitr; · iapply (inv_recv P K 2 c); iexact HI
    isplitl [HcR2]; · iexact HcR2
    isplitl [HO]; · iexact HO
    isplitr; · iapply (mayWait_from c (.dma (recvS 2)) 5 (by rw [lv_recv]; show (2 : ℕ) + 2 < 5 + 2; omega)); iexact Hlev
    iexact HaR2
  iintro ⟨HO, HaR2, #HrR2, HpR2⟩
  ihave Hp := (Entails.of_eq (recvPay_rs P c 2 (by decide))) $$ HpR2
  unfold dstAt srcAt
  icases Hp with ⟨⟨%fl2, %hfl2, Hl2⟩, ⟨%fp2, %hfp2, Hq2⟩⟩
  ihave Hl2' := (Entails.of_eq (slot_pts_2 c _ fl2)) $$ Hl2
  sl_exec
  have hA2 : (accM.slice (Rect.unit (s := S512x1024) (k0_off8 c) S64x1024.size (k0_off8_inb c)) (fun _ => rfl)).view.read (Elt F) (sound_body.sl.Hk2_w1 c a0 g0 g1 g2 g3 g4 fl2) = (accM.slice (Rect.unit (s := S512x1024) (k0_off8 c) S64x1024.size (k0_off8_inb c)) (fun _ => rfl)).view.read (Elt F) (W P (0 + 1) c) :=
    add_val_2 P c _ fl2 hK2 hfl2
  have hv5 := read_sub_of_read cc0_scratch0 _ _ (src_sub_5 c) _ _ hA2
  have hK5 := read_sub_of_read cc0_scratch0 _ _ (keep_sub_5 c) _ _ hA2
  ihave H := (Entails.of_eq (keep_pts_2 c _)) $$ Hk2
  ihave H := (acc_halve c _ (halves_5 c)).1 $$ H
  icases H with ⟨Hs, Hk⟩
  ihave Hs5 := (Entails.of_eq (src_pts_5 c _).symm) $$ Hs
  ihave Hk5 := (Entails.of_eq (keep_pts_5 c _).symm) $$ Hk
  iapply (wp_copyRS P c 5 (by decide) _ (dev9_eq c) _ e5 hv5 (owedFrom 6 c) (owedFrom_succ 5 c)) $$ [Hs5 Hd5 HO HtS5 HtR5]
  · isplitr; · iapply (inv_send P K 5 c); iexact HI
    isplitr; · iapply (inv_recv P K 5 (partner 5 c)); iexact HI
    isplitl [Hs5]; · iexact Hs5
    isplitl [Hd5]; · iexact Hd5
    isplitl [HO]; · iexact HO
    isplitl [HtS5]; · iexact HtS5
    isplitr; · iapply (reached_send (F := F) 5 c); iexact HR
    isplitl [HtR5]; · iexact HtR5
    iapply (reached_recv (F := F) 5 (partner 5 c)); iexact HR
  iintro ⟨HcS5, HO⟩
  sl_exec
  -- copy 3 is waited for, its landing added in, and the kept rows cut for copy 6
  iapply (wp_sendwait P c 3 (credit_src 3 c)) $$ [HcS3 HO HaS3]
  · isplitr; · iapply (inv_send P K 3 c); iexact HI
    isplitl [HcS3]; · iexact HcS3
    isplitl [HO]; · iexact HO
    isplitr; · iapply (mayWait_from c (.dma (sendS 3)) 6 (by rw [lv_send]; omega)); iexact Hlev
    iexact HaS3
  iintro ⟨HO, HaS3, #HrS3, -⟩
  sl_exec
  iapply (wp_recvwait P c 3 (credit_dst 3 c (recvS 3))) $$ [HcR3 HO HaR3]
  · isplitr; · iapply (inv_recv P K 3 c); iexact HI
    isplitl [HcR3]; · iexact HcR3
    isplitl [HO]; · iexact HO
    isplitr; · iapply (mayWait_from c (.dma (recvS 3)) 6 (by rw [lv_recv]; show (3 : ℕ) + 2 < 6 + 2; omega)); iexact Hlev
    iexact HaR3
  iintro ⟨HO, HaR3, #HrR3, HpR3⟩
  ihave Hp := (Entails.of_eq (recvPay_rs P c 3 (by decide))) $$ HpR3
  unfold dstAt srcAt
  icases Hp with ⟨⟨%fl3, %hfl3, Hl3⟩, ⟨%fp3, %hfp3, Hq3⟩⟩
  ihave Hl3' := (Entails.of_eq (slot_pts_3 c _ fl3)) $$ Hl3
  sl_exec
  have hA3 : (accM.slice (Rect.unit (s := S512x1024) (k0_off10 c) S64x1024.size (k0_off10_inb c)) (fun _ => rfl)).view.read (Elt F) (sound_body.sl.Hk3_w1 c a0 g0 g1 g2 g3 g4 fl0 fl3) = (accM.slice (Rect.unit (s := S512x1024) (k0_off10 c) S64x1024.size (k0_off10_inb c)) (fun _ => rfl)).view.read (Elt F) (W P (1 + 1) c) :=
    add_val_3 P c _ fl3 hK3 hfl3
  have hv6 := read_sub_of_read cc0_scratch0 _ _ (src_sub_6 c) _ _ hA3
  have hK6 := read_sub_of_read cc0_scratch0 _ _ (keep_sub_6 c) _ _ hA3
  ihave H := (Entails.of_eq (keep_pts_3 c _)) $$ Hk3
  ihave H := (acc_halve c _ (halves_6 c)).1 $$ H
  icases H with ⟨Hs, Hk⟩
  ihave Hs6 := (Entails.of_eq (src_pts_6 c _).symm) $$ Hs
  ihave Hk6 := (Entails.of_eq (keep_pts_6 c _).symm) $$ Hk
  iapply (wp_copyRS P c 6 (by decide) _ (dev10_eq c) _ e6 hv6 (owedFrom 7 c) (owedFrom_succ 6 c)) $$ [Hs6 Hd6 HO HtS6 HtR6]
  · isplitr; · iapply (inv_send P K 6 c); iexact HI
    isplitr; · iapply (inv_recv P K 6 (partner 6 c)); iexact HI
    isplitl [Hs6]; · iexact Hs6
    isplitl [Hd6]; · iexact Hd6
    isplitl [HO]; · iexact HO
    isplitl [HtS6]; · iexact HtS6
    isplitr; · iapply (reached_send (F := F) 6 c); iexact HR
    isplitl [HtR6]; · iexact HtR6
    iapply (reached_recv (F := F) 6 (partner 6 c)); iexact HR
  iintro ⟨HcS6, HO⟩
  sl_exec
  -- copy 4 is waited for, its landing added in, and the kept rows cut for copy 7
  iapply (wp_sendwait P c 4 (credit_src 4 c)) $$ [HcS4 HO HaS4]
  · isplitr; · iapply (inv_send P K 4 c); iexact HI
    isplitl [HcS4]; · iexact HcS4
    isplitl [HO]; · iexact HO
    isplitr; · iapply (mayWait_from c (.dma (sendS 4)) 7 (by rw [lv_send]; omega)); iexact Hlev
    iexact HaS4
  iintro ⟨HO, HaS4, #HrS4, -⟩
  sl_exec
  iapply (wp_recvwait P c 4 (credit_dst 4 c (recvS 4))) $$ [HcR4 HO HaR4]
  · isplitr; · iapply (inv_recv P K 4 c); iexact HI
    isplitl [HcR4]; · iexact HcR4
    isplitl [HO]; · iexact HO
    isplitr; · iapply (mayWait_from c (.dma (recvS 4)) 7 (by rw [lv_recv]; show (4 : ℕ) + 2 < 7 + 2; omega)); iexact Hlev
    iexact HaR4
  iintro ⟨HO, HaR4, #HrR4, HpR4⟩
  ihave Hp := (Entails.of_eq (recvPay_rs P c 4 (by decide))) $$ HpR4
  unfold dstAt srcAt
  icases Hp with ⟨⟨%fl4, %hfl4, Hl4⟩, ⟨%fp4, %hfp4, Hq4⟩⟩
  ihave Hl4' := (Entails.of_eq (slot_pts_4 c _ fl4)) $$ Hl4
  sl_exec
  have hA4 : (accM.slice (Rect.unit (s := S512x1024) (k0_off12 c) S32x1024.size (k0_off12_inb c)) (fun _ => rfl)).view.read (Elt F) (sound_body.sl.Hk4_w1 c a0 g0 g1 g2 g3 g4 fl1 fl4) = (accM.slice (Rect.unit (s := S512x1024) (k0_off12 c) S32x1024.size (k0_off12_inb c)) (fun _ => rfl)).view.read (Elt F) (W P (1 + 1) c) :=
    add_val_4 P c _ fl4 hK4 hfl4
  have hv7 := read_sub_of_read cc0_scratch0 _ _ (src_sub_7 c) _ _ hA4
  have hK7 := read_sub_of_read cc0_scratch0 _ _ (keep_sub_7 c) _ _ hA4
  ihave H := (Entails.of_eq (keep_pts_4 c _)) $$ Hk4
  ihave H := (acc_halve c _ (halves_7 c)).1 $$ H
  icases H with ⟨Hs, Hk⟩
  ihave Hs7 := (Entails.of_eq (src_pts_7 c _).symm) $$ Hs
  ihave Hk7 := (Entails.of_eq (keep_pts_7 c _).symm) $$ Hk
  iapply (wp_copyRS P c 7 (by decide) _ (dev11_eq c) _ e7 hv7 (owedFrom 8 c) (owedFrom_succ 7 c)) $$ [Hs7 Hd7 HO HtS7 HtR7]
  · isplitr; · iapply (inv_send P K 7 c); iexact HI
    isplitr; · iapply (inv_recv P K 7 (partner 7 c)); iexact HI
    isplitl [Hs7]; · iexact Hs7
    isplitl [Hd7]; · iexact Hd7
    isplitl [HO]; · iexact HO
    isplitl [HtS7]; · iexact HtS7
    isplitr; · iapply (reached_send (F := F) 7 c); iexact HR
    isplitl [HtR7]; · iexact HtR7
    iapply (reached_recv (F := F) 7 (partner 7 c)); iexact HR
  iintro ⟨HcS7, HO⟩
  sl_exec
  -- copy 5 is waited for, its landing added in, and the kept rows cut for copy 8
  iapply (wp_sendwait P c 5 (credit_src 5 c)) $$ [HcS5 HO HaS5]
  · isplitr; · iapply (inv_send P K 5 c); iexact HI
    isplitl [HcS5]; · iexact HcS5
    isplitl [HO]; · iexact HO
    isplitr; · iapply (mayWait_from c (.dma (sendS 5)) 8 (by rw [lv_send]; omega)); iexact Hlev
    iexact HaS5
  iintro ⟨HO, HaS5, #HrS5, -⟩
  sl_exec
  iapply (wp_recvwait P c 5 (credit_dst 5 c (recvS 5))) $$ [HcR5 HO HaR5]
  · isplitr; · iapply (inv_recv P K 5 c); iexact HI
    isplitl [HcR5]; · iexact HcR5
    isplitl [HO]; · iexact HO
    isplitr; · iapply (mayWait_from c (.dma (recvS 5)) 8 (by rw [lv_recv]; show (5 : ℕ) + 2 < 8 + 2; omega)); iexact Hlev
    iexact HaR5
  iintro ⟨HO, HaR5, #HrR5, HpR5⟩
  ihave Hp := (Entails.of_eq (recvPay_rs P c 5 (by decide))) $$ HpR5
  unfold dstAt srcAt
  icases Hp with ⟨⟨%fl5, %hfl5, Hl5⟩, ⟨%fp5, %hfp5, Hq5⟩⟩
  ihave Hl5' := (Entails.of_eq (slot_pts_5 c _ fl5)) $$ Hl5
  sl_exec
  have hA5 : (accM.slice (Rect.unit (s := S512x1024) (k0_off14 c) S32x1024.size (k0_off14_inb c)) (fun _ => rfl)).view.read (Elt F) (sound_body.sl.Hk5_w1 c a0 g0 g1 g2 g3 g4 fl2 fl5) = (accM.slice (Rect.unit (s := S512x1024) (k0_off14 c) S32x1024.size (k0_off14_inb c)) (fun _ => rfl)).view.read (Elt F) (W P (1 + 1) c) :=
    add_val_5 P c _ fl5 hK5 hfl5
  have hv8 := read_sub_of_read cc0_scratch0 _ _ (src_sub_8 c) _ _ hA5
  have hK8 := read_sub_of_read cc0_scratch0 _ _ (keep_sub_8 c) _ _ hA5
  ihave H := (Entails.of_eq (keep_pts_5 c _)) $$ Hk5
  ihave H := (acc_halve c _ (halves_8 c)).1 $$ H
  icases H with ⟨Hs, Hk⟩
  ihave Hs8 := (Entails.of_eq (src_pts_8 c _).symm) $$ Hs
  ihave Hk8 := (Entails.of_eq (keep_pts_8 c _).symm) $$ Hk
  iapply (wp_copyRS P c 8 (by decide) _ (dev12_eq c) _ e8 hv8 (owedFrom 9 c) (owedFrom_succ 8 c)) $$ [Hs8 Hd8 HO HtS8 HtR8]
  · isplitr; · iapply (inv_send P K 8 c); iexact HI
    isplitr; · iapply (inv_recv P K 8 (partner 8 c)); iexact HI
    isplitl [Hs8]; · iexact Hs8
    isplitl [Hd8]; · iexact Hd8
    isplitl [HO]; · iexact HO
    isplitl [HtS8]; · iexact HtS8
    isplitr; · iapply (reached_send (F := F) 8 c); iexact HR
    isplitl [HtR8]; · iexact HtR8
    iapply (reached_recv (F := F) 8 (partner 8 c)); iexact HR
  iintro ⟨HcS8, HO⟩
  sl_exec
  -- copy 6 is waited for and its landing added in; the kept rows, now final, go out by all-gather copy 9
  iapply (wp_sendwait P c 6 (credit_src 6 c)) $$ [HcS6 HO HaS6]
  · isplitr; · iapply (inv_send P K 6 c); iexact HI
    isplitl [HcS6]; · iexact HcS6
    isplitl [HO]; · iexact HO
    isplitr; · iapply (mayWait_from c (.dma (sendS 6)) 9 (by rw [lv_send]; omega)); iexact Hlev
    iexact HaS6
  iintro ⟨HO, HaS6, #HrS6, -⟩
  sl_exec
  iapply (wp_recvwait P c 6 (credit_dst 6 c (recvS 6))) $$ [HcR6 HO HaR6]
  · isplitr; · iapply (inv_recv P K 6 c); iexact HI
    isplitl [HcR6]; · iexact HcR6
    isplitl [HO]; · iexact HO
    isplitr; · iapply (mayWait_from c (.dma (recvS 6)) 9 (by rw [lv_recv]; show (6 : ℕ) + 2 < 9 + 2; omega)); iexact Hlev
    iexact HaR6
  iintro ⟨HO, HaR6, #HrR6, HpR6⟩
  ihave Hp := (Entails.of_eq (recvPay_rs P c 6 (by decide))) $$ HpR6
  unfold dstAt srcAt
  icases Hp with ⟨⟨%fl6, %hfl6, Hl6⟩, ⟨%fp6, %hfp6, Hq6⟩⟩
  ihave Hl6' := (Entails.of_eq (slot_pts_6 c _ fl6)) $$ Hl6
  sl_exec
  have hA6 : (accM.slice (Rect.unit (s := S512x1024) (k0_off16 c) S32x1024.size (k0_off16_inb c)) (fun _ => rfl)).view.read (Elt F) (sound_body.sl.Hk6_w1 c a0 g0 g1 g2 g3 g4 fl0 fl3 fl6) = (accM.slice (Rect.unit (s := S512x1024) (k0_off16 c) S32x1024.size (k0_off16_inb c)) (fun _ => rfl)).view.read (Elt F) (W P (2 + 1) c) :=
    add_val_6 P c _ fl6 hK6 hfl6
  have hv9 := (read_src9_eq_keep6 c _).trans (hA6.trans (read_src9_eq_keep6 c (W P 3 c)).symm)
  ihave H := (Entails.of_eq (keep_pts_6 c _)) $$ Hk6
  rw [rows_keep_6 c]
  ihave Hs9 := (Entails.of_eq (src_pts_9 c _).symm) $$ H
  ihave Hdd9 := (Entails.of_eq (as_dst_6 c fp6)) $$ Hq6
  iapply (wp_copyAG P c 9 (by decide) _ (dev13_eq c) _ fp6 hv9 (owedFrom 10 c) (owedFrom_succ 9 c)) $$ [Hs9 Hdd9 HO HtS9 HtR9]
  · isplitr; · iapply (inv_send P K 9 c); iexact HI
    isplitr; · iapply (inv_recv P K 9 (partner 9 c)); iexact HI
    isplitl [Hs9]; · iexact Hs9
    isplitl [Hdd9]; · iexact Hdd9
    isplitl [HO]; · iexact HO
    isplitl [HtS9]; · iexact HtS9
    isplitr; · iapply (reached_send (F := F) 9 c); iexact HR
    isplitl [HtR9]; · iexact HtR9
    iapply (reached_recv (F := F) 9 (partner 9 c)); iexact HR
  iintro ⟨HcS9, HO⟩
  sl_exec
  -- copy 7 is waited for and its landing added in; the kept rows, now final, go out by all-gather copy 10
  iapply (wp_sendwait P c 7 (credit_src 7 c)) $$ [HcS7 HO HaS7]
  · isplitr; · iapply (inv_send P K 7 c); iexact HI
    isplitl [HcS7]; · iexact HcS7
    isplitl [HO]; · iexact HO
    isplitr; · iapply (mayWait_from c (.dma (sendS 7)) 10 (by rw [lv_send]; omega)); iexact Hlev
    iexact HaS7
  iintro ⟨HO, HaS7, #HrS7, -⟩
  sl_exec
  iapply (wp_recvwait P c 7 (credit_dst 7 c (recvS 7))) $$ [HcR7 HO HaR7]
  · isplitr; · iapply (inv_recv P K 7 c); iexact HI
    isplitl [HcR7]; · iexact HcR7
    isplitl [HO]; · iexact HO
    isplitr; · iapply (mayWait_from c (.dma (recvS 7)) 10 (by rw [lv_recv]; show (7 : ℕ) + 2 < 10 + 2; omega)); iexact Hlev
    iexact HaR7
  iintro ⟨HO, HaR7, #HrR7, HpR7⟩
  ihave Hp := (Entails.of_eq (recvPay_rs P c 7 (by decide))) $$ HpR7
  unfold dstAt srcAt
  icases Hp with ⟨⟨%fl7, %hfl7, Hl7⟩, ⟨%fp7, %hfp7, Hq7⟩⟩
  ihave Hl7' := (Entails.of_eq (slot_pts_7 c _ fl7)) $$ Hl7
  sl_exec
  have hA7 : (accM.slice (Rect.unit (s := S512x1024) (k0_off17 c) S16x1024.size (k0_off17_inb c)) (fun _ => rfl)).view.read (Elt F) (sound_body.sl.Hk7_w1 c a0 g0 g1 g2 g3 g4 fl1 fl4 fl7) = (accM.slice (Rect.unit (s := S512x1024) (k0_off17 c) S16x1024.size (k0_off17_inb c)) (fun _ => rfl)).view.read (Elt F) (W P (2 + 1) c) :=
    add_val_7 P c _ fl7 hK7 hfl7
  have hv10 := (read_src10_eq_keep7 c _).trans (hA7.trans (read_src10_eq_keep7 c (W P 3 c)).symm)
  ihave H := (Entails.of_eq (keep_pts_7 c _)) $$ Hk7
  rw [rows_keep_7 c]
  ihave Hs10 := (Entails.of_eq (src_pts_10 c _).symm) $$ H
  ihave Hdd10 := (Entails.of_eq (as_dst_7 c fp7)) $$ Hq7
  iapply (wp_copyAG P c 10 (by decide) _ (dev14_eq c) _ fp7 hv10 (owedFrom 11 c) (owedFrom_succ 10 c)) $$ [Hs10 Hdd10 HO HtS10 HtR10]
  · isplitr; · iapply (inv_send P K 10 c); iexact HI
    isplitr; · iapply (inv_recv P K 10 (partner 10 c)); iexact HI
    isplitl [Hs10]; · iexact Hs10
    isplitl [Hdd10]; · iexact Hdd10
    isplitl [HO]; · iexact HO
    isplitl [HtS10]; · iexact HtS10
    isplitr; · iapply (reached_send (F := F) 10 c); iexact HR
    isplitl [HtR10]; · iexact HtR10
    iapply (reached_recv (F := F) 10 (partner 10 c)); iexact HR
  iintro ⟨HcS10, HO⟩
  sl_exec
  -- copy 8 is waited for and its landing added in; the kept rows, now final, go out by all-gather copy 11
  iapply (wp_sendwait P c 8 (credit_src 8 c)) $$ [HcS8 HO HaS8]
  · isplitr; · iapply (inv_send P K 8 c); iexact HI
    isplitl [HcS8]; · iexact HcS8
    isplitl [HO]; · iexact HO
    isplitr; · iapply (mayWait_from c (.dma (sendS 8)) 11 (by rw [lv_send]; omega)); iexact Hlev
    iexact HaS8
  iintro ⟨HO, HaS8, #HrS8, -⟩
  sl_exec
  iapply (wp_recvwait P c 8 (credit_dst 8 c (recvS 8))) $$ [HcR8 HO HaR8]
  · isplitr; · iapply (inv_recv P K 8 c); iexact HI
    isplitl [HcR8]; · iexact HcR8
    isplitl [HO]; · iexact HO
    isplitr; · iapply (mayWait_from c (.dma (recvS 8)) 11 (by rw [lv_recv]; show (8 : ℕ) + 2 < 11 + 2; omega)); iexact Hlev
    iexact HaR8
  iintro ⟨HO, HaR8, #HrR8, HpR8⟩
  ihave Hp := (Entails.of_eq (recvPay_rs P c 8 (by decide))) $$ HpR8
  unfold dstAt srcAt
  icases Hp with ⟨⟨%fl8, %hfl8, Hl8⟩, ⟨%fp8, %hfp8, Hq8⟩⟩
  ihave Hl8' := (Entails.of_eq (slot_pts_8 c _ fl8)) $$ Hl8
  sl_exec
  have hA8 : (accM.slice (Rect.unit (s := S512x1024) (k0_off18 c) S16x1024.size (k0_off18_inb c)) (fun _ => rfl)).view.read (Elt F) (sound_body.sl.Hk8_w1 c a0 g0 g1 g2 g3 g4 fl2 fl5 fl8) = (accM.slice (Rect.unit (s := S512x1024) (k0_off18 c) S16x1024.size (k0_off18_inb c)) (fun _ => rfl)).view.read (Elt F) (W P (2 + 1) c) :=
    add_val_8 P c _ fl8 hK8 hfl8
  have hv11 := (read_src11_eq_keep8 c _).trans (hA8.trans (read_src11_eq_keep8 c (W P 3 c)).symm)
  ihave H := (Entails.of_eq (keep_pts_8 c _)) $$ Hk8
  rw [rows_keep_8 c]
  ihave Hs11 := (Entails.of_eq (src_pts_11 c _).symm) $$ H
  ihave Hdd11 := (Entails.of_eq (as_dst_8 c fp8)) $$ Hq8
  iapply (wp_copyAG P c 11 (by decide) _ (dev15_eq c) _ fp8 hv11 (owedFrom 12 c) (owedFrom_succ 11 c)) $$ [Hs11 Hdd11 HO HtS11 HtR11]
  · isplitr; · iapply (inv_send P K 11 c); iexact HI
    isplitr; · iapply (inv_recv P K 11 (partner 11 c)); iexact HI
    isplitl [Hs11]; · iexact Hs11
    isplitl [Hdd11]; · iexact Hdd11
    isplitl [HO]; · iexact HO
    isplitl [HtS11]; · iexact HtS11
    isplitr; · iapply (reached_send (F := F) 11 c); iexact HR
    isplitl [HtR11]; · iexact HtR11
    iapply (reached_recv (F := F) 11 (partner 11 c)); iexact HR
  iintro ⟨HcS11, HO⟩
  sl_exec
  -- all-gather copy 9 is waited for: my rows back, the partner's rows landed; the two runs joined
  iapply (wp_sendwait P c 9 (credit_src 9 c)) $$ [HcS9 HO HaS9]
  · isplitr; · iapply (inv_send P K 9 c); iexact HI
    isplitl [HcS9]; · iexact HcS9
    isplitl [HO]; · iexact HO
    isplitr; · iapply (mayWait_from c (.dma (sendS 9)) 12 (by rw [lv_send]; omega)); iexact Hlev
    iexact HaS9
  iintro ⟨HO, HaS9, #HrS9, HpS9⟩
  ihave Hp := (Entails.of_eq (sendPay_ag P c 9 (by decide))) $$ HpS9
  unfold srcAt
  icases Hp with ⟨%fm9, %hfm9, Hm9⟩
  sl_exec
  iapply (wp_recvwait P c 9 (credit_dst 9 c (recvS 9))) $$ [HcR9 HO HaR9]
  · isplitr; · iapply (inv_recv P K 9 c); iexact HI
    isplitl [HcR9]; · iexact HcR9
    isplitl [HO]; · iexact HO
    isplitr; · iapply (mayWait_from c (.dma (recvS 9)) 12 (by rw [lv_recv]; show (9 : ℕ) + 2 < 12 + 2; omega)); iexact Hlev
    iexact HaR9
  iintro ⟨HO, HaR9, #HrR9, HpR9⟩
  ihave Hp := (Entails.of_eq (recvPay_ag P c 9 (by decide))) $$ HpR9
  unfold dstAt
  icases Hp with ⟨%fr9, %hfr9, Hr9⟩
  have hJ9 := join_read_9 P c fm9 fr9 hfm9 hfr9
  ihave H1 := (Entails.of_eq (mine_norm_9 c fm9)) $$ Hm9
  ihave H2 := (Entails.of_eq (recv_norm_9 c fr9)) $$ Hr9
  ihave H := (acc_join c fm9 fr9 (ag_halves_9 c)) $$ [H1 H2]
  · isplitl [H1] <;> iassumption
  ihave Hs12 := (Entails.of_eq (src_pts_12 c _).symm) $$ H
  ihave Hdd12 := (Entails.of_eq (as_dst_3 c fp3)) $$ Hq3
  sl_exec
  iapply (wp_copyAG P c 12 (by decide) _ (dev16_eq c) _ fp3 hJ9 (owedFrom 13 c) (owedFrom_succ 12 c)) $$ [Hs12 Hdd12 HO HtS12 HtR12]
  · isplitr; · iapply (inv_send P K 12 c); iexact HI
    isplitr; · iapply (inv_recv P K 12 (partner 12 c)); iexact HI
    isplitl [Hs12]; · iexact Hs12
    isplitl [Hdd12]; · iexact Hdd12
    isplitl [HO]; · iexact HO
    isplitl [HtS12]; · iexact HtS12
    isplitr; · iapply (reached_send (F := F) 12 c); iexact HR
    isplitl [HtR12]; · iexact HtR12
    iapply (reached_recv (F := F) 12 (partner 12 c)); iexact HR
  iintro ⟨HcS12, HO⟩
  sl_exec
  -- all-gather copy 10 is waited for: my rows back, the partner's rows landed; the two runs joined
  iapply (wp_sendwait P c 10 (credit_src 10 c)) $$ [HcS10 HO HaS10]
  · isplitr; · iapply (inv_send P K 10 c); iexact HI
    isplitl [HcS10]; · iexact HcS10
    isplitl [HO]; · iexact HO
    isplitr; · iapply (mayWait_from c (.dma (sendS 10)) 13 (by rw [lv_send]; omega)); iexact Hlev
    iexact HaS10
  iintro ⟨HO, HaS10, #HrS10, HpS10⟩
  ihave Hp := (Entails.of_eq (sendPay_ag P c 10 (by decide))) $$ HpS10
  unfold srcAt
  icases Hp with ⟨%fm10, %hfm10, Hm10⟩
  sl_exec
  iapply (wp_recvwait P c 10 (credit_dst 10 c (recvS 10))) $$ [HcR10 HO HaR10]
  · isplitr; · iapply (inv_recv P K 10 c); iexact HI
    isplitl [HcR10]; · iexact HcR10
    isplitl [HO]; · iexact HO
    isplitr; · iapply (mayWait_from c (.dma (recvS 10)) 13 (by rw [lv_recv]; show (10 : ℕ) + 2 < 13 + 2; omega)); iexact Hlev
    iexact HaR10
  iintro ⟨HO, HaR10, #HrR10, HpR10⟩
  ihave Hp := (Entails.of_eq (recvPay_ag P c 10 (by decide))) $$ HpR10
  unfold dstAt
  icases Hp with ⟨%fr10, %hfr10, Hr10⟩
  have hJ10 := join_read_10 P c fm10 fr10 hfm10 hfr10
  ihave H1 := (Entails.of_eq (mine_norm_10 c fm10)) $$ Hm10
  ihave H2 := (Entails.of_eq (recv_norm_10 c fr10)) $$ Hr10
  ihave H := (acc_join c fm10 fr10 (ag_halves_10 c)) $$ [H1 H2]
  · isplitl [H1] <;> iassumption
  ihave Hs13 := (Entails.of_eq (src_pts_13 c _).symm) $$ H
  ihave Hdd13 := (Entails.of_eq (as_dst_4 c fp4)) $$ Hq4
  sl_exec
  iapply (wp_copyAG P c 13 (by decide) _ (dev17_eq c) _ fp4 hJ10 (owedFrom 14 c) (owedFrom_succ 13 c)) $$ [Hs13 Hdd13 HO HtS13 HtR13]
  · isplitr; · iapply (inv_send P K 13 c); iexact HI
    isplitr; · iapply (inv_recv P K 13 (partner 13 c)); iexact HI
    isplitl [Hs13]; · iexact Hs13
    isplitl [Hdd13]; · iexact Hdd13
    isplitl [HO]; · iexact HO
    isplitl [HtS13]; · iexact HtS13
    isplitr; · iapply (reached_send (F := F) 13 c); iexact HR
    isplitl [HtR13]; · iexact HtR13
    iapply (reached_recv (F := F) 13 (partner 13 c)); iexact HR
  iintro ⟨HcS13, HO⟩
  sl_exec
  -- all-gather copy 11 is waited for: my rows back, the partner's rows landed; the two runs joined
  iapply (wp_sendwait P c 11 (credit_src 11 c)) $$ [HcS11 HO HaS11]
  · isplitr; · iapply (inv_send P K 11 c); iexact HI
    isplitl [HcS11]; · iexact HcS11
    isplitl [HO]; · iexact HO
    isplitr; · iapply (mayWait_from c (.dma (sendS 11)) 14 (by rw [lv_send]; omega)); iexact Hlev
    iexact HaS11
  iintro ⟨HO, HaS11, #HrS11, HpS11⟩
  ihave Hp := (Entails.of_eq (sendPay_ag P c 11 (by decide))) $$ HpS11
  unfold srcAt
  icases Hp with ⟨%fm11, %hfm11, Hm11⟩
  sl_exec
  iapply (wp_recvwait P c 11 (credit_dst 11 c (recvS 11))) $$ [HcR11 HO HaR11]
  · isplitr; · iapply (inv_recv P K 11 c); iexact HI
    isplitl [HcR11]; · iexact HcR11
    isplitl [HO]; · iexact HO
    isplitr; · iapply (mayWait_from c (.dma (recvS 11)) 14 (by rw [lv_recv]; show (11 : ℕ) + 2 < 14 + 2; omega)); iexact Hlev
    iexact HaR11
  iintro ⟨HO, HaR11, #HrR11, HpR11⟩
  ihave Hp := (Entails.of_eq (recvPay_ag P c 11 (by decide))) $$ HpR11
  unfold dstAt
  icases Hp with ⟨%fr11, %hfr11, Hr11⟩
  have hJ11 := join_read_11 P c fm11 fr11 hfm11 hfr11
  ihave H1 := (Entails.of_eq (mine_norm_11 c fm11)) $$ Hm11
  ihave H2 := (Entails.of_eq (recv_norm_11 c fr11)) $$ Hr11
  ihave H := (acc_join c fm11 fr11 (ag_halves_11 c)) $$ [H1 H2]
  · isplitl [H1] <;> iassumption
  ihave Hs14 := (Entails.of_eq (src_pts_14 c _).symm) $$ H
  ihave Hdd14 := (Entails.of_eq (as_dst_5 c fp5)) $$ Hq5
  sl_exec
  iapply (wp_copyAG P c 14 (by decide) _ (dev18_eq c) _ fp5 hJ11 (owedFrom 15 c) (owedFrom_succ 14 c)) $$ [Hs14 Hdd14 HO HtS14 HtR14]
  · isplitr; · iapply (inv_send P K 14 c); iexact HI
    isplitr; · iapply (inv_recv P K 14 (partner 14 c)); iexact HI
    isplitl [Hs14]; · iexact Hs14
    isplitl [Hdd14]; · iexact Hdd14
    isplitl [HO]; · iexact HO
    isplitl [HtS14]; · iexact HtS14
    isplitr; · iapply (reached_send (F := F) 14 c); iexact HR
    isplitl [HtR14]; · iexact HtR14
    iapply (reached_recv (F := F) 14 (partner 14 c)); iexact HR
  iintro ⟨HcS14, HO⟩
  sl_exec
  -- all-gather copy 12 is waited for: my rows back, the partner's rows landed; the two runs joined
  iapply (wp_sendwait P c 12 (credit_src 12 c)) $$ [HcS12 HO HaS12]
  · isplitr; · iapply (inv_send P K 12 c); iexact HI
    isplitl [HcS12]; · iexact HcS12
    isplitl [HO]; · iexact HO
    isplitr; · iapply (mayWait_from c (.dma (sendS 12)) 15 (by rw [lv_send]; omega)); iexact Hlev
    iexact HaS12
  iintro ⟨HO, HaS12, #HrS12, HpS12⟩
  ihave Hp := (Entails.of_eq (sendPay_ag P c 12 (by decide))) $$ HpS12
  unfold srcAt
  icases Hp with ⟨%fm12, %hfm12, Hm12⟩
  sl_exec
  iapply (wp_recvwait P c 12 (credit_dst 12 c (recvS 12))) $$ [HcR12 HO HaR12]
  · isplitr; · iapply (inv_recv P K 12 c); iexact HI
    isplitl [HcR12]; · iexact HcR12
    isplitl [HO]; · iexact HO
    isplitr; · iapply (mayWait_from c (.dma (recvS 12)) 15 (by rw [lv_recv]; show (12 : ℕ) + 2 < 15 + 2; omega)); iexact Hlev
    iexact HaR12
  iintro ⟨HO, HaR12, #HrR12, HpR12⟩
  ihave Hp := (Entails.of_eq (recvPay_ag P c 12 (by decide))) $$ HpR12
  unfold dstAt
  icases Hp with ⟨%fr12, %hfr12, Hr12⟩
  have hJ12 := join_read_12 P c fm12 fr12 hfm12 hfr12
  ihave H1 := (Entails.of_eq (mine_norm_12 c fm12)) $$ Hm12
  ihave H2 := (Entails.of_eq (recv_norm_12 c fr12)) $$ Hr12
  ihave H := (acc_join c fm12 fr12 (ag_halves_12 c)) $$ [H1 H2]
  · isplitl [H1] <;> iassumption
  ihave Hs15 := (Entails.of_eq (src_pts_15 c _).symm) $$ H
  ihave Hdd15 := (Entails.of_eq (as_dst_0 c fp0)) $$ Hq0
  sl_exec
  iapply (wp_copyAG P c 15 (by decide) _ (dev19_eq c) _ fp0 hJ12 (owedFrom 16 c) (owedFrom_succ 15 c)) $$ [Hs15 Hdd15 HO HtS15 HtR15]
  · isplitr; · iapply (inv_send P K 15 c); iexact HI
    isplitr; · iapply (inv_recv P K 15 (partner 15 c)); iexact HI
    isplitl [Hs15]; · iexact Hs15
    isplitl [Hdd15]; · iexact Hdd15
    isplitl [HO]; · iexact HO
    isplitl [HtS15]; · iexact HtS15
    isplitr; · iapply (reached_send (F := F) 15 c); iexact HR
    isplitl [HtR15]; · iexact HtR15
    iapply (reached_recv (F := F) 15 (partner 15 c)); iexact HR
  iintro ⟨HcS15, HO⟩
  sl_exec
  -- all-gather copy 13 is waited for: my rows back, the partner's rows landed; the two runs joined
  iapply (wp_sendwait P c 13 (credit_src 13 c)) $$ [HcS13 HO HaS13]
  · isplitr; · iapply (inv_send P K 13 c); iexact HI
    isplitl [HcS13]; · iexact HcS13
    isplitl [HO]; · iexact HO
    isplitr; · iapply (mayWait_from c (.dma (sendS 13)) 16 (by rw [lv_send]; omega)); iexact Hlev
    iexact HaS13
  iintro ⟨HO, HaS13, #HrS13, HpS13⟩
  ihave Hp := (Entails.of_eq (sendPay_ag P c 13 (by decide))) $$ HpS13
  unfold srcAt
  icases Hp with ⟨%fm13, %hfm13, Hm13⟩
  sl_exec
  iapply (wp_recvwait P c 13 (credit_dst 13 c (recvS 13))) $$ [HcR13 HO HaR13]
  · isplitr; · iapply (inv_recv P K 13 c); iexact HI
    isplitl [HcR13]; · iexact HcR13
    isplitl [HO]; · iexact HO
    isplitr; · iapply (mayWait_from c (.dma (recvS 13)) 16 (by rw [lv_recv]; show (13 : ℕ) + 2 < 16 + 2; omega)); iexact Hlev
    iexact HaR13
  iintro ⟨HO, HaR13, #HrR13, HpR13⟩
  ihave Hp := (Entails.of_eq (recvPay_ag P c 13 (by decide))) $$ HpR13
  unfold dstAt
  icases Hp with ⟨%fr13, %hfr13, Hr13⟩
  have hJ13 := join_read_13 P c fm13 fr13 hfm13 hfr13
  ihave H1 := (Entails.of_eq (mine_norm_13 c fm13)) $$ Hm13
  ihave H2 := (Entails.of_eq (recv_norm_13 c fr13)) $$ Hr13
  ihave H := (acc_join c fm13 fr13 (ag_halves_13 c)) $$ [H1 H2]
  · isplitl [H1] <;> iassumption
  ihave Hs16 := (Entails.of_eq (src_pts_16 c _).symm) $$ H
  ihave Hdd16 := (Entails.of_eq (as_dst_1 c fp1)) $$ Hq1
  sl_exec
  iapply (wp_copyAG P c 16 (by decide) _ (dev20_eq c) _ fp1 hJ13 (owedFrom 17 c) (owedFrom_succ 16 c)) $$ [Hs16 Hdd16 HO HtS16 HtR16]
  · isplitr; · iapply (inv_send P K 16 c); iexact HI
    isplitr; · iapply (inv_recv P K 16 (partner 16 c)); iexact HI
    isplitl [Hs16]; · iexact Hs16
    isplitl [Hdd16]; · iexact Hdd16
    isplitl [HO]; · iexact HO
    isplitl [HtS16]; · iexact HtS16
    isplitr; · iapply (reached_send (F := F) 16 c); iexact HR
    isplitl [HtR16]; · iexact HtR16
    iapply (reached_recv (F := F) 16 (partner 16 c)); iexact HR
  iintro ⟨HcS16, HO⟩
  sl_exec
  -- all-gather copy 14 is waited for: my rows back, the partner's rows landed; the two runs joined
  iapply (wp_sendwait P c 14 (credit_src 14 c)) $$ [HcS14 HO HaS14]
  · isplitr; · iapply (inv_send P K 14 c); iexact HI
    isplitl [HcS14]; · iexact HcS14
    isplitl [HO]; · iexact HO
    isplitr; · iapply (mayWait_from c (.dma (sendS 14)) 17 (by rw [lv_send]; omega)); iexact Hlev
    iexact HaS14
  iintro ⟨HO, HaS14, #HrS14, HpS14⟩
  ihave Hp := (Entails.of_eq (sendPay_ag P c 14 (by decide))) $$ HpS14
  unfold srcAt
  icases Hp with ⟨%fm14, %hfm14, Hm14⟩
  sl_exec
  iapply (wp_recvwait P c 14 (credit_dst 14 c (recvS 14))) $$ [HcR14 HO HaR14]
  · isplitr; · iapply (inv_recv P K 14 c); iexact HI
    isplitl [HcR14]; · iexact HcR14
    isplitl [HO]; · iexact HO
    isplitr; · iapply (mayWait_from c (.dma (recvS 14)) 17 (by rw [lv_recv]; show (14 : ℕ) + 2 < 17 + 2; omega)); iexact Hlev
    iexact HaR14
  iintro ⟨HO, HaR14, #HrR14, HpR14⟩
  ihave Hp := (Entails.of_eq (recvPay_ag P c 14 (by decide))) $$ HpR14
  unfold dstAt
  icases Hp with ⟨%fr14, %hfr14, Hr14⟩
  have hJ14 := join_read_14 P c fm14 fr14 hfm14 hfr14
  ihave H1 := (Entails.of_eq (mine_norm_14 c fm14)) $$ Hm14
  ihave H2 := (Entails.of_eq (recv_norm_14 c fr14)) $$ Hr14
  ihave H := (acc_join c fm14 fr14 (ag_halves_14 c)) $$ [H1 H2]
  · isplitl [H1] <;> iassumption
  ihave Hs17 := (Entails.of_eq (src_pts_17 c _).symm) $$ H
  ihave Hdd17 := (Entails.of_eq (as_dst_2 c fp2)) $$ Hq2
  sl_exec
  iapply (wp_copyAG P c 17 (by decide) _ (dev21_eq c) _ fp2 hJ14 (owedFrom 18 c) (owedFrom_succ 17 c)) $$ [Hs17 Hdd17 HO HtS17 HtR17]
  · isplitr; · iapply (inv_send P K 17 c); iexact HI
    isplitr; · iapply (inv_recv P K 17 (partner 17 c)); iexact HI
    isplitl [Hs17]; · iexact Hs17
    isplitl [Hdd17]; · iexact Hdd17
    isplitl [HO]; · iexact HO
    isplitl [HtS17]; · iexact HtS17
    isplitr; · iapply (reached_send (F := F) 17 c); iexact HR
    isplitl [HtR17]; · iexact HtR17
    iapply (reached_recv (F := F) 17 (partner 17 c)); iexact HR
  iintro ⟨HcS17, HO⟩
  sl_exec
  -- all-gather copy 15 is waited for: my rows back, the partner's rows landed; the two runs joined
  iapply (wp_sendwait P c 15 (credit_src 15 c)) $$ [HcS15 HO HaS15]
  · isplitr; · iapply (inv_send P K 15 c); iexact HI
    isplitl [HcS15]; · iexact HcS15
    isplitl [HO]; · iexact HO
    isplitr; · iapply (mayWait_from c (.dma (sendS 15)) 18 (by rw [lv_send]; omega)); iexact Hlev
    iexact HaS15
  iintro ⟨HO, HaS15, #HrS15, HpS15⟩
  ihave Hp := (Entails.of_eq (sendPay_ag P c 15 (by decide))) $$ HpS15
  unfold srcAt
  icases Hp with ⟨%fm15, %hfm15, Hm15⟩
  sl_exec
  iapply (wp_recvwait P c 15 (credit_dst 15 c (recvS 15))) $$ [HcR15 HO HaR15]
  · isplitr; · iapply (inv_recv P K 15 c); iexact HI
    isplitl [HcR15]; · iexact HcR15
    isplitl [HO]; · iexact HO
    isplitr; · iapply (mayWait_from c (.dma (recvS 15)) 18 (by rw [lv_recv]; show (15 : ℕ) + 2 < 18 + 2; omega)); iexact Hlev
    iexact HaR15
  iintro ⟨HO, HaR15, #HrR15, HpR15⟩
  ihave Hp := (Entails.of_eq (recvPay_ag P c 15 (by decide))) $$ HpR15
  unfold dstAt
  icases Hp with ⟨%fr15, %hfr15, Hr15⟩
  have hJ15 := join_read_15 P c fm15 fr15 hfm15 hfr15
  ihave H1 := (Entails.of_eq (mine_norm_15 c fm15)) $$ Hm15
  ihave H2 := (Entails.of_eq (recv_norm_15 c fr15)) $$ Hr15
  ihave H := (acc_join c fm15 fr15 (ag_halves_15 c)) $$ [H1 H2]
  · isplitl [H1] <;> iassumption
  ihave Hp0 := (Entails.of_eq (part_pts_0 c _).symm) $$ H
  sl_exec
  -- all-gather copy 16 is waited for: my rows back, the partner's rows landed; the two runs joined
  iapply (wp_sendwait P c 16 (credit_src 16 c)) $$ [HcS16 HO HaS16]
  · isplitr; · iapply (inv_send P K 16 c); iexact HI
    isplitl [HcS16]; · iexact HcS16
    isplitl [HO]; · iexact HO
    isplitr; · iapply (mayWait_from c (.dma (sendS 16)) 18 (by rw [lv_send]; omega)); iexact Hlev
    iexact HaS16
  iintro ⟨HO, HaS16, #HrS16, HpS16⟩
  ihave Hp := (Entails.of_eq (sendPay_ag P c 16 (by decide))) $$ HpS16
  unfold srcAt
  icases Hp with ⟨%fm16, %hfm16, Hm16⟩
  sl_exec
  iapply (wp_recvwait P c 16 (credit_dst 16 c (recvS 16))) $$ [HcR16 HO HaR16]
  · isplitr; · iapply (inv_recv P K 16 c); iexact HI
    isplitl [HcR16]; · iexact HcR16
    isplitl [HO]; · iexact HO
    isplitr; · iapply (mayWait_from c (.dma (recvS 16)) 18 (by rw [lv_recv]; show (16 : ℕ) + 2 < 18 + 2; omega)); iexact Hlev
    iexact HaR16
  iintro ⟨HO, HaR16, #HrR16, HpR16⟩
  ihave Hp := (Entails.of_eq (recvPay_ag P c 16 (by decide))) $$ HpR16
  unfold dstAt
  icases Hp with ⟨%fr16, %hfr16, Hr16⟩
  have hJ16 := join_read_16 P c fm16 fr16 hfm16 hfr16
  ihave H1 := (Entails.of_eq (mine_norm_16 c fm16)) $$ Hm16
  ihave H2 := (Entails.of_eq (recv_norm_16 c fr16)) $$ Hr16
  ihave H := (acc_join c fm16 fr16 (ag_halves_16 c)) $$ [H1 H2]
  · isplitl [H1] <;> iassumption
  ihave Hp1 := (Entails.of_eq (part_pts_1 c _).symm) $$ H
  sl_exec
  -- all-gather copy 17 is waited for: my rows back, the partner's rows landed; the two runs joined
  iapply (wp_sendwait P c 17 (credit_src 17 c)) $$ [HcS17 HO HaS17]
  · isplitr; · iapply (inv_send P K 17 c); iexact HI
    isplitl [HcS17]; · iexact HcS17
    isplitl [HO]; · iexact HO
    isplitr; · iapply (mayWait_from c (.dma (sendS 17)) 18 (by rw [lv_send]; omega)); iexact Hlev
    iexact HaS17
  iintro ⟨HO, HaS17, #HrS17, HpS17⟩
  ihave Hp := (Entails.of_eq (sendPay_ag P c 17 (by decide))) $$ HpS17
  unfold srcAt
  icases Hp with ⟨%fm17, %hfm17, Hm17⟩
  sl_exec
  iapply (wp_recvwait P c 17 (credit_dst 17 c (recvS 17))) $$ [HcR17 HO HaR17]
  · isplitr; · iapply (inv_recv P K 17 c); iexact HI
    isplitl [HcR17]; · iexact HcR17
    isplitl [HO]; · iexact HO
    isplitr; · iapply (mayWait_from c (.dma (recvS 17)) 18 (by rw [lv_recv]; show (17 : ℕ) + 2 < 18 + 2; omega)); iexact Hlev
    iexact HaR17
  iintro ⟨HO, HaR17, #HrR17, HpR17⟩
  ihave Hp := (Entails.of_eq (recvPay_ag P c 17 (by decide))) $$ HpR17
  unfold dstAt
  icases Hp with ⟨%fr17, %hfr17, Hr17⟩
  have hJ17 := join_read_17 P c fm17 fr17 hfm17 hfr17
  ihave H1 := (Entails.of_eq (mine_norm_17 c fm17)) $$ Hm17
  ihave H2 := (Entails.of_eq (recv_norm_17 c fr17)) $$ Hr17
  ihave H := (acc_join c fm17 fr17 (ag_halves_17 c)) $$ [H1 H2]
  · isplitl [H1] <;> iassumption
  ihave Hp2 := (Entails.of_eq (part_pts_2 c _).symm) $$ H
  -- the accumulator whole again, at the all-gathered contents
  ihave Hw := (acc_back c (A P 3 c) _ _ _ hJ15 hJ16 hJ17) $$ [Hp0 Hp1 Hp2]
  · isplitl [Hp0]; · iexact Hp0
    isplitl [Hp1] <;> iassumption
  icases Hw with ⟨%fa, %hfa, Hacc⟩
  subst hfa
  ihave Hacc' := (Entails.of_eq (held_eq c cc0_scratch0 _)) $$ Hacc
  sl_exec
  -- the thirty-six own cells are closed: their counters are at zero
  imod (close_all_chain P K c) $$ [HaS0 HaR0 HaS1 HaR1 HaS2 HaR2 HaS3 HaR3 HaS4 HaR4 HaS5 HaR5 HaS6 HaR6 HaS7 HaR7 HaS8 HaR8 HaS9 HaR9 HaS10 HaR10 HaS11 HaR11 HaS12 HaR12 HaS13 HaR13 HaS14 HaR14 HaS15 HaR15 HaS16 HaR16 HaS17 HaR17] with Hz
  · isplitr; · iexact HI
    isplitl [HaS0 HaR0]; · (isplitl [HaS0] <;> iassumption)
    isplitl [HaS1 HaR1]; · (isplitl [HaS1] <;> iassumption)
    isplitl [HaS2 HaR2]; · (isplitl [HaS2] <;> iassumption)
    isplitl [HaS3 HaR3]; · (isplitl [HaS3] <;> iassumption)
    isplitl [HaS4 HaR4]; · (isplitl [HaS4] <;> iassumption)
    isplitl [HaS5 HaR5]; · (isplitl [HaS5] <;> iassumption)
    isplitl [HaS6 HaR6]; · (isplitl [HaS6] <;> iassumption)
    isplitl [HaS7 HaR7]; · (isplitl [HaS7] <;> iassumption)
    isplitl [HaS8 HaR8]; · (isplitl [HaS8] <;> iassumption)
    isplitl [HaS9 HaR9]; · (isplitl [HaS9] <;> iassumption)
    isplitl [HaS10 HaR10]; · (isplitl [HaS10] <;> iassumption)
    isplitl [HaS11 HaR11]; · (isplitl [HaS11] <;> iassumption)
    isplitl [HaS12 HaR12]; · (isplitl [HaS12] <;> iassumption)
    isplitl [HaS13 HaR13]; · (isplitl [HaS13] <;> iassumption)
    isplitl [HaS14 HaR14]; · (isplitl [HaS14] <;> iassumption)
    isplitl [HaS15 HaR15]; · (isplitl [HaS15] <;> iassumption)
    isplitl [HaS16 HaR16]; · (isplitl [HaS16] <;> iassumption)
    isplitl [HaS17] <;> iassumption
  rw [wp_ret]; imodintro
  iapply Hk
  unfold bodyPost Φ₁ scratch
  isplitl [Hacc' Hl0' Hl1' Hl2' Hl3' Hl4' Hl5' Hl6' Hl7' Hl8' Hz]
  · isplitl [Hacc' Hl0' Hl1' Hl2' Hl3' Hl4' Hl5' Hl6' Hl7' Hl8']
    · isplitl [Hacc']
      · iexists (A P 3 c); iapply (Entails.of_eq (held_eq c cc0_scratch0 (A P 3 c)).symm); iexact Hacc'
      isplitl [Hl0' Hl1' Hl2']
      · iapply (comm0_back_view c fl0 fl1 fl2); isplitl [Hl0']; · iexact Hl0'
        isplitl [Hl1'] <;> iassumption
      isplitl [Hl3' Hl4' Hl5']
      · iapply (comm1_back_view c fl3 fl4 fl5); isplitl [Hl3']; · iexact Hl3'
        isplitl [Hl4'] <;> iassumption
      · iapply (comm2_back_view c fl6 fl7 fl8); isplitl [Hl6']; · iexact Hl6'
        isplitl [Hl7'] <;> iassumption
    · iexact Hz
  isplitl [HO]
  · iapply (owesAt_done m ρ P c _); iexact HO
  isplitl [Hx']; · iapply (stg_of_held c cc0_stg0_0 g0 _ (hg0.trans (before_0 m ρ P c d0))); iexact Hx'
  isplitl [Hwq']; · iapply (stg_of_held c cc0_stg1_0 g1 _ (hg1.trans (before_1 m ρ P c d1))); iexact Hwq'
  isplitl [Hwk']; · iapply (stg_of_held c cc0_stg2_0 g2 _ (hg2.trans (before_2 m ρ P c d2))); iexact Hwk'
  isplitl [Hwv']; · iapply (stg_of_held c cc0_stg3_0 g3 _ (hg3.trans (before_3 m ρ P c d3))); iexact Hwv'
  isplitl [Hwo']; · iapply (stg_of_held c cc0_stg4_0 g4 _ (hg4.trans (before_4 m ρ P c d4))); iexact Hwo'
  iapply (stg_of_held c cc0_stg5_0 _ _ (out_content_outAt P c g5)); iexact Hout'

/-- The pipeline's body obligation at this kernel's one grid point, for the device's product read off the memory at launch. -/
theorem body_obligation (c : Dev nD) :
    BodyObligation (dats (F := F) m ρ (Pc m) 0 c) (defs₀ (F := F)) 𝒱₀ () Set.univ := fun t => by
  rw [fin_N0 t]
  rw [bigSep_W0, bigSep_W0]
  simp only [owns_whole_eq]
  show bodyPre m ρ (Pc m) c ⊢ wp frame (wpE (defs₀ (F := F)) 𝒱₀ c none) Set.univ
          (cc0_body (Memref.whole cc0_stg0_0) (Memref.isWhole_whole _) (Memref.whole cc0_stg1_0) (Memref.isWhole_whole _) (Memref.whole cc0_stg2_0) (Memref.isWhole_whole _)
            (Memref.whole cc0_stg3_0) (Memref.isWhole_whole _) (Memref.whole cc0_stg4_0) (Memref.isWhole_whole _) (Memref.whole cc0_stg5_0) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) cc0_scratch4 cc0_scratch5) (fun _ => bodyPost m ρ (Pc m) c)
  iintro H
  iapply (sound_body m ρ (Pc m) c rfl (fun _ => bodyPost m ρ (Pc m) c))
  isplitl [H]; · iexact H
  iintro H; iexact H

/-- info: 'Cert.Kernel.Coll.body_obligation' depends on axioms: [propext, Classical.choice, Quot.sound] -/
#guard_msgs in #print axioms body_obligation

end Cert.Kernel.Coll

end
-- ==== Proof.KernelIdeal.Mesh.lean ====
/-
  The eight devices as a cube. Three pairings of the devices are used: across `1`, across `3` and across `4` — the
  partner of device `c` is the device whose number is the exclusive or of `c`'s with the pairing's number. In the
  coordinates (bit 0 xor bit 1, bit 1, bit 2) of a device's number each pairing flips exactly one coordinate, so the three
  are the three axes of a cube and commute. A device is on the HIGH side of a pairing when its coordinate on that axis is 1.

  Every remote operation of the kernel names its partner by an integer chain over the device's own number, and every slice
  of the accumulator it sends, receives into or adds into by a row offset computed from the same number. This module
  decides, over the eight devices, what each of those chains is: the partner (`dev*_eq`) and the first row (`src_eq`,
  `keep_eq`: row tables indexed by the device).
  Copy `i` (0 ≤ i < 18) is: for i < 9 phase `i / 3` of the reduce-scatter of part `i % 3`, for i ≥ 9 phase `i / 3 - 3` of
  the all-gather of that part.
-/
import proofs.«900423_g7700000000000424_dist_attn_self_mha_htp_b1_sq512_skv512_d1024_hq8_dh128_v7x_i8_f32_1_alg».proof.Proof.Gen.KernelIdeal

set_option Elab.async false

namespace Cert.KernelIdeal.Mesh

open Cert.KernelIdeal Cert.KernelIdeal.Gen Idealize.ShloMosaic

/-- The partner of `c` across pairing `m`. -/
def peer (m : Nat) (c : Dev nD) : Dev nD := ⟨(c.val ^^^ m) % 8, Nat.mod_lt _ (by decide)⟩

theorem peer_peer1 : ∀ c : Dev nD, peer 1 (peer 1 c) = c := by decide
theorem peer_peer3 : ∀ c : Dev nD, peer 3 (peer 3 c) = c := by decide
theorem peer_peer4 : ∀ c : Dev nD, peer 4 (peer 4 c) = c := by decide
theorem peer_ne1 : ∀ c : Dev nD, peer 1 c ≠ c := by decide
theorem peer_ne3 : ∀ c : Dev nD, peer 3 c ≠ c := by decide
theorem peer_ne4 : ∀ c : Dev nD, peer 4 c ≠ c := by decide
theorem peer13_ne : ∀ c : Dev nD, peer 1 c ≠ peer 3 c := by decide
theorem peer14_ne : ∀ c : Dev nD, peer 1 c ≠ peer 4 c := by decide
theorem peer34_ne : ∀ c : Dev nD, peer 3 c ≠ peer 4 c := by decide

/-- The pairing copy `i` goes across. -/
def maskOf : Fin 18 → Nat := ![4, 3, 1, 3, 1, 4, 1, 4, 3, 1, 4, 3, 3, 1, 4, 4, 3, 1]
/-- How many rows copy `i` moves. -/
def rowsOf : Fin 18 → Nat := ![128, 64, 64, 64, 32, 32, 32, 16, 16, 32, 16, 16, 64, 32, 32, 128, 64, 64]

/-! ## The handshake's three signals -/
theorem dev1_eq : ∀ c : Dev nD, (⟨k0_dev1 c, k0_dev1_lt c⟩ : Dev nD) = peer 1 c := by decide +kernel
theorem dev2_eq : ∀ c : Dev nD, (⟨k0_dev2 c, k0_dev2_lt c⟩ : Dev nD) = peer 3 c := by decide +kernel
theorem dev3_eq : ∀ c : Dev nD, (⟨k0_dev3 c, k0_dev3_lt c⟩ : Dev nD) = peer 4 c := by decide +kernel

/-! ## The eighteen copies' partners -/
theorem dev4_eq : ∀ c : Dev nD, (⟨k0_dev4 c, k0_dev4_lt c⟩ : Dev nD) = peer 4 c := by decide +kernel
theorem dev5_eq : ∀ c : Dev nD, (⟨k0_dev5 c, k0_dev5_lt c⟩ : Dev nD) = peer 3 c := by decide +kernel
theorem dev6_eq : ∀ c : Dev nD, (⟨k0_dev6 c, k0_dev6_lt c⟩ : Dev nD) = peer 1 c := by decide +kernel
theorem dev7_eq : ∀ c : Dev nD, (⟨k0_dev7 c, k0_dev7_lt c⟩ : Dev nD) = peer 3 c := by decide +kernel
theorem dev8_eq : ∀ c : Dev nD, (⟨k0_dev8 c, k0_dev8_lt c⟩ : Dev nD) = peer 1 c := by decide +kernel
theorem dev9_eq : ∀ c : Dev nD, (⟨k0_dev9 c, k0_dev9_lt c⟩ : Dev nD) = peer 4 c := by decide +kernel
theorem dev10_eq : ∀ c : Dev nD, (⟨k0_dev10 c, k0_dev10_lt c⟩ : Dev nD) = peer 1 c := by decide +kernel
theorem dev11_eq : ∀ c : Dev nD, (⟨k0_dev11 c, k0_dev11_lt c⟩ : Dev nD) = peer 4 c := by decide +kernel
theorem dev12_eq : ∀ c : Dev nD, (⟨k0_dev12 c, k0_dev12_lt c⟩ : Dev nD) = peer 3 c := by decide +kernel
theorem dev13_eq : ∀ c : Dev nD, (⟨k0_dev13 c, k0_dev13_lt c⟩ : Dev nD) = peer 1 c := by decide +kernel
theorem dev14_eq : ∀ c : Dev nD, (⟨k0_dev14 c, k0_dev14_lt c⟩ : Dev nD) = peer 4 c := by decide +kernel
theorem dev15_eq : ∀ c : Dev nD, (⟨k0_dev15 c, k0_dev15_lt c⟩ : Dev nD) = peer 3 c := by decide +kernel
theorem dev16_eq : ∀ c : Dev nD, (⟨k0_dev16 c, k0_dev16_lt c⟩ : Dev nD) = peer 3 c := by decide +kernel
theorem dev17_eq : ∀ c : Dev nD, (⟨k0_dev17 c, k0_dev17_lt c⟩ : Dev nD) = peer 1 c := by decide +kernel
theorem dev18_eq : ∀ c : Dev nD, (⟨k0_dev18 c, k0_dev18_lt c⟩ : Dev nD) = peer 4 c := by decide +kernel
theorem dev19_eq : ∀ c : Dev nD, (⟨k0_dev19 c, k0_dev19_lt c⟩ : Dev nD) = peer 4 c := by decide +kernel
theorem dev20_eq : ∀ c : Dev nD, (⟨k0_dev20 c, k0_dev20_lt c⟩ : Dev nD) = peer 3 c := by decide +kernel
theorem dev21_eq : ∀ c : Dev nD, (⟨k0_dev21 c, k0_dev21_lt c⟩ : Dev nD) = peer 1 c := by decide +kernel

/-! ## First rows: the rows a copy reads (for the all-gather also the rows it writes on the partner) -/

/-- The first row of copy `i`'s source on device `c`. -/
def srcRow (i : Fin 18) (c : Dev nD) : Nat :=
  (![![128, 128, 128, 128, 0, 0, 0, 0],
     ![320, 320, 256, 256, 320, 320, 256, 256],
     ![448, 384, 384, 448, 448, 384, 384, 448],
     ![64, 64, 0, 0, 192, 192, 128, 128],
     ![288, 256, 320, 352, 288, 256, 320, 352],
     ![416, 480, 480, 416, 384, 448, 448, 384],
     ![32, 0, 64, 96, 160, 128, 192, 224],
     ![272, 304, 368, 336, 256, 288, 352, 320],
     ![400, 464, 448, 384, 432, 496, 480, 416],
     ![0, 32, 96, 64, 128, 160, 224, 192],
     ![256, 288, 352, 320, 272, 304, 368, 336],
     ![384, 448, 464, 400, 416, 480, 496, 432],
     ![0, 0, 64, 64, 128, 128, 192, 192],
     ![256, 288, 352, 320, 256, 288, 352, 320],
     ![384, 448, 448, 384, 416, 480, 480, 416],
     ![0, 0, 0, 0, 128, 128, 128, 128],
     ![256, 256, 320, 320, 256, 256, 320, 320],
     ![384, 448, 448, 384, 384, 448, 448, 384]] : Fin 18 → Fin 8 → Nat) i c

/-- The first row of the rows device `c` keeps, and adds the landed rows into, at reduce-scatter copy `i` (i < 9). -/
def keepRow (i : Fin 9) (c : Dev nD) : Nat :=
  (![![0, 0, 0, 0, 128, 128, 128, 128],
     ![256, 256, 320, 320, 256, 256, 320, 320],
     ![384, 448, 448, 384, 384, 448, 448, 384],
     ![0, 0, 64, 64, 128, 128, 192, 192],
     ![256, 288, 352, 320, 256, 288, 352, 320],
     ![384, 448, 448, 384, 416, 480, 480, 416],
     ![0, 32, 96, 64, 128, 160, 224, 192],
     ![256, 288, 352, 320, 272, 304, 368, 336],
     ![384, 448, 464, 400, 416, 480, 496, 432]] : Fin 9 → Fin 8 → Nat) i c

theorem src0_eq : ∀ c : Dev nD, k0_off1 c = ![srcRow 0 c, 0] := by decide +kernel
theorem src1_eq : ∀ c : Dev nD, k0_off2 c = ![srcRow 1 c, 0] := by decide +kernel
theorem src2_eq : ∀ c : Dev nD, k0_off3 c = ![srcRow 2 c, 0] := by decide +kernel
theorem src3_eq : ∀ c : Dev nD, k0_off5 c = ![srcRow 3 c, 0] := by decide +kernel
theorem src4_eq : ∀ c : Dev nD, k0_off7 c = ![srcRow 4 c, 0] := by decide +kernel
theorem src5_eq : ∀ c : Dev nD, k0_off9 c = ![srcRow 5 c, 0] := by decide +kernel
theorem src6_eq : ∀ c : Dev nD, k0_off11 c 0#32 32#32 = ![srcRow 6 c, 0] := by decide +kernel
theorem src7_eq : ∀ c : Dev nD, k0_off13 c 0#32 16#32 = ![srcRow 7 c, 0] := by decide +kernel
theorem src8_eq : ∀ c : Dev nD, k0_off15 c 0#32 16#32 = ![srcRow 8 c, 0] := by decide +kernel
theorem src9_eq : ∀ c : Dev nD, k0_off11 c 32#32 0#32 = ![srcRow 9 c, 0] := by decide +kernel
theorem src10_eq : ∀ c : Dev nD, k0_off13 c 16#32 0#32 = ![srcRow 10 c, 0] := by decide +kernel
theorem src11_eq : ∀ c : Dev nD, k0_off15 c 16#32 0#32 = ![srcRow 11 c, 0] := by decide +kernel
theorem src12_eq : ∀ c : Dev nD, k0_off19 c = ![srcRow 12 c, 0] := by decide +kernel
theorem src13_eq : ∀ c : Dev nD, k0_off20 c = ![srcRow 13 c, 0] := by decide +kernel
theorem src14_eq : ∀ c : Dev nD, k0_off21 c = ![srcRow 14 c, 0] := by decide +kernel
theorem src15_eq : ∀ c : Dev nD, k0_off22 c = ![srcRow 15 c, 0] := by decide +kernel
theorem src16_eq : ∀ c : Dev nD, k0_off23 c = ![srcRow 16 c, 0] := by decide +kernel
theorem src17_eq : ∀ c : Dev nD, k0_off24 c = ![srcRow 17 c, 0] := by decide +kernel

theorem keep0_eq : ∀ c : Dev nD, k0_off4 c = ![keepRow 0 c, 0] := by decide +kernel
theorem keep1_eq : ∀ c : Dev nD, k0_off6 c = ![keepRow 1 c, 0] := by decide +kernel
theorem keep2_eq : ∀ c : Dev nD, k0_off8 c = ![keepRow 2 c, 0] := by decide +kernel
theorem keep3_eq : ∀ c : Dev nD, k0_off10 c = ![keepRow 3 c, 0] := by decide +kernel
theorem keep4_eq : ∀ c : Dev nD, k0_off12 c = ![keepRow 4 c, 0] := by decide +kernel
theorem keep5_eq : ∀ c : Dev nD, k0_off14 c = ![keepRow 5 c, 0] := by decide +kernel
theorem keep6_eq : ∀ c : Dev nD, k0_off16 c = ![keepRow 6 c, 0] := by decide +kernel
theorem keep7_eq : ∀ c : Dev nD, k0_off17 c = ![keepRow 7 c, 0] := by decide +kernel
theorem keep8_eq : ∀ c : Dev nD, k0_off18 c = ![keepRow 8 c, 0] := by decide +kernel

/-! ## How the rows of partners fit: what I send in a reduce-scatter phase is what my partner keeps, and the two halves
    make up what both held before -/

/-- My partner's kept rows at copy `i` are the rows I send. -/
theorem keep_peer : ∀ (i : Fin 9) (c : Dev nD), keepRow i (peer (maskOf ⟨i.val, by omega⟩) c) = srcRow ⟨i.val, by omega⟩ c := by decide
/-- The all-gather copy that undoes reduce-scatter copy `i` (part `i % 3`, phase `i / 3`): copy `15 - 3 (i / 3) + i % 3`. It goes
    across the same pairing and moves the same rows: the rows I kept. -/
def undo (i : Fin 9) : Fin 18 := ⟨15 - 3 * (i.val / 3) + i.val % 3, by omega⟩
theorem undo_mask : ∀ i : Fin 9, maskOf (undo i) = maskOf ⟨i.val, by omega⟩ := by decide
theorem undo_rows : ∀ i : Fin 9, rowsOf (undo i) = rowsOf ⟨i.val, by omega⟩ := by decide
theorem undo_src : ∀ (i : Fin 9) (c : Dev nD), srcRow (undo i) c = keepRow i c := by decide

end Cert.KernelIdeal.Mesh
-- ==== Proof.KernelIdeal.Common.lean ====
/-
  What the modules about the eight devices' protocol share: the resource algebra, the memory at launch, the four scratch
  buffers, the semaphores as cells, and the eighteen remote copies a device makes, each with the rows of the accumulator
  it reads and the place on its partner it writes.

  A device's handshake cell (the barrier semaphore) gets one unit from each of its three partners: three duties, named by
  the pairing (0: across 1, 1: across 3, 2: across 4). Every other cell — a send cell and a receive cell per copy — has one duty.
  Copy `i` of device `c` reads `rowsOf i` rows of `c`'s accumulator from row `srcRow i c` and writes, on the partner
  across `maskOf i`: for i < 9 (the reduce-scatter) the partner's landing slot of that copy — a fixed run of rows of the
  landing buffer of the copy's phase —, for i ≥ 9 (the all-gather) the SAME rows of the partner's accumulator.
-/
import proofs.«900423_g7700000000000424_dist_attn_self_mha_htp_b1_sq512_skv512_d1024_hq8_dh128_v7x_i8_f32_1_alg».proof.Proof.KernelIdeal.Mesh
import proofs.«900423_g7700000000000424_dist_attn_self_mha_htp_b1_sq512_skv512_d1024_hq8_dh128_v7x_i8_f32_1_alg».proof.Proof.Gen.KernelIdeal.Launch
import proofs.«900423_g7700000000000424_dist_attn_self_mha_htp_b1_sq512_skv512_d1024_hq8_dh128_v7x_i8_f32_1_alg».proof.Proof.Gen.KernelIdeal.Points
import Idealize.ShloMosaic.Lib.Pipeline.Launch
import Idealize.ShloMosaic.Lib.Pipeline.Kit
import Idealize.ShloMosaic.Lib.Pipeline.FrameBody
import Idealize.ShloMosaic.Lib.Pipeline.Value
import Idealize.ShloMosaic.Lib.Ring
import Idealize.ShloMosaic.Lib.Tactic

noncomputable section

namespace Cert.KernelIdeal.Coll

open Cert.KernelIdeal Cert.KernelIdeal.Gen Cert.KernelIdeal.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra -/

/-- The protocol's copy of the rounds algebra: duties named by `Fin 3`. -/
abbrev UB : Type := URounds (GSem nD τ sig) (Fin 3)
/-- The proof's component: the pipeline library's copy and the protocol's. -/
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-- A memory: contents for every buffer of every device. -/
abbrev Mem (F : FTy → Type) [FloatOps F] : Type := (ℓ : Loc nD τ sig) → Buf (Elt F) ℓ

/-- The memory at launch: arbitrary contents, every semaphore counter zero, arbitrary generator registers. -/
def s₀ (m : Mem F) (ρ : Dev nD → PrngReg) : MemSt nD τ sig (Elt F) := ⟨m, fun _ => 0, ρ⟩

/-! ## The scratch buffers -/

/-- The accumulator [512, 1024] and the three landing buffers [256 / 128 / 64, 1024] of the reduce-scatter's phases. -/
abbrev accM : Memref sig .tc .vmem S512x1024 .bf16 := Memref.whole cc0_scratch0
abbrev comm0M : Memref sig .tc .vmem S256x1024 .bf16 := Memref.whole cc0_scratch1
abbrev comm1M : Memref sig .tc .vmem S128x1024 .bf16 := Memref.whole cc0_scratch2
abbrev comm2M : Memref sig .tc .vmem S64x1024 .bf16 := Memref.whole cc0_scratch3

/-- `n` rows of 1024. -/
abbrev Sn (n : ℕ) : Shape := ⟨2, ![n, 1024]⟩

/-- The rows of its accumulator device `c` reads at copy `i`. -/
def srcM : (i : Fin 18) → (c : Dev nD) → Memref sig .tc .vmem (Sn (rowsOf i)) .bf16
  | ⟨0, _⟩, c => accM.slice (Rect.unit (s := S512x1024) (k0_off1 c) S128x1024.size (k0_off1_inb c)) (fun _ => rfl)
  | ⟨1, _⟩, c => accM.slice (Rect.unit (s := S512x1024) (k0_off2 c) S64x1024.size (k0_off2_inb c)) (fun _ => rfl)
  | ⟨2, _⟩, c => accM.slice (Rect.unit (s := S512x1024) (k0_off3 c) S64x1024.size (k0_off3_inb c)) (fun _ => rfl)
  | ⟨3, _⟩, c => accM.slice (Rect.unit (s := S512x1024) (k0_off5 c) S64x1024.size (k0_off5_inb c)) (fun _ => rfl)
  | ⟨4, _⟩, c => accM.slice (Rect.unit (s := S512x1024) (k0_off7 c) S32x1024.size (k0_off7_inb c)) (fun _ => rfl)
  | ⟨5, _⟩, c => accM.slice (Rect.unit (s := S512x1024) (k0_off9 c) S32x1024.size (k0_off9_inb c)) (fun _ => rfl)
  | ⟨6, _⟩, c => accM.slice (Rect.unit (s := S512x1024) (k0_off11 c 0#32 32#32) S32x1024.size (k0_off11_inb c 0)) (fun _ => rfl)
  | ⟨7, _⟩, c => accM.slice (Rect.unit (s := S512x1024) (k0_off13 c 0#32 16#32) S16x1024.size (k0_off13_inb c 0)) (fun _ => rfl)
  | ⟨8, _⟩, c => accM.slice (Rect.unit (s := S512x1024) (k0_off15 c 0#32 16#32) S16x1024.size (k0_off15_inb c 0)) (fun _ => rfl)
  | ⟨9, _⟩, c => accM.slice (Rect.unit (s := S512x1024) (k0_off11 c 32#32 0#32) S32x1024.size (k0_off11_inb c 1)) (fun _ => rfl)
  | ⟨10, _⟩, c => accM.slice (Rect.unit (s := S512x1024) (k0_off13 c 16#32 0#32) S16x1024.size (k0_off13_inb c 1)) (fun _ => rfl)
  | ⟨11, _⟩, c => accM.slice (Rect.unit (s := S512x1024) (k0_off15 c 16#32 0#32) S16x1024.size (k0_off15_inb c 1)) (fun _ => rfl)
  | ⟨12, _⟩, c => accM.slice (Rect.unit (s := S512x1024) (k0_off19 c) S64x1024.size (k0_off19_inb c)) (fun _ => rfl)
  | ⟨13, _⟩, c => accM.slice (Rect.unit (s := S512x1024) (k0_off20 c) S32x1024.size (k0_off20_inb c)) (fun _ => rfl)
  | ⟨14, _⟩, c => accM.slice (Rect.unit (s := S512x1024) (k0_off21 c) S32x1024.size (k0_off21_inb c)) (fun _ => rfl)
  | ⟨15, _⟩, c => accM.slice (Rect.unit (s := S512x1024) (k0_off22 c) S128x1024.size (k0_off22_inb c)) (fun _ => rfl)
  | ⟨16, _⟩, c => accM.slice (Rect.unit (s := S512x1024) (k0_off23 c) S64x1024.size (k0_off23_inb c)) (fun _ => rfl)
  | ⟨17, _⟩, c => accM.slice (Rect.unit (s := S512x1024) (k0_off24 c) S64x1024.size (k0_off24_inb c)) (fun _ => rfl)
  | ⟨n + 18, h⟩, _ => absurd h (by omega)

/-- Where copy `i` lands ON the device `c'` it is addressed to, when device `c` makes it: a slot of a landing buffer, or the
    sender's rows of the accumulator. -/
def dstM : (i : Fin 18) → (c : Dev nD) → Memref sig .tc .vmem (Sn (rowsOf i)) .bf16
  | ⟨0, _⟩, c => comm0M.slice (Rect.unit (s := S256x1024) ![0, 0] S128x1024.size inb_S256x1024_S128x1024_0_0) (fun _ => rfl)
  | ⟨1, _⟩, c => comm0M.slice (Rect.unit (s := S256x1024) ![128, 0] S64x1024.size inb_S256x1024_S64x1024_128_0) (fun _ => rfl)
  | ⟨2, _⟩, c => comm0M.slice (Rect.unit (s := S256x1024) ![192, 0] S64x1024.size inb_S256x1024_S64x1024_192_0) (fun _ => rfl)
  | ⟨3, _⟩, c => comm1M.slice (Rect.unit (s := S128x1024) ![0, 0] S64x1024.size inb_S128x1024_S64x1024_0_0) (fun _ => rfl)
  | ⟨4, _⟩, c => comm1M.slice (Rect.unit (s := S128x1024) ![64, 0] S32x1024.size inb_S128x1024_S32x1024_64_0) (fun _ => rfl)
  | ⟨5, _⟩, c => comm1M.slice (Rect.unit (s := S128x1024) ![96, 0] S32x1024.size inb_S128x1024_S32x1024_96_0) (fun _ => rfl)
  | ⟨6, _⟩, c => comm2M.slice (Rect.unit (s := S64x1024) ![0, 0] S32x1024.size inb_S64x1024_S32x1024_0_0) (fun _ => rfl)
  | ⟨7, _⟩, c => comm2M.slice (Rect.unit (s := S64x1024) ![32, 0] S16x1024.size inb_S64x1024_S16x1024_32_0) (fun _ => rfl)
  | ⟨8, _⟩, c => comm2M.slice (Rect.unit (s := S64x1024) ![48, 0] S16x1024.size inb_S64x1024_S16x1024_48_0) (fun _ => rfl)
  | ⟨9, _⟩, c => accM.slice (Rect.unit (s := S512x1024) (k0_off11 c 32#32 0#32) S32x1024.size (k0_off11_inb c 1)) (fun _ => rfl)
  | ⟨10, _⟩, c => accM.slice (Rect.unit (s := S512x1024) (k0_off13 c 16#32 0#32) S16x1024.size (k0_off13_inb c 1)) (fun _ => rfl)
  | ⟨11, _⟩, c => accM.slice (Rect.unit (s := S512x1024) (k0_off15 c 16#32 0#32) S16x1024.size (k0_off15_inb c 1)) (fun _ => rfl)
  | ⟨12, _⟩, c => accM.slice (Rect.unit (s := S512x1024) (k0_off19 c) S64x1024.size (k0_off19_inb c)) (fun _ => rfl)
  | ⟨13, _⟩, c => accM.slice (Rect.unit (s := S512x1024) (k0_off20 c) S32x1024.size (k0_off20_inb c)) (fun _ => rfl)
  | ⟨14, _⟩, c => accM.slice (Rect.unit (s := S512x1024) (k0_off21 c) S32x1024.size (k0_off21_inb c)) (fun _ => rfl)
  | ⟨15, _⟩, c => accM.slice (Rect.unit (s := S512x1024) (k0_off22 c) S128x1024.size (k0_off22_inb c)) (fun _ => rfl)
  | ⟨16, _⟩, c => accM.slice (Rect.unit (s := S512x1024) (k0_off23 c) S64x1024.size (k0_off23_inb c)) (fun _ => rfl)
  | ⟨17, _⟩, c => accM.slice (Rect.unit (s := S512x1024) (k0_off24 c) S64x1024.size (k0_off24_inb c)) (fun _ => rfl)
  | ⟨n + 18, h⟩, _ => absurd h (by omega)

/-! ## The cells -/

/-- The runtime's barrier semaphore of collective id 0 (unscoped); the send and the receive semaphore of copy `i`. -/
abbrev barS : Sem sig := (SemArray.scalar (sig.barrier 0 rfl) : Sems sig S_).sem
abbrev sendS (i : Fin 18) : DmaSem sig := ⟨6 + i.val, show 6 + i.val < 42 by have := i.isLt; omega⟩
abbrev recvS (i : Fin 18) : DmaSem sig := ⟨24 + i.val, show 24 + i.val < 42 by have := i.isLt; omega⟩

abbrev barCell (c : Dev nD) : GSem nD τ sig := ((c : Thread nD τ), .reg barS)
abbrev sendCell (i : Fin 18) (c : Dev nD) : GSem nD τ sig := ((c : Thread nD τ), .dma (sendS i))
abbrev recvCell (i : Fin 18) (c : Dev nD) : GSem nD τ sig := ((c : Thread nD τ), .dma (recvS i))

/-- The partner copy `i` of device `c` is addressed to. -/
abbrev partner (i : Fin 18) (c : Dev nD) : Dev nD := peer (maskOf i) c

/-- The pairing of handshake duty `d`. -/
def barMask : Fin 3 → Nat := ![1, 3, 4]

theorem partner_partner : ∀ (i : Fin 18) (c : Dev nD), partner i (partner i c) = c := by decide

/-- What a copy of `n` rows credits its semaphores. -/
abbrev Ncr (i : Fin 18) : ℕ := (dstM i (0 : Dev nD)).view.dmaCredit

end Cert.KernelIdeal.Coll

end
-- ==== Proof.KernelIdeal.Schedule.lean ====
/-
  The protocol's schedule: what each unit a cell receives hands the cell's owner.

  VALUES. `P c` is what device `c`'s accumulator holds once its three parts are stored: its own product, rows by columns.
  A reduce-scatter phase adds, entry by entry, the partner's rows to the rows a device keeps: `W k c` is the accumulator's
  contents after `k` phases, wherever they are still current (the rows kept through phase `k`); the pairing of phase `k`
  depends on the part the row is in. An all-gather phase copies rows verbatim: `A j c` is the accumulator's contents after `j`
  all-gather phases on the rows that are current then — a row the device held before the phase keeps its entry, a row it
  receives has the partner's.

  PAYLOADS. A handshake unit from the partner across a pairing hands over the partner's three landing slots of the copies
  across that pairing (one in each landing buffer). A reduce-scatter copy's landing hands the receiver its slot holding the
  sender's rows AND the sender's source rows themselves (which the receiver writes, two phases later, in the all-gather);
  the sender's own cell hands it nothing. An all-gather copy's landing hands the receiver its own rows holding the sender's;
  the sender's cell hands the source rows back.
-/
import proofs.«900423_g7700000000000424_dist_attn_self_mha_htp_b1_sq512_skv512_d1024_hq8_dh128_v7x_i8_f32_1_alg».proof.Proof.KernelIdeal.Common

noncomputable section

namespace Cert.KernelIdeal.Coll

open Cert.KernelIdeal Cert.KernelIdeal.Gen Cert.KernelIdeal.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Values -/

/-- The accumulator's contents: 512 rows of 1024. -/
abbrev AccC (F : FTy → Type) [FloatOps F] : Type := (cc0_scratch0 : Ref sig .tc).ty.Contents (Elt F)

/-- The part a row is in: rows 0–255, 256–383, 384–511. -/
def partOfRow (r : ℕ) : Fin 3 := if r < 256 then 0 else if r < 384 then 1 else 2

/-- The pairing reduce-scatter phase `k` (mod 3) uses on the part of row `r`: copy `3 k + part`'s. -/
def rsMask (k r : ℕ) : ℕ := maskOf ⟨3 * (k % 3) + (partOfRow r).val, by have := (partOfRow r).isLt; have := Nat.mod_lt k (show 0 < 3 by decide); omega⟩
/-- The all-gather copy of phase `j` (mod 3) on the part of row `r`. -/
def agCopy (j r : ℕ) : Fin 18 := ⟨9 + 3 * (j % 3) + (partOfRow r).val, by have := (partOfRow r).isLt; have := Nat.mod_lt j (show 0 < 3 by decide); omega⟩

section Values
variable (P : Dev nD → AccC F)

/-- The accumulator after `k` reduce-scatter phases: each phase adds the partner's entry. -/
def W : ℕ → Dev nD → AccC F
  | 0, c => P c
  | k + 1, c => fun x => FloatOps.addf (W k c x) (W k (peer (rsMask k (x 0).val) c) x)

/-- Row `r` is among the rows device `c` sends at all-gather phase `j`: the rows it holds, final, before that phase. -/
def heldAt (j : ℕ) (c : Dev nD) (r : ℕ) : Prop := srcRow (agCopy j r) c ≤ r ∧ r < srcRow (agCopy j r) c + rowsOf (agCopy j r)
instance (j : ℕ) (c : Dev nD) (r : ℕ) : Decidable (heldAt j c r) := by unfold heldAt; infer_instance

/-- The accumulator after `j` all-gather phases: a row held before the phase keeps its entry, a received row has the partner's. -/
def A : ℕ → Dev nD → AccC F
  | 0, c => W P 3 c
  | j + 1, c => fun x => if heldAt j c (x 0).val then A j c x else A j (peer (maskOf (agCopy j (x 0).val)) c) x

/-- The contents copy `i` of device `c` carries: the accumulator of its stage. -/
def carried (i : Fin 18) (c : Dev nD) : AccC F := if i.val < 9 then W P (i.val / 3) c else A P (i.val / 3 - 3) c

end Values

/-! ## Holding rows -/

/-- Device `c` holds the source rows of its copy `i` at contents `f`. -/
@[reducible] def srcPts (i : Fin 18) (c : Dev nD) (f : Buf (Elt F) ((srcM i c).view.loc (c : Thread nD τ))) : sProp 𝕄 :=
  (srcM i c).view.loc (c : Thread nD τ) ↦[(srcM i c).view.set]{fullShare} f
/-- Someone holds, ON device `c'`, the place copy `i` of device `c` lands at contents `f`. -/
@[reducible] def dstPts (i : Fin 18) (c c' : Dev nD) (f : Buf (Elt F) ((dstM i c).view.loc (c' : Thread nD τ))) : sProp 𝕄 :=
  (dstM i c).view.loc (c' : Thread nD τ) ↦[(dstM i c).view.set]{fullShare} f

/-- The rows of accumulator contents `X` that device `c`'s copy `i` reads: `X` through the copy's source view. -/
def rowsRead : (i : Fin 18) → (c : Dev nD) → AccC F → Vec F (Sn (rowsOf i)) .bf16
  | ⟨0, _⟩, c, X => (accM.slice (Rect.unit (s := S512x1024) (k0_off1 c) S128x1024.size (k0_off1_inb c)) (fun _ => rfl)).view.read (Elt F) X
  | ⟨1, _⟩, c, X => (accM.slice (Rect.unit (s := S512x1024) (k0_off2 c) S64x1024.size (k0_off2_inb c)) (fun _ => rfl)).view.read (Elt F) X
  | ⟨2, _⟩, c, X => (accM.slice (Rect.unit (s := S512x1024) (k0_off3 c) S64x1024.size (k0_off3_inb c)) (fun _ => rfl)).view.read (Elt F) X
  | ⟨3, _⟩, c, X => (accM.slice (Rect.unit (s := S512x1024) (k0_off5 c) S64x1024.size (k0_off5_inb c)) (fun _ => rfl)).view.read (Elt F) X
  | ⟨4, _⟩, c, X => (accM.slice (Rect.unit (s := S512x1024) (k0_off7 c) S32x1024.size (k0_off7_inb c)) (fun _ => rfl)).view.read (Elt F) X
  | ⟨5, _⟩, c, X => (accM.slice (Rect.unit (s := S512x1024) (k0_off9 c) S32x1024.size (k0_off9_inb c)) (fun _ => rfl)).view.read (Elt F) X
  | ⟨6, _⟩, c, X => (accM.slice (Rect.unit (s := S512x1024) (k0_off11 c 0#32 32#32) S32x1024.size (k0_off11_inb c 0)) (fun _ => rfl)).view.read (Elt F) X
  | ⟨7, _⟩, c, X => (accM.slice (Rect.unit (s := S512x1024) (k0_off13 c 0#32 16#32) S16x1024.size (k0_off13_inb c 0)) (fun _ => rfl)).view.read (Elt F) X
  | ⟨8, _⟩, c, X => (accM.slice (Rect.unit (s := S512x1024) (k0_off15 c 0#32 16#32) S16x1024.size (k0_off15_inb c 0)) (fun _ => rfl)).view.read (Elt F) X
  | ⟨9, _⟩, c, X => (accM.slice (Rect.unit (s := S512x1024) (k0_off11 c 32#32 0#32) S32x1024.size (k0_off11_inb c 1)) (fun _ => rfl)).view.read (Elt F) X
  | ⟨10, _⟩, c, X => (accM.slice (Rect.unit (s := S512x1024) (k0_off13 c 16#32 0#32) S16x1024.size (k0_off13_inb c 1)) (fun _ => rfl)).view.read (Elt F) X
  | ⟨11, _⟩, c, X => (accM.slice (Rect.unit (s := S512x1024) (k0_off15 c 16#32 0#32) S16x1024.size (k0_off15_inb c 1)) (fun _ => rfl)).view.read (Elt F) X
  | ⟨12, _⟩, c, X => (accM.slice (Rect.unit (s := S512x1024) (k0_off19 c) S64x1024.size (k0_off19_inb c)) (fun _ => rfl)).view.read (Elt F) X
  | ⟨13, _⟩, c, X => (accM.slice (Rect.unit (s := S512x1024) (k0_off20 c) S32x1024.size (k0_off20_inb c)) (fun _ => rfl)).view.read (Elt F) X
  | ⟨14, _⟩, c, X => (accM.slice (Rect.unit (s := S512x1024) (k0_off21 c) S32x1024.size (k0_off21_inb c)) (fun _ => rfl)).view.read (Elt F) X
  | ⟨15, _⟩, c, X => (accM.slice (Rect.unit (s := S512x1024) (k0_off22 c) S128x1024.size (k0_off22_inb c)) (fun _ => rfl)).view.read (Elt F) X
  | ⟨16, _⟩, c, X => (accM.slice (Rect.unit (s := S512x1024) (k0_off23 c) S64x1024.size (k0_off23_inb c)) (fun _ => rfl)).view.read (Elt F) X
  | ⟨17, _⟩, c, X => (accM.slice (Rect.unit (s := S512x1024) (k0_off24 c) S64x1024.size (k0_off24_inb c)) (fun _ => rfl)).view.read (Elt F) X
  | ⟨n + 18, h⟩, _, _ => absurd h (by omega)

/-- The source rows of `c`'s copy `i` holding the rows of `X` there. -/
def srcAt (i : Fin 18) (c : Dev nD) (X : AccC F) : sProp 𝕄 :=
  iprop(∃ f, ⌜(srcM i c).view.read (Elt F) f = rowsRead i c X⌝ ∗ srcPts i c f)
/-- The landing place, on `c'`, of `c`'s copy `i` holding `c`'s rows of `X`. -/
def dstAt (i : Fin 18) (c c' : Dev nD) (X : AccC F) : sProp 𝕄 :=
  iprop(∃ f, ⌜(dstM i c).view.read (Elt F) f = rowsRead i c X⌝ ∗ dstPts i c c' f)

/-! ## The payloads -/

section Pay
variable (P : Dev nD → AccC F)

/-- The reduce-scatter copies across the pairing of handshake duty `d`: one per phase. -/
def slotsOf : Fin 3 → Fin 3 → Fin 18
  | 0 => ![2, 4, 6]
  | 1 => ![1, 3, 8]
  | 2 => ![0, 5, 7]

/-- A handshake unit to `c`, duty `d`: the signaller's three landing slots, at any contents. -/
def barPay (d : Fin 3) (c : Dev nD) : sProp 𝕄 :=
  iprop((∃ f, dstPts (slotsOf d 0) c (peer (barMask d) c) f) ∗ (∃ f, dstPts (slotsOf d 1) c (peer (barMask d) c) f)
    ∗ (∃ f, dstPts (slotsOf d 2) c (peer (barMask d) c) f))

/-- The landing of copy `i` ON device `c` (made by `c`'s partner): the landing place holding the sender's rows; for a
    reduce-scatter copy also the sender's source rows, still holding them. -/
def recvPay (i : Fin 18) (c : Dev nD) : sProp 𝕄 :=
  if i.val < 9 then iprop(dstAt i (partner i c) c (carried P i (partner i c)) ∗ srcAt i (partner i c) (carried P i (partner i c)))
  else dstAt i (partner i c) c (carried P i (partner i c))

/-- `c`'s own copy `i` read out: nothing for a reduce-scatter copy (the rows went with the landing), the source rows back for
    an all-gather copy. -/
def sendPay (i : Fin 18) (c : Dev nD) : sProp 𝕄 :=
  if i.val < 9 then iprop(emp) else srcAt i c (carried P i c)

/-! ## The schedule -/

/-- Which of the protocol's cells a semaphore is. -/
inductive CellKind | bar | send (i : Fin 18) | recv (i : Fin 18) | other
  deriving DecidableEq

def kindOf : SemLoc sig → CellKind
  | .reg s => if s = barS then .bar else .other
  | .dma q => if h : 6 ≤ q.val ∧ q.val < 24 then .send ⟨q.val - 6, by omega⟩
      else if h : 24 ≤ q.val ∧ q.val < 42 then .recv ⟨q.val - 24, by omega⟩ else .other

theorem kindOf_bar : kindOf (.reg barS : SemLoc sig) = .bar := by decide
theorem kindOf_send (i : Fin 18) : kindOf (.dma (sendS i) : SemLoc sig) = .send i := by revert i; decide
theorem kindOf_recv (i : Fin 18) : kindOf (.dma (recvS i) : SemLoc sig) = .recv i := by revert i; decide

theorem Ncr_pos (i : Fin 18) : 0 < Ncr i := by
  fin_cases i <;> exact View.dmaCredit_pos _ (by decide)

/-- One round, round 0: the handshake cell's three unit duties; each copy's two cells one duty of the copy's credit. -/
def rd : Rounds.Schedule (GSem nD τ sig) (Fin 3) 𝕄 where
  duties g r :=
    if g.1.2 = .tc ∧ r = 0 then
      match kindOf g.2 with
      | .bar => Finset.univ
      | .send _ | .recv _ => {0}
      | .other => ∅
    else ∅
  unitless _ := False
  amount g _ _ := match kindOf g.2 with
    | .send i | .recv i => Ncr i
    | _ => 1
  payload g _ d := match kindOf g.2 with
    | .bar => barPay d g.1.1
    | .recv i => recvPay P i g.1.1
    | .send i => sendPay P i g.1.1
    | .other => iprop(emp)
  amount_pos g _ _ _ := by
    cases kindOf g.2 <;> first | exact Nat.one_pos | exact Ncr_pos _

instance rd_payload_storable (g : GSem nD τ sig) (r : ℕ) (d : Fin 3) :
    BI.Storable (upEmb : UEmb _ 𝕄) ((rd (F := F) P).payload g r d) := by
  show BI.Storable upEmb (match kindOf g.2 with
    | .bar => barPay d g.1.1
    | .recv i => recvPay P i g.1.1
    | .send i => sendPay P i g.1.1
    | .other => iprop(emp))
  unfold barPay recvPay sendPay dstAt srcAt dstPts srcPts
  split <;> (try split) <;> infer_instance

/-! ## The tables, computed -/

section Sched
variable (c : Dev nD) (i : Fin 18)

theorem duties_bar : (rd (F := F) P).duties (barCell c) 0 = Finset.univ := by
  simp only [rd, kindOf_bar, and_self, if_true]
theorem duties_send : (rd (F := F) P).duties (sendCell i c) 0 = {0} := by
  simp only [rd, kindOf_send, and_self, if_true]
theorem duties_recv : (rd (F := F) P).duties (recvCell i c) 0 = {0} := by
  simp only [rd, kindOf_recv, and_self, if_true]
theorem duties_later (g : GSem nD τ sig) : ∀ r, 1 ≤ r → (rd (F := F) P).duties g r = ∅ := fun r hr => by
  dsimp only [rd]; rw [if_neg fun h => by omega]

theorem amount_bar (d : Fin 3) : (rd (F := F) P).amount (barCell c) 0 d = 1 := by simp only [rd, kindOf_bar]
theorem amount_send (d : Fin 3) : (rd (F := F) P).amount (sendCell i c) 0 d = Ncr i := by simp only [rd, kindOf_send]
theorem amount_recv (d : Fin 3) : (rd (F := F) P).amount (recvCell i c) 0 d = Ncr i := by simp only [rd, kindOf_recv]

theorem expect_bar : (rd (F := F) P).expect (barCell c) 0 = 3 := by
  unfold Schedule.expect Schedule.amountOf
  rw [duties_bar, Finset.sum_congr rfl fun d _ => amount_bar P c d, Finset.sum_const, Finset.card_univ, Fintype.card_fin, smul_eq_mul]
theorem expect_send : (rd (F := F) P).expect (sendCell i c) 0 = Ncr i := by
  unfold Schedule.expect Schedule.amountOf; rw [duties_send, Finset.sum_singleton, amount_send]
theorem expect_recv : (rd (F := F) P).expect (recvCell i c) 0 = Ncr i := by
  unfold Schedule.expect Schedule.amountOf; rw [duties_recv, Finset.sum_singleton, amount_recv]

theorem payload_bar (d : Fin 3) : (rd (F := F) P).payload (barCell c) 0 d = barPay d c := by simp only [rd, kindOf_bar]
theorem payload_send (d : Fin 3) : (rd (F := F) P).payload (sendCell i c) 0 d = sendPay P i c := by simp only [rd, kindOf_send]
theorem payload_recv (d : Fin 3) : (rd (F := F) P).payload (recvCell i c) 0 d = recvPay P i c := by simp only [rd, kindOf_recv]

/-- A wait for a whole round of which no duty was taken gets the round's payloads: the handshake's three, -/
theorem rest_bar : bigSep ((rd (F := F) P).duties (barCell c) 0 \ ∅) (fun d => (rd (F := F) P).payload (barCell c) 0 d)
    = iprop(barPay 0 c ∗ barPay 1 c ∗ barPay 2 c) := by
  rw [Finset.sdiff_empty, duties_bar, bigSep_univ_eq_bigSepL [(0 : Fin 3), 1, 2] (by decide) (by decide), bigSepL_cons_cons, bigSepL_cons_cons, bigSepL_singleton,
    payload_bar, payload_bar, payload_bar]
  rfl
/-- a copy's one. -/
theorem rest_send : bigSep ((rd (F := F) P).duties (sendCell i c) 0 \ ∅) (fun d => (rd (F := F) P).payload (sendCell i c) 0 d) = sendPay P i c := by
  rw [Finset.sdiff_empty, duties_send, bigSep_singleton, payload_send]
theorem rest_recv : bigSep ((rd (F := F) P).duties (recvCell i c) 0 \ ∅) (fun d => (rd (F := F) P).payload (recvCell i c) 0 d) = recvPay P i c := by
  rw [Finset.sdiff_empty, duties_recv, bigSep_singleton, payload_recv]

end Sched

end Pay

end Cert.KernelIdeal.Coll

end
-- ==== Proof.KernelIdeal.Inv.lean ====
/-
  What each device starts from and ends with, and the order argument against deadlock.

  LEVELS. On every device copy `i` is made before copy `i + 1`, and the wait for copy `i`'s landing comes after copy `i + 2` is
  made (for the last copies, after every copy is made). So with staging cells and send cells at level 0, the handshake cell at
  level 1 and the receive cell of copy `i` at level `i + 2`, every wait a device makes is below everything it still owes:
  at its handshake wait it owes only landings (levels ≥ 2), at the wait for landing `i` only the landings of copies after
  `i + 2` (levels ≥ i + 5), and a send cell's units come from the device's own copy.

  OWING. At launch a device owes its three partners one handshake unit each and the partner of every copy that copy's
  landing. The sum is written so that the units come off it from the right in the order the device pays them.

  GHOST STATE. Every device knows every cell's invariant and that round 0 of every cell is open; it holds its own cells'
  positions, and the duty tokens it pays with: its duty on each partner's handshake cell, the landing duty of each of its
  copies on the partner's receive cell, the duty of each of its own send cells.
-/
import proofs.«900423_g7700000000000424_dist_attn_self_mha_htp_b1_sq512_skv512_d1024_hq8_dh128_v7x_i8_f32_1_alg».proof.Proof.KernelIdeal.Schedule
import proofs.«900423_g7700000000000424_dist_attn_self_mha_htp_b1_sq512_skv512_d1024_hq8_dh128_v7x_i8_f32_1_alg».proof.Proof.Gen.KernelIdeal.Skeleton
import proofs.«900423_g7700000000000424_dist_attn_self_mha_htp_b1_sq512_skv512_d1024_hq8_dh128_v7x_i8_f32_1_alg».proof.Proof.Gen.KernelIdeal.Frame

noncomputable section

namespace Cert.KernelIdeal.Coll

open Cert.KernelIdeal Cert.KernelIdeal.Gen Cert.KernelIdeal.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## A device's cells, indexed -/

/-- A device's 37 cells: 0 the handshake cell, 1–18 the send cells of copies 0–17, 19–36 their receive cells. -/
abbrev CK : Type := Fin 37

def csem (k : CK) : SemLoc sig :=
  if k.val = 0 then .reg barS
  else if h : k.val ≤ 18 then .dma ⟨5 + k.val, show 5 + k.val < 42 by omega⟩
  else .dma ⟨5 + k.val, show 5 + k.val < 42 by have := k.isLt; omega⟩

abbrev ckBar : CK := 0
abbrev ckSend (i : Fin 18) : CK := ⟨1 + i.val, by have := i.isLt; omega⟩
abbrev ckRecv (i : Fin 18) : CK := ⟨19 + i.val, by have := i.isLt; omega⟩

theorem csem_bar : csem ckBar = .reg barS := rfl
theorem csem_send : ∀ i : Fin 18, csem (ckSend i) = .dma (sendS i) := by decide
theorem csem_recv : ∀ i : Fin 18, csem (ckRecv i) = .dma (recvS i) := by decide

abbrev kcell (ck : Dev nD × CK) : GSem nD τ sig := ((ck.1 : Thread nD τ), csem ck.2)

theorem csem_injective : Function.Injective csem := by
  intro a b; revert a b; decide +kernel

theorem kcell_injective : Function.Injective (kcell : Dev nD × CK → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_injective h2]

theorem kcell_bar (c : Dev nD) : kcell (c, ckBar) = barCell c := rfl
theorem kcell_send (i : Fin 18) (c : Dev nD) : kcell (c, ckSend i) = sendCell i c := by unfold kcell; rw [csem_send]
theorem kcell_recv (i : Fin 18) (c : Dev nD) : kcell (c, ckRecv i) = recvCell i c := by unfold kcell; rw [csem_recv]

/-! ## Levels -/

def L (g : GSem nD τ sig) : Finset Unit := if g.1.2 = .tc then {()} else ∅
/-- Staging and send cells at 0, the handshake cell at 1, the receive cell of copy `i` at `i + 2`. -/
def lv (g : GSem nD τ sig) (_ : Unit) : ℕ := match kindOf g.2 with
  | .bar => 1
  | .recv i => i.val + 2
  | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := by simp only [lv, kindOf_bar]
theorem lv_recv (i : Fin 18) (c : Dev nD) : lv (recvCell i c) () = i.val + 2 := by simp only [lv, kindOf_recv]
theorem lv_send (i : Fin 18) (c : Dev nD) : lv (sendCell i c) () = 0 := by simp only [lv, kindOf_send]

/-! ## What a device owes -/

/-- The landings of the copies from `n` on, `fuel` of them: the next copy's is the LAST summand. -/
def owedAux : (fuel n : ℕ) → Dev nD → CellTallies nD τ sig Unit
  | 0, _, _ => 0
  | fuel + 1, n, c => if h : n < 18 then owedAux fuel (n + 1) c + tallyAt (recvCell ⟨n, h⟩ (partner ⟨n, h⟩ c)) () (Ncr ⟨n, h⟩) else 0

/-- What device `c` owes once it has made its copies below `n`. -/
def owedFrom (n : ℕ) (c : Dev nD) : CellTallies nD τ sig Unit := owedAux (18 - n) n c

theorem owedFrom_succ (i : Fin 18) (c : Dev nD) :
    owedFrom i.val c = owedFrom (i.val + 1) c + tallyAt (recvCell i (partner i c)) () (Ncr i) := by
  unfold owedFrom
  rw [show 18 - i.val = (18 - (i.val + 1)) + 1 by have := i.isLt; omega]
  show (if h : i.val < 18 then _ else 0) = _
  rw [dif_pos i.isLt]
theorem owedFrom_18 (c : Dev nD) : owedFrom 18 c = 0 := rfl

/-- At launch: the eighteen landings, then the three handshake units, the first signal's (across 1) last. -/
def O₂ (c : Dev nD) : CellTallies nD τ sig Unit := owedFrom 0 c + tallyAt (barCell (peer 4 c)) () 1
def O₁ (c : Dev nD) : CellTallies nD τ sig Unit := O₂ c + tallyAt (barCell (peer 3 c)) () 1
def O₀ (c : Dev nD) : CellTallies nD τ sig Unit := O₁ c + tallyAt (barCell (peer 1 c)) () 1

/-! ## The ghost state -/

section Ghost
variable (P : Dev nD → AccC F)

/-- What every device knows: each cell's invariant under the name the launch gave it, and that round 0 of each is open. -/
def records (K : Dev nD × CK → ℕ) : sProp 𝕄 :=
  iprop((bigSep Finset.univ fun ck : Dev nD × CK => cellInv ER (rd P) (K ck) (kcell ck))
    ∗ bigSep Finset.univ fun ck : Dev nD × CK => reached ER (kcell ck) 0)

instance records_persistent (K : Dev nD × CK → ℕ) : BI.Persistent (records P K) := by unfold records; infer_instance

/-- The tokens of the duties device `c` pays. -/
def payToks (c : Dev nD) : sProp 𝕄 :=
  iprop((bigSep Finset.univ fun d : Fin 3 => dutyTok ER (barCell (peer (barMask d) c)) 0 d)
    ∗ (bigSep Finset.univ fun i : Fin 18 => dutyTok ER (recvCell i (partner i c)) 0 (0 : Fin 3))
    ∗ (bigSep Finset.univ fun i : Fin 18 => dutyTok ER (sendCell i c) 0 (0 : Fin 3)))

/-- What only device `c` holds: its cells' positions and its tokens. -/
def linear (c : Dev nD) : sProp 𝕄 :=
  iprop((bigSep Finset.univ fun k : CK => atPos ER (kcell (c, k)) 0 ∅ 0) ∗ payToks c)

def ghost (K : Dev nD × CK → ℕ) (c : Dev nD) : sProp 𝕄 := iprop(records P K ∗ linear c)

/-- The credit the launch deals device `c`: its handshake cell's three units and each landing's. -/
def credits (c : Dev nD) : sProp 𝕄 :=
  iprop(cred (tallyAt (barCell c) () 3) ∗ bigSep Finset.univ fun i : Fin 18 => cred (tallyAt (recvCell i c) () (Ncr i)))

/-- What device `c`'s body starts from, the scratch buffers apart. -/
def start (c : Dev nD) : sProp 𝕄 :=
  iprop((∃ K, ghost P K c) ∗ credits c ∗ levAts L lv)

/-- The four scratch buffers, each whole at some contents. -/
def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ (∃ f : Buf (Elt F) ((c : Thread nD τ).loc cc0_scratch3), ((c : Thread nD τ).loc cc0_scratch3) ↦{fullShare} f))

/-- Before the one point: the start and the scratch buffers. After it: the scratch buffers again whole and the thirty-six
    own cells closed, their counters at zero. -/
def Φ₀ (c : Dev nD) : sProp 𝕄 := iprop(start P c ∗ scratch c)
def Φ₁ (c : Dev nD) : sProp 𝕄 :=
  iprop(scratch c ∗ bigSep Finset.univ fun i : Fin 18 => iprop(semVal (sendCell i c) 0 ∗ semVal (recvCell i c) 0))

end Ghost

/-! ## The pipeline's proof data -/

section Data
variable (m : Mem F) (ρ : Dev nD → PrngReg) (P : Dev nD → AccC F)

/-- The kernel's result on every device: the accumulator after the three all-gather phases, widened. -/
def outAt (c : Dev nD) : (cc0_stg5_0 : Ref sig .tc).ty.Contents (Elt F) := k0_pay1 (A P 3 c)

def dats (_ : Fin 1) (c : Dev nD) : Dat τ (Elt F) Unit ℕ UU ℕ cfg0 c where
  A w := (s₀ m ρ).mem ((cfg0.win w).arr.view.loc (c : Thread nD τ))
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt P c
  Φ t := match t with
    | ⟨0, _⟩ => Φ₀ P c
    | ⟨_ + 1, _⟩ => Φ₁ c
  q _ := fullShare
  owed t := match t with
    | ⟨0, _⟩ => O₀ c
    | ⟨_ + 1, _⟩ => 0

abbrev 𝒱₀ : Variants := Variants.none

end Data

end Cert.KernelIdeal.Coll

end
-- ==== Proof.KernelIdeal.Steps.lean ====
/-
  The kernel's remote statements as rules over the schedule, one per kind of statement, for any copy `i`; and the
  evidence that each wait is below everything its device still owes.

  A handshake signal pays the partner's handshake duty with the signaller's three landing slots of that pairing. The
  handshake wait brings back the three partners' nine slots. A reduce-scatter copy pays the partner's landing duty with the
  partner's slot rewritten AND the source rows; the sender's own duty with nothing. An all-gather copy pays the partner's
  landing duty with the partner's rows rewritten and its own duty with the source rows. A wait on a copy's send or receive
  cell brings back that cell's one payload.
-/
import proofs.«900423_g7700000000000424_dist_attn_self_mha_htp_b1_sq512_skv512_d1024_hq8_dh128_v7x_i8_f32_1_alg».proof.Proof.KernelIdeal.Inv

noncomputable section

namespace Cert.KernelIdeal.Coll

open Cert.KernelIdeal Cert.KernelIdeal.Gen Cert.KernelIdeal.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Levels -/

/-- Whatever is still owed among the landings from copy `n` on is the landing of some copy `i ≥ n`. -/
theorem owedAux_pos {fuel n : ℕ} {c : Dev nD} {g : GSem nD τ sig} {u : Unit} (h : 0 < owedAux fuel n c g u) :
    ∃ i : Fin 18, n ≤ i.val ∧ g = recvCell i (partner i c) := by
  induction fuel generalizing n with
  | zero => exact absurd h (Nat.lt_irrefl 0)
  | succ f ih =>
    unfold owedAux at h
    split at h
    · rename_i hn
      rw [Pi.add_apply, Finsupp.add_apply, tallyAt_apply] at h
      by_cases hg : g = recvCell ⟨n, hn⟩ (partner ⟨n, hn⟩ c) ∧ u = ()
      · exact ⟨⟨n, hn⟩, le_rfl, hg.1⟩
      · rw [if_neg hg, Nat.add_zero] at h
        obtain ⟨i, hi, hgi⟩ := ih h
        exact ⟨i, by omega, hgi⟩
    · exact absurd h (Nat.lt_irrefl 0)

theorem owedFrom_pos {n : ℕ} {c : Dev nD} {g : GSem nD τ sig} {u : Unit} (h : 0 < owedFrom n c g u) :
    ∃ i : Fin 18, n ≤ i.val ∧ g = recvCell i (partner i c) := owedAux_pos h

/-- A wait on a cell whose level is below `n + 2` is below every landing from copy `n` on. -/
theorem mayWait_from (c : Dev nD) (sm : SemLoc sig) (n : ℕ) (h : lv ((c : Thread nD τ), sm) () < n + 2) :
    (levAts L lv : sProp 𝕄) ⊢ MayWait (c : Thread nD τ) sm () (owedFrom n c) :=
  MayOwe.of_cut (L := L) (lev := lv) (lv ((c : Thread nD τ), sm) ())
    (fun p hp => by rw [Finset.mem_singleton.mp hp, L_tc]; exact Finset.mem_singleton_self _)
    (fun g u hg => by obtain ⟨i, -, rfl⟩ := owedFrom_pos hg; rw [L_tc]; exact Finset.mem_singleton_self _)
    (fun p hp => by rw [Finset.mem_singleton.mp hp])
    (fun g u hg => by obtain ⟨i, hi, rfl⟩ := owedFrom_pos hg; cases u; rw [lv_recv]; omega)

/-! ## What a copy credits -/

theorem credit_dst (i : Fin 18) (c : Dev nD) (sm : DmaSem sig) : (dstM i c).view.amount (.dma sm) = Ncr i := by
  fin_cases i <;> rfl
theorem credit_src (i : Fin 18) (c : Dev nD) : (srcM i c).view.dmaCredit = Ncr i := by
  fin_cases i <;> rfl

section Steps

variable (P : Dev nD → AccC F)
variable {α : Type} {Q : α → sProp (MT nD τ sig Unit (Elt F) ℕ UU ℕ)} (c : Dev nD)

/-- A handshake signal to `n`, duty `d`. -/
theorem wp_hand (d : Fin 3) (n : Dev nD) {k' : ℕ} (hk' : 1 = k') {k : PUnit → Prog (TpuEff nD τ sig (Elt F) Λ₀ .tc) α} {κ : ℕ}
    {O₀ : CellTallies nD τ sig Unit} (O : CellTallies nD τ sig Unit) (hO : O₀ = O + tallyAt (barCell n) () k') {W : Waits sig Unit} :
    iprop(cellInv ER (rd P) κ (barCell n) ∗ owes (c : Thread nD τ) O₀ W ∗ dutyTok ER (barCell n) 0 d
        ∗ barPay d n ∗ reached ER (barCell n) 0)
      ⊢ iprop((owes (c : Thread nD τ) O W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal ((n : Dev nD) : Thread nD τ) barS k') k) Q) := by
  iintro ⟨#HI, HO, Htok, Hpay, #Hr⟩ Hk
  iapply (Rounds.wp_signal 𝒱₀ ER (rd P) (c : Thread nD τ) none (dst := ((n : Dev nD) : Thread nD τ)) (κ := κ) (r := 0) (d := d)
      (by rw [duties_bar]; exact Finset.mem_univ _) ((amount_bar P n d).trans hk') () O hO) $$ [HO Htok Hpay]
  · isplitr; · iexact HI
    isplitl [HO]; · iexact HO
    isplitl [Htok]; · iexact Htok
    isplitl [Hpay]; · rw [payload_bar]; iexact Hpay
    iexact Hr
  iexact Hk

/-- The handshake wait: the three partners' slots. -/
theorem wp_handwait {k' : ℕ} (hk' : 3 = k') {k : PUnit → Prog (TpuEff nD τ sig (Elt F) Λ₀ .tc) α} {κ : ℕ}
    {O : CellTallies nD τ sig Unit} {W : Waits sig Unit} :
    iprop(cellInv ER (rd P) κ (barCell c) ∗ cred (tallyAt (barCell c) () 3) ∗ owes (c : Thread nD τ) O W
        ∗ MayWait (c : Thread nD τ) (.reg barS) () O ∗ atPos ER (barCell c) 0 ∅ 0)
      ⊢ iprop(((owes (c : Thread nD τ) O (insert (SemLoc.reg barS, ()) W) ∗ atPos ER (barCell c) 1 ∅ 0 ∗ reached ER (barCell c) 1
              ∗ barPay (F := F) 0 c ∗ barPay 1 c ∗ barPay 2 c)
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS k') k) Q) := by
  subst hk'
  iintro ⟨#HI, Hc, HO, #Hmw, Hat⟩ Hk
  iapply (Rounds.wp_wait_rest_token 𝒱₀ ER (rd P) (c : Thread nD τ) none (κ := κ) (k' := 3)
      (wpE_semWait_eq 𝒱₀ (c : Thread nD τ) none Set.univ) (Set.mem_univ _) () (O := O) (W := W) (R := 0) (m := 0) (T := ∅)
      (by rw [Nat.zero_add, expect_bar])) $$ [Hc HO Hat]
  · isplitr; · iexact HI
    isplitl [Hc]; · iexact Hc
    isplitl [HO]; · iexact HO
    isplitr; · iexact Hmw
    iexact Hat
  iintro ⟨HO, Hat, Hr, Hpay⟩
  iapply Hk
  ihave Hp := (Entails.of_eq (rest_bar P c)) $$ Hpay
  isplitl [HO]; · iexact HO
  isplitl [Hat]; · iexact Hat
  isplitl [Hr]; · iexact Hr
  iexact Hp

/-- A reduce-scatter copy: the landing hands the partner its slot rewritten and the source rows. -/
theorem wp_copyRS (i : Fin 18) (hi : i.val < 9) (n : Dev nD) (hn : n = partner i c)
    {hsc : ((dstM i c) : Memref sig (Dev.tc n : Thread nD τ).2.kind .vmem (Sn (rowsOf i)) .bf16).view.ref.isScScratch = false}
    {hsrc : (srcM i c).view.WordExact} {hdst : (dstM i c).view.WordExact}
    {hsem : DmaTarget.Typed .vmem (.dma (recvS i)) (.remote (Dev.tc n : Thread nD τ) (dstM i c) (.dma (sendS i)) hsc)}
    {k : PUnit → Prog (TpuEff nD τ sig (Elt F) Λ₀ .tc) α} {κ₁ κ₂ : ℕ}
    (fs : Buf (Elt F) ((srcM i c).view.loc (c : Thread nD τ)))
    (fd : Buf (Elt F) ((dstM i c).view.loc ((partner i c : Dev nD) : Thread nD τ)))
    (hv : (srcM i c).view.read (Elt F) fs = rowsRead i c (carried P i c))
    {O₀ : CellTallies nD τ sig Unit} (O : CellTallies nD τ sig Unit) (hO : O₀ = O + tallyAt (recvCell i (partner i c)) () (Ncr i)) {W : Waits sig Unit} :
    iprop(cellInv ER (rd P) κ₁ (sendCell i c) ∗ cellInv ER (rd P) κ₂ (recvCell i (partner i c))
        ∗ srcPts i c fs ∗ dstPts i c (partner i c) fd
        ∗ owes (c : Thread nD τ) O₀ W
        ∗ dutyTok ER (sendCell i c) 0 (0 : Fin 3) ∗ reached ER (sendCell i c) 0
        ∗ dutyTok ER (recvCell i (partner i c)) 0 (0 : Fin 3) ∗ reached ER (recvCell i (partner i c)) 0)
      ⊢ iprop(((cred (tallyAt (sendCell i c) () (Ncr i)) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (srcM i c) (.remote (Dev.tc n : Thread nD τ) (dstM i c) (.dma (sendS i)) hsc) (.dma (recvS i)) hsrc hdst hsem) k) Q) := by
  subst hn
  iintro ⟨#HI1, #HI2, Hs, Hd, HO, Ht1, #Hr1, Ht2, #Hr2⟩ Hk
  iapply (Rounds.wp_send_landing_pointsTo 𝒱₀ ER (rd P) (c : Thread nD τ) none (κ₁ := κ₁) (κ₂ := κ₂)
      (r₁ := 0) (r₂ := 0) (d₁ := (0 : Fin 3)) (d₂ := (0 : Fin 3)) (fs := fs) (fd := fd)
      (by rw [duties_send]; exact Finset.mem_singleton_self _) (by rw [duties_recv]; exact Finset.mem_singleton_self _)
      () () (Ncr i) (credit_dst i c _) (amount_send P c i 0) (amount_recv P _ i 0) O hO (W := W)
      (by rw [payload_send]; unfold sendPay; rw [if_pos hi])
      (by
        rw [payload_recv]; unfold recvPay; rw [if_pos hi, partner_partner]
        unfold dstAt srcAt dstPts srcPts
        iintro ⟨Hd, Hs⟩
        isplitl [Hd]
        · iexists ((dstM i c).view.write (Elt F) fd ((srcM i c).view.read (Elt F) fs) Finset.univ)
          isplitr; · ipureintro; rw [View.read_write_univ]; exact hv
          iexact Hd
        · iexists fs
          isplitr; · ipureintro; exact hv
          iexact Hs)) $$ [Hs Hd HO Ht1 Ht2]
  · isplitr; · iexact HI1
    isplitr; · iexact HI2
    isplitl [Hs]; · iexact Hs
    isplitl [Hd]; · iexact Hd
    isplitl [HO]; · iexact HO
    isplitl [Ht1]; · iexact Ht1
    isplitr; · iexact Hr1
    isplitl [Ht2]; · iexact Ht2
    iexact Hr2
  iexact Hk

/-- An all-gather copy: the landing hands the partner its rows rewritten; the sender's cell the source rows back. -/
theorem wp_copyAG (i : Fin 18) (hi : ¬ i.val < 9) (n : Dev nD) (hn : n = partner i c)
    {hsc : ((dstM i c) : Memref sig (Dev.tc n : Thread nD τ).2.kind .vmem (Sn (rowsOf i)) .bf16).view.ref.isScScratch = false}
    {hsrc : (srcM i c).view.WordExact} {hdst : (dstM i c).view.WordExact}
    {hsem : DmaTarget.Typed .vmem (.dma (recvS i)) (.remote (Dev.tc n : Thread nD τ) (dstM i c) (.dma (sendS i)) hsc)}
    {k : PUnit → Prog (TpuEff nD τ sig (Elt F) Λ₀ .tc) α} {κ₁ κ₂ : ℕ}
    (fs : Buf (Elt F) ((srcM i c).view.loc (c : Thread nD τ)))
    (fd : Buf (Elt F) ((dstM i c).view.loc ((partner i c : Dev nD) : Thread nD τ)))
    (hv : (srcM i c).view.read (Elt F) fs = rowsRead i c (carried P i c))
    {O₀ : CellTallies nD τ sig Unit} (O : CellTallies nD τ sig Unit) (hO : O₀ = O + tallyAt (recvCell i (partner i c)) () (Ncr i)) {W : Waits sig Unit} :
    iprop(cellInv ER (rd P) κ₁ (sendCell i c) ∗ cellInv ER (rd P) κ₂ (recvCell i (partner i c))
        ∗ srcPts i c fs ∗ dstPts i c (partner i c) fd
        ∗ owes (c : Thread nD τ) O₀ W
        ∗ dutyTok ER (sendCell i c) 0 (0 : Fin 3) ∗ reached ER (sendCell i c) 0
        ∗ dutyTok ER (recvCell i (partner i c)) 0 (0 : Fin 3) ∗ reached ER (recvCell i (partner i c)) 0)
      ⊢ iprop(((cred (tallyAt (sendCell i c) () (Ncr i)) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (srcM i c) (.remote (Dev.tc n : Thread nD τ) (dstM i c) (.dma (sendS i)) hsc) (.dma (recvS i)) hsrc hdst hsem) k) Q) := by
  subst hn
  iintro ⟨#HI1, #HI2, Hs, Hd, HO, Ht1, #Hr1, Ht2, #Hr2⟩ Hk
  iapply (Rounds.wp_send_pointsTo 𝒱₀ ER (rd P) (c : Thread nD τ) none (κ₁ := κ₁) (κ₂ := κ₂)
      (r₁ := 0) (r₂ := 0) (d₁ := (0 : Fin 3)) (d₂ := (0 : Fin 3)) (fs := fs) (fd := fd)
      (by rw [duties_send]; exact Finset.mem_singleton_self _) (by rw [duties_recv]; exact Finset.mem_singleton_self _)
      () () (Ncr i) (credit_dst i c _) (amount_send P c i 0) (amount_recv P _ i 0) O hO (W := W)
      (by
        rw [payload_send]; unfold sendPay; rw [if_neg hi]; unfold srcAt srcPts
        iintro Hs; iexists fs
        isplitr; · ipureintro; exact hv
        iexact Hs)
      (by
        rw [payload_recv]; unfold recvPay; rw [if_neg hi, partner_partner]
        unfold dstAt dstPts
        iintro Hd
        iexists ((dstM i c).view.write (Elt F) fd ((srcM i c).view.read (Elt F) fs) Finset.univ)
        isplitr; · ipureintro; rw [View.read_write_univ]; exact hv
        iexact Hd)) $$ [Hs Hd HO Ht1 Ht2]
  · isplitr; · iexact HI1
    isplitr; · iexact HI2
    isplitl [Hs]; · iexact Hs
    isplitl [Hd]; · iexact Hd
    isplitl [HO]; · iexact HO
    isplitl [Ht1]; · iexact Ht1
    isplitr; · iexact Hr1
    isplitl [Ht2]; · iexact Ht2
    iexact Hr2
  iexact Hk

/-- The wait on `c`'s send cell of copy `i`: that cell's payload. -/
theorem wp_sendwait (i : Fin 18) {sp' sp'' : Space} {s' s'' : Shape} {e' e'' : EltTy} {src : Memref sig .tc sp' s' e'} {κ' : Idealize.ShloMosaic.Kind}
    {dst : Memref sig κ' sp'' s'' e''} (hd : dst.view.dmaCredit = Ncr i) {hsrc : src.view.WordExact} {hdst : dst.view.WordExact}
    {k : PUnit → Prog (TpuEff nD τ sig (Elt F) Λ₀ .tc) α} {κ : ℕ} {O : CellTallies nD τ sig Unit} {W : Waits sig Unit} :
    iprop(cellInv ER (rd P) κ (sendCell i c) ∗ cred (tallyAt (sendCell i c) () (Ncr i)) ∗ owes (c : Thread nD τ) O W
        ∗ MayWait (c : Thread nD τ) (.dma (sendS i)) () O ∗ atPos ER (sendCell i c) 0 ∅ 0)
      ⊢ iprop(((owes (c : Thread nD τ) O (insert (SemLoc.dma (sendS i), ()) W) ∗ atPos ER (sendCell i c) 1 ∅ 0 ∗ reached ER (sendCell i c) 1
              ∗ sendPay P i c)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (sendS i) src dst hsrc hdst) k) Q) := by
  rw [← hd]
  iintro ⟨#HI, Hc, HO, #Hmw, Hat⟩ Hk
  iapply (Rounds.wp_wait_rest_token 𝒱₀ ER (rd P) (c : Thread nD τ) none (κ := κ) (k' := dst.view.dmaCredit)
      (wpE_waitDma2_eq 𝒱₀ (c : Thread nD τ) none Set.univ) (Set.mem_univ _) () (O := O) (W := W) (R := 0) (m := 0) (T := ∅)
      (by rw [Nat.zero_add, hd, expect_send])) $$ [Hc HO Hat]
  · isplitr; · iexact HI
    isplitl [Hc]; · iexact Hc
    isplitl [HO]; · iexact HO
    isplitr; · iexact Hmw
    iexact Hat
  iintro ⟨HO, Hat, Hr, Hpay⟩
  iapply Hk
  ihave Hp := (Entails.of_eq (rest_send P c i)) $$ Hpay
  isplitl [HO]; · iexact HO
  isplitl [Hat]; · iexact Hat
  isplitl [Hr]; · iexact Hr
  iexact Hp

/-- The wait on `c`'s receive cell of copy `i`: what the partner's copy landed. -/
theorem wp_recvwait (i : Fin 18) {sp' sp'' : Space} {s' s'' : Shape} {e' e'' : EltTy} {src : Memref sig .tc sp' s' e'} {κ' : Idealize.ShloMosaic.Kind}
    {dst : Memref sig κ' sp'' s'' e''} (hd : dst.view.dmaCredit = Ncr i) {hsrc : src.view.WordExact} {hdst : dst.view.WordExact}
    {k : PUnit → Prog (TpuEff nD τ sig (Elt F) Λ₀ .tc) α} {κ : ℕ} {O : CellTallies nD τ sig Unit} {W : Waits sig Unit} :
    iprop(cellInv ER (rd P) κ (recvCell i c) ∗ cred (tallyAt (recvCell i c) () (Ncr i)) ∗ owes (c : Thread nD τ) O W
        ∗ MayWait (c : Thread nD τ) (.dma (recvS i)) () O ∗ atPos ER (recvCell i c) 0 ∅ 0)
      ⊢ iprop(((owes (c : Thread nD τ) O (insert (SemLoc.dma (recvS i), ()) W) ∗ atPos ER (recvCell i c) 1 ∅ 0 ∗ reached ER (recvCell i c) 1
              ∗ recvPay P i c)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (recvS i) src dst hsrc hdst) k) Q) := by
  rw [← hd]
  iintro ⟨#HI, Hc, HO, #Hmw, Hat⟩ Hk
  iapply (Rounds.wp_wait_rest_token 𝒱₀ ER (rd P) (c : Thread nD τ) none (κ := κ) (k' := dst.view.dmaCredit)
      (wpE_waitDma2_eq 𝒱₀ (c : Thread nD τ) none Set.univ) (Set.mem_univ _) () (O := O) (W := W) (R := 0) (m := 0) (T := ∅)
      (by rw [Nat.zero_add, hd, expect_recv])) $$ [Hc HO Hat]
  · isplitr; · iexact HI
    isplitl [Hc]; · iexact Hc
    isplitl [HO]; · iexact HO
    isplitr; · iexact Hmw
    iexact Hat
  iintro ⟨HO, Hat, Hr, Hpay⟩
  iapply Hk
  ihave Hp := (Entails.of_eq (rest_recv P c i)) $$ Hpay
  isplitl [HO]; · iexact HO
  isplitl [Hat]; · iexact Hat
  isplitl [Hr]; · iexact Hr
  iexact Hp

end Steps

end Cert.KernelIdeal.Coll

end
-- ==== Proof.KernelIdeal.LaunchCredit.lean ====
/-
  The credit the launch deals each device, and the levels of what a device owes at launch.

  At launch device `d` owes one handshake unit to each of its three partners and, for each of its eighteen copies, the
  copy's landing to the copy's partner. Each pairing is an involution of the devices, so read at a cell of device `c` the
  devices' dues sum to: three units at `c`'s handshake cell (one from each partner), the copy's credit at `c`'s receive
  cell of copy `i` (from `c`'s partner across the copy's pairing, and from nobody else), nothing anywhere else. These are
  the credit tokens device `c` waits with.

  Everything owed at launch sits on a handshake cell (level 1) or a receive cell (level ≥ 2): above the staging cells
  (level 0), so the pipeline's own waits are allowed from the first point on.
-/
import proofs.«900423_g7700000000000424_dist_attn_self_mha_htp_b1_sq512_skv512_d1024_hq8_dh128_v7x_i8_f32_1_alg».proof.Proof.KernelIdeal.Steps

noncomputable section

namespace Cert.KernelIdeal.Coll

open Cert.KernelIdeal Cert.KernelIdeal.Gen Cert.KernelIdeal.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Cells apart -/

omit [FloatOps F] in
theorem bar_eq_iff {a b : Dev nD} : Iff (barCell a = barCell b) (a = b) :=
  ⟨fun h => congrArg (fun g : GSem nD τ sig => g.1.1) h, fun h => h ▸ rfl⟩

omit [FloatOps F] in
theorem recv_eq_iff {i j : Fin 18} {a b : Dev nD} : Iff (recvCell i a = recvCell j b) (i = j ∧ a = b) :=
  ⟨fun h => ⟨by
      have h2 : (SemLoc.dma (recvS i) : SemLoc sig) = .dma (recvS j) := congrArg Prod.snd h
      have h3 : 24 + i.val = 24 + j.val := congrArg Fin.val (SemLoc.dma.inj h2)
      exact Fin.ext (by omega),
    congrArg (fun g : GSem nD τ sig => g.1.1) h⟩, fun ⟨h1, h2⟩ => by subst h1; subst h2; rfl⟩

omit [FloatOps F] in
theorem recv_ne_bar (i : Fin 18) (a b : Dev nD) : recvCell i a ≠ barCell b := fun h => by
  have h2 : (SemLoc.dma (recvS i) : SemLoc sig) = .reg barS := congrArg Prod.snd h
  cases h2

omit [FloatOps F] in
theorem recvS_injective : Function.Injective (fun i : Fin 18 => (SemLoc.dma (recvS i) : SemLoc sig)) := fun i j h => by
  have h3 : 24 + i.val = 24 + j.val := congrArg Fin.val (SemLoc.dma.inj h)
  exact Fin.ext (by omega)

/-! ## What one device owes one cell -/

omit [FloatOps F] in
/-- No landing is owed to a handshake cell. -/
theorem owedFrom_bar (n : ℕ) (d c : Dev nD) : owedFrom n d (barCell c) () = 0 := by
  by_contra h
  obtain ⟨i, -, hi⟩ := owedFrom_pos (Nat.pos_of_ne_zero h)
  exact recv_ne_bar _ _ _ hi.symm

omit [FloatOps F] in
/-- Of the landings from copy `n` on, device `d` owes `c`'s receive cell of copy `j` that copy's credit when `j` is among them
    and `d` is `c`'s partner across the copy's pairing, else nothing. -/
theorem owedFrom_recv (j : Fin 18) (d c : Dev nD) : ∀ k n : ℕ, n + k = 18 →
    owedFrom n d (recvCell j c) () = if n ≤ j.val ∧ d = partner j c then Ncr j else 0
  | 0, n, h => by
    have hn : n = 18 := by omega
    subst hn
    rw [owedFrom_18, if_neg (fun h' => by have := j.isLt; omega)]; rfl
  | k + 1, n, h => by
    have hn : n < 18 := by omega
    have e : owedFrom n d = owedFrom (n + 1) d + tallyAt (recvCell ⟨n, hn⟩ (partner ⟨n, hn⟩ d)) () (Ncr ⟨n, hn⟩) := owedFrom_succ ⟨n, hn⟩ d
    rw [e, Pi.add_apply, Finsupp.add_apply, owedFrom_recv j d c k (n + 1) (by omega), tallyAt_apply]
    by_cases hj : j = ⟨n, hn⟩
    · have hv : j.val = n := congrArg Fin.val hj
      rw [← hj]
      have h1 : ¬ (n + 1 ≤ j.val ∧ d = partner j c) := fun h' => by have := h'.1; omega
      rw [if_neg h1, Nat.zero_add]
      by_cases hd : d = partner j c
      · have h2 : recvCell j c = recvCell j (partner j d) ∧ () = () := ⟨by rw [hd, partner_partner], rfl⟩
        have h3 : n ≤ j.val ∧ d = partner j c := ⟨by omega, hd⟩
        rw [if_pos h2, if_pos h3]
      · have h2 : ¬ (recvCell j c = recvCell j (partner j d) ∧ () = ()) := fun h' => hd (by rw [(recv_eq_iff.mp h'.1).2, partner_partner])
        have h3 : ¬ (n ≤ j.val ∧ d = partner j c) := fun h' => hd h'.2
        rw [if_neg h2, if_neg h3]
    · have hv : j.val ≠ n := fun h' => hj (Fin.ext h')
      have h2 : ¬ (recvCell j c = recvCell ⟨n, hn⟩ (partner ⟨n, hn⟩ d) ∧ () = ()) := fun h' => hj (recv_eq_iff.mp h'.1).1
      rw [if_neg h2, Nat.add_zero]
      by_cases hc : n ≤ j.val ∧ d = partner j c
      · have h1 : n + 1 ≤ j.val ∧ d = partner j c := ⟨by omega, hc.2⟩
        rw [if_pos hc, if_pos h1]
      · have h1 : ¬ (n + 1 ≤ j.val ∧ d = partner j c) := fun h' => hc ⟨by omega, h'.2⟩
        rw [if_neg hc, if_neg h1]

omit [FloatOps F] in
/-- The handshake unit device `d` owes across pairing `m`, read at `c`'s handshake cell: a unit when `d` is `c`'s partner. -/
theorem tally_bar (m : Nat) (hm : ∀ c : Dev nD, peer m (peer m c) = c) (d c : Dev nD) :
    (tallyAt (barCell (peer m d)) () 1 : CellTallies nD τ sig Unit) (barCell c) () = if d = peer m c then 1 else 0 := by
  rw [tallyAt_apply]
  by_cases h : d = peer m c
  · rw [if_pos h, if_pos ⟨by rw [h, hm], rfl⟩]
  · rw [if_neg h, if_neg (fun h' => h (by rw [bar_eq_iff.mp h'.1, hm]))]

omit [FloatOps F] in
theorem owed_bar (d c : Dev nD) :
    O₀ d (barCell c) () = ((if d = peer 4 c then 1 else 0) + (if d = peer 3 c then 1 else 0)) + (if d = peer 1 c then 1 else 0) := by
  unfold O₀ O₁ O₂
  rw [Pi.add_apply, Finsupp.add_apply, Pi.add_apply, Finsupp.add_apply, Pi.add_apply, Finsupp.add_apply, owedFrom_bar, Nat.zero_add,
    tally_bar 4 peer_peer4, tally_bar 3 peer_peer3, tally_bar 1 peer_peer1]

omit [FloatOps F] in
theorem owed_recv (d : Dev nD) (j : Fin 18) (c : Dev nD) : O₀ d (recvCell j c) () = if d = partner j c then Ncr j else 0 := by
  unfold O₀ O₁ O₂
  rw [Pi.add_apply, Finsupp.add_apply, Pi.add_apply, Finsupp.add_apply, Pi.add_apply, Finsupp.add_apply,
    tallyAt_ne_cell (recv_ne_bar _ _ _), tallyAt_ne_cell (recv_ne_bar _ _ _), tallyAt_ne_cell (recv_ne_bar _ _ _), Finsupp.zero_apply,
    Nat.add_zero, Nat.add_zero, Nat.add_zero, owedFrom_recv j d c 18 0 rfl]
  by_cases h : d = partner j c
  · rw [if_pos h, if_pos ⟨Nat.zero_le _, h⟩]
  · rw [if_neg h, if_neg (fun h' => h h'.2)]

/-! ## The launch credit -/

omit [FloatOps F] in
/-- A handshake cell is dealt three units: one for each partner's signal. -/
theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib, Finset.sum_add_distrib,
    Finset.sum_ite_eq' Finset.univ (peer 4 c) fun _ => 1, Finset.sum_ite_eq' Finset.univ (peer 3 c) fun _ => 1, Finset.sum_ite_eq' Finset.univ (peer 1 c) fun _ => 1,
    if_pos (Finset.mem_univ _), if_pos (Finset.mem_univ _), if_pos (Finset.mem_univ _)]

omit [FloatOps F] in
/-- The receive cell of copy `i` is dealt that copy's credit: the partner's landing. -/
theorem launch_recv (i : Fin 18) (c : Dev nD) :
    tallyOn (recvCell i c) (launchCredit (Pipeline.owing O₀) 0 (recvCell i c)) = (tallyAt (recvCell i c) () (Ncr i) : CellTallies nD τ sig Unit) := by
  unfold tallyAt; refine congrArg _ (Finsupp.ext fun u => ?_); cases u
  rw [Pipeline.launchCredit_owing, Finsupp.single_eq_same, Finset.sum_congr rfl fun d _ => owed_recv d i c,
    Finset.sum_ite_eq' Finset.univ (partner i c) fun _ => Ncr i, if_pos (Finset.mem_univ _)]

omit [FloatOps F] in
theorem creds (c : Dev nD) : (Pipeline.launchCred O₀ c : sProp 𝕄) ⊢ credits c := by
  unfold Pipeline.launchCred credits
  rw [bigSep_univ_at _ (SemLoc.reg barS), launch_bar]
  refine sep_mono_right ?_
  refine (bigSep_subset (t := Finset.univ.map ⟨fun i : Fin 18 => (SemLoc.dma (recvS i) : SemLoc sig), recvS_injective⟩) (fun sm h => ?_)).trans ?_
  · obtain ⟨i, -, rfl⟩ := Finset.mem_map.mp h
    exact Finset.mem_erase.mpr ⟨fun h => (by cases h), Finset.mem_univ _⟩
  · rw [bigSep_map]
    exact Entails.of_eq (bigSep_congr fun i _ => congrArg cred (launch_recv i c))

/-! ## The levels of what is owed at launch -/

omit [FloatOps F] in
/-- Whatever a device owes at launch is owed to a TensorCore's cell above level 0. -/
theorem O₀_lv {c : Dev nD} {g : GSem nD τ sig} {u : Unit} (h : 0 < O₀ c g u) : g.1.2 = .tc ∧ 0 < lv g u := by
  unfold O₀ O₁ O₂ at h
  have hb : ∀ n : Dev nD, 0 < (tallyAt (barCell n) () 1 : CellTallies nD τ sig Unit) g u → g.1.2 = .tc ∧ 0 < lv g u := fun n hn => by
    obtain ⟨rfl, rfl⟩ := Pipeline.tallyAt_pos hn
    exact ⟨rfl, by rw [lv_bar]; exact Nat.one_pos⟩
  rcases Pipeline.add_pos_cases h with h | h
  · rcases Pipeline.add_pos_cases h with h | h
    · rcases Pipeline.add_pos_cases h with h | h
      · obtain ⟨i, -, rfl⟩ := owedFrom_pos h
        cases u
        exact ⟨rfl, by rw [lv_recv]; omega⟩
      · exact hb _ h
    · exact hb _ h
  · exact hb _ h

omit [FloatOps F] in
/-- A wait on a cell at level 0 is below everything a device owes at launch (and allowed once it owes nothing). -/
theorem mayWait_stage (c : Dev nD) (q : DmaSem sig) (hq : lv ((c : Thread nD τ), .dma q) () = 0) (O : CellTallies nD τ sig Unit) (hO : O = O₀ c ∨ O = 0) :
    (levAts L lv : sProp 𝕄) ⊢ MayWait (c : Thread nD τ) (.dma q) () O := by
  rcases hO with rfl | rfl
  · exact MayOwe.of_cut (L := L) (lev := lv) 0 (fun p hp => by rw [Finset.mem_singleton.mp hp, L_tc]; exact Finset.mem_singleton_self _)
      (fun g u hg => by unfold L; rw [if_pos (O₀_lv hg).1]; exact Finset.mem_singleton_self _)
      (fun p hp => by rw [Finset.mem_singleton.mp hp]; exact le_of_eq hq)
      (fun g u hg => (O₀_lv hg).2)
  · rw [MayWait_zero]; iintro -; iempintro

/-- info: 'Cert.KernelIdeal.Coll.creds' depends on axioms: [propext, Classical.choice, Quot.sound] -/
#guard_msgs in #print axioms creds

/-- info: 'Cert.KernelIdeal.Coll.mayWait_stage' depends on axioms: [propext, Classical.choice, Quot.sound] -/
#guard_msgs in #print axioms mayWait_stage

end Cert.KernelIdeal.Coll

end
-- ==== Proof.KernelIdeal.LaunchGhost.lean ====
/-
  The protocol's ghost state at launch: from the launch element to every device holding what its body starts from.

  The launch element of the protocol's copy of the rounds algebra funds, for each of the 8 × 37 cells, the round state at
  counter zero, the owner's position at round 0 and the fact that round 0 is reached, and mints the duty tokens of round 0:
  a handshake cell's three, one for each send cell and one for each receive cell. With the semaphores' counters at zero —
  the thirty-six scoped ones and the barrier semaphore, which the runtime owns and no scope resets — each cell's invariant is
  allocated. Then the tokens are dealt to the devices that PAY them: handshake duty `d` of a device goes to its partner across
  pairing `d`, the landing duty of copy `i` to the partner across that copy's pairing (each pairing an involution of the
  devices, so dealing is a reindexing), a send cell's duty stays with its own device.
-/
import proofs.«900423_g7700000000000424_dist_attn_self_mha_htp_b1_sq512_skv512_d1024_hq8_dh128_v7x_i8_f32_1_alg».proof.Proof.KernelIdeal.Steps

noncomputable section

namespace Cert.KernelIdeal.Coll

open Cert.KernelIdeal Cert.KernelIdeal.Gen Cert.KernelIdeal.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

section Launch
variable (P : Dev nD → AccC F)

/-! ## The kernel's own semaphores -/

/-- They are indexed: the eighteen send cells, then the eighteen receive cells. -/
abbrev OK : Type := Fin 18 ⊕ Fin 18
abbrev osem : OK → SemLoc sig := Sum.elim (fun i => .dma (sendS i)) (fun i => .dma (recvS i))

theorem ownSemFacts : Pipeline.OwnSemFacts cfg0.spec osem := by decide +kernel

/-! ## A device's cells one by one -/

def ckOf : OK → CK := Sum.elim ckSend ckRecv
theorem ckOf_injective : Function.Injective ckOf := by decide +kernel
theorem erase_bar : (Finset.univ.erase ckBar : Finset CK) = Finset.univ.map ⟨ckOf, ckOf_injective⟩ := by decide +kernel

omit [FloatOps F] in
/-- A conjunction over a device's 37 cells: the handshake cell's, the send cells', the receive cells'. -/
theorem bigSep_CK (Φ : CK → sProp 𝕄) :
    bigSep Finset.univ Φ = iprop(Φ ckBar ∗ (bigSep Finset.univ fun i : Fin 18 => Φ (ckSend i)) ∗ bigSep Finset.univ fun i : Fin 18 => Φ (ckRecv i)) := by
  rw [bigSep_univ_at Φ ckBar, erase_bar, bigSep_map, bigSep_univ_sum]; rfl

omit [FloatOps F] in
theorem bigSep_cellsOf (c : Dev nD) (Φ : GSem nD τ sig → sProp 𝕄) :
    (bigSep Finset.univ fun k : CK => Φ (kcell (c, k)))
      = iprop(Φ (barCell c) ∗ (bigSep Finset.univ fun i : Fin 18 => Φ (sendCell i c)) ∗ bigSep Finset.univ fun i : Fin 18 => Φ (recvCell i c)) := by
  rw [bigSep_CK,
    bigSep_congr (s := Finset.univ) (Φ := fun i : Fin 18 => Φ (kcell (c, ckSend i))) (Ψ := fun i : Fin 18 => Φ (sendCell i c)) (fun i _ => congrArg Φ (kcell_send i c)),
    bigSep_congr (s := Finset.univ) (Φ := fun i : Fin 18 => Φ (kcell (c, ckRecv i))) (Ψ := fun i : Fin 18 => Φ (recvCell i c)) (fun i _ => congrArg Φ (kcell_recv i c))]
  rfl

/-! ## The launch element -/

def cells : Finset (GSem nD τ sig) := Finset.univ.map ⟨kcell, kcell_injective⟩

/-- The duties minted: (device, which) — its handshake cell's three, each send cell's one, each receive cell's one. -/
abbrev TK : Type := Fin 3 ⊕ (Fin 18 ⊕ Fin 18)
def tokSem : TK → SemLoc sig × Fin 3 :=
  Sum.elim (fun d => (.reg barS, d)) (Sum.elim (fun i => (.dma (sendS i), 0)) (fun i => (.dma (recvS i), 0)))
theorem tokSem_injective : Function.Injective tokSem := by decide +kernel
abbrev tokOf (cj : Dev nD × TK) : GSem nD τ sig × ℕ × Fin 3 := (((cj.1 : Thread nD τ), (tokSem cj.2).1), 0, (tokSem cj.2).2)
theorem tokOf_injective : Function.Injective (tokOf : Dev nD × TK → GSem nD τ sig × ℕ × Fin 3) := by
  rintro ⟨c, j⟩ ⟨c', j'⟩ h
  have h1 : c = c' := congrArg (fun x : GSem nD τ sig × ℕ × Fin 3 => x.1.1.1) h
  subst h1
  have h2 : tokSem j = tokSem j' :=
    Prod.ext (congrArg (fun x : GSem nD τ sig × ℕ × Fin 3 => x.1.2) h) (congrArg (fun x : GSem nD τ sig × ℕ × Fin 3 => x.2.2) h)
  rw [tokSem_injective h2]
def toksF : Finset (GSem nD τ sig × ℕ × Fin 3) := Finset.univ.map ⟨tokOf, tokOf_injective⟩

def u₀ : UU :=
  (initOf (Pipeline.cells cfgs cellOf_inj) (Pipeline.launchToks cfgs cellOf_inj), initOf cells toksF)

/-- The duty tokens of device `c`'s own cells. -/
def toks (c : Dev nD) : sProp 𝕄 :=
  iprop((bigSep Finset.univ fun d : Fin 3 => dutyTok ER (barCell c) 0 d)
    ∗ (bigSep Finset.univ fun i : Fin 18 => dutyTok ER (sendCell i c) 0 (0 : Fin 3))
    ∗ (bigSep Finset.univ fun i : Fin 18 => dutyTok ER (recvCell i c) 0 (0 : Fin 3)))

/-- What the launch element deals device `c`. -/
def G (c : Dev nD) : sProp 𝕄 :=
  iprop((bigSep Finset.univ fun k : CK => roundState ER (rd P) (kcell (c, k)) 0)
    ∗ (bigSep Finset.univ fun k : CK => iprop(atPos ER (kcell (c, k)) 0 ∅ 0 ∗ reached ER (kcell (c, k)) 0)) ∗ toks c)

/-- What the global step makes of it. -/
def G' (c : Dev nD) : sProp 𝕄 := iprop(∃ K, ghost P K c)

theorem fund_coll : BI.own (ER (initOf cells toksF)) ⊢ (|==> bigSep Finset.univ (G P) : sProp 𝕄) := by
  have hX (Φ : GSem nD τ sig → sProp 𝕄) : bigSep cells Φ = bigSep Finset.univ fun c : Dev nD => bigSep Finset.univ fun k : CK => Φ (kcell (c, k)) := by
    unfold cells; rw [bigSep_map, bigSep_univ_prod]; rfl
  have hT : bigSep toksF (fun x => (dutyTok ER x.1 x.2.1 x.2.2 : sProp 𝕄)) = bigSep Finset.univ fun c : Dev nD => toks c := by
    unfold toksF; rw [bigSep_map, bigSep_univ_prod]
    exact bigSep_congr fun c _ => by unfold toks; rw [bigSep_univ_sum, bigSep_univ_sum]; rfl
  iintro HX
  imod (Rounds.fund ER (rd P) cells toksF) $$ HX with ⟨Hst, Hr, Hat, Htok⟩
  imodintro
  ihave Hst' := (Entails.of_eq (hX fun g => roundState ER (rd P) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The counters at zero; the invariants allocated -/

omit [FloatOps F] in
/-- The send and receive semaphores are the kernel's own thirty-six; -/
theorem ownSems0_eq (c : Dev nD) : (Pipeline.ownSems0 (Ix := Unit) (Name := ℕ) (U := UU) (Lvl := ℕ) (Val := Elt F) (τ := τ) osem c : sProp 𝕄)
    = iprop((bigSep Finset.univ fun i : Fin 18 => semVal (sendCell i c) 0) ∗ bigSep Finset.univ fun i : Fin 18 => semVal (recvCell i c) 0) := by
  unfold Pipeline.ownSems0; rw [bigSep_univ_sum]; rfl
omit [FloatOps F] in
/-- the barrier semaphore the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide +kernel) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CK => semVal (kcell (c, k)) 0 : sProp 𝕄) := by
  rw [ownSems0_eq, unscopedSems0_eq, bigSep_cellsOf c (fun g => semVal g 0)]
  iintro ⟨⟨HS, HV⟩, HB⟩
  isplitl [HB]; · iexact HB
  isplitl [HS] <;> iassumption

theorem core_alloc (c : Dev nD) :
    iprop(Pipeline.ownSems0 (Ix := Unit) (Name := ℕ) (U := UU) (Lvl := ℕ) (Val := Elt F) (τ := τ) osem c ∗ unscopedSems0 c ∗ G P c)
      ⊢ |={Set.univ}=> iprop((bigSep Finset.univ fun k : CK => iprop(∃ κ : ℕ, cellInv ER (rd P) κ (kcell (c, k))))
          ∗ (bigSep Finset.univ fun k : CK => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : CK => semVal (kcell (c, k)) 0) ∗ bigSep Finset.univ fun k : CK => roundState ER (rd P) (kcell (c, k)) 0)
      ⊢ (|={Set.univ}=> bigSep Finset.univ fun k : CK => iprop(∃ κ : ℕ, cellInv ER (rd P) κ (kcell (c, k))) : sProp 𝕄) from by
        rw [← bigSep_sep']
        exact (bigSep_mono fun k _ => (Rounds.body_intro ER (rd P) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## The tokens dealt to their payers -/

theorem peer_peer_bar : ∀ (d : Fin 3) (c : Dev nD), peer (barMask d) (peer (barMask d) c) = c := by decide
/-- The pairing of handshake duty `d`, and of copy `i`, as permutations of the devices. -/
abbrev barE (d : Fin 3) : Dev nD ≃ Dev nD := ⟨peer (barMask d), peer (barMask d), peer_peer_bar d, peer_peer_bar d⟩
abbrev partE (i : Fin 18) : Dev nD ≃ Dev nD := ⟨partner i, partner i, partner_partner i, partner_partner i⟩

omit [FloatOps F] in
/-- Tokens indexed by (device, `j`) may be handed, for each `j`, along a permutation of the devices. -/
theorem deal {J : Type} [Fintype J] (e : J → Dev nD ≃ Dev nD) (T : Dev nD → J → sProp 𝕄) :
    (bigSep Finset.univ fun c : Dev nD => bigSep Finset.univ fun j : J => T c j)
      = bigSep Finset.univ fun c : Dev nD => bigSep Finset.univ fun j : J => T (e j c) j := by
  rw [bigSep_univ_comm T, bigSep_univ_comm (fun c j => T (e j c) j)]
  exact bigSep_congr fun j _ => bigSep_univ_equiv (e j) (fun c => T c j)

omit [FloatOps F] in
theorem toks_around : (bigSep Finset.univ fun c : Dev nD => (toks c : sProp 𝕄)) ⊢ bigSep Finset.univ fun c : Dev nD => payToks c := by
  unfold toks payToks
  rw [bigSep_sep', bigSep_sep', bigSep_sep', bigSep_sep',
    deal barE (fun c d => (dutyTok ER (barCell c) 0 d : sProp 𝕄)),
    deal partE (fun c i => (dutyTok ER (recvCell i c) 0 (0 : Fin 3) : sProp 𝕄))]
  iintro ⟨H1, H2, H3⟩
  isplitl [H1]; · iexact H1
  isplitl [H3]; · iexact H3
  iexact H2

theorem ghost_intro (K : Dev nD × CK → ℕ) (c : Dev nD) : iprop(records P K ∗ linear c) ⊢ G' P c := by
  unfold G' ghost
  iintro H
  iexists K
  iexact H

theorem regroup :
    (bigSep Finset.univ fun c : Dev nD => iprop((bigSep Finset.univ fun k : CK => iprop(∃ κ : ℕ, cellInv ER (rd P) κ (kcell (c, k))))
          ∗ (bigSep Finset.univ fun k : CK => iprop(atPos ER (kcell (c, k)) 0 ∅ 0 ∗ reached ER (kcell (c, k)) 0)) ∗ toks c) : sProp 𝕄)
      ⊢ bigSep Finset.univ (G' P) := by
  rw [bigSep_sep', bigSep_sep', ← bigSep_univ_prod (fun ck : Dev nD × CK => iprop(∃ κ : ℕ, cellInv ER (rd P) κ (kcell ck))),
    bigSep_congr (s := Finset.univ) (fun (c : Dev nD) _ => bigSep_sep' Finset.univ (fun k : CK => (atPos ER (kcell (c, k)) 0 ∅ 0 : sProp 𝕄)) (fun k => reached ER (kcell (c, k)) 0)),
    bigSep_sep', ← bigSep_univ_prod (fun ck : Dev nD × CK => (reached ER (kcell ck) 0 : sProp 𝕄))]
  iintro ⟨HI, ⟨Hat, #HR⟩, Htok⟩
  ihave HK := (BI.bigSep_exists_pi Finset.univ (fun (ck : Dev nD × CK) (κ : ℕ) => (cellInv ER (rd P) κ (kcell ck) : sProp 𝕄))) $$ HI
  icases HK with ⟨%K, #HI⟩
  ihave Htk := (toks_around (F := F)) $$ Htok
  iapply (bigSep_with_persistent (R := records P K) fun c _ => ghost_intro P K c)
  isplitr
  · unfold records; isplitl; · iexact HI
    iexact HR
  · iapply ((Entails.of_eq (bigSep_sep' Finset.univ (fun c : Dev nD => bigSep Finset.univ fun k : CK => (atPos ER (kcell (c, k)) 0 ∅ 0 : sProp 𝕄)) payToks).symm).trans
      (bigSep_mono fun c _ => show _ ⊢ linear c from by unfold linear; exact .rfl))
    isplitl [Hat]; · iexact Hat
    iexact Htk

/-- The global step: the own and the unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G P c) : sProp 𝕄)
    ⊢ |={Set.univ}=> bigSep Finset.univ (G' P) :=
  ((bigSep_mono fun c _ => core_alloc P c).trans (bigSep_fupd _ _)).trans (BI.fupd_mono (regroup P))

/-- info: 'Cert.KernelIdeal.Coll.glob' depends on axioms: [propext, Classical.choice, Quot.sound] -/
#guard_msgs in #print axioms glob

/-- info: 'Cert.KernelIdeal.Coll.fund_coll' depends on axioms: [propext, Classical.choice, Quot.sound] -/
#guard_msgs in #print axioms fund_coll

end Launch

end Cert.KernelIdeal.Coll

end
-- ==== Proof.KernelIdeal.Launch.lean ====
/-
  The launch: from the body's obligation on every device to the run of the whole program on the eight devices, and the
  final arrays.

  Given that one device's body, started from its share of the ghost state, its launch credit and its scratch buffers, runs to
  the scratch buffers whole again and its thirty-six cells closed, every fair execution of @main on the eight devices
  terminates and every final state has each array at the contents the proof data computes: the five argument arrays as they
  were (no window writes them back) and the result array at the one block the body leaves, the accumulator after the three
  all-gather phases, widened.
-/
import proofs.«900423_g7700000000000424_dist_attn_self_mha_htp_b1_sq512_skv512_d1024_hq8_dh128_v7x_i8_f32_1_alg».proof.Proof.KernelIdeal.LaunchCredit
import proofs.«900423_g7700000000000424_dist_attn_self_mha_htp_b1_sq512_skv512_d1024_hq8_dh128_v7x_i8_f32_1_alg».proof.Proof.KernelIdeal.LaunchGhost

noncomputable section

namespace Cert.KernelIdeal.Coll

open Cert.KernelIdeal Cert.KernelIdeal.Gen Cert.KernelIdeal.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

section Run
variable (m : Mem F) (ρ : Dev nD → PrngReg) (P : Dev nD → AccC F)

/-! ## The theorem's side conditions -/

theorem share_eq (c : Dev nD) (w : Fin cfg0.W) : (dats m ρ P 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' P c)
      ⊢ |={Set.univ}=> iprop(start P c ∗ emp) := by
  iintro ⟨-, Hlev, Hcr, -, HG⟩
  ihave Hc := (creds (F := F) c) $$ Hcr
  imodintro
  unfold start G'
  isplitl
  · isplitl [HG]; · iexact HG
    isplitl [Hc]; · iexact Hc
    iexact Hlev
  · iempintro

theorem phi0_intro (c : Dev nD) :
    iprop(start P c ∗ Pipeline.prefHeld Pipeline.Prefetch.none c (fun _ => fullShare.right) (fun k => k.elim0) ∗ Pipeline.scopedRest cfg0.spec c)
      ⊢ (dats m ρ P 0 c).Φ 0 := by
  rw [show (dats m ρ P 0 c).Φ 0 = Φ₀ P c from rfl, scopedRest0_eq]
  unfold Φ₀ scratch
  iintro ⟨Hs, -, Hr⟩
  isplitl [Hs]; · iexact Hs
  iexact Hr

theorem phi1_exit (c : Dev nD) :
    (dats m ρ P 0 c).Φ (Fin.last cfg0.N) ⊢ iprop(emp ∗ Pipeline.ownSems0 osem c ∗ Pipeline.scopedRest cfg0.spec c) := by
  rw [show (dats m ρ P 0 c).Φ (Fin.last cfg0.N) = Φ₁ c from rfl, scopedRest0_eq, ownSems0_eq]
  unfold Φ₁ scratch
  rw [bigSep_sep']
  iintro ⟨Hr, HzS, HzV⟩
  isplitr; · iempintro
  isplitl [HzS HzV]
  · isplitl [HzS] <;> iassumption
  iexact Hr

theorem waits (c : Dev nD) : (levAts L lv : sProp 𝕄) ⊢ Pipeline.cellsWaits cfgs (dats m ρ P) () 0 c :=
  Pipeline.cellsWaits_intro cfgs (dats m ρ P) () 0 c fun w s t =>
    mayWait_stage c _ (by fin_cases w <;> fin_cases s <;> rfl) _ (by
      rcases t with ⟨_ | _, ht⟩
      · exact Or.inl rfl
      · exact Or.inr rfl)

/-! ## The run -/

/-- Every device's arrays at what the proof data computes. -/
def QC : PUnit × MemSt nD τ sig (Elt F) → Prop := fun r =>
  ∀ c : Dev nD, ∀ w : Fin cfg0.W, r.2.mem ((cfg0.win w).arr.view.loc (c : Thread nD τ)) = (dats m ρ P 0 c).arrAt w cfg0.N

set_option maxRecDepth 8000 in
/-- At the compiled mesh of eight devices, for any float values, from any memory with zero counters: if one device's body
    meets its obligation, every weakly fair execution of @main — the eight kernels handshaking on the runtime's barrier
    semaphore, then exchanging their eighteen copies each — terminates, and every final state has each device's arrays at the
    computed contents. -/
theorem run_main (hbody : ∀ c : Dev nD, BodyObligation (dats (F := F) m ρ P 0 c) (defs₀ (F := F)) 𝒱₀ () Set.univ) :
    θ_run defs (onTc (τ := τ) (main (F := F))) (s₀ m ρ) (QC m ρ P) :=
  Pipeline.θ_run_region_owing_glob_pf (fun p => (cfgs p).toPCfg) (fun p => (cfgs p).toPCfg_adm) (dats m ρ P) () cellOf_inj (0 : Fin 1)
    winFacts0.to₀ ownSemFacts (Pipeline.PreFacts.none _) EP defs₀ 𝒱₀ m ρ main
    (hmain := fun _ => rfl)
    (hbody := fun c => (hbody c).loose) (hne := block_pos0) (harr := arr_whole0) (hstage := stage_whole0) (hshare := share_eq m ρ P)
    (hdistinct := winFacts0.arr_inj)
    (O₀ := O₀) (howed₀ := fun _ => rfl) (howedN := fun _ => rfl)
    (L := L) (lv := lv) (hL := L_of_ne) (hwaits := waits m ρ P)
    (G := G P) (G' := G' P) (u₀ := u₀)
    (hu₀ := by
      unfold u₀
      iintro Hu
      ihave H := (ownU_pair _ _) $$ Hu
      icases H with ⟨HP, HX⟩
      imod (fund_coll P) $$ HX with HG
      imodintro
      isplitl [HP] <;> iassumption)
    (hglob := glob P)
    (hA := fun _ _ => rfl) (hpf := fun _ k => k.elim0)
    (X := start P) (Y := fun _ => iprop(emp)) (Z := fun _ => iprop(emp))
    (hX := start_intro m ρ P) (hin := phi0_intro m ρ P) (hout := phi1_exit m ρ P)
    (QY := fun _ _ => True)
    (hY := fun c s' => by
      iintro ⟨-, -, HSI⟩
      imodintro
      isplitr; · ipureintro; trivial
      iexact HSI)
    (hQ := fun _ h c w => (h c).1 w)

/-- info: 'Cert.KernelIdeal.Coll.run_main' depends on axioms: [propext, Classical.choice, Quot.sound] -/
#guard_msgs in #print axioms run_main

/-! ## The final arrays -/

/-- An argument array after the run holds what it held: no window writes it back. -/
theorem final_in (c : Dev nD) (w : Fin cfg0.W) (hw : (cfg0.win w).isOut = false) :
    (dats m ρ P 0 c).arrAt w cfg0.N = m ((cfg0.win w).arr.view.loc (c : Thread nD τ)) :=
  (dats (F := F) m ρ P 0 c).arrAt_in w hw _

omit [FloatOps F] in
/-- The result window's one block starts at the array's origin: it is the whole array. -/
theorem out_origin : (fun a => (cfg0.win (5 : Fin 6)).index t0_0 a * (cfg0.win (5 : Fin 6)).size a) = fun _ => 0 :=
  funext fun a => Nat.zero_mul _

/-- The result array after the run: written back once, at the one point, whole — what the body leaves in its staging
    buffer. -/
theorem final_out (c : Dev nD) : (dats m ρ P 0 c).arrAt (5 : Fin 6) cfg0.N = outAt P c := by
  have h : (dats m ρ P 0 c).arrAt (5 : Fin 6) cfg0.N
      = ((cfg0.win (5 : Fin 6)).blk t0_0).view.write (Elt F) ((dats m ρ P 0 c).arrAt (5 : Fin 6) t0_0.val) ((dats m ρ P 0 c).flushed (5 : Fin 6) t0_0) Finset.univ :=
    ((dats (F := F) m ρ P 0 c).arrAt_succ (5 : Fin 6) t0_0).trans (by rw [flush0_5 t0_0, if_pos rfl])
  rw [h]
  exact Memref.write_access_unit_zero_univ (Elt F) main_v1 out_origin _ _ _

/-- The run with the strongest post: on every device the result array is the accumulator after the three all-gather phases,
    widened, and the five argument arrays are unchanged. (Windows 0 to 4 stage arguments 0, 1, 3, 4, 2.) -/
theorem run_frame (hbody : ∀ c : Dev nD, BodyObligation (dats (F := F) m ρ P 0 c) (defs₀ (F := F)) 𝒱₀ () Set.univ) :
    θ_run defs (onTc (τ := τ) (main (F := F))) ⟨m, fun _ => 0, ρ⟩ (fun r => ∀ c : Dev nD,
      r.2.mem ((c.tc : Thread nD τ).loc main_v1) = outAt P c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h c 5).trans (final_out m ρ P c),
      (h c 0).trans (final_in m ρ P c 0 rfl),
      (h c 1).trans (final_in m ρ P c 1 rfl),
      (h c 4).trans (final_in m ρ P c 4 rfl),
      (h c 2).trans (final_in m ρ P c 2 rfl),
      (h c 3).trans (final_in m ρ P c 3 rfl)⟩) (run_main m ρ P hbody)

/-- info: 'Cert.KernelIdeal.Coll.run_frame' depends on axioms: [propext, Classical.choice, Quot.sound] -/
#guard_msgs in #print axioms run_frame

end Run

end Cert.KernelIdeal.Coll

end
-- ==== Proof.KernelIdeal.Partial.lean ====
/-
  What a device stores into its accumulator before the all-reduce: its own product, as the kernel's body composes it.

  The body loads the input rows and the device's four weight blocks, computes the scaled query projection, the key and
  the value projections, the eight heads' normalised outputs side by side, and multiplies three row ranges of that (rows
  0–255, 256–383, 384–511) by the device's block of the output projection, storing each product into the same rows of the
  accumulator. The terms below are the stored values exactly as the body's arithmetic composes them from the five loaded
  values; `Pof` is the accumulator's contents after the three stores.
-/
import proofs.«900423_g7700000000000424_dist_attn_self_mha_htp_b1_sq512_skv512_d1024_hq8_dh128_v7x_i8_f32_1_alg».proof.Proof.KernelIdeal.Schedule
import proofs.«900423_g7700000000000424_dist_attn_self_mha_htp_b1_sq512_skv512_d1024_hq8_dh128_v7x_i8_f32_1_alg».proof.Proof.Gen.KernelIdeal.Skeleton
import Idealize.ShloMosaic.Lib.ValueIdx

noncomputable section

namespace Cert.KernelIdeal.Coll

open Cert.KernelIdeal Cert.KernelIdeal.Gen Idealize.ShloMosaic

variable {F : FTy → Type} [FloatOps F]

section
variable (x : Vec F S1x512x1024 .f32) (wq wk wv wo : Vec F S1024x1024 .f32)

/-- The scaled query projection, -/
def qOf : FVec F S512x1024 .f32 := k0_pay3 x wq
/-- the key projection, -/
def kOf : FVec F S512x1024 .f32 := k0_pay4 x wk
/-- the value projection. -/
def vOf : FVec F S512x1024 .f32 := k0_pay5 (k0_pay2 x) wv

/-- The eight heads' normalised outputs side by side. -/
def attnOf : FVec F S512x1024 .bf16 :=
  k0_pay18 (qOf x wq) (kOf x wk) (vOf x wv)
    (k0_pay6 (k0_pay2 x) (qOf x wq) (kOf x wk) wv) (k0_pay7 (k0_pay2 x) (qOf x wq) (kOf x wk) wv)
    (k0_pay12 (k0_pay8 (k0_pay2 x) wv) (k0_pay9 (qOf x wq) (kOf x wk)) (k0_pay10 (qOf x wq) (kOf x wk)) k0_pay11)
    (k0_pay13 (qOf x wq) (kOf x wk) (vOf x wv)) (k0_pay14 (qOf x wq) (kOf x wk) (vOf x wv)) (k0_pay15 (vOf x wv)) (k0_pay16 (qOf x wq) (kOf x wk)) (k0_pay17 (qOf x wq) (kOf x wk))

/-- What the first store writes: rows 0–255 of the heads' outputs times the output projection's block. -/
def stored0 : FVec F S256x1024 .bf16 :=
  k0_pay21 (k0_pay19 wo) (k0_pay20 (qOf x wq) (kOf x wk) (vOf x wv)
    (k0_pay6 (k0_pay2 x) (qOf x wq) (kOf x wk) wv) (k0_pay7 (k0_pay2 x) (qOf x wq) (kOf x wk) wv)
    (k0_pay12 (k0_pay8 (k0_pay2 x) wv) (k0_pay9 (qOf x wq) (kOf x wk)) (k0_pay10 (qOf x wq) (kOf x wk)) k0_pay11)
    (k0_pay13 (qOf x wq) (kOf x wk) (vOf x wv)) (k0_pay14 (qOf x wq) (kOf x wk) (vOf x wv)) (k0_pay15 (vOf x wv)) (k0_pay16 (qOf x wq) (kOf x wk)) (k0_pay17 (qOf x wq) (kOf x wk))) (constant S256x1024 .f32 0x00000000#32)
/-- What the second store writes: rows 256–383. -/
def stored1 : FVec F S128x1024 .bf16 := k0_pay22 (attnOf x wq wk wv) (k0_pay19 wo)
/-- What the third store writes: rows 384–511. -/
def stored2 : FVec F S128x1024 .bf16 := k0_pay23 (attnOf x wq wk wv) (k0_pay19 wo)

/-- The accumulator after the three stores: each row range holds its store's value. -/
def Pof : AccC F := fun j =>
  have h512 : (j 0).val < 512 := (j 0).isLt
  have h1024 : (j 1).val < 1024 := (j 1).isLt
  if h : (j 0).val < 256 then stored0 x wq wk wv wo (ValueIdx.ix2 (⟨(j 0).val, h⟩ : Fin 256) (⟨(j 1).val, h1024⟩ : Fin 1024))
  else if h' : (j 0).val < 384 then
    stored1 x wq wk wv wo (ValueIdx.ix2 (⟨(j 0).val - 256, by omega⟩ : Fin 128) (⟨(j 1).val, h1024⟩ : Fin 1024))
  else stored2 x wq wk wv wo (ValueIdx.ix2 (⟨(j 0).val - 384, by omega⟩ : Fin 128) (⟨(j 1).val, h1024⟩ : Fin 1024))

end

end Cert.KernelIdeal.Coll

end
-- ==== Proof.KernelIdeal.PartialAt.lean ====
/-
  A device's own product from the memory at launch.

  The body's five inputs are the staged blocks of the five argument arrays; each window's one block is its whole array, so a
  staged block is the array's contents as launched. `Pc m c` is device `c`'s product — what its three stores put in its
  accumulator — composed from those.
-/
import proofs.«900423_g7700000000000424_dist_attn_self_mha_htp_b1_sq512_skv512_d1024_hq8_dh128_v7x_i8_f32_1_alg».proof.Proof.KernelIdeal.Partial
import proofs.«900423_g7700000000000424_dist_attn_self_mha_htp_b1_sq512_skv512_d1024_hq8_dh128_v7x_i8_f32_1_alg».proof.Proof.Gen.KernelIdeal.Frame

noncomputable section

namespace Cert.KernelIdeal.Coll

open Cert.KernelIdeal Cert.KernelIdeal.Gen Idealize.ShloMosaic
open Idealize.ShloMosaic.TcCoe

variable {F : FTy → Type} [FloatOps F]

/-- Device `c`'s product: `Pof` of its input rows and its four weight blocks as launched (windows 0 to 4 stage the input, the
    query, key and value projections' blocks and the output projection's block). -/
def Pc (m : Mem F) (c : Dev nD) : AccC F :=
  Pof (iblk m c (0 : Fin 6) t0_0 : Vec F S1x512x1024 .f32) (iblk m c (1 : Fin 6) t0_0 : Vec F S1024x1024 .f32)
    (iblk m c (2 : Fin 6) t0_0 : Vec F S1024x1024 .f32) (iblk m c (3 : Fin 6) t0_0 : Vec F S1024x1024 .f32)
    (iblk m c (4 : Fin 6) t0_0 : Vec F S1024x1024 .f32)

omit [FloatOps F] in
/-- Every window's one block starts at its array's origin. -/
theorem blk_origin (w : Fin 6) : (fun a => (cfg0.win w).index t0_0 a * (cfg0.win w).size a) = fun _ => 0 := by
  fin_cases w <;> exact funext fun a => Nat.zero_mul _

/-! ## Each staged block is its array -/

theorem iblk0_eq (m : Mem F) (c : Dev nD) : iblk m c (0 : Fin 6) t0_0 = m ((c : Thread nD τ).loc main_arg0) :=
  Memref.read_access_unit_zero (Elt F) main_arg0 (blk_origin 0) _ _
theorem iblk1_eq (m : Mem F) (c : Dev nD) : iblk m c (1 : Fin 6) t0_0 = m ((c : Thread nD τ).loc main_arg1) :=
  Memref.read_access_unit_zero (Elt F) main_arg1 (blk_origin 1) _ _
theorem iblk2_eq (m : Mem F) (c : Dev nD) : iblk m c (2 : Fin 6) t0_0 = m ((c : Thread nD τ).loc main_arg3) :=
  Memref.read_access_unit_zero (Elt F) main_arg3 (blk_origin 2) _ _
theorem iblk3_eq (m : Mem F) (c : Dev nD) : iblk m c (3 : Fin 6) t0_0 = m ((c : Thread nD τ).loc main_arg4) :=
  Memref.read_access_unit_zero (Elt F) main_arg4 (blk_origin 3) _ _
theorem iblk4_eq (m : Mem F) (c : Dev nD) : iblk m c (4 : Fin 6) t0_0 = m ((c : Thread nD τ).loc main_arg2) :=
  Memref.read_access_unit_zero (Elt F) main_arg2 (blk_origin 4) _ _

/-- The product from the arrays themselves. -/
theorem Pc_eq (m : Mem F) (c : Dev nD) :
    Pc m c = Pof (m ((c : Thread nD τ).loc main_arg0) : Vec F S1x512x1024 .f32) (m ((c : Thread nD τ).loc main_arg1) : Vec F S1024x1024 .f32)
      (m ((c : Thread nD τ).loc main_arg3) : Vec F S1024x1024 .f32) (m ((c : Thread nD τ).loc main_arg4) : Vec F S1024x1024 .f32)
      (m ((c : Thread nD τ).loc main_arg2) : Vec F S1024x1024 .f32) := by
  unfold Pc; rw [iblk0_eq, iblk1_eq, iblk2_eq, iblk3_eq, iblk4_eq]

end Cert.KernelIdeal.Coll

end
-- ==== Proof.KernelIdeal.FrameOfBody.lean ====
/-
  The frame from one device's body obligation: the run with the strongest post, the result dropped. Every fair execution of
  the eight devices terminates and leaves the five argument arrays unchanged, at any float values.
-/
import proofs.«900423_g7700000000000424_dist_attn_self_mha_htp_b1_sq512_skv512_d1024_hq8_dh128_v7x_i8_f32_1_alg».proof.Proof.KernelIdeal.Launch
import proofs.«900423_g7700000000000424_dist_attn_self_mha_htp_b1_sq512_skv512_d1024_hq8_dh128_v7x_i8_f32_1_alg».proof.Proof.KernelIdeal.PartialAt

noncomputable section

namespace Cert.KernelIdeal.Coll

open Cert.KernelIdeal Cert.KernelIdeal.Gen Cert.KernelIdeal.Mesh

open Idealize.ShloMosaic
open Idealize.ShloMosaic.TcCoe
open Idealize.SL Idealize.SL.Sem
open Idealize.ShloMosaic.Pipeline (Dat Cfg Window BodyObligation cellOf)

variable {F : FTy → Type} [FloatOps F]

/-- The arguments end unchanged. -/
theorem frame_of_body
    (hbody : ∀ (m : Mem F) (ρ : Dev nD → PrngReg) (c : Dev nD), BodyObligation (dats (F := F) m ρ (Pc m) 0 c) (defs₀ (F := F)) 𝒱₀ () Set.univ)
    (m : Mem F) (g : Dev nD → PrngReg) :
    θ_run defs (onTc (τ := τ) (main (F := F))) ⟨m, fun _ => 0, g⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => (h c).2) (run_frame m g (Pc m) (hbody m g))

/-- info: 'Cert.KernelIdeal.Coll.frame_of_body' depends on axioms: [propext, Classical.choice, Quot.sound] -/
#guard_msgs in #print axioms frame_of_body

end Cert.KernelIdeal.Coll

end
-- ==== Proof.KernelIdeal.AllReduce.lean ====
/-
  The all-reduce is the sum. With exact entries (the extended reals, whose addition is commutative and associative) the
  accumulator of every device, after the three reduce-scatter phases and the three all-gather phases, holds at every entry
  the sum over the eight devices of their own products' entries.

  A reduce-scatter phase adds the partner's entry across one pairing, so after three phases an entry is the sum of the
  products over the eight devices reached from the device by crossing, or not, each of the three pairings the entry's part
  uses. For every part these are the pairings 1, 3 and 4 in some order, and in the coordinates (bit 0 xor bit 1, bit 1,
  bit 2) of a device's number each flips one coordinate: the eight corners are all eight devices, whichever device one
  starts from (decided over the eight devices, for the three orders). An all-gather phase only copies: an entry after it is
  some device's entry before it, hence by induction some device's entry after the reduce-scatter — the same sum.
-/
import proofs.«900423_g7700000000000424_dist_attn_self_mha_htp_b1_sq512_skv512_d1024_hq8_dh128_v7x_i8_f32_1_alg».proof.Proof.KernelIdeal.Schedule
import Idealize.ShloMosaic.PureOps.Ideal
import Mathlib.Tactic.Abel

noncomputable section

namespace Cert.KernelIdeal.Coll

open Cert.KernelIdeal Cert.KernelIdeal.Gen Cert.KernelIdeal.Mesh Idealize.ShloMosaic

/-! ## The eight corners -/

/-- The device reached from `c` by crossing pairing `m`, or by staying. -/
def cross (m : ℕ) (b : Bool) (c : Dev nD) : Dev nD := bif b then peer m c else c

/-- The corner of the cube reached from `c`: cross `m2` or not, then `m1` or not, then `m0` or not. -/
def corner (m0 m1 m2 : ℕ) (c : Dev nD) (b : Bool × Bool × Bool) : Dev nD :=
  cross m0 b.1 (cross m1 b.2.1 (cross m2 b.2.2 c))

/-- From every device the eight corners are the eight devices, for the three orders of the pairings the parts use. -/
theorem corner_bij431 : ∀ c : Dev nD, Function.Bijective (corner 4 3 1 c) := by decide
theorem corner_bij314 : ∀ c : Dev nD, Function.Bijective (corner 3 1 4 c) := by decide
theorem corner_bij143 : ∀ c : Dev nD, Function.Bijective (corner 1 4 3 c) := by decide

/-- So the sum over the eight corners, grouped as three crossings group it, is the sum over the devices. -/
theorem sum_corners {M : Type*} [AddCommMonoid M] (f : Dev nD → M) (m0 m1 m2 : ℕ) (c : Dev nD)
    (hb : Function.Bijective (corner m0 m1 m2 c)) :
    ((f c + f (peer m0 c)) + (f (peer m1 c) + f (peer m0 (peer m1 c))))
      + ((f (peer m2 c) + f (peer m0 (peer m2 c))) + (f (peer m1 (peer m2 c)) + f (peer m0 (peer m1 (peer m2 c)))))
      = ∑ d : Dev nD, f d := by
  rw [← Function.Bijective.sum_comp hb f]
  simp only [Fintype.sum_prod_type, Fintype.sum_bool, corner, cross, cond_true, cond_false]
  abel

/-- The pairing of phase `k` on a row of part `p`. -/
theorem rsMask_of (k r : ℕ) (p : Fin 3) (h : partOfRow r = p) :
    rsMask k r = maskOf ⟨3 * (k % 3) + p.val, by
      have := p.isLt; have := Nat.mod_lt k (show 0 < 3 by decide); omega⟩ := by
  subst h; rfl

/-- The three phases' pairings on a part: 4, 3, 1 on the first, 3, 1, 4 on the second, 1, 4, 3 on the third. -/
theorem masks_of_part : ∀ p : Fin 3,
    (maskOf ⟨3 * (0 % 3) + p.val, by have := p.isLt; omega⟩ = 4 ∧ maskOf ⟨3 * (1 % 3) + p.val, by have := p.isLt; omega⟩ = 3
        ∧ maskOf ⟨3 * (2 % 3) + p.val, by have := p.isLt; omega⟩ = 1)
      ∨ (maskOf ⟨3 * (0 % 3) + p.val, by have := p.isLt; omega⟩ = 3 ∧ maskOf ⟨3 * (1 % 3) + p.val, by have := p.isLt; omega⟩ = 1
        ∧ maskOf ⟨3 * (2 % 3) + p.val, by have := p.isLt; omega⟩ = 4)
      ∨ (maskOf ⟨3 * (0 % 3) + p.val, by have := p.isLt; omega⟩ = 1 ∧ maskOf ⟨3 * (1 % 3) + p.val, by have := p.isLt; omega⟩ = 4
        ∧ maskOf ⟨3 * (2 % 3) + p.val, by have := p.isLt; omega⟩ = 3) := by
  decide

/-- … so on every row. -/
theorem rsMask_cases (r : ℕ) :
    (rsMask 0 r = 4 ∧ rsMask 1 r = 3 ∧ rsMask 2 r = 1) ∨ (rsMask 0 r = 3 ∧ rsMask 1 r = 1 ∧ rsMask 2 r = 4)
      ∨ (rsMask 0 r = 1 ∧ rsMask 1 r = 4 ∧ rsMask 2 r = 3) := by
  rw [rsMask_of 0 r _ rfl, rsMask_of 1 r _ rfl, rsMask_of 2 r _ rfl]
  exact masks_of_part (partOfRow r)

/-! ## The reduce-scatter, then the all-gather -/

section
variable (P : Dev nD → AccC Idealize.ShloMosaic.Ideal)

/-- Entry `x` of device `d`'s own product, as an extended real. -/
abbrev ent (x : S512x1024.Idx) (d : Dev nD) : EReal := P d x

/-- After the three reduce-scatter phases every device's entry is the sum of the eight products' entries. -/
theorem W3_sum (c : Dev nD) (x : S512x1024.Idx) : @Eq EReal (W P 3 c x) (∑ d : Dev nD, ent P x d) := by
  have h : @Eq EReal (W P 3 c x)
      (((ent P x c + ent P x (peer (rsMask 0 (x 0).val) c))
          + (ent P x (peer (rsMask 1 (x 0).val) c) + ent P x (peer (rsMask 0 (x 0).val) (peer (rsMask 1 (x 0).val) c))))
        + ((ent P x (peer (rsMask 2 (x 0).val) c) + ent P x (peer (rsMask 0 (x 0).val) (peer (rsMask 2 (x 0).val) c)))
          + (ent P x (peer (rsMask 1 (x 0).val) (peer (rsMask 2 (x 0).val) c))
            + ent P x (peer (rsMask 0 (x 0).val) (peer (rsMask 1 (x 0).val) (peer (rsMask 2 (x 0).val) c)))))) := rfl
  rw [h]
  rcases rsMask_cases (x 0).val with ⟨h0, h1, h2⟩ | ⟨h0, h1, h2⟩ | ⟨h0, h1, h2⟩ <;> rw [h0, h1, h2]
  · exact sum_corners (ent P x) 4 3 1 c (corner_bij431 c)
  · exact sum_corners (ent P x) 3 1 4 c (corner_bij314 c)
  · exact sum_corners (ent P x) 1 4 3 c (corner_bij143 c)

/-- An entry after any number of all-gather phases is some device's entry after the reduce-scatter. -/
theorem A_eq_W (j : ℕ) : ∀ (c : Dev nD) (x : S512x1024.Idx), ∃ c' : Dev nD, A P j c x = W P 3 c' x := by
  induction j with
  | zero => exact fun c x => ⟨c, rfl⟩
  | succ j ih =>
    intro c x
    show ∃ c' : Dev nD, (if heldAt j c (x 0).val then A P j c x
      else A P j (peer (maskOf (agCopy j (x 0).val)) c) x) = W P 3 c' x
    split
    · exact ih c x
    · exact ih _ x

/-- THE ALL-REDUCE IS THE SUM: the final accumulator of every device holds, at every entry, the sum over the devices
    of their own products' entries. -/
theorem allreduce_sum (c : Dev nD) (x : S512x1024.Idx) : @Eq EReal (A P 3 c x) (∑ d : Dev nD, ent P x d) := by
  obtain ⟨c', h⟩ := A_eq_W P 3 c x
  rw [h]
  exact W3_sum P c' x

end

/-- info: 'Cert.KernelIdeal.Coll.allreduce_sum' depends on axioms: [propext, Classical.choice, Quot.sound] -/
#guard_msgs in #print axioms allreduce_sum

end Cert.KernelIdeal.Coll

end
-- ==== Proof.KernelIdeal.PartialDots.lean ====
/-
  The kernel's five matrix products read at an entry, on the extended reals: into a zero accumulator each is the plain
  sum over the one contracted coordinate of the products of the operands' entries. The four "rows times columns" products
  contract the left operand's columns with the right operand's rows; the score product contracts columns with columns.
-/
import proofs.«900423_g7700000000000424_dist_attn_self_mha_htp_b1_sq512_skv512_d1024_hq8_dh128_v7x_i8_f32_1_alg».proof.Proof.Gen.KernelIdeal
import Idealize.ShloMosaic.PureOps.Ideal.Laws
import Idealize.ShloMosaic.Lib.ValueIdx

noncomputable section

namespace Cert.KernelIdeal.Coll

open Cert.KernelIdeal Cert.KernelIdeal.Gen Idealize.ShloMosaic Idealize.ShloMosaic.ValueIdx

theorem dotXW_lhs0 (j : S512x1024.Idx) (q : dot_S512x1024_S1024x1024_S512x1024_1_0_0_1_n_n.contr.Idx) : (dot_S512x1024_S1024x1024_S512x1024_1_0_0_1_n_n.lhsIdx j q 0).val = (j 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl
theorem dotXW_rhs1 (j : S512x1024.Idx) (q : dot_S512x1024_S1024x1024_S512x1024_1_0_0_1_n_n.contr.Idx) : (dot_S512x1024_S1024x1024_S512x1024_1_0_0_1_n_n.rhsIdx j q 1).val = (j 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl
/-- Rows times columns: entry (i, m) of the product is the sum over the 1024 inner coordinates. -/
theorem dotXW_apply (a : FVec Ideal S512x1024 .bf16) (w : FVec Ideal S1024x1024 .bf16) (i : Fin 512) (m : Fin 1024) :
    matmul dot_S512x1024_S1024x1024_S512x1024_1_0_0_1_n_n none a w (constant S512x1024 .f32 0x00000000#32) (ix2 i m) = ∑ k : Fin 1024, a (ix2 i k) * w (ix2 k m) := by
  show FloatOps.matmul dot_S512x1024_S1024x1024_S512x1024_1_0_0_1_n_n none a w (constant S512x1024 .f32 0x00000000#32) (ix2 i m) = _
  rw [Ideal.matmul_constant_zero_apply, ← Equiv.sum_comp (contrEquiv1 dot_S512x1024_S1024x1024_S512x1024_1_0_0_1_n_n 1024 rfl rfl).symm]
  refine Finset.sum_congr rfl fun k _ => ?_
  have hk := contrEquiv1_symm_val dot_S512x1024_S1024x1024_S512x1024_1_0_0_1_n_n 1024 rfl rfl k
  have el : dot_S512x1024_S1024x1024_S512x1024_1_0_0_1_n_n.lhsIdx (ix2 i m) ((contrEquiv1 dot_S512x1024_S1024x1024_S512x1024_1_0_0_1_n_n 1024 rfl rfl).symm k) = ix2 i k := funext fun a => Fin.ext (by
    match a with
    | ⟨0, _⟩ => exact dotXW_lhs0 _ _
    | ⟨1, _⟩ => exact (dot_S512x1024_S1024x1024_S512x1024_1_0_0_1_n_n.lhsIdx_val_of_single rfl _ _).trans hk)
  have er : dot_S512x1024_S1024x1024_S512x1024_1_0_0_1_n_n.rhsIdx (ix2 i m) ((contrEquiv1 dot_S512x1024_S1024x1024_S512x1024_1_0_0_1_n_n 1024 rfl rfl).symm k) = ix2 k m := funext fun a => Fin.ext (by
    match a with
    | ⟨0, _⟩ => exact (dot_S512x1024_S1024x1024_S512x1024_1_0_0_1_n_n.rhsIdx_val_of_single rfl _ _).trans hk
    | ⟨1, _⟩ => exact dotXW_rhs1 _ _)
  rw [el, er]

theorem dotPV_lhs0 (j : S512x128.Idx) (q : dot_S512x512_S512x128_S512x128_1_0_0_1_n_n.contr.Idx) : (dot_S512x512_S512x128_S512x128_1_0_0_1_n_n.lhsIdx j q 0).val = (j 0).val := by
  unfold DotDims.lhsIdx
  rw [dif_neg (show ¬(0 : Fin S512x512.rank) ∈ dot_S512x512_S512x128_S512x128_1_0_0_1_n_n.lhsBatch by decide), dif_pos (show (0 : Fin S512x512.rank) ∈ dot_S512x512_S512x128_S512x128_1_0_0_1_n_n.lhsNonContracting by decide)]
  rfl
theorem dotPV_rhs1 (j : S512x128.Idx) (q : dot_S512x512_S512x128_S512x128_1_0_0_1_n_n.contr.Idx) : (dot_S512x512_S512x128_S512x128_1_0_0_1_n_n.rhsIdx j q 1).val = (j 1).val := by
  unfold DotDims.rhsIdx
  rw [dif_neg (show ¬(1 : Fin S512x128.rank) ∈ dot_S512x512_S512x128_S512x128_1_0_0_1_n_n.rhsBatch by decide), dif_pos (show (1 : Fin S512x128.rank) ∈ dot_S512x512_S512x128_S512x128_1_0_0_1_n_n.rhsNonContracting by decide)]
  rfl
/-- Rows times columns: entry (i, m) of the product is the sum over the 512 inner coordinates. -/
theorem dotPV_apply (a : FVec Ideal S512x512 .bf16) (w : FVec Ideal S512x128 .bf16) (i : Fin 512) (m : Fin 128) :
    matmul dot_S512x512_S512x128_S512x128_1_0_0_1_n_n none a w (constant S512x128 .f32 0x00000000#32) (ix2 i m) = ∑ k : Fin 512, a (ix2 i k) * w (ix2 k m) := by
  show FloatOps.matmul dot_S512x512_S512x128_S512x128_1_0_0_1_n_n none a w (constant S512x128 .f32 0x00000000#32) (ix2 i m) = _
  rw [Ideal.matmul_constant_zero_apply, ← Equiv.sum_comp (contrEquiv1 dot_S512x512_S512x128_S512x128_1_0_0_1_n_n 512 rfl rfl).symm]
  refine Finset.sum_congr rfl fun k _ => ?_
  have hk := contrEquiv1_symm_val dot_S512x512_S512x128_S512x128_1_0_0_1_n_n 512 rfl rfl k
  have el : dot_S512x512_S512x128_S512x128_1_0_0_1_n_n.lhsIdx (ix2 i m) ((contrEquiv1 dot_S512x512_S512x128_S512x128_1_0_0_1_n_n 512 rfl rfl).symm k) = ix2 i k := funext fun a => Fin.ext (by
    match a with
    | ⟨0, _⟩ => exact dotPV_lhs0 _ _
    | ⟨1, _⟩ => exact (dot_S512x512_S512x128_S512x128_1_0_0_1_n_n.lhsIdx_val_of_single rfl _ _).trans hk)
  have er : dot_S512x512_S512x128_S512x128_1_0_0_1_n_n.rhsIdx (ix2 i m) ((contrEquiv1 dot_S512x512_S512x128_S512x128_1_0_0_1_n_n 512 rfl rfl).symm k) = ix2 k m := funext fun a => Fin.ext (by
    match a with
    | ⟨0, _⟩ => exact (dot_S512x512_S512x128_S512x128_1_0_0_1_n_n.rhsIdx_val_of_single rfl _ _).trans hk
    | ⟨1, _⟩ => exact dotPV_rhs1 _ _)
  rw [el, er]

theorem dotAO256_lhs0 (j : S256x1024.Idx) (q : dot_S256x1024_S1024x1024_S256x1024_1_0_0_1_n_n.contr.Idx) : (dot_S256x1024_S1024x1024_S256x1024_1_0_0_1_n_n.lhsIdx j q 0).val = (j 0).val := by
  unfold DotDims.lhsIdx
  rw [dif_neg (show ¬(0 : Fin S256x1024.rank) ∈ dot_S256x1024_S1024x1024_S256x1024_1_0_0_1_n_n.lhsBatch by decide), dif_pos (show (0 : Fin S256x1024.rank) ∈ dot_S256x1024_S1024x1024_S256x1024_1_0_0_1_n_n.lhsNonContracting by decide)]
  rfl
theorem dotAO256_rhs1 (j : S256x1024.Idx) (q : dot_S256x1024_S1024x1024_S256x1024_1_0_0_1_n_n.contr.Idx) : (dot_S256x1024_S1024x1024_S256x1024_1_0_0_1_n_n.rhsIdx j q 1).val = (j 1).val := by
  unfold DotDims.rhsIdx
  rw [dif_neg (show ¬(1 : Fin S1024x1024.rank) ∈ dot_S256x1024_S1024x1024_S256x1024_1_0_0_1_n_n.rhsBatch by decide), dif_pos (show (1 : Fin S1024x1024.rank) ∈ dot_S256x1024_S1024x1024_S256x1024_1_0_0_1_n_n.rhsNonContracting by decide)]
  rfl
/-- Rows times columns: entry (i, m) of the product is the sum over the 1024 inner coordinates. -/
theorem dotAO256_apply (a : FVec Ideal S256x1024 .bf16) (w : FVec Ideal S1024x1024 .bf16) (i : Fin 256) (m : Fin 1024) :
    matmul dot_S256x1024_S1024x1024_S256x1024_1_0_0_1_n_n none a w (constant S256x1024 .f32 0x00000000#32) (ix2 i m) = ∑ k : Fin 1024, a (ix2 i k) * w (ix2 k m) := by
  show FloatOps.matmul dot_S256x1024_S1024x1024_S256x1024_1_0_0_1_n_n none a w (constant S256x1024 .f32 0x00000000#32) (ix2 i m) = _
  rw [Ideal.matmul_constant_zero_apply, ← Equiv.sum_comp (contrEquiv1 dot_S256x1024_S1024x1024_S256x1024_1_0_0_1_n_n 1024 rfl rfl).symm]
  refine Finset.sum_congr rfl fun k _ => ?_
  have hk := contrEquiv1_symm_val dot_S256x1024_S1024x1024_S256x1024_1_0_0_1_n_n 1024 rfl rfl k
  have el : dot_S256x1024_S1024x1024_S256x1024_1_0_0_1_n_n.lhsIdx (ix2 i m) ((contrEquiv1 dot_S256x1024_S1024x1024_S256x1024_1_0_0_1_n_n 1024 rfl rfl).symm k) = ix2 i k := funext fun a => Fin.ext (by
    match a with
    | ⟨0, _⟩ => exact dotAO256_lhs0 _ _
    | ⟨1, _⟩ => exact (dot_S256x1024_S1024x1024_S256x1024_1_0_0_1_n_n.lhsIdx_val_of_single rfl _ _).trans hk)
  have er : dot_S256x1024_S1024x1024_S256x1024_1_0_0_1_n_n.rhsIdx (ix2 i m) ((contrEquiv1 dot_S256x1024_S1024x1024_S256x1024_1_0_0_1_n_n 1024 rfl rfl).symm k) = ix2 k m := funext fun a => Fin.ext (by
    match a with
    | ⟨0, _⟩ => exact (dot_S256x1024_S1024x1024_S256x1024_1_0_0_1_n_n.rhsIdx_val_of_single rfl _ _).trans hk
    | ⟨1, _⟩ => exact dotAO256_rhs1 _ _)
  rw [el, er]

theorem dotAO128_lhs0 (j : S128x1024.Idx) (q : dot_S128x1024_S1024x1024_S128x1024_1_0_0_1_n_n.contr.Idx) : (dot_S128x1024_S1024x1024_S128x1024_1_0_0_1_n_n.lhsIdx j q 0).val = (j 0).val := by
  unfold DotDims.lhsIdx
  rw [dif_neg (show ¬(0 : Fin S128x1024.rank) ∈ dot_S128x1024_S1024x1024_S128x1024_1_0_0_1_n_n.lhsBatch by decide), dif_pos (show (0 : Fin S128x1024.rank) ∈ dot_S128x1024_S1024x1024_S128x1024_1_0_0_1_n_n.lhsNonContracting by decide)]
  rfl
theorem dotAO128_rhs1 (j : S128x1024.Idx) (q : dot_S128x1024_S1024x1024_S128x1024_1_0_0_1_n_n.contr.Idx) : (dot_S128x1024_S1024x1024_S128x1024_1_0_0_1_n_n.rhsIdx j q 1).val = (j 1).val := by
  unfold DotDims.rhsIdx
  rw [dif_neg (show ¬(1 : Fin S1024x1024.rank) ∈ dot_S128x1024_S1024x1024_S128x1024_1_0_0_1_n_n.rhsBatch by decide), dif_pos (show (1 : Fin S1024x1024.rank) ∈ dot_S128x1024_S1024x1024_S128x1024_1_0_0_1_n_n.rhsNonContracting by decide)]
  rfl
/-- Rows times columns: entry (i, m) of the product is the sum over the 1024 inner coordinates. -/
theorem dotAO128_apply (a : FVec Ideal S128x1024 .bf16) (w : FVec Ideal S1024x1024 .bf16) (i : Fin 128) (m : Fin 1024) :
    matmul dot_S128x1024_S1024x1024_S128x1024_1_0_0_1_n_n none a w (constant S128x1024 .f32 0x00000000#32) (ix2 i m) = ∑ k : Fin 1024, a (ix2 i k) * w (ix2 k m) := by
  show FloatOps.matmul dot_S128x1024_S1024x1024_S128x1024_1_0_0_1_n_n none a w (constant S128x1024 .f32 0x00000000#32) (ix2 i m) = _
  rw [Ideal.matmul_constant_zero_apply, ← Equiv.sum_comp (contrEquiv1 dot_S128x1024_S1024x1024_S128x1024_1_0_0_1_n_n 1024 rfl rfl).symm]
  refine Finset.sum_congr rfl fun k _ => ?_
  have hk := contrEquiv1_symm_val dot_S128x1024_S1024x1024_S128x1024_1_0_0_1_n_n 1024 rfl rfl k
  have el : dot_S128x1024_S1024x1024_S128x1024_1_0_0_1_n_n.lhsIdx (ix2 i m) ((contrEquiv1 dot_S128x1024_S1024x1024_S128x1024_1_0_0_1_n_n 1024 rfl rfl).symm k) = ix2 i k := funext fun a => Fin.ext (by
    match a with
    | ⟨0, _⟩ => exact dotAO128_lhs0 _ _
    | ⟨1, _⟩ => exact (dot_S128x1024_S1024x1024_S128x1024_1_0_0_1_n_n.lhsIdx_val_of_single rfl _ _).trans hk)
  have er : dot_S128x1024_S1024x1024_S128x1024_1_0_0_1_n_n.rhsIdx (ix2 i m) ((contrEquiv1 dot_S128x1024_S1024x1024_S128x1024_1_0_0_1_n_n 1024 rfl rfl).symm k) = ix2 k m := funext fun a => Fin.ext (by
    match a with
    | ⟨0, _⟩ => exact (dot_S128x1024_S1024x1024_S128x1024_1_0_0_1_n_n.rhsIdx_val_of_single rfl _ _).trans hk
    | ⟨1, _⟩ => exact dotAO128_rhs1 _ _)
  rw [el, er]

theorem dotQK_lhs0 (j : S512x512.Idx) (q : dot_S512x128_S512x128_S512x512_1_1_0_0_n_n.contr.Idx) : (dot_S512x128_S512x128_S512x512_1_1_0_0_n_n.lhsIdx j q 0).val = (j 0).val := by
  unfold DotDims.lhsIdx
  rw [dif_neg (show ¬(0 : Fin S512x128.rank) ∈ dot_S512x128_S512x128_S512x512_1_1_0_0_n_n.lhsBatch by decide), dif_pos (show (0 : Fin S512x128.rank) ∈ dot_S512x128_S512x128_S512x512_1_1_0_0_n_n.lhsNonContracting by decide)]
  rfl
theorem dotQK_rhs0 (j : S512x512.Idx) (q : dot_S512x128_S512x128_S512x512_1_1_0_0_n_n.contr.Idx) : (dot_S512x128_S512x128_S512x512_1_1_0_0_n_n.rhsIdx j q 0).val = (j 1).val := by
  unfold DotDims.rhsIdx
  rw [dif_neg (show ¬(0 : Fin S512x128.rank) ∈ dot_S512x128_S512x128_S512x512_1_1_0_0_n_n.rhsBatch by decide), dif_pos (show (0 : Fin S512x128.rank) ∈ dot_S512x128_S512x128_S512x512_1_1_0_0_n_n.rhsNonContracting by decide)]
  rfl
/-- Rows times rows: entry (i, j) of the score product is the dot product of row i of the left and row j of the right. -/
theorem dotQK_apply (a b : FVec Ideal S512x128 .bf16) (i j : Fin 512) :
    matmul dot_S512x128_S512x128_S512x512_1_1_0_0_n_n none a b (constant S512x512 .f32 0x00000000#32) (ix2 i j) = ∑ d : Fin 128, a (ix2 i d) * b (ix2 j d) := by
  show FloatOps.matmul dot_S512x128_S512x128_S512x512_1_1_0_0_n_n none a b (constant S512x512 .f32 0x00000000#32) (ix2 i j) = _
  rw [Ideal.matmul_constant_zero_apply, ← Equiv.sum_comp (contrEquiv1 dot_S512x128_S512x128_S512x512_1_1_0_0_n_n 128 rfl rfl).symm]
  refine Finset.sum_congr rfl fun k _ => ?_
  have hk := contrEquiv1_symm_val dot_S512x128_S512x128_S512x512_1_1_0_0_n_n 128 rfl rfl k
  have el : dot_S512x128_S512x128_S512x512_1_1_0_0_n_n.lhsIdx (ix2 i j) ((contrEquiv1 dot_S512x128_S512x128_S512x512_1_1_0_0_n_n 128 rfl rfl).symm k) = ix2 i k := funext fun a => Fin.ext (by
    match a with
    | ⟨0, _⟩ => exact dotQK_lhs0 _ _
    | ⟨1, _⟩ => exact (dot_S512x128_S512x128_S512x512_1_1_0_0_n_n.lhsIdx_val_of_single rfl _ _).trans hk)
  have er : dot_S512x128_S512x128_S512x512_1_1_0_0_n_n.rhsIdx (ix2 i j) ((contrEquiv1 dot_S512x128_S512x128_S512x512_1_1_0_0_n_n 128 rfl rfl).symm k) = ix2 j k := funext fun a => Fin.ext (by
    match a with
    | ⟨0, _⟩ => exact dotQK_rhs0 _ _
    | ⟨1, _⟩ => exact (dot_S512x128_S512x128_S512x512_1_1_0_0_n_n.rhsIdx_val_of_single rfl _ _).trans hk)
  rw [el, er]

/-- info: 'Cert.KernelIdeal.Coll.dotQK_apply' depends on axioms: [propext, Classical.choice, Quot.sound] -/
#guard_msgs in #print axioms dotQK_apply

end Cert.KernelIdeal.Coll

end
-- ==== Proof.Spec.lean ====
/-
  The mathematical statement both programs are compared with: multi-head self-attention over 64 heads of width 128 on a
  sequence of 512 rows, followed by the output projection, as ONE function of the five whole argument arrays, entry by entry,
  on the extended reals.

  For a row `i` and a head `g`: the score against row `j` is the scaled query (the query entry times the literal `scale`)
  dotted with the key; the weights are the exponentials of the scores, NOT shifted by their maximum; the head's output is the
  weighted sum of the value rows times the reciprocal of the weights' sum; the result is the heads' outputs, side by side,
  times the output projection, summed FIRST over the 1024 columns one device holds (its eight heads) and then over the eight
  column groups. With every entry of the arguments a real number this is the same number as the shifted, running form of the
  softmax and as the single sum over all 8192 columns, since then each exponential is positive and real.
-/
import Idealize.ShloMosaic.PureOps.Ideal
import Mathlib.Algebra.BigOperators.Fin

noncomputable section

namespace Cert.Spec

open Idealize.ShloMosaic

/-- The scale 1/sqrt(128) as both programs spell it: the one binary32 literal. -/
def scale : EReal := Ideal.ofBits .f32 0x3DB504F3#32

/-- Column `128 g + d` of a projection: coordinate `d` of head `g`. -/
def col (g : Fin 64) (d : Fin 128) : Fin 8192 := ⟨128 * g.val + d.val, by omega⟩

/-- Head `8 c + e / 128` and coordinate `e % 128`: column `e` of the 1024 that column group `c` holds. -/
def headOf (c : Fin 8) (e : Fin 1024) : Fin 64 := ⟨8 * c.val + e.val / 128, by omega⟩
def coordOf (e : Fin 1024) : Fin 128 := ⟨e.val % 128, Nat.mod_lt _ (by decide)⟩
/-- Row `1024 c + e` of the output projection. -/
def woRow (c : Fin 8) (e : Fin 1024) : Fin 8192 := ⟨1024 * c.val + e.val, by omega⟩

section
variable (x : Fin 512 → Fin 1024 → EReal) (Wq Wk Wv : Fin 1024 → Fin 8192 → EReal) (Wo : Fin 8192 → Fin 1024 → EReal)

/-- A projection `x · W` at row `i`, column `n`. -/
def proj (W : Fin 1024 → Fin 8192 → EReal) (i : Fin 512) (n : Fin 8192) : EReal := ∑ k : Fin 1024, x i k * W k n

/-- The score of row `i` against row `j` in head `g`: the SCALED query dotted with the key. -/
def score (g : Fin 64) (i j : Fin 512) : EReal :=
  ∑ d : Fin 128, (proj x Wq i (col g d) * scale) * proj x Wk j (col g d)

/-- The unnormalised weight. -/
def weight (g : Fin 64) (i j : Fin 512) : EReal := Ideal.exp (score x Wq Wk g i j)

/-- One head's output at row `i`, coordinate `d`: the weighted sum of the values times the reciprocal of the weights' sum. -/
def head (g : Fin 64) (i : Fin 512) (d : Fin 128) : EReal :=
  (∑ j : Fin 512, weight x Wq Wk g i j * proj x Wv j (col g d)) * Ideal.div 1 (∑ j : Fin 512, weight x Wq Wk g i j)

/-- What column group `c` contributes to entry `(i, n)` of the result. -/
def contrib (c : Fin 8) (i : Fin 512) (n : Fin 1024) : EReal :=
  ∑ e : Fin 1024, head x Wq Wk Wv (headOf c e) i (coordOf e) * Wo (woRow c e) n

/-- The result at `(i, n)`. -/
def out (i : Fin 512) (n : Fin 1024) : EReal := ∑ c : Fin 8, contrib x Wq Wk Wv Wo c i n

end

end Cert.Spec

end
-- ==== Proof.KernelIdeal.PartialRead.lean ====
/-
  The device's product read entry by entry on the extended reals.

  The three projections are plain sums over the 1024 inner coordinates (the query's then scaled); the format changes
  are the identity. One head, from the three projections and its first column `o`: the scores are the dot products of
  the query's and the key's 128 columns from `o`, the weights their exponentials, and the output is the weighted sum
  of the value's columns times the reciprocal of the weights' row sum. The eight heads side by side read, at column
  `e`, head `e / 128` at its coordinate `e % 128`; and each stored row range is that array's rows times the output
  projection's block.
-/
import proofs.«900423_g7700000000000424_dist_attn_self_mha_htp_b1_sq512_skv512_d1024_hq8_dh128_v7x_i8_f32_1_alg».proof.Proof.KernelIdeal.Partial
import proofs.«900423_g7700000000000424_dist_attn_self_mha_htp_b1_sq512_skv512_d1024_hq8_dh128_v7x_i8_f32_1_alg».proof.Proof.KernelIdeal.PartialDots
import proofs.«900423_g7700000000000424_dist_attn_self_mha_htp_b1_sq512_skv512_d1024_hq8_dh128_v7x_i8_f32_1_alg».proof.Proof.Spec
import Idealize.ShloMosaic.Lib.Pipeline.Value

noncomputable section

namespace Cert.KernelIdeal.Coll

open Cert.KernelIdeal Cert.KernelIdeal.Gen Idealize.ShloMosaic Idealize.ShloMosaic.ValueIdx

/-! ## One head, as the body computes it (any float instance) -/

section Head
variable {F : FTy → Type} [FloatOps F]

/-- The weights of the head whose first column is `o`: the exponentials of the scores. -/
def weightsOf (o : ℕ) (hs : S512x1024.Slices ![0, o] S512x128) (q k : FVec F S512x1024 .f32) : FVec F S512x512 .f32 :=
  exp (matmul dot_S512x128_S512x128_S512x512_1_1_0_0_n_n none (truncf .bf16 (extractStridedSlice S512x128 ![0, o] q hs) bitsLt_bf16_f32)
    (truncf .bf16 (extractStridedSlice S512x128 ![0, o] k hs) bitsLt_bf16_f32) (constant S512x512 .f32 0x00000000#32))

/-- The reciprocal of the weights' row sums, as a column. -/
def recipOf (p : FVec F S512x512 .f32) : FVec F S512x1 .f32 :=
  divf (broadcast S512x1 (Scalar.ofBits .f32 0x3F800000#32))
    (shapeCast S512x1 (multiReduction .add [1] S512 p 0x00000000#32 reduces_S512x512_S512 (.inl rfl) rfl) shapeCasts_S512_S512x1)

/-- The head's output: the weights times the value's columns, times the reciprocal of the row sums. -/
def headOut (o : ℕ) (hs : S512x1024.Slices ![0, o] S512x128) (q k v : FVec F S512x1024 .f32) : FVec F S512x128 .bf16 :=
  truncf .bf16
    (mulf
      (matmul dot_S512x512_S512x128_S512x128_1_0_0_1_n_n none (truncf .bf16 (weightsOf o hs q k) bitsLt_bf16_f32)
        (truncf .bf16 (extractStridedSlice S512x128 ![0, o] v hs) bitsLt_bf16_f32) (constant S512x128 .f32 0x00000000#32))
      (broadcastTo S512x128 (recipOf (weightsOf o hs q k)) broadcasts_S512x1_S512x128))
    bitsLt_bf16_f32

/-- Head `h` starts at column `128 h`. -/
theorem slicesAt : ∀ h : Fin 8, S512x1024.Slices ![0, 128 * h.val] S512x128 := by decide

/-- The eight heads. -/
def headsOf (q k v : FVec F S512x1024 .f32) (h : Fin 8) : FVec F S512x128 .bf16 := headOut (128 * h.val) (slicesAt h) q k v

/-- The body's eight heads side by side ARE these eight, concatenated along the columns. -/
theorem attnOf_eq (x : Vec F S1x512x1024 .f32) (wq wk wv : Vec F S1024x1024 .f32) :
    attnOf x wq wk wv = concatenate S512x1024 1
      (List.ofFn fun h : Fin 8 => (⟨S512x128, headsOf (qOf x wq) (kOf x wk) (vOf x wv) h⟩ : (s : Shape) × (s.Idx → F .bf16)))
      concatenates_S512x128_S512x128_S512x128_S512x128_S512x128_S512x128_S512x128_S512x128_S512x1024_d1 := rfl

end Head

/-! ## Reading at an entry, on the extended reals -/

/-- The word of 1. -/
theorem one_eq : Ideal.ofBits .f32 0x3F800000#32 = (1 : EReal) := by
  simp [Ideal.ofBits, Ideal.ieee, -EReal.coe_mul]; norm_num

/-- Column `o + d` of the 1024. -/
def colAt (o : ℕ) (ho : o + 128 ≤ 1024) (d : Fin 128) : Fin 1024 := ⟨o + d.val, by have := d.isLt; omega⟩

/-- The input rows without their leading unit axis. -/
theorem pay2_apply (x : Vec Ideal S1x512x1024 .f32) (i : Fin 512) (k : Fin 1024) :
    k0_pay2 x (ix2 i k) = x (ix3 (0 : Fin 1) i k) := by
  unfold k0_pay2
  exact shapeCast_apply x shapeCasts_S1x512x1024_S512x1024 (ix2 i k) (ix3 (0 : Fin 1) i k) (by
    rewrite [Shape.rowMajor_val_three, Shape.rowMajor_val_two]
    show (0 * 512 + i.val) * 1024 + k.val = i.val * 1024 + k.val
    omega)

/-- The scaled query projection: the plain product, then the scale. -/
theorem qOf_apply (x : Vec Ideal S1x512x1024 .f32) (wq : Vec Ideal S1024x1024 .f32) (i : Fin 512) (m : Fin 1024) :
    qOf x wq (ix2 i m) = (∑ k : Fin 1024, x (ix3 (0 : Fin 1) i k) * wq (ix2 k m)) * Spec.scale := by
  unfold qOf k0_pay3
  show matmul dot_S512x1024_S1024x1024_S512x1024_1_0_0_1_n_n none (k0_pay2 x)
      (truncf .bf16 (shapeCast S1024x1024 wq shapeCasts_S1024x1024_S1024x1024) bitsLt_bf16_f32)
      (constant S512x1024 .f32 0x00000000#32) (ix2 i m) * Spec.scale = _
  rw [dotXW_apply, shapeCast_self]
  refine congrArg (· * Spec.scale) (Finset.sum_congr rfl fun k _ => ?_)
  rw [pay2_apply]
  rfl

/-- The key projection. -/
theorem kOf_apply (x : Vec Ideal S1x512x1024 .f32) (wk : Vec Ideal S1024x1024 .f32) (i : Fin 512) (m : Fin 1024) :
    kOf x wk (ix2 i m) = ∑ k : Fin 1024, x (ix3 (0 : Fin 1) i k) * wk (ix2 k m) := by
  unfold kOf k0_pay4
  show matmul dot_S512x1024_S1024x1024_S512x1024_1_0_0_1_n_n none (k0_pay2 x)
      (truncf .bf16 (shapeCast S1024x1024 wk shapeCasts_S1024x1024_S1024x1024) bitsLt_bf16_f32)
      (constant S512x1024 .f32 0x00000000#32) (ix2 i m) = _
  rw [dotXW_apply, shapeCast_self]
  refine Finset.sum_congr rfl fun k _ => ?_
  rw [pay2_apply]
  rfl

/-- The value projection. -/
theorem vOf_apply (x : Vec Ideal S1x512x1024 .f32) (wv : Vec Ideal S1024x1024 .f32) (i : Fin 512) (m : Fin 1024) :
    vOf x wv (ix2 i m) = ∑ k : Fin 1024, x (ix3 (0 : Fin 1) i k) * wv (ix2 k m) := by
  unfold vOf k0_pay5
  show matmul dot_S512x1024_S1024x1024_S512x1024_1_0_0_1_n_n none (k0_pay2 x)
      (truncf .bf16 (shapeCast S1024x1024 wv shapeCasts_S1024x1024_S1024x1024) bitsLt_bf16_f32)
      (constant S512x1024 .f32 0x00000000#32) (ix2 i m) = _
  rw [dotXW_apply, shapeCast_self]
  refine Finset.sum_congr rfl fun k _ => ?_
  rw [pay2_apply]
  rfl

/-- The 128 columns from `o` of a 1024-column array. -/
theorem slice_apply (o : ℕ) (hs : S512x1024.Slices ![0, o] S512x128) (ho : o + 128 ≤ 1024) (q : FVec Ideal S512x1024 .f32)
    (i : Fin 512) (d : Fin 128) :
    extractStridedSlice S512x128 ![0, o] q hs (ix2 i d) = q (ix2 i (colAt o ho d)) :=
  extractStridedSlice_apply ![0, o] q hs (ix2 i d) (ix2 i (colAt o ho d)) fun a => by
    match a with
    | ⟨0, _⟩ => exact (Nat.zero_add _).symm
    | ⟨1, _⟩ => rfl

/-- A weight: the exponential of the dot product of the query's and the key's columns of the head. -/
theorem weightsOf_apply (o : ℕ) (hs : S512x1024.Slices ![0, o] S512x128) (ho : o + 128 ≤ 1024) (q k : FVec Ideal S512x1024 .f32)
    (i j : Fin 512) :
    weightsOf o hs q k (ix2 i j) = Ideal.exp (∑ d : Fin 128, q (ix2 i (colAt o ho d)) * k (ix2 j (colAt o ho d))) := by
  unfold weightsOf
  show Ideal.exp (matmul dot_S512x128_S512x128_S512x512_1_1_0_0_n_n none (truncf .bf16 (extractStridedSlice S512x128 ![0, o] q hs) bitsLt_bf16_f32)
    (truncf .bf16 (extractStridedSlice S512x128 ![0, o] k hs) bitsLt_bf16_f32) (constant S512x512 .f32 0x00000000#32) (ix2 i j)) = _
  rw [dotQK_apply]
  refine congrArg Ideal.exp (Finset.sum_congr rfl fun d _ => ?_)
  show extractStridedSlice S512x128 ![0, o] q hs (ix2 i d) * extractStridedSlice S512x128 ![0, o] k hs (ix2 j d) = _
  rw [slice_apply o hs ho q i d, slice_apply o hs ho k j d]

/-- A row's sum of a 512 by 512 array. -/
theorem rowSum_apply (p : FVec Ideal S512x512 .f32) (hφ : FKind.Formats .f32)
    (hacc : (0x00000000#32 : BitVec 32) = FKind.add.neutral .f32 hφ) (i : Fin 512) :
    multiReduction .add [1] S512 p 0x00000000#32 reduces_S512x512_S512 hφ hacc (ix1 i) = ∑ j : Fin 512, p (ix2 i j) := by
  refine (Ideal.multiReduction_add_single p 0x00000000#32 reduces_S512x512_S512 hφ hacc (ix1 i)).trans ?_
  show ∑ j : Fin 512, p (reduces_S512x512_S512.lift (ix1 i) j) = _
  refine Finset.sum_congr rfl fun j _ => congrArg p ?_
  funext c; apply Fin.ext
  match c with
  | ⟨0, _⟩ => rfl
  | ⟨1, _⟩ => rfl

/-- The reciprocal column: one over the row's sum. -/
theorem recipOf_apply (p : FVec Ideal S512x512 .f32) (i : Fin 512) :
    recipOf p (ix2 i (0 : Fin 1)) = Ideal.div 1 (∑ j : Fin 512, p (ix2 i j)) := by
  unfold recipOf
  show Ideal.div (Ideal.ofBits .f32 0x3F800000#32)
    (shapeCast S512x1 (multiReduction .add [1] S512 p 0x00000000#32 reduces_S512x512_S512 (.inl rfl) rfl)
      shapeCasts_S512_S512x1 (ix2 i (0 : Fin 1))) = _
  rw [one_eq, shapeCast_apply _ shapeCasts_S512_S512x1 (ix2 i (0 : Fin 1)) (ix1 i) (by
    rewrite [Shape.rowMajor_val_one, Shape.rowMajor_val_two]
    show i.val = i.val * 1 + 0
    omega)]
  exact congrArg (Ideal.div 1) (rowSum_apply p _ _ i)

/-- One head's output at row `i`, coordinate `d`. -/
theorem headOut_apply (o : ℕ) (hs : S512x1024.Slices ![0, o] S512x128) (ho : o + 128 ≤ 1024) (q k v : FVec Ideal S512x1024 .f32)
    (i : Fin 512) (d : Fin 128) :
    headOut o hs q k v (ix2 i d)
      = (∑ j : Fin 512, Ideal.exp (∑ d' : Fin 128, q (ix2 i (colAt o ho d')) * k (ix2 j (colAt o ho d'))) * v (ix2 j (colAt o ho d)))
          * Ideal.div 1 (∑ j : Fin 512, Ideal.exp (∑ d' : Fin 128, q (ix2 i (colAt o ho d')) * k (ix2 j (colAt o ho d')))) := by
  unfold headOut
  show matmul dot_S512x512_S512x128_S512x128_1_0_0_1_n_n none (truncf .bf16 (weightsOf o hs q k) bitsLt_bf16_f32)
        (truncf .bf16 (extractStridedSlice S512x128 ![0, o] v hs) bitsLt_bf16_f32) (constant S512x128 .f32 0x00000000#32) (ix2 i d)
      * broadcastTo S512x128 (recipOf (weightsOf o hs q k)) broadcasts_S512x1_S512x128 (ix2 i d) = _
  rw [dotPV_apply, broadcastTo_apply _ broadcasts_S512x1_S512x128 (ix2 i d) (ix2 i (0 : Fin 1)) (fun a => by
    match a with
    | ⟨0, _⟩ => rfl
    | ⟨1, _⟩ => rfl), recipOf_apply]
  simp only [weightsOf_apply o hs ho]
  refine congrArg (· * _) (Finset.sum_congr rfl fun j _ => ?_)
  show weightsOf o hs q k (ix2 i j) * extractStridedSlice S512x128 ![0, o] v hs (ix2 j d) = _
  rw [weightsOf_apply o hs ho, slice_apply o hs ho v j d]

/-- The heads side by side at column `e`: head `e / 128` at coordinate `e % 128`. -/
theorem attnOf_apply (x : Vec Ideal S1x512x1024 .f32) (wq wk wv : Vec Ideal S1024x1024 .f32) (i : Fin 512) (e : Fin 1024) :
    attnOf x wq wk wv (ix2 i e)
      = headsOf (qOf x wq) (kOf x wk) (vOf x wv) ⟨e.val / 128, by have := e.isLt; omega⟩
          (ix2 i (⟨e.val % 128, Nat.mod_lt _ (by decide)⟩ : Fin 128)) := by
  rw [attnOf_eq]
  exact concatenate_ofFn_apply (1 : Fin S512x1024.rank) (headsOf (qOf x wq) (kOf x wk) (vOf x wv)) concatenates_S512x128_S512x128_S512x128_S512x128_S512x128_S512x128_S512x128_S512x128_S512x1024_d1 rfl 128 rfl
    (ix2 i e) ⟨e.val / 128, by have := e.isLt; omega⟩ rfl (ix2 i (⟨e.val % 128, Nat.mod_lt _ (by decide)⟩ : Fin 128)) rfl
    (fun b hb => by
      match b with
      | ⟨0, _⟩ => rfl
      | ⟨1, _⟩ => exact absurd rfl hb)

/-- info: 'Cert.KernelIdeal.Coll.headOut_apply' depends on axioms: [propext, Classical.choice, Quot.sound] -/
#guard_msgs in #print axioms headOut_apply

/-- info: 'Cert.KernelIdeal.Coll.attnOf_apply' depends on axioms: [propext, Classical.choice, Quot.sound] -/
#guard_msgs in #print axioms attnOf_apply

end Cert.KernelIdeal.Coll

end
-- ==== Proof.KernelIdeal.PartialValue.lean ====
/-
  The device's product IS the specification's contribution of its column group. Device `c` holds columns
  `1024 c …` of the three input projections' weights and rows `1024 c …` of the output projection's. Its eight heads are
  the specification's heads `8 c … 8 c + 7`: column `128 h + d` of the block is column `128 (8 c + h) + d` of the whole
  array. Each stored row range is those heads' outputs, side by side, times the block of the output projection — the sum
  over the group's 1024 columns the specification calls the group's contribution. Nothing but reading each operation at
  an entry is needed: the specification is stated in the kernel's own arrangement.
-/
import proofs.«900423_g7700000000000424_dist_attn_self_mha_htp_b1_sq512_skv512_d1024_hq8_dh128_v7x_i8_f32_1_alg».proof.Proof.KernelIdeal.PartialRead
import Idealize.ShloMosaic.Lib.Layout

noncomputable section

namespace Cert.KernelIdeal.Coll

open Cert.KernelIdeal Cert.KernelIdeal.Gen Idealize.ShloMosaic Idealize.ShloMosaic.ValueIdx

/-! ## The stored row ranges -/

section Stored
variable (x : Vec Ideal S1x512x1024 .f32) (wq wk wv wo : Vec Ideal S1024x1024 .f32)

/-- The output projection's block, through its format change. -/
theorem pay19_apply (e n : Fin 1024) : k0_pay19 wo (ix2 e n) = wo (ix2 e n) := by
  unfold k0_pay19
  rw [shapeCast_self]
  rfl

/-- `R` rows from row `o` of the heads' outputs. -/
theorem rows_apply {R : ℕ} (o : ℕ) (hs : S512x1024.Slices ![o, 0] ⟨2, ![R, 1024]⟩) (ho : o + R ≤ 512)
    (a : FVec Ideal S512x1024 .bf16) (r : Fin R) (e : Fin 1024) :
    extractStridedSlice ⟨2, ![R, 1024]⟩ ![o, 0] a hs (ix2 r e) = a (ix2 (⟨o + r.val, by have := r.isLt; omega⟩ : Fin 512) e) :=
  extractStridedSlice_apply ![o, 0] a hs (ix2 r e) (ix2 (⟨o + r.val, by have := r.isLt; omega⟩ : Fin 512) e) fun b => by
    match b with
    | ⟨0, _⟩ => rfl
    | ⟨1, _⟩ => exact (Nat.zero_add _).symm

/-- The first store: rows 0–255 of the heads' outputs times the block of the output projection. -/
theorem stored0_apply (r : Fin 256) (n : Fin 1024) :
    stored0 x wq wk wv wo (ix2 r n)
      = ∑ e : Fin 1024, attnOf x wq wk wv (ix2 (⟨0 + r.val, by have := r.isLt; omega⟩ : Fin 512) e) * wo (ix2 e n) := by
  unfold stored0 k0_pay21
  rw [shapeCast_self]
  show matmul dot_S256x1024_S1024x1024_S256x1024_1_0_0_1_n_n none _ _ (constant (F := Ideal) S256x1024 .f32 0x00000000#32) (ix2 r n) = _
  rw [dotAO256_apply]
  refine Finset.sum_congr rfl fun e _ => ?_
  rw [pay19_apply]
  refine congrArg (· * wo (ix2 e n)) ?_
  exact rows_apply 0 slices_S512x1024_o0_0_S256x1024 (by decide) (attnOf (F := Ideal) x wq wk wv) r e

/-- The second store: rows 256–383. -/
theorem stored1_apply (r : Fin 128) (n : Fin 1024) :
    stored1 x wq wk wv wo (ix2 r n)
      = ∑ e : Fin 1024, attnOf x wq wk wv (ix2 (⟨256 + r.val, by have := r.isLt; omega⟩ : Fin 512) e) * wo (ix2 e n) := by
  unfold stored1 k0_pay22
  rw [shapeCast_self]
  show matmul dot_S128x1024_S1024x1024_S128x1024_1_0_0_1_n_n none _ _ (constant (F := Ideal) S128x1024 .f32 0x00000000#32) (ix2 r n) = _
  rw [dotAO128_apply]
  refine Finset.sum_congr rfl fun e _ => ?_
  rw [pay19_apply]
  refine congrArg (· * wo (ix2 e n)) ?_
  exact rows_apply 256 slices_S512x1024_o256_0_S128x1024 (by decide) (attnOf (F := Ideal) x wq wk wv) r e

/-- The third store: rows 384–511. -/
theorem stored2_apply (r : Fin 128) (n : Fin 1024) :
    stored2 x wq wk wv wo (ix2 r n)
      = ∑ e : Fin 1024, attnOf x wq wk wv (ix2 (⟨384 + r.val, by have := r.isLt; omega⟩ : Fin 512) e) * wo (ix2 e n) := by
  unfold stored2 k0_pay23
  rw [shapeCast_self]
  show matmul dot_S128x1024_S1024x1024_S128x1024_1_0_0_1_n_n none _ _ (constant (F := Ideal) S128x1024 .f32 0x00000000#32) (ix2 r n) = _
  rw [dotAO128_apply]
  refine Finset.sum_congr rfl fun e _ => ?_
  rw [pay19_apply]
  refine congrArg (· * wo (ix2 e n)) ?_
  exact rows_apply 384 slices_S512x1024_o384_0_S128x1024 (by decide) (attnOf (F := Ideal) x wq wk wv) r e

/-- The accumulator after the three stores, at any entry: the heads' outputs' row times the block's column. -/
theorem Pof_apply (i : Fin 512) (n : Fin 1024) :
    @Eq EReal (Pof x wq wk wv wo (ix2 i n)) (∑ e : Fin 1024, attnOf x wq wk wv (ix2 i e) * wo (ix2 e n)) := by
  have hi := i.isLt
  show (if h : i.val < 256 then stored0 x wq wk wv wo (ix2 (⟨i.val, h⟩ : Fin 256) (⟨n.val, n.isLt⟩ : Fin 1024))
    else if h' : i.val < 384 then stored1 x wq wk wv wo (ix2 (⟨i.val - 256, by omega⟩ : Fin 128) (⟨n.val, n.isLt⟩ : Fin 1024))
    else stored2 x wq wk wv wo (ix2 (⟨i.val - 384, by omega⟩ : Fin 128) (⟨n.val, n.isLt⟩ : Fin 1024)) : EReal) = _
  split
  · next h =>
    rw [stored0_apply]
    refine Finset.sum_congr rfl fun e _ => ?_
    have e1 : (⟨0 + (⟨i.val, h⟩ : Fin 256).val, by omega⟩ : Fin 512) = i := Fin.ext (Nat.zero_add _)
    rw [e1]
  · split
    · next h h' =>
      rw [stored1_apply]
      refine Finset.sum_congr rfl fun e _ => ?_
      have e1 : (⟨256 + (⟨i.val - 256, by omega⟩ : Fin 128).val, by omega⟩ : Fin 512) = i := Fin.ext (by show 256 + (i.val - 256) = i.val; omega)
      rw [e1]
    · next h h' =>
      rw [stored2_apply]
      refine Finset.sum_congr rfl fun e _ => ?_
      have e1 : (⟨384 + (⟨i.val - 384, by omega⟩ : Fin 128).val, by omega⟩ : Fin 512) = i := Fin.ext (by show 384 + (i.val - 384) = i.val; omega)
      rw [e1]

end Stored

/-! ## The device's blocks of the whole arrays -/

section Blocks
variable (c : Dev nD) (Xg0 : (⟨3, ![1, 512, 1024]⟩ : Shape).Idx → EReal) (Xg1 Xg3 Xg4 : (⟨2, ![1024, 8192]⟩ : Shape).Idx → EReal) (Xg2 : (⟨2, ![8192, 1024]⟩ : Shape).Idx → EReal)

/-- Column `m` of device `c`'s column block is column `1024 c + m` of the whole array. -/
theorem colBlock_apply (W : (⟨2, ![1024, 8192]⟩ : Shape).Idx → EReal) (k m : Fin 1024) :
    (Layout.block ⟨2, ![1024, 1024]⟩ ⟨2, ![1024, 8192]⟩ 1 8 c W) (ix2 k m)
      = W (ix2 k (⟨c.val * 1024 + m.val, by have hc : c.val < 8 := c.isLt; have := m.isLt; omega⟩ : Fin 8192)) := by
  show W _ = W _
  refine congrArg W (funext fun a => Fin.ext ?_)
  match a with
  | ⟨0, _⟩ => rfl
  | ⟨1, _⟩ => rfl

/-- Row `e` of device `c`'s row block is row `1024 c + e` of the whole array. -/
theorem rowBlock_apply (e n : Fin 1024) :
    (Layout.block ⟨2, ![1024, 1024]⟩ ⟨2, ![8192, 1024]⟩ 0 8 c Xg2) (ix2 e n) = Xg2 (ix2 (Spec.woRow c e) n) := by
  show Xg2 _ = Xg2 _
  refine congrArg Xg2 (funext fun a => Fin.ext ?_)
  match a with
  | ⟨0, _⟩ => show c.val * 1024 + e.val = 1024 * c.val + e.val; omega
  | ⟨1, _⟩ => rfl

/-- A projection through a column block is the specification's projection at the whole array's column. -/
theorem proj_colBlock (W : (⟨2, ![1024, 8192]⟩ : Shape).Idx → EReal) (i : Fin 512) (m : Fin 1024) :
    ∑ k : Fin 1024, Xg0 (ix3 (0 : Fin 1) i k) * (Layout.block ⟨2, ![1024, 1024]⟩ ⟨2, ![1024, 8192]⟩ 1 8 c W) (ix2 k m)
      = Spec.proj (fun i k => Xg0 (ix3 (0 : Fin 1) i k)) (fun k n => W (ix2 k n)) i
          (⟨c.val * 1024 + m.val, by have hc : c.val < 8 := c.isLt; have := m.isLt; omega⟩ : Fin 8192) := by
  unfold Spec.proj
  exact Finset.sum_congr rfl fun k _ => by rw [colBlock_apply]

/-- Coordinate `d` of the block's head `e / 128` is coordinate `d` of the whole arrays' head `8 c + e / 128`. -/
theorem col_eq (e : Fin 1024) (d : Fin 128) (ho : 128 * (e.val / 128) + 128 ≤ 1024)
    (hlt : c.val * 1024 + (colAt (128 * (e.val / 128)) ho d).val < 8192) :
    (⟨c.val * 1024 + (colAt (128 * (e.val / 128)) ho d).val, hlt⟩ : Fin 8192) = Spec.col (Spec.headOf c e) d :=
  Fin.ext (by
    show c.val * 1024 + (128 * (e.val / 128) + d.val) = 128 * (8 * c.val + e.val / 128) + d.val
    omega)

/-- The block's head outputs are the specification's heads of the column group. -/
theorem attn_eq_head (i : Fin 512) (e : Fin 1024) :
    attnOf (F := Ideal) Xg0 (Layout.block ⟨2, ![1024, 1024]⟩ ⟨2, ![1024, 8192]⟩ 1 8 c Xg1) (Layout.block ⟨2, ![1024, 1024]⟩ ⟨2, ![1024, 8192]⟩ 1 8 c Xg3) (Layout.block ⟨2, ![1024, 1024]⟩ ⟨2, ![1024, 8192]⟩ 1 8 c Xg4) (ix2 i e)
      = Spec.head (fun i k => Xg0 (ix3 (0 : Fin 1) i k)) (fun k n => Xg1 (ix2 k n)) (fun k n => Xg3 (ix2 k n)) (fun k n => Xg4 (ix2 k n)) (Spec.headOf c e) i (Spec.coordOf e) := by
  have ho : 128 * (e.val / 128) + 128 ≤ 1024 := by have := e.isLt; omega
  rw [attnOf_apply]
  unfold headsOf
  rw [headOut_apply _ _ ho]
  unfold Spec.head Spec.weight Spec.score
  simp only [qOf_apply, kOf_apply, vOf_apply, proj_colBlock, col_eq]
  rfl

/-- THE DEVICE'S PRODUCT IS ITS COLUMN GROUP'S CONTRIBUTION: with the device's operands the blocks of the whole
    arguments, every entry of its accumulator after the three stores is the specification's contribution of group `c`. -/
theorem Pof_eq_contrib : ∀ (i : Fin 512) (n : Fin 1024),
    @Eq EReal (Pof (F := Ideal) Xg0 (Layout.block ⟨2, ![1024, 1024]⟩ ⟨2, ![1024, 8192]⟩ 1 8 c Xg1) (Layout.block ⟨2, ![1024, 1024]⟩ ⟨2, ![1024, 8192]⟩ 1 8 c Xg3) (Layout.block ⟨2, ![1024, 1024]⟩ ⟨2, ![1024, 8192]⟩ 1 8 c Xg4) (Layout.block ⟨2, ![1024, 1024]⟩ ⟨2, ![8192, 1024]⟩ 0 8 c Xg2) (ix2 i n))
      (Spec.contrib (fun i k => Xg0 (ix3 (0 : Fin 1) i k)) (fun k n => Xg1 (ix2 k n)) (fun k n => Xg3 (ix2 k n)) (fun k n => Xg4 (ix2 k n)) (fun e n => Xg2 (ix2 e n)) c i n) := by
  intro i n
  rw [Pof_apply]
  unfold Spec.contrib
  refine Finset.sum_congr rfl fun e _ => ?_
  rw [attn_eq_head, rowBlock_apply]

end Blocks

/-- info: 'Cert.KernelIdeal.Coll.Pof_eq_contrib' depends on axioms: [propext, Classical.choice, Quot.sound] -/
#guard_msgs in #print axioms Pof_eq_contrib

end Cert.KernelIdeal.Coll

end
-- ==== Proof.KernelIdeal.KernelValue.lean ====
/-
  Every device's final accumulator holds the specification. With device `d`'s operands the blocks of the whole
  arguments, its own product is the specification's contribution of column group `d`; the all-reduce leaves in every
  device's accumulator the sum of the eight products; and the specification's result is by definition the sum of the
  eight groups' contributions.
-/
import proofs.«900423_g7700000000000424_dist_attn_self_mha_htp_b1_sq512_skv512_d1024_hq8_dh128_v7x_i8_f32_1_alg».proof.Proof.KernelIdeal.AllReduce
import proofs.«900423_g7700000000000424_dist_attn_self_mha_htp_b1_sq512_skv512_d1024_hq8_dh128_v7x_i8_f32_1_alg».proof.Proof.KernelIdeal.PartialValue

noncomputable section

namespace Cert.KernelIdeal.Coll

open Cert.KernelIdeal Cert.KernelIdeal.Gen Idealize.ShloMosaic Idealize.ShloMosaic.ValueIdx

/-- Device `d`'s own product from the whole arguments: its accumulator after the three stores. -/
def Pdev (Xg0 : (⟨3, ![1, 512, 1024]⟩ : Shape).Idx → EReal) (Xg1 Xg3 Xg4 : (⟨2, ![1024, 8192]⟩ : Shape).Idx → EReal) (Xg2 : (⟨2, ![8192, 1024]⟩ : Shape).Idx → EReal) (d : Dev nD) : AccC Idealize.ShloMosaic.Ideal :=
  Pof (F := Ideal) Xg0 (Layout.block ⟨2, ![1024, 1024]⟩ ⟨2, ![1024, 8192]⟩ 1 8 d Xg1) (Layout.block ⟨2, ![1024, 1024]⟩ ⟨2, ![1024, 8192]⟩ 1 8 d Xg3) (Layout.block ⟨2, ![1024, 1024]⟩ ⟨2, ![1024, 8192]⟩ 1 8 d Xg4) (Layout.block ⟨2, ![1024, 1024]⟩ ⟨2, ![8192, 1024]⟩ 0 8 d Xg2)

/-- THE KERNEL'S VALUE: after the all-reduce, entry `(i, n)` of every device's accumulator is the specification's. -/
theorem allreduce_out (Xg0 : (⟨3, ![1, 512, 1024]⟩ : Shape).Idx → EReal) (Xg1 Xg3 Xg4 : (⟨2, ![1024, 8192]⟩ : Shape).Idx → EReal) (Xg2 : (⟨2, ![8192, 1024]⟩ : Shape).Idx → EReal) (c : Dev nD) (i : Fin 512) (n : Fin 1024) :
    @Eq EReal (A (Pdev Xg0 Xg1 Xg3 Xg4 Xg2) 3 c (ix2 i n))
      (Spec.out (fun i k => Xg0 (ix3 (0 : Fin 1) i k)) (fun k n => Xg1 (ix2 k n)) (fun k n => Xg3 (ix2 k n)) (fun k n => Xg4 (ix2 k n)) (fun e n => Xg2 (ix2 e n)) i n) := by
  rw [allreduce_sum]
  unfold Spec.out
  exact Finset.sum_congr rfl fun d _ => Pof_eq_contrib d Xg0 Xg1 Xg3 Xg4 Xg2 i n

/-- info: 'Cert.KernelIdeal.Coll.allreduce_out' depends on axioms: [propext, Classical.choice, Quot.sound] -/
#guard_msgs in #print axioms allreduce_out

end Cert.KernelIdeal.Coll

end
-- ==== Proof.RefAlgebra.lean ====
/-
  The algebra between the two arrangements of multi-head attention, on the extended reals, for operands whose entries
  are all real numbers. Four laws, none of which mentions a program:

  * a finite sum of products of real entries is a real number, and the coercion of the reals commutes with finite sums;
  * scaling a dot product afterwards is scaling the left factor beforehand: (∑ q k) c = ∑ (q c) k;
  * one trip of the running softmax from the empty state (maximum −∞, sums 0) with ANY real shift m is the plain
    softmax: the correction factor exp(−∞ − m) is 0, each weight exp(s − m) is exp(s) · exp(−m), the factor exp(−m)
    is a positive real and cancels between the weighted sum and the weights' sum, and the weights' sum is positive,
    so dividing by it is multiplying by its reciprocal;
  * a sum over 8192 columns is the sum over eight groups of the sums over each group's 1024 columns;

  and one fact about maxima: the maximum of a nonempty finite family of reals, folded from −∞, is a real number.
  Finiteness is what makes distributivity and the cancellation sound in the extended reals; the laws are proved by
  choosing real witnesses and pushing the coercion outwards.
-/
import proofs.«900423_g7700000000000424_dist_attn_self_mha_htp_b1_sq512_skv512_d1024_hq8_dh128_v7x_i8_f32_1_alg».proof.Proof.Spec
import Mathlib.Analysis.SpecialFunctions.Exp

noncomputable section

namespace Cert.RefSpec

open Idealize.ShloMosaic

/-- The coercion of the reals into the extended reals commutes with finite sums. -/
theorem coe_sum {ι : Type*} (s : Finset ι) (f : ι → ℝ) :
    ((∑ i ∈ s, f i : ℝ) : EReal) = ∑ i ∈ s, (f i : EReal) := by
  induction s using Finset.cons_induction with
  | empty => simp
  | cons a s ha ih => rw [Finset.sum_cons, Finset.sum_cons, EReal.coe_add, ih]

/-- A finite sum of products of real entries is a real number. -/
theorem real_sum_mul {ι : Type*} [Fintype ι] (a b : ι → EReal) (ha : ∀ k, ∃ r : ℝ, a k = r)
    (hb : ∀ k, ∃ r : ℝ, b k = r) : ∃ r : ℝ, ∑ k, a k * b k = r := by
  choose ar har using ha
  choose br hbr using hb
  refine ⟨∑ k, ar k * br k, ?_⟩
  rw [coe_sum]
  exact Finset.sum_congr rfl fun k _ => by rw [har, hbr, EReal.coe_mul]

/-- Scaling a dot product of real entries by a real afterwards is scaling its left factor beforehand. -/
theorem sum_mul_scale {ι : Type*} [Fintype ι] (q k : ι → EReal) (c : EReal) (hq : ∀ d, ∃ r : ℝ, q d = r)
    (hk : ∀ d, ∃ r : ℝ, k d = r) (hc : ∃ r : ℝ, c = r) :
    (∑ d, q d * k d) * c = ∑ d, (q d * c) * k d := by
  choose qr hqr using hq
  choose kr hkr using hk
  obtain ⟨cr, rfl⟩ := hc
  simp only [hqr, hkr, ← EReal.coe_mul, ← coe_sum]
  congr 1
  rw [Finset.sum_mul]
  exact Finset.sum_congr rfl fun d _ => by ring

/-- … and the scaled dot product is a real number. -/
theorem real_sum_mul_scale {ι : Type*} [Fintype ι] (q k : ι → EReal) (c : EReal) (hq : ∀ d, ∃ r : ℝ, q d = r)
    (hk : ∀ d, ∃ r : ℝ, k d = r) (hc : ∃ r : ℝ, c = r) : ∃ r : ℝ, (∑ d, q d * k d) * c = r := by
  obtain ⟨sr, hsr⟩ := real_sum_mul q k hq hk
  obtain ⟨cr, rfl⟩ := hc
  exact ⟨sr * cr, by rw [hsr, EReal.coe_mul]⟩

/-- One trip of the running softmax from the empty state, with any real shift `m`, is the plain softmax: the
    weighted sum of the values times the reciprocal of the weights' sum. -/
theorem softmax_shift {ι : Type*} [Fintype ι] [Nonempty ι] (s v : ι → EReal) (m : EReal)
    (hs : ∀ j, ∃ r : ℝ, s j = r) (hv : ∀ j, ∃ r : ℝ, v j = r) (hm : ∃ r : ℝ, m = r) :
    Ideal.div (0 * Ideal.exp (⊥ - m) + ∑ j, v j * Ideal.exp (s j - m))
        (0 * Ideal.exp (⊥ - m) + (0 + ∑ j, Ideal.exp (s j - m)))
      = (∑ j, Ideal.exp (s j) * v j) * Ideal.div 1 (∑ j, Ideal.exp (s j)) := by
  choose sr hsr using hs
  choose vr hvr using hv
  obtain ⟨mr, rfl⟩ := hm
  have hpos : 0 < ∑ j, Real.exp (sr j - mr) := Finset.sum_pos (fun j _ => Real.exp_pos _) Finset.univ_nonempty
  have hpos' : 0 < ∑ j, Real.exp (sr j) := Finset.sum_pos (fun j _ => Real.exp_pos _) Finset.univ_nonempty
  simp only [hsr, hvr, EReal.bot_sub, Ideal.exp_bot, mul_zero, zero_add, ← EReal.coe_sub, Ideal.exp_coe,
    ← EReal.coe_mul, ← coe_sum]
  rw [Ideal.div_coe hpos.ne', Ideal.div_coe hpos'.ne', ← EReal.coe_one, ← EReal.coe_mul, ← EReal.coe_mul,
    ← EReal.coe_mul]
  congr 1
  have e : ∀ j, Real.exp (sr j - mr) = Real.exp (sr j) * (Real.exp mr)⁻¹ := fun j => by
    rw [Real.exp_sub, div_eq_mul_inv]
  have hN : ∑ j, Real.exp (sr j) * vr j = ∑ j, vr j * Real.exp (sr j) :=
    Finset.sum_congr rfl fun _ _ => mul_comm _ _
  simp only [e, ← mul_assoc, ← Finset.sum_mul, hN]
  have hE : Real.exp mr ≠ 0 := (Real.exp_pos mr).ne'
  have hS : ∑ j, Real.exp (sr j) ≠ 0 := hpos'.ne'
  field_simp

/-- The 8192 columns are the eight groups of 1024 columns: column `1024 c + e` is column `e` of group `c`. -/
def colEquiv : Fin 8 × Fin 1024 ≃ Fin 8192 where
  toFun p := Spec.woRow p.1 p.2
  invFun k := (⟨k.val / 1024, by have := k.isLt; omega⟩, ⟨k.val % 1024, Nat.mod_lt _ (by decide)⟩)
  left_inv p := Prod.ext (Fin.ext (by show (1024 * p.1.val + p.2.val) / 1024 = p.1.val; have := p.2.isLt; omega))
    (Fin.ext (by show (1024 * p.1.val + p.2.val) % 1024 = p.2.val; have := p.2.isLt; omega))
  right_inv k := Fin.ext (by show 1024 * (k.val / 1024) + k.val % 1024 = k.val; omega)

/-- A sum over the 8192 columns is the sum over the eight groups of the sums over each group's 1024 columns. -/
theorem sum_cols {M : Type*} [AddCommMonoid M] (f : Fin 8192 → M) :
    ∑ k, f k = ∑ c : Fin 8, ∑ e : Fin 1024, f (Spec.woRow c e) := by
  rw [← Equiv.sum_comp colEquiv f, Fintype.sum_prod_type]
  rfl

/-- The maximum of a nonempty finite family of real numbers, folded from −∞, is a real number. -/
theorem real_fold_max {ι : Type*} (s : Finset ι) (hs : s.Nonempty) (f : ι → EReal) (hf : ∀ k, ∃ r : ℝ, f k = r) :
    ∃ r : ℝ, s.fold max ⊥ f = r := by
  induction hs using Finset.Nonempty.cons_induction with
  | singleton a =>
    obtain ⟨r, hr⟩ := hf a
    exact ⟨r, by rw [Finset.fold_singleton, hr, max_eq_left bot_le]⟩
  | cons a s ha hs ih =>
    obtain ⟨r, hr⟩ := hf a
    obtain ⟨r', hr'⟩ := ih
    rw [Finset.fold_cons]
    rcases max_choice (f a) (s.fold max ⊥ f) with h | h
    · exact ⟨r, h.trans hr⟩
    · exact ⟨r', h.trans hr'⟩

/-- The scale is a real number: its binary32 word is a normal number's. -/
theorem scale_real : ∃ r : ℝ, Spec.scale = r := by
  simp only [Spec.scale, Ideal.ofBits, Ideal.ieee]
  rw [if_neg (by decide), if_neg (by decide)]
  exact ⟨_, rfl⟩

/-- info: 'Cert.RefSpec.softmax_shift' depends on axioms: [propext, Classical.choice, Quot.sound] -/
#guard_msgs in #print axioms softmax_shift

end Cert.RefSpec

end
-- ==== Proof.RefStages.lean ====
/-
  The reference program read stage by stage at an index built from literal coordinates. Each lemma takes one or a few of
  the program's operations and says what the written array holds at an entry named by its coordinates, in terms of
  earlier arrays at entries named the same way: the three projections reshaped to heads; the scaled scores; the row
  maximum (only that it is a real number when the scores are); the shifted weights; the running sums after the one trip
  from the empty state; the normalised head outputs; and the output projection as a sum over the 8192 columns.
  No finiteness is used here except for the row maximum; the index functions the generated reading composes are
  identified with the coordinates by arithmetic on literals.
-/
import proofs.«900423_g7700000000000424_dist_attn_self_mha_htp_b1_sq512_skv512_d1024_hq8_dh128_v7x_i8_f32_1_alg».proof.Proof.Gen.ReferenceIdeal.Read
import proofs.«900423_g7700000000000424_dist_attn_self_mha_htp_b1_sq512_skv512_d1024_hq8_dh128_v7x_i8_f32_1_alg».proof.Proof.RefAlgebra

noncomputable section

namespace Cert.RefSpec

open Cert.ReferenceIdeal Cert.ReferenceIdeal.Gen Cert.ReferenceIdeal.Read Idealize.ShloMosaic Idealize.ShloMosaic.ValueIdx

/-! ## The composed index functions at coordinates -/

theorem lidx_v0_v1 (i : Fin 512) (g : Fin 64) (d : Fin 128) (k : Fin 1024) :
    lidx_main_v0 (idx_main_v1 (ix4 (0 : Fin 1) i g d)) k = ix3 (0 : Fin 1) i k := by
  funext a; apply Fin.ext
  match a with
  | ⟨0, _⟩ => rfl
  | ⟨1, _⟩ => show (((0 * 512 + i.val) * 64 + g.val) * 128 + d.val) / 8192 % 512 = i.val
              have := i.isLt; have := g.isLt; have := d.isLt; omega
  | ⟨2, _⟩ => rfl

theorem ridx_v0_v1 (i : Fin 512) (g : Fin 64) (d : Fin 128) (k : Fin 1024) :
    ridx_main_v0 (idx_main_v1 (ix4 (0 : Fin 1) i g d)) k = ix2 k (Spec.col g d) := by
  funext a; apply Fin.ext
  match a with
  | ⟨0, _⟩ => rfl
  | ⟨1, _⟩ => show (((0 * 512 + i.val) * 64 + g.val) * 128 + d.val) % 8192 = 128 * g.val + d.val
              have := i.isLt; have := g.isLt; have := d.isLt; omega

theorem lidx_v2_v3 (i : Fin 512) (g : Fin 64) (d : Fin 128) (k : Fin 1024) :
    lidx_main_v2 (idx_main_v3 (ix4 (0 : Fin 1) i g d)) k = ix3 (0 : Fin 1) i k := by
  funext a; apply Fin.ext
  match a with
  | ⟨0, _⟩ => rfl
  | ⟨1, _⟩ => show (((0 * 512 + i.val) * 64 + g.val) * 128 + d.val) / 8192 % 512 = i.val
              have := i.isLt; have := g.isLt; have := d.isLt; omega
  | ⟨2, _⟩ => rfl

theorem ridx_v2_v3 (i : Fin 512) (g : Fin 64) (d : Fin 128) (k : Fin 1024) :
    ridx_main_v2 (idx_main_v3 (ix4 (0 : Fin 1) i g d)) k = ix2 k (Spec.col g d) := by
  funext a; apply Fin.ext
  match a with
  | ⟨0, _⟩ => rfl
  | ⟨1, _⟩ => show (((0 * 512 + i.val) * 64 + g.val) * 128 + d.val) % 8192 = 128 * g.val + d.val
              have := i.isLt; have := g.isLt; have := d.isLt; omega

theorem lidx_v4_v5 (i : Fin 512) (g : Fin 64) (d : Fin 128) (k : Fin 1024) :
    lidx_main_v4 (idx_main_v5 (ix4 (0 : Fin 1) i g d)) k = ix3 (0 : Fin 1) i k := by
  funext a; apply Fin.ext
  match a with
  | ⟨0, _⟩ => rfl
  | ⟨1, _⟩ => show (((0 * 512 + i.val) * 64 + g.val) * 128 + d.val) / 8192 % 512 = i.val
              have := i.isLt; have := g.isLt; have := d.isLt; omega
  | ⟨2, _⟩ => rfl

theorem ridx_v4_v5 (i : Fin 512) (g : Fin 64) (d : Fin 128) (k : Fin 1024) :
    ridx_main_v4 (idx_main_v5 (ix4 (0 : Fin 1) i g d)) k = ix2 k (Spec.col g d) := by
  funext a; apply Fin.ext
  match a with
  | ⟨0, _⟩ => rfl
  | ⟨1, _⟩ => show (((0 * 512 + i.val) * 64 + g.val) * 128 + d.val) % 8192 = 128 * g.val + d.val
              have := i.isLt; have := g.isLt; have := d.isLt; omega

theorem lidx_v9 (g : Fin 64) (i j : Fin 512) (d : Fin 128) :
    lidx_main_v9 (ix4 (0 : Fin 1) g i j) d = ix4 (0 : Fin 1) i g d := by
  funext a; apply Fin.ext
  match a with
  | ⟨0, _⟩ => rfl
  | ⟨1, _⟩ => rfl
  | ⟨2, _⟩ => rfl
  | ⟨3, _⟩ => rfl

theorem ridx_v9 (g : Fin 64) (i j : Fin 512) (d : Fin 128) :
    ridx_main_v9 (ix4 (0 : Fin 1) g i j) d = ix4 (0 : Fin 1) j g d := by
  funext a; apply Fin.ext
  match a with
  | ⟨0, _⟩ => rfl
  | ⟨1, _⟩ => rfl
  | ⟨2, _⟩ => rfl
  | ⟨3, _⟩ => rfl

theorem idx_v13 (g : Fin 64) (i : Fin 512) :
    idx_main_v13 (ix4 (0 : Fin 1) g i (0 : Fin 1)) = ix3 (0 : Fin 1) g i := by
  funext a; apply Fin.ext
  match a with
  | ⟨0, _⟩ => rfl
  | ⟨1, _⟩ => rfl
  | ⟨2, _⟩ => rfl

theorem idx_v17 (g : Fin 64) (i j : Fin 512) :
    idx_main_v17 (ix4 (0 : Fin 1) g i j) = ix4 (0 : Fin 1) g i (0 : Fin 1) := by
  funext a; apply Fin.ext
  match a with
  | ⟨0, _⟩ => rfl
  | ⟨1, _⟩ => rfl
  | ⟨2, _⟩ => rfl
  | ⟨3, _⟩ => rfl

theorem idx_v21 (g : Fin 64) (i k : Fin 512) :
    idx_main_v21 (ix3 (0 : Fin 1) g i) k = ix4 (0 : Fin 1) g i k := by
  funext a; apply Fin.ext
  match a with
  | ⟨0, _⟩ => rfl
  | ⟨1, _⟩ => rfl
  | ⟨2, _⟩ => rfl
  | ⟨3, _⟩ => rfl

theorem idx_v22 (g : Fin 64) (i : Fin 512) :
    idx_main_v22 (ix4 (0 : Fin 1) g i (0 : Fin 1)) = ix3 (0 : Fin 1) g i := by
  funext a; apply Fin.ext
  match a with
  | ⟨0, _⟩ => rfl
  | ⟨1, _⟩ => rfl
  | ⟨2, _⟩ => rfl

theorem idx_v24_v25 (i : Fin 512) (g : Fin 64) (d : Fin 128) :
    idx_main_v24 (idx_main_v25 (ix4 (0 : Fin 1) i g d)) = ix4 (0 : Fin 1) g i (0 : Fin 1) := by
  funext a; apply Fin.ext
  match a with
  | ⟨0, _⟩ => rfl
  | ⟨1, _⟩ => rfl
  | ⟨2, _⟩ => rfl
  | ⟨3, _⟩ => rfl

theorem idx_v30_v31 (i : Fin 512) (g : Fin 64) (d : Fin 128) :
    idx_main_v30 (idx_main_v31 (ix4 (0 : Fin 1) i g d)) = ix4 (0 : Fin 1) g i (0 : Fin 1) := by
  funext a; apply Fin.ext
  match a with
  | ⟨0, _⟩ => rfl
  | ⟨1, _⟩ => rfl
  | ⟨2, _⟩ => rfl
  | ⟨3, _⟩ => rfl

theorem idx_v28 (i : Fin 512) (g : Fin 64) (d : Fin 128) :
    idx_main_v28 (ix4 (0 : Fin 1) i g d) = ix4 (0 : Fin 1) g d i := by
  funext a; apply Fin.ext
  match a with
  | ⟨0, _⟩ => rfl
  | ⟨1, _⟩ => rfl
  | ⟨2, _⟩ => rfl
  | ⟨3, _⟩ => rfl

theorem lidx_v27 (i k : Fin 512) (g : Fin 64) (d : Fin 128) :
    lidx_main_v27 (ix4 (0 : Fin 1) g d i) k = ix4 (0 : Fin 1) k g d := by
  funext a; apply Fin.ext
  match a with
  | ⟨0, _⟩ => rfl
  | ⟨1, _⟩ => rfl
  | ⟨2, _⟩ => rfl
  | ⟨3, _⟩ => rfl

theorem ridx_v27 (i k : Fin 512) (g : Fin 64) (d : Fin 128) :
    ridx_main_v27 (ix4 (0 : Fin 1) g d i) k = ix4 (0 : Fin 1) g i k := by
  funext a; apply Fin.ext
  match a with
  | ⟨0, _⟩ => rfl
  | ⟨1, _⟩ => rfl
  | ⟨2, _⟩ => rfl
  | ⟨3, _⟩ => rfl

/-- The head and the coordinate inside the head of column `k` of the 8192: `k / 128` and `k % 128`. -/
def headCol (k : Fin 8192) : Fin 64 := ⟨k.val / 128, by have := k.isLt; omega⟩
def coordCol (k : Fin 8192) : Fin 128 := ⟨k.val % 128, Nat.mod_lt _ (by decide)⟩

theorem idx_v33 (i : Fin 512) (k : Fin 8192) :
    idx_main_v33 (ix3 (0 : Fin 1) i k) = ix4 (0 : Fin 1) i (headCol k) (coordCol k) := by
  funext a; apply Fin.ext
  match a with
  | ⟨0, _⟩ => rfl
  | ⟨1, _⟩ => show ((0 * 512 + i.val) * 8192 + k.val) / 8192 % 512 = i.val
              have := i.isLt; have := k.isLt; omega
  | ⟨2, _⟩ => show ((0 * 512 + i.val) * 8192 + k.val) / 128 % 64 = k.val / 128
              have := i.isLt; have := k.isLt; omega
  | ⟨3, _⟩ => show ((0 * 512 + i.val) * 8192 + k.val) % 128 = k.val % 128
              have := i.isLt; have := k.isLt; omega

theorem lidx_v34 (i : Fin 512) (n : Fin 1024) (k : Fin 8192) :
    lidx_main_v34 (ix3 (0 : Fin 1) i n) k = ix3 (0 : Fin 1) i k := by
  funext a; apply Fin.ext
  match a with
  | ⟨0, _⟩ => rfl
  | ⟨1, _⟩ => rfl
  | ⟨2, _⟩ => rfl

theorem ridx_v34 (i : Fin 512) (n : Fin 1024) (k : Fin 8192) :
    ridx_main_v34 (ix3 (0 : Fin 1) i n) k = ix2 k n := by
  funext a; apply Fin.ext
  match a with
  | ⟨0, _⟩ => rfl
  | ⟨1, _⟩ => rfl

/-- Column `1024 c + e` lies in head `8 c + e / 128` … -/
theorem headCol_woRow (c : Fin 8) (e : Fin 1024) : headCol (Spec.woRow c e) = Spec.headOf c e :=
  Fin.ext (by show (1024 * c.val + e.val) / 128 = 8 * c.val + e.val / 128; omega)
/-- … at coordinate `e % 128`. -/
theorem coordCol_woRow (c : Fin 8) (e : Fin 1024) : coordCol (Spec.woRow c e) = Spec.coordOf e :=
  Fin.ext (by show (1024 * c.val + e.val) % 128 = e.val % 128; omega)

/-- The word of −∞ is the bottom element. -/
theorem negInf_eq : Ideal.ofBits .f32 0xFF800000#32 = (⊥ : EReal) := by simp [Ideal.ofBits, Ideal.ieee]

/-! ## The stages -/

/-- The query projection, reshaped to heads: entry (row `i`, head `g`, coordinate `d`) is column `128 g + d` of `x · W`. -/
theorem v1_at (X0 : (⟨S1x512x1024, .f32⟩ : BufTy).Contents (Elt Ideal)) (W : (⟨S1024x8192, .f32⟩ : BufTy).Contents (Elt Ideal)) (i : Fin 512) (g : Fin 64) (d : Fin 128) :
    val_main_v1 (F := Ideal) X0 W (ix4 (0 : Fin 1) i g d)
      = Spec.proj (fun i k => X0 (ix3 (0 : Fin 1) i k)) (fun k n => W (ix2 k n)) i (Spec.col g d) := by
  rw [val_main_v1_apply, val_main_v0_apply]
  simp only [lidx_v0_v1, ridx_v0_v1]
  rfl

/-- The key projection, reshaped to heads: entry (row `i`, head `g`, coordinate `d`) is column `128 g + d` of `x · W`. -/
theorem v3_at (X0 : (⟨S1x512x1024, .f32⟩ : BufTy).Contents (Elt Ideal)) (W : (⟨S1024x8192, .f32⟩ : BufTy).Contents (Elt Ideal)) (i : Fin 512) (g : Fin 64) (d : Fin 128) :
    val_main_v3 (F := Ideal) X0 W (ix4 (0 : Fin 1) i g d)
      = Spec.proj (fun i k => X0 (ix3 (0 : Fin 1) i k)) (fun k n => W (ix2 k n)) i (Spec.col g d) := by
  rw [val_main_v3_apply, val_main_v2_apply]
  simp only [lidx_v2_v3, ridx_v2_v3]
  rfl

/-- The value projection, reshaped to heads: entry (row `i`, head `g`, coordinate `d`) is column `128 g + d` of `x · W`. -/
theorem v5_at (X0 : (⟨S1x512x1024, .f32⟩ : BufTy).Contents (Elt Ideal)) (W : (⟨S1024x8192, .f32⟩ : BufTy).Contents (Elt Ideal)) (i : Fin 512) (g : Fin 64) (d : Fin 128) :
    val_main_v5 (F := Ideal) X0 W (ix4 (0 : Fin 1) i g d)
      = Spec.proj (fun i k => X0 (ix3 (0 : Fin 1) i k)) (fun k n => W (ix2 k n)) i (Spec.col g d) := by
  rw [val_main_v5_apply, val_main_v4_apply]
  simp only [lidx_v4_v5, ridx_v4_v5]
  rfl

section
variable (X0 : (⟨S1x512x1024, .f32⟩ : BufTy).Contents (Elt Ideal)) (X1 X3 X4 : (⟨S1024x8192, .f32⟩ : BufTy).Contents (Elt Ideal)) (X2 : (⟨S8192x1024, .f32⟩ : BufTy).Contents (Elt Ideal))

/-- The score of row `i` against row `j` in head `g`: the dot product of the query and the key, THEN scaled. -/
theorem v11_at (g : Fin 64) (i j : Fin 512) :
    val_main_v11 (F := Ideal) X0 X1 X3 (ix4 (0 : Fin 1) g i j)
      = (∑ d : Fin 128, val_main_v1 (F := Ideal) X0 X1 (ix4 (0 : Fin 1) i g d) * val_main_v3 (F := Ideal) X0 X3 (ix4 (0 : Fin 1) j g d))
          * Spec.scale := by
  rw [val_main_v11_apply, val_main_v9_apply, val_main_v10_apply, val_main_cst_2_apply]
  simp only [lidx_v9, ridx_v9, Ideal.mulf_def, Ideal.ofBits_def]
  rfl

/-- Every index of the score array is one of those. -/
theorem scoreIdx_eq (j : S1x64x512x512.Idx) : ∃ (g : Fin 64) (i k : Fin 512), j = ix4 (0 : Fin 1) g i k :=
  ⟨j 1, j 2, j 3, by
    funext a
    match a with
    | ⟨0, _⟩ => exact Fin.ext (by have h : (j 0).val < 1 := (j 0).isLt; show (j 0).val = 0; omega)
    | ⟨1, _⟩ => rfl
    | ⟨2, _⟩ => rfl
    | ⟨3, _⟩ => rfl⟩

/-- The row maximum of real scores is a real number: it is the maximum, from −∞, of the 512 scores of the row. -/
theorem v12_real (g : Fin 64) (i : Fin 512)
    (h11 : ∀ j : S1x64x512x512.Idx, ∃ r : ℝ, val_main_v11 (F := Ideal) X0 X1 X3 j = r) :
    ∃ r : ℝ, val_main_v12 (F := Ideal) X0 X1 X3 (ix3 (0 : Fin 1) g i) = r := by
  unfold val_main_v12
  generalize val_main_v11 (F := Ideal) X0 X1 X3 = y at h11 ⊢
  have hR : S1x64x512x512.Reduces [3] S1x64x512 := by decide
  have hfold := Host.reduce_eq_fold_single (α := Ideal .f32) (s := S1x64x512x512) (t := S1x64x512) (a := 3)
    (FloatOps.maximumf (F := Ideal) (φ := .f32)) y (val_main_cst_3 (F := Ideal))
    reducesTo_S1x64x512x512_S1x64x512_d3 hR h_S_ (ix3 (0 : Fin 1) g i)
  have hb : val_main_cst_3 (F := Ideal) (Shape.Idx.first h_S_) = (⊥ : EReal) := negInf_eq
  rw [hb] at hfold
  obtain ⟨r, hr⟩ := real_fold_max (Finset.univ : Finset (Fin (S1x64x512x512.size 3)))
    ⟨⟨0, by decide⟩, Finset.mem_univ _⟩ (y ∘ hR.lift (ix3 (0 : Fin 1) g i)) (fun k => h11 _)
  exact ⟨r, hfold.trans hr⟩

/-- The new running maximum, from −∞, is the row maximum. -/
theorem v14_at (g : Fin 64) (i : Fin 512) :
    val_main_v14 (F := Ideal) X0 X1 X3 (ix4 (0 : Fin 1) g i (0 : Fin 1)) = val_main_v12 (F := Ideal) X0 X1 X3 (ix3 (0 : Fin 1) g i) := by
  rw [val_main_v14_apply, val_main_v7_apply, val_main_cst_0_apply, val_main_v13_apply, idx_v13]
  simp only [Ideal.maximumf_def, Ideal.ofBits_def]
  rw [negInf_eq, max_eq_right bot_le]

/-- The correction factor of the empty state: the exponential of −∞ minus the row maximum. -/
theorem v16_at (g : Fin 64) (i : Fin 512) :
    val_main_v16 (F := Ideal) X0 X1 X3 (ix4 (0 : Fin 1) g i (0 : Fin 1))
      = Ideal.exp (⊥ - val_main_v12 (F := Ideal) X0 X1 X3 (ix3 (0 : Fin 1) g i)) := by
  rw [val_main_v16_apply, val_main_v15_apply, val_main_v7_apply, val_main_cst_0_apply, v14_at]
  simp only [Ideal.hostUnary_exp_def, Ideal.subf_def, Ideal.ofBits_def]
  rw [negInf_eq]

/-- The shifted weight: the exponential of the score minus the row maximum. -/
theorem v19_at (g : Fin 64) (i j : Fin 512) :
    val_main_v19 (F := Ideal) X0 X1 X3 (ix4 (0 : Fin 1) g i j)
      = Ideal.exp (val_main_v11 (F := Ideal) X0 X1 X3 (ix4 (0 : Fin 1) g i j) - val_main_v12 (F := Ideal) X0 X1 X3 (ix3 (0 : Fin 1) g i)) := by
  rw [val_main_v19_apply, val_main_v18_apply, val_main_v17_apply, idx_v17, v14_at]
  simp only [Ideal.hostUnary_exp_def, Ideal.subf_def]

/-- The running sum of the weights after the trip: the empty state's 0 times the correction, plus the row's sum from 0. -/
theorem v23_at (g : Fin 64) (i : Fin 512) :
    val_main_v23 (F := Ideal) X0 X1 X3 (ix4 (0 : Fin 1) g i (0 : Fin 1))
      = 0 * val_main_v16 (F := Ideal) X0 X1 X3 (ix4 (0 : Fin 1) g i (0 : Fin 1))
          + (0 + ∑ k : Fin 512, val_main_v19 (F := Ideal) X0 X1 X3 (ix4 (0 : Fin 1) g i k)) := by
  rw [val_main_v23_apply, val_main_v20_apply, val_main_v8_apply, val_main_cst_1_apply, val_main_v22_apply, idx_v22,
    val_main_v21_apply, val_main_cst_4_apply]
  simp only [idx_v21, Ideal.addf_def, Ideal.mulf_def, Ideal.ofBits_def, Ideal.ofBits_zero_f32]

/-- The head output: the running weighted sum of the values after the trip, divided by the running sum of the weights. -/
theorem v32_at (i : Fin 512) (g : Fin 64) (d : Fin 128) :
    val_main_v32 (F := Ideal) X0 X1 X3 X4 (ix4 (0 : Fin 1) i g d)
      = Ideal.div
          (0 * val_main_v16 (F := Ideal) X0 X1 X3 (ix4 (0 : Fin 1) g i (0 : Fin 1))
            + ∑ k : Fin 512, val_main_v5 (F := Ideal) X0 X4 (ix4 (0 : Fin 1) k g d) * val_main_v19 (F := Ideal) X0 X1 X3 (ix4 (0 : Fin 1) g i k))
          (val_main_v23 (F := Ideal) X0 X1 X3 (ix4 (0 : Fin 1) g i (0 : Fin 1))) := by
  rw [val_main_v32_apply, val_main_v29_apply, val_main_v26_apply, val_main_v6_apply, val_main_cst_apply,
    val_main_v25_apply, val_main_v24_apply, idx_v24_v25, val_main_v28_apply, idx_v28, val_main_v27_apply,
    val_main_v31_apply, val_main_v30_apply, idx_v30_v31]
  simp only [lidx_v27, ridx_v27, Ideal.hostDivf_def, Ideal.addf_def, Ideal.mulf_def, Ideal.ofBits_def,
    Ideal.ofBits_zero_f32]

/-- The result: the head outputs side by side, times the output projection, as ONE sum over the 8192 columns. -/
theorem v34_at (i : Fin 512) (n : Fin 1024) :
    val_main_v34 (F := Ideal) X0 X1 X2 X3 X4 (ix3 (0 : Fin 1) i n)
      = ∑ k : Fin 8192, val_main_v32 (F := Ideal) X0 X1 X3 X4 (ix4 (0 : Fin 1) i (headCol k) (coordCol k)) * X2 (ix2 k n) := by
  rw [val_main_v34_apply]
  refine Finset.sum_congr rfl fun k _ => ?_
  rw [lidx_v34, ridx_v34, val_main_v33_apply, idx_v33]

end

/-- info: 'Cert.RefSpec.v34_at' depends on axioms: [propext, Classical.choice, Quot.sound] -/
#guard_msgs in #print axioms v34_at

/-- info: 'Cert.RefSpec.v32_at' depends on axioms: [propext, Classical.choice, Quot.sound] -/
#guard_msgs in #print axioms v32_at

/-- info: 'Cert.RefSpec.v12_real' depends on axioms: [propext, Classical.choice, Quot.sound] -/
#guard_msgs in #print axioms v12_real

end Cert.RefSpec

end
-- ==== Proof.RefSpec.lean ====
/-
  The reference program's result, entry by entry on the extended reals, is the shared specification of multi-head
  self-attention, when every entry of the five arguments is a real number.

  The program computes the scores as the dot product of query and key scaled AFTERWARDS, runs one trip of the
  max-shifted running softmax from the empty state, divides the weighted sum of the values by the weights' sum, and
  contracts the 8192 head columns with the output projection in one sum. The specification scales the query BEFOREHAND,
  uses unshifted weights times the reciprocal of their sum, and sums first inside each group of 1024 columns and then
  over the eight groups. With real entries every projection, score and row maximum is a real number, so the laws of
  the algebra module apply: the scale moves inside the dot product, the shift cancels, and the sum over the columns
  splits into the groups.
-/
import proofs.«900423_g7700000000000424_dist_attn_self_mha_htp_b1_sq512_skv512_d1024_hq8_dh128_v7x_i8_f32_1_alg».proof.Proof.RefStages

noncomputable section

namespace Cert.RefSpec

open Cert.ReferenceIdeal Cert.ReferenceIdeal.Gen Cert.ReferenceIdeal.Read Idealize.ShloMosaic Idealize.ShloMosaic.ValueIdx

section
variable (X0 : (⟨S1x512x1024, .f32⟩ : BufTy).Contents (Elt Ideal)) (X1 : (⟨S1024x8192, .f32⟩ : BufTy).Contents (Elt Ideal)) (X2 : (⟨S8192x1024, .f32⟩ : BufTy).Contents (Elt Ideal)) (X3 X4 : (⟨S1024x8192, .f32⟩ : BufTy).Contents (Elt Ideal))

/-- One head's normalised output in the program is the specification's, at every row, head and coordinate. -/
theorem head_eq (h0 : ∀ j, ∃ r : ℝ, X0 j = (r : EReal)) (h1 : ∀ j, ∃ r : ℝ, X1 j = (r : EReal))
    (h3 : ∀ j, ∃ r : ℝ, X3 j = (r : EReal)) (h4 : ∀ j, ∃ r : ℝ, X4 j = (r : EReal))
    (i : Fin 512) (g : Fin 64) (d : Fin 128) :
    val_main_v32 (F := Ideal) X0 X1 X3 X4 (ix4 (0 : Fin 1) i g d)
      = Spec.head (fun i k => X0 (ix3 (0 : Fin 1) i k)) (fun k n => X1 (ix2 k n)) (fun k n => X3 (ix2 k n)) (fun k n => X4 (ix2 k n)) g i d := by
  -- every projection entry, every score and the row maximum are real numbers
  have hQ : ∀ (i : Fin 512) (g : Fin 64) (d : Fin 128), ∃ r : ℝ, val_main_v1 (F := Ideal) X0 X1 (ix4 (0 : Fin 1) i g d) = r :=
    fun i g d => by rw [v1_at]; exact real_sum_mul _ _ (fun k => h0 _) (fun k => h1 _)
  have hK : ∀ (i : Fin 512) (g : Fin 64) (d : Fin 128), ∃ r : ℝ, val_main_v3 (F := Ideal) X0 X3 (ix4 (0 : Fin 1) i g d) = r :=
    fun i g d => by rw [v3_at]; exact real_sum_mul _ _ (fun k => h0 _) (fun k => h3 _)
  have hV : ∀ (i : Fin 512) (g : Fin 64) (d : Fin 128), ∃ r : ℝ, val_main_v5 (F := Ideal) X0 X4 (ix4 (0 : Fin 1) i g d) = r :=
    fun i g d => by rw [v5_at]; exact real_sum_mul _ _ (fun k => h0 _) (fun k => h4 _)
  have hS : ∀ (g : Fin 64) (i j : Fin 512), ∃ r : ℝ, val_main_v11 (F := Ideal) X0 X1 X3 (ix4 (0 : Fin 1) g i j) = r :=
    fun g i j => by
      rw [v11_at]; exact real_sum_mul_scale _ _ _ (fun d => hQ i g d) (fun d => hK j g d) scale_real
  have hS' : ∀ j : S1x64x512x512.Idx, ∃ r : ℝ, val_main_v11 (F := Ideal) X0 X1 X3 j = r := fun j => by
    obtain ⟨g, i, k, rfl⟩ := scoreIdx_eq j; exact hS g i k
  have hM := v12_real X0 X1 X3 g i hS'
  -- the program's score is the specification's: the scale moves inside the dot product
  have hsc : ∀ j : Fin 512, val_main_v11 (F := Ideal) X0 X1 X3 (ix4 (0 : Fin 1) g i j)
      = Spec.score (fun i k => X0 (ix3 (0 : Fin 1) i k)) (fun k n => X1 (ix2 k n)) (fun k n => X3 (ix2 k n)) g i j := fun j => by
    rw [v11_at, sum_mul_scale _ _ _ (fun d => hQ i g d) (fun d => hK j g d) scale_real]
    unfold Spec.score
    simp only [v1_at, v3_at]
  -- the trip of the running softmax is the plain softmax
  rw [v32_at, v23_at]
  simp only [v19_at, v16_at]
  refine (softmax_shift (fun j : Fin 512 => val_main_v11 (F := Ideal) X0 X1 X3 (ix4 (0 : Fin 1) g i j))
    (fun k : Fin 512 => val_main_v5 (F := Ideal) X0 X4 (ix4 (0 : Fin 1) k g d)) _ (hS g i) (fun k => hV k g d) hM).trans ?_
  unfold Spec.head Spec.weight
  simp only [hsc, v5_at]

/-- THE REFERENCE IS THE SPECIFICATION: with every argument entry a real number, entry `(i, n)` of the program's
    result is the specification's `out` of the five arguments read as matrices. -/
theorem result_eq (h0 : ∀ j, ∃ r : ℝ, X0 j = (r : EReal)) (h1 : ∀ j, ∃ r : ℝ, X1 j = (r : EReal))
    (h2 : ∀ j, ∃ r : ℝ, X2 j = (r : EReal)) (h3 : ∀ j, ∃ r : ℝ, X3 j = (r : EReal))
    (h4 : ∀ j, ∃ r : ℝ, X4 j = (r : EReal)) :
    ∀ (i : Fin 512) (n : Fin 1024),
      val_main_v34 (F := Ideal) X0 X1 X2 X3 X4 (ix3 (0 : Fin 1) i n)
        = Spec.out (fun i k => X0 (ix3 (0 : Fin 1) i k)) (fun k n => X1 (ix2 k n)) (fun k n => X3 (ix2 k n)) (fun k n => X4 (ix2 k n)) (fun e n => X2 (ix2 e n)) i n := by
  intro i n
  rw [v34_at, sum_cols]
  unfold Spec.out Spec.contrib
  refine Finset.sum_congr rfl fun c _ => Finset.sum_congr rfl fun e _ => ?_
  rw [headCol_woRow, coordCol_woRow, head_eq X0 X1 X3 X4 h0 h1 h3 h4]

end

/-- info: 'Cert.RefSpec.result_eq' depends on axioms: [propext, Classical.choice, Quot.sound] -/
#guard_msgs in #print axioms result_eq

end Cert.RefSpec

end
-- ==== Proof.RefFinite.lean ====
/-
  Finiteness of the arguments from the printed precondition. The precondition says, of each of a device's five argument
  arrays, that every entry's absolute value is below +∞, all five conjoined into one bit. An extended real whose absolute
  value `max x (−x)` is below +∞ is neither +∞ nor −∞: it is a real number. And the eight devices' column blocks (or
  row blocks) of a whole array cover it: column `n` of 8192 is column `n % 1024` of block `n / 1024`; so if every
  block's entries are real, so are the whole array's.
-/
import proofs.«900423_g7700000000000424_dist_attn_self_mha_htp_b1_sq512_skv512_d1024_hq8_dh128_v7x_i8_f32_1_alg».proof.Pre_finite_inputs_Kernel
import Idealize.ShloMosaic.Lib.ReduceAll
import Idealize.ShloMosaic.Lib.Layout
import Idealize.ShloMosaic.Lib.ValueIdx
import Idealize.ShloMosaic.PureOps.Ideal

noncomputable section

namespace Cert.RefSpec

open Idealize.ShloMosaic Idealize.ShloMosaic.ValueIdx

/-- The word of +∞ is the top element. -/
theorem posInf_eq : Ideal.ofBits .f32 0x7F800000#32 = (⊤ : EReal) := by simp [Ideal.ofBits, Ideal.ieee]

/-- An extended real whose absolute value is below +∞ is a real number. -/
theorem real_of_abs_lt (x : EReal) (h : Ideal.cmp .olt (max x (-x)) (Ideal.ofBits .f32 0x7F800000#32) = 1#1) :
    ∃ r : ℝ, x = r := by
  rw [posInf_eq] at h
  induction x using EReal.rec with
  | bot => exact absurd h (by simp [Ideal.cmp])
  | coe r => exact ⟨r, rfl⟩
  | top => exact absurd h (by simp [Ideal.cmp])

instance : Subsingleton (Cert.Pre_finite_inputs_Kernel.S_.Idx) := ⟨fun a b => funext fun d => d.elim0⟩

/-- The precondition, read back: every entry of each of the five arrays it tests is a real number. -/
theorem real_of_pre [Cert.Pre_finite_inputs_Kernel.Facts] (X0 : FVec Ideal Cert.Pre_finite_inputs_Kernel.S1x512x1024 .f32) (X1 X2 X3 X4 : FVec Ideal Cert.Pre_finite_inputs_Kernel.S1024x1024 .f32)
    (h : Cert.Pre_finite_inputs_Kernel.fn (F := Ideal) X0 X1 X2 X3 X4 = fun _ => 1#1) :
    (∀ j, ∃ r : ℝ, X0 j = (r : EReal)) ∧ (∀ j, ∃ r : ℝ, X1 j = (r : EReal)) ∧ (∀ j, ∃ r : ℝ, X2 j = (r : EReal))
      ∧ (∀ j, ∃ r : ℝ, X3 j = (r : EReal)) ∧ (∀ j, ∃ r : ℝ, X4 j = (r : EReal)) := by
  have h0 := congrFun h ix0
  dsimp only [Cert.Pre_finite_inputs_Kernel.fn, Cert.Pre_finite_inputs_Kernel.fn_part1] at h0
  obtain ⟨h0123, e4⟩ := IntOp.andi_eq_one.1 h0
  obtain ⟨h012, e3⟩ := IntOp.andi_eq_one.1 h0123
  obtain ⟨h01, e2⟩ := IntOp.andi_eq_one.1 h012
  obtain ⟨e0, e1⟩ := IntOp.andi_eq_one.1 h01
  exact ⟨fun j => real_of_abs_lt _ (Host.reduce_andi_all _ _ _ _ _ e0 j),
    fun j => real_of_abs_lt _ (Host.reduce_andi_all _ _ _ _ _ e1 j),
    fun j => real_of_abs_lt _ (Host.reduce_andi_all _ _ _ _ _ e2 j),
    fun j => real_of_abs_lt _ (Host.reduce_andi_all _ _ _ _ _ e3 j),
    fun j => real_of_abs_lt _ (Host.reduce_andi_all _ _ _ _ _ e4 j)⟩

/-- The eight column blocks of a [1024, 8192] array cover it: if every block's entries are real, so are the array's. -/
theorem real_of_colBlocks (W : (⟨2, ![1024, 8192]⟩ : Shape).Idx → EReal)
    (h : ∀ (c : Fin 8) (j : (⟨2, ![1024, 1024]⟩ : Shape).Idx), ∃ r : ℝ,
      (Layout.block ⟨2, ![1024, 1024]⟩ ⟨2, ![1024, 8192]⟩ 1 8 c W) j = (r : EReal)) :
    ∀ j, ∃ r : ℝ, W j = (r : EReal) := by
  intro j
  obtain ⟨k, n, rfl⟩ : ∃ (k : Fin 1024) (n : Fin 8192), j = ix2 k n := ⟨j 0, j 1, eq_ix2 j⟩
  have hn := n.isLt
  obtain ⟨r, hr⟩ := h ⟨n.val / 1024, by omega⟩ (ix2 k (⟨n.val % 1024, Nat.mod_lt _ (by decide)⟩ : Fin 1024))
  refine ⟨r, Eq.trans (congrArg W (funext fun a => Fin.ext ?_)) hr⟩
  match a with
  | ⟨0, _⟩ => rfl
  | ⟨1, _⟩ => show n.val = n.val / 1024 * 1024 + n.val % 1024; omega

/-- The eight row blocks of an [8192, 1024] array cover it. -/
theorem real_of_rowBlocks (W : (⟨2, ![8192, 1024]⟩ : Shape).Idx → EReal)
    (h : ∀ (c : Fin 8) (j : (⟨2, ![1024, 1024]⟩ : Shape).Idx), ∃ r : ℝ,
      (Layout.block ⟨2, ![1024, 1024]⟩ ⟨2, ![8192, 1024]⟩ 0 8 c W) j = (r : EReal)) :
    ∀ j, ∃ r : ℝ, W j = (r : EReal) := by
  intro j
  obtain ⟨e, n, rfl⟩ : ∃ (e : Fin 8192) (n : Fin 1024), j = ix2 e n := ⟨j 0, j 1, eq_ix2 j⟩
  have he := e.isLt
  obtain ⟨r, hr⟩ := h ⟨e.val / 1024, by omega⟩ (ix2 (⟨e.val % 1024, Nat.mod_lt _ (by decide)⟩ : Fin 1024) n)
  refine ⟨r, Eq.trans (congrArg W (funext fun a => Fin.ext ?_)) hr⟩
  match a with
  | ⟨0, _⟩ => show e.val = e.val / 1024 * 1024 + e.val % 1024; omega
  | ⟨1, _⟩ => rfl

/-- The precondition on every device's operands, the blocks of the whole arguments (the input rows whole; the query, key
    and value weights cut by columns; the output projection, the third operand, cut by rows): every entry of the five
    whole arrays is a real number. -/
theorem real_of_pre_blocks [Cert.Pre_finite_inputs_Kernel.Facts] (Xg0 : (⟨3, ![1, 512, 1024]⟩ : Shape).Idx → EReal)
    (Xg1 Xg3 Xg4 : (⟨2, ![1024, 8192]⟩ : Shape).Idx → EReal) (Xg2 : (⟨2, ![8192, 1024]⟩ : Shape).Idx → EReal)
    (h : ∀ c : Fin 8, Cert.Pre_finite_inputs_Kernel.fn (F := Ideal) Xg0 (Layout.block ⟨2, ![1024, 1024]⟩ ⟨2, ![1024, 8192]⟩ 1 8 c Xg1)
      (Layout.block ⟨2, ![1024, 1024]⟩ ⟨2, ![8192, 1024]⟩ 0 8 c Xg2) (Layout.block ⟨2, ![1024, 1024]⟩ ⟨2, ![1024, 8192]⟩ 1 8 c Xg3)
      (Layout.block ⟨2, ![1024, 1024]⟩ ⟨2, ![1024, 8192]⟩ 1 8 c Xg4) = fun _ => 1#1) :
    (∀ j, ∃ r : ℝ, Xg0 j = (r : EReal)) ∧ (∀ j, ∃ r : ℝ, Xg1 j = (r : EReal)) ∧ (∀ j, ∃ r : ℝ, Xg2 j = (r : EReal))
      ∧ (∀ j, ∃ r : ℝ, Xg3 j = (r : EReal)) ∧ (∀ j, ∃ r : ℝ, Xg4 j = (r : EReal)) :=
  ⟨(real_of_pre _ _ _ _ _ (h 0)).1,
    real_of_colBlocks Xg1 fun c => (real_of_pre _ _ _ _ _ (h c)).2.1,
    real_of_rowBlocks Xg2 fun c => (real_of_pre _ _ _ _ _ (h c)).2.2.1,
    real_of_colBlocks Xg3 fun c => (real_of_pre _ _ _ _ _ (h c)).2.2.2.1,
    real_of_colBlocks Xg4 fun c => (real_of_pre _ _ _ _ _ (h c)).2.2.2.2⟩

/-- info: 'Cert.RefSpec.real_of_pre_blocks' depends on axioms: [propext, Classical.choice, Quot.sound] -/
#guard_msgs in #print axioms real_of_pre_blocks

/-- info: 'Cert.RefSpec.real_of_pre' depends on axioms: [propext, Classical.choice, Quot.sound] -/
#guard_msgs in #print axioms real_of_pre

/-- info: 'Cert.RefSpec.real_of_colBlocks' depends on axioms: [propext, Classical.choice, Quot.sound] -/
#guard_msgs in #print axioms real_of_colBlocks

end Cert.RefSpec

end
-- ==== Proof.KernelIdeal.Claims.lean ====
/-
  The kernel's claims from one device's body obligation.

  FRAME. The frame of the body obligation, read at the extended reals.

  ALGEBRAIC. Every device's result array ends holding the widened accumulator after the three all-gather phases of the
  all-reduce of the devices' own products. Entry (0, i, n) of it is entry (i, n) of that accumulator (widening is the identity
  on the extended reals, the added unit axis only renames the index); the all-reduce leaves there the sum of the eight
  devices' products; device `d`'s operands being the blocks of the whole arguments, its product is the specification's
  contribution of column group `d`; and the reference's result, every entry of the arguments being a real number (which the
  precondition says of every device's blocks, and the blocks cover the whole arrays), is the specification's sum of the eight
  contributions. So every device's result is the reference's.
-/
import proofs.«900423_g7700000000000424_dist_attn_self_mha_htp_b1_sq512_skv512_d1024_hq8_dh128_v7x_i8_f32_1_alg».proof.Proof.KernelIdeal.FrameOfBody
import proofs.«900423_g7700000000000424_dist_attn_self_mha_htp_b1_sq512_skv512_d1024_hq8_dh128_v7x_i8_f32_1_alg».proof.Proof.KernelIdeal.KernelValue
import proofs.«900423_g7700000000000424_dist_attn_self_mha_htp_b1_sq512_skv512_d1024_hq8_dh128_v7x_i8_f32_1_alg».proof.Proof.RefSpec
import proofs.«900423_g7700000000000424_dist_attn_self_mha_htp_b1_sq512_skv512_d1024_hq8_dh128_v7x_i8_f32_1_alg».proof.Proof.RefFinite
import proofs.«900423_g7700000000000424_dist_attn_self_mha_htp_b1_sq512_skv512_d1024_hq8_dh128_v7x_i8_f32_1_alg».proof.Defs
import proofs.«900423_g7700000000000424_dist_attn_self_mha_htp_b1_sq512_skv512_d1024_hq8_dh128_v7x_i8_f32_1_alg».proof.Proof.Gen.Pre_finite_inputs_Kernel
import proofs.«900423_g7700000000000424_dist_attn_self_mha_htp_b1_sq512_skv512_d1024_hq8_dh128_v7x_i8_f32_1_alg».proof.Proof.Gen.ReferenceIdeal
import proofs.«900423_g7700000000000424_dist_attn_self_mha_htp_b1_sq512_skv512_d1024_hq8_dh128_v7x_i8_f32_1_alg».proof.Proof.Gen.ReferenceIdeal.Run
import proofs.«900423_g7700000000000424_dist_attn_self_mha_htp_b1_sq512_skv512_d1024_hq8_dh128_v7x_i8_f32_1_alg».proof.Proof.Gen.ReferenceIdeal.Read
import Idealize.ShloMosaic.Lib.ValueLayout

noncomputable section

namespace Cert.KernelIdeal.Coll

open Cert.KernelIdeal Cert.KernelIdeal.Gen Cert.KernelIdeal.Mesh

open Idealize.ShloMosaic Idealize.ShloMosaic.ValueIdx
open Idealize.ShloMosaic.TcCoe
open Idealize.SL Idealize.SL.Sem
open Idealize.ShloMosaic.Pipeline (Dat Cfg Window BodyObligation cellOf)

local notation "𝕀" => Idealize.ShloMosaic.Ideal

/-! ## The frame -/

/-- The frame claim at the extended reals. -/
theorem frame_KernelIdeal_of_body
    (hbody : ∀ (m : Mem 𝕀) (ρ : Dev nD → PrngReg) (c : Dev nD), BodyObligation (dats (F := 𝕀) m ρ (Pc m) 0 c) (defs₀ (F := 𝕀)) 𝒱₀ () Set.univ) :
    Cert.frame_KernelIdeal := fun m g _ => frame_of_body hbody m g

/-! ## The value -/

/-- Entry (u, i, n) of a device's result is entry (i, n) of its final accumulator. -/
theorem outAt_entry (P : Dev nD → AccC 𝕀) (c : Dev nD) (u : Fin 1) (i : Fin 512) (n : Fin 1024) :
    outAt P c (ix3 u i n) = A P 3 c (ix2 i n) := by
  unfold outAt k0_pay1
  exact shapeCast_ab_1ab_apply _ _ u i n

section Value
variable (m : Mem 𝕀)
  (m' : (ℓ : Loc Cert.ReferenceIdeal.nD Cert.ReferenceIdeal.τ Cert.ReferenceIdeal.sig) → Buf (Elt 𝕀) ℓ)

/-- The whole arguments: the reference's arrays. -/
abbrev Xg0 : (⟨3, ![1, 512, 1024]⟩ : Shape).Idx → EReal := m' (((0 : Dev Cert.ReferenceIdeal.nD).tc : Thread Cert.ReferenceIdeal.nD Cert.ReferenceIdeal.τ).loc Cert.ReferenceIdeal.main_arg0)
abbrev Xg1 : (⟨2, ![1024, 8192]⟩ : Shape).Idx → EReal := m' (((0 : Dev Cert.ReferenceIdeal.nD).tc : Thread Cert.ReferenceIdeal.nD Cert.ReferenceIdeal.τ).loc Cert.ReferenceIdeal.main_arg1)
abbrev Xg2 : (⟨2, ![8192, 1024]⟩ : Shape).Idx → EReal := m' (((0 : Dev Cert.ReferenceIdeal.nD).tc : Thread Cert.ReferenceIdeal.nD Cert.ReferenceIdeal.τ).loc Cert.ReferenceIdeal.main_arg2)
abbrev Xg3 : (⟨2, ![1024, 8192]⟩ : Shape).Idx → EReal := m' (((0 : Dev Cert.ReferenceIdeal.nD).tc : Thread Cert.ReferenceIdeal.nD Cert.ReferenceIdeal.τ).loc Cert.ReferenceIdeal.main_arg3)
abbrev Xg4 : (⟨2, ![1024, 8192]⟩ : Shape).Idx → EReal := m' (((0 : Dev Cert.ReferenceIdeal.nD).tc : Thread Cert.ReferenceIdeal.nD Cert.ReferenceIdeal.τ).loc Cert.ReferenceIdeal.main_arg4)

/-- Each device's argument buffers hold its part of the whole arguments. -/
def Agree : Prop := ∀ c : Dev nD,
  m ((c.tc : Thread nD τ).loc main_arg0) = Xg0 m'
  ∧ m ((c.tc : Thread nD τ).loc main_arg1) = Layout.block ⟨2, ![1024, 1024]⟩ ⟨2, ![1024, 8192]⟩ 1 8 c (Xg1 m')
  ∧ m ((c.tc : Thread nD τ).loc main_arg2) = Layout.block ⟨2, ![1024, 1024]⟩ ⟨2, ![8192, 1024]⟩ 0 8 c (Xg2 m')
  ∧ m ((c.tc : Thread nD τ).loc main_arg3) = Layout.block ⟨2, ![1024, 1024]⟩ ⟨2, ![1024, 8192]⟩ 1 8 c (Xg3 m')
  ∧ m ((c.tc : Thread nD τ).loc main_arg4) = Layout.block ⟨2, ![1024, 1024]⟩ ⟨2, ![1024, 8192]⟩ 1 8 c (Xg4 m')

variable {m m'}

/-- Every device's own product is its column group's: `Pdev` of the whole arguments. -/
theorem Pc_eq_Pdev (hagree : Agree m m') : Pc m = Pdev (Xg0 m') (Xg1 m') (Xg3 m') (Xg4 m') (Xg2 m') := funext fun c => by
  rw [Pc_eq, (hagree c).1, (hagree c).2.1, (hagree c).2.2.1, (hagree c).2.2.2.1, (hagree c).2.2.2.2]
  rfl

/-- Every entry of the whole arguments is a real number. -/
theorem real_args (hpre : Cert.Pre_KernelIdeal m) (hagree : Agree m m') :
    (∀ j, ∃ r : ℝ, Xg0 m' j = (r : EReal)) ∧ (∀ j, ∃ r : ℝ, Xg1 m' j = (r : EReal)) ∧ (∀ j, ∃ r : ℝ, Xg2 m' j = (r : EReal))
      ∧ (∀ j, ∃ r : ℝ, Xg3 m' j = (r : EReal)) ∧ (∀ j, ∃ r : ℝ, Xg4 m' j = (r : EReal)) :=
  Cert.RefSpec.real_of_pre_blocks (Xg0 m') (Xg1 m') (Xg3 m') (Xg4 m') (Xg2 m') fun c => by
    have h := hpre c
    rw [(hagree c).1, (hagree c).2.1, (hagree c).2.2.1, (hagree c).2.2.2.1, (hagree c).2.2.2.2] at h
    exact h

/-- EVERY DEVICE'S RESULT IS THE REFERENCE'S. -/
theorem out_eq_ref (hpre : Cert.Pre_KernelIdeal m) (hagree : Agree m m') (c : Dev nD) :
    outAt (Pc m) c = Cert.ReferenceIdeal.Value.res_main_v34 m' 0 := by
  funext j
  obtain ⟨u, i, n, rfl⟩ : ∃ (u : Fin 1) (i : Fin 512) (n : Fin 1024), j = ix3 u i n := ⟨j 0, j 1, j 2, eq_ix3 j⟩
  have hu : u = 0 := Subsingleton.elim _ _
  subst hu
  obtain ⟨h0, h1, h2, h3, h4⟩ := real_args hpre hagree
  rw [outAt_entry, Pc_eq_Pdev hagree, Cert.ReferenceIdeal.Read.val_main_v34_eq]
  exact (allreduce_out (Xg0 m') (Xg1 m') (Xg3 m') (Xg4 m') (Xg2 m') c i n).trans
    (Cert.RefSpec.result_eq (Xg0 m') (Xg1 m') (Xg2 m') (Xg3 m') (Xg4 m') h0 h1 h2 h3 h4 i n).symm

end Value

/-- The algebraic claim: every device's result is the reference's, both runs leaving their arguments unchanged. -/
theorem algebraic_of_body
    (hbody : ∀ (m : Mem 𝕀) (ρ : Dev nD → PrngReg) (c : Dev nD), BodyObligation (dats (F := 𝕀) m ρ (Pc m) 0 c) (defs₀ (F := 𝕀)) 𝒱₀ () Set.univ) :
    Cert.algebraic_KernelIdeal_ReferenceIdeal := fun m g m' g' hpre hagree =>
  ⟨Cert.ReferenceIdeal.Value.res_main_v34 m' 0,
    (θ_run defs _ _).mono (fun _ h c => ⟨((h c).1).trans (out_eq_ref hpre hagree c), (h c).2⟩) (run_frame m g (Pc m) (hbody m g)),
    (θ_run Cert.ReferenceIdeal.defs _ _).mono (fun _ h => h 0) (Cert.ReferenceIdeal.Value.run (F := 𝕀) m' g')⟩

/-- info: 'Cert.KernelIdeal.Coll.algebraic_of_body' depends on axioms: [propext, Classical.choice, Quot.sound] -/
#guard_msgs in #print axioms algebraic_of_body

/-- info: 'Cert.KernelIdeal.Coll.frame_KernelIdeal_of_body' depends on axioms: [propext, Classical.choice, Quot.sound] -/
#guard_msgs in #print axioms frame_KernelIdeal_of_body

end Cert.KernelIdeal.Coll

end
-- ==== Proof.KernelIdeal.Rows.lean ====
/-
  Runs of rows. Every piece of a scratch buffer the protocol hands around is a run of consecutive rows of a buffer of
  1024 columns: the elements whose row number lies in `[r, r + n)`. Membership in a run is a fact about the row number alone,
  so cutting a buffer into runs and putting runs back together is arithmetic on rows.
  Each copy's source rows, and the place it lands, are such runs: of the accumulator from row `srcRow i c`, or of a landing
  buffer from the slot's fixed row.
-/
import proofs.«900423_g7700000000000424_dist_attn_self_mha_htp_b1_sq512_skv512_d1024_hq8_dh128_v7x_i8_f32_1_alg».proof.Proof.KernelIdeal.Steps

noncomputable section

namespace Cert.KernelIdeal.Coll

open Cert.KernelIdeal Cert.KernelIdeal.Gen Cert.KernelIdeal.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- The elements of a buffer of `N` rows of 1024 whose row lies in `[r, r + n)`. -/
def rowSet (N r n : ℕ) : Finset (⟨2, ![N, 1024]⟩ : Shape).Idx :=
  Finset.univ.filter fun x => r ≤ (x 0).val ∧ (x 0).val < r + n

theorem mem_rowSet {N r n : ℕ} {x : (⟨2, ![N, 1024]⟩ : Shape).Idx} : x ∈ rowSet N r n ↔ r ≤ (x 0).val ∧ (x 0).val < r + n := by
  unfold rowSet; rw [Finset.mem_filter]; exact ⟨fun h => h.2, fun h => ⟨Finset.mem_univ _, h⟩⟩

/-- A rectangle of whole rows from row `off 0` is that run of rows. -/
theorem rect_rows {N n : ℕ} {off : Fin 2 → ℕ} (h1 : off 1 = 0)
    (inb : ∀ a, off a + (![n, 1024] : Fin 2 → ℕ) a ≤ (⟨2, ![N, 1024]⟩ : Shape).size a) :
    (Rect.unit (s := ⟨2, ![N, 1024]⟩) off ![n, 1024] inb).set = rowSet N (off 0) n := by
  ext x
  rw [Rect.mem_set_unit, mem_rowSet, Fin.forall_fin_two]
  constructor
  · intro h; exact h.1
  · intro h
    refine ⟨h, ?_⟩
    rw [h1]
    exact ⟨Nat.zero_le _, by have := (x 1).isLt; simpa using this⟩

/-- Two runs with no row in common share no element; a run inside another is a subset. -/
theorem rowSet_disjoint {N r n r' n' : ℕ} (h : r + n ≤ r' ∨ r' + n' ≤ r) : Disjoint (rowSet N r n) (rowSet N r' n') := by
  rw [Finset.disjoint_left]; intro x hx hx'
  rw [mem_rowSet] at hx hx'; omega
theorem rowSet_subset {N r n r' n' : ℕ} (h : r' ≤ r ∧ r + n ≤ r' + n') : rowSet N r n ⊆ rowSet N r' n' := by
  intro x hx; rw [mem_rowSet] at hx ⊢; omega
theorem rowSet_univ (N : ℕ) : rowSet N 0 N = Finset.univ := by
  ext x; rw [mem_rowSet]; exact ⟨fun _ => Finset.mem_univ _, fun _ => ⟨Nat.zero_le _, by have := (x 0).isLt; simpa using this⟩⟩
/-- A run less its leading rows, or its trailing rows, is the rest of the run. -/
theorem rowSet_sdiff_lead {N r n k : ℕ} (hk : k ≤ n) : rowSet N r n \ rowSet N r k = rowSet N (r + k) (n - k) := by
  ext x; rw [Finset.mem_sdiff, mem_rowSet, mem_rowSet, mem_rowSet]; omega
theorem rowSet_sdiff_trail {N r n k : ℕ} (hk : k ≤ n) : rowSet N r n \ rowSet N (r + (n - k)) k = rowSet N r (n - k) := by
  ext x; rw [Finset.mem_sdiff, mem_rowSet, mem_rowSet, mem_rowSet]; omega

/-! ## Each copy's rows, as runs -/

/-- The source rows of copy `i` of device `c`: `rowsOf i` rows of the accumulator from row `srcRow i c`. -/
theorem src_set_0 (c : Dev nD) : (accM.slice (Rect.unit (s := S512x1024) (k0_off1 c) S128x1024.size (k0_off1_inb c)) (fun _ => rfl)).view.set = rowSet 512 (srcRow 0 c) 128 := by
  have h := src0_eq c
  refine (View.set_slice_whole _ _).trans ?_
  refine (rect_rows (N := 512) (n := 128) (off := k0_off1 c) (by rw [h]; rfl) (k0_off1_inb c)).trans ?_
  rw [h]; rfl
theorem src_set_1 (c : Dev nD) : (accM.slice (Rect.unit (s := S512x1024) (k0_off2 c) S64x1024.size (k0_off2_inb c)) (fun _ => rfl)).view.set = rowSet 512 (srcRow 1 c) 64 := by
  have h := src1_eq c
  refine (View.set_slice_whole _ _).trans ?_
  refine (rect_rows (N := 512) (n := 64) (off := k0_off2 c) (by rw [h]; rfl) (k0_off2_inb c)).trans ?_
  rw [h]; rfl
theorem src_set_2 (c : Dev nD) : (accM.slice (Rect.unit (s := S512x1024) (k0_off3 c) S64x1024.size (k0_off3_inb c)) (fun _ => rfl)).view.set = rowSet 512 (srcRow 2 c) 64 := by
  have h := src2_eq c
  refine (View.set_slice_whole _ _).trans ?_
  refine (rect_rows (N := 512) (n := 64) (off := k0_off3 c) (by rw [h]; rfl) (k0_off3_inb c)).trans ?_
  rw [h]; rfl
theorem src_set_3 (c : Dev nD) : (accM.slice (Rect.unit (s := S512x1024) (k0_off5 c) S64x1024.size (k0_off5_inb c)) (fun _ => rfl)).view.set = rowSet 512 (srcRow 3 c) 64 := by
  have h := src3_eq c
  refine (View.set_slice_whole _ _).trans ?_
  refine (rect_rows (N := 512) (n := 64) (off := k0_off5 c) (by rw [h]; rfl) (k0_off5_inb c)).trans ?_
  rw [h]; rfl
theorem src_set_4 (c : Dev nD) : (accM.slice (Rect.unit (s := S512x1024) (k0_off7 c) S32x1024.size (k0_off7_inb c)) (fun _ => rfl)).view.set = rowSet 512 (srcRow 4 c) 32 := by
  have h := src4_eq c
  refine (View.set_slice_whole _ _).trans ?_
  refine (rect_rows (N := 512) (n := 32) (off := k0_off7 c) (by rw [h]; rfl) (k0_off7_inb c)).trans ?_
  rw [h]; rfl
theorem src_set_5 (c : Dev nD) : (accM.slice (Rect.unit (s := S512x1024) (k0_off9 c) S32x1024.size (k0_off9_inb c)) (fun _ => rfl)).view.set = rowSet 512 (srcRow 5 c) 32 := by
  have h := src5_eq c
  refine (View.set_slice_whole _ _).trans ?_
  refine (rect_rows (N := 512) (n := 32) (off := k0_off9 c) (by rw [h]; rfl) (k0_off9_inb c)).trans ?_
  rw [h]; rfl
theorem src_set_6 (c : Dev nD) : (accM.slice (Rect.unit (s := S512x1024) (k0_off11 c 0#32 32#32) S32x1024.size (k0_off11_inb c 0)) (fun _ => rfl)).view.set = rowSet 512 (srcRow 6 c) 32 := by
  have h := src6_eq c
  refine (View.set_slice_whole _ _).trans ?_
  refine (rect_rows (N := 512) (n := 32) (off := k0_off11 c 0#32 32#32) (by rw [h]; rfl) (k0_off11_inb c 0)).trans ?_
  rw [h]; rfl
theorem src_set_7 (c : Dev nD) : (accM.slice (Rect.unit (s := S512x1024) (k0_off13 c 0#32 16#32) S16x1024.size (k0_off13_inb c 0)) (fun _ => rfl)).view.set = rowSet 512 (srcRow 7 c) 16 := by
  have h := src7_eq c
  refine (View.set_slice_whole _ _).trans ?_
  refine (rect_rows (N := 512) (n := 16) (off := k0_off13 c 0#32 16#32) (by rw [h]; rfl) (k0_off13_inb c 0)).trans ?_
  rw [h]; rfl
theorem src_set_8 (c : Dev nD) : (accM.slice (Rect.unit (s := S512x1024) (k0_off15 c 0#32 16#32) S16x1024.size (k0_off15_inb c 0)) (fun _ => rfl)).view.set = rowSet 512 (srcRow 8 c) 16 := by
  have h := src8_eq c
  refine (View.set_slice_whole _ _).trans ?_
  refine (rect_rows (N := 512) (n := 16) (off := k0_off15 c 0#32 16#32) (by rw [h]; rfl) (k0_off15_inb c 0)).trans ?_
  rw [h]; rfl
theorem src_set_9 (c : Dev nD) : (accM.slice (Rect.unit (s := S512x1024) (k0_off11 c 32#32 0#32) S32x1024.size (k0_off11_inb c 1)) (fun _ => rfl)).view.set = rowSet 512 (srcRow 9 c) 32 := by
  have h := src9_eq c
  refine (View.set_slice_whole _ _).trans ?_
  refine (rect_rows (N := 512) (n := 32) (off := k0_off11 c 32#32 0#32) (by rw [h]; rfl) (k0_off11_inb c 1)).trans ?_
  rw [h]; rfl
theorem src_set_10 (c : Dev nD) : (accM.slice (Rect.unit (s := S512x1024) (k0_off13 c 16#32 0#32) S16x1024.size (k0_off13_inb c 1)) (fun _ => rfl)).view.set = rowSet 512 (srcRow 10 c) 16 := by
  have h := src10_eq c
  refine (View.set_slice_whole _ _).trans ?_
  refine (rect_rows (N := 512) (n := 16) (off := k0_off13 c 16#32 0#32) (by rw [h]; rfl) (k0_off13_inb c 1)).trans ?_
  rw [h]; rfl
theorem src_set_11 (c : Dev nD) : (accM.slice (Rect.unit (s := S512x1024) (k0_off15 c 16#32 0#32) S16x1024.size (k0_off15_inb c 1)) (fun _ => rfl)).view.set = rowSet 512 (srcRow 11 c) 16 := by
  have h := src11_eq c
  refine (View.set_slice_whole _ _).trans ?_
  refine (rect_rows (N := 512) (n := 16) (off := k0_off15 c 16#32 0#32) (by rw [h]; rfl) (k0_off15_inb c 1)).trans ?_
  rw [h]; rfl
theorem src_set_12 (c : Dev nD) : (accM.slice (Rect.unit (s := S512x1024) (k0_off19 c) S64x1024.size (k0_off19_inb c)) (fun _ => rfl)).view.set = rowSet 512 (srcRow 12 c) 64 := by
  have h := src12_eq c
  refine (View.set_slice_whole _ _).trans ?_
  refine (rect_rows (N := 512) (n := 64) (off := k0_off19 c) (by rw [h]; rfl) (k0_off19_inb c)).trans ?_
  rw [h]; rfl
theorem src_set_13 (c : Dev nD) : (accM.slice (Rect.unit (s := S512x1024) (k0_off20 c) S32x1024.size (k0_off20_inb c)) (fun _ => rfl)).view.set = rowSet 512 (srcRow 13 c) 32 := by
  have h := src13_eq c
  refine (View.set_slice_whole _ _).trans ?_
  refine (rect_rows (N := 512) (n := 32) (off := k0_off20 c) (by rw [h]; rfl) (k0_off20_inb c)).trans ?_
  rw [h]; rfl
theorem src_set_14 (c : Dev nD) : (accM.slice (Rect.unit (s := S512x1024) (k0_off21 c) S32x1024.size (k0_off21_inb c)) (fun _ => rfl)).view.set = rowSet 512 (srcRow 14 c) 32 := by
  have h := src14_eq c
  refine (View.set_slice_whole _ _).trans ?_
  refine (rect_rows (N := 512) (n := 32) (off := k0_off21 c) (by rw [h]; rfl) (k0_off21_inb c)).trans ?_
  rw [h]; rfl
theorem src_set_15 (c : Dev nD) : (accM.slice (Rect.unit (s := S512x1024) (k0_off22 c) S128x1024.size (k0_off22_inb c)) (fun _ => rfl)).view.set = rowSet 512 (srcRow 15 c) 128 := by
  have h := src15_eq c
  refine (View.set_slice_whole _ _).trans ?_
  refine (rect_rows (N := 512) (n := 128) (off := k0_off22 c) (by rw [h]; rfl) (k0_off22_inb c)).trans ?_
  rw [h]; rfl
theorem src_set_16 (c : Dev nD) : (accM.slice (Rect.unit (s := S512x1024) (k0_off23 c) S64x1024.size (k0_off23_inb c)) (fun _ => rfl)).view.set = rowSet 512 (srcRow 16 c) 64 := by
  have h := src16_eq c
  refine (View.set_slice_whole _ _).trans ?_
  refine (rect_rows (N := 512) (n := 64) (off := k0_off23 c) (by rw [h]; rfl) (k0_off23_inb c)).trans ?_
  rw [h]; rfl
theorem src_set_17 (c : Dev nD) : (accM.slice (Rect.unit (s := S512x1024) (k0_off24 c) S64x1024.size (k0_off24_inb c)) (fun _ => rfl)).view.set = rowSet 512 (srcRow 17 c) 64 := by
  have h := src17_eq c
  refine (View.set_slice_whole _ _).trans ?_
  refine (rect_rows (N := 512) (n := 64) (off := k0_off24 c) (by rw [h]; rfl) (k0_off24_inb c)).trans ?_
  rw [h]; rfl

/-- Where a reduce-scatter copy lands: a fixed run of rows of its phase's landing buffer. -/
theorem slot_set_0 : (comm0M.slice (Rect.unit (s := S256x1024) ![0, 0] S128x1024.size inb_S256x1024_S128x1024_0_0) (fun _ => rfl)).view.set = rowSet 256 0 128 :=
  (View.set_slice_whole _ _).trans (rect_rows (N := 256) (n := 128) (off := ![0, 0]) rfl inb_S256x1024_S128x1024_0_0)
theorem slot_set_1 : (comm0M.slice (Rect.unit (s := S256x1024) ![128, 0] S64x1024.size inb_S256x1024_S64x1024_128_0) (fun _ => rfl)).view.set = rowSet 256 128 64 :=
  (View.set_slice_whole _ _).trans (rect_rows (N := 256) (n := 64) (off := ![128, 0]) rfl inb_S256x1024_S64x1024_128_0)
theorem slot_set_2 : (comm0M.slice (Rect.unit (s := S256x1024) ![192, 0] S64x1024.size inb_S256x1024_S64x1024_192_0) (fun _ => rfl)).view.set = rowSet 256 192 64 :=
  (View.set_slice_whole _ _).trans (rect_rows (N := 256) (n := 64) (off := ![192, 0]) rfl inb_S256x1024_S64x1024_192_0)
theorem slot_set_3 : (comm1M.slice (Rect.unit (s := S128x1024) ![0, 0] S64x1024.size inb_S128x1024_S64x1024_0_0) (fun _ => rfl)).view.set = rowSet 128 0 64 :=
  (View.set_slice_whole _ _).trans (rect_rows (N := 128) (n := 64) (off := ![0, 0]) rfl inb_S128x1024_S64x1024_0_0)
theorem slot_set_4 : (comm1M.slice (Rect.unit (s := S128x1024) ![64, 0] S32x1024.size inb_S128x1024_S32x1024_64_0) (fun _ => rfl)).view.set = rowSet 128 64 32 :=
  (View.set_slice_whole _ _).trans (rect_rows (N := 128) (n := 32) (off := ![64, 0]) rfl inb_S128x1024_S32x1024_64_0)
theorem slot_set_5 : (comm1M.slice (Rect.unit (s := S128x1024) ![96, 0] S32x1024.size inb_S128x1024_S32x1024_96_0) (fun _ => rfl)).view.set = rowSet 128 96 32 :=
  (View.set_slice_whole _ _).trans (rect_rows (N := 128) (n := 32) (off := ![96, 0]) rfl inb_S128x1024_S32x1024_96_0)
theorem slot_set_6 : (comm2M.slice (Rect.unit (s := S64x1024) ![0, 0] S32x1024.size inb_S64x1024_S32x1024_0_0) (fun _ => rfl)).view.set = rowSet 64 0 32 :=
  (View.set_slice_whole _ _).trans (rect_rows (N := 64) (n := 32) (off := ![0, 0]) rfl inb_S64x1024_S32x1024_0_0)
theorem slot_set_7 : (comm2M.slice (Rect.unit (s := S64x1024) ![32, 0] S16x1024.size inb_S64x1024_S16x1024_32_0) (fun _ => rfl)).view.set = rowSet 64 32 16 :=
  (View.set_slice_whole _ _).trans (rect_rows (N := 64) (n := 16) (off := ![32, 0]) rfl inb_S64x1024_S16x1024_32_0)
theorem slot_set_8 : (comm2M.slice (Rect.unit (s := S64x1024) ![48, 0] S16x1024.size inb_S64x1024_S16x1024_48_0) (fun _ => rfl)).view.set = rowSet 64 48 16 :=
  (View.set_slice_whole _ _).trans (rect_rows (N := 64) (n := 16) (off := ![48, 0]) rfl inb_S64x1024_S16x1024_48_0)

/-! ## Cutting and joining -/

/-- The accumulator of device `c`, and its landing buffers. -/
abbrev accL (c : Dev nD) : Loc nD τ sig := (c : Thread nD τ).loc cc0_scratch0
abbrev comm0L (c : Dev nD) : Loc nD τ sig := (c : Thread nD τ).loc cc0_scratch1
abbrev comm1L (c : Dev nD) : Loc nD τ sig := (c : Thread nD τ).loc cc0_scratch2
abbrev comm2L (c : Dev nD) : Loc nD τ sig := (c : Thread nD τ).loc cc0_scratch3

omit [FloatOps F] in
/-- A run of the accumulator's rows is its leading `k` rows and the rest. -/
theorem acc_cut (c : Dev nD) (f : Buf (Elt F) (accL c)) {r n k : ℕ} (hk : k ≤ n) :
    (accL c ↦[rowSet 512 r n]{fullShare} f : sProp 𝕄)
      ⊣⊢ iprop((accL c ↦[rowSet 512 r k]{fullShare} f) ∗ accL c ↦[rowSet 512 (r + k) (n - k)]{fullShare} f) := by
  have h := pointsTo_split_subset (Ix := Unit) (Val := Elt F) (Name := ℕ) (U := UU) (Lvl := ℕ) (ℓ := accL c) (q := fullShare) (f := f)
    (I := rowSet 512 r k) (S := rowSet 512 r n) (rowSet_subset ⟨le_rfl, by omega⟩)
  rwa [rowSet_sdiff_lead hk] at h

omit [FloatOps F] in
/-- The whole accumulator is its 512 rows. -/
theorem acc_whole (c : Dev nD) (f : Buf (Elt F) (accL c)) :
    (accL c ↦{fullShare} f : sProp 𝕄) = (accL c ↦[rowSet 512 0 512]{fullShare} f) := by
  rw [rowSet_univ]

omit [FloatOps F] in
theorem comm0_cut (c : Dev nD) (f : Buf (Elt F) (comm0L c)) :
    (comm0L c ↦{fullShare} f : sProp 𝕄)
      ⊣⊢ iprop((comm0L c ↦[rowSet 256 0 128]{fullShare} f) ∗ (comm0L c ↦[rowSet 256 128 64]{fullShare} f) ∗ comm0L c ↦[rowSet 256 192 64]{fullShare} f) := by
  have h1 := pointsTo_split_subset (Ix := Unit) (Val := Elt F) (Name := ℕ) (U := UU) (Lvl := ℕ) (ℓ := comm0L c) (q := fullShare) (f := f)
    (I := rowSet 256 0 128) (S := rowSet 256 0 256) (rowSet_subset ⟨le_rfl, by omega⟩)
  rw [rowSet_sdiff_lead (by omega), rowSet_univ] at h1
  have h2 := pointsTo_split_subset (Ix := Unit) (Val := Elt F) (Name := ℕ) (U := UU) (Lvl := ℕ) (ℓ := comm0L c) (q := fullShare) (f := f)
    (I := rowSet 256 128 64) (S := rowSet 256 (0 + 128) (256 - 128)) (rowSet_subset ⟨le_rfl, by omega⟩)
  rw [rowSet_sdiff_lead (by omega)] at h2
  exact ⟨h1.1.trans (sep_mono_right h2.1), (sep_mono_right h2.2).trans h1.2⟩

omit [FloatOps F] in
theorem comm1_cut (c : Dev nD) (f : Buf (Elt F) (comm1L c)) :
    (comm1L c ↦{fullShare} f : sProp 𝕄)
      ⊣⊢ iprop((comm1L c ↦[rowSet 128 0 64]{fullShare} f) ∗ (comm1L c ↦[rowSet 128 64 32]{fullShare} f) ∗ comm1L c ↦[rowSet 128 96 32]{fullShare} f) := by
  have h1 := pointsTo_split_subset (Ix := Unit) (Val := Elt F) (Name := ℕ) (U := UU) (Lvl := ℕ) (ℓ := comm1L c) (q := fullShare) (f := f)
    (I := rowSet 128 0 64) (S := rowSet 128 0 128) (rowSet_subset ⟨le_rfl, by omega⟩)
  rw [rowSet_sdiff_lead (by omega), rowSet_univ] at h1
  have h2 := pointsTo_split_subset (Ix := Unit) (Val := Elt F) (Name := ℕ) (U := UU) (Lvl := ℕ) (ℓ := comm1L c) (q := fullShare) (f := f)
    (I := rowSet 128 64 32) (S := rowSet 128 (0 + 64) (128 - 64)) (rowSet_subset ⟨le_rfl, by omega⟩)
  rw [rowSet_sdiff_lead (by omega)] at h2
  exact ⟨h1.1.trans (sep_mono_right h2.1), (sep_mono_right h2.2).trans h1.2⟩

omit [FloatOps F] in
theorem comm2_cut (c : Dev nD) (f : Buf (Elt F) (comm2L c)) :
    (comm2L c ↦{fullShare} f : sProp 𝕄)
      ⊣⊢ iprop((comm2L c ↦[rowSet 64 0 32]{fullShare} f) ∗ (comm2L c ↦[rowSet 64 32 16]{fullShare} f) ∗ comm2L c ↦[rowSet 64 48 16]{fullShare} f) := by
  have h1 := pointsTo_split_subset (Ix := Unit) (Val := Elt F) (Name := ℕ) (U := UU) (Lvl := ℕ) (ℓ := comm2L c) (q := fullShare) (f := f)
    (I := rowSet 64 0 32) (S := rowSet 64 0 64) (rowSet_subset ⟨le_rfl, by omega⟩)
  rw [rowSet_sdiff_lead (by omega), rowSet_univ] at h1
  have h2 := pointsTo_split_subset (Ix := Unit) (Val := Elt F) (Name := ℕ) (U := UU) (Lvl := ℕ) (ℓ := comm2L c) (q := fullShare) (f := f)
    (I := rowSet 64 32 16) (S := rowSet 64 (0 + 32) (64 - 32)) (rowSet_subset ⟨le_rfl, by omega⟩)
  rw [rowSet_sdiff_lead (by omega)] at h2
  exact ⟨h1.1.trans (sep_mono_right h2.1), (sep_mono_right h2.2).trans h1.2⟩

/-! ## The halves -/

/-- At reduce-scatter copy `i` the rows a device sends and the rows it keeps are the two halves of the rows it held: the
    part's rows at phase 0, what it kept one phase earlier afterwards. -/
theorem halves_0 : ∀ c : Dev nD, (srcRow 0 c = 0 ∧ keepRow 0 c = 0 + 128) ∨ (srcRow 0 c = 0 + 128 ∧ keepRow 0 c = 0) := by decide
theorem halves_1 : ∀ c : Dev nD, (srcRow 1 c = 256 ∧ keepRow 1 c = 256 + 64) ∨ (srcRow 1 c = 256 + 64 ∧ keepRow 1 c = 256) := by decide
theorem halves_2 : ∀ c : Dev nD, (srcRow 2 c = 384 ∧ keepRow 2 c = 384 + 64) ∨ (srcRow 2 c = 384 + 64 ∧ keepRow 2 c = 384) := by decide
theorem halves_3 : ∀ c : Dev nD, (srcRow 3 c = keepRow 0 c ∧ keepRow 3 c = keepRow 0 c + 64) ∨ (srcRow 3 c = keepRow 0 c + 64 ∧ keepRow 3 c = keepRow 0 c) := by decide
theorem halves_4 : ∀ c : Dev nD, (srcRow 4 c = keepRow 1 c ∧ keepRow 4 c = keepRow 1 c + 32) ∨ (srcRow 4 c = keepRow 1 c + 32 ∧ keepRow 4 c = keepRow 1 c) := by decide
theorem halves_5 : ∀ c : Dev nD, (srcRow 5 c = keepRow 2 c ∧ keepRow 5 c = keepRow 2 c + 32) ∨ (srcRow 5 c = keepRow 2 c + 32 ∧ keepRow 5 c = keepRow 2 c) := by decide
theorem halves_6 : ∀ c : Dev nD, (srcRow 6 c = keepRow 3 c ∧ keepRow 6 c = keepRow 3 c + 32) ∨ (srcRow 6 c = keepRow 3 c + 32 ∧ keepRow 6 c = keepRow 3 c) := by decide
theorem halves_7 : ∀ c : Dev nD, (srcRow 7 c = keepRow 4 c ∧ keepRow 7 c = keepRow 4 c + 16) ∨ (srcRow 7 c = keepRow 4 c + 16 ∧ keepRow 7 c = keepRow 4 c) := by decide
theorem halves_8 : ∀ c : Dev nD, (srcRow 8 c = keepRow 5 c ∧ keepRow 8 c = keepRow 5 c + 16) ∨ (srcRow 8 c = keepRow 5 c + 16 ∧ keepRow 8 c = keepRow 5 c) := by decide

end Cert.KernelIdeal.Coll

end
-- ==== Proof.KernelIdeal.BodyPrep.lean ====
/-
  Small facts the body's run uses over and over: an eighteen-fold conjunction written out; one cell's invariant, and that
  its round 0 is open, picked out of what every device knows; and each landing buffer as its three slots, in the views the
  copies name them by.
-/
import proofs.«900423_g7700000000000424_dist_attn_self_mha_htp_b1_sq512_skv512_d1024_hq8_dh128_v7x_i8_f32_1_alg».proof.Proof.KernelIdeal.Rows

noncomputable section

namespace Cert.KernelIdeal.Coll

open Cert.KernelIdeal Cert.KernelIdeal.Gen Cert.KernelIdeal.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

omit [FloatOps F] in
theorem bigSep_fin18 (Φ : Fin 18 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17) :=
  bigSep_univ_eq_bigSepL [0, 1, 2, 3, 4, 5, 6, 7, 8, 9, 10, 11, 12, 13, 14, 15, 16, 17] (by decide) (by decide) Φ
omit [FloatOps F] in
theorem bigSep_fin3' (Φ : Fin 3 → sProp 𝕄) : bigSep Finset.univ Φ = iprop(Φ 0 ∗ Φ 1 ∗ Φ 2) :=
  bigSep_univ_eq_bigSepL [0, 1, 2] (by decide) (by decide) Φ

section
variable (P : Dev nD → AccC F) (K : Dev nD × CK → ℕ)

theorem inv_bar (n : Dev nD) :
    (bigSep Finset.univ fun ck : Dev nD × CK => (cellInv ER (rd P) (K ck) (kcell ck) : sProp 𝕄)) ⊢ cellInv ER (rd P) (K (n, ckBar)) (barCell n) :=
  bigSep_elim (Finset.mem_univ (n, ckBar))
theorem inv_send (i : Fin 18) (n : Dev nD) :
    (bigSep Finset.univ fun ck : Dev nD × CK => (cellInv ER (rd P) (K ck) (kcell ck) : sProp 𝕄)) ⊢ cellInv ER (rd P) (K (n, ckSend i)) (sendCell i n) := by
  rw [← kcell_send]; exact bigSep_elim (Finset.mem_univ (n, ckSend i))
theorem inv_recv (i : Fin 18) (n : Dev nD) :
    (bigSep Finset.univ fun ck : Dev nD × CK => (cellInv ER (rd P) (K ck) (kcell ck) : sProp 𝕄)) ⊢ cellInv ER (rd P) (K (n, ckRecv i)) (recvCell i n) := by
  rw [← kcell_recv]; exact bigSep_elim (Finset.mem_univ (n, ckRecv i))

omit [FloatOps F] in
theorem reached_bar (n : Dev nD) :
    (bigSep Finset.univ fun ck : Dev nD × CK => (reached ER (kcell ck) 0 : sProp 𝕄)) ⊢ reached ER (barCell n) 0 :=
  bigSep_elim (Finset.mem_univ (n, ckBar))
omit [FloatOps F] in
theorem reached_send (i : Fin 18) (n : Dev nD) :
    (bigSep Finset.univ fun ck : Dev nD × CK => (reached ER (kcell ck) 0 : sProp 𝕄)) ⊢ reached ER (sendCell i n) 0 := by
  rw [← kcell_send]; exact bigSep_elim (Finset.mem_univ (n, ckSend i))
omit [FloatOps F] in
theorem reached_recv (i : Fin 18) (n : Dev nD) :
    (bigSep Finset.univ fun ck : Dev nD × CK => (reached ER (kcell ck) 0 : sProp 𝕄)) ⊢ reached ER (recvCell i n) 0 := by
  rw [← kcell_recv]; exact bigSep_elim (Finset.mem_univ (n, ckRecv i))

end

/-! ## The landing buffers as their slots -/

omit [FloatOps F] in
theorem comm0_slots (c n0 n1 n2 : Dev nD) (f : Buf (Elt F) (comm0L c)) :
    (comm0L c ↦{fullShare} f : sProp 𝕄) ⊣⊢ iprop(dstPts 0 n0 c f ∗ dstPts 1 n1 c f ∗ dstPts 2 n2 c f) := by
  have h := comm0_cut c f
  rw [← slot_set_0, ← slot_set_1, ← slot_set_2] at h
  exact h
omit [FloatOps F] in
theorem comm1_slots (c n0 n1 n2 : Dev nD) (f : Buf (Elt F) (comm1L c)) :
    (comm1L c ↦{fullShare} f : sProp 𝕄) ⊣⊢ iprop(dstPts 3 n0 c f ∗ dstPts 4 n1 c f ∗ dstPts 5 n2 c f) := by
  have h := comm1_cut c f
  rw [← slot_set_3, ← slot_set_4, ← slot_set_5] at h
  exact h
omit [FloatOps F] in
theorem comm2_slots (c n0 n1 n2 : Dev nD) (f : Buf (Elt F) (comm2L c)) :
    (comm2L c ↦{fullShare} f : sProp 𝕄) ⊣⊢ iprop(dstPts 6 n0 c f ∗ dstPts 7 n1 c f ∗ dstPts 8 n2 c f) := by
  have h := comm2_cut c f
  rw [← slot_set_6, ← slot_set_7, ← slot_set_8] at h
  exact h

end Cert.KernelIdeal.Coll

end
-- ==== Proof.KernelIdeal.Halves.lean ====
/-
  Holding the accumulator by runs of rows, each run named as the kernel names it: a part (rows 0–255, 256–383, 384–511),
  the rows a copy reads, or the rows a reduce-scatter phase keeps and adds into. At each reduce-scatter copy the rows held
  are cut into the rows sent and the rows kept — the two halves, in the order the device's side of the pairing decides.
-/
import proofs.«900423_g7700000000000424_dist_attn_self_mha_htp_b1_sq512_skv512_d1024_hq8_dh128_v7x_i8_f32_1_alg».proof.Proof.KernelIdeal.BodyPrep

noncomputable section

namespace Cert.KernelIdeal.Coll

open Cert.KernelIdeal Cert.KernelIdeal.Gen Cert.KernelIdeal.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- Device `c` holds the elements of the view `M` at contents `f`. -/
abbrev heldV {s : Shape} {e : EltTy} (c : Dev nD) (M : Memref sig .tc .vmem s e) (f : Buf (Elt F) (M.view.loc (c : Thread nD τ))) : sProp 𝕄 :=
  M.view.loc (c : Thread nD τ) ↦[M.view.set]{fullShare} f

/-! ## The rows kept at a reduce-scatter copy, and the parts, as runs -/
theorem keep_set_0 (c : Dev nD) : (accM.slice (Rect.unit (s := S512x1024) (k0_off4 c) S128x1024.size (k0_off4_inb c)) (fun _ => rfl)).view.set = rowSet 512 (keepRow 0 c) 128 := by
  have h := keep0_eq c
  refine (View.set_slice_whole _ _).trans ?_
  refine (rect_rows (N := 512) (n := 128) (off := k0_off4 c) (by rw [h]; rfl) (k0_off4_inb c)).trans ?_
  rw [h]; rfl
theorem keep_set_1 (c : Dev nD) : (accM.slice (Rect.unit (s := S512x1024) (k0_off6 c) S64x1024.size (k0_off6_inb c)) (fun _ => rfl)).view.set = rowSet 512 (keepRow 1 c) 64 := by
  have h := keep1_eq c
  refine (View.set_slice_whole _ _).trans ?_
  refine (rect_rows (N := 512) (n := 64) (off := k0_off6 c) (by rw [h]; rfl) (k0_off6_inb c)).trans ?_
  rw [h]; rfl
theorem keep_set_2 (c : Dev nD) : (accM.slice (Rect.unit (s := S512x1024) (k0_off8 c) S64x1024.size (k0_off8_inb c)) (fun _ => rfl)).view.set = rowSet 512 (keepRow 2 c) 64 := by
  have h := keep2_eq c
  refine (View.set_slice_whole _ _).trans ?_
  refine (rect_rows (N := 512) (n := 64) (off := k0_off8 c) (by rw [h]; rfl) (k0_off8_inb c)).trans ?_
  rw [h]; rfl
theorem keep_set_3 (c : Dev nD) : (accM.slice (Rect.unit (s := S512x1024) (k0_off10 c) S64x1024.size (k0_off10_inb c)) (fun _ => rfl)).view.set = rowSet 512 (keepRow 3 c) 64 := by
  have h := keep3_eq c
  refine (View.set_slice_whole _ _).trans ?_
  refine (rect_rows (N := 512) (n := 64) (off := k0_off10 c) (by rw [h]; rfl) (k0_off10_inb c)).trans ?_
  rw [h]; rfl
theorem keep_set_4 (c : Dev nD) : (accM.slice (Rect.unit (s := S512x1024) (k0_off12 c) S32x1024.size (k0_off12_inb c)) (fun _ => rfl)).view.set = rowSet 512 (keepRow 4 c) 32 := by
  have h := keep4_eq c
  refine (View.set_slice_whole _ _).trans ?_
  refine (rect_rows (N := 512) (n := 32) (off := k0_off12 c) (by rw [h]; rfl) (k0_off12_inb c)).trans ?_
  rw [h]; rfl
theorem keep_set_5 (c : Dev nD) : (accM.slice (Rect.unit (s := S512x1024) (k0_off14 c) S32x1024.size (k0_off14_inb c)) (fun _ => rfl)).view.set = rowSet 512 (keepRow 5 c) 32 := by
  have h := keep5_eq c
  refine (View.set_slice_whole _ _).trans ?_
  refine (rect_rows (N := 512) (n := 32) (off := k0_off14 c) (by rw [h]; rfl) (k0_off14_inb c)).trans ?_
  rw [h]; rfl
theorem keep_set_6 (c : Dev nD) : (accM.slice (Rect.unit (s := S512x1024) (k0_off16 c) S32x1024.size (k0_off16_inb c)) (fun _ => rfl)).view.set = rowSet 512 (keepRow 6 c) 32 := by
  have h := keep6_eq c
  refine (View.set_slice_whole _ _).trans ?_
  refine (rect_rows (N := 512) (n := 32) (off := k0_off16 c) (by rw [h]; rfl) (k0_off16_inb c)).trans ?_
  rw [h]; rfl
theorem keep_set_7 (c : Dev nD) : (accM.slice (Rect.unit (s := S512x1024) (k0_off17 c) S16x1024.size (k0_off17_inb c)) (fun _ => rfl)).view.set = rowSet 512 (keepRow 7 c) 16 := by
  have h := keep7_eq c
  refine (View.set_slice_whole _ _).trans ?_
  refine (rect_rows (N := 512) (n := 16) (off := k0_off17 c) (by rw [h]; rfl) (k0_off17_inb c)).trans ?_
  rw [h]; rfl
theorem keep_set_8 (c : Dev nD) : (accM.slice (Rect.unit (s := S512x1024) (k0_off18 c) S16x1024.size (k0_off18_inb c)) (fun _ => rfl)).view.set = rowSet 512 (keepRow 8 c) 16 := by
  have h := keep8_eq c
  refine (View.set_slice_whole _ _).trans ?_
  refine (rect_rows (N := 512) (n := 16) (off := k0_off18 c) (by rw [h]; rfl) (k0_off18_inb c)).trans ?_
  rw [h]; rfl
theorem part_set_0 : (accM.slice (Rect.unit (s := S512x1024) ![0, 0] S256x1024.size inb_S512x1024_S256x1024_0_0) (fun _ => rfl)).view.set = rowSet 512 0 256 :=
  (View.set_slice_whole _ _).trans (rect_rows (N := 512) (n := 256) (off := ![0, 0]) rfl inb_S512x1024_S256x1024_0_0)
theorem part_set_1 : (accM.slice (Rect.unit (s := S512x1024) ![256, 0] S128x1024.size inb_S512x1024_S128x1024_256_0) (fun _ => rfl)).view.set = rowSet 512 256 128 :=
  (View.set_slice_whole _ _).trans (rect_rows (N := 512) (n := 128) (off := ![256, 0]) rfl inb_S512x1024_S128x1024_256_0)
theorem part_set_2 : (accM.slice (Rect.unit (s := S512x1024) ![384, 0] S128x1024.size inb_S512x1024_S128x1024_384_0) (fun _ => rfl)).view.set = rowSet 512 384 128 :=
  (View.set_slice_whole _ _).trans (rect_rows (N := 512) (n := 128) (off := ![384, 0]) rfl inb_S512x1024_S128x1024_384_0)

/-! ## Cutting -/

omit [FloatOps F] in
/-- Two runs that are the two halves, in either order, of a run of `2 r` rows. -/
theorem acc_halve (c : Dev nD) (f : Buf (Elt F) (accL c)) {lo r s k : ℕ} (h : (s = lo ∧ k = lo + r) ∨ (s = lo + r ∧ k = lo)) :
    (accL c ↦[rowSet 512 lo (2 * r)]{fullShare} f : sProp 𝕄)
      ⊣⊢ iprop((accL c ↦[rowSet 512 s r]{fullShare} f) ∗ accL c ↦[rowSet 512 k r]{fullShare} f) := by
  have hc := acc_cut (F := F) c f (r := lo) (n := 2 * r) (k := r) (by omega)
  rw [show 2 * r - r = r by omega] at hc
  rcases h with ⟨rfl, rfl⟩ | ⟨rfl, rfl⟩
  · exact hc
  · exact ⟨hc.1.trans sep_comm.1, sep_comm.1.trans hc.2⟩

omit [FloatOps F] in
/-- The whole accumulator is its three parts. -/
theorem acc_parts (c : Dev nD) (f : Buf (Elt F) (accL c)) :
    (accL c ↦{fullShare} f : sProp 𝕄)
      ⊣⊢ iprop(((accM.slice (Rect.unit (s := S512x1024) ![0, 0] S256x1024.size inb_S512x1024_S256x1024_0_0) (fun _ => rfl)).view.loc (c : Thread nD τ) ↦[(accM.slice (Rect.unit (s := S512x1024) ![0, 0] S256x1024.size inb_S512x1024_S256x1024_0_0) (fun _ => rfl)).view.set]{fullShare} f) ∗ ((accM.slice (Rect.unit (s := S512x1024) ![256, 0] S128x1024.size inb_S512x1024_S128x1024_256_0) (fun _ => rfl)).view.loc (c : Thread nD τ) ↦[(accM.slice (Rect.unit (s := S512x1024) ![256, 0] S128x1024.size inb_S512x1024_S128x1024_256_0) (fun _ => rfl)).view.set]{fullShare} f) ∗ ((accM.slice (Rect.unit (s := S512x1024) ![384, 0] S128x1024.size inb_S512x1024_S128x1024_384_0) (fun _ => rfl)).view.loc (c : Thread nD τ) ↦[(accM.slice (Rect.unit (s := S512x1024) ![384, 0] S128x1024.size inb_S512x1024_S128x1024_384_0) (fun _ => rfl)).view.set]{fullShare} f)) := by
  rw [part_set_0, part_set_1, part_set_2, acc_whole]
  have h1 := acc_cut (F := F) c f (r := 0) (n := 512) (k := 256) (by omega)
  have h2 := acc_cut (F := F) c f (r := 0 + 256) (n := 512 - 256) (k := 128) (by omega)
  exact ⟨h1.1.trans (sep_mono_right h2.1), (sep_mono_right h2.2).trans h1.2⟩

/-! ## A held view as a run of rows, one view at a time -/

omit [FloatOps F] in
theorem src_pts_0 (c : Dev nD) (f : Buf (Elt F) (accL c)) :
    (((accM.slice (Rect.unit (s := S512x1024) (k0_off1 c) S128x1024.size (k0_off1_inb c)) (fun _ => rfl)).view.loc (c : Thread nD τ) ↦[(accM.slice (Rect.unit (s := S512x1024) (k0_off1 c) S128x1024.size (k0_off1_inb c)) (fun _ => rfl)).view.set]{fullShare} f) : sProp 𝕄)
      = (accL c ↦[rowSet 512 (srcRow 0 c) 128]{fullShare} f) := by
  rw [src_set_0 c]
omit [FloatOps F] in
theorem src_pts_1 (c : Dev nD) (f : Buf (Elt F) (accL c)) :
    (((accM.slice (Rect.unit (s := S512x1024) (k0_off2 c) S64x1024.size (k0_off2_inb c)) (fun _ => rfl)).view.loc (c : Thread nD τ) ↦[(accM.slice (Rect.unit (s := S512x1024) (k0_off2 c) S64x1024.size (k0_off2_inb c)) (fun _ => rfl)).view.set]{fullShare} f) : sProp 𝕄)
      = (accL c ↦[rowSet 512 (srcRow 1 c) 64]{fullShare} f) := by
  rw [src_set_1 c]
omit [FloatOps F] in
theorem src_pts_2 (c : Dev nD) (f : Buf (Elt F) (accL c)) :
    (((accM.slice (Rect.unit (s := S512x1024) (k0_off3 c) S64x1024.size (k0_off3_inb c)) (fun _ => rfl)).view.loc (c : Thread nD τ) ↦[(accM.slice (Rect.unit (s := S512x1024) (k0_off3 c) S64x1024.size (k0_off3_inb c)) (fun _ => rfl)).view.set]{fullShare} f) : sProp 𝕄)
      = (accL c ↦[rowSet 512 (srcRow 2 c) 64]{fullShare} f) := by
  rw [src_set_2 c]
omit [FloatOps F] in
theorem src_pts_3 (c : Dev nD) (f : Buf (Elt F) (accL c)) :
    (((accM.slice (Rect.unit (s := S512x1024) (k0_off5 c) S64x1024.size (k0_off5_inb c)) (fun _ => rfl)).view.loc (c : Thread nD τ) ↦[(accM.slice (Rect.unit (s := S512x1024) (k0_off5 c) S64x1024.size (k0_off5_inb c)) (fun _ => rfl)).view.set]{fullShare} f) : sProp 𝕄)
      = (accL c ↦[rowSet 512 (srcRow 3 c) 64]{fullShare} f) := by
  rw [src_set_3 c]
omit [FloatOps F] in
theorem src_pts_4 (c : Dev nD) (f : Buf (Elt F) (accL c)) :
    (((accM.slice (Rect.unit (s := S512x1024) (k0_off7 c) S32x1024.size (k0_off7_inb c)) (fun _ => rfl)).view.loc (c : Thread nD τ) ↦[(accM.slice (Rect.unit (s := S512x1024) (k0_off7 c) S32x1024.size (k0_off7_inb c)) (fun _ => rfl)).view.set]{fullShare} f) : sProp 𝕄)
      = (accL c ↦[rowSet 512 (srcRow 4 c) 32]{fullShare} f) := by
  rw [src_set_4 c]
omit [FloatOps F] in
theorem src_pts_5 (c : Dev nD) (f : Buf (Elt F) (accL c)) :
    (((accM.slice (Rect.unit (s := S512x1024) (k0_off9 c) S32x1024.size (k0_off9_inb c)) (fun _ => rfl)).view.loc (c : Thread nD τ) ↦[(accM.slice (Rect.unit (s := S512x1024) (k0_off9 c) S32x1024.size (k0_off9_inb c)) (fun _ => rfl)).view.set]{fullShare} f) : sProp 𝕄)
      = (accL c ↦[rowSet 512 (srcRow 5 c) 32]{fullShare} f) := by
  rw [src_set_5 c]
omit [FloatOps F] in
theorem src_pts_6 (c : Dev nD) (f : Buf (Elt F) (accL c)) :
    (((accM.slice (Rect.unit (s := S512x1024) (k0_off11 c 0#32 32#32) S32x1024.size (k0_off11_inb c 0)) (fun _ => rfl)).view.loc (c : Thread nD τ) ↦[(accM.slice (Rect.unit (s := S512x1024) (k0_off11 c 0#32 32#32) S32x1024.size (k0_off11_inb c 0)) (fun _ => rfl)).view.set]{fullShare} f) : sProp 𝕄)
      = (accL c ↦[rowSet 512 (srcRow 6 c) 32]{fullShare} f) := by
  rw [src_set_6 c]
omit [FloatOps F] in
theorem src_pts_7 (c : Dev nD) (f : Buf (Elt F) (accL c)) :
    (((accM.slice (Rect.unit (s := S512x1024) (k0_off13 c 0#32 16#32) S16x1024.size (k0_off13_inb c 0)) (fun _ => rfl)).view.loc (c : Thread nD τ) ↦[(accM.slice (Rect.unit (s := S512x1024) (k0_off13 c 0#32 16#32) S16x1024.size (k0_off13_inb c 0)) (fun _ => rfl)).view.set]{fullShare} f) : sProp 𝕄)
      = (accL c ↦[rowSet 512 (srcRow 7 c) 16]{fullShare} f) := by
  rw [src_set_7 c]
omit [FloatOps F] in
theorem src_pts_8 (c : Dev nD) (f : Buf (Elt F) (accL c)) :
    (((accM.slice (Rect.unit (s := S512x1024) (k0_off15 c 0#32 16#32) S16x1024.size (k0_off15_inb c 0)) (fun _ => rfl)).view.loc (c : Thread nD τ) ↦[(accM.slice (Rect.unit (s := S512x1024) (k0_off15 c 0#32 16#32) S16x1024.size (k0_off15_inb c 0)) (fun _ => rfl)).view.set]{fullShare} f) : sProp 𝕄)
      = (accL c ↦[rowSet 512 (srcRow 8 c) 16]{fullShare} f) := by
  rw [src_set_8 c]
omit [FloatOps F] in
theorem src_pts_9 (c : Dev nD) (f : Buf (Elt F) (accL c)) :
    (((accM.slice (Rect.unit (s := S512x1024) (k0_off11 c 32#32 0#32) S32x1024.size (k0_off11_inb c 1)) (fun _ => rfl)).view.loc (c : Thread nD τ) ↦[(accM.slice (Rect.unit (s := S512x1024) (k0_off11 c 32#32 0#32) S32x1024.size (k0_off11_inb c 1)) (fun _ => rfl)).view.set]{fullShare} f) : sProp 𝕄)
      = (accL c ↦[rowSet 512 (srcRow 9 c) 32]{fullShare} f) := by
  rw [src_set_9 c]
omit [FloatOps F] in
theorem src_pts_10 (c : Dev nD) (f : Buf (Elt F) (accL c)) :
    (((accM.slice (Rect.unit (s := S512x1024) (k0_off13 c 16#32 0#32) S16x1024.size (k0_off13_inb c 1)) (fun _ => rfl)).view.loc (c : Thread nD τ) ↦[(accM.slice (Rect.unit (s := S512x1024) (k0_off13 c 16#32 0#32) S16x1024.size (k0_off13_inb c 1)) (fun _ => rfl)).view.set]{fullShare} f) : sProp 𝕄)
      = (accL c ↦[rowSet 512 (srcRow 10 c) 16]{fullShare} f) := by
  rw [src_set_10 c]
omit [FloatOps F] in
theorem src_pts_11 (c : Dev nD) (f : Buf (Elt F) (accL c)) :
    (((accM.slice (Rect.unit (s := S512x1024) (k0_off15 c 16#32 0#32) S16x1024.size (k0_off15_inb c 1)) (fun _ => rfl)).view.loc (c : Thread nD τ) ↦[(accM.slice (Rect.unit (s := S512x1024) (k0_off15 c 16#32 0#32) S16x1024.size (k0_off15_inb c 1)) (fun _ => rfl)).view.set]{fullShare} f) : sProp 𝕄)
      = (accL c ↦[rowSet 512 (srcRow 11 c) 16]{fullShare} f) := by
  rw [src_set_11 c]
omit [FloatOps F] in
theorem src_pts_12 (c : Dev nD) (f : Buf (Elt F) (accL c)) :
    (((accM.slice (Rect.unit (s := S512x1024) (k0_off19 c) S64x1024.size (k0_off19_inb c)) (fun _ => rfl)).view.loc (c : Thread nD τ) ↦[(accM.slice (Rect.unit (s := S512x1024) (k0_off19 c) S64x1024.size (k0_off19_inb c)) (fun _ => rfl)).view.set]{fullShare} f) : sProp 𝕄)
      = (accL c ↦[rowSet 512 (srcRow 12 c) 64]{fullShare} f) := by
  rw [src_set_12 c]
omit [FloatOps F] in
theorem src_pts_13 (c : Dev nD) (f : Buf (Elt F) (accL c)) :
    (((accM.slice (Rect.unit (s := S512x1024) (k0_off20 c) S32x1024.size (k0_off20_inb c)) (fun _ => rfl)).view.loc (c : Thread nD τ) ↦[(accM.slice (Rect.unit (s := S512x1024) (k0_off20 c) S32x1024.size (k0_off20_inb c)) (fun _ => rfl)).view.set]{fullShare} f) : sProp 𝕄)
      = (accL c ↦[rowSet 512 (srcRow 13 c) 32]{fullShare} f) := by
  rw [src_set_13 c]
omit [FloatOps F] in
theorem src_pts_14 (c : Dev nD) (f : Buf (Elt F) (accL c)) :
    (((accM.slice (Rect.unit (s := S512x1024) (k0_off21 c) S32x1024.size (k0_off21_inb c)) (fun _ => rfl)).view.loc (c : Thread nD τ) ↦[(accM.slice (Rect.unit (s := S512x1024) (k0_off21 c) S32x1024.size (k0_off21_inb c)) (fun _ => rfl)).view.set]{fullShare} f) : sProp 𝕄)
      = (accL c ↦[rowSet 512 (srcRow 14 c) 32]{fullShare} f) := by
  rw [src_set_14 c]
omit [FloatOps F] in
theorem src_pts_15 (c : Dev nD) (f : Buf (Elt F) (accL c)) :
    (((accM.slice (Rect.unit (s := S512x1024) (k0_off22 c) S128x1024.size (k0_off22_inb c)) (fun _ => rfl)).view.loc (c : Thread nD τ) ↦[(accM.slice (Rect.unit (s := S512x1024) (k0_off22 c) S128x1024.size (k0_off22_inb c)) (fun _ => rfl)).view.set]{fullShare} f) : sProp 𝕄)
      = (accL c ↦[rowSet 512 (srcRow 15 c) 128]{fullShare} f) := by
  rw [src_set_15 c]
omit [FloatOps F] in
theorem src_pts_16 (c : Dev nD) (f : Buf (Elt F) (accL c)) :
    (((accM.slice (Rect.unit (s := S512x1024) (k0_off23 c) S64x1024.size (k0_off23_inb c)) (fun _ => rfl)).view.loc (c : Thread nD τ) ↦[(accM.slice (Rect.unit (s := S512x1024) (k0_off23 c) S64x1024.size (k0_off23_inb c)) (fun _ => rfl)).view.set]{fullShare} f) : sProp 𝕄)
      = (accL c ↦[rowSet 512 (srcRow 16 c) 64]{fullShare} f) := by
  rw [src_set_16 c]
omit [FloatOps F] in
theorem src_pts_17 (c : Dev nD) (f : Buf (Elt F) (accL c)) :
    (((accM.slice (Rect.unit (s := S512x1024) (k0_off24 c) S64x1024.size (k0_off24_inb c)) (fun _ => rfl)).view.loc (c : Thread nD τ) ↦[(accM.slice (Rect.unit (s := S512x1024) (k0_off24 c) S64x1024.size (k0_off24_inb c)) (fun _ => rfl)).view.set]{fullShare} f) : sProp 𝕄)
      = (accL c ↦[rowSet 512 (srcRow 17 c) 64]{fullShare} f) := by
  rw [src_set_17 c]
omit [FloatOps F] in
theorem keep_pts_0 (c : Dev nD) (f : Buf (Elt F) (accL c)) :
    (((accM.slice (Rect.unit (s := S512x1024) (k0_off4 c) S128x1024.size (k0_off4_inb c)) (fun _ => rfl)).view.loc (c : Thread nD τ) ↦[(accM.slice (Rect.unit (s := S512x1024) (k0_off4 c) S128x1024.size (k0_off4_inb c)) (fun _ => rfl)).view.set]{fullShare} f) : sProp 𝕄)
      = (accL c ↦[rowSet 512 (keepRow 0 c) 128]{fullShare} f) := by
  rw [keep_set_0 c]
omit [FloatOps F] in
theorem keep_pts_1 (c : Dev nD) (f : Buf (Elt F) (accL c)) :
    (((accM.slice (Rect.unit (s := S512x1024) (k0_off6 c) S64x1024.size (k0_off6_inb c)) (fun _ => rfl)).view.loc (c : Thread nD τ) ↦[(accM.slice (Rect.unit (s := S512x1024) (k0_off6 c) S64x1024.size (k0_off6_inb c)) (fun _ => rfl)).view.set]{fullShare} f) : sProp 𝕄)
      = (accL c ↦[rowSet 512 (keepRow 1 c) 64]{fullShare} f) := by
  rw [keep_set_1 c]
omit [FloatOps F] in
theorem keep_pts_2 (c : Dev nD) (f : Buf (Elt F) (accL c)) :
    (((accM.slice (Rect.unit (s := S512x1024) (k0_off8 c) S64x1024.size (k0_off8_inb c)) (fun _ => rfl)).view.loc (c : Thread nD τ) ↦[(accM.slice (Rect.unit (s := S512x1024) (k0_off8 c) S64x1024.size (k0_off8_inb c)) (fun _ => rfl)).view.set]{fullShare} f) : sProp 𝕄)
      = (accL c ↦[rowSet 512 (keepRow 2 c) 64]{fullShare} f) := by
  rw [keep_set_2 c]
omit [FloatOps F] in
theorem keep_pts_3 (c : Dev nD) (f : Buf (Elt F) (accL c)) :
    (((accM.slice (Rect.unit (s := S512x1024) (k0_off10 c) S64x1024.size (k0_off10_inb c)) (fun _ => rfl)).view.loc (c : Thread nD τ) ↦[(accM.slice (Rect.unit (s := S512x1024) (k0_off10 c) S64x1024.size (k0_off10_inb c)) (fun _ => rfl)).view.set]{fullShare} f) : sProp 𝕄)
      = (accL c ↦[rowSet 512 (keepRow 3 c) 64]{fullShare} f) := by
  rw [keep_set_3 c]
omit [FloatOps F] in
theorem keep_pts_4 (c : Dev nD) (f : Buf (Elt F) (accL c)) :
    (((accM.slice (Rect.unit (s := S512x1024) (k0_off12 c) S32x1024.size (k0_off12_inb c)) (fun _ => rfl)).view.loc (c : Thread nD τ) ↦[(accM.slice (Rect.unit (s := S512x1024) (k0_off12 c) S32x1024.size (k0_off12_inb c)) (fun _ => rfl)).view.set]{fullShare} f) : sProp 𝕄)
      = (accL c ↦[rowSet 512 (keepRow 4 c) 32]{fullShare} f) := by
  rw [keep_set_4 c]
omit [FloatOps F] in
theorem keep_pts_5 (c : Dev nD) (f : Buf (Elt F) (accL c)) :
    (((accM.slice (Rect.unit (s := S512x1024) (k0_off14 c) S32x1024.size (k0_off14_inb c)) (fun _ => rfl)).view.loc (c : Thread nD τ) ↦[(accM.slice (Rect.unit (s := S512x1024) (k0_off14 c) S32x1024.size (k0_off14_inb c)) (fun _ => rfl)).view.set]{fullShare} f) : sProp 𝕄)
      = (accL c ↦[rowSet 512 (keepRow 5 c) 32]{fullShare} f) := by
  rw [keep_set_5 c]
omit [FloatOps F] in
theorem keep_pts_6 (c : Dev nD) (f : Buf (Elt F) (accL c)) :
    (((accM.slice (Rect.unit (s := S512x1024) (k0_off16 c) S32x1024.size (k0_off16_inb c)) (fun _ => rfl)).view.loc (c : Thread nD τ) ↦[(accM.slice (Rect.unit (s := S512x1024) (k0_off16 c) S32x1024.size (k0_off16_inb c)) (fun _ => rfl)).view.set]{fullShare} f) : sProp 𝕄)
      = (accL c ↦[rowSet 512 (keepRow 6 c) 32]{fullShare} f) := by
  rw [keep_set_6 c]
omit [FloatOps F] in
theorem keep_pts_7 (c : Dev nD) (f : Buf (Elt F) (accL c)) :
    (((accM.slice (Rect.unit (s := S512x1024) (k0_off17 c) S16x1024.size (k0_off17_inb c)) (fun _ => rfl)).view.loc (c : Thread nD τ) ↦[(accM.slice (Rect.unit (s := S512x1024) (k0_off17 c) S16x1024.size (k0_off17_inb c)) (fun _ => rfl)).view.set]{fullShare} f) : sProp 𝕄)
      = (accL c ↦[rowSet 512 (keepRow 7 c) 16]{fullShare} f) := by
  rw [keep_set_7 c]
omit [FloatOps F] in
theorem keep_pts_8 (c : Dev nD) (f : Buf (Elt F) (accL c)) :
    (((accM.slice (Rect.unit (s := S512x1024) (k0_off18 c) S16x1024.size (k0_off18_inb c)) (fun _ => rfl)).view.loc (c : Thread nD τ) ↦[(accM.slice (Rect.unit (s := S512x1024) (k0_off18 c) S16x1024.size (k0_off18_inb c)) (fun _ => rfl)).view.set]{fullShare} f) : sProp 𝕄)
      = (accL c ↦[rowSet 512 (keepRow 8 c) 16]{fullShare} f) := by
  rw [keep_set_8 c]
omit [FloatOps F] in
theorem part_pts_0 (c : Dev nD) (f : Buf (Elt F) (accL c)) :
    (((accM.slice (Rect.unit (s := S512x1024) ![0, 0] S256x1024.size inb_S512x1024_S256x1024_0_0) (fun _ => rfl)).view.loc (c : Thread nD τ) ↦[(accM.slice (Rect.unit (s := S512x1024) ![0, 0] S256x1024.size inb_S512x1024_S256x1024_0_0) (fun _ => rfl)).view.set]{fullShare} f) : sProp 𝕄)
      = (accL c ↦[rowSet 512 (0) 256]{fullShare} f) := by
  rw [part_set_0]
omit [FloatOps F] in
theorem part_pts_1 (c : Dev nD) (f : Buf (Elt F) (accL c)) :
    (((accM.slice (Rect.unit (s := S512x1024) ![256, 0] S128x1024.size inb_S512x1024_S128x1024_256_0) (fun _ => rfl)).view.loc (c : Thread nD τ) ↦[(accM.slice (Rect.unit (s := S512x1024) ![256, 0] S128x1024.size inb_S512x1024_S128x1024_256_0) (fun _ => rfl)).view.set]{fullShare} f) : sProp 𝕄)
      = (accL c ↦[rowSet 512 (256) 128]{fullShare} f) := by
  rw [part_set_1]
omit [FloatOps F] in
theorem part_pts_2 (c : Dev nD) (f : Buf (Elt F) (accL c)) :
    (((accM.slice (Rect.unit (s := S512x1024) ![384, 0] S128x1024.size inb_S512x1024_S128x1024_384_0) (fun _ => rfl)).view.loc (c : Thread nD τ) ↦[(accM.slice (Rect.unit (s := S512x1024) ![384, 0] S128x1024.size inb_S512x1024_S128x1024_384_0) (fun _ => rfl)).view.set]{fullShare} f) : sProp 𝕄)
      = (accL c ↦[rowSet 512 (384) 128]{fullShare} f) := by
  rw [part_set_2]

end Cert.KernelIdeal.Coll

end
-- ==== Proof.KernelIdeal.Joins.lean ====
/-
  The all-gather's bookkeeping of rows. The rows a partner's reduce-scatter copy `i` read (handed over with its landing) are
  the rows my all-gather copy `undo i` writes on that partner: my kept rows of copy `i`. What a partner's all-gather copy lands
  on my accumulator are the rows I sent at copy `i`; with my kept rows they make up the rows I held one phase earlier, now at
  two contents: the joined run holds, row by row, whichever content covers the row.
-/
import proofs.«900423_g7700000000000424_dist_attn_self_mha_htp_b1_sq512_skv512_d1024_hq8_dh128_v7x_i8_f32_1_alg».proof.Proof.KernelIdeal.Halves

noncomputable section

namespace Cert.KernelIdeal.Coll

open Cert.KernelIdeal Cert.KernelIdeal.Gen Cert.KernelIdeal.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Rows of partners -/

/-- The partner's sent rows at reduce-scatter copy `i` are my kept rows; its kept rows are my sent rows. -/
theorem src_peer : ∀ (i : Fin 9) (c : Dev nD), srcRow ⟨i.val, by omega⟩ (peer (maskOf ⟨i.val, by omega⟩) c) = keepRow i c := by decide
theorem keep_peer' : ∀ (i : Fin 9) (c : Dev nD), keepRow i (peer (maskOf ⟨i.val, by omega⟩) c) = srcRow ⟨i.val, by omega⟩ c := by decide
/-- The all-gather copy undoing copy `i` reads my kept rows; the partner's reads my sent rows. -/
theorem undo_src_peer : ∀ (i : Fin 9) (c : Dev nD), srcRow (undo i) (peer (maskOf ⟨i.val, by omega⟩) c) = srcRow ⟨i.val, by omega⟩ c := by decide

/-! ## An all-gather copy's landing place on the partner, as a run -/
omit [FloatOps F] in
theorem dst_pts_9 (c c' : Dev nD) (f : Buf (Elt F) (accL c')) :
    (((accM.slice (Rect.unit (s := S512x1024) (k0_off11 c 32#32 0#32) S32x1024.size (k0_off11_inb c 1)) (fun _ => rfl)).view.loc (c' : Thread nD τ) ↦[(accM.slice (Rect.unit (s := S512x1024) (k0_off11 c 32#32 0#32) S32x1024.size (k0_off11_inb c 1)) (fun _ => rfl)).view.set]{fullShare} f) : sProp 𝕄)
      = (accL c' ↦[rowSet 512 (srcRow 9 c) 32]{fullShare} f) := by
  rw [src_set_9 c]
omit [FloatOps F] in
theorem dst_pts_10 (c c' : Dev nD) (f : Buf (Elt F) (accL c')) :
    (((accM.slice (Rect.unit (s := S512x1024) (k0_off13 c 16#32 0#32) S16x1024.size (k0_off13_inb c 1)) (fun _ => rfl)).view.loc (c' : Thread nD τ) ↦[(accM.slice (Rect.unit (s := S512x1024) (k0_off13 c 16#32 0#32) S16x1024.size (k0_off13_inb c 1)) (fun _ => rfl)).view.set]{fullShare} f) : sProp 𝕄)
      = (accL c' ↦[rowSet 512 (srcRow 10 c) 16]{fullShare} f) := by
  rw [src_set_10 c]
omit [FloatOps F] in
theorem dst_pts_11 (c c' : Dev nD) (f : Buf (Elt F) (accL c')) :
    (((accM.slice (Rect.unit (s := S512x1024) (k0_off15 c 16#32 0#32) S16x1024.size (k0_off15_inb c 1)) (fun _ => rfl)).view.loc (c' : Thread nD τ) ↦[(accM.slice (Rect.unit (s := S512x1024) (k0_off15 c 16#32 0#32) S16x1024.size (k0_off15_inb c 1)) (fun _ => rfl)).view.set]{fullShare} f) : sProp 𝕄)
      = (accL c' ↦[rowSet 512 (srcRow 11 c) 16]{fullShare} f) := by
  rw [src_set_11 c]
omit [FloatOps F] in
theorem dst_pts_12 (c c' : Dev nD) (f : Buf (Elt F) (accL c')) :
    (((accM.slice (Rect.unit (s := S512x1024) (k0_off19 c) S64x1024.size (k0_off19_inb c)) (fun _ => rfl)).view.loc (c' : Thread nD τ) ↦[(accM.slice (Rect.unit (s := S512x1024) (k0_off19 c) S64x1024.size (k0_off19_inb c)) (fun _ => rfl)).view.set]{fullShare} f) : sProp 𝕄)
      = (accL c' ↦[rowSet 512 (srcRow 12 c) 64]{fullShare} f) := by
  rw [src_set_12 c]
omit [FloatOps F] in
theorem dst_pts_13 (c c' : Dev nD) (f : Buf (Elt F) (accL c')) :
    (((accM.slice (Rect.unit (s := S512x1024) (k0_off20 c) S32x1024.size (k0_off20_inb c)) (fun _ => rfl)).view.loc (c' : Thread nD τ) ↦[(accM.slice (Rect.unit (s := S512x1024) (k0_off20 c) S32x1024.size (k0_off20_inb c)) (fun _ => rfl)).view.set]{fullShare} f) : sProp 𝕄)
      = (accL c' ↦[rowSet 512 (srcRow 13 c) 32]{fullShare} f) := by
  rw [src_set_13 c]
omit [FloatOps F] in
theorem dst_pts_14 (c c' : Dev nD) (f : Buf (Elt F) (accL c')) :
    (((accM.slice (Rect.unit (s := S512x1024) (k0_off21 c) S32x1024.size (k0_off21_inb c)) (fun _ => rfl)).view.loc (c' : Thread nD τ) ↦[(accM.slice (Rect.unit (s := S512x1024) (k0_off21 c) S32x1024.size (k0_off21_inb c)) (fun _ => rfl)).view.set]{fullShare} f) : sProp 𝕄)
      = (accL c' ↦[rowSet 512 (srcRow 14 c) 32]{fullShare} f) := by
  rw [src_set_14 c]
omit [FloatOps F] in
theorem dst_pts_15 (c c' : Dev nD) (f : Buf (Elt F) (accL c')) :
    (((accM.slice (Rect.unit (s := S512x1024) (k0_off22 c) S128x1024.size (k0_off22_inb c)) (fun _ => rfl)).view.loc (c' : Thread nD τ) ↦[(accM.slice (Rect.unit (s := S512x1024) (k0_off22 c) S128x1024.size (k0_off22_inb c)) (fun _ => rfl)).view.set]{fullShare} f) : sProp 𝕄)
      = (accL c' ↦[rowSet 512 (srcRow 15 c) 128]{fullShare} f) := by
  rw [src_set_15 c]
omit [FloatOps F] in
theorem dst_pts_16 (c c' : Dev nD) (f : Buf (Elt F) (accL c')) :
    (((accM.slice (Rect.unit (s := S512x1024) (k0_off23 c) S64x1024.size (k0_off23_inb c)) (fun _ => rfl)).view.loc (c' : Thread nD τ) ↦[(accM.slice (Rect.unit (s := S512x1024) (k0_off23 c) S64x1024.size (k0_off23_inb c)) (fun _ => rfl)).view.set]{fullShare} f) : sProp 𝕄)
      = (accL c' ↦[rowSet 512 (srcRow 16 c) 64]{fullShare} f) := by
  rw [src_set_16 c]
omit [FloatOps F] in
theorem dst_pts_17 (c c' : Dev nD) (f : Buf (Elt F) (accL c')) :
    (((accM.slice (Rect.unit (s := S512x1024) (k0_off24 c) S64x1024.size (k0_off24_inb c)) (fun _ => rfl)).view.loc (c' : Thread nD τ) ↦[(accM.slice (Rect.unit (s := S512x1024) (k0_off24 c) S64x1024.size (k0_off24_inb c)) (fun _ => rfl)).view.set]{fullShare} f) : sProp 𝕄)
      = (accL c' ↦[rowSet 512 (srcRow 17 c) 64]{fullShare} f) := by
  rw [src_set_17 c]

/-! ## Joining -/

theorem rowSet_union_halves {N lo r s k : ℕ} (h : (s = lo ∧ k = lo + r) ∨ (s = lo + r ∧ k = lo)) :
    rowSet N s r ∪ rowSet N k r = rowSet N lo (2 * r) := by
  ext x; rw [Finset.mem_union, mem_rowSet, mem_rowSet, mem_rowSet]
  rcases h with ⟨rfl, rfl⟩ | ⟨rfl, rfl⟩ <;> omega

omit [FloatOps F] in
/-- Two runs that are the two halves of a run, held at two contents, are the run held at the content that covers each row. -/
theorem acc_join (c : Dev nD) (f g : Buf (Elt F) (accL c)) {lo r s k : ℕ} (h : (s = lo ∧ k = lo + r) ∨ (s = lo + r ∧ k = lo)) :
    iprop((accL c ↦[rowSet 512 s r]{fullShare} f) ∗ accL c ↦[rowSet 512 k r]{fullShare} g)
      ⊢ (accL c ↦[rowSet 512 lo (2 * r)]{fullShare} ((rowSet 512 k r).piecewise g f) : sProp 𝕄) := by
  have hd : Disjoint (rowSet 512 s r) (rowSet 512 k r) := rowSet_disjoint (by rcases h with ⟨rfl, rfl⟩ | ⟨rfl, rfl⟩ <;> omega)
  have hj := pointsTo_join (Ix := Unit) (Val := Elt F) (Name := ℕ) (U := UU) (Lvl := ℕ) (ℓ := accL c) (q := fullShare) (f := f) (g := g) hd
  rwa [rowSet_union_halves h] at hj

end Cert.KernelIdeal.Coll

end
-- ==== Proof.KernelIdeal.BodyEnd.lean ====
/-
  The end of a device's body: what it holds is put back together.

  CELLS. After its one wait a copy's send or receive cell stands one round on, where no round has a duty any more: its owner
  closes it and keeps the counter, at zero. All thirty-six at once.
  LANDING BUFFERS. A landing buffer's three slots are runs of rows that make up the buffer: held at any three contents they
  are the buffer whole at some contents.
  ACCUMULATOR. The three parts make up the accumulator. Contents that read alike through a view agree on the view's
  elements; so parts that each read as one contents `X` reads are the accumulator whole at `X`.
-/
import proofs.«900423_g7700000000000424_dist_attn_self_mha_htp_b1_sq512_skv512_d1024_hq8_dh128_v7x_i8_f32_1_alg».proof.Proof.KernelIdeal.Halves

noncomputable section

namespace Cert.KernelIdeal.Coll

open Cert.KernelIdeal Cert.KernelIdeal.Gen Cert.KernelIdeal.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Closing the copies' cells -/

section Close
variable (P : Dev nD → AccC F)

/-- A send cell one round on closes: its counter, at zero, is its owner's again. -/
theorem close_send (c : Dev nD) (i : Fin 18) {κ : ℕ} :
    iprop(cellInv ER (rd P) κ (sendCell i c) ∗ atPos ER (sendCell i c) 1 ∅ 0) ⊢ (iprop(|={Set.univ}=> semVal (sendCell i c) 0) : sProp 𝕄) :=
  Rounds.cell_close ER (rd P) (Set.mem_univ κ) (fun h => h) (R := 1) (duties_later P (sendCell i c))

/-- A receive cell likewise. -/
theorem close_recv (c : Dev nD) (i : Fin 18) {κ : ℕ} :
    iprop(cellInv ER (rd P) κ (recvCell i c) ∗ atPos ER (recvCell i c) 1 ∅ 0) ⊢ (iprop(|={Set.univ}=> semVal (recvCell i c) 0) : sProp 𝕄) :=
  Rounds.cell_close ER (rd P) (Set.mem_univ κ) (fun h => h) (R := 1) (duties_later P (recvCell i c))

/-- All thirty-six: from every cell's invariant and the thirty-six positions, the thirty-six counters at zero. -/
theorem close_all (K : Dev nD × CK → ℕ) (c : Dev nD) :
    iprop((bigSep Finset.univ fun ck : Dev nD × CK => (cellInv ER (rd P) (K ck) (kcell ck) : sProp 𝕄))
        ∗ bigSep Finset.univ fun i : Fin 18 => iprop(atPos ER (sendCell i c) 1 ∅ 0 ∗ atPos ER (recvCell i c) 1 ∅ 0))
      ⊢ (iprop(|={Set.univ}=> bigSep Finset.univ fun i : Fin 18 => iprop(semVal (sendCell i c) 0 ∗ semVal (recvCell i c) 0)) : sProp 𝕄) := by
  refine (bigSep_with_persistent (R := bigSep Finset.univ fun ck : Dev nD × CK => (cellInv ER (rd P) (K ck) (kcell ck) : sProp 𝕄))
    (Ψ := fun i : Fin 18 => iprop(|={Set.univ}=> iprop(semVal (sendCell i c) 0 ∗ semVal (recvCell i c) 0))) fun i _ => ?_).trans (bigSep_fupd _ _)
  iintro ⟨#HI, HaS, HaR⟩
  imod (close_send P c i (κ := K (c, ckSend i))) $$ [HaS] with HzS
  · isplitr; · iapply (inv_send P K i c); iexact HI
    iexact HaS
  imod (close_recv P c i (κ := K (c, ckRecv i))) $$ [HaR] with HzR
  · isplitr; · iapply (inv_recv P K i c); iexact HI
    iexact HaR
  imodintro
  isplitl [HzS] <;> iassumption

/-- The same from the thirty-six positions written out, copy by copy. -/
theorem close_all_chain (K : Dev nD × CK → ℕ) (c : Dev nD) :
    iprop((bigSep Finset.univ fun ck : Dev nD × CK => (cellInv ER (rd P) (K ck) (kcell ck) : sProp 𝕄))
        ∗ ((atPos ER (sendCell 0 c) 1 ∅ 0 ∗ atPos ER (recvCell 0 c) 1 ∅ 0)
          ∗ (atPos ER (sendCell 1 c) 1 ∅ 0 ∗ atPos ER (recvCell 1 c) 1 ∅ 0)
          ∗ (atPos ER (sendCell 2 c) 1 ∅ 0 ∗ atPos ER (recvCell 2 c) 1 ∅ 0)
          ∗ (atPos ER (sendCell 3 c) 1 ∅ 0 ∗ atPos ER (recvCell 3 c) 1 ∅ 0)
          ∗ (atPos ER (sendCell 4 c) 1 ∅ 0 ∗ atPos ER (recvCell 4 c) 1 ∅ 0)
          ∗ (atPos ER (sendCell 5 c) 1 ∅ 0 ∗ atPos ER (recvCell 5 c) 1 ∅ 0)
          ∗ (atPos ER (sendCell 6 c) 1 ∅ 0 ∗ atPos ER (recvCell 6 c) 1 ∅ 0)
          ∗ (atPos ER (sendCell 7 c) 1 ∅ 0 ∗ atPos ER (recvCell 7 c) 1 ∅ 0)
          ∗ (atPos ER (sendCell 8 c) 1 ∅ 0 ∗ atPos ER (recvCell 8 c) 1 ∅ 0)
          ∗ (atPos ER (sendCell 9 c) 1 ∅ 0 ∗ atPos ER (recvCell 9 c) 1 ∅ 0)
          ∗ (atPos ER (sendCell 10 c) 1 ∅ 0 ∗ atPos ER (recvCell 10 c) 1 ∅ 0)
          ∗ (atPos ER (sendCell 11 c) 1 ∅ 0 ∗ atPos ER (recvCell 11 c) 1 ∅ 0)
          ∗ (atPos ER (sendCell 12 c) 1 ∅ 0 ∗ atPos ER (recvCell 12 c) 1 ∅ 0)
          ∗ (atPos ER (sendCell 13 c) 1 ∅ 0 ∗ atPos ER (recvCell 13 c) 1 ∅ 0)
          ∗ (atPos ER (sendCell 14 c) 1 ∅ 0 ∗ atPos ER (recvCell 14 c) 1 ∅ 0)
          ∗ (atPos ER (sendCell 15 c) 1 ∅ 0 ∗ atPos ER (recvCell 15 c) 1 ∅ 0)
          ∗ (atPos ER (sendCell 16 c) 1 ∅ 0 ∗ atPos ER (recvCell 16 c) 1 ∅ 0)
          ∗ (atPos ER (sendCell 17 c) 1 ∅ 0 ∗ atPos ER (recvCell 17 c) 1 ∅ 0)))
      ⊢ (iprop(|={Set.univ}=> bigSep Finset.univ fun i : Fin 18 => iprop(semVal (sendCell i c) 0 ∗ semVal (recvCell i c) 0)) : sProp 𝕄) :=
  (sep_mono_right (Entails.of_eq (bigSep_fin18 (fun i : Fin 18 => (iprop(atPos ER (sendCell i c) 1 ∅ 0 ∗ atPos ER (recvCell i c) 1 ∅ 0) : sProp 𝕄))).symm)).trans
    (close_all P K c)

end Close

/-! ## The landing buffers back whole -/

/-- Two runs, the second starting where the first ends, are one run. -/
theorem rows_union {N r n r' n' m : ℕ} (h : r' = r + n) (hm : m = n + n') : rowSet N r n ∪ rowSet N r' n' = rowSet N r m := by
  subst h; subst hm
  ext x; rw [Finset.mem_union, mem_rowSet, mem_rowSet, mem_rowSet]; omega

omit [FloatOps F] in
/-- The three slots of landing buffer 0, at any three contents, are the buffer whole at some contents. -/
theorem comm0_whole (c : Dev nD) (f0 f1 f2 : Buf (Elt F) (comm0L c)) :
    iprop((comm0L c ↦[rowSet 256 0 128]{fullShare} f0) ∗ (comm0L c ↦[rowSet 256 128 64]{fullShare} f1) ∗ comm0L c ↦[rowSet 256 192 64]{fullShare} f2)
      ⊢ (iprop(∃ f, comm0L c ↦{fullShare} f) : sProp 𝕄) := by
  have h12 := pointsTo_join (Ix := Unit) (Val := Elt F) (Name := ℕ) (U := UU) (Lvl := ℕ) (ℓ := comm0L c) (q := fullShare) (f := f1) (g := f2)
    (rowSet_disjoint (N := 256) (r := 128) (n := 64) (r' := 192) (n' := 64) (Or.inl (by omega)))
  rw [rows_union (N := 256) (r := 128) (n := 64) (r' := 192) (n' := 64) (m := 128) (by omega) (by omega)] at h12
  have h012 := pointsTo_join (Ix := Unit) (Val := Elt F) (Name := ℕ) (U := UU) (Lvl := ℕ) (ℓ := comm0L c) (q := fullShare) (f := f0)
    (g := (rowSet 256 192 64).piecewise f2 f1)
    (rowSet_disjoint (N := 256) (r := 0) (n := 128) (r' := 128) (n' := 128) (Or.inl (by omega)))
  rw [rows_union (N := 256) (r := 0) (n := 128) (r' := 128) (n' := 128) (m := 256) (by omega) (by omega), rowSet_univ] at h012
  iintro ⟨H0, H1, H2⟩
  ihave H12 := h12 $$ [H1 H2]
  · isplitl [H1] <;> iassumption
  ihave H := h012 $$ [H0 H12]
  · isplitl [H0] <;> iassumption
  iexists _
  iexact H

omit [FloatOps F] in
/-- The same with the slots held through their views, -/
theorem comm0_back_view (c : Dev nD) (f0 f1 f2 : Buf (Elt F) (comm0L c)) :
    iprop(((comm0M.slice (Rect.unit (s := S256x1024) ![0, 0] S128x1024.size inb_S256x1024_S128x1024_0_0) (fun _ => rfl)).view.loc (c : Thread nD τ) ↦[(comm0M.slice (Rect.unit (s := S256x1024) ![0, 0] S128x1024.size inb_S256x1024_S128x1024_0_0) (fun _ => rfl)).view.set]{fullShare} f0) ∗ ((comm0M.slice (Rect.unit (s := S256x1024) ![128, 0] S64x1024.size inb_S256x1024_S64x1024_128_0) (fun _ => rfl)).view.loc (c : Thread nD τ) ↦[(comm0M.slice (Rect.unit (s := S256x1024) ![128, 0] S64x1024.size inb_S256x1024_S64x1024_128_0) (fun _ => rfl)).view.set]{fullShare} f1) ∗ ((comm0M.slice (Rect.unit (s := S256x1024) ![192, 0] S64x1024.size inb_S256x1024_S64x1024_192_0) (fun _ => rfl)).view.loc (c : Thread nD τ) ↦[(comm0M.slice (Rect.unit (s := S256x1024) ![192, 0] S64x1024.size inb_S256x1024_S64x1024_192_0) (fun _ => rfl)).view.set]{fullShare} f2))
      ⊢ (iprop(∃ f, comm0L c ↦{fullShare} f) : sProp 𝕄) := by
  rw [slot_set_0, slot_set_1, slot_set_2]
  exact comm0_whole c f0 f1 f2

omit [FloatOps F] in
/-- and as the landing places of the copies 0, 1, 2, whoever made them. -/
theorem comm0_back (c n0 n1 n2 : Dev nD) (f0 f1 f2 : Buf (Elt F) (comm0L c)) :
    iprop(dstPts 0 n0 c f0 ∗ dstPts 1 n1 c f1 ∗ dstPts 2 n2 c f2) ⊢ (iprop(∃ f, comm0L c ↦{fullShare} f) : sProp 𝕄) :=
  comm0_back_view c f0 f1 f2

omit [FloatOps F] in
/-- The three slots of landing buffer 1, at any three contents, are the buffer whole at some contents. -/
theorem comm1_whole (c : Dev nD) (f0 f1 f2 : Buf (Elt F) (comm1L c)) :
    iprop((comm1L c ↦[rowSet 128 0 64]{fullShare} f0) ∗ (comm1L c ↦[rowSet 128 64 32]{fullShare} f1) ∗ comm1L c ↦[rowSet 128 96 32]{fullShare} f2)
      ⊢ (iprop(∃ f, comm1L c ↦{fullShare} f) : sProp 𝕄) := by
  have h12 := pointsTo_join (Ix := Unit) (Val := Elt F) (Name := ℕ) (U := UU) (Lvl := ℕ) (ℓ := comm1L c) (q := fullShare) (f := f1) (g := f2)
    (rowSet_disjoint (N := 128) (r := 64) (n := 32) (r' := 96) (n' := 32) (Or.inl (by omega)))
  rw [rows_union (N := 128) (r := 64) (n := 32) (r' := 96) (n' := 32) (m := 64) (by omega) (by omega)] at h12
  have h012 := pointsTo_join (Ix := Unit) (Val := Elt F) (Name := ℕ) (U := UU) (Lvl := ℕ) (ℓ := comm1L c) (q := fullShare) (f := f0)
    (g := (rowSet 128 96 32).piecewise f2 f1)
    (rowSet_disjoint (N := 128) (r := 0) (n := 64) (r' := 64) (n' := 64) (Or.inl (by omega)))
  rw [rows_union (N := 128) (r := 0) (n := 64) (r' := 64) (n' := 64) (m := 128) (by omega) (by omega), rowSet_univ] at h012
  iintro ⟨H0, H1, H2⟩
  ihave H12 := h12 $$ [H1 H2]
  · isplitl [H1] <;> iassumption
  ihave H := h012 $$ [H0 H12]
  · isplitl [H0] <;> iassumption
  iexists _
  iexact H

omit [FloatOps F] in
/-- The same with the slots held through their views, -/
theorem comm1_back_view (c : Dev nD) (f0 f1 f2 : Buf (Elt F) (comm1L c)) :
    iprop(((comm1M.slice (Rect.unit (s := S128x1024) ![0, 0] S64x1024.size inb_S128x1024_S64x1024_0_0) (fun _ => rfl)).view.loc (c : Thread nD τ) ↦[(comm1M.slice (Rect.unit (s := S128x1024) ![0, 0] S64x1024.size inb_S128x1024_S64x1024_0_0) (fun _ => rfl)).view.set]{fullShare} f0) ∗ ((comm1M.slice (Rect.unit (s := S128x1024) ![64, 0] S32x1024.size inb_S128x1024_S32x1024_64_0) (fun _ => rfl)).view.loc (c : Thread nD τ) ↦[(comm1M.slice (Rect.unit (s := S128x1024) ![64, 0] S32x1024.size inb_S128x1024_S32x1024_64_0) (fun _ => rfl)).view.set]{fullShare} f1) ∗ ((comm1M.slice (Rect.unit (s := S128x1024) ![96, 0] S32x1024.size inb_S128x1024_S32x1024_96_0) (fun _ => rfl)).view.loc (c : Thread nD τ) ↦[(comm1M.slice (Rect.unit (s := S128x1024) ![96, 0] S32x1024.size inb_S128x1024_S32x1024_96_0) (fun _ => rfl)).view.set]{fullShare} f2))
      ⊢ (iprop(∃ f, comm1L c ↦{fullShare} f) : sProp 𝕄) := by
  rw [slot_set_3, slot_set_4, slot_set_5]
  exact comm1_whole c f0 f1 f2

omit [FloatOps F] in
/-- and as the landing places of the copies 3, 4, 5, whoever made them. -/
theorem comm1_back (c n0 n1 n2 : Dev nD) (f0 f1 f2 : Buf (Elt F) (comm1L c)) :
    iprop(dstPts 3 n0 c f0 ∗ dstPts 4 n1 c f1 ∗ dstPts 5 n2 c f2) ⊢ (iprop(∃ f, comm1L c ↦{fullShare} f) : sProp 𝕄) :=
  comm1_back_view c f0 f1 f2

omit [FloatOps F] in
/-- The three slots of landing buffer 2, at any three contents, are the buffer whole at some contents. -/
theorem comm2_whole (c : Dev nD) (f0 f1 f2 : Buf (Elt F) (comm2L c)) :
    iprop((comm2L c ↦[rowSet 64 0 32]{fullShare} f0) ∗ (comm2L c ↦[rowSet 64 32 16]{fullShare} f1) ∗ comm2L c ↦[rowSet 64 48 16]{fullShare} f2)
      ⊢ (iprop(∃ f, comm2L c ↦{fullShare} f) : sProp 𝕄) := by
  have h12 := pointsTo_join (Ix := Unit) (Val := Elt F) (Name := ℕ) (U := UU) (Lvl := ℕ) (ℓ := comm2L c) (q := fullShare) (f := f1) (g := f2)
    (rowSet_disjoint (N := 64) (r := 32) (n := 16) (r' := 48) (n' := 16) (Or.inl (by omega)))
  rw [rows_union (N := 64) (r := 32) (n := 16) (r' := 48) (n' := 16) (m := 32) (by omega) (by omega)] at h12
  have h012 := pointsTo_join (Ix := Unit) (Val := Elt F) (Name := ℕ) (U := UU) (Lvl := ℕ) (ℓ := comm2L c) (q := fullShare) (f := f0)
    (g := (rowSet 64 48 16).piecewise f2 f1)
    (rowSet_disjoint (N := 64) (r := 0) (n := 32) (r' := 32) (n' := 32) (Or.inl (by omega)))
  rw [rows_union (N := 64) (r := 0) (n := 32) (r' := 32) (n' := 32) (m := 64) (by omega) (by omega), rowSet_univ] at h012
  iintro ⟨H0, H1, H2⟩
  ihave H12 := h12 $$ [H1 H2]
  · isplitl [H1] <;> iassumption
  ihave H := h012 $$ [H0 H12]
  · isplitl [H0] <;> iassumption
  iexists _
  iexact H

omit [FloatOps F] in
/-- The same with the slots held through their views, -/
theorem comm2_back_view (c : Dev nD) (f0 f1 f2 : Buf (Elt F) (comm2L c)) :
    iprop(((comm2M.slice (Rect.unit (s := S64x1024) ![0, 0] S32x1024.size inb_S64x1024_S32x1024_0_0) (fun _ => rfl)).view.loc (c : Thread nD τ) ↦[(comm2M.slice (Rect.unit (s := S64x1024) ![0, 0] S32x1024.size inb_S64x1024_S32x1024_0_0) (fun _ => rfl)).view.set]{fullShare} f0) ∗ ((comm2M.slice (Rect.unit (s := S64x1024) ![32, 0] S16x1024.size inb_S64x1024_S16x1024_32_0) (fun _ => rfl)).view.loc (c : Thread nD τ) ↦[(comm2M.slice (Rect.unit (s := S64x1024) ![32, 0] S16x1024.size inb_S64x1024_S16x1024_32_0) (fun _ => rfl)).view.set]{fullShare} f1) ∗ ((comm2M.slice (Rect.unit (s := S64x1024) ![48, 0] S16x1024.size inb_S64x1024_S16x1024_48_0) (fun _ => rfl)).view.loc (c : Thread nD τ) ↦[(comm2M.slice (Rect.unit (s := S64x1024) ![48, 0] S16x1024.size inb_S64x1024_S16x1024_48_0) (fun _ => rfl)).view.set]{fullShare} f2))
      ⊢ (iprop(∃ f, comm2L c ↦{fullShare} f) : sProp 𝕄) := by
  rw [slot_set_6, slot_set_7, slot_set_8]
  exact comm2_whole c f0 f1 f2

omit [FloatOps F] in
/-- and as the landing places of the copies 6, 7, 8, whoever made them. -/
theorem comm2_back (c n0 n1 n2 : Dev nD) (f0 f1 f2 : Buf (Elt F) (comm2L c)) :
    iprop(dstPts 6 n0 c f0 ∗ dstPts 7 n1 c f1 ∗ dstPts 8 n2 c f2) ⊢ (iprop(∃ f, comm2L c ↦{fullShare} f) : sProp 𝕄) :=
  comm2_back_view c f0 f1 f2

/-! ## The accumulator back whole, with its value -/

/-- Equal after the same cast, equal before. -/
theorem cast_cancel {α β : Type} (h : α = β) {a b : α} (e : cast h a = cast h b) : a = b := by subst h; exact e

omit [FloatOps F] in
/-- Contents that read alike through a view agree on the view's elements. -/
theorem eq_on_set_of_read {s : Shape} {e : EltTy} (v : View sig .tc .vmem s e) (f g : v.ty.Contents (Elt F))
    (h : v.read (Elt F) f = v.read (Elt F) g) : ∀ i ∈ v.set, f i = g i := by
  intro i hi
  obtain ⟨y, rfl⟩ := View.exists_emb_of_mem_set v hi
  have hy := congrFun h y
  rw [View.read_apply, View.read_apply] at hy
  exact cast_cancel _ hy

/-- The three parts, each reading as `X` reads, are the accumulator whole at `X`. -/
theorem acc_back (c : Dev nD) (X : AccC F) (f0 f1 f2 : Buf (Elt F) (accL c))
    (h0 : (accM.slice (Rect.unit (s := S512x1024) ![0, 0] S256x1024.size inb_S512x1024_S256x1024_0_0) (fun _ => rfl)).view.read (Elt F) f0 = (accM.slice (Rect.unit (s := S512x1024) ![0, 0] S256x1024.size inb_S512x1024_S256x1024_0_0) (fun _ => rfl)).view.read (Elt F) X)
    (h1 : (accM.slice (Rect.unit (s := S512x1024) ![256, 0] S128x1024.size inb_S512x1024_S128x1024_256_0) (fun _ => rfl)).view.read (Elt F) f1 = (accM.slice (Rect.unit (s := S512x1024) ![256, 0] S128x1024.size inb_S512x1024_S128x1024_256_0) (fun _ => rfl)).view.read (Elt F) X)
    (h2 : (accM.slice (Rect.unit (s := S512x1024) ![384, 0] S128x1024.size inb_S512x1024_S128x1024_384_0) (fun _ => rfl)).view.read (Elt F) f2 = (accM.slice (Rect.unit (s := S512x1024) ![384, 0] S128x1024.size inb_S512x1024_S128x1024_384_0) (fun _ => rfl)).view.read (Elt F) X) :
    iprop(((accM.slice (Rect.unit (s := S512x1024) ![0, 0] S256x1024.size inb_S512x1024_S256x1024_0_0) (fun _ => rfl)).view.loc (c : Thread nD τ) ↦[(accM.slice (Rect.unit (s := S512x1024) ![0, 0] S256x1024.size inb_S512x1024_S256x1024_0_0) (fun _ => rfl)).view.set]{fullShare} f0) ∗ ((accM.slice (Rect.unit (s := S512x1024) ![256, 0] S128x1024.size inb_S512x1024_S128x1024_256_0) (fun _ => rfl)).view.loc (c : Thread nD τ) ↦[(accM.slice (Rect.unit (s := S512x1024) ![256, 0] S128x1024.size inb_S512x1024_S128x1024_256_0) (fun _ => rfl)).view.set]{fullShare} f1) ∗ ((accM.slice (Rect.unit (s := S512x1024) ![384, 0] S128x1024.size inb_S512x1024_S128x1024_384_0) (fun _ => rfl)).view.loc (c : Thread nD τ) ↦[(accM.slice (Rect.unit (s := S512x1024) ![384, 0] S128x1024.size inb_S512x1024_S128x1024_384_0) (fun _ => rfl)).view.set]{fullShare} f2))
      ⊢ (iprop(∃ f, ⌜f = X⌝ ∗ (accL c ↦{fullShare} f)) : sProp 𝕄) := by
  have e0 := eq_on_set_of_read (F := F) (accM.slice (Rect.unit (s := S512x1024) ![0, 0] S256x1024.size inb_S512x1024_S256x1024_0_0) (fun _ => rfl)).view f0 X h0
  have e1 := eq_on_set_of_read (F := F) (accM.slice (Rect.unit (s := S512x1024) ![256, 0] S128x1024.size inb_S512x1024_S128x1024_256_0) (fun _ => rfl)).view f1 X h1
  have e2 := eq_on_set_of_read (F := F) (accM.slice (Rect.unit (s := S512x1024) ![384, 0] S128x1024.size inb_S512x1024_S128x1024_384_0) (fun _ => rfl)).view f2 X h2
  iintro ⟨H0, H1, H2⟩
  iexists X
  isplitr; · ipureintro; rfl
  iapply (acc_parts (F := F) c X).2
  isplitl [H0]; · iapply (Entails.of_eq (pointsTo_congr e0)); iexact H0
  isplitl [H1]; · iapply (Entails.of_eq (pointsTo_congr e1)); iexact H1
  iapply (Entails.of_eq (pointsTo_congr e2)); iexact H2

/-- info: 'Cert.KernelIdeal.Coll.close_all_chain' depends on axioms: [propext, Classical.choice, Quot.sound] -/
#guard_msgs in #print axioms close_all_chain

/-- info: 'Cert.KernelIdeal.Coll.comm0_back' depends on axioms: [propext, Classical.choice, Quot.sound] -/
#guard_msgs in #print axioms comm0_back

/-- info: 'Cert.KernelIdeal.Coll.acc_back' depends on axioms: [propext, Classical.choice, Quot.sound] -/
#guard_msgs in #print axioms acc_back

end Cert.KernelIdeal.Coll

end
-- ==== Proof.KernelIdeal.BodyOut.lean ====
/-
  Two facts for the end of a device's body.

  The result's staging buffer: a store of the whole block over anything leaves the block, and a load of the whole accumulator
  reads it; so the staging buffer ends holding the accumulator's contents, widened — the contents the proof data names.
  The staged inputs: every input window is fetched at the one point and its block is the whole array, so what the body finds in
  an input's staging buffer is the array's contents as launched.
-/
import proofs.«900423_g7700000000000424_dist_attn_self_mha_htp_b1_sq512_skv512_d1024_hq8_dh128_v7x_i8_f32_1_alg».proof.Proof.KernelIdeal.Inv
import proofs.«900423_g7700000000000424_dist_attn_self_mha_htp_b1_sq512_skv512_d1024_hq8_dh128_v7x_i8_f32_1_alg».proof.Proof.Gen.KernelIdeal.Frame

noncomputable section

namespace Cert.KernelIdeal.Coll

open Cert.KernelIdeal Cert.KernelIdeal.Gen Cert.KernelIdeal.Mesh

open Idealize.ShloMosaic
open Idealize.ShloMosaic.TcCoe
open Idealize.SL Idealize.SL.Sem
open Idealize.ShloMosaic.Pipeline (Dat Cfg Window BodyObligation cellOf)

variable {F : FTy → Type} [FloatOps F]

/-! ## The result's staging buffer -/

omit [FloatOps F] in
theorem zeros2 : (![0, 0] : Fin 2 → Nat) = fun _ => 0 := funext fun a => by fin_cases a <;> rfl
omit [FloatOps F] in
theorem zeros3 : (![0, 0, 0] : Fin 3 → Nat) = fun _ => 0 := funext fun a => by fin_cases a <;> rfl

/-- The whole accumulator loaded, widened, and stored whole over any contents of the staging buffer: the accumulator's
    contents widened. -/
theorem out_content (c : Dev nD) (g5 : Buf (Elt F) ((c : Thread nD τ).loc cc0_stg5_0)) (X : AccC F) :
    (Memref.whole cc0_stg5_0).view.writes (Elt F) g5
        [⟨Rect.unit ![0, 0, 0] S1x512x1024.size inb_S1x512x1024_S1x512x1024_0_0_0,
          k0_pay1 ((Memref.whole cc0_scratch0).view.readAt (Elt F) (Rect.unit ![0, 0] S512x1024.size inb_S512x1024_S512x1024_0_0).toLoadRect X)⟩]
      = k0_pay1 X := by
  have h : (Memref.whole cc0_scratch0).view.readAt (Elt F) (Rect.unit ![0, 0] S512x1024.size inb_S512x1024_S512x1024_0_0).toLoadRect X = X :=
    Memref.readAt_unit_zero (Elt F) cc0_scratch0 zeros2 _ X
  rw [h]
  exact (View.writes_singleton _ _ _ _).trans (Memref.write_access_unit_zero_univ (Elt F) cc0_stg5_0 zeros3 _ g5 _)

/-- With the final accumulator: the contents the proof data names for the result window. -/
theorem out_content_outAt (P : Dev nD → AccC F) (c : Dev nD) (g5 : Buf (Elt F) ((c : Thread nD τ).loc cc0_stg5_0)) :
    (Memref.whole cc0_stg5_0).view.writes (Elt F) g5
        [⟨Rect.unit ![0, 0, 0] S1x512x1024.size inb_S1x512x1024_S1x512x1024_0_0_0,
          k0_pay1 ((Memref.whole cc0_scratch0).view.readAt (Elt F) (Rect.unit ![0, 0] S512x1024.size inb_S512x1024_S512x1024_0_0).toLoadRect (A P 3 c))⟩]
      = outAt P c :=
  out_content c g5 (A P 3 c)

/-! ## The staged inputs -/

section Before
variable (m : Mem F) (ρ : Dev nD → PrngReg) (P : Dev nD → AccC F) (c : Dev nD)

theorem before_0 (d) : (dats m ρ P 0 c).before (0 : Fin 6) t0_0 d = iblk m c (0 : Fin 6) t0_0 := by
  unfold Dat.before; rw [if_pos (fetch0_0 t0_0)]; rfl
theorem before_1 (d) : (dats m ρ P 0 c).before (1 : Fin 6) t0_0 d = iblk m c (1 : Fin 6) t0_0 := by
  unfold Dat.before; rw [if_pos (fetch0_1 t0_0)]; rfl
theorem before_2 (d) : (dats m ρ P 0 c).before (2 : Fin 6) t0_0 d = iblk m c (2 : Fin 6) t0_0 := by
  unfold Dat.before; rw [if_pos (fetch0_2 t0_0)]; rfl
theorem before_3 (d) : (dats m ρ P 0 c).before (3 : Fin 6) t0_0 d = iblk m c (3 : Fin 6) t0_0 := by
  unfold Dat.before; rw [if_pos (fetch0_3 t0_0)]; rfl
theorem before_4 (d) : (dats m ρ P 0 c).before (4 : Fin 6) t0_0 d = iblk m c (4 : Fin 6) t0_0 := by
  unfold Dat.before; rw [if_pos (fetch0_4 t0_0)]; rfl

end Before

/-- info: 'Cert.KernelIdeal.Coll.out_content' depends on axioms: [propext, Classical.choice, Quot.sound] -/
#guard_msgs in #print axioms out_content

/-- info: 'Cert.KernelIdeal.Coll.before_4' depends on axioms: [propext, Classical.choice, Quot.sound] -/
#guard_msgs in #print axioms before_4

end Cert.KernelIdeal.Coll

end
-- ==== Proof.KernelIdeal.ValueSteps.lean ====
/-
  The values the protocol's steps hand on, as equations between runs of rows of accumulator contents.

  A run's reading of the accumulator is determined by any larger run's. The three stores leave the device's own product
  on their parts. A reduce-scatter phase adds, on the rows a device keeps, the partner's entries of the same rows — which
  are the rows the partner sends —, and that is the next phase's accumulator there, because all the kept rows lie in one
  part and so use one pairing. An all-gather phase leaves the rows a device held as they were and fills the rows it
  receives — the rows it sent in the matching reduce-scatter phase — with the partner's entries.
-/
import proofs.«900423_g7700000000000424_dist_attn_self_mha_htp_b1_sq512_skv512_d1024_hq8_dh128_v7x_i8_f32_1_alg».proof.Proof.KernelIdeal.Rows
import proofs.«900423_g7700000000000424_dist_attn_self_mha_htp_b1_sq512_skv512_d1024_hq8_dh128_v7x_i8_f32_1_alg».proof.Proof.KernelIdeal.PartialAt

noncomputable section

namespace Cert.KernelIdeal.Coll

open Cert.KernelIdeal Cert.KernelIdeal.Gen Cert.KernelIdeal.Mesh Idealize.ShloMosaic Idealize.ShloMosaic.ValueIdx

variable {F : FTy → Type} [FloatOps F]

/-! ## A sub-run's reading is determined by the run's -/

/-- If two contents read the same through a rectangle of a whole buffer, they read the same through any rectangle
    inside it. -/
theorem read_sub_of_read {Val : EltTy → Type} (b : Ref sig .tc) (r r' : Rect b.ty.shape) (hsub : r'.set ⊆ r.set)
    (f g : b.ty.Contents Val)
    (h : ((View.whole b).slice r).read Val f = ((View.whole b).slice r).read Val g) :
    ((View.whole b).slice r').read Val f = ((View.whole b).slice r').read Val g := by
  funext x'
  have hx : r'.emb x' ∈ r.set :=
    hsub (by rw [← Rect.map_emb_univ]; exact Finset.mem_map_of_mem _ (Finset.mem_univ x'))
  rw [← Rect.map_emb_univ] at hx
  obtain ⟨x, -, hxe⟩ := Finset.mem_map.mp hx
  have hfg : f (r.emb x) = g (r.emb x) := congrFun h x
  show f (r'.emb x') = g (r'.emb x')
  rw [← hxe]
  exact hfg

/-! ## Reading a run of the accumulator's rows -/

/-- A run of rows of the accumulator reads the contents at the run's elements. -/
theorem acc_read_apply (off : Fin 2 → ℕ) (n : ℕ) (inb : ∀ a, off a + (![n, 1024] : Fin 2 → ℕ) a ≤ S512x1024.size a)
    (X : AccC F) (y : (Sn n).Idx) :
    (accM.slice (Rect.unit (s := S512x1024) off ![n, 1024] inb) (fun _ => rfl)).view.read (Elt F) X y
      = X ((Rect.unit (s := S512x1024) off ![n, 1024] inb).emb y) := rfl

/-- Runs from the same first row have the same elements. -/
theorem emb_congr (off off' : Fin 2 → ℕ) (n : ℕ) (inb : ∀ a, off a + (![n, 1024] : Fin 2 → ℕ) a ≤ S512x1024.size a)
    (inb' : ∀ a, off' a + (![n, 1024] : Fin 2 → ℕ) a ≤ S512x1024.size a) (h : ∀ a, off a = off' a) (y : (Sn n).Idx) :
    (Rect.unit (s := S512x1024) off ![n, 1024] inb).emb y = (Rect.unit (s := S512x1024) off' ![n, 1024] inb').emb y :=
  funext fun a => Fin.ext (by rw [Rect.emb_apply, Rect.emb_apply]; show off a + 1 * _ = off' a + 1 * _; rw [h a])

/-- The row of an element of a run. -/
theorem emb_row (off : Fin 2 → ℕ) (n : ℕ) (inb : ∀ a, off a + (![n, 1024] : Fin 2 → ℕ) a ≤ S512x1024.size a) (y : (Sn n).Idx) :
    ((Rect.unit (s := S512x1024) off ![n, 1024] inb).emb y 0).val = off 0 + (y 0).val := by
  rw [Rect.emb_apply]; show off 0 + 1 * (y 0).val = _; rw [Nat.one_mul]

/-! ## The stores -/

section Stores
variable (x : Vec F S1x512x1024 .f32) (wq wk wv wo : Vec F S1024x1024 .f32)

/-- The product on the rows of the first part, -/
theorem Pof_row0 (j : S512x1024.Idx) (h : (j 0).val < 256) :
    Pof x wq wk wv wo j = stored0 x wq wk wv wo (ix2 (⟨(j 0).val, h⟩ : Fin 256) (⟨(j 1).val, (j 1).isLt⟩ : Fin 1024)) := by
  unfold Pof
  exact dif_pos h
/-- of the second, -/
theorem Pof_row1 (j : S512x1024.Idx) (h1 : ¬(j 0).val < 256) (h2 : (j 0).val < 384) :
    Pof x wq wk wv wo j
      = stored1 x wq wk wv wo (ix2 (⟨(j 0).val - 256, by omega⟩ : Fin 128) (⟨(j 1).val, (j 1).isLt⟩ : Fin 1024)) := by
  unfold Pof
  exact (dif_neg h1).trans (dif_pos h2)
/-- of the third. -/
theorem Pof_row2 (j : S512x1024.Idx) (h1 : ¬(j 0).val < 256) (h2 : ¬(j 0).val < 384) :
    Pof x wq wk wv wo j
      = stored2 x wq wk wv wo (ix2 (⟨(j 0).val - 384, by have := (j 0).isLt; have h512 : (j 0).val < 512 := (j 0).isLt; omega⟩ : Fin 128)
          (⟨(j 1).val, (j 1).isLt⟩ : Fin 1024)) := by
  unfold Pof
  exact (dif_neg h1).trans (dif_neg h2)

/-- The device's product reads, on each part, as that part's store. -/
theorem part_read_0 : (accM.slice (Rect.unit (s := S512x1024) ![0, 0] S256x1024.size inb_S512x1024_S256x1024_0_0) (fun _ => rfl)).view.read (Elt F) (Pof x wq wk wv wo) = stored0 x wq wk wv wo := by
  funext y
  have hy : (y 0).val < 256 := (y 0).isLt
  have hr := emb_row ![0, 0] 256 inb_S512x1024_S256x1024_0_0 y
  refine (acc_read_apply ![0, 0] 256 inb_S512x1024_S256x1024_0_0 _ y).trans ?_
  rw [Pof_row0 x wq wk wv wo _ (by rw [hr]; show 0 + (y 0).val < 256; omega)]
  refine congrArg (stored0 x wq wk wv wo) (funext fun a => Fin.ext ?_)
  match a with
  | ⟨0, _⟩ => show ((Rect.unit (s := S512x1024) ![0, 0] ![256, 1024] inb_S512x1024_S256x1024_0_0).emb y 0).val = (y 0).val
              rw [hr]; exact Nat.zero_add _
  | ⟨1, _⟩ => show ((Rect.unit (s := S512x1024) ![0, 0] ![256, 1024] inb_S512x1024_S256x1024_0_0).emb y 1).val = (y 1).val
              rw [Rect.emb_apply]; show 0 + 1 * (y 1).val = (y 1).val; omega
theorem part_read_1 : (accM.slice (Rect.unit (s := S512x1024) ![256, 0] S128x1024.size inb_S512x1024_S128x1024_256_0) (fun _ => rfl)).view.read (Elt F) (Pof x wq wk wv wo) = stored1 x wq wk wv wo := by
  funext y
  have hy : (y 0).val < 128 := (y 0).isLt
  have hr := emb_row ![256, 0] 128 inb_S512x1024_S128x1024_256_0 y
  refine (acc_read_apply ![256, 0] 128 inb_S512x1024_S128x1024_256_0 _ y).trans ?_
  rw [Pof_row1 x wq wk wv wo _ (by rw [hr]; show ¬256 + (y 0).val < 256; omega) (by rw [hr]; show 256 + (y 0).val < 384; omega)]
  refine congrArg (stored1 x wq wk wv wo) (funext fun a => Fin.ext ?_)
  match a with
  | ⟨0, _⟩ => show ((Rect.unit (s := S512x1024) ![256, 0] ![128, 1024] inb_S512x1024_S128x1024_256_0).emb y 0).val - 256 = (y 0).val
              rw [hr]; show 256 + (y 0).val - 256 = (y 0).val; omega
  | ⟨1, _⟩ => show ((Rect.unit (s := S512x1024) ![256, 0] ![128, 1024] inb_S512x1024_S128x1024_256_0).emb y 1).val = (y 1).val
              rw [Rect.emb_apply]; show 0 + 1 * (y 1).val = (y 1).val; omega
theorem part_read_2 : (accM.slice (Rect.unit (s := S512x1024) ![384, 0] S128x1024.size inb_S512x1024_S128x1024_384_0) (fun _ => rfl)).view.read (Elt F) (Pof x wq wk wv wo) = stored2 x wq wk wv wo := by
  funext y
  have hy : (y 0).val < 128 := (y 0).isLt
  have hr := emb_row ![384, 0] 128 inb_S512x1024_S128x1024_384_0 y
  refine (acc_read_apply ![384, 0] 128 inb_S512x1024_S128x1024_384_0 _ y).trans ?_
  rw [Pof_row2 x wq wk wv wo _ (by rw [hr]; show ¬384 + (y 0).val < 256; omega) (by rw [hr]; show ¬384 + (y 0).val < 384; omega)]
  refine congrArg (stored2 x wq wk wv wo) (funext fun a => Fin.ext ?_)
  match a with
  | ⟨0, _⟩ => show ((Rect.unit (s := S512x1024) ![384, 0] ![128, 1024] inb_S512x1024_S128x1024_384_0).emb y 0).val - 384 = (y 0).val
              rw [hr]; show 384 + (y 0).val - 384 = (y 0).val; omega
  | ⟨1, _⟩ => show ((Rect.unit (s := S512x1024) ![384, 0] ![128, 1024] inb_S512x1024_S128x1024_384_0).emb y 1).val = (y 1).val
              rw [Rect.emb_apply]; show 0 + 1 * (y 1).val = (y 1).val; omega

/-- So what a store of a part's value through the part leaves reads there as the product does. -/
theorem part_store_0 (f : AccC F) :
    (accM.slice (Rect.unit (s := S512x1024) ![0, 0] S256x1024.size inb_S512x1024_S256x1024_0_0) (fun _ => rfl)).view.read (Elt F) ((accM.slice (Rect.unit (s := S512x1024) ![0, 0] S256x1024.size inb_S512x1024_S256x1024_0_0) (fun _ => rfl)).view.write (Elt F) f (stored0 x wq wk wv wo) Finset.univ)
      = (accM.slice (Rect.unit (s := S512x1024) ![0, 0] S256x1024.size inb_S512x1024_S256x1024_0_0) (fun _ => rfl)).view.read (Elt F) (Pof x wq wk wv wo) := by
  rw [View.read_write_univ, part_read_0]
theorem part_store_1 (f : AccC F) :
    (accM.slice (Rect.unit (s := S512x1024) ![256, 0] S128x1024.size inb_S512x1024_S128x1024_256_0) (fun _ => rfl)).view.read (Elt F) ((accM.slice (Rect.unit (s := S512x1024) ![256, 0] S128x1024.size inb_S512x1024_S128x1024_256_0) (fun _ => rfl)).view.write (Elt F) f (stored1 x wq wk wv wo) Finset.univ)
      = (accM.slice (Rect.unit (s := S512x1024) ![256, 0] S128x1024.size inb_S512x1024_S128x1024_256_0) (fun _ => rfl)).view.read (Elt F) (Pof x wq wk wv wo) := by
  rw [View.read_write_univ, part_read_1]
theorem part_store_2 (f : AccC F) :
    (accM.slice (Rect.unit (s := S512x1024) ![384, 0] S128x1024.size inb_S512x1024_S128x1024_384_0) (fun _ => rfl)).view.read (Elt F) ((accM.slice (Rect.unit (s := S512x1024) ![384, 0] S128x1024.size inb_S512x1024_S128x1024_384_0) (fun _ => rfl)).view.write (Elt F) f (stored2 x wq wk wv wo) Finset.univ)
      = (accM.slice (Rect.unit (s := S512x1024) ![384, 0] S128x1024.size inb_S512x1024_S128x1024_384_0) (fun _ => rfl)).view.read (Elt F) (Pof x wq wk wv wo) := by
  rw [View.read_write_univ, part_read_2]

end Stores

/-- info: 'Cert.KernelIdeal.Coll.part_store_2' depends on axioms: [propext, Classical.choice, Quot.sound] -/
#guard_msgs in #print axioms part_store_2

/-- info: 'Cert.KernelIdeal.Coll.read_sub_of_read' depends on axioms: [propext, Classical.choice, Quot.sound] -/
#guard_msgs in #print axioms read_sub_of_read

end Cert.KernelIdeal.Coll

end
-- ==== Proof.KernelIdeal.ValuePhases.lean ====
/-
  The reduce-scatter's and the all-gather's phases as equations between runs of rows of accumulator contents.

  A reduce-scatter phase adds, on the rows a device keeps, the partner's entries of the same rows — which are the rows the
  partner sends —, and that is the next phase's accumulator there, because all the kept rows lie in one part and so use one
  pairing. An all-gather phase leaves the rows a device held as they were and fills the rows it receives — the rows it sent
  in the matching reduce-scatter phase — with the partner's entries. The rows of each copy on each device are decided
  over the eight devices from the row tables.
-/
import proofs.«900423_g7700000000000424_dist_attn_self_mha_htp_b1_sq512_skv512_d1024_hq8_dh128_v7x_i8_f32_1_alg».proof.Proof.KernelIdeal.ValueSteps

noncomputable section

namespace Cert.KernelIdeal.Coll

open Cert.KernelIdeal Cert.KernelIdeal.Gen Cert.KernelIdeal.Mesh Idealize.ShloMosaic Idealize.ShloMosaic.ValueIdx

variable {F : FTy → Type} [FloatOps F]

/-! ## The phases -/

/-- The part of a row from its bounds. -/
theorem partOfRow_0 {r : ℕ} (h : r < 256) : partOfRow r = 0 := by unfold partOfRow; rw [if_pos h]
theorem partOfRow_1 {r : ℕ} (h1 : 256 ≤ r) (h2 : r < 384) : partOfRow r = 1 := by
  unfold partOfRow; rw [if_neg (by omega), if_pos h2]
theorem partOfRow_2 {r : ℕ} (h : 384 ≤ r) : partOfRow r = 2 := by
  unfold partOfRow; rw [if_neg (by omega), if_neg (by omega)]

/-- The pairing of a reduce-scatter phase, and the copy of an all-gather phase, on a row of a known part. -/
theorem vs_rsMask (k r : ℕ) (p : Fin 3) (h : partOfRow r = p) :
    rsMask k r = maskOf ⟨3 * (k % 3) + p.val, by
      have := p.isLt; have := Nat.mod_lt k (show 0 < 3 by decide); omega⟩ := by
  subst h; rfl
theorem vs_agCopy (j r : ℕ) (p : Fin 3) (h : partOfRow r = p) :
    agCopy j r = ⟨9 + 3 * (j % 3) + p.val, by
      have := p.isLt; have := Nat.mod_lt j (show 0 < 3 by decide); omega⟩ := by
  subst h; rfl

/-! ### The rows of each copy: decided over the eight devices -/

theorem vs_keep_src_0 : ∀ c : Dev nD, keepRow 0 c = srcRow 0 (peer (maskOf 0) c) := by decide
theorem vs_keep_peer_0 : ∀ c : Dev nD, keepRow 0 (peer (maskOf 0) c) = srcRow 0 c := by decide
theorem vs_undo_src_0 : ∀ c : Dev nD, srcRow 15 c = keepRow 0 c := by decide
theorem vs_keep_part_0 : ∀ c : Dev nD, keepRow 0 c + 128 ≤ 256 := by decide
theorem vs_src_part_0 : ∀ c : Dev nD, srcRow 0 c + 128 ≤ 256 := by decide
theorem vs_apart_0 : ∀ c : Dev nD, srcRow 0 c + 128 ≤ keepRow 0 c ∨ keepRow 0 c + 128 ≤ srcRow 0 c := by decide

theorem vs_keep_src_1 : ∀ c : Dev nD, keepRow 1 c = srcRow 1 (peer (maskOf 1) c) := by decide
theorem vs_keep_peer_1 : ∀ c : Dev nD, keepRow 1 (peer (maskOf 1) c) = srcRow 1 c := by decide
theorem vs_undo_src_1 : ∀ c : Dev nD, srcRow 16 c = keepRow 1 c := by decide
theorem vs_keep_part_1 : ∀ c : Dev nD, 256 ≤ keepRow 1 c ∧ keepRow 1 c + 64 ≤ 384 := by decide
theorem vs_src_part_1 : ∀ c : Dev nD, 256 ≤ srcRow 1 c ∧ srcRow 1 c + 64 ≤ 384 := by decide
theorem vs_apart_1 : ∀ c : Dev nD, srcRow 1 c + 64 ≤ keepRow 1 c ∨ keepRow 1 c + 64 ≤ srcRow 1 c := by decide

theorem vs_keep_src_2 : ∀ c : Dev nD, keepRow 2 c = srcRow 2 (peer (maskOf 2) c) := by decide
theorem vs_keep_peer_2 : ∀ c : Dev nD, keepRow 2 (peer (maskOf 2) c) = srcRow 2 c := by decide
theorem vs_undo_src_2 : ∀ c : Dev nD, srcRow 17 c = keepRow 2 c := by decide
theorem vs_keep_part_2 : ∀ c : Dev nD, 384 ≤ keepRow 2 c := by decide
theorem vs_src_part_2 : ∀ c : Dev nD, 384 ≤ srcRow 2 c := by decide
theorem vs_apart_2 : ∀ c : Dev nD, srcRow 2 c + 64 ≤ keepRow 2 c ∨ keepRow 2 c + 64 ≤ srcRow 2 c := by decide

theorem vs_keep_src_3 : ∀ c : Dev nD, keepRow 3 c = srcRow 3 (peer (maskOf 3) c) := by decide
theorem vs_keep_peer_3 : ∀ c : Dev nD, keepRow 3 (peer (maskOf 3) c) = srcRow 3 c := by decide
theorem vs_undo_src_3 : ∀ c : Dev nD, srcRow 12 c = keepRow 3 c := by decide
theorem vs_keep_part_3 : ∀ c : Dev nD, keepRow 3 c + 64 ≤ 256 := by decide
theorem vs_src_part_3 : ∀ c : Dev nD, srcRow 3 c + 64 ≤ 256 := by decide
theorem vs_apart_3 : ∀ c : Dev nD, srcRow 3 c + 64 ≤ keepRow 3 c ∨ keepRow 3 c + 64 ≤ srcRow 3 c := by decide

theorem vs_keep_src_4 : ∀ c : Dev nD, keepRow 4 c = srcRow 4 (peer (maskOf 4) c) := by decide
theorem vs_keep_peer_4 : ∀ c : Dev nD, keepRow 4 (peer (maskOf 4) c) = srcRow 4 c := by decide
theorem vs_undo_src_4 : ∀ c : Dev nD, srcRow 13 c = keepRow 4 c := by decide
theorem vs_keep_part_4 : ∀ c : Dev nD, 256 ≤ keepRow 4 c ∧ keepRow 4 c + 32 ≤ 384 := by decide
theorem vs_src_part_4 : ∀ c : Dev nD, 256 ≤ srcRow 4 c ∧ srcRow 4 c + 32 ≤ 384 := by decide
theorem vs_apart_4 : ∀ c : Dev nD, srcRow 4 c + 32 ≤ keepRow 4 c ∨ keepRow 4 c + 32 ≤ srcRow 4 c := by decide

theorem vs_keep_src_5 : ∀ c : Dev nD, keepRow 5 c = srcRow 5 (peer (maskOf 5) c) := by decide
theorem vs_keep_peer_5 : ∀ c : Dev nD, keepRow 5 (peer (maskOf 5) c) = srcRow 5 c := by decide
theorem vs_undo_src_5 : ∀ c : Dev nD, srcRow 14 c = keepRow 5 c := by decide
theorem vs_keep_part_5 : ∀ c : Dev nD, 384 ≤ keepRow 5 c := by decide
theorem vs_src_part_5 : ∀ c : Dev nD, 384 ≤ srcRow 5 c := by decide
theorem vs_apart_5 : ∀ c : Dev nD, srcRow 5 c + 32 ≤ keepRow 5 c ∨ keepRow 5 c + 32 ≤ srcRow 5 c := by decide

theorem vs_keep_src_6 : ∀ c : Dev nD, keepRow 6 c = srcRow 6 (peer (maskOf 6) c) := by decide
theorem vs_keep_peer_6 : ∀ c : Dev nD, keepRow 6 (peer (maskOf 6) c) = srcRow 6 c := by decide
theorem vs_undo_src_6 : ∀ c : Dev nD, srcRow 9 c = keepRow 6 c := by decide
theorem vs_keep_part_6 : ∀ c : Dev nD, keepRow 6 c + 32 ≤ 256 := by decide
theorem vs_src_part_6 : ∀ c : Dev nD, srcRow 6 c + 32 ≤ 256 := by decide
theorem vs_apart_6 : ∀ c : Dev nD, srcRow 6 c + 32 ≤ keepRow 6 c ∨ keepRow 6 c + 32 ≤ srcRow 6 c := by decide

theorem vs_keep_src_7 : ∀ c : Dev nD, keepRow 7 c = srcRow 7 (peer (maskOf 7) c) := by decide
theorem vs_keep_peer_7 : ∀ c : Dev nD, keepRow 7 (peer (maskOf 7) c) = srcRow 7 c := by decide
theorem vs_undo_src_7 : ∀ c : Dev nD, srcRow 10 c = keepRow 7 c := by decide
theorem vs_keep_part_7 : ∀ c : Dev nD, 256 ≤ keepRow 7 c ∧ keepRow 7 c + 16 ≤ 384 := by decide
theorem vs_src_part_7 : ∀ c : Dev nD, 256 ≤ srcRow 7 c ∧ srcRow 7 c + 16 ≤ 384 := by decide
theorem vs_apart_7 : ∀ c : Dev nD, srcRow 7 c + 16 ≤ keepRow 7 c ∨ keepRow 7 c + 16 ≤ srcRow 7 c := by decide

theorem vs_keep_src_8 : ∀ c : Dev nD, keepRow 8 c = srcRow 8 (peer (maskOf 8) c) := by decide
theorem vs_keep_peer_8 : ∀ c : Dev nD, keepRow 8 (peer (maskOf 8) c) = srcRow 8 c := by decide
theorem vs_undo_src_8 : ∀ c : Dev nD, srcRow 11 c = keepRow 8 c := by decide
theorem vs_keep_part_8 : ∀ c : Dev nD, 384 ≤ keepRow 8 c := by decide
theorem vs_src_part_8 : ∀ c : Dev nD, 384 ≤ srcRow 8 c := by decide
theorem vs_apart_8 : ∀ c : Dev nD, srcRow 8 c + 16 ≤ keepRow 8 c ∨ keepRow 8 c + 16 ≤ srcRow 8 c := by decide

section Phases
variable (P : Dev nD → AccC F)

/-- A reduce-scatter phase on a run of kept rows: adding the entries another device holds on the same rows gives the
    next phase's entries, when that device is the phase's partner on every row of the run. -/
theorem accumulate_gen (offK offS : Fin 2 → ℕ) (n : ℕ)
    (inbK : ∀ a, offK a + (![n, 1024] : Fin 2 → ℕ) a ≤ S512x1024.size a)
    (inbS : ∀ a, offS a + (![n, 1024] : Fin 2 → ℕ) a ≤ S512x1024.size a) (hoff : ∀ a, offK a = offS a) (c c' : Dev nD) (k : ℕ)
    (hmask : ∀ y0 : ℕ, y0 < n → peer (rsMask k (offK 0 + y0)) c = c') :
    addf ((accM.slice (Rect.unit (s := S512x1024) offK ![n, 1024] inbK) (fun _ => rfl)).view.read (Elt F) (W P k c))
        ((accM.slice (Rect.unit (s := S512x1024) offS ![n, 1024] inbS) (fun _ => rfl)).view.read (Elt F) (W P k c'))
      = (accM.slice (Rect.unit (s := S512x1024) offK ![n, 1024] inbK) (fun _ => rfl)).view.read (Elt F) (W P (k + 1) c) := by
  funext y
  have hy : (y 0).val < n := (y 0).isLt
  show FloatOps.addf (W P k c ((Rect.unit (s := S512x1024) offK ![n, 1024] inbK).emb y))
      (W P k c' ((Rect.unit (s := S512x1024) offS ![n, 1024] inbS).emb y))
    = FloatOps.addf (W P k c ((Rect.unit (s := S512x1024) offK ![n, 1024] inbK).emb y))
        (W P k (peer (rsMask k ((Rect.unit (s := S512x1024) offK ![n, 1024] inbK).emb y 0).val) c)
          ((Rect.unit (s := S512x1024) offK ![n, 1024] inbK).emb y))
  rw [emb_row, hmask _ hy, emb_congr offS offK n inbS inbK (fun a => (hoff a).symm) y]

/-- An all-gather phase on a run of rows the device holds: nothing changes. -/
theorem gather_keep_gen (off : Fin 2 → ℕ) (n : ℕ) (inb : ∀ a, off a + (![n, 1024] : Fin 2 → ℕ) a ≤ S512x1024.size a)
    (j : ℕ) (c : Dev nD) (hheld : ∀ y0 : ℕ, y0 < n → heldAt j c (off 0 + y0)) :
    (accM.slice (Rect.unit (s := S512x1024) off ![n, 1024] inb) (fun _ => rfl)).view.read (Elt F) (A P (j + 1) c)
      = (accM.slice (Rect.unit (s := S512x1024) off ![n, 1024] inb) (fun _ => rfl)).view.read (Elt F) (A P j c) := by
  funext y
  have hy : (y 0).val < n := (y 0).isLt
  show (if heldAt j c ((Rect.unit (s := S512x1024) off ![n, 1024] inb).emb y 0).val
      then A P j c ((Rect.unit (s := S512x1024) off ![n, 1024] inb).emb y)
      else A P j (peer (maskOf (agCopy j ((Rect.unit (s := S512x1024) off ![n, 1024] inb).emb y 0).val)) c)
        ((Rect.unit (s := S512x1024) off ![n, 1024] inb).emb y))
    = A P j c ((Rect.unit (s := S512x1024) off ![n, 1024] inb).emb y)
  rw [if_pos (by rw [emb_row]; exact hheld _ hy)]

/-- An all-gather phase on a run of rows the device does not hold: it takes the entries of the phase's partner, read
    there through a run from the same first row. -/
theorem gather_recv_gen (offS offU : Fin 2 → ℕ) (n : ℕ)
    (inbS : ∀ a, offS a + (![n, 1024] : Fin 2 → ℕ) a ≤ S512x1024.size a)
    (inbU : ∀ a, offU a + (![n, 1024] : Fin 2 → ℕ) a ≤ S512x1024.size a) (j : ℕ) (c c' : Dev nD)
    (hoff : ∀ a, offS a = offU a) (hnot : ∀ y0 : ℕ, y0 < n → ¬heldAt j c (offS 0 + y0))
    (hpeer : ∀ y0 : ℕ, y0 < n → peer (maskOf (agCopy j (offS 0 + y0))) c = c') :
    (accM.slice (Rect.unit (s := S512x1024) offS ![n, 1024] inbS) (fun _ => rfl)).view.read (Elt F) (A P (j + 1) c)
      = (accM.slice (Rect.unit (s := S512x1024) offU ![n, 1024] inbU) (fun _ => rfl)).view.read (Elt F) (A P j c') := by
  funext y
  have hy : (y 0).val < n := (y 0).isLt
  show (if heldAt j c ((Rect.unit (s := S512x1024) offS ![n, 1024] inbS).emb y 0).val
      then A P j c ((Rect.unit (s := S512x1024) offS ![n, 1024] inbS).emb y)
      else A P j (peer (maskOf (agCopy j ((Rect.unit (s := S512x1024) offS ![n, 1024] inbS).emb y 0).val)) c)
        ((Rect.unit (s := S512x1024) offS ![n, 1024] inbS).emb y))
    = A P j c' ((Rect.unit (s := S512x1024) offU ![n, 1024] inbU).emb y)
  rw [if_neg (by rw [emb_row]; exact hnot _ hy), emb_row, hpeer _ hy, emb_congr offS offU n inbS inbU hoff y]

/-! ### The nine reduce-scatter copies and the nine all-gather copies that undo them -/

/-- Reduce-scatter copy 0 (part 0, phase 0): the kept rows plus the partner's sent rows are the next phase's kept rows. -/
theorem accumulate_0 (c : Dev nD) :
    addf ((accM.slice (Rect.unit (s := S512x1024) (k0_off4 c) S128x1024.size (k0_off4_inb c)) (fun _ => rfl)).view.read (Elt F) (W P 0 c)) (rowsRead 0 (partner 0 c) (W P 0 (partner 0 c)))
      = (accM.slice (Rect.unit (s := S512x1024) (k0_off4 c) S128x1024.size (k0_off4_inb c)) (fun _ => rfl)).view.read (Elt F) (W P (0 + 1) c) :=
  accumulate_gen P (k0_off4 c) (k0_off1 (partner 0 c)) 128 (k0_off4_inb c) (k0_off1_inb (partner 0 c))
    (fun a => by rw [keep0_eq c, src0_eq (partner 0 c), vs_keep_src_0 c]) c (partner 0 c) 0
    (fun y0 hy => by
      have hb := vs_keep_part_0 c
      rw [show (k0_off4 c) (0 : Fin 2) = keepRow 0 c from congrFun (keep0_eq c) 0,
        vs_rsMask 0 _ 0 (partOfRow_0 (by omega))]
      rfl)

/-- All-gather copy 15 undoing copy 0 (phase 2): the rows kept then are held, and stay; -/
theorem gather_keep_0 (c : Dev nD) :
    (accM.slice (Rect.unit (s := S512x1024) (k0_off4 c) S128x1024.size (k0_off4_inb c)) (fun _ => rfl)).view.read (Elt F) (A P (2 + 1) c) = (accM.slice (Rect.unit (s := S512x1024) (k0_off4 c) S128x1024.size (k0_off4_inb c)) (fun _ => rfl)).view.read (Elt F) (A P 2 c) :=
  gather_keep_gen P (k0_off4 c) 128 (k0_off4_inb c) 2 c (fun y0 hy => by
    have hb := vs_keep_part_0 c
    have hu := vs_undo_src_0 c
    rw [show (k0_off4 c) (0 : Fin 2) = keepRow 0 c from congrFun (keep0_eq c) 0]
    unfold heldAt
    rw [vs_agCopy 2 _ 0 (partOfRow_0 (by omega))]
    show srcRow 15 c ≤ keepRow 0 c + y0 ∧ keepRow 0 c + y0 < srcRow 15 c + 128
    omega)

/-- the rows sent then are received now: the partner's kept rows, as the partner holds them. -/
theorem gather_recv_0 (c : Dev nD) :
    (accM.slice (Rect.unit (s := S512x1024) (k0_off1 c) S128x1024.size (k0_off1_inb c)) (fun _ => rfl)).view.read (Elt F) (A P (2 + 1) c) = rowsRead 15 (partner 0 c) (A P 2 (partner 0 c)) :=
  gather_recv_gen P (k0_off1 c) (k0_off22 (partner 0 c)) 128 (k0_off1_inb c) (k0_off22_inb (partner 0 c)) 2 c (partner 0 c)
    (fun a => by rw [src0_eq c, src15_eq (partner 0 c), vs_undo_src_0 (partner 0 c), vs_keep_peer_0 c])
    (fun y0 hy => by
      have hb := vs_src_part_0 c
      have hu := vs_undo_src_0 c
      have ha := vs_apart_0 c
      rw [show (k0_off1 c) (0 : Fin 2) = srcRow 0 c from congrFun (src0_eq c) 0]
      unfold heldAt
      rw [vs_agCopy 2 _ 0 (partOfRow_0 (by omega))]
      show ¬(srcRow 15 c ≤ srcRow 0 c + y0 ∧ srcRow 0 c + y0 < srcRow 15 c + 128)
      omega)
    (fun y0 hy => by
      have hb := vs_src_part_0 c
      rw [show (k0_off1 c) (0 : Fin 2) = srcRow 0 c from congrFun (src0_eq c) 0,
        vs_agCopy 2 _ 0 (partOfRow_0 (by omega))]
      rfl)

/-- Reduce-scatter copy 1 (part 1, phase 0): the kept rows plus the partner's sent rows are the next phase's kept rows. -/
theorem accumulate_1 (c : Dev nD) :
    addf ((accM.slice (Rect.unit (s := S512x1024) (k0_off6 c) S64x1024.size (k0_off6_inb c)) (fun _ => rfl)).view.read (Elt F) (W P 0 c)) (rowsRead 1 (partner 1 c) (W P 0 (partner 1 c)))
      = (accM.slice (Rect.unit (s := S512x1024) (k0_off6 c) S64x1024.size (k0_off6_inb c)) (fun _ => rfl)).view.read (Elt F) (W P (0 + 1) c) :=
  accumulate_gen P (k0_off6 c) (k0_off2 (partner 1 c)) 64 (k0_off6_inb c) (k0_off2_inb (partner 1 c))
    (fun a => by rw [keep1_eq c, src1_eq (partner 1 c), vs_keep_src_1 c]) c (partner 1 c) 0
    (fun y0 hy => by
      have hb := vs_keep_part_1 c
      rw [show (k0_off6 c) (0 : Fin 2) = keepRow 1 c from congrFun (keep1_eq c) 0,
        vs_rsMask 0 _ 1 (partOfRow_1 (by omega) (by omega))]
      rfl)

/-- All-gather copy 16 undoing copy 1 (phase 2): the rows kept then are held, and stay; -/
theorem gather_keep_1 (c : Dev nD) :
    (accM.slice (Rect.unit (s := S512x1024) (k0_off6 c) S64x1024.size (k0_off6_inb c)) (fun _ => rfl)).view.read (Elt F) (A P (2 + 1) c) = (accM.slice (Rect.unit (s := S512x1024) (k0_off6 c) S64x1024.size (k0_off6_inb c)) (fun _ => rfl)).view.read (Elt F) (A P 2 c) :=
  gather_keep_gen P (k0_off6 c) 64 (k0_off6_inb c) 2 c (fun y0 hy => by
    have hb := vs_keep_part_1 c
    have hu := vs_undo_src_1 c
    rw [show (k0_off6 c) (0 : Fin 2) = keepRow 1 c from congrFun (keep1_eq c) 0]
    unfold heldAt
    rw [vs_agCopy 2 _ 1 (partOfRow_1 (by omega) (by omega))]
    show srcRow 16 c ≤ keepRow 1 c + y0 ∧ keepRow 1 c + y0 < srcRow 16 c + 64
    omega)

/-- the rows sent then are received now: the partner's kept rows, as the partner holds them. -/
theorem gather_recv_1 (c : Dev nD) :
    (accM.slice (Rect.unit (s := S512x1024) (k0_off2 c) S64x1024.size (k0_off2_inb c)) (fun _ => rfl)).view.read (Elt F) (A P (2 + 1) c) = rowsRead 16 (partner 1 c) (A P 2 (partner 1 c)) :=
  gather_recv_gen P (k0_off2 c) (k0_off23 (partner 1 c)) 64 (k0_off2_inb c) (k0_off23_inb (partner 1 c)) 2 c (partner 1 c)
    (fun a => by rw [src1_eq c, src16_eq (partner 1 c), vs_undo_src_1 (partner 1 c), vs_keep_peer_1 c])
    (fun y0 hy => by
      have hb := vs_src_part_1 c
      have hu := vs_undo_src_1 c
      have ha := vs_apart_1 c
      rw [show (k0_off2 c) (0 : Fin 2) = srcRow 1 c from congrFun (src1_eq c) 0]
      unfold heldAt
      rw [vs_agCopy 2 _ 1 (partOfRow_1 (by omega) (by omega))]
      show ¬(srcRow 16 c ≤ srcRow 1 c + y0 ∧ srcRow 1 c + y0 < srcRow 16 c + 64)
      omega)
    (fun y0 hy => by
      have hb := vs_src_part_1 c
      rw [show (k0_off2 c) (0 : Fin 2) = srcRow 1 c from congrFun (src1_eq c) 0,
        vs_agCopy 2 _ 1 (partOfRow_1 (by omega) (by omega))]
      rfl)

/-- Reduce-scatter copy 2 (part 2, phase 0): the kept rows plus the partner's sent rows are the next phase's kept rows. -/
theorem accumulate_2 (c : Dev nD) :
    addf ((accM.slice (Rect.unit (s := S512x1024) (k0_off8 c) S64x1024.size (k0_off8_inb c)) (fun _ => rfl)).view.read (Elt F) (W P 0 c)) (rowsRead 2 (partner 2 c) (W P 0 (partner 2 c)))
      = (accM.slice (Rect.unit (s := S512x1024) (k0_off8 c) S64x1024.size (k0_off8_inb c)) (fun _ => rfl)).view.read (Elt F) (W P (0 + 1) c) :=
  accumulate_gen P (k0_off8 c) (k0_off3 (partner 2 c)) 64 (k0_off8_inb c) (k0_off3_inb (partner 2 c))
    (fun a => by rw [keep2_eq c, src2_eq (partner 2 c), vs_keep_src_2 c]) c (partner 2 c) 0
    (fun y0 hy => by
      have hb := vs_keep_part_2 c
      rw [show (k0_off8 c) (0 : Fin 2) = keepRow 2 c from congrFun (keep2_eq c) 0,
        vs_rsMask 0 _ 2 (partOfRow_2 (by omega))]
      rfl)

/-- All-gather copy 17 undoing copy 2 (phase 2): the rows kept then are held, and stay; -/
theorem gather_keep_2 (c : Dev nD) :
    (accM.slice (Rect.unit (s := S512x1024) (k0_off8 c) S64x1024.size (k0_off8_inb c)) (fun _ => rfl)).view.read (Elt F) (A P (2 + 1) c) = (accM.slice (Rect.unit (s := S512x1024) (k0_off8 c) S64x1024.size (k0_off8_inb c)) (fun _ => rfl)).view.read (Elt F) (A P 2 c) :=
  gather_keep_gen P (k0_off8 c) 64 (k0_off8_inb c) 2 c (fun y0 hy => by
    have hb := vs_keep_part_2 c
    have hu := vs_undo_src_2 c
    rw [show (k0_off8 c) (0 : Fin 2) = keepRow 2 c from congrFun (keep2_eq c) 0]
    unfold heldAt
    rw [vs_agCopy 2 _ 2 (partOfRow_2 (by omega))]
    show srcRow 17 c ≤ keepRow 2 c + y0 ∧ keepRow 2 c + y0 < srcRow 17 c + 64
    omega)

/-- the rows sent then are received now: the partner's kept rows, as the partner holds them. -/
theorem gather_recv_2 (c : Dev nD) :
    (accM.slice (Rect.unit (s := S512x1024) (k0_off3 c) S64x1024.size (k0_off3_inb c)) (fun _ => rfl)).view.read (Elt F) (A P (2 + 1) c) = rowsRead 17 (partner 2 c) (A P 2 (partner 2 c)) :=
  gather_recv_gen P (k0_off3 c) (k0_off24 (partner 2 c)) 64 (k0_off3_inb c) (k0_off24_inb (partner 2 c)) 2 c (partner 2 c)
    (fun a => by rw [src2_eq c, src17_eq (partner 2 c), vs_undo_src_2 (partner 2 c), vs_keep_peer_2 c])
    (fun y0 hy => by
      have hb := vs_src_part_2 c
      have hu := vs_undo_src_2 c
      have ha := vs_apart_2 c
      rw [show (k0_off3 c) (0 : Fin 2) = srcRow 2 c from congrFun (src2_eq c) 0]
      unfold heldAt
      rw [vs_agCopy 2 _ 2 (partOfRow_2 (by omega))]
      show ¬(srcRow 17 c ≤ srcRow 2 c + y0 ∧ srcRow 2 c + y0 < srcRow 17 c + 64)
      omega)
    (fun y0 hy => by
      have hb := vs_src_part_2 c
      rw [show (k0_off3 c) (0 : Fin 2) = srcRow 2 c from congrFun (src2_eq c) 0,
        vs_agCopy 2 _ 2 (partOfRow_2 (by omega))]
      rfl)

/-- Reduce-scatter copy 3 (part 0, phase 1): the kept rows plus the partner's sent rows are the next phase's kept rows. -/
theorem accumulate_3 (c : Dev nD) :
    addf ((accM.slice (Rect.unit (s := S512x1024) (k0_off10 c) S64x1024.size (k0_off10_inb c)) (fun _ => rfl)).view.read (Elt F) (W P 1 c)) (rowsRead 3 (partner 3 c) (W P 1 (partner 3 c)))
      = (accM.slice (Rect.unit (s := S512x1024) (k0_off10 c) S64x1024.size (k0_off10_inb c)) (fun _ => rfl)).view.read (Elt F) (W P (1 + 1) c) :=
  accumulate_gen P (k0_off10 c) (k0_off5 (partner 3 c)) 64 (k0_off10_inb c) (k0_off5_inb (partner 3 c))
    (fun a => by rw [keep3_eq c, src3_eq (partner 3 c), vs_keep_src_3 c]) c (partner 3 c) 1
    (fun y0 hy => by
      have hb := vs_keep_part_3 c
      rw [show (k0_off10 c) (0 : Fin 2) = keepRow 3 c from congrFun (keep3_eq c) 0,
        vs_rsMask 1 _ 0 (partOfRow_0 (by omega))]
      rfl)

/-- All-gather copy 12 undoing copy 3 (phase 1): the rows kept then are held, and stay; -/
theorem gather_keep_3 (c : Dev nD) :
    (accM.slice (Rect.unit (s := S512x1024) (k0_off10 c) S64x1024.size (k0_off10_inb c)) (fun _ => rfl)).view.read (Elt F) (A P (1 + 1) c) = (accM.slice (Rect.unit (s := S512x1024) (k0_off10 c) S64x1024.size (k0_off10_inb c)) (fun _ => rfl)).view.read (Elt F) (A P 1 c) :=
  gather_keep_gen P (k0_off10 c) 64 (k0_off10_inb c) 1 c (fun y0 hy => by
    have hb := vs_keep_part_3 c
    have hu := vs_undo_src_3 c
    rw [show (k0_off10 c) (0 : Fin 2) = keepRow 3 c from congrFun (keep3_eq c) 0]
    unfold heldAt
    rw [vs_agCopy 1 _ 0 (partOfRow_0 (by omega))]
    show srcRow 12 c ≤ keepRow 3 c + y0 ∧ keepRow 3 c + y0 < srcRow 12 c + 64
    omega)

/-- the rows sent then are received now: the partner's kept rows, as the partner holds them. -/
theorem gather_recv_3 (c : Dev nD) :
    (accM.slice (Rect.unit (s := S512x1024) (k0_off5 c) S64x1024.size (k0_off5_inb c)) (fun _ => rfl)).view.read (Elt F) (A P (1 + 1) c) = rowsRead 12 (partner 3 c) (A P 1 (partner 3 c)) :=
  gather_recv_gen P (k0_off5 c) (k0_off19 (partner 3 c)) 64 (k0_off5_inb c) (k0_off19_inb (partner 3 c)) 1 c (partner 3 c)
    (fun a => by rw [src3_eq c, src12_eq (partner 3 c), vs_undo_src_3 (partner 3 c), vs_keep_peer_3 c])
    (fun y0 hy => by
      have hb := vs_src_part_3 c
      have hu := vs_undo_src_3 c
      have ha := vs_apart_3 c
      rw [show (k0_off5 c) (0 : Fin 2) = srcRow 3 c from congrFun (src3_eq c) 0]
      unfold heldAt
      rw [vs_agCopy 1 _ 0 (partOfRow_0 (by omega))]
      show ¬(srcRow 12 c ≤ srcRow 3 c + y0 ∧ srcRow 3 c + y0 < srcRow 12 c + 64)
      omega)
    (fun y0 hy => by
      have hb := vs_src_part_3 c
      rw [show (k0_off5 c) (0 : Fin 2) = srcRow 3 c from congrFun (src3_eq c) 0,
        vs_agCopy 1 _ 0 (partOfRow_0 (by omega))]
      rfl)

/-- Reduce-scatter copy 4 (part 1, phase 1): the kept rows plus the partner's sent rows are the next phase's kept rows. -/
theorem accumulate_4 (c : Dev nD) :
    addf ((accM.slice (Rect.unit (s := S512x1024) (k0_off12 c) S32x1024.size (k0_off12_inb c)) (fun _ => rfl)).view.read (Elt F) (W P 1 c)) (rowsRead 4 (partner 4 c) (W P 1 (partner 4 c)))
      = (accM.slice (Rect.unit (s := S512x1024) (k0_off12 c) S32x1024.size (k0_off12_inb c)) (fun _ => rfl)).view.read (Elt F) (W P (1 + 1) c) :=
  accumulate_gen P (k0_off12 c) (k0_off7 (partner 4 c)) 32 (k0_off12_inb c) (k0_off7_inb (partner 4 c))
    (fun a => by rw [keep4_eq c, src4_eq (partner 4 c), vs_keep_src_4 c]) c (partner 4 c) 1
    (fun y0 hy => by
      have hb := vs_keep_part_4 c
      rw [show (k0_off12 c) (0 : Fin 2) = keepRow 4 c from congrFun (keep4_eq c) 0,
        vs_rsMask 1 _ 1 (partOfRow_1 (by omega) (by omega))]
      rfl)

/-- All-gather copy 13 undoing copy 4 (phase 1): the rows kept then are held, and stay; -/
theorem gather_keep_4 (c : Dev nD) :
    (accM.slice (Rect.unit (s := S512x1024) (k0_off12 c) S32x1024.size (k0_off12_inb c)) (fun _ => rfl)).view.read (Elt F) (A P (1 + 1) c) = (accM.slice (Rect.unit (s := S512x1024) (k0_off12 c) S32x1024.size (k0_off12_inb c)) (fun _ => rfl)).view.read (Elt F) (A P 1 c) :=
  gather_keep_gen P (k0_off12 c) 32 (k0_off12_inb c) 1 c (fun y0 hy => by
    have hb := vs_keep_part_4 c
    have hu := vs_undo_src_4 c
    rw [show (k0_off12 c) (0 : Fin 2) = keepRow 4 c from congrFun (keep4_eq c) 0]
    unfold heldAt
    rw [vs_agCopy 1 _ 1 (partOfRow_1 (by omega) (by omega))]
    show srcRow 13 c ≤ keepRow 4 c + y0 ∧ keepRow 4 c + y0 < srcRow 13 c + 32
    omega)

/-- the rows sent then are received now: the partner's kept rows, as the partner holds them. -/
theorem gather_recv_4 (c : Dev nD) :
    (accM.slice (Rect.unit (s := S512x1024) (k0_off7 c) S32x1024.size (k0_off7_inb c)) (fun _ => rfl)).view.read (Elt F) (A P (1 + 1) c) = rowsRead 13 (partner 4 c) (A P 1 (partner 4 c)) :=
  gather_recv_gen P (k0_off7 c) (k0_off20 (partner 4 c)) 32 (k0_off7_inb c) (k0_off20_inb (partner 4 c)) 1 c (partner 4 c)
    (fun a => by rw [src4_eq c, src13_eq (partner 4 c), vs_undo_src_4 (partner 4 c), vs_keep_peer_4 c])
    (fun y0 hy => by
      have hb := vs_src_part_4 c
      have hu := vs_undo_src_4 c
      have ha := vs_apart_4 c
      rw [show (k0_off7 c) (0 : Fin 2) = srcRow 4 c from congrFun (src4_eq c) 0]
      unfold heldAt
      rw [vs_agCopy 1 _ 1 (partOfRow_1 (by omega) (by omega))]
      show ¬(srcRow 13 c ≤ srcRow 4 c + y0 ∧ srcRow 4 c + y0 < srcRow 13 c + 32)
      omega)
    (fun y0 hy => by
      have hb := vs_src_part_4 c
      rw [show (k0_off7 c) (0 : Fin 2) = srcRow 4 c from congrFun (src4_eq c) 0,
        vs_agCopy 1 _ 1 (partOfRow_1 (by omega) (by omega))]
      rfl)

/-- Reduce-scatter copy 5 (part 2, phase 1): the kept rows plus the partner's sent rows are the next phase's kept rows. -/
theorem accumulate_5 (c : Dev nD) :
    addf ((accM.slice (Rect.unit (s := S512x1024) (k0_off14 c) S32x1024.size (k0_off14_inb c)) (fun _ => rfl)).view.read (Elt F) (W P 1 c)) (rowsRead 5 (partner 5 c) (W P 1 (partner 5 c)))
      = (accM.slice (Rect.unit (s := S512x1024) (k0_off14 c) S32x1024.size (k0_off14_inb c)) (fun _ => rfl)).view.read (Elt F) (W P (1 + 1) c) :=
  accumulate_gen P (k0_off14 c) (k0_off9 (partner 5 c)) 32 (k0_off14_inb c) (k0_off9_inb (partner 5 c))
    (fun a => by rw [keep5_eq c, src5_eq (partner 5 c), vs_keep_src_5 c]) c (partner 5 c) 1
    (fun y0 hy => by
      have hb := vs_keep_part_5 c
      rw [show (k0_off14 c) (0 : Fin 2) = keepRow 5 c from congrFun (keep5_eq c) 0,
        vs_rsMask 1 _ 2 (partOfRow_2 (by omega))]
      rfl)

/-- All-gather copy 14 undoing copy 5 (phase 1): the rows kept then are held, and stay; -/
theorem gather_keep_5 (c : Dev nD) :
    (accM.slice (Rect.unit (s := S512x1024) (k0_off14 c) S32x1024.size (k0_off14_inb c)) (fun _ => rfl)).view.read (Elt F) (A P (1 + 1) c) = (accM.slice (Rect.unit (s := S512x1024) (k0_off14 c) S32x1024.size (k0_off14_inb c)) (fun _ => rfl)).view.read (Elt F) (A P 1 c) :=
  gather_keep_gen P (k0_off14 c) 32 (k0_off14_inb c) 1 c (fun y0 hy => by
    have hb := vs_keep_part_5 c
    have hu := vs_undo_src_5 c
    rw [show (k0_off14 c) (0 : Fin 2) = keepRow 5 c from congrFun (keep5_eq c) 0]
    unfold heldAt
    rw [vs_agCopy 1 _ 2 (partOfRow_2 (by omega))]
    show srcRow 14 c ≤ keepRow 5 c + y0 ∧ keepRow 5 c + y0 < srcRow 14 c + 32
    omega)

/-- the rows sent then are received now: the partner's kept rows, as the partner holds them. -/
theorem gather_recv_5 (c : Dev nD) :
    (accM.slice (Rect.unit (s := S512x1024) (k0_off9 c) S32x1024.size (k0_off9_inb c)) (fun _ => rfl)).view.read (Elt F) (A P (1 + 1) c) = rowsRead 14 (partner 5 c) (A P 1 (partner 5 c)) :=
  gather_recv_gen P (k0_off9 c) (k0_off21 (partner 5 c)) 32 (k0_off9_inb c) (k0_off21_inb (partner 5 c)) 1 c (partner 5 c)
    (fun a => by rw [src5_eq c, src14_eq (partner 5 c), vs_undo_src_5 (partner 5 c), vs_keep_peer_5 c])
    (fun y0 hy => by
      have hb := vs_src_part_5 c
      have hu := vs_undo_src_5 c
      have ha := vs_apart_5 c
      rw [show (k0_off9 c) (0 : Fin 2) = srcRow 5 c from congrFun (src5_eq c) 0]
      unfold heldAt
      rw [vs_agCopy 1 _ 2 (partOfRow_2 (by omega))]
      show ¬(srcRow 14 c ≤ srcRow 5 c + y0 ∧ srcRow 5 c + y0 < srcRow 14 c + 32)
      omega)
    (fun y0 hy => by
      have hb := vs_src_part_5 c
      rw [show (k0_off9 c) (0 : Fin 2) = srcRow 5 c from congrFun (src5_eq c) 0,
        vs_agCopy 1 _ 2 (partOfRow_2 (by omega))]
      rfl)

/-- Reduce-scatter copy 6 (part 0, phase 2): the kept rows plus the partner's sent rows are the next phase's kept rows. -/
theorem accumulate_6 (c : Dev nD) :
    addf ((accM.slice (Rect.unit (s := S512x1024) (k0_off16 c) S32x1024.size (k0_off16_inb c)) (fun _ => rfl)).view.read (Elt F) (W P 2 c)) (rowsRead 6 (partner 6 c) (W P 2 (partner 6 c)))
      = (accM.slice (Rect.unit (s := S512x1024) (k0_off16 c) S32x1024.size (k0_off16_inb c)) (fun _ => rfl)).view.read (Elt F) (W P (2 + 1) c) :=
  accumulate_gen P (k0_off16 c) (k0_off11 (partner 6 c) 0#32 32#32) 32 (k0_off16_inb c) (k0_off11_inb (partner 6 c) 0)
    (fun a => by rw [keep6_eq c, src6_eq (partner 6 c), vs_keep_src_6 c]) c (partner 6 c) 2
    (fun y0 hy => by
      have hb := vs_keep_part_6 c
      rw [show (k0_off16 c) (0 : Fin 2) = keepRow 6 c from congrFun (keep6_eq c) 0,
        vs_rsMask 2 _ 0 (partOfRow_0 (by omega))]
      rfl)

/-- All-gather copy 9 undoing copy 6 (phase 0): the rows kept then are held, and stay; -/
theorem gather_keep_6 (c : Dev nD) :
    (accM.slice (Rect.unit (s := S512x1024) (k0_off16 c) S32x1024.size (k0_off16_inb c)) (fun _ => rfl)).view.read (Elt F) (A P (0 + 1) c) = (accM.slice (Rect.unit (s := S512x1024) (k0_off16 c) S32x1024.size (k0_off16_inb c)) (fun _ => rfl)).view.read (Elt F) (A P 0 c) :=
  gather_keep_gen P (k0_off16 c) 32 (k0_off16_inb c) 0 c (fun y0 hy => by
    have hb := vs_keep_part_6 c
    have hu := vs_undo_src_6 c
    rw [show (k0_off16 c) (0 : Fin 2) = keepRow 6 c from congrFun (keep6_eq c) 0]
    unfold heldAt
    rw [vs_agCopy 0 _ 0 (partOfRow_0 (by omega))]
    show srcRow 9 c ≤ keepRow 6 c + y0 ∧ keepRow 6 c + y0 < srcRow 9 c + 32
    omega)

/-- the rows sent then are received now: the partner's kept rows, as the partner holds them. -/
theorem gather_recv_6 (c : Dev nD) :
    (accM.slice (Rect.unit (s := S512x1024) (k0_off11 c 0#32 32#32) S32x1024.size (k0_off11_inb c 0)) (fun _ => rfl)).view.read (Elt F) (A P (0 + 1) c) = rowsRead 9 (partner 6 c) (A P 0 (partner 6 c)) :=
  gather_recv_gen P (k0_off11 c 0#32 32#32) (k0_off11 (partner 6 c) 32#32 0#32) 32 (k0_off11_inb c 0) (k0_off11_inb (partner 6 c) 1) 0 c (partner 6 c)
    (fun a => by rw [src6_eq c, src9_eq (partner 6 c), vs_undo_src_6 (partner 6 c), vs_keep_peer_6 c])
    (fun y0 hy => by
      have hb := vs_src_part_6 c
      have hu := vs_undo_src_6 c
      have ha := vs_apart_6 c
      rw [show (k0_off11 c 0#32 32#32) (0 : Fin 2) = srcRow 6 c from congrFun (src6_eq c) 0]
      unfold heldAt
      rw [vs_agCopy 0 _ 0 (partOfRow_0 (by omega))]
      show ¬(srcRow 9 c ≤ srcRow 6 c + y0 ∧ srcRow 6 c + y0 < srcRow 9 c + 32)
      omega)
    (fun y0 hy => by
      have hb := vs_src_part_6 c
      rw [show (k0_off11 c 0#32 32#32) (0 : Fin 2) = srcRow 6 c from congrFun (src6_eq c) 0,
        vs_agCopy 0 _ 0 (partOfRow_0 (by omega))]
      rfl)

/-- Reduce-scatter copy 7 (part 1, phase 2): the kept rows plus the partner's sent rows are the next phase's kept rows. -/
theorem accumulate_7 (c : Dev nD) :
    addf ((accM.slice (Rect.unit (s := S512x1024) (k0_off17 c) S16x1024.size (k0_off17_inb c)) (fun _ => rfl)).view.read (Elt F) (W P 2 c)) (rowsRead 7 (partner 7 c) (W P 2 (partner 7 c)))
      = (accM.slice (Rect.unit (s := S512x1024) (k0_off17 c) S16x1024.size (k0_off17_inb c)) (fun _ => rfl)).view.read (Elt F) (W P (2 + 1) c) :=
  accumulate_gen P (k0_off17 c) (k0_off13 (partner 7 c) 0#32 16#32) 16 (k0_off17_inb c) (k0_off13_inb (partner 7 c) 0)
    (fun a => by rw [keep7_eq c, src7_eq (partner 7 c), vs_keep_src_7 c]) c (partner 7 c) 2
    (fun y0 hy => by
      have hb := vs_keep_part_7 c
      rw [show (k0_off17 c) (0 : Fin 2) = keepRow 7 c from congrFun (keep7_eq c) 0,
        vs_rsMask 2 _ 1 (partOfRow_1 (by omega) (by omega))]
      rfl)

/-- All-gather copy 10 undoing copy 7 (phase 0): the rows kept then are held, and stay; -/
theorem gather_keep_7 (c : Dev nD) :
    (accM.slice (Rect.unit (s := S512x1024) (k0_off17 c) S16x1024.size (k0_off17_inb c)) (fun _ => rfl)).view.read (Elt F) (A P (0 + 1) c) = (accM.slice (Rect.unit (s := S512x1024) (k0_off17 c) S16x1024.size (k0_off17_inb c)) (fun _ => rfl)).view.read (Elt F) (A P 0 c) :=
  gather_keep_gen P (k0_off17 c) 16 (k0_off17_inb c) 0 c (fun y0 hy => by
    have hb := vs_keep_part_7 c
    have hu := vs_undo_src_7 c
    rw [show (k0_off17 c) (0 : Fin 2) = keepRow 7 c from congrFun (keep7_eq c) 0]
    unfold heldAt
    rw [vs_agCopy 0 _ 1 (partOfRow_1 (by omega) (by omega))]
    show srcRow 10 c ≤ keepRow 7 c + y0 ∧ keepRow 7 c + y0 < srcRow 10 c + 16
    omega)

/-- the rows sent then are received now: the partner's kept rows, as the partner holds them. -/
theorem gather_recv_7 (c : Dev nD) :
    (accM.slice (Rect.unit (s := S512x1024) (k0_off13 c 0#32 16#32) S16x1024.size (k0_off13_inb c 0)) (fun _ => rfl)).view.read (Elt F) (A P (0 + 1) c) = rowsRead 10 (partner 7 c) (A P 0 (partner 7 c)) :=
  gather_recv_gen P (k0_off13 c 0#32 16#32) (k0_off13 (partner 7 c) 16#32 0#32) 16 (k0_off13_inb c 0) (k0_off13_inb (partner 7 c) 1) 0 c (partner 7 c)
    (fun a => by rw [src7_eq c, src10_eq (partner 7 c), vs_undo_src_7 (partner 7 c), vs_keep_peer_7 c])
    (fun y0 hy => by
      have hb := vs_src_part_7 c
      have hu := vs_undo_src_7 c
      have ha := vs_apart_7 c
      rw [show (k0_off13 c 0#32 16#32) (0 : Fin 2) = srcRow 7 c from congrFun (src7_eq c) 0]
      unfold heldAt
      rw [vs_agCopy 0 _ 1 (partOfRow_1 (by omega) (by omega))]
      show ¬(srcRow 10 c ≤ srcRow 7 c + y0 ∧ srcRow 7 c + y0 < srcRow 10 c + 16)
      omega)
    (fun y0 hy => by
      have hb := vs_src_part_7 c
      rw [show (k0_off13 c 0#32 16#32) (0 : Fin 2) = srcRow 7 c from congrFun (src7_eq c) 0,
        vs_agCopy 0 _ 1 (partOfRow_1 (by omega) (by omega))]
      rfl)

/-- Reduce-scatter copy 8 (part 2, phase 2): the kept rows plus the partner's sent rows are the next phase's kept rows. -/
theorem accumulate_8 (c : Dev nD) :
    addf ((accM.slice (Rect.unit (s := S512x1024) (k0_off18 c) S16x1024.size (k0_off18_inb c)) (fun _ => rfl)).view.read (Elt F) (W P 2 c)) (rowsRead 8 (partner 8 c) (W P 2 (partner 8 c)))
      = (accM.slice (Rect.unit (s := S512x1024) (k0_off18 c) S16x1024.size (k0_off18_inb c)) (fun _ => rfl)).view.read (Elt F) (W P (2 + 1) c) :=
  accumulate_gen P (k0_off18 c) (k0_off15 (partner 8 c) 0#32 16#32) 16 (k0_off18_inb c) (k0_off15_inb (partner 8 c) 0)
    (fun a => by rw [keep8_eq c, src8_eq (partner 8 c), vs_keep_src_8 c]) c (partner 8 c) 2
    (fun y0 hy => by
      have hb := vs_keep_part_8 c
      rw [show (k0_off18 c) (0 : Fin 2) = keepRow 8 c from congrFun (keep8_eq c) 0,
        vs_rsMask 2 _ 2 (partOfRow_2 (by omega))]
      rfl)

/-- All-gather copy 11 undoing copy 8 (phase 0): the rows kept then are held, and stay; -/
theorem gather_keep_8 (c : Dev nD) :
    (accM.slice (Rect.unit (s := S512x1024) (k0_off18 c) S16x1024.size (k0_off18_inb c)) (fun _ => rfl)).view.read (Elt F) (A P (0 + 1) c) = (accM.slice (Rect.unit (s := S512x1024) (k0_off18 c) S16x1024.size (k0_off18_inb c)) (fun _ => rfl)).view.read (Elt F) (A P 0 c) :=
  gather_keep_gen P (k0_off18 c) 16 (k0_off18_inb c) 0 c (fun y0 hy => by
    have hb := vs_keep_part_8 c
    have hu := vs_undo_src_8 c
    rw [show (k0_off18 c) (0 : Fin 2) = keepRow 8 c from congrFun (keep8_eq c) 0]
    unfold heldAt
    rw [vs_agCopy 0 _ 2 (partOfRow_2 (by omega))]
    show srcRow 11 c ≤ keepRow 8 c + y0 ∧ keepRow 8 c + y0 < srcRow 11 c + 16
    omega)

/-- the rows sent then are received now: the partner's kept rows, as the partner holds them. -/
theorem gather_recv_8 (c : Dev nD) :
    (accM.slice (Rect.unit (s := S512x1024) (k0_off15 c 0#32 16#32) S16x1024.size (k0_off15_inb c 0)) (fun _ => rfl)).view.read (Elt F) (A P (0 + 1) c) = rowsRead 11 (partner 8 c) (A P 0 (partner 8 c)) :=
  gather_recv_gen P (k0_off15 c 0#32 16#32) (k0_off15 (partner 8 c) 16#32 0#32) 16 (k0_off15_inb c 0) (k0_off15_inb (partner 8 c) 1) 0 c (partner 8 c)
    (fun a => by rw [src8_eq c, src11_eq (partner 8 c), vs_undo_src_8 (partner 8 c), vs_keep_peer_8 c])
    (fun y0 hy => by
      have hb := vs_src_part_8 c
      have hu := vs_undo_src_8 c
      have ha := vs_apart_8 c
      rw [show (k0_off15 c 0#32 16#32) (0 : Fin 2) = srcRow 8 c from congrFun (src8_eq c) 0]
      unfold heldAt
      rw [vs_agCopy 0 _ 2 (partOfRow_2 (by omega))]
      show ¬(srcRow 11 c ≤ srcRow 8 c + y0 ∧ srcRow 8 c + y0 < srcRow 11 c + 16)
      omega)
    (fun y0 hy => by
      have hb := vs_src_part_8 c
      rw [show (k0_off15 c 0#32 16#32) (0 : Fin 2) = srcRow 8 c from congrFun (src8_eq c) 0,
        vs_agCopy 0 _ 2 (partOfRow_2 (by omega))]
      rfl)

end Phases

/-- info: 'Cert.KernelIdeal.Coll.accumulate_8' depends on axioms: [propext, Classical.choice, Quot.sound] -/
#guard_msgs in #print axioms accumulate_8

/-- info: 'Cert.KernelIdeal.Coll.gather_recv_8' depends on axioms: [propext, Classical.choice, Quot.sound] -/
#guard_msgs in #print axioms gather_recv_8

end Cert.KernelIdeal.Coll

end
-- ==== Proof.KernelIdeal.ValueJoins.lean ====
/-
  Joining what an all-gather phase hands a device. After the phase the device holds again the rows it sent in the matching
  reduce-scatter phase — now with its partner's entries — beside the rows it kept. The two runs are the two halves of the run
  it held before that reduce-scatter phase; contents that are the landed ones on the partner's rows and the device's own
  elsewhere read, through the whole run, as the accumulator after the phase. And the first all-gather phase's source rows
  are the last reduce-scatter phase's kept rows, named through another chain of offsets.
-/
import proofs.«900423_g7700000000000424_dist_attn_self_mha_htp_b1_sq512_skv512_d1024_hq8_dh128_v7x_i8_f32_1_alg».proof.Proof.KernelIdeal.ValuePhases

noncomputable section

namespace Cert.KernelIdeal.Coll

open Cert.KernelIdeal Cert.KernelIdeal.Gen Cert.KernelIdeal.Mesh Idealize.ShloMosaic Idealize.ShloMosaic.ValueIdx

variable {F : FTy → Type} [FloatOps F]

/-! ## Same rows, two spellings -/

/-- The source rows of all-gather copy 9 ARE the rows kept at reduce-scatter copy 6, reached by another chain of offsets. -/
theorem src9_eq_keep6 (c : Dev nD) : (accM.slice (Rect.unit (s := S512x1024) (k0_off11 c 32#32 0#32) S32x1024.size (k0_off11_inb c 1)) (fun _ => rfl)) = (accM.slice (Rect.unit (s := S512x1024) (k0_off16 c) S32x1024.size (k0_off16_inb c)) (fun _ => rfl)) :=
  Memref.slice_unit_congr accM (by rw [src9_eq c, keep6_eq c, vs_undo_src_6 c]) _ _ _ _
/-- … so they read every contents alike. -/
theorem read_src9_eq_keep6 (c : Dev nD) (f : AccC F) :
    (accM.slice (Rect.unit (s := S512x1024) (k0_off11 c 32#32 0#32) S32x1024.size (k0_off11_inb c 1)) (fun _ => rfl)).view.read (Elt F) f = (accM.slice (Rect.unit (s := S512x1024) (k0_off16 c) S32x1024.size (k0_off16_inb c)) (fun _ => rfl)).view.read (Elt F) f := by
  funext y
  exact congrArg f (emb_congr (k0_off11 c 32#32 0#32) (k0_off16 c) 32 (k0_off11_inb c 1) (k0_off16_inb c)
    (fun a => by rw [src9_eq c, keep6_eq c, vs_undo_src_6 c]) y)

/-- The source rows of all-gather copy 10 ARE the rows kept at reduce-scatter copy 7, reached by another chain of offsets. -/
theorem src10_eq_keep7 (c : Dev nD) : (accM.slice (Rect.unit (s := S512x1024) (k0_off13 c 16#32 0#32) S16x1024.size (k0_off13_inb c 1)) (fun _ => rfl)) = (accM.slice (Rect.unit (s := S512x1024) (k0_off17 c) S16x1024.size (k0_off17_inb c)) (fun _ => rfl)) :=
  Memref.slice_unit_congr accM (by rw [src10_eq c, keep7_eq c, vs_undo_src_7 c]) _ _ _ _
/-- … so they read every contents alike. -/
theorem read_src10_eq_keep7 (c : Dev nD) (f : AccC F) :
    (accM.slice (Rect.unit (s := S512x1024) (k0_off13 c 16#32 0#32) S16x1024.size (k0_off13_inb c 1)) (fun _ => rfl)).view.read (Elt F) f = (accM.slice (Rect.unit (s := S512x1024) (k0_off17 c) S16x1024.size (k0_off17_inb c)) (fun _ => rfl)).view.read (Elt F) f := by
  funext y
  exact congrArg f (emb_congr (k0_off13 c 16#32 0#32) (k0_off17 c) 16 (k0_off13_inb c 1) (k0_off17_inb c)
    (fun a => by rw [src10_eq c, keep7_eq c, vs_undo_src_7 c]) y)

/-- The source rows of all-gather copy 11 ARE the rows kept at reduce-scatter copy 8, reached by another chain of offsets. -/
theorem src11_eq_keep8 (c : Dev nD) : (accM.slice (Rect.unit (s := S512x1024) (k0_off15 c 16#32 0#32) S16x1024.size (k0_off15_inb c 1)) (fun _ => rfl)) = (accM.slice (Rect.unit (s := S512x1024) (k0_off18 c) S16x1024.size (k0_off18_inb c)) (fun _ => rfl)) :=
  Memref.slice_unit_congr accM (by rw [src11_eq c, keep8_eq c, vs_undo_src_8 c]) _ _ _ _
/-- … so they read every contents alike. -/
theorem read_src11_eq_keep8 (c : Dev nD) (f : AccC F) :
    (accM.slice (Rect.unit (s := S512x1024) (k0_off15 c 16#32 0#32) S16x1024.size (k0_off15_inb c 1)) (fun _ => rfl)).view.read (Elt F) f = (accM.slice (Rect.unit (s := S512x1024) (k0_off18 c) S16x1024.size (k0_off18_inb c)) (fun _ => rfl)).view.read (Elt F) f := by
  funext y
  exact congrArg f (emb_congr (k0_off15 c 16#32 0#32) (k0_off18 c) 16 (k0_off15_inb c 1) (k0_off18_inb c)
    (fun a => by rw [src11_eq c, keep8_eq c, vs_undo_src_8 c]) y)

/-! ## The join -/

/-- Contents that agree with `X` through a run M and through a run R, the two halves of a run V, agree with `X`
    through V once pieced together: R's on R's rows, M's elsewhere. -/
theorem join_read_gen (offV offM offR : Fin 2 → ℕ) (n : ℕ)
    (inbV : ∀ a, offV a + (![2 * n, 1024] : Fin 2 → ℕ) a ≤ S512x1024.size a)
    (inbM : ∀ a, offM a + (![n, 1024] : Fin 2 → ℕ) a ≤ S512x1024.size a)
    (inbR : ∀ a, offR a + (![n, 1024] : Fin 2 → ℕ) a ≤ S512x1024.size a)
    (rV rM rR : ℕ) (hV0 : offV 0 = rV) (hV1 : offV 1 = 0) (hM0 : offM 0 = rM) (hM1 : offM 1 = 0)
    (hR0 : offR 0 = rR) (hR1 : offR 1 = 0)
    (hh : (rR = rV ∧ rM = rV + n) ∨ (rR = rV + n ∧ rM = rV)) (fm fr X : AccC F)
    (hm : (accM.slice (Rect.unit (s := S512x1024) offM ![n, 1024] inbM) (fun _ => rfl)).view.read (Elt F) fm
      = (accM.slice (Rect.unit (s := S512x1024) offM ![n, 1024] inbM) (fun _ => rfl)).view.read (Elt F) X)
    (hr : (accM.slice (Rect.unit (s := S512x1024) offR ![n, 1024] inbR) (fun _ => rfl)).view.read (Elt F) fr
      = (accM.slice (Rect.unit (s := S512x1024) offR ![n, 1024] inbR) (fun _ => rfl)).view.read (Elt F) X) :
    (accM.slice (Rect.unit (s := S512x1024) offV ![2 * n, 1024] inbV) (fun _ => rfl)).view.read (Elt F)
        ((rowSet 512 rR n).piecewise fr fm)
      = (accM.slice (Rect.unit (s := S512x1024) offV ![2 * n, 1024] inbV) (fun _ => rfl)).view.read (Elt F) X := by
  funext y
  have hy0 : (y 0).val < 2 * n := (y 0).isLt
  have hy1 : (y 1).val < 1024 := (y 1).isLt
  refine (acc_read_apply offV (2 * n) inbV _ y).trans ?_
  refine Eq.trans ?_ (acc_read_apply offV (2 * n) inbV X y).symm
  have hrow : ((Rect.unit (s := S512x1024) offV ![2 * n, 1024] inbV).emb y 0).val = rV + (y 0).val := by
    rw [emb_row, hV0]
  have hcol : ((Rect.unit (s := S512x1024) offV ![2 * n, 1024] inbV).emb y 1).val = (y 1).val := by
    rw [Rect.emb_apply]; show offV 1 + 1 * (y 1).val = (y 1).val; rw [hV1]; omega
  generalize (Rect.unit (s := S512x1024) offV ![2 * n, 1024] inbV).emb y = x at hrow hcol ⊢
  by_cases hmem : x ∈ rowSet 512 rR n
  · rw [Finset.piecewise_eq_of_mem _ _ _ hmem]
    rw [mem_rowSet] at hmem
    obtain ⟨y', he⟩ : ∃ y' : (Sn n).Idx, (Rect.unit (s := S512x1024) offR ![n, 1024] inbR).emb y' = x :=
      ⟨ix2 (⟨(x 0).val - rR, by omega⟩ : Fin n) (⟨(y 1).val, hy1⟩ : Fin 1024), funext fun a => Fin.ext (by
        match a with
        | ⟨0, _⟩ => show offR 0 + 1 * ((x 0).val - rR) = (x 0).val; rw [hR0]; omega
        | ⟨1, _⟩ => show offR 1 + 1 * (y 1).val = (x 1).val; rw [hR1, hcol]; omega)⟩
    have h := congrFun hr y'
    rw [acc_read_apply, acc_read_apply, he] at h
    exact h
  · rw [Finset.piecewise_eq_of_notMem _ _ _ hmem]
    rw [mem_rowSet] at hmem
    obtain ⟨y', he⟩ : ∃ y' : (Sn n).Idx, (Rect.unit (s := S512x1024) offM ![n, 1024] inbM).emb y' = x :=
      ⟨ix2 (⟨(x 0).val - rM, by omega⟩ : Fin n) (⟨(y 1).val, hy1⟩ : Fin 1024), funext fun a => Fin.ext (by
        match a with
        | ⟨0, _⟩ => show offM 0 + 1 * ((x 0).val - rM) = (x 0).val; rw [hM0]; omega
        | ⟨1, _⟩ => show offM 1 + 1 * (y 1).val = (x 1).val; rw [hM1, hcol]; omega)⟩
    have h := congrFun hm y'
    rw [acc_read_apply, acc_read_apply, he] at h
    exact h

/-! ### The rows of each all-gather copy: decided over the eight devices -/

theorem vs_join_halves_9 : ∀ c : Dev nD, (srcRow 9 (peer (maskOf 9) c) = srcRow 12 c ∧ srcRow 9 c = srcRow 12 c + 32)
    ∨ (srcRow 9 (peer (maskOf 9) c) = srcRow 12 c + 32 ∧ srcRow 9 c = srcRow 12 c) := by decide
theorem vs_own_part_9 : ∀ c : Dev nD, srcRow 9 c + 32 ≤ 256 := by decide
theorem vs_recv_part_9 : ∀ c : Dev nD, srcRow 9 (peer (maskOf 9) c) + 32 ≤ 256 := by decide

theorem vs_join_halves_10 : ∀ c : Dev nD, (srcRow 10 (peer (maskOf 10) c) = srcRow 13 c ∧ srcRow 10 c = srcRow 13 c + 16)
    ∨ (srcRow 10 (peer (maskOf 10) c) = srcRow 13 c + 16 ∧ srcRow 10 c = srcRow 13 c) := by decide
theorem vs_own_part_10 : ∀ c : Dev nD, 256 ≤ srcRow 10 c ∧ srcRow 10 c + 16 ≤ 384 := by decide
theorem vs_recv_part_10 : ∀ c : Dev nD, 256 ≤ srcRow 10 (peer (maskOf 10) c) ∧ srcRow 10 (peer (maskOf 10) c) + 16 ≤ 384 := by decide

theorem vs_join_halves_11 : ∀ c : Dev nD, (srcRow 11 (peer (maskOf 11) c) = srcRow 14 c ∧ srcRow 11 c = srcRow 14 c + 16)
    ∨ (srcRow 11 (peer (maskOf 11) c) = srcRow 14 c + 16 ∧ srcRow 11 c = srcRow 14 c) := by decide
theorem vs_own_part_11 : ∀ c : Dev nD, 384 ≤ srcRow 11 c := by decide
theorem vs_recv_part_11 : ∀ c : Dev nD, 384 ≤ srcRow 11 (peer (maskOf 11) c) := by decide

theorem vs_join_halves_12 : ∀ c : Dev nD, (srcRow 12 (peer (maskOf 12) c) = srcRow 15 c ∧ srcRow 12 c = srcRow 15 c + 64)
    ∨ (srcRow 12 (peer (maskOf 12) c) = srcRow 15 c + 64 ∧ srcRow 12 c = srcRow 15 c) := by decide
theorem vs_own_part_12 : ∀ c : Dev nD, srcRow 12 c + 64 ≤ 256 := by decide
theorem vs_recv_part_12 : ∀ c : Dev nD, srcRow 12 (peer (maskOf 12) c) + 64 ≤ 256 := by decide

theorem vs_join_halves_13 : ∀ c : Dev nD, (srcRow 13 (peer (maskOf 13) c) = srcRow 16 c ∧ srcRow 13 c = srcRow 16 c + 32)
    ∨ (srcRow 13 (peer (maskOf 13) c) = srcRow 16 c + 32 ∧ srcRow 13 c = srcRow 16 c) := by decide
theorem vs_own_part_13 : ∀ c : Dev nD, 256 ≤ srcRow 13 c ∧ srcRow 13 c + 32 ≤ 384 := by decide
theorem vs_recv_part_13 : ∀ c : Dev nD, 256 ≤ srcRow 13 (peer (maskOf 13) c) ∧ srcRow 13 (peer (maskOf 13) c) + 32 ≤ 384 := by decide

theorem vs_join_halves_14 : ∀ c : Dev nD, (srcRow 14 (peer (maskOf 14) c) = srcRow 17 c ∧ srcRow 14 c = srcRow 17 c + 32)
    ∨ (srcRow 14 (peer (maskOf 14) c) = srcRow 17 c + 32 ∧ srcRow 14 c = srcRow 17 c) := by decide
theorem vs_own_part_14 : ∀ c : Dev nD, 384 ≤ srcRow 14 c := by decide
theorem vs_recv_part_14 : ∀ c : Dev nD, 384 ≤ srcRow 14 (peer (maskOf 14) c) := by decide

theorem vs_join_halves_15 : ∀ c : Dev nD, (srcRow 15 (peer (maskOf 15) c) = 0 ∧ srcRow 15 c = 0 + 128)
    ∨ (srcRow 15 (peer (maskOf 15) c) = 0 + 128 ∧ srcRow 15 c = 0) := by decide
theorem vs_own_part_15 : ∀ c : Dev nD, srcRow 15 c + 128 ≤ 256 := by decide
theorem vs_recv_part_15 : ∀ c : Dev nD, srcRow 15 (peer (maskOf 15) c) + 128 ≤ 256 := by decide

theorem vs_join_halves_16 : ∀ c : Dev nD, (srcRow 16 (peer (maskOf 16) c) = 256 ∧ srcRow 16 c = 256 + 64)
    ∨ (srcRow 16 (peer (maskOf 16) c) = 256 + 64 ∧ srcRow 16 c = 256) := by decide
theorem vs_own_part_16 : ∀ c : Dev nD, 256 ≤ srcRow 16 c ∧ srcRow 16 c + 64 ≤ 384 := by decide
theorem vs_recv_part_16 : ∀ c : Dev nD, 256 ≤ srcRow 16 (peer (maskOf 16) c) ∧ srcRow 16 (peer (maskOf 16) c) + 64 ≤ 384 := by decide

theorem vs_join_halves_17 : ∀ c : Dev nD, (srcRow 17 (peer (maskOf 17) c) = 384 ∧ srcRow 17 c = 384 + 64)
    ∨ (srcRow 17 (peer (maskOf 17) c) = 384 + 64 ∧ srcRow 17 c = 384) := by decide
theorem vs_own_part_17 : ∀ c : Dev nD, 384 ≤ srcRow 17 c := by decide
theorem vs_recv_part_17 : ∀ c : Dev nD, 384 ≤ srcRow 17 (peer (maskOf 17) c) := by decide

section Joins
variable (P : Dev nD → AccC F)

/-- All-gather copy 9 (phase 0): the device's own 32 rows and the 32 rows landed from its partner, joined, read as the
    accumulator after the phase. -/
theorem join_read_9 (c : Dev nD) (fm fr : Buf (Elt F) (accL c))
    (hfm : (srcM 9 c).view.read (Elt F) fm = rowsRead 9 c (A P 0 c))
    (hfr : (dstM 9 (partner 9 c)).view.read (Elt F) fr = rowsRead 9 (partner 9 c) (A P 0 (partner 9 c))) :
    (accM.slice (Rect.unit (s := S512x1024) (k0_off19 c) S64x1024.size (k0_off19_inb c)) (fun _ => rfl)).view.read (Elt F) ((rowSet 512 (srcRow 9 (peer 1 c)) 32).piecewise fr fm)
      = (accM.slice (Rect.unit (s := S512x1024) (k0_off19 c) S64x1024.size (k0_off19_inb c)) (fun _ => rfl)).view.read (Elt F) (A P (0 + 1) c) :=
  join_read_gen (k0_off19 c) (k0_off11 c 32#32 0#32) (k0_off11 (partner 9 c) 32#32 0#32) 32 (k0_off19_inb c) (k0_off11_inb c 1) (k0_off11_inb (partner 9 c) 1)
    (srcRow 12 c) (srcRow 9 c) (srcRow 9 (peer 1 c)) (congrFun (src12_eq c) 0) (congrFun (src12_eq c) 1)
    (congrFun (src9_eq c) 0) (congrFun (src9_eq c) 1) (congrFun (src9_eq (partner 9 c)) 0) (congrFun (src9_eq (partner 9 c)) 1)
    (vs_join_halves_9 c) fm fr (A P (0 + 1) c)
    (hfm.trans (gather_keep_gen P (k0_off11 c 32#32 0#32) 32 (k0_off11_inb c 1) 0 c (fun y0 hy => by
      have hb := vs_own_part_9 c
      rw [show (k0_off11 c 32#32 0#32) (0 : Fin 2) = srcRow 9 c from congrFun (src9_eq c) 0]
      unfold heldAt
      rw [vs_agCopy 0 _ 0 (partOfRow_0 (by omega))]
      show srcRow 9 c ≤ srcRow 9 c + y0 ∧ srcRow 9 c + y0 < srcRow 9 c + 32
      omega)).symm)
    (hfr.trans (gather_recv_gen P (k0_off11 (partner 9 c) 32#32 0#32) (k0_off11 (partner 9 c) 32#32 0#32) 32 (k0_off11_inb (partner 9 c) 1) (k0_off11_inb (partner 9 c) 1) 0 c (partner 9 c) (fun _ => rfl)
      (fun y0 hy => by
        have hb := vs_recv_part_9 c
        have hh := vs_join_halves_9 c
        rw [show (k0_off11 (partner 9 c) 32#32 0#32) (0 : Fin 2) = srcRow 9 (peer (maskOf 9) c) from congrFun (src9_eq (partner 9 c)) 0]
        unfold heldAt
        rw [vs_agCopy 0 _ 0 (partOfRow_0 (by omega))]
        show ¬(srcRow 9 c ≤ srcRow 9 (peer (maskOf 9) c) + y0
          ∧ srcRow 9 (peer (maskOf 9) c) + y0 < srcRow 9 c + 32)
        omega)
      (fun y0 hy => by
        have hb := vs_recv_part_9 c
        rw [show (k0_off11 (partner 9 c) 32#32 0#32) (0 : Fin 2) = srcRow 9 (peer (maskOf 9) c) from congrFun (src9_eq (partner 9 c)) 0,
          vs_agCopy 0 _ 0 (partOfRow_0 (by omega))]
        rfl)).symm)

/-- All-gather copy 10 (phase 0): the device's own 16 rows and the 16 rows landed from its partner, joined, read as the
    accumulator after the phase. -/
theorem join_read_10 (c : Dev nD) (fm fr : Buf (Elt F) (accL c))
    (hfm : (srcM 10 c).view.read (Elt F) fm = rowsRead 10 c (A P 0 c))
    (hfr : (dstM 10 (partner 10 c)).view.read (Elt F) fr = rowsRead 10 (partner 10 c) (A P 0 (partner 10 c))) :
    (accM.slice (Rect.unit (s := S512x1024) (k0_off20 c) S32x1024.size (k0_off20_inb c)) (fun _ => rfl)).view.read (Elt F) ((rowSet 512 (srcRow 10 (peer 4 c)) 16).piecewise fr fm)
      = (accM.slice (Rect.unit (s := S512x1024) (k0_off20 c) S32x1024.size (k0_off20_inb c)) (fun _ => rfl)).view.read (Elt F) (A P (0 + 1) c) :=
  join_read_gen (k0_off20 c) (k0_off13 c 16#32 0#32) (k0_off13 (partner 10 c) 16#32 0#32) 16 (k0_off20_inb c) (k0_off13_inb c 1) (k0_off13_inb (partner 10 c) 1)
    (srcRow 13 c) (srcRow 10 c) (srcRow 10 (peer 4 c)) (congrFun (src13_eq c) 0) (congrFun (src13_eq c) 1)
    (congrFun (src10_eq c) 0) (congrFun (src10_eq c) 1) (congrFun (src10_eq (partner 10 c)) 0) (congrFun (src10_eq (partner 10 c)) 1)
    (vs_join_halves_10 c) fm fr (A P (0 + 1) c)
    (hfm.trans (gather_keep_gen P (k0_off13 c 16#32 0#32) 16 (k0_off13_inb c 1) 0 c (fun y0 hy => by
      have hb := vs_own_part_10 c
      rw [show (k0_off13 c 16#32 0#32) (0 : Fin 2) = srcRow 10 c from congrFun (src10_eq c) 0]
      unfold heldAt
      rw [vs_agCopy 0 _ 1 (partOfRow_1 (by omega) (by omega))]
      show srcRow 10 c ≤ srcRow 10 c + y0 ∧ srcRow 10 c + y0 < srcRow 10 c + 16
      omega)).symm)
    (hfr.trans (gather_recv_gen P (k0_off13 (partner 10 c) 16#32 0#32) (k0_off13 (partner 10 c) 16#32 0#32) 16 (k0_off13_inb (partner 10 c) 1) (k0_off13_inb (partner 10 c) 1) 0 c (partner 10 c) (fun _ => rfl)
      (fun y0 hy => by
        have hb := vs_recv_part_10 c
        have hh := vs_join_halves_10 c
        rw [show (k0_off13 (partner 10 c) 16#32 0#32) (0 : Fin 2) = srcRow 10 (peer (maskOf 10) c) from congrFun (src10_eq (partner 10 c)) 0]
        unfold heldAt
        rw [vs_agCopy 0 _ 1 (partOfRow_1 (by omega) (by omega))]
        show ¬(srcRow 10 c ≤ srcRow 10 (peer (maskOf 10) c) + y0
          ∧ srcRow 10 (peer (maskOf 10) c) + y0 < srcRow 10 c + 16)
        omega)
      (fun y0 hy => by
        have hb := vs_recv_part_10 c
        rw [show (k0_off13 (partner 10 c) 16#32 0#32) (0 : Fin 2) = srcRow 10 (peer (maskOf 10) c) from congrFun (src10_eq (partner 10 c)) 0,
          vs_agCopy 0 _ 1 (partOfRow_1 (by omega) (by omega))]
        rfl)).symm)

/-- All-gather copy 11 (phase 0): the device's own 16 rows and the 16 rows landed from its partner, joined, read as the
    accumulator after the phase. -/
theorem join_read_11 (c : Dev nD) (fm fr : Buf (Elt F) (accL c))
    (hfm : (srcM 11 c).view.read (Elt F) fm = rowsRead 11 c (A P 0 c))
    (hfr : (dstM 11 (partner 11 c)).view.read (Elt F) fr = rowsRead 11 (partner 11 c) (A P 0 (partner 11 c))) :
    (accM.slice (Rect.unit (s := S512x1024) (k0_off21 c) S32x1024.size (k0_off21_inb c)) (fun _ => rfl)).view.read (Elt F) ((rowSet 512 (srcRow 11 (peer 3 c)) 16).piecewise fr fm)
      = (accM.slice (Rect.unit (s := S512x1024) (k0_off21 c) S32x1024.size (k0_off21_inb c)) (fun _ => rfl)).view.read (Elt F) (A P (0 + 1) c) :=
  join_read_gen (k0_off21 c) (k0_off15 c 16#32 0#32) (k0_off15 (partner 11 c) 16#32 0#32) 16 (k0_off21_inb c) (k0_off15_inb c 1) (k0_off15_inb (partner 11 c) 1)
    (srcRow 14 c) (srcRow 11 c) (srcRow 11 (peer 3 c)) (congrFun (src14_eq c) 0) (congrFun (src14_eq c) 1)
    (congrFun (src11_eq c) 0) (congrFun (src11_eq c) 1) (congrFun (src11_eq (partner 11 c)) 0) (congrFun (src11_eq (partner 11 c)) 1)
    (vs_join_halves_11 c) fm fr (A P (0 + 1) c)
    (hfm.trans (gather_keep_gen P (k0_off15 c 16#32 0#32) 16 (k0_off15_inb c 1) 0 c (fun y0 hy => by
      have hb := vs_own_part_11 c
      rw [show (k0_off15 c 16#32 0#32) (0 : Fin 2) = srcRow 11 c from congrFun (src11_eq c) 0]
      unfold heldAt
      rw [vs_agCopy 0 _ 2 (partOfRow_2 (by omega))]
      show srcRow 11 c ≤ srcRow 11 c + y0 ∧ srcRow 11 c + y0 < srcRow 11 c + 16
      omega)).symm)
    (hfr.trans (gather_recv_gen P (k0_off15 (partner 11 c) 16#32 0#32) (k0_off15 (partner 11 c) 16#32 0#32) 16 (k0_off15_inb (partner 11 c) 1) (k0_off15_inb (partner 11 c) 1) 0 c (partner 11 c) (fun _ => rfl)
      (fun y0 hy => by
        have hb := vs_recv_part_11 c
        have hh := vs_join_halves_11 c
        rw [show (k0_off15 (partner 11 c) 16#32 0#32) (0 : Fin 2) = srcRow 11 (peer (maskOf 11) c) from congrFun (src11_eq (partner 11 c)) 0]
        unfold heldAt
        rw [vs_agCopy 0 _ 2 (partOfRow_2 (by omega))]
        show ¬(srcRow 11 c ≤ srcRow 11 (peer (maskOf 11) c) + y0
          ∧ srcRow 11 (peer (maskOf 11) c) + y0 < srcRow 11 c + 16)
        omega)
      (fun y0 hy => by
        have hb := vs_recv_part_11 c
        rw [show (k0_off15 (partner 11 c) 16#32 0#32) (0 : Fin 2) = srcRow 11 (peer (maskOf 11) c) from congrFun (src11_eq (partner 11 c)) 0,
          vs_agCopy 0 _ 2 (partOfRow_2 (by omega))]
        rfl)).symm)

/-- All-gather copy 12 (phase 1): the device's own 64 rows and the 64 rows landed from its partner, joined, read as the
    accumulator after the phase. -/
theorem join_read_12 (c : Dev nD) (fm fr : Buf (Elt F) (accL c))
    (hfm : (srcM 12 c).view.read (Elt F) fm = rowsRead 12 c (A P 1 c))
    (hfr : (dstM 12 (partner 12 c)).view.read (Elt F) fr = rowsRead 12 (partner 12 c) (A P 1 (partner 12 c))) :
    (accM.slice (Rect.unit (s := S512x1024) (k0_off22 c) S128x1024.size (k0_off22_inb c)) (fun _ => rfl)).view.read (Elt F) ((rowSet 512 (srcRow 12 (peer 3 c)) 64).piecewise fr fm)
      = (accM.slice (Rect.unit (s := S512x1024) (k0_off22 c) S128x1024.size (k0_off22_inb c)) (fun _ => rfl)).view.read (Elt F) (A P (1 + 1) c) :=
  join_read_gen (k0_off22 c) (k0_off19 c) (k0_off19 (partner 12 c)) 64 (k0_off22_inb c) (k0_off19_inb c) (k0_off19_inb (partner 12 c))
    (srcRow 15 c) (srcRow 12 c) (srcRow 12 (peer 3 c)) (congrFun (src15_eq c) 0) (congrFun (src15_eq c) 1)
    (congrFun (src12_eq c) 0) (congrFun (src12_eq c) 1) (congrFun (src12_eq (partner 12 c)) 0) (congrFun (src12_eq (partner 12 c)) 1)
    (vs_join_halves_12 c) fm fr (A P (1 + 1) c)
    (hfm.trans (gather_keep_gen P (k0_off19 c) 64 (k0_off19_inb c) 1 c (fun y0 hy => by
      have hb := vs_own_part_12 c
      rw [show (k0_off19 c) (0 : Fin 2) = srcRow 12 c from congrFun (src12_eq c) 0]
      unfold heldAt
      rw [vs_agCopy 1 _ 0 (partOfRow_0 (by omega))]
      show srcRow 12 c ≤ srcRow 12 c + y0 ∧ srcRow 12 c + y0 < srcRow 12 c + 64
      omega)).symm)
    (hfr.trans (gather_recv_gen P (k0_off19 (partner 12 c)) (k0_off19 (partner 12 c)) 64 (k0_off19_inb (partner 12 c)) (k0_off19_inb (partner 12 c)) 1 c (partner 12 c) (fun _ => rfl)
      (fun y0 hy => by
        have hb := vs_recv_part_12 c
        have hh := vs_join_halves_12 c
        rw [show (k0_off19 (partner 12 c)) (0 : Fin 2) = srcRow 12 (peer (maskOf 12) c) from congrFun (src12_eq (partner 12 c)) 0]
        unfold heldAt
        rw [vs_agCopy 1 _ 0 (partOfRow_0 (by omega))]
        show ¬(srcRow 12 c ≤ srcRow 12 (peer (maskOf 12) c) + y0
          ∧ srcRow 12 (peer (maskOf 12) c) + y0 < srcRow 12 c + 64)
        omega)
      (fun y0 hy => by
        have hb := vs_recv_part_12 c
        rw [show (k0_off19 (partner 12 c)) (0 : Fin 2) = srcRow 12 (peer (maskOf 12) c) from congrFun (src12_eq (partner 12 c)) 0,
          vs_agCopy 1 _ 0 (partOfRow_0 (by omega))]
        rfl)).symm)

/-- All-gather copy 13 (phase 1): the device's own 32 rows and the 32 rows landed from its partner, joined, read as the
    accumulator after the phase. -/
theorem join_read_13 (c : Dev nD) (fm fr : Buf (Elt F) (accL c))
    (hfm : (srcM 13 c).view.read (Elt F) fm = rowsRead 13 c (A P 1 c))
    (hfr : (dstM 13 (partner 13 c)).view.read (Elt F) fr = rowsRead 13 (partner 13 c) (A P 1 (partner 13 c))) :
    (accM.slice (Rect.unit (s := S512x1024) (k0_off23 c) S64x1024.size (k0_off23_inb c)) (fun _ => rfl)).view.read (Elt F) ((rowSet 512 (srcRow 13 (peer 1 c)) 32).piecewise fr fm)
      = (accM.slice (Rect.unit (s := S512x1024) (k0_off23 c) S64x1024.size (k0_off23_inb c)) (fun _ => rfl)).view.read (Elt F) (A P (1 + 1) c) :=
  join_read_gen (k0_off23 c) (k0_off20 c) (k0_off20 (partner 13 c)) 32 (k0_off23_inb c) (k0_off20_inb c) (k0_off20_inb (partner 13 c))
    (srcRow 16 c) (srcRow 13 c) (srcRow 13 (peer 1 c)) (congrFun (src16_eq c) 0) (congrFun (src16_eq c) 1)
    (congrFun (src13_eq c) 0) (congrFun (src13_eq c) 1) (congrFun (src13_eq (partner 13 c)) 0) (congrFun (src13_eq (partner 13 c)) 1)
    (vs_join_halves_13 c) fm fr (A P (1 + 1) c)
    (hfm.trans (gather_keep_gen P (k0_off20 c) 32 (k0_off20_inb c) 1 c (fun y0 hy => by
      have hb := vs_own_part_13 c
      rw [show (k0_off20 c) (0 : Fin 2) = srcRow 13 c from congrFun (src13_eq c) 0]
      unfold heldAt
      rw [vs_agCopy 1 _ 1 (partOfRow_1 (by omega) (by omega))]
      show srcRow 13 c ≤ srcRow 13 c + y0 ∧ srcRow 13 c + y0 < srcRow 13 c + 32
      omega)).symm)
    (hfr.trans (gather_recv_gen P (k0_off20 (partner 13 c)) (k0_off20 (partner 13 c)) 32 (k0_off20_inb (partner 13 c)) (k0_off20_inb (partner 13 c)) 1 c (partner 13 c) (fun _ => rfl)
      (fun y0 hy => by
        have hb := vs_recv_part_13 c
        have hh := vs_join_halves_13 c
        rw [show (k0_off20 (partner 13 c)) (0 : Fin 2) = srcRow 13 (peer (maskOf 13) c) from congrFun (src13_eq (partner 13 c)) 0]
        unfold heldAt
        rw [vs_agCopy 1 _ 1 (partOfRow_1 (by omega) (by omega))]
        show ¬(srcRow 13 c ≤ srcRow 13 (peer (maskOf 13) c) + y0
          ∧ srcRow 13 (peer (maskOf 13) c) + y0 < srcRow 13 c + 32)
        omega)
      (fun y0 hy => by
        have hb := vs_recv_part_13 c
        rw [show (k0_off20 (partner 13 c)) (0 : Fin 2) = srcRow 13 (peer (maskOf 13) c) from congrFun (src13_eq (partner 13 c)) 0,
          vs_agCopy 1 _ 1 (partOfRow_1 (by omega) (by omega))]
        rfl)).symm)

/-- All-gather copy 14 (phase 1): the device's own 32 rows and the 32 rows landed from its partner, joined, read as the
    accumulator after the phase. -/
theorem join_read_14 (c : Dev nD) (fm fr : Buf (Elt F) (accL c))
    (hfm : (srcM 14 c).view.read (Elt F) fm = rowsRead 14 c (A P 1 c))
    (hfr : (dstM 14 (partner 14 c)).view.read (Elt F) fr = rowsRead 14 (partner 14 c) (A P 1 (partner 14 c))) :
    (accM.slice (Rect.unit (s := S512x1024) (k0_off24 c) S64x1024.size (k0_off24_inb c)) (fun _ => rfl)).view.read (Elt F) ((rowSet 512 (srcRow 14 (peer 4 c)) 32).piecewise fr fm)
      = (accM.slice (Rect.unit (s := S512x1024) (k0_off24 c) S64x1024.size (k0_off24_inb c)) (fun _ => rfl)).view.read (Elt F) (A P (1 + 1) c) :=
  join_read_gen (k0_off24 c) (k0_off21 c) (k0_off21 (partner 14 c)) 32 (k0_off24_inb c) (k0_off21_inb c) (k0_off21_inb (partner 14 c))
    (srcRow 17 c) (srcRow 14 c) (srcRow 14 (peer 4 c)) (congrFun (src17_eq c) 0) (congrFun (src17_eq c) 1)
    (congrFun (src14_eq c) 0) (congrFun (src14_eq c) 1) (congrFun (src14_eq (partner 14 c)) 0) (congrFun (src14_eq (partner 14 c)) 1)
    (vs_join_halves_14 c) fm fr (A P (1 + 1) c)
    (hfm.trans (gather_keep_gen P (k0_off21 c) 32 (k0_off21_inb c) 1 c (fun y0 hy => by
      have hb := vs_own_part_14 c
      rw [show (k0_off21 c) (0 : Fin 2) = srcRow 14 c from congrFun (src14_eq c) 0]
      unfold heldAt
      rw [vs_agCopy 1 _ 2 (partOfRow_2 (by omega))]
      show srcRow 14 c ≤ srcRow 14 c + y0 ∧ srcRow 14 c + y0 < srcRow 14 c + 32
      omega)).symm)
    (hfr.trans (gather_recv_gen P (k0_off21 (partner 14 c)) (k0_off21 (partner 14 c)) 32 (k0_off21_inb (partner 14 c)) (k0_off21_inb (partner 14 c)) 1 c (partner 14 c) (fun _ => rfl)
      (fun y0 hy => by
        have hb := vs_recv_part_14 c
        have hh := vs_join_halves_14 c
        rw [show (k0_off21 (partner 14 c)) (0 : Fin 2) = srcRow 14 (peer (maskOf 14) c) from congrFun (src14_eq (partner 14 c)) 0]
        unfold heldAt
        rw [vs_agCopy 1 _ 2 (partOfRow_2 (by omega))]
        show ¬(srcRow 14 c ≤ srcRow 14 (peer (maskOf 14) c) + y0
          ∧ srcRow 14 (peer (maskOf 14) c) + y0 < srcRow 14 c + 32)
        omega)
      (fun y0 hy => by
        have hb := vs_recv_part_14 c
        rw [show (k0_off21 (partner 14 c)) (0 : Fin 2) = srcRow 14 (peer (maskOf 14) c) from congrFun (src14_eq (partner 14 c)) 0,
          vs_agCopy 1 _ 2 (partOfRow_2 (by omega))]
        rfl)).symm)

/-- All-gather copy 15 (phase 2): the device's own 128 rows and the 128 rows landed from its partner, joined, read as the
    accumulator after the phase. -/
theorem join_read_15 (c : Dev nD) (fm fr : Buf (Elt F) (accL c))
    (hfm : (srcM 15 c).view.read (Elt F) fm = rowsRead 15 c (A P 2 c))
    (hfr : (dstM 15 (partner 15 c)).view.read (Elt F) fr = rowsRead 15 (partner 15 c) (A P 2 (partner 15 c))) :
    (accM.slice (Rect.unit (s := S512x1024) ![0, 0] S256x1024.size inb_S512x1024_S256x1024_0_0) (fun _ => rfl)).view.read (Elt F) ((rowSet 512 (srcRow 15 (peer 4 c)) 128).piecewise fr fm)
      = (accM.slice (Rect.unit (s := S512x1024) ![0, 0] S256x1024.size inb_S512x1024_S256x1024_0_0) (fun _ => rfl)).view.read (Elt F) (A P (2 + 1) c) :=
  join_read_gen (![0, 0]) (k0_off22 c) (k0_off22 (partner 15 c)) 128 (inb_S512x1024_S256x1024_0_0) (k0_off22_inb c) (k0_off22_inb (partner 15 c))
    (0) (srcRow 15 c) (srcRow 15 (peer 4 c)) rfl rfl
    (congrFun (src15_eq c) 0) (congrFun (src15_eq c) 1) (congrFun (src15_eq (partner 15 c)) 0) (congrFun (src15_eq (partner 15 c)) 1)
    (vs_join_halves_15 c) fm fr (A P (2 + 1) c)
    (hfm.trans (gather_keep_gen P (k0_off22 c) 128 (k0_off22_inb c) 2 c (fun y0 hy => by
      have hb := vs_own_part_15 c
      rw [show (k0_off22 c) (0 : Fin 2) = srcRow 15 c from congrFun (src15_eq c) 0]
      unfold heldAt
      rw [vs_agCopy 2 _ 0 (partOfRow_0 (by omega))]
      show srcRow 15 c ≤ srcRow 15 c + y0 ∧ srcRow 15 c + y0 < srcRow 15 c + 128
      omega)).symm)
    (hfr.trans (gather_recv_gen P (k0_off22 (partner 15 c)) (k0_off22 (partner 15 c)) 128 (k0_off22_inb (partner 15 c)) (k0_off22_inb (partner 15 c)) 2 c (partner 15 c) (fun _ => rfl)
      (fun y0 hy => by
        have hb := vs_recv_part_15 c
        have hh := vs_join_halves_15 c
        rw [show (k0_off22 (partner 15 c)) (0 : Fin 2) = srcRow 15 (peer (maskOf 15) c) from congrFun (src15_eq (partner 15 c)) 0]
        unfold heldAt
        rw [vs_agCopy 2 _ 0 (partOfRow_0 (by omega))]
        show ¬(srcRow 15 c ≤ srcRow 15 (peer (maskOf 15) c) + y0
          ∧ srcRow 15 (peer (maskOf 15) c) + y0 < srcRow 15 c + 128)
        omega)
      (fun y0 hy => by
        have hb := vs_recv_part_15 c
        rw [show (k0_off22 (partner 15 c)) (0 : Fin 2) = srcRow 15 (peer (maskOf 15) c) from congrFun (src15_eq (partner 15 c)) 0,
          vs_agCopy 2 _ 0 (partOfRow_0 (by omega))]
        rfl)).symm)

/-- All-gather copy 16 (phase 2): the device's own 64 rows and the 64 rows landed from its partner, joined, read as the
    accumulator after the phase. -/
theorem join_read_16 (c : Dev nD) (fm fr : Buf (Elt F) (accL c))
    (hfm : (srcM 16 c).view.read (Elt F) fm = rowsRead 16 c (A P 2 c))
    (hfr : (dstM 16 (partner 16 c)).view.read (Elt F) fr = rowsRead 16 (partner 16 c) (A P 2 (partner 16 c))) :
    (accM.slice (Rect.unit (s := S512x1024) ![256, 0] S128x1024.size inb_S512x1024_S128x1024_256_0) (fun _ => rfl)).view.read (Elt F) ((rowSet 512 (srcRow 16 (peer 3 c)) 64).piecewise fr fm)
      = (accM.slice (Rect.unit (s := S512x1024) ![256, 0] S128x1024.size inb_S512x1024_S128x1024_256_0) (fun _ => rfl)).view.read (Elt F) (A P (2 + 1) c) :=
  join_read_gen (![256, 0]) (k0_off23 c) (k0_off23 (partner 16 c)) 64 (inb_S512x1024_S128x1024_256_0) (k0_off23_inb c) (k0_off23_inb (partner 16 c))
    (256) (srcRow 16 c) (srcRow 16 (peer 3 c)) rfl rfl
    (congrFun (src16_eq c) 0) (congrFun (src16_eq c) 1) (congrFun (src16_eq (partner 16 c)) 0) (congrFun (src16_eq (partner 16 c)) 1)
    (vs_join_halves_16 c) fm fr (A P (2 + 1) c)
    (hfm.trans (gather_keep_gen P (k0_off23 c) 64 (k0_off23_inb c) 2 c (fun y0 hy => by
      have hb := vs_own_part_16 c
      rw [show (k0_off23 c) (0 : Fin 2) = srcRow 16 c from congrFun (src16_eq c) 0]
      unfold heldAt
      rw [vs_agCopy 2 _ 1 (partOfRow_1 (by omega) (by omega))]
      show srcRow 16 c ≤ srcRow 16 c + y0 ∧ srcRow 16 c + y0 < srcRow 16 c + 64
      omega)).symm)
    (hfr.trans (gather_recv_gen P (k0_off23 (partner 16 c)) (k0_off23 (partner 16 c)) 64 (k0_off23_inb (partner 16 c)) (k0_off23_inb (partner 16 c)) 2 c (partner 16 c) (fun _ => rfl)
      (fun y0 hy => by
        have hb := vs_recv_part_16 c
        have hh := vs_join_halves_16 c
        rw [show (k0_off23 (partner 16 c)) (0 : Fin 2) = srcRow 16 (peer (maskOf 16) c) from congrFun (src16_eq (partner 16 c)) 0]
        unfold heldAt
        rw [vs_agCopy 2 _ 1 (partOfRow_1 (by omega) (by omega))]
        show ¬(srcRow 16 c ≤ srcRow 16 (peer (maskOf 16) c) + y0
          ∧ srcRow 16 (peer (maskOf 16) c) + y0 < srcRow 16 c + 64)
        omega)
      (fun y0 hy => by
        have hb := vs_recv_part_16 c
        rw [show (k0_off23 (partner 16 c)) (0 : Fin 2) = srcRow 16 (peer (maskOf 16) c) from congrFun (src16_eq (partner 16 c)) 0,
          vs_agCopy 2 _ 1 (partOfRow_1 (by omega) (by omega))]
        rfl)).symm)

/-- All-gather copy 17 (phase 2): the device's own 64 rows and the 64 rows landed from its partner, joined, read as the
    accumulator after the phase. -/
theorem join_read_17 (c : Dev nD) (fm fr : Buf (Elt F) (accL c))
    (hfm : (srcM 17 c).view.read (Elt F) fm = rowsRead 17 c (A P 2 c))
    (hfr : (dstM 17 (partner 17 c)).view.read (Elt F) fr = rowsRead 17 (partner 17 c) (A P 2 (partner 17 c))) :
    (accM.slice (Rect.unit (s := S512x1024) ![384, 0] S128x1024.size inb_S512x1024_S128x1024_384_0) (fun _ => rfl)).view.read (Elt F) ((rowSet 512 (srcRow 17 (peer 1 c)) 64).piecewise fr fm)
      = (accM.slice (Rect.unit (s := S512x1024) ![384, 0] S128x1024.size inb_S512x1024_S128x1024_384_0) (fun _ => rfl)).view.read (Elt F) (A P (2 + 1) c) :=
  join_read_gen (![384, 0]) (k0_off24 c) (k0_off24 (partner 17 c)) 64 (inb_S512x1024_S128x1024_384_0) (k0_off24_inb c) (k0_off24_inb (partner 17 c))
    (384) (srcRow 17 c) (srcRow 17 (peer 1 c)) rfl rfl
    (congrFun (src17_eq c) 0) (congrFun (src17_eq c) 1) (congrFun (src17_eq (partner 17 c)) 0) (congrFun (src17_eq (partner 17 c)) 1)
    (vs_join_halves_17 c) fm fr (A P (2 + 1) c)
    (hfm.trans (gather_keep_gen P (k0_off24 c) 64 (k0_off24_inb c) 2 c (fun y0 hy => by
      have hb := vs_own_part_17 c
      rw [show (k0_off24 c) (0 : Fin 2) = srcRow 17 c from congrFun (src17_eq c) 0]
      unfold heldAt
      rw [vs_agCopy 2 _ 2 (partOfRow_2 (by omega))]
      show srcRow 17 c ≤ srcRow 17 c + y0 ∧ srcRow 17 c + y0 < srcRow 17 c + 64
      omega)).symm)
    (hfr.trans (gather_recv_gen P (k0_off24 (partner 17 c)) (k0_off24 (partner 17 c)) 64 (k0_off24_inb (partner 17 c)) (k0_off24_inb (partner 17 c)) 2 c (partner 17 c) (fun _ => rfl)
      (fun y0 hy => by
        have hb := vs_recv_part_17 c
        have hh := vs_join_halves_17 c
        rw [show (k0_off24 (partner 17 c)) (0 : Fin 2) = srcRow 17 (peer (maskOf 17) c) from congrFun (src17_eq (partner 17 c)) 0]
        unfold heldAt
        rw [vs_agCopy 2 _ 2 (partOfRow_2 (by omega))]
        show ¬(srcRow 17 c ≤ srcRow 17 (peer (maskOf 17) c) + y0
          ∧ srcRow 17 (peer (maskOf 17) c) + y0 < srcRow 17 c + 64)
        omega)
      (fun y0 hy => by
        have hb := vs_recv_part_17 c
        rw [show (k0_off24 (partner 17 c)) (0 : Fin 2) = srcRow 17 (peer (maskOf 17) c) from congrFun (src17_eq (partner 17 c)) 0,
          vs_agCopy 2 _ 2 (partOfRow_2 (by omega))]
        rfl)).symm)

end Joins

/-- info: 'Cert.KernelIdeal.Coll.join_read_17' depends on axioms: [propext, Classical.choice, Quot.sound] -/
#guard_msgs in #print axioms join_read_17

/-- info: 'Cert.KernelIdeal.Coll.join_read_9' depends on axioms: [propext, Classical.choice, Quot.sound] -/
#guard_msgs in #print axioms join_read_9

/-- info: 'Cert.KernelIdeal.Coll.src9_eq_keep6' depends on axioms: [propext, Classical.choice, Quot.sound] -/
#guard_msgs in #print axioms src9_eq_keep6

end Cert.KernelIdeal.Coll

end
-- ==== Proof.KernelIdeal.ValueStore.lean ====
/-
  The three stores of a device's own product, against the contents the run leaves.

  The body loads each staged operand whole — a load of a whole buffer reads its contents —, and each staged operand is its
  window's block as launched. So the value each store writes is the part's value composed from the launched arrays, and what
  the store leaves reads, on its part, as the device's product `Pc m c` reads there.
-/
import proofs.«900423_g7700000000000424_dist_attn_self_mha_htp_b1_sq512_skv512_d1024_hq8_dh128_v7x_i8_f32_1_alg».proof.Proof.KernelIdeal.ValueSteps
import proofs.«900423_g7700000000000424_dist_attn_self_mha_htp_b1_sq512_skv512_d1024_hq8_dh128_v7x_i8_f32_1_alg».proof.Proof.KernelIdeal.BodyOut

noncomputable section

namespace Cert.KernelIdeal.Coll

open Cert.KernelIdeal Cert.KernelIdeal.Gen Cert.KernelIdeal.Mesh

open Idealize.ShloMosaic
open Idealize.ShloMosaic.TcCoe

variable {F : FTy → Type} [FloatOps F]

/-- Part 0: what its store leaves reads, on the part, as the device's product does. -/
theorem store_val_0 (m : Mem F) (c : Dev nD) (a0 : AccC F)
    (g0 : Buf (Elt F) ((c : Thread nD τ).loc cc0_stg0_0)) (g1 : Buf (Elt F) ((c : Thread nD τ).loc cc0_stg1_0))
    (g2 : Buf (Elt F) ((c : Thread nD τ).loc cc0_stg2_0)) (g3 : Buf (Elt F) ((c : Thread nD τ).loc cc0_stg3_0))
    (g4 : Buf (Elt F) ((c : Thread nD τ).loc cc0_stg4_0))
    (h0 : g0 = iblk m c (0 : Fin 6) t0_0) (h1 : g1 = iblk m c (1 : Fin 6) t0_0) (h2 : g2 = iblk m c (2 : Fin 6) t0_0)
    (h3 : g3 = iblk m c (3 : Fin 6) t0_0) (h4 : g4 = iblk m c (4 : Fin 6) t0_0) :
    (accM.slice (Rect.unit (s := S512x1024) ![0, 0] S256x1024.size inb_S512x1024_S256x1024_0_0) (fun _ => rfl)).view.read (Elt F)
        (((Memref.whole cc0_scratch0).access (Rect.unit ![0, 0] S256x1024.size inb_S512x1024_S256x1024_0_0)).write (Elt F) a0
          (stored0 ((Memref.whole cc0_stg0_0).view.readAt (Elt F) (Rect.unit ![0, 0, 0] S1x512x1024.size inb_S1x512x1024_S1x512x1024_0_0_0).toLoadRect g0)
            ((Memref.whole cc0_stg1_0).view.readAt (Elt F) (Rect.unit ![0, 0] S1024x1024.size inb_S1024x1024_S1024x1024_0_0).toLoadRect g1)
            ((Memref.whole cc0_stg2_0).view.readAt (Elt F) (Rect.unit ![0, 0] S1024x1024.size inb_S1024x1024_S1024x1024_0_0).toLoadRect g2)
            ((Memref.whole cc0_stg3_0).view.readAt (Elt F) (Rect.unit ![0, 0] S1024x1024.size inb_S1024x1024_S1024x1024_0_0).toLoadRect g3)
            ((Memref.whole cc0_stg4_0).view.readAt (Elt F) (Rect.unit ![0, 0] S1024x1024.size inb_S1024x1024_S1024x1024_0_0).toLoadRect g4)) Finset.univ)
      = (accM.slice (Rect.unit (s := S512x1024) ![0, 0] S256x1024.size inb_S512x1024_S256x1024_0_0) (fun _ => rfl)).view.read (Elt F) (Pc m c) := by
  have e0 : ((Memref.whole cc0_stg0_0).view.readAt (Elt F) (Rect.unit ![0, 0, 0] S1x512x1024.size inb_S1x512x1024_S1x512x1024_0_0_0).toLoadRect g0) = iblk m c (0 : Fin 6) t0_0 := (Memref.readAt_unit_zero (Elt F) cc0_stg0_0 zeros3 _ g0).trans h0
  have e1 : ((Memref.whole cc0_stg1_0).view.readAt (Elt F) (Rect.unit ![0, 0] S1024x1024.size inb_S1024x1024_S1024x1024_0_0).toLoadRect g1) = iblk m c (1 : Fin 6) t0_0 := (Memref.readAt_unit_zero (Elt F) cc0_stg1_0 zeros2 _ g1).trans h1
  have e2 : ((Memref.whole cc0_stg2_0).view.readAt (Elt F) (Rect.unit ![0, 0] S1024x1024.size inb_S1024x1024_S1024x1024_0_0).toLoadRect g2) = iblk m c (2 : Fin 6) t0_0 := (Memref.readAt_unit_zero (Elt F) cc0_stg2_0 zeros2 _ g2).trans h2
  have e3 : ((Memref.whole cc0_stg3_0).view.readAt (Elt F) (Rect.unit ![0, 0] S1024x1024.size inb_S1024x1024_S1024x1024_0_0).toLoadRect g3) = iblk m c (3 : Fin 6) t0_0 := (Memref.readAt_unit_zero (Elt F) cc0_stg3_0 zeros2 _ g3).trans h3
  have e4 : ((Memref.whole cc0_stg4_0).view.readAt (Elt F) (Rect.unit ![0, 0] S1024x1024.size inb_S1024x1024_S1024x1024_0_0).toLoadRect g4) = iblk m c (4 : Fin 6) t0_0 := (Memref.readAt_unit_zero (Elt F) cc0_stg4_0 zeros2 _ g4).trans h4
  rw [e0, e1, e2, e3, e4]
  exact part_store_0 (iblk m c (0 : Fin 6) t0_0) (iblk m c (1 : Fin 6) t0_0) (iblk m c (2 : Fin 6) t0_0) (iblk m c (3 : Fin 6) t0_0) (iblk m c (4 : Fin 6) t0_0) a0

/-- Part 1: what its store leaves reads, on the part, as the device's product does. -/
theorem store_val_1 (m : Mem F) (c : Dev nD) (a0 : AccC F)
    (g0 : Buf (Elt F) ((c : Thread nD τ).loc cc0_stg0_0)) (g1 : Buf (Elt F) ((c : Thread nD τ).loc cc0_stg1_0))
    (g2 : Buf (Elt F) ((c : Thread nD τ).loc cc0_stg2_0)) (g3 : Buf (Elt F) ((c : Thread nD τ).loc cc0_stg3_0))
    (g4 : Buf (Elt F) ((c : Thread nD τ).loc cc0_stg4_0))
    (h0 : g0 = iblk m c (0 : Fin 6) t0_0) (h1 : g1 = iblk m c (1 : Fin 6) t0_0) (h2 : g2 = iblk m c (2 : Fin 6) t0_0)
    (h3 : g3 = iblk m c (3 : Fin 6) t0_0) (h4 : g4 = iblk m c (4 : Fin 6) t0_0) :
    (accM.slice (Rect.unit (s := S512x1024) ![256, 0] S128x1024.size inb_S512x1024_S128x1024_256_0) (fun _ => rfl)).view.read (Elt F)
        (((Memref.whole cc0_scratch0).access (Rect.unit ![256, 0] S128x1024.size inb_S512x1024_S128x1024_256_0)).write (Elt F) a0
          (stored1 ((Memref.whole cc0_stg0_0).view.readAt (Elt F) (Rect.unit ![0, 0, 0] S1x512x1024.size inb_S1x512x1024_S1x512x1024_0_0_0).toLoadRect g0)
            ((Memref.whole cc0_stg1_0).view.readAt (Elt F) (Rect.unit ![0, 0] S1024x1024.size inb_S1024x1024_S1024x1024_0_0).toLoadRect g1)
            ((Memref.whole cc0_stg2_0).view.readAt (Elt F) (Rect.unit ![0, 0] S1024x1024.size inb_S1024x1024_S1024x1024_0_0).toLoadRect g2)
            ((Memref.whole cc0_stg3_0).view.readAt (Elt F) (Rect.unit ![0, 0] S1024x1024.size inb_S1024x1024_S1024x1024_0_0).toLoadRect g3)
            ((Memref.whole cc0_stg4_0).view.readAt (Elt F) (Rect.unit ![0, 0] S1024x1024.size inb_S1024x1024_S1024x1024_0_0).toLoadRect g4)) Finset.univ)
      = (accM.slice (Rect.unit (s := S512x1024) ![256, 0] S128x1024.size inb_S512x1024_S128x1024_256_0) (fun _ => rfl)).view.read (Elt F) (Pc m c) := by
  have e0 : ((Memref.whole cc0_stg0_0).view.readAt (Elt F) (Rect.unit ![0, 0, 0] S1x512x1024.size inb_S1x512x1024_S1x512x1024_0_0_0).toLoadRect g0) = iblk m c (0 : Fin 6) t0_0 := (Memref.readAt_unit_zero (Elt F) cc0_stg0_0 zeros3 _ g0).trans h0
  have e1 : ((Memref.whole cc0_stg1_0).view.readAt (Elt F) (Rect.unit ![0, 0] S1024x1024.size inb_S1024x1024_S1024x1024_0_0).toLoadRect g1) = iblk m c (1 : Fin 6) t0_0 := (Memref.readAt_unit_zero (Elt F) cc0_stg1_0 zeros2 _ g1).trans h1
  have e2 : ((Memref.whole cc0_stg2_0).view.readAt (Elt F) (Rect.unit ![0, 0] S1024x1024.size inb_S1024x1024_S1024x1024_0_0).toLoadRect g2) = iblk m c (2 : Fin 6) t0_0 := (Memref.readAt_unit_zero (Elt F) cc0_stg2_0 zeros2 _ g2).trans h2
  have e3 : ((Memref.whole cc0_stg3_0).view.readAt (Elt F) (Rect.unit ![0, 0] S1024x1024.size inb_S1024x1024_S1024x1024_0_0).toLoadRect g3) = iblk m c (3 : Fin 6) t0_0 := (Memref.readAt_unit_zero (Elt F) cc0_stg3_0 zeros2 _ g3).trans h3
  have e4 : ((Memref.whole cc0_stg4_0).view.readAt (Elt F) (Rect.unit ![0, 0] S1024x1024.size inb_S1024x1024_S1024x1024_0_0).toLoadRect g4) = iblk m c (4 : Fin 6) t0_0 := (Memref.readAt_unit_zero (Elt F) cc0_stg4_0 zeros2 _ g4).trans h4
  rw [e0, e1, e2, e3, e4]
  exact part_store_1 (iblk m c (0 : Fin 6) t0_0) (iblk m c (1 : Fin 6) t0_0) (iblk m c (2 : Fin 6) t0_0) (iblk m c (3 : Fin 6) t0_0) (iblk m c (4 : Fin 6) t0_0) a0

/-- Part 2: what its store leaves reads, on the part, as the device's product does. -/
theorem store_val_2 (m : Mem F) (c : Dev nD) (a0 : AccC F)
    (g0 : Buf (Elt F) ((c : Thread nD τ).loc cc0_stg0_0)) (g1 : Buf (Elt F) ((c : Thread nD τ).loc cc0_stg1_0))
    (g2 : Buf (Elt F) ((c : Thread nD τ).loc cc0_stg2_0)) (g3 : Buf (Elt F) ((c : Thread nD τ).loc cc0_stg3_0))
    (g4 : Buf (Elt F) ((c : Thread nD τ).loc cc0_stg4_0))
    (h0 : g0 = iblk m c (0 : Fin 6) t0_0) (h1 : g1 = iblk m c (1 : Fin 6) t0_0) (h2 : g2 = iblk m c (2 : Fin 6) t0_0)
    (h3 : g3 = iblk m c (3 : Fin 6) t0_0) (h4 : g4 = iblk m c (4 : Fin 6) t0_0) :
    (accM.slice (Rect.unit (s := S512x1024) ![384, 0] S128x1024.size inb_S512x1024_S128x1024_384_0) (fun _ => rfl)).view.read (Elt F)
        (((Memref.whole cc0_scratch0).access (Rect.unit ![384, 0] S128x1024.size inb_S512x1024_S128x1024_384_0)).write (Elt F) a0
          (stored2 ((Memref.whole cc0_stg0_0).view.readAt (Elt F) (Rect.unit ![0, 0, 0] S1x512x1024.size inb_S1x512x1024_S1x512x1024_0_0_0).toLoadRect g0)
            ((Memref.whole cc0_stg1_0).view.readAt (Elt F) (Rect.unit ![0, 0] S1024x1024.size inb_S1024x1024_S1024x1024_0_0).toLoadRect g1)
            ((Memref.whole cc0_stg2_0).view.readAt (Elt F) (Rect.unit ![0, 0] S1024x1024.size inb_S1024x1024_S1024x1024_0_0).toLoadRect g2)
            ((Memref.whole cc0_stg3_0).view.readAt (Elt F) (Rect.unit ![0, 0] S1024x1024.size inb_S1024x1024_S1024x1024_0_0).toLoadRect g3)
            ((Memref.whole cc0_stg4_0).view.readAt (Elt F) (Rect.unit ![0, 0] S1024x1024.size inb_S1024x1024_S1024x1024_0_0).toLoadRect g4)) Finset.univ)
      = (accM.slice (Rect.unit (s := S512x1024) ![384, 0] S128x1024.size inb_S512x1024_S128x1024_384_0) (fun _ => rfl)).view.read (Elt F) (Pc m c) := by
  have e0 : ((Memref.whole cc0_stg0_0).view.readAt (Elt F) (Rect.unit ![0, 0, 0] S1x512x1024.size inb_S1x512x1024_S1x512x1024_0_0_0).toLoadRect g0) = iblk m c (0 : Fin 6) t0_0 := (Memref.readAt_unit_zero (Elt F) cc0_stg0_0 zeros3 _ g0).trans h0
  have e1 : ((Memref.whole cc0_stg1_0).view.readAt (Elt F) (Rect.unit ![0, 0] S1024x1024.size inb_S1024x1024_S1024x1024_0_0).toLoadRect g1) = iblk m c (1 : Fin 6) t0_0 := (Memref.readAt_unit_zero (Elt F) cc0_stg1_0 zeros2 _ g1).trans h1
  have e2 : ((Memref.whole cc0_stg2_0).view.readAt (Elt F) (Rect.unit ![0, 0] S1024x1024.size inb_S1024x1024_S1024x1024_0_0).toLoadRect g2) = iblk m c (2 : Fin 6) t0_0 := (Memref.readAt_unit_zero (Elt F) cc0_stg2_0 zeros2 _ g2).trans h2
  have e3 : ((Memref.whole cc0_stg3_0).view.readAt (Elt F) (Rect.unit ![0, 0] S1024x1024.size inb_S1024x1024_S1024x1024_0_0).toLoadRect g3) = iblk m c (3 : Fin 6) t0_0 := (Memref.readAt_unit_zero (Elt F) cc0_stg3_0 zeros2 _ g3).trans h3
  have e4 : ((Memref.whole cc0_stg4_0).view.readAt (Elt F) (Rect.unit ![0, 0] S1024x1024.size inb_S1024x1024_S1024x1024_0_0).toLoadRect g4) = iblk m c (4 : Fin 6) t0_0 := (Memref.readAt_unit_zero (Elt F) cc0_stg4_0 zeros2 _ g4).trans h4
  rw [e0, e1, e2, e3, e4]
  exact part_store_2 (iblk m c (0 : Fin 6) t0_0) (iblk m c (1 : Fin 6) t0_0) (iblk m c (2 : Fin 6) t0_0) (iblk m c (3 : Fin 6) t0_0) (iblk m c (4 : Fin 6) t0_0) a0

/-- info: 'Cert.KernelIdeal.Coll.store_val_0' depends on axioms: [propext, Classical.choice, Quot.sound] -/
#guard_msgs in #print axioms store_val_0

/-- info: 'Cert.KernelIdeal.Coll.store_val_2' depends on axioms: [propext, Classical.choice, Quot.sound] -/
#guard_msgs in #print axioms store_val_2

end Cert.KernelIdeal.Coll

end
-- ==== Proof.KernelIdeal.SubRuns.lean ====
/-
  The rows a reduce-scatter copy sends, and the rows its device keeps, lie inside the rows the device held before it: the
  part's rows at the first phase, the rows kept one phase earlier afterwards. Stated of the rectangles themselves: each is a
  run of whole rows, the two are the two halves of the run they lie in.
-/
import proofs.«900423_g7700000000000424_dist_attn_self_mha_htp_b1_sq512_skv512_d1024_hq8_dh128_v7x_i8_f32_1_alg».proof.Proof.KernelIdeal.Halves

noncomputable section

namespace Cert.KernelIdeal.Coll

open Cert.KernelIdeal Cert.KernelIdeal.Gen Cert.KernelIdeal.Mesh

open Idealize.ShloMosaic
open Idealize.ShloMosaic.TcCoe

theorem src_sub_0 (c : Dev nD) : (Rect.unit (s := S512x1024) (k0_off1 c) S128x1024.size (k0_off1_inb c)).set ⊆ (Rect.unit (s := S512x1024) ![0, 0] S256x1024.size inb_S512x1024_S256x1024_0_0).set := by
  have hs : (Rect.unit (s := S512x1024) (k0_off1 c) S128x1024.size (k0_off1_inb c)).set = rowSet 512 (srcRow 0 c) 128 := (View.set_slice_whole _ _).symm.trans (src_set_0 c)
  have hp : (Rect.unit (s := S512x1024) ![0, 0] S256x1024.size inb_S512x1024_S256x1024_0_0).set = rowSet 512 0 256 := (View.set_slice_whole _ _).symm.trans (part_set_0)
  rw [hs, hp]
  exact rowSet_subset (by rcases halves_0 c with ⟨h1, h2⟩ | ⟨h1, h2⟩ <;> omega)

theorem keep_sub_0 (c : Dev nD) : (Rect.unit (s := S512x1024) (k0_off4 c) S128x1024.size (k0_off4_inb c)).set ⊆ (Rect.unit (s := S512x1024) ![0, 0] S256x1024.size inb_S512x1024_S256x1024_0_0).set := by
  have hs : (Rect.unit (s := S512x1024) (k0_off4 c) S128x1024.size (k0_off4_inb c)).set = rowSet 512 (keepRow 0 c) 128 := (View.set_slice_whole _ _).symm.trans (keep_set_0 c)
  have hp : (Rect.unit (s := S512x1024) ![0, 0] S256x1024.size inb_S512x1024_S256x1024_0_0).set = rowSet 512 0 256 := (View.set_slice_whole _ _).symm.trans (part_set_0)
  rw [hs, hp]
  exact rowSet_subset (by rcases halves_0 c with ⟨h1, h2⟩ | ⟨h1, h2⟩ <;> omega)

theorem src_sub_1 (c : Dev nD) : (Rect.unit (s := S512x1024) (k0_off2 c) S64x1024.size (k0_off2_inb c)).set ⊆ (Rect.unit (s := S512x1024) ![256, 0] S128x1024.size inb_S512x1024_S128x1024_256_0).set := by
  have hs : (Rect.unit (s := S512x1024) (k0_off2 c) S64x1024.size (k0_off2_inb c)).set = rowSet 512 (srcRow 1 c) 64 := (View.set_slice_whole _ _).symm.trans (src_set_1 c)
  have hp : (Rect.unit (s := S512x1024) ![256, 0] S128x1024.size inb_S512x1024_S128x1024_256_0).set = rowSet 512 256 128 := (View.set_slice_whole _ _).symm.trans (part_set_1)
  rw [hs, hp]
  exact rowSet_subset (by rcases halves_1 c with ⟨h1, h2⟩ | ⟨h1, h2⟩ <;> omega)

theorem keep_sub_1 (c : Dev nD) : (Rect.unit (s := S512x1024) (k0_off6 c) S64x1024.size (k0_off6_inb c)).set ⊆ (Rect.unit (s := S512x1024) ![256, 0] S128x1024.size inb_S512x1024_S128x1024_256_0).set := by
  have hs : (Rect.unit (s := S512x1024) (k0_off6 c) S64x1024.size (k0_off6_inb c)).set = rowSet 512 (keepRow 1 c) 64 := (View.set_slice_whole _ _).symm.trans (keep_set_1 c)
  have hp : (Rect.unit (s := S512x1024) ![256, 0] S128x1024.size inb_S512x1024_S128x1024_256_0).set = rowSet 512 256 128 := (View.set_slice_whole _ _).symm.trans (part_set_1)
  rw [hs, hp]
  exact rowSet_subset (by rcases halves_1 c with ⟨h1, h2⟩ | ⟨h1, h2⟩ <;> omega)

theorem src_sub_2 (c : Dev nD) : (Rect.unit (s := S512x1024) (k0_off3 c) S64x1024.size (k0_off3_inb c)).set ⊆ (Rect.unit (s := S512x1024) ![384, 0] S128x1024.size inb_S512x1024_S128x1024_384_0).set := by
  have hs : (Rect.unit (s := S512x1024) (k0_off3 c) S64x1024.size (k0_off3_inb c)).set = rowSet 512 (srcRow 2 c) 64 := (View.set_slice_whole _ _).symm.trans (src_set_2 c)
  have hp : (Rect.unit (s := S512x1024) ![384, 0] S128x1024.size inb_S512x1024_S128x1024_384_0).set = rowSet 512 384 128 := (View.set_slice_whole _ _).symm.trans (part_set_2)
  rw [hs, hp]
  exact rowSet_subset (by rcases halves_2 c with ⟨h1, h2⟩ | ⟨h1, h2⟩ <;> omega)

theorem keep_sub_2 (c : Dev nD) : (Rect.unit (s := S512x1024) (k0_off8 c) S64x1024.size (k0_off8_inb c)).set ⊆ (Rect.unit (s := S512x1024) ![384, 0] S128x1024.size inb_S512x1024_S128x1024_384_0).set := by
  have hs : (Rect.unit (s := S512x1024) (k0_off8 c) S64x1024.size (k0_off8_inb c)).set = rowSet 512 (keepRow 2 c) 64 := (View.set_slice_whole _ _).symm.trans (keep_set_2 c)
  have hp : (Rect.unit (s := S512x1024) ![384, 0] S128x1024.size inb_S512x1024_S128x1024_384_0).set = rowSet 512 384 128 := (View.set_slice_whole _ _).symm.trans (part_set_2)
  rw [hs, hp]
  exact rowSet_subset (by rcases halves_2 c with ⟨h1, h2⟩ | ⟨h1, h2⟩ <;> omega)

theorem src_sub_3 (c : Dev nD) : (Rect.unit (s := S512x1024) (k0_off5 c) S64x1024.size (k0_off5_inb c)).set ⊆ (Rect.unit (s := S512x1024) (k0_off4 c) S128x1024.size (k0_off4_inb c)).set := by
  have hs : (Rect.unit (s := S512x1024) (k0_off5 c) S64x1024.size (k0_off5_inb c)).set = rowSet 512 (srcRow 3 c) 64 := (View.set_slice_whole _ _).symm.trans (src_set_3 c)
  have hp : (Rect.unit (s := S512x1024) (k0_off4 c) S128x1024.size (k0_off4_inb c)).set = rowSet 512 (keepRow 0 c) 128 := (View.set_slice_whole _ _).symm.trans (keep_set_0 c)
  rw [hs, hp]
  exact rowSet_subset (by rcases halves_3 c with ⟨h1, h2⟩ | ⟨h1, h2⟩ <;> omega)

theorem keep_sub_3 (c : Dev nD) : (Rect.unit (s := S512x1024) (k0_off10 c) S64x1024.size (k0_off10_inb c)).set ⊆ (Rect.unit (s := S512x1024) (k0_off4 c) S128x1024.size (k0_off4_inb c)).set := by
  have hs : (Rect.unit (s := S512x1024) (k0_off10 c) S64x1024.size (k0_off10_inb c)).set = rowSet 512 (keepRow 3 c) 64 := (View.set_slice_whole _ _).symm.trans (keep_set_3 c)
  have hp : (Rect.unit (s := S512x1024) (k0_off4 c) S128x1024.size (k0_off4_inb c)).set = rowSet 512 (keepRow 0 c) 128 := (View.set_slice_whole _ _).symm.trans (keep_set_0 c)
  rw [hs, hp]
  exact rowSet_subset (by rcases halves_3 c with ⟨h1, h2⟩ | ⟨h1, h2⟩ <;> omega)

theorem src_sub_4 (c : Dev nD) : (Rect.unit (s := S512x1024) (k0_off7 c) S32x1024.size (k0_off7_inb c)).set ⊆ (Rect.unit (s := S512x1024) (k0_off6 c) S64x1024.size (k0_off6_inb c)).set := by
  have hs : (Rect.unit (s := S512x1024) (k0_off7 c) S32x1024.size (k0_off7_inb c)).set = rowSet 512 (srcRow 4 c) 32 := (View.set_slice_whole _ _).symm.trans (src_set_4 c)
  have hp : (Rect.unit (s := S512x1024) (k0_off6 c) S64x1024.size (k0_off6_inb c)).set = rowSet 512 (keepRow 1 c) 64 := (View.set_slice_whole _ _).symm.trans (keep_set_1 c)
  rw [hs, hp]
  exact rowSet_subset (by rcases halves_4 c with ⟨h1, h2⟩ | ⟨h1, h2⟩ <;> omega)

theorem keep_sub_4 (c : Dev nD) : (Rect.unit (s := S512x1024) (k0_off12 c) S32x1024.size (k0_off12_inb c)).set ⊆ (Rect.unit (s := S512x1024) (k0_off6 c) S64x1024.size (k0_off6_inb c)).set := by
  have hs : (Rect.unit (s := S512x1024) (k0_off12 c) S32x1024.size (k0_off12_inb c)).set = rowSet 512 (keepRow 4 c) 32 := (View.set_slice_whole _ _).symm.trans (keep_set_4 c)
  have hp : (Rect.unit (s := S512x1024) (k0_off6 c) S64x1024.size (k0_off6_inb c)).set = rowSet 512 (keepRow 1 c) 64 := (View.set_slice_whole _ _).symm.trans (keep_set_1 c)
  rw [hs, hp]
  exact rowSet_subset (by rcases halves_4 c with ⟨h1, h2⟩ | ⟨h1, h2⟩ <;> omega)

theorem src_sub_5 (c : Dev nD) : (Rect.unit (s := S512x1024) (k0_off9 c) S32x1024.size (k0_off9_inb c)).set ⊆ (Rect.unit (s := S512x1024) (k0_off8 c) S64x1024.size (k0_off8_inb c)).set := by
  have hs : (Rect.unit (s := S512x1024) (k0_off9 c) S32x1024.size (k0_off9_inb c)).set = rowSet 512 (srcRow 5 c) 32 := (View.set_slice_whole _ _).symm.trans (src_set_5 c)
  have hp : (Rect.unit (s := S512x1024) (k0_off8 c) S64x1024.size (k0_off8_inb c)).set = rowSet 512 (keepRow 2 c) 64 := (View.set_slice_whole _ _).symm.trans (keep_set_2 c)
  rw [hs, hp]
  exact rowSet_subset (by rcases halves_5 c with ⟨h1, h2⟩ | ⟨h1, h2⟩ <;> omega)

theorem keep_sub_5 (c : Dev nD) : (Rect.unit (s := S512x1024) (k0_off14 c) S32x1024.size (k0_off14_inb c)).set ⊆ (Rect.unit (s := S512x1024) (k0_off8 c) S64x1024.size (k0_off8_inb c)).set := by
  have hs : (Rect.unit (s := S512x1024) (k0_off14 c) S32x1024.size (k0_off14_inb c)).set = rowSet 512 (keepRow 5 c) 32 := (View.set_slice_whole _ _).symm.trans (keep_set_5 c)
  have hp : (Rect.unit (s := S512x1024) (k0_off8 c) S64x1024.size (k0_off8_inb c)).set = rowSet 512 (keepRow 2 c) 64 := (View.set_slice_whole _ _).symm.trans (keep_set_2 c)
  rw [hs, hp]
  exact rowSet_subset (by rcases halves_5 c with ⟨h1, h2⟩ | ⟨h1, h2⟩ <;> omega)

theorem src_sub_6 (c : Dev nD) : (Rect.unit (s := S512x1024) (k0_off11 c 0#32 32#32) S32x1024.size (k0_off11_inb c 0)).set ⊆ (Rect.unit (s := S512x1024) (k0_off10 c) S64x1024.size (k0_off10_inb c)).set := by
  have hs : (Rect.unit (s := S512x1024) (k0_off11 c 0#32 32#32) S32x1024.size (k0_off11_inb c 0)).set = rowSet 512 (srcRow 6 c) 32 := (View.set_slice_whole _ _).symm.trans (src_set_6 c)
  have hp : (Rect.unit (s := S512x1024) (k0_off10 c) S64x1024.size (k0_off10_inb c)).set = rowSet 512 (keepRow 3 c) 64 := (View.set_slice_whole _ _).symm.trans (keep_set_3 c)
  rw [hs, hp]
  exact rowSet_subset (by rcases halves_6 c with ⟨h1, h2⟩ | ⟨h1, h2⟩ <;> omega)

theorem keep_sub_6 (c : Dev nD) : (Rect.unit (s := S512x1024) (k0_off16 c) S32x1024.size (k0_off16_inb c)).set ⊆ (Rect.unit (s := S512x1024) (k0_off10 c) S64x1024.size (k0_off10_inb c)).set := by
  have hs : (Rect.unit (s := S512x1024) (k0_off16 c) S32x1024.size (k0_off16_inb c)).set = rowSet 512 (keepRow 6 c) 32 := (View.set_slice_whole _ _).symm.trans (keep_set_6 c)
  have hp : (Rect.unit (s := S512x1024) (k0_off10 c) S64x1024.size (k0_off10_inb c)).set = rowSet 512 (keepRow 3 c) 64 := (View.set_slice_whole _ _).symm.trans (keep_set_3 c)
  rw [hs, hp]
  exact rowSet_subset (by rcases halves_6 c with ⟨h1, h2⟩ | ⟨h1, h2⟩ <;> omega)

theorem src_sub_7 (c : Dev nD) : (Rect.unit (s := S512x1024) (k0_off13 c 0#32 16#32) S16x1024.size (k0_off13_inb c 0)).set ⊆ (Rect.unit (s := S512x1024) (k0_off12 c) S32x1024.size (k0_off12_inb c)).set := by
  have hs : (Rect.unit (s := S512x1024) (k0_off13 c 0#32 16#32) S16x1024.size (k0_off13_inb c 0)).set = rowSet 512 (srcRow 7 c) 16 := (View.set_slice_whole _ _).symm.trans (src_set_7 c)
  have hp : (Rect.unit (s := S512x1024) (k0_off12 c) S32x1024.size (k0_off12_inb c)).set = rowSet 512 (keepRow 4 c) 32 := (View.set_slice_whole _ _).symm.trans (keep_set_4 c)
  rw [hs, hp]
  exact rowSet_subset (by rcases halves_7 c with ⟨h1, h2⟩ | ⟨h1, h2⟩ <;> omega)

theorem keep_sub_7 (c : Dev nD) : (Rect.unit (s := S512x1024) (k0_off17 c) S16x1024.size (k0_off17_inb c)).set ⊆ (Rect.unit (s := S512x1024) (k0_off12 c) S32x1024.size (k0_off12_inb c)).set := by
  have hs : (Rect.unit (s := S512x1024) (k0_off17 c) S16x1024.size (k0_off17_inb c)).set = rowSet 512 (keepRow 7 c) 16 := (View.set_slice_whole _ _).symm.trans (keep_set_7 c)
  have hp : (Rect.unit (s := S512x1024) (k0_off12 c) S32x1024.size (k0_off12_inb c)).set = rowSet 512 (keepRow 4 c) 32 := (View.set_slice_whole _ _).symm.trans (keep_set_4 c)
  rw [hs, hp]
  exact rowSet_subset (by rcases halves_7 c with ⟨h1, h2⟩ | ⟨h1, h2⟩ <;> omega)

theorem src_sub_8 (c : Dev nD) : (Rect.unit (s := S512x1024) (k0_off15 c 0#32 16#32) S16x1024.size (k0_off15_inb c 0)).set ⊆ (Rect.unit (s := S512x1024) (k0_off14 c) S32x1024.size (k0_off14_inb c)).set := by
  have hs : (Rect.unit (s := S512x1024) (k0_off15 c 0#32 16#32) S16x1024.size (k0_off15_inb c 0)).set = rowSet 512 (srcRow 8 c) 16 := (View.set_slice_whole _ _).symm.trans (src_set_8 c)
  have hp : (Rect.unit (s := S512x1024) (k0_off14 c) S32x1024.size (k0_off14_inb c)).set = rowSet 512 (keepRow 5 c) 32 := (View.set_slice_whole _ _).symm.trans (keep_set_5 c)
  rw [hs, hp]
  exact rowSet_subset (by rcases halves_8 c with ⟨h1, h2⟩ | ⟨h1, h2⟩ <;> omega)

theorem keep_sub_8 (c : Dev nD) : (Rect.unit (s := S512x1024) (k0_off18 c) S16x1024.size (k0_off18_inb c)).set ⊆ (Rect.unit (s := S512x1024) (k0_off14 c) S32x1024.size (k0_off14_inb c)).set := by
  have hs : (Rect.unit (s := S512x1024) (k0_off18 c) S16x1024.size (k0_off18_inb c)).set = rowSet 512 (keepRow 8 c) 16 := (View.set_slice_whole _ _).symm.trans (keep_set_8 c)
  have hp : (Rect.unit (s := S512x1024) (k0_off14 c) S32x1024.size (k0_off14_inb c)).set = rowSet 512 (keepRow 5 c) 32 := (View.set_slice_whole _ _).symm.trans (keep_set_5 c)
  rw [hs, hp]
  exact rowSet_subset (by rcases halves_8 c with ⟨h1, h2⟩ | ⟨h1, h2⟩ <;> omega)

/-- info: 'Cert.KernelIdeal.Coll.src_sub_8' depends on axioms: [propext, Classical.choice, Quot.sound] -/
#guard_msgs in #print axioms src_sub_8

/-- info: 'Cert.KernelIdeal.Coll.keep_sub_0' depends on axioms: [propext, Classical.choice, Quot.sound] -/
#guard_msgs in #print axioms keep_sub_0

end Cert.KernelIdeal.Coll

end
-- ==== Proof.KernelIdeal.ValueAdd.lean ====
/-
  The accumulate against the contents the store leaves. The kept rows are rewritten, through the very view that reads
  them, with the sum of what they held and what landed in the device's slot; a cast to the same shape changes nothing. Held
  at the phase's accumulator and the slot at the partner's sent rows, the sum is the next phase's accumulator on those rows.
-/
import proofs.«900423_g7700000000000424_dist_attn_self_mha_htp_b1_sq512_skv512_d1024_hq8_dh128_v7x_i8_f32_1_alg».proof.Proof.KernelIdeal.ValuePhases

noncomputable section

namespace Cert.KernelIdeal.Coll

open Cert.KernelIdeal Cert.KernelIdeal.Gen Cert.KernelIdeal.Mesh Idealize.ShloMosaic Idealize.ShloMosaic.ValueIdx

variable {F : FTy → Type} [FloatOps F]

section Adds
variable (P : Dev nD → AccC F)

/-- The accumulate of reduce-scatter copy 0: what the store of the sum leaves on the kept rows. -/
theorem add_val_0 (c : Dev nD) (C : AccC F) (fl : (cc0_scratch1 : Ref sig .tc).ty.Contents (Elt F))
    (hK : (accM.slice (Rect.unit (s := S512x1024) (k0_off4 c) S128x1024.size (k0_off4_inb c)) (fun _ => rfl)).view.read (Elt F) C = (accM.slice (Rect.unit (s := S512x1024) (k0_off4 c) S128x1024.size (k0_off4_inb c)) (fun _ => rfl)).view.read (Elt F) (W P 0 c))
    (hfl : (dstM 0 (partner 0 c)).view.read (Elt F) fl = rowsRead 0 (partner 0 c) (W P 0 (partner 0 c))) :
    (accM.slice (Rect.unit (s := S512x1024) (k0_off4 c) S128x1024.size (k0_off4_inb c)) (fun _ => rfl)).view.read (Elt F) (View.write (Elt F) ((Memref.whole cc0_scratch0).access (Rect.unit (s := S512x1024) (k0_off4 c) S128x1024.size (k0_off4_inb c))) C (k0_pay24 (View.readAt (Elt F) (Memref.whole cc0_scratch0).view (Rect.unit (s := S512x1024) (k0_off4 c) S128x1024.size (k0_off4_inb c)).toLoadRect C) (View.readAt (Elt F) (Memref.whole cc0_scratch1).view (Rect.unit (s := S256x1024) ![0, 0] S128x1024.size inb_S256x1024_S128x1024_0_0).toLoadRect fl)) Finset.univ)
      = (accM.slice (Rect.unit (s := S512x1024) (k0_off4 c) S128x1024.size (k0_off4_inb c)) (fun _ => rfl)).view.read (Elt F) (W P (0 + 1) c) := by
  have e : addf ((accM.slice (Rect.unit (s := S512x1024) (k0_off4 c) S128x1024.size (k0_off4_inb c)) (fun _ => rfl)).view.read (Elt F) C) ((dstM 0 (partner 0 c)).view.read (Elt F) fl)
      = (accM.slice (Rect.unit (s := S512x1024) (k0_off4 c) S128x1024.size (k0_off4_inb c)) (fun _ => rfl)).view.read (Elt F) (W P (0 + 1) c) := by
    rw [hK, hfl]; exact accumulate_0 P c
  have hpay : k0_pay24 (View.readAt (Elt F) (Memref.whole cc0_scratch0).view (Rect.unit (s := S512x1024) (k0_off4 c) S128x1024.size (k0_off4_inb c)).toLoadRect C) (View.readAt (Elt F) (Memref.whole cc0_scratch1).view (Rect.unit (s := S256x1024) ![0, 0] S128x1024.size inb_S256x1024_S128x1024_0_0).toLoadRect fl)
      = addf ((accM.slice (Rect.unit (s := S512x1024) (k0_off4 c) S128x1024.size (k0_off4_inb c)) (fun _ => rfl)).view.read (Elt F) C) ((dstM 0 (partner 0 c)).view.read (Elt F) fl) := by
    unfold k0_pay24
    show shapeCast _ (addf _ _) _ = _
    rw [shapeCast_self]
    rfl
  have hw := View.read_write_univ (v := (Memref.whole cc0_scratch0).access (Rect.unit (s := S512x1024) (k0_off4 c) S128x1024.size (k0_off4_inb c))) (Val := Elt F) C (k0_pay24 (View.readAt (Elt F) (Memref.whole cc0_scratch0).view (Rect.unit (s := S512x1024) (k0_off4 c) S128x1024.size (k0_off4_inb c)).toLoadRect C) (View.readAt (Elt F) (Memref.whole cc0_scratch1).view (Rect.unit (s := S256x1024) ![0, 0] S128x1024.size inb_S256x1024_S128x1024_0_0).toLoadRect fl))
  exact hw.trans (hpay.trans e)

/-- The accumulate of reduce-scatter copy 1: what the store of the sum leaves on the kept rows. -/
theorem add_val_1 (c : Dev nD) (C : AccC F) (fl : (cc0_scratch1 : Ref sig .tc).ty.Contents (Elt F))
    (hK : (accM.slice (Rect.unit (s := S512x1024) (k0_off6 c) S64x1024.size (k0_off6_inb c)) (fun _ => rfl)).view.read (Elt F) C = (accM.slice (Rect.unit (s := S512x1024) (k0_off6 c) S64x1024.size (k0_off6_inb c)) (fun _ => rfl)).view.read (Elt F) (W P 0 c))
    (hfl : (dstM 1 (partner 1 c)).view.read (Elt F) fl = rowsRead 1 (partner 1 c) (W P 0 (partner 1 c))) :
    (accM.slice (Rect.unit (s := S512x1024) (k0_off6 c) S64x1024.size (k0_off6_inb c)) (fun _ => rfl)).view.read (Elt F) (View.write (Elt F) ((Memref.whole cc0_scratch0).access (Rect.unit (s := S512x1024) (k0_off6 c) S64x1024.size (k0_off6_inb c))) C (k0_pay25 (View.readAt (Elt F) (Memref.whole cc0_scratch0).view (Rect.unit (s := S512x1024) (k0_off6 c) S64x1024.size (k0_off6_inb c)).toLoadRect C) (View.readAt (Elt F) (Memref.whole cc0_scratch1).view (Rect.unit (s := S256x1024) ![128, 0] S64x1024.size inb_S256x1024_S64x1024_128_0).toLoadRect fl)) Finset.univ)
      = (accM.slice (Rect.unit (s := S512x1024) (k0_off6 c) S64x1024.size (k0_off6_inb c)) (fun _ => rfl)).view.read (Elt F) (W P (0 + 1) c) := by
  have e : addf ((accM.slice (Rect.unit (s := S512x1024) (k0_off6 c) S64x1024.size (k0_off6_inb c)) (fun _ => rfl)).view.read (Elt F) C) ((dstM 1 (partner 1 c)).view.read (Elt F) fl)
      = (accM.slice (Rect.unit (s := S512x1024) (k0_off6 c) S64x1024.size (k0_off6_inb c)) (fun _ => rfl)).view.read (Elt F) (W P (0 + 1) c) := by
    rw [hK, hfl]; exact accumulate_1 P c
  have hpay : k0_pay25 (View.readAt (Elt F) (Memref.whole cc0_scratch0).view (Rect.unit (s := S512x1024) (k0_off6 c) S64x1024.size (k0_off6_inb c)).toLoadRect C) (View.readAt (Elt F) (Memref.whole cc0_scratch1).view (Rect.unit (s := S256x1024) ![128, 0] S64x1024.size inb_S256x1024_S64x1024_128_0).toLoadRect fl)
      = addf ((accM.slice (Rect.unit (s := S512x1024) (k0_off6 c) S64x1024.size (k0_off6_inb c)) (fun _ => rfl)).view.read (Elt F) C) ((dstM 1 (partner 1 c)).view.read (Elt F) fl) := by
    unfold k0_pay25
    show shapeCast _ (addf _ _) _ = _
    rw [shapeCast_self]
    rfl
  have hw := View.read_write_univ (v := (Memref.whole cc0_scratch0).access (Rect.unit (s := S512x1024) (k0_off6 c) S64x1024.size (k0_off6_inb c))) (Val := Elt F) C (k0_pay25 (View.readAt (Elt F) (Memref.whole cc0_scratch0).view (Rect.unit (s := S512x1024) (k0_off6 c) S64x1024.size (k0_off6_inb c)).toLoadRect C) (View.readAt (Elt F) (Memref.whole cc0_scratch1).view (Rect.unit (s := S256x1024) ![128, 0] S64x1024.size inb_S256x1024_S64x1024_128_0).toLoadRect fl))
  exact hw.trans (hpay.trans e)

/-- The accumulate of reduce-scatter copy 2: what the store of the sum leaves on the kept rows. -/
theorem add_val_2 (c : Dev nD) (C : AccC F) (fl : (cc0_scratch1 : Ref sig .tc).ty.Contents (Elt F))
    (hK : (accM.slice (Rect.unit (s := S512x1024) (k0_off8 c) S64x1024.size (k0_off8_inb c)) (fun _ => rfl)).view.read (Elt F) C = (accM.slice (Rect.unit (s := S512x1024) (k0_off8 c) S64x1024.size (k0_off8_inb c)) (fun _ => rfl)).view.read (Elt F) (W P 0 c))
    (hfl : (dstM 2 (partner 2 c)).view.read (Elt F) fl = rowsRead 2 (partner 2 c) (W P 0 (partner 2 c))) :
    (accM.slice (Rect.unit (s := S512x1024) (k0_off8 c) S64x1024.size (k0_off8_inb c)) (fun _ => rfl)).view.read (Elt F) (View.write (Elt F) ((Memref.whole cc0_scratch0).access (Rect.unit (s := S512x1024) (k0_off8 c) S64x1024.size (k0_off8_inb c))) C (k0_pay26 (View.readAt (Elt F) (Memref.whole cc0_scratch0).view (Rect.unit (s := S512x1024) (k0_off8 c) S64x1024.size (k0_off8_inb c)).toLoadRect C) (View.readAt (Elt F) (Memref.whole cc0_scratch1).view (Rect.unit (s := S256x1024) ![192, 0] S64x1024.size inb_S256x1024_S64x1024_192_0).toLoadRect fl)) Finset.univ)
      = (accM.slice (Rect.unit (s := S512x1024) (k0_off8 c) S64x1024.size (k0_off8_inb c)) (fun _ => rfl)).view.read (Elt F) (W P (0 + 1) c) := by
  have e : addf ((accM.slice (Rect.unit (s := S512x1024) (k0_off8 c) S64x1024.size (k0_off8_inb c)) (fun _ => rfl)).view.read (Elt F) C) ((dstM 2 (partner 2 c)).view.read (Elt F) fl)
      = (accM.slice (Rect.unit (s := S512x1024) (k0_off8 c) S64x1024.size (k0_off8_inb c)) (fun _ => rfl)).view.read (Elt F) (W P (0 + 1) c) := by
    rw [hK, hfl]; exact accumulate_2 P c
  have hpay : k0_pay26 (View.readAt (Elt F) (Memref.whole cc0_scratch0).view (Rect.unit (s := S512x1024) (k0_off8 c) S64x1024.size (k0_off8_inb c)).toLoadRect C) (View.readAt (Elt F) (Memref.whole cc0_scratch1).view (Rect.unit (s := S256x1024) ![192, 0] S64x1024.size inb_S256x1024_S64x1024_192_0).toLoadRect fl)
      = addf ((accM.slice (Rect.unit (s := S512x1024) (k0_off8 c) S64x1024.size (k0_off8_inb c)) (fun _ => rfl)).view.read (Elt F) C) ((dstM 2 (partner 2 c)).view.read (Elt F) fl) := by
    unfold k0_pay26
    show shapeCast _ (addf _ _) _ = _
    rw [shapeCast_self]
    rfl
  have hw := View.read_write_univ (v := (Memref.whole cc0_scratch0).access (Rect.unit (s := S512x1024) (k0_off8 c) S64x1024.size (k0_off8_inb c))) (Val := Elt F) C (k0_pay26 (View.readAt (Elt F) (Memref.whole cc0_scratch0).view (Rect.unit (s := S512x1024) (k0_off8 c) S64x1024.size (k0_off8_inb c)).toLoadRect C) (View.readAt (Elt F) (Memref.whole cc0_scratch1).view (Rect.unit (s := S256x1024) ![192, 0] S64x1024.size inb_S256x1024_S64x1024_192_0).toLoadRect fl))
  exact hw.trans (hpay.trans e)

/-- The accumulate of reduce-scatter copy 3: what the store of the sum leaves on the kept rows. -/
theorem add_val_3 (c : Dev nD) (C : AccC F) (fl : (cc0_scratch2 : Ref sig .tc).ty.Contents (Elt F))
    (hK : (accM.slice (Rect.unit (s := S512x1024) (k0_off10 c) S64x1024.size (k0_off10_inb c)) (fun _ => rfl)).view.read (Elt F) C = (accM.slice (Rect.unit (s := S512x1024) (k0_off10 c) S64x1024.size (k0_off10_inb c)) (fun _ => rfl)).view.read (Elt F) (W P 1 c))
    (hfl : (dstM 3 (partner 3 c)).view.read (Elt F) fl = rowsRead 3 (partner 3 c) (W P 1 (partner 3 c))) :
    (accM.slice (Rect.unit (s := S512x1024) (k0_off10 c) S64x1024.size (k0_off10_inb c)) (fun _ => rfl)).view.read (Elt F) (View.write (Elt F) ((Memref.whole cc0_scratch0).access (Rect.unit (s := S512x1024) (k0_off10 c) S64x1024.size (k0_off10_inb c))) C (k0_pay27 (View.readAt (Elt F) (Memref.whole cc0_scratch0).view (Rect.unit (s := S512x1024) (k0_off10 c) S64x1024.size (k0_off10_inb c)).toLoadRect C) (View.readAt (Elt F) (Memref.whole cc0_scratch2).view (Rect.unit (s := S128x1024) ![0, 0] S64x1024.size inb_S128x1024_S64x1024_0_0).toLoadRect fl)) Finset.univ)
      = (accM.slice (Rect.unit (s := S512x1024) (k0_off10 c) S64x1024.size (k0_off10_inb c)) (fun _ => rfl)).view.read (Elt F) (W P (1 + 1) c) := by
  have e : addf ((accM.slice (Rect.unit (s := S512x1024) (k0_off10 c) S64x1024.size (k0_off10_inb c)) (fun _ => rfl)).view.read (Elt F) C) ((dstM 3 (partner 3 c)).view.read (Elt F) fl)
      = (accM.slice (Rect.unit (s := S512x1024) (k0_off10 c) S64x1024.size (k0_off10_inb c)) (fun _ => rfl)).view.read (Elt F) (W P (1 + 1) c) := by
    rw [hK, hfl]; exact accumulate_3 P c
  have hpay : k0_pay27 (View.readAt (Elt F) (Memref.whole cc0_scratch0).view (Rect.unit (s := S512x1024) (k0_off10 c) S64x1024.size (k0_off10_inb c)).toLoadRect C) (View.readAt (Elt F) (Memref.whole cc0_scratch2).view (Rect.unit (s := S128x1024) ![0, 0] S64x1024.size inb_S128x1024_S64x1024_0_0).toLoadRect fl)
      = addf ((accM.slice (Rect.unit (s := S512x1024) (k0_off10 c) S64x1024.size (k0_off10_inb c)) (fun _ => rfl)).view.read (Elt F) C) ((dstM 3 (partner 3 c)).view.read (Elt F) fl) := by
    unfold k0_pay27
    show shapeCast _ (addf _ _) _ = _
    rw [shapeCast_self]
    rfl
  have hw := View.read_write_univ (v := (Memref.whole cc0_scratch0).access (Rect.unit (s := S512x1024) (k0_off10 c) S64x1024.size (k0_off10_inb c))) (Val := Elt F) C (k0_pay27 (View.readAt (Elt F) (Memref.whole cc0_scratch0).view (Rect.unit (s := S512x1024) (k0_off10 c) S64x1024.size (k0_off10_inb c)).toLoadRect C) (View.readAt (Elt F) (Memref.whole cc0_scratch2).view (Rect.unit (s := S128x1024) ![0, 0] S64x1024.size inb_S128x1024_S64x1024_0_0).toLoadRect fl))
  exact hw.trans (hpay.trans e)

/-- The accumulate of reduce-scatter copy 4: what the store of the sum leaves on the kept rows. -/
theorem add_val_4 (c : Dev nD) (C : AccC F) (fl : (cc0_scratch2 : Ref sig .tc).ty.Contents (Elt F))
    (hK : (accM.slice (Rect.unit (s := S512x1024) (k0_off12 c) S32x1024.size (k0_off12_inb c)) (fun _ => rfl)).view.read (Elt F) C = (accM.slice (Rect.unit (s := S512x1024) (k0_off12 c) S32x1024.size (k0_off12_inb c)) (fun _ => rfl)).view.read (Elt F) (W P 1 c))
    (hfl : (dstM 4 (partner 4 c)).view.read (Elt F) fl = rowsRead 4 (partner 4 c) (W P 1 (partner 4 c))) :
    (accM.slice (Rect.unit (s := S512x1024) (k0_off12 c) S32x1024.size (k0_off12_inb c)) (fun _ => rfl)).view.read (Elt F) (View.write (Elt F) ((Memref.whole cc0_scratch0).access (Rect.unit (s := S512x1024) (k0_off12 c) S32x1024.size (k0_off12_inb c))) C (k0_pay29 (k0_pay28 (View.readAt (Elt F) (Memref.whole cc0_scratch0).view (Rect.unit (s := S512x1024) (k0_off12 c) S32x1024.size (k0_off12_inb c)).toLoadRect C) (View.readAt (Elt F) (Memref.whole cc0_scratch2).view (Rect.unit (s := S128x1024) ![64, 0] S32x1024.size inb_S128x1024_S32x1024_64_0).toLoadRect fl))) Finset.univ)
      = (accM.slice (Rect.unit (s := S512x1024) (k0_off12 c) S32x1024.size (k0_off12_inb c)) (fun _ => rfl)).view.read (Elt F) (W P (1 + 1) c) := by
  have e : addf ((accM.slice (Rect.unit (s := S512x1024) (k0_off12 c) S32x1024.size (k0_off12_inb c)) (fun _ => rfl)).view.read (Elt F) C) ((dstM 4 (partner 4 c)).view.read (Elt F) fl)
      = (accM.slice (Rect.unit (s := S512x1024) (k0_off12 c) S32x1024.size (k0_off12_inb c)) (fun _ => rfl)).view.read (Elt F) (W P (1 + 1) c) := by
    rw [hK, hfl]; exact accumulate_4 P c
  have hpay : k0_pay29 (k0_pay28 (View.readAt (Elt F) (Memref.whole cc0_scratch0).view (Rect.unit (s := S512x1024) (k0_off12 c) S32x1024.size (k0_off12_inb c)).toLoadRect C) (View.readAt (Elt F) (Memref.whole cc0_scratch2).view (Rect.unit (s := S128x1024) ![64, 0] S32x1024.size inb_S128x1024_S32x1024_64_0).toLoadRect fl))
      = addf ((accM.slice (Rect.unit (s := S512x1024) (k0_off12 c) S32x1024.size (k0_off12_inb c)) (fun _ => rfl)).view.read (Elt F) C) ((dstM 4 (partner 4 c)).view.read (Elt F) fl) := by
    unfold k0_pay29 k0_pay28
    show shapeCast _ (addf _ _) _ = _
    rw [shapeCast_self]
    rfl
  have hw := View.read_write_univ (v := (Memref.whole cc0_scratch0).access (Rect.unit (s := S512x1024) (k0_off12 c) S32x1024.size (k0_off12_inb c))) (Val := Elt F) C (k0_pay29 (k0_pay28 (View.readAt (Elt F) (Memref.whole cc0_scratch0).view (Rect.unit (s := S512x1024) (k0_off12 c) S32x1024.size (k0_off12_inb c)).toLoadRect C) (View.readAt (Elt F) (Memref.whole cc0_scratch2).view (Rect.unit (s := S128x1024) ![64, 0] S32x1024.size inb_S128x1024_S32x1024_64_0).toLoadRect fl)))
  exact hw.trans (hpay.trans e)

/-- The accumulate of reduce-scatter copy 5: what the store of the sum leaves on the kept rows. -/
theorem add_val_5 (c : Dev nD) (C : AccC F) (fl : (cc0_scratch2 : Ref sig .tc).ty.Contents (Elt F))
    (hK : (accM.slice (Rect.unit (s := S512x1024) (k0_off14 c) S32x1024.size (k0_off14_inb c)) (fun _ => rfl)).view.read (Elt F) C = (accM.slice (Rect.unit (s := S512x1024) (k0_off14 c) S32x1024.size (k0_off14_inb c)) (fun _ => rfl)).view.read (Elt F) (W P 1 c))
    (hfl : (dstM 5 (partner 5 c)).view.read (Elt F) fl = rowsRead 5 (partner 5 c) (W P 1 (partner 5 c))) :
    (accM.slice (Rect.unit (s := S512x1024) (k0_off14 c) S32x1024.size (k0_off14_inb c)) (fun _ => rfl)).view.read (Elt F) (View.write (Elt F) ((Memref.whole cc0_scratch0).access (Rect.unit (s := S512x1024) (k0_off14 c) S32x1024.size (k0_off14_inb c))) C (k0_pay30 (View.readAt (Elt F) (Memref.whole cc0_scratch0).view (Rect.unit (s := S512x1024) (k0_off14 c) S32x1024.size (k0_off14_inb c)).toLoadRect C) (View.readAt (Elt F) (Memref.whole cc0_scratch2).view (Rect.unit (s := S128x1024) ![96, 0] S32x1024.size inb_S128x1024_S32x1024_96_0).toLoadRect fl)) Finset.univ)
      = (accM.slice (Rect.unit (s := S512x1024) (k0_off14 c) S32x1024.size (k0_off14_inb c)) (fun _ => rfl)).view.read (Elt F) (W P (1 + 1) c) := by
  have e : addf ((accM.slice (Rect.unit (s := S512x1024) (k0_off14 c) S32x1024.size (k0_off14_inb c)) (fun _ => rfl)).view.read (Elt F) C) ((dstM 5 (partner 5 c)).view.read (Elt F) fl)
      = (accM.slice (Rect.unit (s := S512x1024) (k0_off14 c) S32x1024.size (k0_off14_inb c)) (fun _ => rfl)).view.read (Elt F) (W P (1 + 1) c) := by
    rw [hK, hfl]; exact accumulate_5 P c
  have hpay : k0_pay30 (View.readAt (Elt F) (Memref.whole cc0_scratch0).view (Rect.unit (s := S512x1024) (k0_off14 c) S32x1024.size (k0_off14_inb c)).toLoadRect C) (View.readAt (Elt F) (Memref.whole cc0_scratch2).view (Rect.unit (s := S128x1024) ![96, 0] S32x1024.size inb_S128x1024_S32x1024_96_0).toLoadRect fl)
      = addf ((accM.slice (Rect.unit (s := S512x1024) (k0_off14 c) S32x1024.size (k0_off14_inb c)) (fun _ => rfl)).view.read (Elt F) C) ((dstM 5 (partner 5 c)).view.read (Elt F) fl) := by
    unfold k0_pay30
    show shapeCast _ (addf _ _) _ = _
    rw [shapeCast_self]
    rfl
  have hw := View.read_write_univ (v := (Memref.whole cc0_scratch0).access (Rect.unit (s := S512x1024) (k0_off14 c) S32x1024.size (k0_off14_inb c))) (Val := Elt F) C (k0_pay30 (View.readAt (Elt F) (Memref.whole cc0_scratch0).view (Rect.unit (s := S512x1024) (k0_off14 c) S32x1024.size (k0_off14_inb c)).toLoadRect C) (View.readAt (Elt F) (Memref.whole cc0_scratch2).view (Rect.unit (s := S128x1024) ![96, 0] S32x1024.size inb_S128x1024_S32x1024_96_0).toLoadRect fl))
  exact hw.trans (hpay.trans e)

/-- The accumulate of reduce-scatter copy 6: what the store of the sum leaves on the kept rows. -/
theorem add_val_6 (c : Dev nD) (C : AccC F) (fl : (cc0_scratch3 : Ref sig .tc).ty.Contents (Elt F))
    (hK : (accM.slice (Rect.unit (s := S512x1024) (k0_off16 c) S32x1024.size (k0_off16_inb c)) (fun _ => rfl)).view.read (Elt F) C = (accM.slice (Rect.unit (s := S512x1024) (k0_off16 c) S32x1024.size (k0_off16_inb c)) (fun _ => rfl)).view.read (Elt F) (W P 2 c))
    (hfl : (dstM 6 (partner 6 c)).view.read (Elt F) fl = rowsRead 6 (partner 6 c) (W P 2 (partner 6 c))) :
    (accM.slice (Rect.unit (s := S512x1024) (k0_off16 c) S32x1024.size (k0_off16_inb c)) (fun _ => rfl)).view.read (Elt F) (View.write (Elt F) ((Memref.whole cc0_scratch0).access (Rect.unit (s := S512x1024) (k0_off16 c) S32x1024.size (k0_off16_inb c))) C (k0_pay31 (View.readAt (Elt F) (Memref.whole cc0_scratch0).view (Rect.unit (s := S512x1024) (k0_off16 c) S32x1024.size (k0_off16_inb c)).toLoadRect C) (View.readAt (Elt F) (Memref.whole cc0_scratch3).view (Rect.unit (s := S64x1024) ![0, 0] S32x1024.size inb_S64x1024_S32x1024_0_0).toLoadRect fl)) Finset.univ)
      = (accM.slice (Rect.unit (s := S512x1024) (k0_off16 c) S32x1024.size (k0_off16_inb c)) (fun _ => rfl)).view.read (Elt F) (W P (2 + 1) c) := by
  have e : addf ((accM.slice (Rect.unit (s := S512x1024) (k0_off16 c) S32x1024.size (k0_off16_inb c)) (fun _ => rfl)).view.read (Elt F) C) ((dstM 6 (partner 6 c)).view.read (Elt F) fl)
      = (accM.slice (Rect.unit (s := S512x1024) (k0_off16 c) S32x1024.size (k0_off16_inb c)) (fun _ => rfl)).view.read (Elt F) (W P (2 + 1) c) := by
    rw [hK, hfl]; exact accumulate_6 P c
  have hpay : k0_pay31 (View.readAt (Elt F) (Memref.whole cc0_scratch0).view (Rect.unit (s := S512x1024) (k0_off16 c) S32x1024.size (k0_off16_inb c)).toLoadRect C) (View.readAt (Elt F) (Memref.whole cc0_scratch3).view (Rect.unit (s := S64x1024) ![0, 0] S32x1024.size inb_S64x1024_S32x1024_0_0).toLoadRect fl)
      = addf ((accM.slice (Rect.unit (s := S512x1024) (k0_off16 c) S32x1024.size (k0_off16_inb c)) (fun _ => rfl)).view.read (Elt F) C) ((dstM 6 (partner 6 c)).view.read (Elt F) fl) := by
    unfold k0_pay31
    show shapeCast _ (addf _ _) _ = _
    rw [shapeCast_self]
    rfl
  have hw := View.read_write_univ (v := (Memref.whole cc0_scratch0).access (Rect.unit (s := S512x1024) (k0_off16 c) S32x1024.size (k0_off16_inb c))) (Val := Elt F) C (k0_pay31 (View.readAt (Elt F) (Memref.whole cc0_scratch0).view (Rect.unit (s := S512x1024) (k0_off16 c) S32x1024.size (k0_off16_inb c)).toLoadRect C) (View.readAt (Elt F) (Memref.whole cc0_scratch3).view (Rect.unit (s := S64x1024) ![0, 0] S32x1024.size inb_S64x1024_S32x1024_0_0).toLoadRect fl))
  exact hw.trans (hpay.trans e)

/-- The accumulate of reduce-scatter copy 7: what the store of the sum leaves on the kept rows. -/
theorem add_val_7 (c : Dev nD) (C : AccC F) (fl : (cc0_scratch3 : Ref sig .tc).ty.Contents (Elt F))
    (hK : (accM.slice (Rect.unit (s := S512x1024) (k0_off17 c) S16x1024.size (k0_off17_inb c)) (fun _ => rfl)).view.read (Elt F) C = (accM.slice (Rect.unit (s := S512x1024) (k0_off17 c) S16x1024.size (k0_off17_inb c)) (fun _ => rfl)).view.read (Elt F) (W P 2 c))
    (hfl : (dstM 7 (partner 7 c)).view.read (Elt F) fl = rowsRead 7 (partner 7 c) (W P 2 (partner 7 c))) :
    (accM.slice (Rect.unit (s := S512x1024) (k0_off17 c) S16x1024.size (k0_off17_inb c)) (fun _ => rfl)).view.read (Elt F) (View.write (Elt F) ((Memref.whole cc0_scratch0).access (Rect.unit (s := S512x1024) (k0_off17 c) S16x1024.size (k0_off17_inb c))) C (k0_pay32 (View.readAt (Elt F) (Memref.whole cc0_scratch0).view (Rect.unit (s := S512x1024) (k0_off17 c) S16x1024.size (k0_off17_inb c)).toLoadRect C) (View.readAt (Elt F) (Memref.whole cc0_scratch3).view (Rect.unit (s := S64x1024) ![32, 0] S16x1024.size inb_S64x1024_S16x1024_32_0).toLoadRect fl)) Finset.univ)
      = (accM.slice (Rect.unit (s := S512x1024) (k0_off17 c) S16x1024.size (k0_off17_inb c)) (fun _ => rfl)).view.read (Elt F) (W P (2 + 1) c) := by
  have e : addf ((accM.slice (Rect.unit (s := S512x1024) (k0_off17 c) S16x1024.size (k0_off17_inb c)) (fun _ => rfl)).view.read (Elt F) C) ((dstM 7 (partner 7 c)).view.read (Elt F) fl)
      = (accM.slice (Rect.unit (s := S512x1024) (k0_off17 c) S16x1024.size (k0_off17_inb c)) (fun _ => rfl)).view.read (Elt F) (W P (2 + 1) c) := by
    rw [hK, hfl]; exact accumulate_7 P c
  have hpay : k0_pay32 (View.readAt (Elt F) (Memref.whole cc0_scratch0).view (Rect.unit (s := S512x1024) (k0_off17 c) S16x1024.size (k0_off17_inb c)).toLoadRect C) (View.readAt (Elt F) (Memref.whole cc0_scratch3).view (Rect.unit (s := S64x1024) ![32, 0] S16x1024.size inb_S64x1024_S16x1024_32_0).toLoadRect fl)
      = addf ((accM.slice (Rect.unit (s := S512x1024) (k0_off17 c) S16x1024.size (k0_off17_inb c)) (fun _ => rfl)).view.read (Elt F) C) ((dstM 7 (partner 7 c)).view.read (Elt F) fl) := by
    unfold k0_pay32
    show shapeCast _ (addf _ _) _ = _
    rw [shapeCast_self]
    rfl
  have hw := View.read_write_univ (v := (Memref.whole cc0_scratch0).access (Rect.unit (s := S512x1024) (k0_off17 c) S16x1024.size (k0_off17_inb c))) (Val := Elt F) C (k0_pay32 (View.readAt (Elt F) (Memref.whole cc0_scratch0).view (Rect.unit (s := S512x1024) (k0_off17 c) S16x1024.size (k0_off17_inb c)).toLoadRect C) (View.readAt (Elt F) (Memref.whole cc0_scratch3).view (Rect.unit (s := S64x1024) ![32, 0] S16x1024.size inb_S64x1024_S16x1024_32_0).toLoadRect fl))
  exact hw.trans (hpay.trans e)

/-- The accumulate of reduce-scatter copy 8: what the store of the sum leaves on the kept rows. -/
theorem add_val_8 (c : Dev nD) (C : AccC F) (fl : (cc0_scratch3 : Ref sig .tc).ty.Contents (Elt F))
    (hK : (accM.slice (Rect.unit (s := S512x1024) (k0_off18 c) S16x1024.size (k0_off18_inb c)) (fun _ => rfl)).view.read (Elt F) C = (accM.slice (Rect.unit (s := S512x1024) (k0_off18 c) S16x1024.size (k0_off18_inb c)) (fun _ => rfl)).view.read (Elt F) (W P 2 c))
    (hfl : (dstM 8 (partner 8 c)).view.read (Elt F) fl = rowsRead 8 (partner 8 c) (W P 2 (partner 8 c))) :
    (accM.slice (Rect.unit (s := S512x1024) (k0_off18 c) S16x1024.size (k0_off18_inb c)) (fun _ => rfl)).view.read (Elt F) (View.write (Elt F) ((Memref.whole cc0_scratch0).access (Rect.unit (s := S512x1024) (k0_off18 c) S16x1024.size (k0_off18_inb c))) C (k0_pay34 (k0_pay33 (View.readAt (Elt F) (Memref.whole cc0_scratch0).view (Rect.unit (s := S512x1024) (k0_off18 c) S16x1024.size (k0_off18_inb c)).toLoadRect C) (View.readAt (Elt F) (Memref.whole cc0_scratch3).view (Rect.unit (s := S64x1024) ![48, 0] S16x1024.size inb_S64x1024_S16x1024_48_0).toLoadRect fl))) Finset.univ)
      = (accM.slice (Rect.unit (s := S512x1024) (k0_off18 c) S16x1024.size (k0_off18_inb c)) (fun _ => rfl)).view.read (Elt F) (W P (2 + 1) c) := by
  have e : addf ((accM.slice (Rect.unit (s := S512x1024) (k0_off18 c) S16x1024.size (k0_off18_inb c)) (fun _ => rfl)).view.read (Elt F) C) ((dstM 8 (partner 8 c)).view.read (Elt F) fl)
      = (accM.slice (Rect.unit (s := S512x1024) (k0_off18 c) S16x1024.size (k0_off18_inb c)) (fun _ => rfl)).view.read (Elt F) (W P (2 + 1) c) := by
    rw [hK, hfl]; exact accumulate_8 P c
  have hpay : k0_pay34 (k0_pay33 (View.readAt (Elt F) (Memref.whole cc0_scratch0).view (Rect.unit (s := S512x1024) (k0_off18 c) S16x1024.size (k0_off18_inb c)).toLoadRect C) (View.readAt (Elt F) (Memref.whole cc0_scratch3).view (Rect.unit (s := S64x1024) ![48, 0] S16x1024.size inb_S64x1024_S16x1024_48_0).toLoadRect fl))
      = addf ((accM.slice (Rect.unit (s := S512x1024) (k0_off18 c) S16x1024.size (k0_off18_inb c)) (fun _ => rfl)).view.read (Elt F) C) ((dstM 8 (partner 8 c)).view.read (Elt F) fl) := by
    unfold k0_pay34 k0_pay33
    show shapeCast _ (addf _ _) _ = _
    rw [shapeCast_self]
    rfl
  have hw := View.read_write_univ (v := (Memref.whole cc0_scratch0).access (Rect.unit (s := S512x1024) (k0_off18 c) S16x1024.size (k0_off18_inb c))) (Val := Elt F) C (k0_pay34 (k0_pay33 (View.readAt (Elt F) (Memref.whole cc0_scratch0).view (Rect.unit (s := S512x1024) (k0_off18 c) S16x1024.size (k0_off18_inb c)).toLoadRect C) (View.readAt (Elt F) (Memref.whole cc0_scratch3).view (Rect.unit (s := S64x1024) ![48, 0] S16x1024.size inb_S64x1024_S16x1024_48_0).toLoadRect fl)))
  exact hw.trans (hpay.trans e)

end Adds

/-- info: 'Cert.KernelIdeal.Coll.add_val_8' depends on axioms: [propext, Classical.choice, Quot.sound] -/
#guard_msgs in #print axioms add_val_8

/-- info: 'Cert.KernelIdeal.Coll.add_val_0' depends on axioms: [propext, Classical.choice, Quot.sound] -/
#guard_msgs in #print axioms add_val_0

end Cert.KernelIdeal.Coll

end
-- ==== Proof.KernelIdeal.Body.lean ====
/-
  One device's body, stepped once at a symbolic device `c`.

  The device opens with the handshake: it hands each of its three partners the three landing slots that partner's
  reduce-scatter copies will write, and after its wait holds the nine slots its own copies write. It computes its product
  part by part into the accumulator. Each part goes through three reduce-scatter phases — the rows held are cut into the
  rows sent and the rows kept; the sent rows go to the partner's slot together with themselves (the partner writes them
  again in the all-gather); after the waits the landed rows are added, entry by entry, into the kept rows — and three
  all-gather phases — the kept rows go out to the partner's accumulator over the rows it sent, the partner's come in over
  the rows this device sent, and the two runs are joined. Every wait is below everything the device still owes.

  What each run of rows holds is carried as an equation between what a view reads off the contents and what it reads off
  the accumulator of the stage: `W P k c` after `k` reduce-scatter phases, `A P j c` after `j` all-gather phases. A store of a
  part reads as the device's product; an accumulate turns stage `k` into stage `k + 1`; a join turns stage `j` into `j + 1`.
  At the end the accumulator is whole at `A P 3 c`, the landing buffers are whole, every own cell is closed, and the result's
  staging buffer holds the accumulator widened: the proof data's named output.
-/
import proofs.«900423_g7700000000000424_dist_attn_self_mha_htp_b1_sq512_skv512_d1024_hq8_dh128_v7x_i8_f32_1_alg».proof.Proof.KernelIdeal.Joins
import proofs.«900423_g7700000000000424_dist_attn_self_mha_htp_b1_sq512_skv512_d1024_hq8_dh128_v7x_i8_f32_1_alg».proof.Proof.KernelIdeal.BodyEnd
import proofs.«900423_g7700000000000424_dist_attn_self_mha_htp_b1_sq512_skv512_d1024_hq8_dh128_v7x_i8_f32_1_alg».proof.Proof.KernelIdeal.BodyOut
import proofs.«900423_g7700000000000424_dist_attn_self_mha_htp_b1_sq512_skv512_d1024_hq8_dh128_v7x_i8_f32_1_alg».proof.Proof.KernelIdeal.ValueSteps
import proofs.«900423_g7700000000000424_dist_attn_self_mha_htp_b1_sq512_skv512_d1024_hq8_dh128_v7x_i8_f32_1_alg».proof.Proof.KernelIdeal.ValuePhases
import proofs.«900423_g7700000000000424_dist_attn_self_mha_htp_b1_sq512_skv512_d1024_hq8_dh128_v7x_i8_f32_1_alg».proof.Proof.KernelIdeal.ValueJoins
import proofs.«900423_g7700000000000424_dist_attn_self_mha_htp_b1_sq512_skv512_d1024_hq8_dh128_v7x_i8_f32_1_alg».proof.Proof.KernelIdeal.ValueStore
import proofs.«900423_g7700000000000424_dist_attn_self_mha_htp_b1_sq512_skv512_d1024_hq8_dh128_v7x_i8_f32_1_alg».proof.Proof.KernelIdeal.SubRuns
import proofs.«900423_g7700000000000424_dist_attn_self_mha_htp_b1_sq512_skv512_d1024_hq8_dh128_v7x_i8_f32_1_alg».proof.Proof.KernelIdeal.PartialAt
import proofs.«900423_g7700000000000424_dist_attn_self_mha_htp_b1_sq512_skv512_d1024_hq8_dh128_v7x_i8_f32_1_alg».proof.Proof.KernelIdeal.ValueAdd
import proofs.«900423_g7700000000000424_dist_attn_self_mha_htp_b1_sq512_skv512_d1024_hq8_dh128_v7x_i8_f32_1_alg».proof.Proof.KernelIdeal.LaunchGhost

set_option maxRecDepth 16384

noncomputable section

namespace Cert.KernelIdeal.Coll

open Cert.KernelIdeal Cert.KernelIdeal.Gen Cert.KernelIdeal.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : Mem F) (ρ : Dev nD → PrngReg) (P : Dev nD → AccC F)

/-- Device `c` holds the whole buffer `b` at contents `f`, read through the buffer's own view. -/
abbrev held (c : Dev nD) (b : Ref sig .tc) (f : Buf (Elt F) ((Memref.whole b : Memref sig .tc _ b.ty.shape b.ty.elt).view.loc (c : Thread nD τ))) : sProp 𝕄 :=
  (Memref.whole b : Memref sig .tc _ b.ty.shape b.ty.elt).view.loc (c : Thread nD τ) ↦[(Memref.whole b : Memref sig .tc _ b.ty.shape b.ty.elt).view.set]{fullShare} f

omit [FloatOps F] in
theorem held_eq (c : Dev nD) (b : Ref sig .tc) (f : Buf (Elt F) ((c : Thread nD τ).loc b)) :
    (((c : Thread nD τ).loc b) ↦{fullShare} f : sProp 𝕄) = held c b f := by
  unfold held
  rw [show ((Memref.whole b : Memref sig .tc _ b.ty.shape b.ty.elt).view.set) = Finset.univ from View.set_whole b]

/-- A whole staging buffer holding `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

def bodyPre (c : Dev nD) : sProp 𝕄 :=
  iprop(Φ₀ P c ∗ (dats m ρ P 0 c).owesAt () t0_0.castSucc
    ∗ (∃ d, stg c cc0_stg0_0 ((dats m ρ P 0 c).before (0 : Fin 6) t0_0 d))
    ∗ (∃ d, stg c cc0_stg1_0 ((dats m ρ P 0 c).before (1 : Fin 6) t0_0 d))
    ∗ (∃ d, stg c cc0_stg2_0 ((dats m ρ P 0 c).before (2 : Fin 6) t0_0 d))
    ∗ (∃ d, stg c cc0_stg3_0 ((dats m ρ P 0 c).before (3 : Fin 6) t0_0 d))
    ∗ (∃ d, stg c cc0_stg4_0 ((dats m ρ P 0 c).before (4 : Fin 6) t0_0 d))
    ∗ (∃ d, stg c cc0_stg5_0 ((dats m ρ P 0 c).before (5 : Fin 6) t0_0 d)))

def bodyPost (c : Dev nD) : sProp 𝕄 :=
  iprop(Φ₁ c ∗ (dats m ρ P 0 c).owesAt () t0_0.succ
    ∗ stg c cc0_stg0_0 (iblk m c 0 t0_0) ∗ stg c cc0_stg1_0 (iblk m c 1 t0_0) ∗ stg c cc0_stg2_0 (iblk m c 2 t0_0)
    ∗ stg c cc0_stg3_0 (iblk m c 3 t0_0) ∗ stg c cc0_stg4_0 (iblk m c 4 t0_0) ∗ stg c cc0_stg5_0 (outAt P c))

section PayForms
variable (c : Dev nD)

theorem recvPay_rs (i : Fin 18) (hi : i.val < 9) :
    recvPay P i c = iprop(dstAt i (partner i c) c (W P (i.val / 3) (partner i c)) ∗ srcAt i (partner i c) (W P (i.val / 3) (partner i c))) := by
  unfold recvPay carried; rw [if_pos hi, if_pos hi]
theorem recvPay_ag (i : Fin 18) (hi : ¬ i.val < 9) :
    recvPay P i c = dstAt i (partner i c) c (A P (i.val / 3 - 3) (partner i c)) := by
  unfold recvPay carried; rw [if_neg hi, if_neg hi]
theorem sendPay_ag (i : Fin 18) (hi : ¬ i.val < 9) : sendPay P i c = srcAt i c (A P (i.val / 3 - 3) c) := by
  unfold sendPay carried; rw [if_neg hi, if_neg hi]

end PayForms

/-! A landing slot of mine, in the view the kernel's loads name it by. -/
omit [FloatOps F] in
theorem slot_pts_0 (c n : Dev nD) (f : Buf (Elt F) (comm0L c)) :
    (dstPts 0 n c f : sProp 𝕄) = ((comm0M.slice (Rect.unit (s := S256x1024) ![0, 0] S128x1024.size inb_S256x1024_S128x1024_0_0) (fun _ => rfl)).view.loc (c : Thread nD τ) ↦[(comm0M.slice (Rect.unit (s := S256x1024) ![0, 0] S128x1024.size inb_S256x1024_S128x1024_0_0) (fun _ => rfl)).view.set]{fullShare} f) := rfl
omit [FloatOps F] in
theorem slot_pts_1 (c n : Dev nD) (f : Buf (Elt F) (comm0L c)) :
    (dstPts 1 n c f : sProp 𝕄) = ((comm0M.slice (Rect.unit (s := S256x1024) ![128, 0] S64x1024.size inb_S256x1024_S64x1024_128_0) (fun _ => rfl)).view.loc (c : Thread nD τ) ↦[(comm0M.slice (Rect.unit (s := S256x1024) ![128, 0] S64x1024.size inb_S256x1024_S64x1024_128_0) (fun _ => rfl)).view.set]{fullShare} f) := rfl
omit [FloatOps F] in
theorem slot_pts_2 (c n : Dev nD) (f : Buf (Elt F) (comm0L c)) :
    (dstPts 2 n c f : sProp 𝕄) = ((comm0M.slice (Rect.unit (s := S256x1024) ![192, 0] S64x1024.size inb_S256x1024_S64x1024_192_0) (fun _ => rfl)).view.loc (c : Thread nD τ) ↦[(comm0M.slice (Rect.unit (s := S256x1024) ![192, 0] S64x1024.size inb_S256x1024_S64x1024_192_0) (fun _ => rfl)).view.set]{fullShare} f) := rfl
omit [FloatOps F] in
theorem slot_pts_3 (c n : Dev nD) (f : Buf (Elt F) (comm1L c)) :
    (dstPts 3 n c f : sProp 𝕄) = ((comm1M.slice (Rect.unit (s := S128x1024) ![0, 0] S64x1024.size inb_S128x1024_S64x1024_0_0) (fun _ => rfl)).view.loc (c : Thread nD τ) ↦[(comm1M.slice (Rect.unit (s := S128x1024) ![0, 0] S64x1024.size inb_S128x1024_S64x1024_0_0) (fun _ => rfl)).view.set]{fullShare} f) := rfl
omit [FloatOps F] in
theorem slot_pts_4 (c n : Dev nD) (f : Buf (Elt F) (comm1L c)) :
    (dstPts 4 n c f : sProp 𝕄) = ((comm1M.slice (Rect.unit (s := S128x1024) ![64, 0] S32x1024.size inb_S128x1024_S32x1024_64_0) (fun _ => rfl)).view.loc (c : Thread nD τ) ↦[(comm1M.slice (Rect.unit (s := S128x1024) ![64, 0] S32x1024.size inb_S128x1024_S32x1024_64_0) (fun _ => rfl)).view.set]{fullShare} f) := rfl
omit [FloatOps F] in
theorem slot_pts_5 (c n : Dev nD) (f : Buf (Elt F) (comm1L c)) :
    (dstPts 5 n c f : sProp 𝕄) = ((comm1M.slice (Rect.unit (s := S128x1024) ![96, 0] S32x1024.size inb_S128x1024_S32x1024_96_0) (fun _ => rfl)).view.loc (c : Thread nD τ) ↦[(comm1M.slice (Rect.unit (s := S128x1024) ![96, 0] S32x1024.size inb_S128x1024_S32x1024_96_0) (fun _ => rfl)).view.set]{fullShare} f) := rfl
omit [FloatOps F] in
theorem slot_pts_6 (c n : Dev nD) (f : Buf (Elt F) (comm2L c)) :
    (dstPts 6 n c f : sProp 𝕄) = ((comm2M.slice (Rect.unit (s := S64x1024) ![0, 0] S32x1024.size inb_S64x1024_S32x1024_0_0) (fun _ => rfl)).view.loc (c : Thread nD τ) ↦[(comm2M.slice (Rect.unit (s := S64x1024) ![0, 0] S32x1024.size inb_S64x1024_S32x1024_0_0) (fun _ => rfl)).view.set]{fullShare} f) := rfl
omit [FloatOps F] in
theorem slot_pts_7 (c n : Dev nD) (f : Buf (Elt F) (comm2L c)) :
    (dstPts 7 n c f : sProp 𝕄) = ((comm2M.slice (Rect.unit (s := S64x1024) ![32, 0] S16x1024.size inb_S64x1024_S16x1024_32_0) (fun _ => rfl)).view.loc (c : Thread nD τ) ↦[(comm2M.slice (Rect.unit (s := S64x1024) ![32, 0] S16x1024.size inb_S64x1024_S16x1024_32_0) (fun _ => rfl)).view.set]{fullShare} f) := rfl
omit [FloatOps F] in
theorem slot_pts_8 (c n : Dev nD) (f : Buf (Elt F) (comm2L c)) :
    (dstPts 8 n c f : sProp 𝕄) = ((comm2M.slice (Rect.unit (s := S64x1024) ![48, 0] S16x1024.size inb_S64x1024_S16x1024_48_0) (fun _ => rfl)).view.loc (c : Thread nD τ) ↦[(comm2M.slice (Rect.unit (s := S64x1024) ![48, 0] S16x1024.size inb_S64x1024_S16x1024_48_0) (fun _ => rfl)).view.set]{fullShare} f) := rfl

/-! Rows of the all-gather, decided over the devices. -/
theorem rows_src_peer_0 : ∀ c : Dev nD, srcRow 0 (peer 4 c) = srcRow 15 c := by decide
theorem rows_keep_0 : ∀ c : Dev nD, keepRow 0 c = srcRow 15 c := by decide
theorem rows_src_peer_1 : ∀ c : Dev nD, srcRow 1 (peer 3 c) = srcRow 16 c := by decide
theorem rows_keep_1 : ∀ c : Dev nD, keepRow 1 c = srcRow 16 c := by decide
theorem rows_src_peer_2 : ∀ c : Dev nD, srcRow 2 (peer 1 c) = srcRow 17 c := by decide
theorem rows_keep_2 : ∀ c : Dev nD, keepRow 2 c = srcRow 17 c := by decide
theorem rows_src_peer_3 : ∀ c : Dev nD, srcRow 3 (peer 3 c) = srcRow 12 c := by decide
theorem rows_keep_3 : ∀ c : Dev nD, keepRow 3 c = srcRow 12 c := by decide
theorem rows_src_peer_4 : ∀ c : Dev nD, srcRow 4 (peer 1 c) = srcRow 13 c := by decide
theorem rows_keep_4 : ∀ c : Dev nD, keepRow 4 c = srcRow 13 c := by decide
theorem rows_src_peer_5 : ∀ c : Dev nD, srcRow 5 (peer 4 c) = srcRow 14 c := by decide
theorem rows_keep_5 : ∀ c : Dev nD, keepRow 5 c = srcRow 14 c := by decide
theorem rows_src_peer_6 : ∀ c : Dev nD, srcRow 6 (peer 1 c) = srcRow 9 c := by decide
theorem rows_keep_6 : ∀ c : Dev nD, keepRow 6 c = srcRow 9 c := by decide
theorem rows_src_peer_7 : ∀ c : Dev nD, srcRow 7 (peer 4 c) = srcRow 10 c := by decide
theorem rows_keep_7 : ∀ c : Dev nD, keepRow 7 c = srcRow 10 c := by decide
theorem rows_src_peer_8 : ∀ c : Dev nD, srcRow 8 (peer 3 c) = srcRow 11 c := by decide
theorem rows_keep_8 : ∀ c : Dev nD, keepRow 8 c = srcRow 11 c := by decide
theorem ag_halves_9 : ∀ c : Dev nD, (srcRow 9 c = srcRow 12 c ∧ srcRow 9 (peer 1 c) = srcRow 12 c + 32) ∨ (srcRow 9 c = srcRow 12 c + 32 ∧ srcRow 9 (peer 1 c) = srcRow 12 c) := by decide
theorem ag_halves_10 : ∀ c : Dev nD, (srcRow 10 c = srcRow 13 c ∧ srcRow 10 (peer 4 c) = srcRow 13 c + 16) ∨ (srcRow 10 c = srcRow 13 c + 16 ∧ srcRow 10 (peer 4 c) = srcRow 13 c) := by decide
theorem ag_halves_11 : ∀ c : Dev nD, (srcRow 11 c = srcRow 14 c ∧ srcRow 11 (peer 3 c) = srcRow 14 c + 16) ∨ (srcRow 11 c = srcRow 14 c + 16 ∧ srcRow 11 (peer 3 c) = srcRow 14 c) := by decide
theorem ag_halves_12 : ∀ c : Dev nD, (srcRow 12 c = srcRow 15 c ∧ srcRow 12 (peer 3 c) = srcRow 15 c + 64) ∨ (srcRow 12 c = srcRow 15 c + 64 ∧ srcRow 12 (peer 3 c) = srcRow 15 c) := by decide
theorem ag_halves_13 : ∀ c : Dev nD, (srcRow 13 c = srcRow 16 c ∧ srcRow 13 (peer 1 c) = srcRow 16 c + 32) ∨ (srcRow 13 c = srcRow 16 c + 32 ∧ srcRow 13 (peer 1 c) = srcRow 16 c) := by decide
theorem ag_halves_14 : ∀ c : Dev nD, (srcRow 14 c = srcRow 17 c ∧ srcRow 14 (peer 4 c) = srcRow 17 c + 32) ∨ (srcRow 14 c = srcRow 17 c + 32 ∧ srcRow 14 (peer 4 c) = srcRow 17 c) := by decide
theorem ag_halves_15 : ∀ c : Dev nD, (srcRow 15 c = 0 ∧ srcRow 15 (peer 4 c) = 0 + 128) ∨ (srcRow 15 c = 0 + 128 ∧ srcRow 15 (peer 4 c) = 0) := by decide
theorem ag_halves_16 : ∀ c : Dev nD, (srcRow 16 c = 256 ∧ srcRow 16 (peer 3 c) = 256 + 64) ∨ (srcRow 16 c = 256 + 64 ∧ srcRow 16 (peer 3 c) = 256) := by decide
theorem ag_halves_17 : ∀ c : Dev nD, (srcRow 17 c = 384 ∧ srcRow 17 (peer 1 c) = 384 + 64) ∨ (srcRow 17 c = 384 + 64 ∧ srcRow 17 (peer 1 c) = 384) := by decide
omit [FloatOps F] in
/-- The partner's source rows of copy 0, handed over with its landing, are where my all-gather copy 15 lands on it. -/
theorem as_dst_0 (c : Dev nD) (f : Buf (Elt F) (accL (peer 4 c))) :
    (srcPts 0 (partner 0 c) f : sProp 𝕄) = dstPts 15 c (partner 15 c) f := by
  show (((accM.slice (Rect.unit (s := S512x1024) (k0_off1 (peer 4 c)) S128x1024.size (k0_off1_inb (peer 4 c))) (fun _ => rfl)).view.loc ((peer 4 c : Dev nD) : Thread nD τ) ↦[(accM.slice (Rect.unit (s := S512x1024) (k0_off1 (peer 4 c)) S128x1024.size (k0_off1_inb (peer 4 c))) (fun _ => rfl)).view.set]{fullShare} f) : sProp 𝕄)
      = ((accM.slice (Rect.unit (s := S512x1024) (k0_off22 c) S128x1024.size (k0_off22_inb c)) (fun _ => rfl)).view.loc ((peer 4 c : Dev nD) : Thread nD τ) ↦[(accM.slice (Rect.unit (s := S512x1024) (k0_off22 c) S128x1024.size (k0_off22_inb c)) (fun _ => rfl)).view.set]{fullShare} f)
  rw [src_pts_0 (peer 4 c) f, dst_pts_15 c (peer 4 c) f, rows_src_peer_0 c]
omit [FloatOps F] in
/-- The partner's source rows of copy 1, handed over with its landing, are where my all-gather copy 16 lands on it. -/
theorem as_dst_1 (c : Dev nD) (f : Buf (Elt F) (accL (peer 3 c))) :
    (srcPts 1 (partner 1 c) f : sProp 𝕄) = dstPts 16 c (partner 16 c) f := by
  show (((accM.slice (Rect.unit (s := S512x1024) (k0_off2 (peer 3 c)) S64x1024.size (k0_off2_inb (peer 3 c))) (fun _ => rfl)).view.loc ((peer 3 c : Dev nD) : Thread nD τ) ↦[(accM.slice (Rect.unit (s := S512x1024) (k0_off2 (peer 3 c)) S64x1024.size (k0_off2_inb (peer 3 c))) (fun _ => rfl)).view.set]{fullShare} f) : sProp 𝕄)
      = ((accM.slice (Rect.unit (s := S512x1024) (k0_off23 c) S64x1024.size (k0_off23_inb c)) (fun _ => rfl)).view.loc ((peer 3 c : Dev nD) : Thread nD τ) ↦[(accM.slice (Rect.unit (s := S512x1024) (k0_off23 c) S64x1024.size (k0_off23_inb c)) (fun _ => rfl)).view.set]{fullShare} f)
  rw [src_pts_1 (peer 3 c) f, dst_pts_16 c (peer 3 c) f, rows_src_peer_1 c]
omit [FloatOps F] in
/-- The partner's source rows of copy 2, handed over with its landing, are where my all-gather copy 17 lands on it. -/
theorem as_dst_2 (c : Dev nD) (f : Buf (Elt F) (accL (peer 1 c))) :
    (srcPts 2 (partner 2 c) f : sProp 𝕄) = dstPts 17 c (partner 17 c) f := by
  show (((accM.slice (Rect.unit (s := S512x1024) (k0_off3 (peer 1 c)) S64x1024.size (k0_off3_inb (peer 1 c))) (fun _ => rfl)).view.loc ((peer 1 c : Dev nD) : Thread nD τ) ↦[(accM.slice (Rect.unit (s := S512x1024) (k0_off3 (peer 1 c)) S64x1024.size (k0_off3_inb (peer 1 c))) (fun _ => rfl)).view.set]{fullShare} f) : sProp 𝕄)
      = ((accM.slice (Rect.unit (s := S512x1024) (k0_off24 c) S64x1024.size (k0_off24_inb c)) (fun _ => rfl)).view.loc ((peer 1 c : Dev nD) : Thread nD τ) ↦[(accM.slice (Rect.unit (s := S512x1024) (k0_off24 c) S64x1024.size (k0_off24_inb c)) (fun _ => rfl)).view.set]{fullShare} f)
  rw [src_pts_2 (peer 1 c) f, dst_pts_17 c (peer 1 c) f, rows_src_peer_2 c]
omit [FloatOps F] in
/-- The partner's source rows of copy 3, handed over with its landing, are where my all-gather copy 12 lands on it. -/
theorem as_dst_3 (c : Dev nD) (f : Buf (Elt F) (accL (peer 3 c))) :
    (srcPts 3 (partner 3 c) f : sProp 𝕄) = dstPts 12 c (partner 12 c) f := by
  show (((accM.slice (Rect.unit (s := S512x1024) (k0_off5 (peer 3 c)) S64x1024.size (k0_off5_inb (peer 3 c))) (fun _ => rfl)).view.loc ((peer 3 c : Dev nD) : Thread nD τ) ↦[(accM.slice (Rect.unit (s := S512x1024) (k0_off5 (peer 3 c)) S64x1024.size (k0_off5_inb (peer 3 c))) (fun _ => rfl)).view.set]{fullShare} f) : sProp 𝕄)
      = ((accM.slice (Rect.unit (s := S512x1024) (k0_off19 c) S64x1024.size (k0_off19_inb c)) (fun _ => rfl)).view.loc ((peer 3 c : Dev nD) : Thread nD τ) ↦[(accM.slice (Rect.unit (s := S512x1024) (k0_off19 c) S64x1024.size (k0_off19_inb c)) (fun _ => rfl)).view.set]{fullShare} f)
  rw [src_pts_3 (peer 3 c) f, dst_pts_12 c (peer 3 c) f, rows_src_peer_3 c]
omit [FloatOps F] in
/-- The partner's source rows of copy 4, handed over with its landing, are where my all-gather copy 13 lands on it. -/
theorem as_dst_4 (c : Dev nD) (f : Buf (Elt F) (accL (peer 1 c))) :
    (srcPts 4 (partner 4 c) f : sProp 𝕄) = dstPts 13 c (partner 13 c) f := by
  show (((accM.slice (Rect.unit (s := S512x1024) (k0_off7 (peer 1 c)) S32x1024.size (k0_off7_inb (peer 1 c))) (fun _ => rfl)).view.loc ((peer 1 c : Dev nD) : Thread nD τ) ↦[(accM.slice (Rect.unit (s := S512x1024) (k0_off7 (peer 1 c)) S32x1024.size (k0_off7_inb (peer 1 c))) (fun _ => rfl)).view.set]{fullShare} f) : sProp 𝕄)
      = ((accM.slice (Rect.unit (s := S512x1024) (k0_off20 c) S32x1024.size (k0_off20_inb c)) (fun _ => rfl)).view.loc ((peer 1 c : Dev nD) : Thread nD τ) ↦[(accM.slice (Rect.unit (s := S512x1024) (k0_off20 c) S32x1024.size (k0_off20_inb c)) (fun _ => rfl)).view.set]{fullShare} f)
  rw [src_pts_4 (peer 1 c) f, dst_pts_13 c (peer 1 c) f, rows_src_peer_4 c]
omit [FloatOps F] in
/-- The partner's source rows of copy 5, handed over with its landing, are where my all-gather copy 14 lands on it. -/
theorem as_dst_5 (c : Dev nD) (f : Buf (Elt F) (accL (peer 4 c))) :
    (srcPts 5 (partner 5 c) f : sProp 𝕄) = dstPts 14 c (partner 14 c) f := by
  show (((accM.slice (Rect.unit (s := S512x1024) (k0_off9 (peer 4 c)) S32x1024.size (k0_off9_inb (peer 4 c))) (fun _ => rfl)).view.loc ((peer 4 c : Dev nD) : Thread nD τ) ↦[(accM.slice (Rect.unit (s := S512x1024) (k0_off9 (peer 4 c)) S32x1024.size (k0_off9_inb (peer 4 c))) (fun _ => rfl)).view.set]{fullShare} f) : sProp 𝕄)
      = ((accM.slice (Rect.unit (s := S512x1024) (k0_off21 c) S32x1024.size (k0_off21_inb c)) (fun _ => rfl)).view.loc ((peer 4 c : Dev nD) : Thread nD τ) ↦[(accM.slice (Rect.unit (s := S512x1024) (k0_off21 c) S32x1024.size (k0_off21_inb c)) (fun _ => rfl)).view.set]{fullShare} f)
  rw [src_pts_5 (peer 4 c) f, dst_pts_14 c (peer 4 c) f, rows_src_peer_5 c]
omit [FloatOps F] in
/-- The partner's source rows of copy 6, handed over with its landing, are where my all-gather copy 9 lands on it. -/
theorem as_dst_6 (c : Dev nD) (f : Buf (Elt F) (accL (peer 1 c))) :
    (srcPts 6 (partner 6 c) f : sProp 𝕄) = dstPts 9 c (partner 9 c) f := by
  show (((accM.slice (Rect.unit (s := S512x1024) (k0_off11 (peer 1 c) 0#32 32#32) S32x1024.size (k0_off11_inb (peer 1 c) 0)) (fun _ => rfl)).view.loc ((peer 1 c : Dev nD) : Thread nD τ) ↦[(accM.slice (Rect.unit (s := S512x1024) (k0_off11 (peer 1 c) 0#32 32#32) S32x1024.size (k0_off11_inb (peer 1 c) 0)) (fun _ => rfl)).view.set]{fullShare} f) : sProp 𝕄)
      = ((accM.slice (Rect.unit (s := S512x1024) (k0_off11 c 32#32 0#32) S32x1024.size (k0_off11_inb c 1)) (fun _ => rfl)).view.loc ((peer 1 c : Dev nD) : Thread nD τ) ↦[(accM.slice (Rect.unit (s := S512x1024) (k0_off11 c 32#32 0#32) S32x1024.size (k0_off11_inb c 1)) (fun _ => rfl)).view.set]{fullShare} f)
  rw [src_pts_6 (peer 1 c) f, dst_pts_9 c (peer 1 c) f, rows_src_peer_6 c]
omit [FloatOps F] in
/-- The partner's source rows of copy 7, handed over with its landing, are where my all-gather copy 10 lands on it. -/
theorem as_dst_7 (c : Dev nD) (f : Buf (Elt F) (accL (peer 4 c))) :
    (srcPts 7 (partner 7 c) f : sProp 𝕄) = dstPts 10 c (partner 10 c) f := by
  show (((accM.slice (Rect.unit (s := S512x1024) (k0_off13 (peer 4 c) 0#32 16#32) S16x1024.size (k0_off13_inb (peer 4 c) 0)) (fun _ => rfl)).view.loc ((peer 4 c : Dev nD) : Thread nD τ) ↦[(accM.slice (Rect.unit (s := S512x1024) (k0_off13 (peer 4 c) 0#32 16#32) S16x1024.size (k0_off13_inb (peer 4 c) 0)) (fun _ => rfl)).view.set]{fullShare} f) : sProp 𝕄)
      = ((accM.slice (Rect.unit (s := S512x1024) (k0_off13 c 16#32 0#32) S16x1024.size (k0_off13_inb c 1)) (fun _ => rfl)).view.loc ((peer 4 c : Dev nD) : Thread nD τ) ↦[(accM.slice (Rect.unit (s := S512x1024) (k0_off13 c 16#32 0#32) S16x1024.size (k0_off13_inb c 1)) (fun _ => rfl)).view.set]{fullShare} f)
  rw [src_pts_7 (peer 4 c) f, dst_pts_10 c (peer 4 c) f, rows_src_peer_7 c]
omit [FloatOps F] in
/-- The partner's source rows of copy 8, handed over with its landing, are where my all-gather copy 11 lands on it. -/
theorem as_dst_8 (c : Dev nD) (f : Buf (Elt F) (accL (peer 3 c))) :
    (srcPts 8 (partner 8 c) f : sProp 𝕄) = dstPts 11 c (partner 11 c) f := by
  show (((accM.slice (Rect.unit (s := S512x1024) (k0_off15 (peer 3 c) 0#32 16#32) S16x1024.size (k0_off15_inb (peer 3 c) 0)) (fun _ => rfl)).view.loc ((peer 3 c : Dev nD) : Thread nD τ) ↦[(accM.slice (Rect.unit (s := S512x1024) (k0_off15 (peer 3 c) 0#32 16#32) S16x1024.size (k0_off15_inb (peer 3 c) 0)) (fun _ => rfl)).view.set]{fullShare} f) : sProp 𝕄)
      = ((accM.slice (Rect.unit (s := S512x1024) (k0_off15 c 16#32 0#32) S16x1024.size (k0_off15_inb c 1)) (fun _ => rfl)).view.loc ((peer 3 c : Dev nD) : Thread nD τ) ↦[(accM.slice (Rect.unit (s := S512x1024) (k0_off15 c 16#32 0#32) S16x1024.size (k0_off15_inb c 1)) (fun _ => rfl)).view.set]{fullShare} f)
  rw [src_pts_8 (peer 3 c) f, dst_pts_11 c (peer 3 c) f, rows_src_peer_8 c]
omit [FloatOps F] in
theorem mine_norm_9 (c : Dev nD) (f : Buf (Elt F) (accL c)) :
    (srcPts 9 c f : sProp 𝕄) = (accL c ↦[rowSet 512 (srcRow 9 c) 32]{fullShare} f) := src_pts_9 c f
omit [FloatOps F] in
theorem recv_norm_9 (c : Dev nD) (f : Buf (Elt F) (accL c)) :
    (dstPts 9 (partner 9 c) c f : sProp 𝕄) = (accL c ↦[rowSet 512 (srcRow 9 (peer 1 c)) 32]{fullShare} f) := dst_pts_9 (peer 1 c) c f
omit [FloatOps F] in
theorem mine_norm_10 (c : Dev nD) (f : Buf (Elt F) (accL c)) :
    (srcPts 10 c f : sProp 𝕄) = (accL c ↦[rowSet 512 (srcRow 10 c) 16]{fullShare} f) := src_pts_10 c f
omit [FloatOps F] in
theorem recv_norm_10 (c : Dev nD) (f : Buf (Elt F) (accL c)) :
    (dstPts 10 (partner 10 c) c f : sProp 𝕄) = (accL c ↦[rowSet 512 (srcRow 10 (peer 4 c)) 16]{fullShare} f) := dst_pts_10 (peer 4 c) c f
omit [FloatOps F] in
theorem mine_norm_11 (c : Dev nD) (f : Buf (Elt F) (accL c)) :
    (srcPts 11 c f : sProp 𝕄) = (accL c ↦[rowSet 512 (srcRow 11 c) 16]{fullShare} f) := src_pts_11 c f
omit [FloatOps F] in
theorem recv_norm_11 (c : Dev nD) (f : Buf (Elt F) (accL c)) :
    (dstPts 11 (partner 11 c) c f : sProp 𝕄) = (accL c ↦[rowSet 512 (srcRow 11 (peer 3 c)) 16]{fullShare} f) := dst_pts_11 (peer 3 c) c f
omit [FloatOps F] in
theorem mine_norm_12 (c : Dev nD) (f : Buf (Elt F) (accL c)) :
    (srcPts 12 c f : sProp 𝕄) = (accL c ↦[rowSet 512 (srcRow 12 c) 64]{fullShare} f) := src_pts_12 c f
omit [FloatOps F] in
theorem recv_norm_12 (c : Dev nD) (f : Buf (Elt F) (accL c)) :
    (dstPts 12 (partner 12 c) c f : sProp 𝕄) = (accL c ↦[rowSet 512 (srcRow 12 (peer 3 c)) 64]{fullShare} f) := dst_pts_12 (peer 3 c) c f
omit [FloatOps F] in
theorem mine_norm_13 (c : Dev nD) (f : Buf (Elt F) (accL c)) :
    (srcPts 13 c f : sProp 𝕄) = (accL c ↦[rowSet 512 (srcRow 13 c) 32]{fullShare} f) := src_pts_13 c f
omit [FloatOps F] in
theorem recv_norm_13 (c : Dev nD) (f : Buf (Elt F) (accL c)) :
    (dstPts 13 (partner 13 c) c f : sProp 𝕄) = (accL c ↦[rowSet 512 (srcRow 13 (peer 1 c)) 32]{fullShare} f) := dst_pts_13 (peer 1 c) c f
omit [FloatOps F] in
theorem mine_norm_14 (c : Dev nD) (f : Buf (Elt F) (accL c)) :
    (srcPts 14 c f : sProp 𝕄) = (accL c ↦[rowSet 512 (srcRow 14 c) 32]{fullShare} f) := src_pts_14 c f
omit [FloatOps F] in
theorem recv_norm_14 (c : Dev nD) (f : Buf (Elt F) (accL c)) :
    (dstPts 14 (partner 14 c) c f : sProp 𝕄) = (accL c ↦[rowSet 512 (srcRow 14 (peer 4 c)) 32]{fullShare} f) := dst_pts_14 (peer 4 c) c f
omit [FloatOps F] in
theorem mine_norm_15 (c : Dev nD) (f : Buf (Elt F) (accL c)) :
    (srcPts 15 c f : sProp 𝕄) = (accL c ↦[rowSet 512 (srcRow 15 c) 128]{fullShare} f) := src_pts_15 c f
omit [FloatOps F] in
theorem recv_norm_15 (c : Dev nD) (f : Buf (Elt F) (accL c)) :
    (dstPts 15 (partner 15 c) c f : sProp 𝕄) = (accL c ↦[rowSet 512 (srcRow 15 (peer 4 c)) 128]{fullShare} f) := dst_pts_15 (peer 4 c) c f
omit [FloatOps F] in
theorem mine_norm_16 (c : Dev nD) (f : Buf (Elt F) (accL c)) :
    (srcPts 16 c f : sProp 𝕄) = (accL c ↦[rowSet 512 (srcRow 16 c) 64]{fullShare} f) := src_pts_16 c f
omit [FloatOps F] in
theorem recv_norm_16 (c : Dev nD) (f : Buf (Elt F) (accL c)) :
    (dstPts 16 (partner 16 c) c f : sProp 𝕄) = (accL c ↦[rowSet 512 (srcRow 16 (peer 3 c)) 64]{fullShare} f) := dst_pts_16 (peer 3 c) c f
omit [FloatOps F] in
theorem mine_norm_17 (c : Dev nD) (f : Buf (Elt F) (accL c)) :
    (srcPts 17 c f : sProp 𝕄) = (accL c ↦[rowSet 512 (srcRow 17 c) 64]{fullShare} f) := src_pts_17 c f
omit [FloatOps F] in
theorem recv_norm_17 (c : Dev nD) (f : Buf (Elt F) (accL c)) :
    (dstPts 17 (partner 17 c) c f : sProp 𝕄) = (accL c ↦[rowSet 512 (srcRow 17 (peer 1 c)) 64]{fullShare} f) := dst_pts_17 (peer 1 c) c f

/-- With nothing left owing, the proof data's word after the point. -/
theorem owesAt_done (c : Dev nD) (W : Waits sig Unit) :
    (owes (c : Thread nD τ) (0 : CellTallies nD τ sig Unit) W : sProp 𝕄) ⊢ (dats m ρ P 0 c).owesAt () t0_0.succ := by
  unfold Dat.owesAt Pipeline.owesWithin
  rw [show (dats m ρ P 0 c).owed t0_0.succ = 0 from rfl]
  iintro H
  iexists W
  isplitr; · (ipureintro; exact fun _ _ => Or.inl trivial)
  iexact H

omit [FloatOps F] in
/-- A whole buffer held through its view at contents that are `X`. -/
theorem stg_of_held (c : Dev nD) (b : Ref sig .tc) (f : Buf (Elt F) ((c : Thread nD τ).loc b)) (X : b.ty.Contents (Elt F)) (h : f = X) :
    (held c b f : sProp 𝕄) ⊢ stg c b X := by
  subst h
  iintro H
  iexists f
  isplitr; · (ipureintro; rfl)
  iapply (Entails.of_eq (held_eq c b f).symm)
  iexact H

/-- The handshake signal, the addressee as the program names it. -/
theorem wp_hand' {α : Type} {Q : α → sProp (MT nD τ sig Unit (Elt F) ℕ UU ℕ)} (c : Dev nD) (d : Fin 3) (n n' : Dev nD) (hn : n = n')
    {k' : ℕ} (hk' : 1 = k') {k : PUnit → Prog (TpuEff nD τ sig (Elt F) Λ₀ .tc) α} {κ : ℕ}
    {O₀ : CellTallies nD τ sig Unit} (O : CellTallies nD τ sig Unit) (hO : O₀ = O + tallyAt (barCell n') () k') {W : Waits sig Unit} :
    iprop(cellInv ER (rd P) κ (barCell n') ∗ owes (c : Thread nD τ) O₀ W ∗ dutyTok ER (barCell n') 0 d
        ∗ barPay d n' ∗ reached ER (barCell n') 0)
      ⊢ iprop((owes (c : Thread nD τ) O W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal ((n : Dev nD) : Thread nD τ) barS k') k) Q) := by
  subst hn; exact wp_hand P c d n hk' O hO

set_option maxHeartbeats 3200000 in
theorem sound_body (c : Dev nD) (hP : P = Pc m) (Kt : PUnit → sProp 𝕄) :
    iprop(bodyPre m ρ P c ∗ (bodyPost m ρ P c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _) (Memref.whole cc0_stg2_0) (Memref.isWhole_whole _)
            (Memref.whole cc0_stg3_0) (Memref.isWhole_whole _) (Memref.whole cc0_stg4_0) (Memref.isWhole_whole _) (Memref.whole cc0_stg5_0) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) cc0_scratch4 cc0_scratch5) Kt := by
  have hPc : ∀ d : Dev nD, Pc m d = P d := fun d => by rw [hP]
  unfold bodyPre Φ₀ start scratch credits
  iintro ⟨⟨⟨⟨⟨%K, Hg⟩, ⟨HcB, HcR⟩, #Hlev⟩, ⟨%a0, Hacc⟩, ⟨%a1, Hc0⟩, ⟨%a2, Hc1⟩, ⟨%a3, Hc2⟩⟩, Ho, ⟨%d0, %g0, %hg0, Hx⟩, ⟨%d1, %g1, %hg1, Hwq⟩, ⟨%d2, %g2, %hg2, Hwk⟩, ⟨%d3, %g3, %hg3, Hwv⟩, ⟨%d4, %g4, %hg4, Hwo⟩, ⟨%d5, %g5, %hg5, Hout⟩⟩, Hk⟩
  unfold Dat.owesAt Pipeline.owesWithin
  icases Ho with ⟨%Wt, %hWt, HO⟩
  rw [show (dats m ρ P 0 c).owed t0_0.castSucc = O₀ c from rfl]
  have hg0' : g0 = iblk m c (0 : Fin 6) t0_0 := hg0.trans (before_0 m ρ P c d0)
  have hg1' : g1 = iblk m c (1 : Fin 6) t0_0 := hg1.trans (before_1 m ρ P c d1)
  have hg2' : g2 = iblk m c (2 : Fin 6) t0_0 := hg2.trans (before_2 m ρ P c d2)
  have hg3' : g3 = iblk m c (3 : Fin 6) t0_0 := hg3.trans (before_3 m ρ P c d3)
  have hg4' : g4 = iblk m c (4 : Fin 6) t0_0 := hg4.trans (before_4 m ρ P c d4)
  sl_unfold [cc0_body]
  unfold ghost records linear payToks
  icases Hg with ⟨⟨#HI, #HR⟩, Hat, HtB, HtR, HtS⟩
  -- the device's positions, tokens and credits, one by one
  ihave Hat' := (Entails.of_eq (bigSep_cellsOf c fun g => (atPos ER g 0 ∅ 0 : sProp 𝕄))) $$ Hat
  icases Hat' with ⟨HaB, HaS, HaR⟩
  ihave HaS' := (Entails.of_eq (bigSep_fin18 _)) $$ HaS
  icases HaS' with ⟨HaS0, HaS1, HaS2, HaS3, HaS4, HaS5, HaS6, HaS7, HaS8, HaS9, HaS10, HaS11, HaS12, HaS13, HaS14, HaS15, HaS16, HaS17⟩
  ihave HaR' := (Entails.of_eq (bigSep_fin18 _)) $$ HaR
  icases HaR' with ⟨HaR0, HaR1, HaR2, HaR3, HaR4, HaR5, HaR6, HaR7, HaR8, HaR9, HaR10, HaR11, HaR12, HaR13, HaR14, HaR15, HaR16, HaR17⟩
  ihave HtR' := (Entails.of_eq (bigSep_fin18 _)) $$ HtR
  icases HtR' with ⟨HtR0, HtR1, HtR2, HtR3, HtR4, HtR5, HtR6, HtR7, HtR8, HtR9, HtR10, HtR11, HtR12, HtR13, HtR14, HtR15, HtR16, HtR17⟩
  ihave HtS' := (Entails.of_eq (bigSep_fin18 _)) $$ HtS
  icases HtS' with ⟨HtS0, HtS1, HtS2, HtS3, HtS4, HtS5, HtS6, HtS7, HtS8, HtS9, HtS10, HtS11, HtS12, HtS13, HtS14, HtS15, HtS16, HtS17⟩
  ihave HcR' := (Entails.of_eq (bigSep_fin18 _)) $$ HcR
  icases HcR' with ⟨HcR0, HcR1, HcR2, HcR3, HcR4, HcR5, HcR6, HcR7, HcR8, HcR9, HcR10, HcR11, HcR12, HcR13, HcR14, HcR15, HcR16, HcR17⟩
  ihave HtB' := (Entails.of_eq (bigSep_fin3' _)) $$ HtB
  icases HtB' with ⟨HtB0, HtB1, HtB2⟩
  -- the landing buffers as slots: copy i's slot goes to the partner of copy i
  ihave Hs := (comm0_slots c (peer 4 c) (peer 3 c) (peer 1 c) a1).1 $$ Hc0
  icases Hs with ⟨Hsl0, Hsl1, Hsl2⟩
  ihave Hs := (comm1_slots c (peer 3 c) (peer 1 c) (peer 4 c) a2).1 $$ Hc1
  icases Hs with ⟨Hsl3, Hsl4, Hsl5⟩
  ihave Hs := (comm2_slots c (peer 1 c) (peer 4 c) (peer 3 c) a3).1 $$ Hc2
  icases Hs with ⟨Hsl6, Hsl7, Hsl8⟩
  -- the whole buffers, read through their views
  ihave Hp := (acc_parts c a0).1 $$ Hacc
  icases Hp with ⟨Hp0, Hp1, Hp2⟩
  ihave Hx' := (Entails.of_eq (held_eq c cc0_stg0_0 g0)) $$ Hx
  ihave Hwq' := (Entails.of_eq (held_eq c cc0_stg1_0 g1)) $$ Hwq
  ihave Hwk' := (Entails.of_eq (held_eq c cc0_stg2_0 g2)) $$ Hwk
  ihave Hwv' := (Entails.of_eq (held_eq c cc0_stg3_0 g3)) $$ Hwv
  ihave Hwo' := (Entails.of_eq (held_eq c cc0_stg4_0 g4)) $$ Hwo
  ihave Hout' := (Entails.of_eq (held_eq c cc0_stg5_0 g5)) $$ Hout
  sl_exec
  -- the three handshake signals: across 1 (slots of copies 2, 4, 6), across 3 (1, 3, 8), across 4 (0, 5, 7)
  iapply (wp_hand' P c 0 _ (peer 1 c) (dev1_eq c) rfl (O₁ c) rfl) $$ [HO HtB0 Hsl2 Hsl4 Hsl6]
  · isplitr; · iapply (inv_bar P K (peer 1 c)); iexact HI
    isplitl [HO]; · iexact HO
    isplitl [HtB0]; · iexact HtB0
    isplitl [Hsl2 Hsl4 Hsl6]
    · unfold barPay
      rw [show peer (barMask 0) (peer 1 c) = c from peer_peer1 c]
      isplitl [Hsl2]; · iexists a1; iexact Hsl2
      isplitl [Hsl4]; · iexists a2; iexact Hsl4
      iexists a3; iexact Hsl6
    · iapply (reached_bar (F := F) (peer 1 c)); iexact HR
  iintro HO
  sl_exec
  iapply (wp_hand' P c 1 _ (peer 3 c) (dev2_eq c) rfl (O₂ c) rfl) $$ [HO HtB1 Hsl1 Hsl3 Hsl8]
  · isplitr; · iapply (inv_bar P K (peer 3 c)); iexact HI
    isplitl [HO]; · iexact HO
    isplitl [HtB1]; · iexact HtB1
    isplitl [Hsl1 Hsl3 Hsl8]
    · unfold barPay
      rw [show peer (barMask 1) (peer 3 c) = c from peer_peer3 c]
      isplitl [Hsl1]; · iexists a1; iexact Hsl1
      isplitl [Hsl3]; · iexists a2; iexact Hsl3
      iexists a3; iexact Hsl8
    · iapply (reached_bar (F := F) (peer 3 c)); iexact HR
  iintro HO
  sl_exec
  iapply (wp_hand' P c 2 _ (peer 4 c) (dev3_eq c) rfl (owedFrom 0 c) rfl) $$ [HO HtB2 Hsl0 Hsl5 Hsl7]
  · isplitr; · iapply (inv_bar P K (peer 4 c)); iexact HI
    isplitl [HO]; · iexact HO
    isplitl [HtB2]; · iexact HtB2
    isplitl [Hsl0 Hsl5 Hsl7]
    · unfold barPay
      rw [show peer (barMask 2) (peer 4 c) = c from peer_peer4 c]
      isplitl [Hsl0]; · iexists a1; iexact Hsl0
      isplitl [Hsl5]; · iexists a2; iexact Hsl5
      iexists a3; iexact Hsl7
    · iapply (reached_bar (F := F) (peer 4 c)); iexact HR
  iintro HO
  sl_exec
  -- the handshake wait: the three partners' nine slots
  iapply (wp_handwait P c rfl) $$ [HcB HO HaB]
  · isplitr; · iapply (inv_bar P K c); iexact HI
    isplitl [HcB]; · iexact HcB
    isplitl [HO]; · iexact HO
    isplitr; · iapply (mayWait_from c (.reg barS) 0 (by rw [lv_bar]; decide)); iexact Hlev
    iexact HaB
  iintro ⟨HO, HaB, #HrB1, Hp0, Hp1, Hp2⟩
  unfold barPay
  icases Hp0 with ⟨⟨%e2, Hd2⟩, ⟨%e4, Hd4⟩, ⟨%e6, Hd6⟩⟩
  icases Hp1 with ⟨⟨%e1, Hd1⟩, ⟨%e3, Hd3⟩, ⟨%e8, Hd8⟩⟩
  icases Hp2 with ⟨⟨%e0, Hd0⟩, ⟨%e5, Hd5⟩, ⟨%e7, Hd7⟩⟩
  sl_exec
  -- copy 0: part 0's rows cut into the rows sent and the rows kept
  have hS0 : (accM.slice (Rect.unit (s := S512x1024) ![0, 0] S256x1024.size inb_S512x1024_S256x1024_0_0) (fun _ => rfl)).view.read (Elt F) (sound_body.sl.Hp0_w1 c a0 g0 g1 g2 g3 g4) = (accM.slice (Rect.unit (s := S512x1024) ![0, 0] S256x1024.size inb_S512x1024_S256x1024_0_0) (fun _ => rfl)).view.read (Elt F) (P c) :=
    (store_val_0 m c a0 g0 g1 g2 g3 g4 hg0' hg1' hg2' hg3' hg4').trans (congrArg ((accM.slice (Rect.unit (s := S512x1024) ![0, 0] S256x1024.size inb_S512x1024_S256x1024_0_0) (fun _ => rfl)).view.read (Elt F)) (hPc c))
  have hv0 := read_sub_of_read cc0_scratch0 _ _ (src_sub_0 c) _ _ hS0
  have hK0 := read_sub_of_read cc0_scratch0 _ _ (keep_sub_0 c) _ _ hS0
  ihave H := (Entails.of_eq (part_pts_0 c _)) $$ Hp0
  ihave H := (acc_halve c _ (halves_0 c)).1 $$ H
  icases H with ⟨Hs, Hk⟩
  ihave Hs0 := (Entails.of_eq (src_pts_0 c _).symm) $$ Hs
  ihave Hk0 := (Entails.of_eq (keep_pts_0 c _).symm) $$ Hk
  iapply (wp_copyRS P c 0 (by decide) _ (dev4_eq c) _ e0 hv0 (owedFrom 1 c) (owedFrom_succ 0 c)) $$ [Hs0 Hd0 HO HtS0 HtR0]
  · isplitr; · iapply (inv_send P K 0 c); iexact HI
    isplitr; · iapply (inv_recv P K 0 (partner 0 c)); iexact HI
    isplitl [Hs0]; · iexact Hs0
    isplitl [Hd0]; · iexact Hd0
    isplitl [HO]; · iexact HO
    isplitl [HtS0]; · iexact HtS0
    isplitr; · iapply (reached_send (F := F) 0 c); iexact HR
    isplitl [HtR0]; · iexact HtR0
    iapply (reached_recv (F := F) 0 (partner 0 c)); iexact HR
  iintro ⟨HcS0, HO⟩
  sl_exec
  -- copy 1
  have hS1 : (accM.slice (Rect.unit (s := S512x1024) ![256, 0] S128x1024.size inb_S512x1024_S128x1024_256_0) (fun _ => rfl)).view.read (Elt F) (sound_body.sl.Hp1_w1 c a0 g0 g1 g2 g3 g4) = (accM.slice (Rect.unit (s := S512x1024) ![256, 0] S128x1024.size inb_S512x1024_S128x1024_256_0) (fun _ => rfl)).view.read (Elt F) (P c) :=
    (store_val_1 m c a0 g0 g1 g2 g3 g4 hg0' hg1' hg2' hg3' hg4').trans (congrArg ((accM.slice (Rect.unit (s := S512x1024) ![256, 0] S128x1024.size inb_S512x1024_S128x1024_256_0) (fun _ => rfl)).view.read (Elt F)) (hPc c))
  have hv1 := read_sub_of_read cc0_scratch0 _ _ (src_sub_1 c) _ _ hS1
  have hK1 := read_sub_of_read cc0_scratch0 _ _ (keep_sub_1 c) _ _ hS1
  ihave H := (Entails.of_eq (part_pts_1 c _)) $$ Hp1
  ihave H := (acc_halve c _ (halves_1 c)).1 $$ H
  icases H with ⟨Hs, Hk⟩
  ihave Hs1 := (Entails.of_eq (src_pts_1 c _).symm) $$ Hs
  ihave Hk1 := (Entails.of_eq (keep_pts_1 c _).symm) $$ Hk
  iapply (wp_copyRS P c 1 (by decide) _ (dev5_eq c) _ e1 hv1 (owedFrom 2 c) (owedFrom_succ 1 c)) $$ [Hs1 Hd1 HO HtS1 HtR1]
  · isplitr; · iapply (inv_send P K 1 c); iexact HI
    isplitr; · iapply (inv_recv P K 1 (partner 1 c)); iexact HI
    isplitl [Hs1]; · iexact Hs1
    isplitl [Hd1]; · iexact Hd1
    isplitl [HO]; · iexact HO
    isplitl [HtS1]; · iexact HtS1
    isplitr; · iapply (reached_send (F := F) 1 c); iexact HR
    isplitl [HtR1]; · iexact HtR1
    iapply (reached_recv (F := F) 1 (partner 1 c)); iexact HR
  iintro ⟨HcS1, HO⟩
  sl_exec
  -- copy 2
  have hS2 : (accM.slice (Rect.unit (s := S512x1024) ![384, 0] S128x1024.size inb_S512x1024_S128x1024_384_0) (fun _ => rfl)).view.read (Elt F) (sound_body.sl.Hp2_w1 c a0 g0 g1 g2 g3 g4) = (accM.slice (Rect.unit (s := S512x1024) ![384, 0] S128x1024.size inb_S512x1024_S128x1024_384_0) (fun _ => rfl)).view.read (Elt F) (P c) :=
    (store_val_2 m c a0 g0 g1 g2 g3 g4 hg0' hg1' hg2' hg3' hg4').trans (congrArg ((accM.slice (Rect.unit (s := S512x1024) ![384, 0] S128x1024.size inb_S512x1024_S128x1024_384_0) (fun _ => rfl)).view.read (Elt F)) (hPc c))
  have hv2 := read_sub_of_read cc0_scratch0 _ _ (src_sub_2 c) _ _ hS2
  have hK2 := read_sub_of_read cc0_scratch0 _ _ (keep_sub_2 c) _ _ hS2
  ihave H := (Entails.of_eq (part_pts_2 c _)) $$ Hp2
  ihave H := (acc_halve c _ (halves_2 c)).1 $$ H
  icases H with ⟨Hs, Hk⟩
  ihave Hs2 := (Entails.of_eq (src_pts_2 c _).symm) $$ Hs
  ihave Hk2 := (Entails.of_eq (keep_pts_2 c _).symm) $$ Hk
  iapply (wp_copyRS P c 2 (by decide) _ (dev6_eq c) _ e2 hv2 (owedFrom 3 c) (owedFrom_succ 2 c)) $$ [Hs2 Hd2 HO HtS2 HtR2]
  · isplitr; · iapply (inv_send P K 2 c); iexact HI
    isplitr; · iapply (inv_recv P K 2 (partner 2 c)); iexact HI
    isplitl [Hs2]; · iexact Hs2
    isplitl [Hd2]; · iexact Hd2
    isplitl [HO]; · iexact HO
    isplitl [HtS2]; · iexact HtS2
    isplitr; · iapply (reached_send (F := F) 2 c); iexact HR
    isplitl [HtR2]; · iexact HtR2
    iapply (reached_recv (F := F) 2 (partner 2 c)); iexact HR
  iintro ⟨HcS2, HO⟩
  sl_exec
  -- copy 0 is waited for, its landing added in, and the kept rows cut for copy 3
  iapply (wp_sendwait P c 0 (credit_src 0 c)) $$ [HcS0 HO HaS0]
  · isplitr; · iapply (inv_send P K 0 c); iexact HI
    isplitl [HcS0]; · iexact HcS0
    isplitl [HO]; · iexact HO
    isplitr; · iapply (mayWait_from c (.dma (sendS 0)) 3 (by rw [lv_send]; omega)); iexact Hlev
    iexact HaS0
  iintro ⟨HO, HaS0, #HrS0, -⟩
  sl_exec
  iapply (wp_recvwait P c 0 (credit_dst 0 c (recvS 0))) $$ [HcR0 HO HaR0]
  · isplitr; · iapply (inv_recv P K 0 c); iexact HI
    isplitl [HcR0]; · iexact HcR0
    isplitl [HO]; · iexact HO
    isplitr; · iapply (mayWait_from c (.dma (recvS 0)) 3 (by rw [lv_recv]; show (0 : ℕ) + 2 < 3 + 2; omega)); iexact Hlev
    iexact HaR0
  iintro ⟨HO, HaR0, #HrR0, HpR0⟩
  ihave Hp := (Entails.of_eq (recvPay_rs P c 0 (by decide))) $$ HpR0
  unfold dstAt srcAt
  icases Hp with ⟨⟨%fl0, %hfl0, Hl0⟩, ⟨%fp0, %hfp0, Hq0⟩⟩
  ihave Hl0' := (Entails.of_eq (slot_pts_0 c _ fl0)) $$ Hl0
  sl_exec
  have hA0 : (accM.slice (Rect.unit (s := S512x1024) (k0_off4 c) S128x1024.size (k0_off4_inb c)) (fun _ => rfl)).view.read (Elt F) (sound_body.sl.Hk0_w1 c a0 g0 g1 g2 g3 g4 fl0) = (accM.slice (Rect.unit (s := S512x1024) (k0_off4 c) S128x1024.size (k0_off4_inb c)) (fun _ => rfl)).view.read (Elt F) (W P (0 + 1) c) :=
    add_val_0 P c _ fl0 hK0 hfl0
  have hv3 := read_sub_of_read cc0_scratch0 _ _ (src_sub_3 c) _ _ hA0
  have hK3 := read_sub_of_read cc0_scratch0 _ _ (keep_sub_3 c) _ _ hA0
  ihave H := (Entails.of_eq (keep_pts_0 c _)) $$ Hk0
  ihave H := (acc_halve c _ (halves_3 c)).1 $$ H
  icases H with ⟨Hs, Hk⟩
  ihave Hs3 := (Entails.of_eq (src_pts_3 c _).symm) $$ Hs
  ihave Hk3 := (Entails.of_eq (keep_pts_3 c _).symm) $$ Hk
  iapply (wp_copyRS P c 3 (by decide) _ (dev7_eq c) _ e3 hv3 (owedFrom 4 c) (owedFrom_succ 3 c)) $$ [Hs3 Hd3 HO HtS3 HtR3]
  · isplitr; · iapply (inv_send P K 3 c); iexact HI
    isplitr; · iapply (inv_recv P K 3 (partner 3 c)); iexact HI
    isplitl [Hs3]; · iexact Hs3
    isplitl [Hd3]; · iexact Hd3
    isplitl [HO]; · iexact HO
    isplitl [HtS3]; · iexact HtS3
    isplitr; · iapply (reached_send (F := F) 3 c); iexact HR
    isplitl [HtR3]; · iexact HtR3
    iapply (reached_recv (F := F) 3 (partner 3 c)); iexact HR
  iintro ⟨HcS3, HO⟩
  sl_exec
  -- copy 1 is waited for, its landing added in, and the kept rows cut for copy 4
  iapply (wp_sendwait P c 1 (credit_src 1 c)) $$ [HcS1 HO HaS1]
  · isplitr; · iapply (inv_send P K 1 c); iexact HI
    isplitl [HcS1]; · iexact HcS1
    isplitl [HO]; · iexact HO
    isplitr; · iapply (mayWait_from c (.dma (sendS 1)) 4 (by rw [lv_send]; omega)); iexact Hlev
    iexact HaS1
  iintro ⟨HO, HaS1, #HrS1, -⟩
  sl_exec
  iapply (wp_recvwait P c 1 (credit_dst 1 c (recvS 1))) $$ [HcR1 HO HaR1]
  · isplitr; · iapply (inv_recv P K 1 c); iexact HI
    isplitl [HcR1]; · iexact HcR1
    isplitl [HO]; · iexact HO
    isplitr; · iapply (mayWait_from c (.dma (recvS 1)) 4 (by rw [lv_recv]; show (1 : ℕ) + 2 < 4 + 2; omega)); iexact Hlev
    iexact HaR1
  iintro ⟨HO, HaR1, #HrR1, HpR1⟩
  ihave Hp := (Entails.of_eq (recvPay_rs P c 1 (by decide))) $$ HpR1
  unfold dstAt srcAt
  icases Hp with ⟨⟨%fl1, %hfl1, Hl1⟩, ⟨%fp1, %hfp1, Hq1⟩⟩
  ihave Hl1' := (Entails.of_eq (slot_pts_1 c _ fl1)) $$ Hl1
  sl_exec
  have hA1 : (accM.slice (Rect.unit (s := S512x1024) (k0_off6 c) S64x1024.size (k0_off6_inb c)) (fun _ => rfl)).view.read (Elt F) (sound_body.sl.Hk1_w1 c a0 g0 g1 g2 g3 g4 fl1) = (accM.slice (Rect.unit (s := S512x1024) (k0_off6 c) S64x1024.size (k0_off6_inb c)) (fun _ => rfl)).view.read (Elt F) (W P (0 + 1) c) :=
    add_val_1 P c _ fl1 hK1 hfl1
  have hv4 := read_sub_of_read cc0_scratch0 _ _ (src_sub_4 c) _ _ hA1
  have hK4 := read_sub_of_read cc0_scratch0 _ _ (keep_sub_4 c) _ _ hA1
  ihave H := (Entails.of_eq (keep_pts_1 c _)) $$ Hk1
  ihave H := (acc_halve c _ (halves_4 c)).1 $$ H
  icases H with ⟨Hs, Hk⟩
  ihave Hs4 := (Entails.of_eq (src_pts_4 c _).symm) $$ Hs
  ihave Hk4 := (Entails.of_eq (keep_pts_4 c _).symm) $$ Hk
  iapply (wp_copyRS P c 4 (by decide) _ (dev8_eq c) _ e4 hv4 (owedFrom 5 c) (owedFrom_succ 4 c)) $$ [Hs4 Hd4 HO HtS4 HtR4]
  · isplitr; · iapply (inv_send P K 4 c); iexact HI
    isplitr; · iapply (inv_recv P K 4 (partner 4 c)); iexact HI
    isplitl [Hs4]; · iexact Hs4
    isplitl [Hd4]; · iexact Hd4
    isplitl [HO]; · iexact HO
    isplitl [HtS4]; · iexact HtS4
    isplitr; · iapply (reached_send (F := F) 4 c); iexact HR
    isplitl [HtR4]; · iexact HtR4
    iapply (reached_recv (F := F) 4 (partner 4 c)); iexact HR
  iintro ⟨HcS4, HO⟩
  sl_exec
  -- copy 2 is waited for, its landing added in, and the kept rows cut for copy 5
  iapply (wp_sendwait P c 2 (credit_src 2 c)) $$ [HcS2 HO HaS2]
  · isplitr; · iapply (inv_send P K 2 c); iexact HI
    isplitl [HcS2]; · iexact HcS2
    isplitl [HO]; · iexact HO
    isplitr; · iapply (mayWait_from c (.dma (sendS 2)) 5 (by rw [lv_send]; omega)); iexact Hlev
    iexact HaS2
  iintro ⟨HO, HaS2, #HrS2, -⟩
  sl_exec
  iapply (wp_recvwait P c 2 (credit_dst 2 c (recvS 2))) $$ [HcR2 HO HaR2]
  · isplitr; · iapply (inv_recv P K 2 c); iexact HI
    isplitl [HcR2]; · iexact HcR2
    isplitl [HO]; · iexact HO
    isplitr; · iapply (mayWait_from c (.dma (recvS 2)) 5 (by rw [lv_recv]; show (2 : ℕ) + 2 < 5 + 2; omega)); iexact Hlev
    iexact HaR2
  iintro ⟨HO, HaR2, #HrR2, HpR2⟩
  ihave Hp := (Entails.of_eq (recvPay_rs P c 2 (by decide))) $$ HpR2
  unfold dstAt srcAt
  icases Hp with ⟨⟨%fl2, %hfl2, Hl2⟩, ⟨%fp2, %hfp2, Hq2⟩⟩
  ihave Hl2' := (Entails.of_eq (slot_pts_2 c _ fl2)) $$ Hl2
  sl_exec
  have hA2 : (accM.slice (Rect.unit (s := S512x1024) (k0_off8 c) S64x1024.size (k0_off8_inb c)) (fun _ => rfl)).view.read (Elt F) (sound_body.sl.Hk2_w1 c a0 g0 g1 g2 g3 g4 fl2) = (accM.slice (Rect.unit (s := S512x1024) (k0_off8 c) S64x1024.size (k0_off8_inb c)) (fun _ => rfl)).view.read (Elt F) (W P (0 + 1) c) :=
    add_val_2 P c _ fl2 hK2 hfl2
  have hv5 := read_sub_of_read cc0_scratch0 _ _ (src_sub_5 c) _ _ hA2
  have hK5 := read_sub_of_read cc0_scratch0 _ _ (keep_sub_5 c) _ _ hA2
  ihave H := (Entails.of_eq (keep_pts_2 c _)) $$ Hk2
  ihave H := (acc_halve c _ (halves_5 c)).1 $$ H
  icases H with ⟨Hs, Hk⟩
  ihave Hs5 := (Entails.of_eq (src_pts_5 c _).symm) $$ Hs
  ihave Hk5 := (Entails.of_eq (keep_pts_5 c _).symm) $$ Hk
  iapply (wp_copyRS P c 5 (by decide) _ (dev9_eq c) _ e5 hv5 (owedFrom 6 c) (owedFrom_succ 5 c)) $$ [Hs5 Hd5 HO HtS5 HtR5]
  · isplitr; · iapply (inv_send P K 5 c); iexact HI
    isplitr; · iapply (inv_recv P K 5 (partner 5 c)); iexact HI
    isplitl [Hs5]; · iexact Hs5
    isplitl [Hd5]; · iexact Hd5
    isplitl [HO]; · iexact HO
    isplitl [HtS5]; · iexact HtS5
    isplitr; · iapply (reached_send (F := F) 5 c); iexact HR
    isplitl [HtR5]; · iexact HtR5
    iapply (reached_recv (F := F) 5 (partner 5 c)); iexact HR
  iintro ⟨HcS5, HO⟩
  sl_exec
  -- copy 3 is waited for, its landing added in, and the kept rows cut for copy 6
  iapply (wp_sendwait P c 3 (credit_src 3 c)) $$ [HcS3 HO HaS3]
  · isplitr; · iapply (inv_send P K 3 c); iexact HI
    isplitl [HcS3]; · iexact HcS3
    isplitl [HO]; · iexact HO
    isplitr; · iapply (mayWait_from c (.dma (sendS 3)) 6 (by rw [lv_send]; omega)); iexact Hlev
    iexact HaS3
  iintro ⟨HO, HaS3, #HrS3, -⟩
  sl_exec
  iapply (wp_recvwait P c 3 (credit_dst 3 c (recvS 3))) $$ [HcR3 HO HaR3]
  · isplitr; · iapply (inv_recv P K 3 c); iexact HI
    isplitl [HcR3]; · iexact HcR3
    isplitl [HO]; · iexact HO
    isplitr; · iapply (mayWait_from c (.dma (recvS 3)) 6 (by rw [lv_recv]; show (3 : ℕ) + 2 < 6 + 2; omega)); iexact Hlev
    iexact HaR3
  iintro ⟨HO, HaR3, #HrR3, HpR3⟩
  ihave Hp := (Entails.of_eq (recvPay_rs P c 3 (by decide))) $$ HpR3
  unfold dstAt srcAt
  icases Hp with ⟨⟨%fl3, %hfl3, Hl3⟩, ⟨%fp3, %hfp3, Hq3⟩⟩
  ihave Hl3' := (Entails.of_eq (slot_pts_3 c _ fl3)) $$ Hl3
  sl_exec
  have hA3 : (accM.slice (Rect.unit (s := S512x1024) (k0_off10 c) S64x1024.size (k0_off10_inb c)) (fun _ => rfl)).view.read (Elt F) (sound_body.sl.Hk3_w1 c a0 g0 g1 g2 g3 g4 fl0 fl3) = (accM.slice (Rect.unit (s := S512x1024) (k0_off10 c) S64x1024.size (k0_off10_inb c)) (fun _ => rfl)).view.read (Elt F) (W P (1 + 1) c) :=
    add_val_3 P c _ fl3 hK3 hfl3
  have hv6 := read_sub_of_read cc0_scratch0 _ _ (src_sub_6 c) _ _ hA3
  have hK6 := read_sub_of_read cc0_scratch0 _ _ (keep_sub_6 c) _ _ hA3
  ihave H := (Entails.of_eq (keep_pts_3 c _)) $$ Hk3
  ihave H := (acc_halve c _ (halves_6 c)).1 $$ H
  icases H with ⟨Hs, Hk⟩
  ihave Hs6 := (Entails.of_eq (src_pts_6 c _).symm) $$ Hs
  ihave Hk6 := (Entails.of_eq (keep_pts_6 c _).symm) $$ Hk
  iapply (wp_copyRS P c 6 (by decide) _ (dev10_eq c) _ e6 hv6 (owedFrom 7 c) (owedFrom_succ 6 c)) $$ [Hs6 Hd6 HO HtS6 HtR6]
  · isplitr; · iapply (inv_send P K 6 c); iexact HI
    isplitr; · iapply (inv_recv P K 6 (partner 6 c)); iexact HI
    isplitl [Hs6]; · iexact Hs6
    isplitl [Hd6]; · iexact Hd6
    isplitl [HO]; · iexact HO
    isplitl [HtS6]; · iexact HtS6
    isplitr; · iapply (reached_send (F := F) 6 c); iexact HR
    isplitl [HtR6]; · iexact HtR6
    iapply (reached_recv (F := F) 6 (partner 6 c)); iexact HR
  iintro ⟨HcS6, HO⟩
  sl_exec
  -- copy 4 is waited for, its landing added in, and the kept rows cut for copy 7
  iapply (wp_sendwait P c 4 (credit_src 4 c)) $$ [HcS4 HO HaS4]
  · isplitr; · iapply (inv_send P K 4 c); iexact HI
    isplitl [HcS4]; · iexact HcS4
    isplitl [HO]; · iexact HO
    isplitr; · iapply (mayWait_from c (.dma (sendS 4)) 7 (by rw [lv_send]; omega)); iexact Hlev
    iexact HaS4
  iintro ⟨HO, HaS4, #HrS4, -⟩
  sl_exec
  iapply (wp_recvwait P c 4 (credit_dst 4 c (recvS 4))) $$ [HcR4 HO HaR4]
  · isplitr; · iapply (inv_recv P K 4 c); iexact HI
    isplitl [HcR4]; · iexact HcR4
    isplitl [HO]; · iexact HO
    isplitr; · iapply (mayWait_from c (.dma (recvS 4)) 7 (by rw [lv_recv]; show (4 : ℕ) + 2 < 7 + 2; omega)); iexact Hlev
    iexact HaR4
  iintro ⟨HO, HaR4, #HrR4, HpR4⟩
  ihave Hp := (Entails.of_eq (recvPay_rs P c 4 (by decide))) $$ HpR4
  unfold dstAt srcAt
  icases Hp with ⟨⟨%fl4, %hfl4, Hl4⟩, ⟨%fp4, %hfp4, Hq4⟩⟩
  ihave Hl4' := (Entails.of_eq (slot_pts_4 c _ fl4)) $$ Hl4
  sl_exec
  have hA4 : (accM.slice (Rect.unit (s := S512x1024) (k0_off12 c) S32x1024.size (k0_off12_inb c)) (fun _ => rfl)).view.read (Elt F) (sound_body.sl.Hk4_w1 c a0 g0 g1 g2 g3 g4 fl1 fl4) = (accM.slice (Rect.unit (s := S512x1024) (k0_off12 c) S32x1024.size (k0_off12_inb c)) (fun _ => rfl)).view.read (Elt F) (W P (1 + 1) c) :=
    add_val_4 P c _ fl4 hK4 hfl4
  have hv7 := read_sub_of_read cc0_scratch0 _ _ (src_sub_7 c) _ _ hA4
  have hK7 := read_sub_of_read cc0_scratch0 _ _ (keep_sub_7 c) _ _ hA4
  ihave H := (Entails.of_eq (keep_pts_4 c _)) $$ Hk4
  ihave H := (acc_halve c _ (halves_7 c)).1 $$ H
  icases H with ⟨Hs, Hk⟩
  ihave Hs7 := (Entails.of_eq (src_pts_7 c _).symm) $$ Hs
  ihave Hk7 := (Entails.of_eq (keep_pts_7 c _).symm) $$ Hk
  iapply (wp_copyRS P c 7 (by decide) _ (dev11_eq c) _ e7 hv7 (owedFrom 8 c) (owedFrom_succ 7 c)) $$ [Hs7 Hd7 HO HtS7 HtR7]
  · isplitr; · iapply (inv_send P K 7 c); iexact HI
    isplitr; · iapply (inv_recv P K 7 (partner 7 c)); iexact HI
    isplitl [Hs7]; · iexact Hs7
    isplitl [Hd7]; · iexact Hd7
    isplitl [HO]; · iexact HO
    isplitl [HtS7]; · iexact HtS7
    isplitr; · iapply (reached_send (F := F) 7 c); iexact HR
    isplitl [HtR7]; · iexact HtR7
    iapply (reached_recv (F := F) 7 (partner 7 c)); iexact HR
  iintro ⟨HcS7, HO⟩
  sl_exec
  -- copy 5 is waited for, its landing added in, and the kept rows cut for copy 8
  iapply (wp_sendwait P c 5 (credit_src 5 c)) $$ [HcS5 HO HaS5]
  · isplitr; · iapply (inv_send P K 5 c); iexact HI
    isplitl [HcS5]; · iexact HcS5
    isplitl [HO]; · iexact HO
    isplitr; · iapply (mayWait_from c (.dma (sendS 5)) 8 (by rw [lv_send]; omega)); iexact Hlev
    iexact HaS5
  iintro ⟨HO, HaS5, #HrS5, -⟩
  sl_exec
  iapply (wp_recvwait P c 5 (credit_dst 5 c (recvS 5))) $$ [HcR5 HO HaR5]
  · isplitr; · iapply (inv_recv P K 5 c); iexact HI
    isplitl [HcR5]; · iexact HcR5
    isplitl [HO]; · iexact HO
    isplitr; · iapply (mayWait_from c (.dma (recvS 5)) 8 (by rw [lv_recv]; show (5 : ℕ) + 2 < 8 + 2; omega)); iexact Hlev
    iexact HaR5
  iintro ⟨HO, HaR5, #HrR5, HpR5⟩
  ihave Hp := (Entails.of_eq (recvPay_rs P c 5 (by decide))) $$ HpR5
  unfold dstAt srcAt
  icases Hp with ⟨⟨%fl5, %hfl5, Hl5⟩, ⟨%fp5, %hfp5, Hq5⟩⟩
  ihave Hl5' := (Entails.of_eq (slot_pts_5 c _ fl5)) $$ Hl5
  sl_exec
  have hA5 : (accM.slice (Rect.unit (s := S512x1024) (k0_off14 c) S32x1024.size (k0_off14_inb c)) (fun _ => rfl)).view.read (Elt F) (sound_body.sl.Hk5_w1 c a0 g0 g1 g2 g3 g4 fl2 fl5) = (accM.slice (Rect.unit (s := S512x1024) (k0_off14 c) S32x1024.size (k0_off14_inb c)) (fun _ => rfl)).view.read (Elt F) (W P (1 + 1) c) :=
    add_val_5 P c _ fl5 hK5 hfl5
  have hv8 := read_sub_of_read cc0_scratch0 _ _ (src_sub_8 c) _ _ hA5
  have hK8 := read_sub_of_read cc0_scratch0 _ _ (keep_sub_8 c) _ _ hA5
  ihave H := (Entails.of_eq (keep_pts_5 c _)) $$ Hk5
  ihave H := (acc_halve c _ (halves_8 c)).1 $$ H
  icases H with ⟨Hs, Hk⟩
  ihave Hs8 := (Entails.of_eq (src_pts_8 c _).symm) $$ Hs
  ihave Hk8 := (Entails.of_eq (keep_pts_8 c _).symm) $$ Hk
  iapply (wp_copyRS P c 8 (by decide) _ (dev12_eq c) _ e8 hv8 (owedFrom 9 c) (owedFrom_succ 8 c)) $$ [Hs8 Hd8 HO HtS8 HtR8]
  · isplitr; · iapply (inv_send P K 8 c); iexact HI
    isplitr; · iapply (inv_recv P K 8 (partner 8 c)); iexact HI
    isplitl [Hs8]; · iexact Hs8
    isplitl [Hd8]; · iexact Hd8
    isplitl [HO]; · iexact HO
    isplitl [HtS8]; · iexact HtS8
    isplitr; · iapply (reached_send (F := F) 8 c); iexact HR
    isplitl [HtR8]; · iexact HtR8
    iapply (reached_recv (F := F) 8 (partner 8 c)); iexact HR
  iintro ⟨HcS8, HO⟩
  sl_exec
  -- copy 6 is waited for and its landing added in; the kept rows, now final, go out by all-gather copy 9
  iapply (wp_sendwait P c 6 (credit_src 6 c)) $$ [HcS6 HO HaS6]
  · isplitr; · iapply (inv_send P K 6 c); iexact HI
    isplitl [HcS6]; · iexact HcS6
    isplitl [HO]; · iexact HO
    isplitr; · iapply (mayWait_from c (.dma (sendS 6)) 9 (by rw [lv_send]; omega)); iexact Hlev
    iexact HaS6
  iintro ⟨HO, HaS6, #HrS6, -⟩
  sl_exec
  iapply (wp_recvwait P c 6 (credit_dst 6 c (recvS 6))) $$ [HcR6 HO HaR6]
  · isplitr; · iapply (inv_recv P K 6 c); iexact HI
    isplitl [HcR6]; · iexact HcR6
    isplitl [HO]; · iexact HO
    isplitr; · iapply (mayWait_from c (.dma (recvS 6)) 9 (by rw [lv_recv]; show (6 : ℕ) + 2 < 9 + 2; omega)); iexact Hlev
    iexact HaR6
  iintro ⟨HO, HaR6, #HrR6, HpR6⟩
  ihave Hp := (Entails.of_eq (recvPay_rs P c 6 (by decide))) $$ HpR6
  unfold dstAt srcAt
  icases Hp with ⟨⟨%fl6, %hfl6, Hl6⟩, ⟨%fp6, %hfp6, Hq6⟩⟩
  ihave Hl6' := (Entails.of_eq (slot_pts_6 c _ fl6)) $$ Hl6
  sl_exec
  have hA6 : (accM.slice (Rect.unit (s := S512x1024) (k0_off16 c) S32x1024.size (k0_off16_inb c)) (fun _ => rfl)).view.read (Elt F) (sound_body.sl.Hk6_w1 c a0 g0 g1 g2 g3 g4 fl0 fl3 fl6) = (accM.slice (Rect.unit (s := S512x1024) (k0_off16 c) S32x1024.size (k0_off16_inb c)) (fun _ => rfl)).view.read (Elt F) (W P (2 + 1) c) :=
    add_val_6 P c _ fl6 hK6 hfl6
  have hv9 := (read_src9_eq_keep6 c _).trans (hA6.trans (read_src9_eq_keep6 c (W P 3 c)).symm)
  ihave H := (Entails.of_eq (keep_pts_6 c _)) $$ Hk6
  rw [rows_keep_6 c]
  ihave Hs9 := (Entails.of_eq (src_pts_9 c _).symm) $$ H
  ihave Hdd9 := (Entails.of_eq (as_dst_6 c fp6)) $$ Hq6
  iapply (wp_copyAG P c 9 (by decide) _ (dev13_eq c) _ fp6 hv9 (owedFrom 10 c) (owedFrom_succ 9 c)) $$ [Hs9 Hdd9 HO HtS9 HtR9]
  · isplitr; · iapply (inv_send P K 9 c); iexact HI
    isplitr; · iapply (inv_recv P K 9 (partner 9 c)); iexact HI
    isplitl [Hs9]; · iexact Hs9
    isplitl [Hdd9]; · iexact Hdd9
    isplitl [HO]; · iexact HO
    isplitl [HtS9]; · iexact HtS9
    isplitr; · iapply (reached_send (F := F) 9 c); iexact HR
    isplitl [HtR9]; · iexact HtR9
    iapply (reached_recv (F := F) 9 (partner 9 c)); iexact HR
  iintro ⟨HcS9, HO⟩
  sl_exec
  -- copy 7 is waited for and its landing added in; the kept rows, now final, go out by all-gather copy 10
  iapply (wp_sendwait P c 7 (credit_src 7 c)) $$ [HcS7 HO HaS7]
  · isplitr; · iapply (inv_send P K 7 c); iexact HI
    isplitl [HcS7]; · iexact HcS7
    isplitl [HO]; · iexact HO
    isplitr; · iapply (mayWait_from c (.dma (sendS 7)) 10 (by rw [lv_send]; omega)); iexact Hlev
    iexact HaS7
  iintro ⟨HO, HaS7, #HrS7, -⟩
  sl_exec
  iapply (wp_recvwait P c 7 (credit_dst 7 c (recvS 7))) $$ [HcR7 HO HaR7]
  · isplitr; · iapply (inv_recv P K 7 c); iexact HI
    isplitl [HcR7]; · iexact HcR7
    isplitl [HO]; · iexact HO
    isplitr; · iapply (mayWait_from c (.dma (recvS 7)) 10 (by rw [lv_recv]; show (7 : ℕ) + 2 < 10 + 2; omega)); iexact Hlev
    iexact HaR7
  iintro ⟨HO, HaR7, #HrR7, HpR7⟩
  ihave Hp := (Entails.of_eq (recvPay_rs P c 7 (by decide))) $$ HpR7
  unfold dstAt srcAt
  icases Hp with ⟨⟨%fl7, %hfl7, Hl7⟩, ⟨%fp7, %hfp7, Hq7⟩⟩
  ihave Hl7' := (Entails.of_eq (slot_pts_7 c _ fl7)) $$ Hl7
  sl_exec
  have hA7 : (accM.slice (Rect.unit (s := S512x1024) (k0_off17 c) S16x1024.size (k0_off17_inb c)) (fun _ => rfl)).view.read (Elt F) (sound_body.sl.Hk7_w1 c a0 g0 g1 g2 g3 g4 fl1 fl4 fl7) = (accM.slice (Rect.unit (s := S512x1024) (k0_off17 c) S16x1024.size (k0_off17_inb c)) (fun _ => rfl)).view.read (Elt F) (W P (2 + 1) c) :=
    add_val_7 P c _ fl7 hK7 hfl7
  have hv10 := (read_src10_eq_keep7 c _).trans (hA7.trans (read_src10_eq_keep7 c (W P 3 c)).symm)
  ihave H := (Entails.of_eq (keep_pts_7 c _)) $$ Hk7
  rw [rows_keep_7 c]
  ihave Hs10 := (Entails.of_eq (src_pts_10 c _).symm) $$ H
  ihave Hdd10 := (Entails.of_eq (as_dst_7 c fp7)) $$ Hq7
  iapply (wp_copyAG P c 10 (by decide) _ (dev14_eq c) _ fp7 hv10 (owedFrom 11 c) (owedFrom_succ 10 c)) $$ [Hs10 Hdd10 HO HtS10 HtR10]
  · isplitr; · iapply (inv_send P K 10 c); iexact HI
    isplitr; · iapply (inv_recv P K 10 (partner 10 c)); iexact HI
    isplitl [Hs10]; · iexact Hs10
    isplitl [Hdd10]; · iexact Hdd10
    isplitl [HO]; · iexact HO
    isplitl [HtS10]; · iexact HtS10
    isplitr; · iapply (reached_send (F := F) 10 c); iexact HR
    isplitl [HtR10]; · iexact HtR10
    iapply (reached_recv (F := F) 10 (partner 10 c)); iexact HR
  iintro ⟨HcS10, HO⟩
  sl_exec
  -- copy 8 is waited for and its landing added in; the kept rows, now final, go out by all-gather copy 11
  iapply (wp_sendwait P c 8 (credit_src 8 c)) $$ [HcS8 HO HaS8]
  · isplitr; · iapply (inv_send P K 8 c); iexact HI
    isplitl [HcS8]; · iexact HcS8
    isplitl [HO]; · iexact HO
    isplitr; · iapply (mayWait_from c (.dma (sendS 8)) 11 (by rw [lv_send]; omega)); iexact Hlev
    iexact HaS8
  iintro ⟨HO, HaS8, #HrS8, -⟩
  sl_exec
  iapply (wp_recvwait P c 8 (credit_dst 8 c (recvS 8))) $$ [HcR8 HO HaR8]
  · isplitr; · iapply (inv_recv P K 8 c); iexact HI
    isplitl [HcR8]; · iexact HcR8
    isplitl [HO]; · iexact HO
    isplitr; · iapply (mayWait_from c (.dma (recvS 8)) 11 (by rw [lv_recv]; show (8 : ℕ) + 2 < 11 + 2; omega)); iexact Hlev
    iexact HaR8
  iintro ⟨HO, HaR8, #HrR8, HpR8⟩
  ihave Hp := (Entails.of_eq (recvPay_rs P c 8 (by decide))) $$ HpR8
  unfold dstAt srcAt
  icases Hp with ⟨⟨%fl8, %hfl8, Hl8⟩, ⟨%fp8, %hfp8, Hq8⟩⟩
  ihave Hl8' := (Entails.of_eq (slot_pts_8 c _ fl8)) $$ Hl8
  sl_exec
  have hA8 : (accM.slice (Rect.unit (s := S512x1024) (k0_off18 c) S16x1024.size (k0_off18_inb c)) (fun _ => rfl)).view.read (Elt F) (sound_body.sl.Hk8_w1 c a0 g0 g1 g2 g3 g4 fl2 fl5 fl8) = (accM.slice (Rect.unit (s := S512x1024) (k0_off18 c) S16x1024.size (k0_off18_inb c)) (fun _ => rfl)).view.read (Elt F) (W P (2 + 1) c) :=
    add_val_8 P c _ fl8 hK8 hfl8
  have hv11 := (read_src11_eq_keep8 c _).trans (hA8.trans (read_src11_eq_keep8 c (W P 3 c)).symm)
  ihave H := (Entails.of_eq (keep_pts_8 c _)) $$ Hk8
  rw [rows_keep_8 c]
  ihave Hs11 := (Entails.of_eq (src_pts_11 c _).symm) $$ H
  ihave Hdd11 := (Entails.of_eq (as_dst_8 c fp8)) $$ Hq8
  iapply (wp_copyAG P c 11 (by decide) _ (dev15_eq c) _ fp8 hv11 (owedFrom 12 c) (owedFrom_succ 11 c)) $$ [Hs11 Hdd11 HO HtS11 HtR11]
  · isplitr; · iapply (inv_send P K 11 c); iexact HI
    isplitr; · iapply (inv_recv P K 11 (partner 11 c)); iexact HI
    isplitl [Hs11]; · iexact Hs11
    isplitl [Hdd11]; · iexact Hdd11
    isplitl [HO]; · iexact HO
    isplitl [HtS11]; · iexact HtS11
    isplitr; · iapply (reached_send (F := F) 11 c); iexact HR
    isplitl [HtR11]; · iexact HtR11
    iapply (reached_recv (F := F) 11 (partner 11 c)); iexact HR
  iintro ⟨HcS11, HO⟩
  sl_exec
  -- all-gather copy 9 is waited for: my rows back, the partner's rows landed; the two runs joined
  iapply (wp_sendwait P c 9 (credit_src 9 c)) $$ [HcS9 HO HaS9]
  · isplitr; · iapply (inv_send P K 9 c); iexact HI
    isplitl [HcS9]; · iexact HcS9
    isplitl [HO]; · iexact HO
    isplitr; · iapply (mayWait_from c (.dma (sendS 9)) 12 (by rw [lv_send]; omega)); iexact Hlev
    iexact HaS9
  iintro ⟨HO, HaS9, #HrS9, HpS9⟩
  ihave Hp := (Entails.of_eq (sendPay_ag P c 9 (by decide))) $$ HpS9
  unfold srcAt
  icases Hp with ⟨%fm9, %hfm9, Hm9⟩
  sl_exec
  iapply (wp_recvwait P c 9 (credit_dst 9 c (recvS 9))) $$ [HcR9 HO HaR9]
  · isplitr; · iapply (inv_recv P K 9 c); iexact HI
    isplitl [HcR9]; · iexact HcR9
    isplitl [HO]; · iexact HO
    isplitr; · iapply (mayWait_from c (.dma (recvS 9)) 12 (by rw [lv_recv]; show (9 : ℕ) + 2 < 12 + 2; omega)); iexact Hlev
    iexact HaR9
  iintro ⟨HO, HaR9, #HrR9, HpR9⟩
  ihave Hp := (Entails.of_eq (recvPay_ag P c 9 (by decide))) $$ HpR9
  unfold dstAt
  icases Hp with ⟨%fr9, %hfr9, Hr9⟩
  have hJ9 := join_read_9 P c fm9 fr9 hfm9 hfr9
  ihave H1 := (Entails.of_eq (mine_norm_9 c fm9)) $$ Hm9
  ihave H2 := (Entails.of_eq (recv_norm_9 c fr9)) $$ Hr9
  ihave H := (acc_join c fm9 fr9 (ag_halves_9 c)) $$ [H1 H2]
  · isplitl [H1] <;> iassumption
  ihave Hs12 := (Entails.of_eq (src_pts_12 c _).symm) $$ H
  ihave Hdd12 := (Entails.of_eq (as_dst_3 c fp3)) $$ Hq3
  sl_exec
  iapply (wp_copyAG P c 12 (by decide) _ (dev16_eq c) _ fp3 hJ9 (owedFrom 13 c) (owedFrom_succ 12 c)) $$ [Hs12 Hdd12 HO HtS12 HtR12]
  · isplitr; · iapply (inv_send P K 12 c); iexact HI
    isplitr; · iapply (inv_recv P K 12 (partner 12 c)); iexact HI
    isplitl [Hs12]; · iexact Hs12
    isplitl [Hdd12]; · iexact Hdd12
    isplitl [HO]; · iexact HO
    isplitl [HtS12]; · iexact HtS12
    isplitr; · iapply (reached_send (F := F) 12 c); iexact HR
    isplitl [HtR12]; · iexact HtR12
    iapply (reached_recv (F := F) 12 (partner 12 c)); iexact HR
  iintro ⟨HcS12, HO⟩
  sl_exec
  -- all-gather copy 10 is waited for: my rows back, the partner's rows landed; the two runs joined
  iapply (wp_sendwait P c 10 (credit_src 10 c)) $$ [HcS10 HO HaS10]
  · isplitr; · iapply (inv_send P K 10 c); iexact HI
    isplitl [HcS10]; · iexact HcS10
    isplitl [HO]; · iexact HO
    isplitr; · iapply (mayWait_from c (.dma (sendS 10)) 13 (by rw [lv_send]; omega)); iexact Hlev
    iexact HaS10
  iintro ⟨HO, HaS10, #HrS10, HpS10⟩
  ihave Hp := (Entails.of_eq (sendPay_ag P c 10 (by decide))) $$ HpS10
  unfold srcAt
  icases Hp with ⟨%fm10, %hfm10, Hm10⟩
  sl_exec
  iapply (wp_recvwait P c 10 (credit_dst 10 c (recvS 10))) $$ [HcR10 HO HaR10]
  · isplitr; · iapply (inv_recv P K 10 c); iexact HI
    isplitl [HcR10]; · iexact HcR10
    isplitl [HO]; · iexact HO
    isplitr; · iapply (mayWait_from c (.dma (recvS 10)) 13 (by rw [lv_recv]; show (10 : ℕ) + 2 < 13 + 2; omega)); iexact Hlev
    iexact HaR10
  iintro ⟨HO, HaR10, #HrR10, HpR10⟩
  ihave Hp := (Entails.of_eq (recvPay_ag P c 10 (by decide))) $$ HpR10
  unfold dstAt
  icases Hp with ⟨%fr10, %hfr10, Hr10⟩
  have hJ10 := join_read_10 P c fm10 fr10 hfm10 hfr10
  ihave H1 := (Entails.of_eq (mine_norm_10 c fm10)) $$ Hm10
  ihave H2 := (Entails.of_eq (recv_norm_10 c fr10)) $$ Hr10
  ihave H := (acc_join c fm10 fr10 (ag_halves_10 c)) $$ [H1 H2]
  · isplitl [H1] <;> iassumption
  ihave Hs13 := (Entails.of_eq (src_pts_13 c _).symm) $$ H
  ihave Hdd13 := (Entails.of_eq (as_dst_4 c fp4)) $$ Hq4
  sl_exec
  iapply (wp_copyAG P c 13 (by decide) _ (dev17_eq c) _ fp4 hJ10 (owedFrom 14 c) (owedFrom_succ 13 c)) $$ [Hs13 Hdd13 HO HtS13 HtR13]
  · isplitr; · iapply (inv_send P K 13 c); iexact HI
    isplitr; · iapply (inv_recv P K 13 (partner 13 c)); iexact HI
    isplitl [Hs13]; · iexact Hs13
    isplitl [Hdd13]; · iexact Hdd13
    isplitl [HO]; · iexact HO
    isplitl [HtS13]; · iexact HtS13
    isplitr; · iapply (reached_send (F := F) 13 c); iexact HR
    isplitl [HtR13]; · iexact HtR13
    iapply (reached_recv (F := F) 13 (partner 13 c)); iexact HR
  iintro ⟨HcS13, HO⟩
  sl_exec
  -- all-gather copy 11 is waited for: my rows back, the partner's rows landed; the two runs joined
  iapply (wp_sendwait P c 11 (credit_src 11 c)) $$ [HcS11 HO HaS11]
  · isplitr; · iapply (inv_send P K 11 c); iexact HI
    isplitl [HcS11]; · iexact HcS11
    isplitl [HO]; · iexact HO
    isplitr; · iapply (mayWait_from c (.dma (sendS 11)) 14 (by rw [lv_send]; omega)); iexact Hlev
    iexact HaS11
  iintro ⟨HO, HaS11, #HrS11, HpS11⟩
  ihave Hp := (Entails.of_eq (sendPay_ag P c 11 (by decide))) $$ HpS11
  unfold srcAt
  icases Hp with ⟨%fm11, %hfm11, Hm11⟩
  sl_exec
  iapply (wp_recvwait P c 11 (credit_dst 11 c (recvS 11))) $$ [HcR11 HO HaR11]
  · isplitr; · iapply (inv_recv P K 11 c); iexact HI
    isplitl [HcR11]; · iexact HcR11
    isplitl [HO]; · iexact HO
    isplitr; · iapply (mayWait_from c (.dma (recvS 11)) 14 (by rw [lv_recv]; show (11 : ℕ) + 2 < 14 + 2; omega)); iexact Hlev
    iexact HaR11
  iintro ⟨HO, HaR11, #HrR11, HpR11⟩
  ihave Hp := (Entails.of_eq (recvPay_ag P c 11 (by decide))) $$ HpR11
  unfold dstAt
  icases Hp with ⟨%fr11, %hfr11, Hr11⟩
  have hJ11 := join_read_11 P c fm11 fr11 hfm11 hfr11
  ihave H1 := (Entails.of_eq (mine_norm_11 c fm11)) $$ Hm11
  ihave H2 := (Entails.of_eq (recv_norm_11 c fr11)) $$ Hr11
  ihave H := (acc_join c fm11 fr11 (ag_halves_11 c)) $$ [H1 H2]
  · isplitl [H1] <;> iassumption
  ihave Hs14 := (Entails.of_eq (src_pts_14 c _).symm) $$ H
  ihave Hdd14 := (Entails.of_eq (as_dst_5 c fp5)) $$ Hq5
  sl_exec
  iapply (wp_copyAG P c 14 (by decide) _ (dev18_eq c) _ fp5 hJ11 (owedFrom 15 c) (owedFrom_succ 14 c)) $$ [Hs14 Hdd14 HO HtS14 HtR14]
  · isplitr; · iapply (inv_send P K 14 c); iexact HI
    isplitr; · iapply (inv_recv P K 14 (partner 14 c)); iexact HI
    isplitl [Hs14]; · iexact Hs14
    isplitl [Hdd14]; · iexact Hdd14
    isplitl [HO]; · iexact HO
    isplitl [HtS14]; · iexact HtS14
    isplitr; · iapply (reached_send (F := F) 14 c); iexact HR
    isplitl [HtR14]; · iexact HtR14
    iapply (reached_recv (F := F) 14 (partner 14 c)); iexact HR
  iintro ⟨HcS14, HO⟩
  sl_exec
  -- all-gather copy 12 is waited for: my rows back, the partner's rows landed; the two runs joined
  iapply (wp_sendwait P c 12 (credit_src 12 c)) $$ [HcS12 HO HaS12]
  · isplitr; · iapply (inv_send P K 12 c); iexact HI
    isplitl [HcS12]; · iexact HcS12
    isplitl [HO]; · iexact HO
    isplitr; · iapply (mayWait_from c (.dma (sendS 12)) 15 (by rw [lv_send]; omega)); iexact Hlev
    iexact HaS12
  iintro ⟨HO, HaS12, #HrS12, HpS12⟩
  ihave Hp := (Entails.of_eq (sendPay_ag P c 12 (by decide))) $$ HpS12
  unfold srcAt
  icases Hp with ⟨%fm12, %hfm12, Hm12⟩
  sl_exec
  iapply (wp_recvwait P c 12 (credit_dst 12 c (recvS 12))) $$ [HcR12 HO HaR12]
  · isplitr; · iapply (inv_recv P K 12 c); iexact HI
    isplitl [HcR12]; · iexact HcR12
    isplitl [HO]; · iexact HO
    isplitr; · iapply (mayWait_from c (.dma (recvS 12)) 15 (by rw [lv_recv]; show (12 : ℕ) + 2 < 15 + 2; omega)); iexact Hlev
    iexact HaR12
  iintro ⟨HO, HaR12, #HrR12, HpR12⟩
  ihave Hp := (Entails.of_eq (recvPay_ag P c 12 (by decide))) $$ HpR12
  unfold dstAt
  icases Hp with ⟨%fr12, %hfr12, Hr12⟩
  have hJ12 := join_read_12 P c fm12 fr12 hfm12 hfr12
  ihave H1 := (Entails.of_eq (mine_norm_12 c fm12)) $$ Hm12
  ihave H2 := (Entails.of_eq (recv_norm_12 c fr12)) $$ Hr12
  ihave H := (acc_join c fm12 fr12 (ag_halves_12 c)) $$ [H1 H2]
  · isplitl [H1] <;> iassumption
  ihave Hs15 := (Entails.of_eq (src_pts_15 c _).symm) $$ H
  ihave Hdd15 := (Entails.of_eq (as_dst_0 c fp0)) $$ Hq0
  sl_exec
  iapply (wp_copyAG P c 15 (by decide) _ (dev19_eq c) _ fp0 hJ12 (owedFrom 16 c) (owedFrom_succ 15 c)) $$ [Hs15 Hdd15 HO HtS15 HtR15]
  · isplitr; · iapply (inv_send P K 15 c); iexact HI
    isplitr; · iapply (inv_recv P K 15 (partner 15 c)); iexact HI
    isplitl [Hs15]; · iexact Hs15
    isplitl [Hdd15]; · iexact Hdd15
    isplitl [HO]; · iexact HO
    isplitl [HtS15]; · iexact HtS15
    isplitr; · iapply (reached_send (F := F) 15 c); iexact HR
    isplitl [HtR15]; · iexact HtR15
    iapply (reached_recv (F := F) 15 (partner 15 c)); iexact HR
  iintro ⟨HcS15, HO⟩
  sl_exec
  -- all-gather copy 13 is waited for: my rows back, the partner's rows landed; the two runs joined
  iapply (wp_sendwait P c 13 (credit_src 13 c)) $$ [HcS13 HO HaS13]
  · isplitr; · iapply (inv_send P K 13 c); iexact HI
    isplitl [HcS13]; · iexact HcS13
    isplitl [HO]; · iexact HO
    isplitr; · iapply (mayWait_from c (.dma (sendS 13)) 16 (by rw [lv_send]; omega)); iexact Hlev
    iexact HaS13
  iintro ⟨HO, HaS13, #HrS13, HpS13⟩
  ihave Hp := (Entails.of_eq (sendPay_ag P c 13 (by decide))) $$ HpS13
  unfold srcAt
  icases Hp with ⟨%fm13, %hfm13, Hm13⟩
  sl_exec
  iapply (wp_recvwait P c 13 (credit_dst 13 c (recvS 13))) $$ [HcR13 HO HaR13]
  · isplitr; · iapply (inv_recv P K 13 c); iexact HI
    isplitl [HcR13]; · iexact HcR13
    isplitl [HO]; · iexact HO
    isplitr; · iapply (mayWait_from c (.dma (recvS 13)) 16 (by rw [lv_recv]; show (13 : ℕ) + 2 < 16 + 2; omega)); iexact Hlev
    iexact HaR13
  iintro ⟨HO, HaR13, #HrR13, HpR13⟩
  ihave Hp := (Entails.of_eq (recvPay_ag P c 13 (by decide))) $$ HpR13
  unfold dstAt
  icases Hp with ⟨%fr13, %hfr13, Hr13⟩
  have hJ13 := join_read_13 P c fm13 fr13 hfm13 hfr13
  ihave H1 := (Entails.of_eq (mine_norm_13 c fm13)) $$ Hm13
  ihave H2 := (Entails.of_eq (recv_norm_13 c fr13)) $$ Hr13
  ihave H := (acc_join c fm13 fr13 (ag_halves_13 c)) $$ [H1 H2]
  · isplitl [H1] <;> iassumption
  ihave Hs16 := (Entails.of_eq (src_pts_16 c _).symm) $$ H
  ihave Hdd16 := (Entails.of_eq (as_dst_1 c fp1)) $$ Hq1
  sl_exec
  iapply (wp_copyAG P c 16 (by decide) _ (dev20_eq c) _ fp1 hJ13 (owedFrom 17 c) (owedFrom_succ 16 c)) $$ [Hs16 Hdd16 HO HtS16 HtR16]
  · isplitr; · iapply (inv_send P K 16 c); iexact HI
    isplitr; · iapply (inv_recv P K 16 (partner 16 c)); iexact HI
    isplitl [Hs16]; · iexact Hs16
    isplitl [Hdd16]; · iexact Hdd16
    isplitl [HO]; · iexact HO
    isplitl [HtS16]; · iexact HtS16
    isplitr; · iapply (reached_send (F := F) 16 c); iexact HR
    isplitl [HtR16]; · iexact HtR16
    iapply (reached_recv (F := F) 16 (partner 16 c)); iexact HR
  iintro ⟨HcS16, HO⟩
  sl_exec
  -- all-gather copy 14 is waited for: my rows back, the partner's rows landed; the two runs joined
  iapply (wp_sendwait P c 14 (credit_src 14 c)) $$ [HcS14 HO HaS14]
  · isplitr; · iapply (inv_send P K 14 c); iexact HI
    isplitl [HcS14]; · iexact HcS14
    isplitl [HO]; · iexact HO
    isplitr; · iapply (mayWait_from c (.dma (sendS 14)) 17 (by rw [lv_send]; omega)); iexact Hlev
    iexact HaS14
  iintro ⟨HO, HaS14, #HrS14, HpS14⟩
  ihave Hp := (Entails.of_eq (sendPay_ag P c 14 (by decide))) $$ HpS14
  unfold srcAt
  icases Hp with ⟨%fm14, %hfm14, Hm14⟩
  sl_exec
  iapply (wp_recvwait P c 14 (credit_dst 14 c (recvS 14))) $$ [HcR14 HO HaR14]
  · isplitr; · iapply (inv_recv P K 14 c); iexact HI
    isplitl [HcR14]; · iexact HcR14
    isplitl [HO]; · iexact HO
    isplitr; · iapply (mayWait_from c (.dma (recvS 14)) 17 (by rw [lv_recv]; show (14 : ℕ) + 2 < 17 + 2; omega)); iexact Hlev
    iexact HaR14
  iintro ⟨HO, HaR14, #HrR14, HpR14⟩
  ihave Hp := (Entails.of_eq (recvPay_ag P c 14 (by decide))) $$ HpR14
  unfold dstAt
  icases Hp with ⟨%fr14, %hfr14, Hr14⟩
  have hJ14 := join_read_14 P c fm14 fr14 hfm14 hfr14
  ihave H1 := (Entails.of_eq (mine_norm_14 c fm14)) $$ Hm14
  ihave H2 := (Entails.of_eq (recv_norm_14 c fr14)) $$ Hr14
  ihave H := (acc_join c fm14 fr14 (ag_halves_14 c)) $$ [H1 H2]
  · isplitl [H1] <;> iassumption
  ihave Hs17 := (Entails.of_eq (src_pts_17 c _).symm) $$ H
  ihave Hdd17 := (Entails.of_eq (as_dst_2 c fp2)) $$ Hq2
  sl_exec
  iapply (wp_copyAG P c 17 (by decide) _ (dev21_eq c) _ fp2 hJ14 (owedFrom 18 c) (owedFrom_succ 17 c)) $$ [Hs17 Hdd17 HO HtS17 HtR17]
  · isplitr; · iapply (inv_send P K 17 c); iexact HI
    isplitr; · iapply (inv_recv P K 17 (partner 17 c)); iexact HI
    isplitl [Hs17]; · iexact Hs17
    isplitl [Hdd17]; · iexact Hdd17
    isplitl [HO]; · iexact HO
    isplitl [HtS17]; · iexact HtS17
    isplitr; · iapply (reached_send (F := F) 17 c); iexact HR
    isplitl [HtR17]; · iexact HtR17
    iapply (reached_recv (F := F) 17 (partner 17 c)); iexact HR
  iintro ⟨HcS17, HO⟩
  sl_exec
  -- all-gather copy 15 is waited for: my rows back, the partner's rows landed; the two runs joined
  iapply (wp_sendwait P c 15 (credit_src 15 c)) $$ [HcS15 HO HaS15]
  · isplitr; · iapply (inv_send P K 15 c); iexact HI
    isplitl [HcS15]; · iexact HcS15
    isplitl [HO]; · iexact HO
    isplitr; · iapply (mayWait_from c (.dma (sendS 15)) 18 (by rw [lv_send]; omega)); iexact Hlev
    iexact HaS15
  iintro ⟨HO, HaS15, #HrS15, HpS15⟩
  ihave Hp := (Entails.of_eq (sendPay_ag P c 15 (by decide))) $$ HpS15
  unfold srcAt
  icases Hp with ⟨%fm15, %hfm15, Hm15⟩
  sl_exec
  iapply (wp_recvwait P c 15 (credit_dst 15 c (recvS 15))) $$ [HcR15 HO HaR15]
  · isplitr; · iapply (inv_recv P K 15 c); iexact HI
    isplitl [HcR15]; · iexact HcR15
    isplitl [HO]; · iexact HO
    isplitr; · iapply (mayWait_from c (.dma (recvS 15)) 18 (by rw [lv_recv]; show (15 : ℕ) + 2 < 18 + 2; omega)); iexact Hlev
    iexact HaR15
  iintro ⟨HO, HaR15, #HrR15, HpR15⟩
  ihave Hp := (Entails.of_eq (recvPay_ag P c 15 (by decide))) $$ HpR15
  unfold dstAt
  icases Hp with ⟨%fr15, %hfr15, Hr15⟩
  have hJ15 := join_read_15 P c fm15 fr15 hfm15 hfr15
  ihave H1 := (Entails.of_eq (mine_norm_15 c fm15)) $$ Hm15
  ihave H2 := (Entails.of_eq (recv_norm_15 c fr15)) $$ Hr15
  ihave H := (acc_join c fm15 fr15 (ag_halves_15 c)) $$ [H1 H2]
  · isplitl [H1] <;> iassumption
  ihave Hp0 := (Entails.of_eq (part_pts_0 c _).symm) $$ H
  sl_exec
  -- all-gather copy 16 is waited for: my rows back, the partner's rows landed; the two runs joined
  iapply (wp_sendwait P c 16 (credit_src 16 c)) $$ [HcS16 HO HaS16]
  · isplitr; · iapply (inv_send P K 16 c); iexact HI
    isplitl [HcS16]; · iexact HcS16
    isplitl [HO]; · iexact HO
    isplitr; · iapply (mayWait_from c (.dma (sendS 16)) 18 (by rw [lv_send]; omega)); iexact Hlev
    iexact HaS16
  iintro ⟨HO, HaS16, #HrS16, HpS16⟩
  ihave Hp := (Entails.of_eq (sendPay_ag P c 16 (by decide))) $$ HpS16
  unfold srcAt
  icases Hp with ⟨%fm16, %hfm16, Hm16⟩
  sl_exec
  iapply (wp_recvwait P c 16 (credit_dst 16 c (recvS 16))) $$ [HcR16 HO HaR16]
  · isplitr; · iapply (inv_recv P K 16 c); iexact HI
    isplitl [HcR16]; · iexact HcR16
    isplitl [HO]; · iexact HO
    isplitr; · iapply (mayWait_from c (.dma (recvS 16)) 18 (by rw [lv_recv]; show (16 : ℕ) + 2 < 18 + 2; omega)); iexact Hlev
    iexact HaR16
  iintro ⟨HO, HaR16, #HrR16, HpR16⟩
  ihave Hp := (Entails.of_eq (recvPay_ag P c 16 (by decide))) $$ HpR16
  unfold dstAt
  icases Hp with ⟨%fr16, %hfr16, Hr16⟩
  have hJ16 := join_read_16 P c fm16 fr16 hfm16 hfr16
  ihave H1 := (Entails.of_eq (mine_norm_16 c fm16)) $$ Hm16
  ihave H2 := (Entails.of_eq (recv_norm_16 c fr16)) $$ Hr16
  ihave H := (acc_join c fm16 fr16 (ag_halves_16 c)) $$ [H1 H2]
  · isplitl [H1] <;> iassumption
  ihave Hp1 := (Entails.of_eq (part_pts_1 c _).symm) $$ H
  sl_exec
  -- all-gather copy 17 is waited for: my rows back, the partner's rows landed; the two runs joined
  iapply (wp_sendwait P c 17 (credit_src 17 c)) $$ [HcS17 HO HaS17]
  · isplitr; · iapply (inv_send P K 17 c); iexact HI
    isplitl [HcS17]; · iexact HcS17
    isplitl [HO]; · iexact HO
    isplitr; · iapply (mayWait_from c (.dma (sendS 17)) 18 (by rw [lv_send]; omega)); iexact Hlev
    iexact HaS17
  iintro ⟨HO, HaS17, #HrS17, HpS17⟩
  ihave Hp := (Entails.of_eq (sendPay_ag P c 17 (by decide))) $$ HpS17
  unfold srcAt
  icases Hp with ⟨%fm17, %hfm17, Hm17⟩
  sl_exec
  iapply (wp_recvwait P c 17 (credit_dst 17 c (recvS 17))) $$ [HcR17 HO HaR17]
  · isplitr; · iapply (inv_recv P K 17 c); iexact HI
    isplitl [HcR17]; · iexact HcR17
    isplitl [HO]; · iexact HO
    isplitr; · iapply (mayWait_from c (.dma (recvS 17)) 18 (by rw [lv_recv]; show (17 : ℕ) + 2 < 18 + 2; omega)); iexact Hlev
    iexact HaR17
  iintro ⟨HO, HaR17, #HrR17, HpR17⟩
  ihave Hp := (Entails.of_eq (recvPay_ag P c 17 (by decide))) $$ HpR17
  unfold dstAt
  icases Hp with ⟨%fr17, %hfr17, Hr17⟩
  have hJ17 := join_read_17 P c fm17 fr17 hfm17 hfr17
  ihave H1 := (Entails.of_eq (mine_norm_17 c fm17)) $$ Hm17
  ihave H2 := (Entails.of_eq (recv_norm_17 c fr17)) $$ Hr17
  ihave H := (acc_join c fm17 fr17 (ag_halves_17 c)) $$ [H1 H2]
  · isplitl [H1] <;> iassumption
  ihave Hp2 := (Entails.of_eq (part_pts_2 c _).symm) $$ H
  -- the accumulator whole again, at the all-gathered contents
  ihave Hw := (acc_back c (A P 3 c) _ _ _ hJ15 hJ16 hJ17) $$ [Hp0 Hp1 Hp2]
  · isplitl [Hp0]; · iexact Hp0
    isplitl [Hp1] <;> iassumption
  icases Hw with ⟨%fa, %hfa, Hacc⟩
  subst hfa
  ihave Hacc' := (Entails.of_eq (held_eq c cc0_scratch0 _)) $$ Hacc
  sl_exec
  -- the thirty-six own cells are closed: their counters are at zero
  imod (close_all_chain P K c) $$ [HaS0 HaR0 HaS1 HaR1 HaS2 HaR2 HaS3 HaR3 HaS4 HaR4 HaS5 HaR5 HaS6 HaR6 HaS7 HaR7 HaS8 HaR8 HaS9 HaR9 HaS10 HaR10 HaS11 HaR11 HaS12 HaR12 HaS13 HaR13 HaS14 HaR14 HaS15 HaR15 HaS16 HaR16 HaS17 HaR17] with Hz
  · isplitr; · iexact HI
    isplitl [HaS0 HaR0]; · (isplitl [HaS0] <;> iassumption)
    isplitl [HaS1 HaR1]; · (isplitl [HaS1] <;> iassumption)
    isplitl [HaS2 HaR2]; · (isplitl [HaS2] <;> iassumption)
    isplitl [HaS3 HaR3]; · (isplitl [HaS3] <;> iassumption)
    isplitl [HaS4 HaR4]; · (isplitl [HaS4] <;> iassumption)
    isplitl [HaS5 HaR5]; · (isplitl [HaS5] <;> iassumption)
    isplitl [HaS6 HaR6]; · (isplitl [HaS6] <;> iassumption)
    isplitl [HaS7 HaR7]; · (isplitl [HaS7] <;> iassumption)
    isplitl [HaS8 HaR8]; · (isplitl [HaS8] <;> iassumption)
    isplitl [HaS9 HaR9]; · (isplitl [HaS9] <;> iassumption)
    isplitl [HaS10 HaR10]; · (isplitl [HaS10] <;> iassumption)
    isplitl [HaS11 HaR11]; · (isplitl [HaS11] <;> iassumption)
    isplitl [HaS12 HaR12]; · (isplitl [HaS12] <;> iassumption)
    isplitl [HaS13 HaR13]; · (isplitl [HaS13] <;> iassumption)
    isplitl [HaS14 HaR14]; · (isplitl [HaS14] <;> iassumption)
    isplitl [HaS15 HaR15]; · (isplitl [HaS15] <;> iassumption)
    isplitl [HaS16 HaR16]; · (isplitl [HaS16] <;> iassumption)
    isplitl [HaS17] <;> iassumption
  rw [wp_ret]; imodintro
  iapply Hk
  unfold bodyPost Φ₁ scratch
  isplitl [Hacc' Hl0' Hl1' Hl2' Hl3' Hl4' Hl5' Hl6' Hl7' Hl8' Hz]
  · isplitl [Hacc' Hl0' Hl1' Hl2' Hl3' Hl4' Hl5' Hl6' Hl7' Hl8']
    · isplitl [Hacc']
      · iexists (A P 3 c); iapply (Entails.of_eq (held_eq c cc0_scratch0 (A P 3 c)).symm); iexact Hacc'
      isplitl [Hl0' Hl1' Hl2']
      · iapply (comm0_back_view c fl0 fl1 fl2); isplitl [Hl0']; · iexact Hl0'
        isplitl [Hl1'] <;> iassumption
      isplitl [Hl3' Hl4' Hl5']
      · iapply (comm1_back_view c fl3 fl4 fl5); isplitl [Hl3']; · iexact Hl3'
        isplitl [Hl4'] <;> iassumption
      · iapply (comm2_back_view c fl6 fl7 fl8); isplitl [Hl6']; · iexact Hl6'
        isplitl [Hl7'] <;> iassumption
    · iexact Hz
  isplitl [HO]
  · iapply (owesAt_done m ρ P c _); iexact HO
  isplitl [Hx']; · iapply (stg_of_held c cc0_stg0_0 g0 _ (hg0.trans (before_0 m ρ P c d0))); iexact Hx'
  isplitl [Hwq']; · iapply (stg_of_held c cc0_stg1_0 g1 _ (hg1.trans (before_1 m ρ P c d1))); iexact Hwq'
  isplitl [Hwk']; · iapply (stg_of_held c cc0_stg2_0 g2 _ (hg2.trans (before_2 m ρ P c d2))); iexact Hwk'
  isplitl [Hwv']; · iapply (stg_of_held c cc0_stg3_0 g3 _ (hg3.trans (before_3 m ρ P c d3))); iexact Hwv'
  isplitl [Hwo']; · iapply (stg_of_held c cc0_stg4_0 g4 _ (hg4.trans (before_4 m ρ P c d4))); iexact Hwo'
  iapply (stg_of_held c cc0_stg5_0 _ _ (out_content_outAt P c g5)); iexact Hout'

/-- The pipeline's body obligation at this kernel's one grid point, for the device's product read off the memory at launch. -/
theorem body_obligation (c : Dev nD) :
    BodyObligation (dats (F := F) m ρ (Pc m) 0 c) (defs₀ (F := F)) 𝒱₀ () Set.univ := fun t => by
  rw [fin_N0 t]
  rw [bigSep_W0, bigSep_W0]
  simp only [owns_whole_eq]
  show bodyPre m ρ (Pc m) c ⊢ wp frame (wpE (defs₀ (F := F)) 𝒱₀ c none) Set.univ
          (cc0_body (Memref.whole cc0_stg0_0) (Memref.isWhole_whole _) (Memref.whole cc0_stg1_0) (Memref.isWhole_whole _) (Memref.whole cc0_stg2_0) (Memref.isWhole_whole _)
            (Memref.whole cc0_stg3_0) (Memref.isWhole_whole _) (Memref.whole cc0_stg4_0) (Memref.isWhole_whole _) (Memref.whole cc0_stg5_0) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) cc0_scratch4 cc0_scratch5) (fun _ => bodyPost m ρ (Pc m) c)
  iintro H
  iapply (sound_body m ρ (Pc m) c rfl (fun _ => bodyPost m ρ (Pc m) c))
  isplitl [H]; · iexact H
  iintro H; iexact H

/-- info: 'Cert.KernelIdeal.Coll.body_obligation' depends on axioms: [propext, Classical.choice, Quot.sound] -/
#guard_msgs in #print axioms body_obligation

end Cert.KernelIdeal.Coll

end
-- ==== Proof.lean ====
/- The certificate's five claims for the eight-device attention kernel against its one-device reference.
   The reference has no kernel: its frame is its run with the result dropped. No operation was rewritten when the
   kernel was idealized, so the idealization claim is the trivial proposition. The three claims about the kernel
   — that every fair interleaving of the eight devices' threads ends, faults nowhere and leaves the arguments
   unchanged, at the word level and at the extended reals, and that every device's result is the reference's —
   rest on one run of the kernel on all devices: the entry handshake, eighteen remote copies per device (a
   reduce-scatter by recursive halving along three independent pairings of the devices, then the matching
   all-gather), and the sum over the eight column groups they compute. The run is assembled from one device's body
   stepped once at a symbolic device, at either float instance; the value claim reads the devices' common result off the
   all-gathered accumulator, which is the sum of the eight devices' products, each the reference's sum restricted to the
   device's eight heads. -/
import proofs.«900423_g7700000000000424_dist_attn_self_mha_htp_b1_sq512_skv512_d1024_hq8_dh128_v7x_i8_f32_1_alg».proof.Defs
import proofs.«900423_g7700000000000424_dist_attn_self_mha_htp_b1_sq512_skv512_d1024_hq8_dh128_v7x_i8_f32_1_alg».proof.Proof.Gen.Kernel
import proofs.«900423_g7700000000000424_dist_attn_self_mha_htp_b1_sq512_skv512_d1024_hq8_dh128_v7x_i8_f32_1_alg».proof.Proof.Gen.Kernel.Skeleton
import proofs.«900423_g7700000000000424_dist_attn_self_mha_htp_b1_sq512_skv512_d1024_hq8_dh128_v7x_i8_f32_1_alg».proof.Proof.Gen.Kernel.Launch
import proofs.«900423_g7700000000000424_dist_attn_self_mha_htp_b1_sq512_skv512_d1024_hq8_dh128_v7x_i8_f32_1_alg».proof.Proof.Gen.Kernel.Points
import proofs.«900423_g7700000000000424_dist_attn_self_mha_htp_b1_sq512_skv512_d1024_hq8_dh128_v7x_i8_f32_1_alg».proof.Proof.Gen.Kernel.Frame
import proofs.«900423_g7700000000000424_dist_attn_self_mha_htp_b1_sq512_skv512_d1024_hq8_dh128_v7x_i8_f32_1_alg».proof.Proof.Gen.KernelIdeal
import proofs.«900423_g7700000000000424_dist_attn_self_mha_htp_b1_sq512_skv512_d1024_hq8_dh128_v7x_i8_f32_1_alg».proof.Proof.Gen.KernelIdeal.Skeleton
import proofs.«900423_g7700000000000424_dist_attn_self_mha_htp_b1_sq512_skv512_d1024_hq8_dh128_v7x_i8_f32_1_alg».proof.Proof.Gen.KernelIdeal.Launch
import proofs.«900423_g7700000000000424_dist_attn_self_mha_htp_b1_sq512_skv512_d1024_hq8_dh128_v7x_i8_f32_1_alg».proof.Proof.Gen.KernelIdeal.Points
import proofs.«900423_g7700000000000424_dist_attn_self_mha_htp_b1_sq512_skv512_d1024_hq8_dh128_v7x_i8_f32_1_alg».proof.Proof.Gen.KernelIdeal.Frame
import proofs.«900423_g7700000000000424_dist_attn_self_mha_htp_b1_sq512_skv512_d1024_hq8_dh128_v7x_i8_f32_1_alg».proof.Proof.Gen.ReferenceIdeal
import proofs.«900423_g7700000000000424_dist_attn_self_mha_htp_b1_sq512_skv512_d1024_hq8_dh128_v7x_i8_f32_1_alg».proof.Proof.Gen.Pre_finite_inputs_Kernel
import proofs.«900423_g7700000000000424_dist_attn_self_mha_htp_b1_sq512_skv512_d1024_hq8_dh128_v7x_i8_f32_1_alg».proof.Proof.Gen.Pre_finite_inputs_ReferenceIdeal
import proofs.«900423_g7700000000000424_dist_attn_self_mha_htp_b1_sq512_skv512_d1024_hq8_dh128_v7x_i8_f32_1_alg».proof.Proof.Gen.ReferenceIdeal.Run
import proofs.«900423_g7700000000000424_dist_attn_self_mha_htp_b1_sq512_skv512_d1024_hq8_dh128_v7x_i8_f32_1_alg».proof.Proof.Gen.ReferenceIdeal.Read
import proofs.«900423_g7700000000000424_dist_attn_self_mha_htp_b1_sq512_skv512_d1024_hq8_dh128_v7x_i8_f32_1_alg».proof.Proof.Kernel.FrameClaim
import proofs.«900423_g7700000000000424_dist_attn_self_mha_htp_b1_sq512_skv512_d1024_hq8_dh128_v7x_i8_f32_1_alg».proof.Proof.Kernel.Body
import proofs.«900423_g7700000000000424_dist_attn_self_mha_htp_b1_sq512_skv512_d1024_hq8_dh128_v7x_i8_f32_1_alg».proof.Proof.KernelIdeal.Claims
import proofs.«900423_g7700000000000424_dist_attn_self_mha_htp_b1_sq512_skv512_d1024_hq8_dh128_v7x_i8_f32_1_alg».proof.Proof.KernelIdeal.Body
import Idealize.ShloMosaic.Adequacy
import Idealize.ShloMosaic.Init

noncomputable section

namespace Cert.Proof

open Idealize.ShloMosaic Idealize.SL.Sem Cert.Kernel

/-- The reference runs, faults nowhere and leaves its arguments unchanged: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- No operation was rewritten by the idealization: nothing to preserve. -/
theorem preserves : Cert.preserves_Kernel_KernelIdeal := trivial

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  Cert.Kernel.Coll.frame_Kernel_of_body (fun m ρ c => Cert.Kernel.Coll.body_obligation m ρ c),
  Cert.KernelIdeal.Coll.frame_KernelIdeal_of_body (fun m ρ c => Cert.KernelIdeal.Coll.body_obligation m ρ c),
  frame_ri, preserves,
  Cert.KernelIdeal.Coll.algebraic_of_body (fun m ρ c => Cert.KernelIdeal.Coll.body_obligation m ρ c)⟩

end Cert.Proof

end
